-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S100000x128 : Shape := ⟨2, ![100000, 128]⟩
abbrev S512x128 : Shape := ⟨2, ![512, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S1024x200 : S_.BroadcastsInDim S1024x200 (![] : Fin 0 → Fin S1024x200.rank)
  reducesTo_S1024x200_S_d0_1 : S1024x200.ReducesTo [0, 1] S_

variable [Facts]

def fn_part1 {F : FTy → Type} [FloatOps F] (main_arg0 : IVec S1024x200 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S1024x200 32 := broadcastInDim S1024x200 ![] bcast_S_S1024x200 main_c_6
  let main_v20 : IVec S1024x200 1 := cmpi .sge main_arg0 main_v19
  let main_c_7 : IVec S_ 32 := constantI S_ 32 99999#32
  let main_v21 : IVec S1024x200 32 := broadcastInDim S1024x200 ![] bcast_S_S1024x200 main_c_7
  let main_v22 : IVec S1024x200 1 := cmpi .sle main_arg0 main_v21
  let main_v23 : IVec S1024x200 1 := andi main_v20 main_v22
  let main_c_8 : IVec S_ 1 := constantI S_ 1 1#1
  let main_v24 : IVec S_ 1 := (fun x v => Host.reduce IntOp.andi x v reducesTo_S1024x200_S_d0_1 h_S_) main_v23 main_c_8
  let main_v25 : IVec S_ 1 := andi main_v18 main_v24
  main_v25

def fn {F : FTy → Type} [FloatOps F] (main_arg0 : IVec S1024x200 32) (main_arg1 : FVec F S100000x128 .f32) (main_arg2 : FVec F S512x128 .f32) (main_arg3 : FVec F S128 .f32) (main_arg4 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_v13 main_v16
-- ==== Kernel.lean ====
abbrev S1024x200 : Shape := ⟨2, ![1024, 200]⟩
abbrev S100000x128 : Shape := ⟨2, ![100000, 128]⟩
abbrev S512x128 : Shape := ⟨2, ![512, 128]⟩
abbrev S128 : Shape := ⟨1, ![128]⟩
abbrev S32x50x128 : Shape := ⟨3, ![32, 50, 128]⟩
abbrev S204800x128 : Shape := ⟨2, ![204800, 128]⟩
abbrev S50x128 : Shape := ⟨2, ![50, 128]⟩
abbrev S128x128 : Shape := ⟨2, ![128, 128]⟩
abbrev S_ : Shape := ⟨0, ![]⟩
abbrev S1x50x128 : Shape := ⟨3, ![1, 50, 128]⟩
abbrev S1x128 : Shape := ⟨2, ![1, 128]⟩
abbrev S1024x200x128 : Shape := ⟨3, ![1024, 200, 128]⟩
abbrev S200x128 : Shape := ⟨2, ![200, 128]⟩
abbrev S64x200x128 : Shape := ⟨3, ![64, 200, 128]⟩
abbrev S1x200x128 : Shape := ⟨3, ![1, 200, 128]⟩
abbrev S64x200 : Shape := ⟨2, ![64, 200]⟩
abbrev S64x200x1 : Shape := ⟨3, ![64, 200, 1]⟩
abbrev S1x1x128 : Shape := ⟨3, ![1, 1, 128]⟩

abbrev nBuf : Table → Nat
  | .hbm => 12
  | .local .tc .vmem => 7
  | .local .scVector .vmem => 8
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S512x128, .f32⟩
  | .hbm, ⟨3, _⟩ => ⟨S128, .f32⟩
  | .hbm, ⟨4, _⟩ => ⟨S128, .f32⟩
  | .hbm, ⟨5, _⟩ => ⟨S32x50x128, .i32⟩
  | .hbm, ⟨6, _⟩ => ⟨S204800x128, .f32⟩
  | .hbm, ⟨7, _⟩ => ⟨S1024x200x128, .f32⟩
  | .hbm, ⟨8, _⟩ => ⟨S200x128, .f32⟩
  | .hbm, ⟨9, _⟩ => ⟨S1x128, .f32⟩
  | .hbm, ⟨10, _⟩ => ⟨S1x128, .f32⟩
  | .hbm, ⟨11, _⟩ => ⟨S1024x200x128, .f32⟩
  | .local .tc .vmem, ⟨0, _⟩ => ⟨S64x200x128, .f32⟩
  | .local .tc .vmem, ⟨1, _⟩ => ⟨S64x200x128, .f32⟩
  | .local .tc .vmem, ⟨2, _⟩ => ⟨S200x128, .f32⟩
  | .local .tc .vmem, ⟨3, _⟩ => ⟨S1x128, .f32⟩
  | .local .tc .vmem, ⟨4, _⟩ => ⟨S1x128, .f32⟩
  | .local .tc .vmem, ⟨5, _⟩ => ⟨S64x200x128, .f32⟩
  | .local .tc .vmem, ⟨6, _⟩ => ⟨S64x200x128, .f32⟩
  | .local .scVector .vmem, ⟨0, _⟩ => ⟨S50x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_arg1_scv : Ref sig .scVector := ⟨.hbm, 1, rfl⟩
abbrev main_v0_scv : Ref sig .scVector := ⟨.hbm, 5, rfl⟩
abbrev main_v1_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg4_1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem4_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_849_r0 : BitVec 32 := 0#32
  let c0_i32_850_r0 : BitVec 32 := 0#32
  ![v1.toNat, 0, 0]
def k0_off2 (i : grid0.Coords) (c0_i32_20 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v20 : BitVec 32 := Scalar.muli v1 c50_i32
  let v21 : BitVec 32 := Scalar.addi v20 c0_i32_20
  let c128_i32 : BitVec 32 := 128#32
  let v22 : BitVec 32 := Scalar.muli v21 c128_i32
  let c0_i32_21 : BitVec 32 := 0#32
  ![v22.toNat, 0]
abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S200x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x200_S32x50x128 : S1024x200.ShapeCasts S32x50x128
  squeezes_S1x50x128_S50x128 : S1x50x128.Squeezes S50x128
  inb_S50x128_S1x128_0_0 : ∀ a, (![0, 0] : Fin 2 → Nat) a + S1x128.size a ≤ S50x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S50x128_S1x128_1_0 : ∀ a, (![1, 0] : Fin 2 → Nat) a + S1x128.size a ≤ S50x128.size a
  inb_S50x128_S1x128_2_0 : ∀ a, (![2, 0] : Fin 2 → Nat) a + S1x128.size a ≤ S50x128.size a
  inb_S50x128_S1x128_3_0 : ∀ a, (![3, 0] : Fin 2 → Nat) a + S1x128.size a ≤ S50x128.size a
  inb_S50x128_S1x128_4_0 : ∀ a, (![4, 0] : Fin 2 → Nat) a + S1x128.size a ≤ S50x128.size a
  inb_S50x128_S1x128_5_0 : ∀ a, (![5, 0] : Fin 2 → Nat) a + S1x128.size a ≤ S50x128.size a
  inb_S50x128_S1x128_6_0 : ∀ a, (![6, 0] : Fin 2 → Nat) a + S1x128.size a ≤ S50x128.size a
  inb_S50x128_S1x128_7_0 : ∀ a, (![7, 0] : Fin 2 → Nat) a + S1x128.size a ≤ S50x128.size a
  inb_S50x128_S1x128_8_0 : ∀ a, (![8, 0] : Fin 2 → Nat) a + S1x128.size a ≤ S50x128.size a
  inb_S50x128_S1x128_9_0 : ∀ a, (![9, 0] : Fin 2 → Nat) a + S1x128.size a ≤ S50x128.size a
  inb_S50x128_S1x128_10_0 : ∀ a, (![10, 0] : Fin 2 → Nat) a + S1x128.size a ≤ S50x128.size a
  inb_S50x128_S1x128_11_0 : ∀ a, (![11, 0] : Fin 2 → Nat) a + S1x128.size a ≤ S50x128.size a
  inb_S50x128_S1x128_12_0 : ∀ a, (![12, 0] : Fin 2 → Nat) a + S1x128.size a ≤ S50x128.size a
  inb_S50x128_S1x128_13_0 : ∀ a, (![13, 0] : Fin 2 → Nat) a + S1x128.size a ≤ S50x128.size a
  inb_S50x128_S1x128_14_0 : ∀ a, (![14, 0] : Fin 2 → Nat) a + S1x128.size a ≤ S50x128.size a
  inb_S50x128_S1x128_15_0 : ∀ a, (![15, 0] : Fin 2 → Nat) a + S1x128.size a ≤ S50x128.size a
  inb_S50x128_S1x128_16_0 : ∀ a, (![16, 0] : Fin 2 → Nat) a + S1x128.size a ≤ S50x128.size a
  inb_S50x128_S1x128_17_0 : ∀ a, (![17, 0] : Fin 2 → Nat) a + S1x128.size a ≤ S50x128.size a
  inb_S50x128_S1x128_18_0 : ∀ a, (![18, 0] : Fin 2 → Nat) a + S1x128.size a ≤ S50x128.size a
  inb_S50x128_S1x128_19_0 : ∀ a, (![19, 0] : Fin 2 → Nat) a + S1x128.size a ≤ S50x128.size a
  inb_S50x128_S1x128_20_0 : ∀ a, (![20, 0] : Fin 2 → Nat) a + S1x128.size a ≤ S50x128.size a
  inb_S50x128_S1x128_21_0 : ∀ a, (![21, 0] : Fin 2 → Nat) a + S1x128.size a ≤ S50x128.size a
  inb_S50x128_S1x128_22_0 : ∀ a, (![22, 0] : Fin 2 → Nat) a + S1x128.size a ≤ S50x128.size a
  inb_S50x128_S1x128_23_0 : ∀ a, (![23, 0] : Fin 2 → Nat) a + S1x128.size a ≤ S50x128.size a
  inb_S50x128_S1x128_24_0 : ∀ a, (![24, 0] : Fin 2 → Nat) a + S1x128.size a ≤ S50x128.size a
  inb_S50x128_S1x128_25_0 : ∀ a, (![25, 0] : Fin 2 → Nat) a + S1x128.size a ≤ S50x128.size a
  inb_S50x128_S1x128_26_0 : ∀ a, (![26, 0] : Fin 2 → Nat) a + S1x128.size a ≤ S50x128.size a
  inb_S50x128_S1x128_27_0 : ∀ a, (![27, 0] : Fin 2 → Nat) a + S1x128.size a ≤ S50x128.size a
  inb_S50x128_S1x128_28_0 : ∀ a, (![28, 0] : Fin 2 → Nat) a + S1x128.size a ≤ S50x128.size a
  inb_S50x128_S1x128_29_0 : ∀ a, (![29, 0] : Fin 2 → Nat) a + S1x128.size a ≤ S50x128.size a
  inb_S50x128_S1x128_30_0 : ∀ a, (![30, 0] : Fin 2 → Nat) a + S1x128.size a ≤ S50x128.size a
  inb_S50x128_S1x128_31_0 : ∀ a, (![31, 0] : Fin 2 → Nat) a + S1x128.size a ≤ S50x128.size a
  inb_S50x128_S1x128_32_0 : ∀ a, (![32, 0] : Fin 2 → Nat) a + S1x128.size a ≤ S50x128.size a
  inb_S50x128_S1x128_33_0 : ∀ a, (![33, 0] : Fin 2 → Nat) a + S1x128.size a ≤ S50x128.size a
  inb_S50x128_S1x128_34_0 : ∀ a, (![34, 0] : Fin 2 → Nat) a + S1x128.size a ≤ S50x128.size a
  inb_S50x128_S1x128_35_0 : ∀ a, (![35, 0] : Fin 2 → Nat) a + S1x128.size a ≤ S50x128.size a
  inb_S50x128_S1x128_36_0 : ∀ a, (![36, 0] : Fin 2 → Nat) a + S1x128.size a ≤ S50x128.size a
  inb_S50x128_S1x128_37_0 : ∀ a, (![37, 0] : Fin 2 → Nat) a + S1x128.size a ≤ S50x128.size a
  inb_S50x128_S1x128_38_0 : ∀ a, (![38, 0] : Fin 2 → Nat) a + S1x128.size a ≤ S50x128.size a
  inb_S50x128_S1x128_39_0 : ∀ a, (![39, 0] : Fin 2 → Nat) a + S1x128.size a ≤ S50x128.size a
  inb_S50x128_S1x128_40_0 : ∀ a, (![40, 0] : Fin 2 → Nat) a + S1x128.size a ≤ S50x128.size a
  inb_S50x128_S1x128_41_0 : ∀ a, (![41, 0] : Fin 2 → Nat) a + S1x128.size a ≤ S50x128.size a
  inb_S50x128_S1x128_42_0 : ∀ a, (![42, 0] : Fin 2 → Nat) a + S1x128.size a ≤ S50x128.size a
  inb_S50x128_S1x128_43_0 : ∀ a, (![43, 0] : Fin 2 → Nat) a + S1x128.size a ≤ S50x128.size a
  inb_S50x128_S1x128_44_0 : ∀ a, (![44, 0] : Fin 2 → Nat) a + S1x128.size a ≤ S50x128.size a
  inb_S50x128_S1x128_45_0 : ∀ a, (![45, 0] : Fin 2 → Nat) a + S1x128.size a ≤ S50x128.size a
  inb_S50x128_S1x128_46_0 : ∀ a, (![46, 0] : Fin 2 → Nat) a + S1x128.size a ≤ S50x128.size a
  inb_S50x128_S1x128_47_0 : ∀ a, (![47, 0] : Fin 2 → Nat) a + S1x128.size a ≤ S50x128.size a
  inb_S50x128_S1x128_48_0 : ∀ a, (![48, 0] : Fin 2 → Nat) a + S1x128.size a ≤ S50x128.size a
  inb_S50x128_S1x128_49_0 : ∀ a, (![49, 0] : Fin 2 → Nat) a + S1x128.size a ≤ S50x128.size a
  shapeCasts_S204800x128_S1024x200x128 : S204800x128.ShapeCasts S1024x200x128
  slices_S512x128_S200x128_0_0 : S512x128.Slices ![0, 0] S200x128
  shapeCasts_S128_S1x128 : S128.ShapeCasts S1x128
  inb_S64x200x128_S64x200x128_0_0_0 : ∀ a, (![0, 0, 0] : Fin 3 → Nat) a + S64x200x128.size a ≤ S64x200x128.size a
  h_S64x200x128 : 0 < S64x200x128.numel
  shapeCasts_S64x200x128_S64x200x128 : S64x200x128.ShapeCasts S64x200x128
  inb_S200x128_S200x128_0_0 : ∀ a, (![0, 0] : Fin 2 → Nat) a + S200x128.size a ≤ S200x128.size a
  h_S200x128 : 0 < S200x128.numel
  shapeCasts_S200x128_S200x128 : S200x128.ShapeCasts S200x128
  shapeCasts_S200x128_S1x200x128 : S200x128.ShapeCasts S1x200x128
  broadcasts_S1x200x128_S64x200x128 : S1x200x128.Broadcasts S64x200x128
  reduces_S64x200x128_S64x200 : S64x200x128.Reduces [2] S64x200
  shapeCasts_S64x200_S64x200x1 : S64x200.ShapeCasts S64x200x1
  broadcasts_S64x200x1_S64x200x128 : S64x200x1.Broadcasts S64x200x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128_S1x1x128 : S128.ShapeCasts S1x1x128
  broadcasts_S1x1x128_S64x200x128 : S1x1x128.Broadcasts S64x200x128
  hcc0_scratch8 : 0 + S_.numel ≤ 22
  hcc0_scratch9 : 1 + S_.numel ≤ 22
  hcc0_scratch10 : 2 + S_.numel ≤ 22
  hcc0_scratch11 : 3 + S_.numel ≤ 22
  hcc0_scratch12 : 4 + S_.numel ≤ 22
  hcc0_scratch13 : 5 + S_.numel ≤ 22
  hcc0_scratch14 : 6 + S_.numel ≤ 22
  hcc0_scratch15 : 7 + S_.numel ≤ 22
  hcc0_scratch16 : 8 + S_.numel ≤ 22
  hcc0_scratch17 : 9 + S_.numel ≤ 22
  hcc0_scratch18 : 10 + S_.numel ≤ 22
  hcc0_scratch19 : 11 + S_.numel ≤ 22
  hcc0_scratch20 : 12 + S_.numel ≤ 22
  hcc0_scratch21 : 13 + S_.numel ≤ 22
  hcc0_scoped0 : 14 + S_.numel ≤ 22
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x50x128.size a ≤ S32x50x128.size a
  k0_off2_inb : ∀ i : grid0.Coords, ∀ (r : Fin 50), ∀ a, (k0_off2 i (BitVec.ofNat 32 r.val)) a + S128x128.size a ≤ S204800x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x200x128.size a ≤ S1024x200x128.size a
  hwx1_0 : ∀ i : grid1.Coords, EltTy.bits .f32 = 32 ∨ (Rect.block (s := S1024x200x128) S64x200x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x128.size a ≤ S200x128.size a
  hwx1_1 : ∀ i : grid1.Coords, EltTy.bits .f32 = 32 ∨ (Rect.block (s := S200x128) S200x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x200x128.size a ≤ S1024x200x128.size a
  hwx1_4 : ∀ i : grid1.Coords, EltTy.bits .f32 = 32 ∨ (Rect.block (s := S1024x200x128) S64x200x128.size (cc1_transform_4 i) (hinb1_4 i)).WholeWords (EltTy.packing .f32)

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scratch12 : DmaSems sig S_ := SemArray.consecutive 4 S_ hcc0_scratch12
abbrev cc0_scratch13 : DmaSems sig S_ := SemArray.consecutive 5 S_ hcc0_scratch13
abbrev cc0_scratch14 : DmaSems sig S_ := SemArray.consecutive 6 S_ hcc0_scratch14
abbrev cc0_scratch15 : DmaSems sig S_ := SemArray.consecutive 7 S_ hcc0_scratch15
abbrev cc0_scratch16 : DmaSems sig S_ := SemArray.consecutive 8 S_ hcc0_scratch16
abbrev cc0_scratch17 : DmaSems sig S_ := SemArray.consecutive 9 S_ hcc0_scratch17
abbrev cc0_scratch18 : DmaSems sig S_ := SemArray.consecutive 10 S_ hcc0_scratch18
abbrev cc0_scratch19 : DmaSems sig S_ := SemArray.consecutive 11 S_ hcc0_scratch19
abbrev cc0_scratch20 : DmaSems sig S_ := SemArray.consecutive 12 S_ hcc0_scratch20
abbrev cc0_scratch21 : DmaSems sig S_ := SemArray.consecutive 13 S_ hcc0_scratch21
abbrev cc0_scoped0 : DmaSems sig S_ := SemArray.consecutive 14 S_ hcc0_scoped0

abbrev win1_0 : Pipeline.Window sig grid1 :=
  Pipeline.Window.ofSpec (Memref.whole main_v2) S64x200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S200x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S64x200x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x200 : Shape := ⟨2, ![1024, 200]⟩
abbrev S100000x128 : Shape := ⟨2, ![100000, 128]⟩
abbrev S512x128 : Shape := ⟨2, ![512, 128]⟩
abbrev S128 : Shape := ⟨1, ![128]⟩
abbrev S200 : Shape := ⟨1, ![200]⟩
abbrev S1x200 : Shape := ⟨2, ![1, 200]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1x1x128 : Shape := ⟨3, ![1, 1, 128]⟩

abbrev nBuf : Space → Nat
  | .hbm => 84
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x128, .f32⟩
  | .hbm, ⟨2, _⟩ => ⟨S512x128, .f32⟩
  | .hbm, ⟨3, _⟩ => ⟨S128, .f32⟩
  | .hbm, ⟨4, _⟩ => ⟨S128, .f32⟩
  | .hbm, ⟨5, _⟩ => ⟨S200, .i32⟩
  | .hbm, ⟨6, _⟩ => ⟨S1x200, .i32⟩
  | .hbm, ⟨7, _⟩ => ⟨S1024x200, .i32⟩
  | .hbm, ⟨8, _⟩ => ⟨S_, .i32⟩
  | .hbm, ⟨9, _⟩ => ⟨S1024x200, .i32⟩
  | .hbm, ⟨10, _⟩ => ⟨S1024x200, .i1⟩
  | .hbm, ⟨11, _⟩ => ⟨S_, .i32⟩
  | .hbm, ⟨12, _⟩ => ⟨S1024x200, .i32⟩
  | .hbm, ⟨13, _⟩ => ⟨S1024x200, .i32⟩
  | .hbm, ⟨14, _⟩ => ⟨S1024x200, .i32⟩
  | .hbm, ⟨15, _⟩ => ⟨S1024x200x1, .i32⟩
  | .hbm, ⟨16, _⟩ => ⟨S1, .i32⟩
  | .hbm, ⟨17, _⟩ => ⟨S_, .i32⟩
  | .hbm, ⟨18, _⟩ => ⟨S1024x200x1, .i32⟩
  | .hbm, ⟨19, _⟩ => ⟨S1024x200x1, .i1⟩
  | .hbm, ⟨20, _⟩ => ⟨S1x1x1, .i32⟩
  | .hbm, ⟨21, _⟩ => ⟨S1024x200x1, .i32⟩
  | .hbm, ⟨22, _⟩ => ⟨S1024x200x1, .i1⟩
  | .hbm, ⟨23, _⟩ => ⟨S1024x200x1, .i1⟩
  | .hbm, ⟨24, _⟩ => ⟨S_, .i1⟩
  | .hbm, ⟨25, _⟩ => ⟨S1024x200, .i1⟩
  | .hbm, ⟨26, _⟩ => ⟨S1024x200x128, .f32⟩
  | .hbm, ⟨27, _⟩ => ⟨S1024x200x128, .i1⟩
  | .hbm, ⟨28, _⟩ => ⟨S_, .f32⟩
  | .hbm, ⟨29, _⟩ => ⟨S1024x200x128, .f32⟩
  | .hbm, ⟨30, _⟩ => ⟨S1024x200x128, .f32⟩
  | .hbm, ⟨31, _⟩ => ⟨S_, .i32⟩
  | .hbm, ⟨32, _⟩ => ⟨S1024x200, .i32⟩
  | .hbm, ⟨33, _⟩ => ⟨S1024x200, .i1⟩
  | .hbm, ⟨34, _⟩ => ⟨S_, .i32⟩
  | .hbm, ⟨35, _⟩ => ⟨S1024x200, .i32⟩
  | .hbm, ⟨36, _⟩ => ⟨S1024x200, .i32⟩
  | .hbm, ⟨37, _⟩ => ⟨S1024x200, .i32⟩
  | .hbm, ⟨38, _⟩ => ⟨S1024x200x1, .i32⟩
  | .hbm, ⟨39, _⟩ => ⟨S1, .i32⟩
  | .hbm, ⟨40, _⟩ => ⟨S_, .i32⟩
  | .hbm, ⟨41, _⟩ => ⟨S1024x200x1, .i32⟩
  | .hbm, ⟨42, _⟩ => ⟨S1024x200x1, .i1⟩
  | .hbm, ⟨43, _⟩ => ⟨S1x1x1, .i32⟩
  | .hbm, ⟨44, _⟩ => ⟨S1024x200x1, .i32⟩
  | .hbm, ⟨45, _⟩ => ⟨S1024x200x1, .i1⟩
  | .hbm, ⟨46, _⟩ => ⟨S1024x200x1, .i1⟩
  | .hbm, ⟨47, _⟩ => ⟨S_, .i1⟩
  | .hbm, ⟨48, _⟩ => ⟨S1024x200, .i1⟩
  | .hbm, ⟨49, _⟩ => ⟨S1024x200x128, .f32⟩
  | .hbm, ⟨50, _⟩ => ⟨S1024x200x128, .i1⟩
  | .hbm, ⟨51, _⟩ => ⟨S_, .f32⟩
  | .hbm, ⟨52, _⟩ => ⟨S1024x200x128, .f32⟩
  | .hbm, ⟨53, _⟩ => ⟨S1024x200x128, .f32⟩
  | .hbm, ⟨54, _⟩ => ⟨S1024x200x128, .f32⟩
  | .hbm, ⟨55, _⟩ => ⟨S_, .f32⟩
  | .hbm, ⟨56, _⟩ => ⟨S1024x200, .f32⟩
  | .hbm, ⟨57, _⟩ => ⟨S1024x200x1, .f32⟩
  | .hbm, ⟨58, _⟩ => ⟨S_, .f32⟩
  | .hbm, ⟨59, _⟩ => ⟨S1024x200x1, .f32⟩
  | .hbm, ⟨60, _⟩ => ⟨S1024x200x1, .f32⟩
  | .hbm, ⟨61, _⟩ => ⟨S1024x200x128, .f32⟩
  | .hbm, ⟨62, _⟩ => ⟨S1024x200x128, .f32⟩
  | .hbm, ⟨63, _⟩ => ⟨S1024x200x128, .f32⟩
  | .hbm, ⟨64, _⟩ => ⟨S_, .f32⟩
  | .hbm, ⟨65, _⟩ => ⟨S1024x200, .f32⟩
  | .hbm, ⟨66, _⟩ => ⟨S1024x200x1, .f32⟩
  | .hbm, ⟨67, _⟩ => ⟨S_, .f32⟩
  | .hbm, ⟨68, _⟩ => ⟨S1024x200x1, .f32⟩
  | .hbm, ⟨69, _⟩ => ⟨S1024x200x1, .f32⟩
  | .hbm, ⟨70, _⟩ => ⟨S1024x200x128, .f32⟩
  | .hbm, ⟨71, _⟩ => ⟨S1024x200x128, .f32⟩
  | .hbm, ⟨72, _⟩ => ⟨S_, .f32⟩
  | .hbm, ⟨73, _⟩ => ⟨S1024x200x1, .f32⟩
  | .hbm, ⟨74, _⟩ => ⟨S1024x200x1, .f32⟩
  | .hbm, ⟨75, _⟩ => ⟨S1024x200x1, .f32⟩
  | .hbm, ⟨76, _⟩ => ⟨S1024x200x128, .f32⟩
  | .hbm, ⟨77, _⟩ => ⟨S1024x200x128, .f32⟩
  | .hbm, ⟨78, _⟩ => ⟨S1x1x128, .f32⟩
  | .hbm, ⟨79, _⟩ => ⟨S1024x200x128, .f32⟩
  | .hbm, ⟨80, _⟩ => ⟨S1024x200x128, .f32⟩
  | .hbm, ⟨81, _⟩ => ⟨S1x1x128, .f32⟩
  | .hbm, ⟨82, _⟩ => ⟨S1024x200x128, .f32⟩
  | .hbm, ⟨83, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v4 : Ref sig .tc := ⟨.hbm, 53, rfl⟩
abbrev main_v5 : Ref sig .tc := ⟨.hbm, 54, rfl⟩
abbrev main_cst : Ref sig .tc := ⟨.hbm, 55, rfl⟩
abbrev main_v6 : Ref sig .tc := ⟨.hbm, 56, rfl⟩
abbrev main_v7 : Ref sig .tc := ⟨.hbm, 57, rfl⟩
abbrev main_cst_0 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_cst_1 : Ref sig .tc := ⟨.hbm, 64, rfl⟩
abbrev main_v13 : Ref sig .tc := ⟨.hbm, 65, rfl⟩
abbrev main_v14 : Ref sig .tc := ⟨.hbm, 66, rfl⟩
abbrev main_cst_2 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_cst_3 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩

abbrev nD : Nat := 1
abbrev τ : Topo := Topo.v7x

variable {F : FTy → Type} [FloatOps F]

class Facts₀ : Prop where
  bcast_S200_S1x200_1 : S200.BroadcastsInDim S1x200 (![1] : Fin 1 → Fin S1x200.rank)
  bcast_S1x200_S1024x200_0_1 : S1x200.BroadcastsInDim S1024x200 (![0, 1] : Fin 2 → Fin S1024x200.rank)
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  reducesTo_S1024x200x128_S1024x200_d2 : S1024x200x128.ReducesTo [2] S1024x200
  bcast_S1024x200x1_S1024x200x128_0_1_2 : S1024x200x1.BroadcastsInDim S1024x200x128 (![0, 1, 2] : Fin 3 → Fin S1024x200x128.rank)
  bcast_S128_S1x1x128_2 : S128.BroadcastsInDim S1x1x128 (![2] : Fin 1 → Fin S1x1x128.rank)
  bcast_S1x1x128_S1024x200x128_0_1_2 : S1x1x128.BroadcastsInDim S1024x200x128 (![0, 1, 2] : Fin 3 → Fin S1024x200x128.rank)
  gather_S100000x128_S1024x200x1_S1024x200x128_2_0_n_n_0_2_1128_wf : GatherDims.WF S100000x128 S1024x200x1 S1024x200x128 [2] [0] [] [0] [] 2 ![1, 128]
  gather_S512x128_S1024x200x1_S1024x200x128_2_0_n_n_0_2_1128_wf : GatherDims.WF S512x128 S1024x200x1 S1024x200x128 [2] [0] [] [0] [] 2 ![1, 128]

variable [Facts₀]

def gather_S100000x128_S1024x200x1_S1024x200x128_2_0_n_n_0_2_1128 : GatherDims S100000x128 S1024x200x1 S1024x200x128 where
  offsetDims := [2]
  collapsedSliceDims := [0]
  operandBatchingDims := []
  startIndicesBatchingDims := []
  startIndexMap := [0]
  indexVectorDim := 2
  sliceSizes := ![1, 128]
  wf := gather_S100000x128_S1024x200x1_S1024x200x128_2_0_n_n_0_2_1128_wf
def gather_S512x128_S1024x200x1_S1024x200x128_2_0_n_n_0_2_1128 : GatherDims S512x128 S1024x200x1 S1024x200x128 where
  offsetDims := [2]
  collapsedSliceDims := [0]
  operandBatchingDims := []
  startIndicesBatchingDims := []
  startIndexMap := [0]
  indexVectorDim := 2
  sliceSizes := ![1, 128]
  wf := gather_S512x128_S1024x200x1_S1024x200x128_2_0_n_n_0_2_1128_wf

class Facts : Prop extends Facts₀ where

variable [Facts]
-- ==== Proof.Spec.lean ====
/-
  The function both programs compute, index by index, on the extended reals.

  For a batch row `b`, a position `l` and a feature `d`:
    x b l d    = W[ids[b, l], d] + pos[l, d]                       (the embedding row plus the position row)
    mean b l   = (∑ d, x b l d) / 128
    xc b l d   = x b l d - mean b l
    var b l    = (∑ d, xc b l d * xc b l d) / 128
    out b l d  = xc b l d * rsqrt (var b l + ε) * gamma d + beta d
  with `/` the instance's division, `rsqrt` its reciprocal square root, `128` and `ε` the two float words the
  programs share. The row of `W` is the index word read as a natural number, reduced modulo the table's height so
  that it is a row number whatever the word (under the precondition the word is below the height and the reduction
  is the identity).
-/
import Idealize.ShloMosaic.PureOps.Ideal
import Idealize.ShloMosaic.Lib.ValueIdx

noncomputable section

namespace Cert.Spec

open Idealize.ShloMosaic Idealize.ShloMosaic.ValueIdx

abbrev SIds : Shape := ⟨2, ![1024, 200]⟩
abbrev SW : Shape := ⟨2, ![100000, 128]⟩
abbrev SPos : Shape := ⟨2, ![512, 128]⟩
abbrev SVec : Shape := ⟨1, ![128]⟩
abbrev SOut : Shape := ⟨3, ![1024, 200, 128]⟩

/-- The float word of `128.0`, at the exact instance. -/
abbrev c128 : EReal := Ideal.ofBits .f32 0x43000000#32
/-- The float word of the variance's offset `ε` (the f32 nearest `1e-12`), at the exact instance. -/
abbrev cEps : EReal := Ideal.ofBits .f32 0x2B8CBCCC#32

/-- The table row an index word names. -/
def rowOf (w : BitVec 32) : Fin 100000 := ⟨w.toNat % 100000, Nat.mod_lt _ (by norm_num)⟩

/-- Position `l < 200` as a row of the position table (height 512). -/
def posRow (l : Fin 200) : Fin 512 := ⟨l.val, lt_trans l.isLt (by norm_num)⟩

section
variable (ids : SIds.Idx → BitVec 32) (W : SW.Idx → EReal) (pos : SPos.Idx → EReal) (gamma beta : SVec.Idx → EReal)

/-- The embedding row plus the position row. -/
def x (b : Fin 1024) (l : Fin 200) (d : Fin 128) : EReal :=
  W (ix2 (rowOf (ids (ix2 b l))) d) + pos (ix2 (posRow l) d)

/-- The mean of a row's 128 features. -/
def mean (b : Fin 1024) (l : Fin 200) : EReal := Ideal.div (∑ d : Fin 128, x ids W pos b l d) c128

/-- A feature less its row's mean. -/
def xc (b : Fin 1024) (l : Fin 200) (d : Fin 128) : EReal := x ids W pos b l d - mean ids W pos b l

/-- The mean of the squares of a row's centred features. -/
def var (b : Fin 1024) (l : Fin 200) : EReal := Ideal.div (∑ d : Fin 128, xc ids W pos b l d * xc ids W pos b l d) c128

/-- The normalised, scaled and shifted feature. -/
def out (b : Fin 1024) (l : Fin 200) (d : Fin 128) : EReal :=
  xc ids W pos b l d * Ideal.rsqrt (var ids W pos b l + cEps) * gamma (ix1 d) + beta (ix1 d)

/-- The whole result array. -/
def G : SOut.Idx → EReal := fun j => out ids W pos gamma beta (j 0) (j 1) (j 2)

theorem G_ix3 (b : Fin 1024) (l : Fin 200) (d : Fin 128) : G ids W pos gamma beta (ix3 b l d) = out ids W pos gamma beta b l d := rfl

end

end Cert.Spec

end
-- ==== Proof.GatherSpec.lean ====
/-
  What the gather kernel leaves in its output array, as ONE function of the index.

  The output has 204800 rows of 128 features. Row `n` belongs to tile `n / 6400`, chunk `(n / 128) % 50`, lane
  `n % 128`: it is the table row named by the word at that place of the 32 x 50 x 128 index array, feature by feature.
  The word is read as a row number modulo the table's height (the identity on words below the height).
-/
import proofs.«206768_g17686675325131_cont_8to1_990_33_alg».proof.KernelIdeal
import proofs.«206768_g17686675325131_cont_8to1_990_33_alg».proof.Proof.Spec
import Idealize.ShloMosaic.Lib.ValueIdx

noncomputable section

namespace Cert.KernelIdeal.GatherSpec

open Cert.KernelIdeal Idealize.ShloMosaic Idealize.ShloMosaic.ValueIdx

variable {F : FTy → Type}

/-- The place in the index array that output row `n` is gathered through. -/
def idxOf (n : Fin 204800) : S32x50x128.Idx :=
  ix3 (⟨n.val / 6400, by have := n.isLt; omega⟩ : Fin 32) (⟨n.val / 128 % 50, Nat.mod_lt _ (by norm_num)⟩ : Fin 50)
    (⟨n.val % 128, Nat.mod_lt _ (by norm_num)⟩ : Fin 128)

/-- The gathered array: row `n`, feature `e` is the table's row `rowOf (fI (idxOf n))`, feature `e`. -/
def Gath (fI : (⟨S32x50x128, .i32⟩ : BufTy).Contents (Elt F)) (fW : (⟨S100000x128, .f32⟩ : BufTy).Contents (Elt F)) :
    (⟨S204800x128, .f32⟩ : BufTy).Contents (Elt F) :=
  fun j => fW (ix2 (Cert.Spec.rowOf (fI (idxOf (j 0)))) (j 1))

theorem Gath_apply (fI : (⟨S32x50x128, .i32⟩ : BufTy).Contents (Elt F)) (fW : (⟨S100000x128, .f32⟩ : BufTy).Contents (Elt F))
    (n : Fin 204800) (e : Fin 128) : Gath fI fW (ix2 n e) = fW (ix2 (Cert.Spec.rowOf (fI (idxOf n))) e) := rfl

end Cert.KernelIdeal.GatherSpec

end
-- ==== Proof.TileDefs.lean ====
/-
  One vector subcore's task of the gather kernel, at a symbolic place.

  The task copies its 50 x 128 block of the index array into its index scratch; then, for each of its 50 chunks,
  gathers the 128 table rows the chunk's index words name into one of seven row buffers and copies that buffer out to
  the chunk's 128 rows of the output. Each row buffer has a semaphore of its own for the gathers into it and another
  for the copies out of it: a gather into a buffer is issued only after the last copy out of it has been waited for,
  and a copy out only after the gather has been waited for, so on each semaphore at most one transfer is outstanding
  and no buffer is touched while a transfer on it is pending. What the task leaves in its 6400 output rows is the
  gathered array, index by index.
-/
import proofs.«206768_g17686675325131_cont_8to1_990_33_alg».proof.KernelIdeal
import proofs.«206768_g17686675325131_cont_8to1_990_33_alg».proof.Proof.Gen.KernelIdeal
import proofs.«206768_g17686675325131_cont_8to1_990_33_alg».proof.Proof.Gen.KernelIdeal.Skeleton
import proofs.«206768_g17686675325131_cont_8to1_990_33_alg».proof.Proof.GatherSpec
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import Idealize.ShloMosaic.Lib.Writes

noncomputable section

namespace Cert.KernelIdeal.TileBody

open Cert.KernelIdeal Cert.KernelIdeal.Gen Cert.KernelIdeal.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none

/-! ## The ghost state: any user algebra with a copy of the transfers' counters -/

variable {U : Type} [URA U] [CountersIn U]

local notation "𝕄" => MT nD τ sig (HIx 1) (Elt F) ℕ U ℕ

/-! ## The arrays and the buffers -/

abbrev iLoc (d : Dev nD) : Loc nD τ sig := (SparseCore.T d).loc main_v0
abbrev wLoc (d : Dev nD) : Loc nD τ sig := (SparseCore.T d).loc main_arg1
abbrev oLoc (d : Dev nD) : Loc nD τ sig := (SparseCore.T d).loc main_v1

local notation "wV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S32x50x128 EltTy.i32)
local notation "oV" => (Memref.whole Cert.KernelIdeal.main_v1_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S50x128 EltTy.i32)

theorem idiv : 32 ∣ S32x50x128.size 0 := ⟨1, rfl⟩
theorem odiv : 32 ∣ S204800x128.size 0 := ⟨6400, rfl⟩
/-- Tile `i`'s block of the index array and its 6400 rows of the output. -/
abbrev irow (i : Fin 32) : Rect S32x50x128 := Rect.part (s := S32x50x128) (a₀ := 0) idiv i
abbrev orow (i : Fin 32) : Rect S204800x128 := Rect.part (s := S204800x128) (a₀ := 0) odiv i
abbrev iRowSet (i : Fin 32) : Finset S32x50x128.Idx := ((iV).view.slice (irow i)).set
abbrev oRowSet (i : Fin 32) : Finset S204800x128.Idx := ((oV).view.slice (orow i)).set

/-- Tile `i`'s block of the index array, the table at a read share, tile `i`'s rows of the output. -/
abbrev iRowPts (d : Dev nD) (i : Fin 32) (f : Buf (Elt F) (iLoc d)) : sProp 𝕄 := iLoc d ↦[iRowSet i]{fullShare} f
abbrev wShPts (d : Dev nD) (q : PosShare TreeShare) (f : Buf (Elt F) (wLoc d)) : sProp 𝕄 := wLoc d ↦{q} f
abbrev oRowPts (d : Dev nD) (i : Fin 32) (f : Buf (Elt F) (oLoc d)) : sProp 𝕄 := oLoc d ↦[oRowSet i]{fullShare} f

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The tile's number among the 32: twice its subcore's plus its SparseCore's. -/
abbrev wid (L : grid0.Coords) : Fin 32 := ⟨(L 1).val * 2 + (L 0).val, by
  have h0 : (L 0).val < 2 := (L 0).isLt
  have h1 : (L 1).val < 16 := (L 1).isLt
  omega⟩

/-! ## The memrefs as the program slices them -/

/-- The tile's block of the index array, as the task addresses it. -/
abbrev iRowK (L : grid0.Coords) : Memref sig .scVector .hbm S50x128 .i32 :=
  ((iV).slice (Rect.unit (s := S32x50x128) (k0_off1 L) S1x50x128.size (k0_off1_inb L)) (fun _ => rfl)).squeeze S50x128 squeezes_S1x50x128_S50x128
theorem inb_idx (c : Fin 50) : ∀ a, (![c.val, 0] : Fin 2 → Nat) a + S1x128.size a ≤ S50x128.size a := by
  intro a; have := c.isLt
  match a with
  | 0 => show c.val + 1 ≤ 50; omega
  | 1 => show 0 + 128 ≤ 128; omega
/-- Row `c` of the index scratch: chunk `c`'s 128 index words. -/
abbrev idxRowK (c : Fin 50) : Memref sig .scVector .vmem S128 .i32 :=
  ((sV).slice (Rect.unit (s := S50x128) ![c.val, 0] S1x128.size (inb_idx c)) (fun _ => rfl)).squeeze S128 squeezes_S1x128_S128
/-- The whole table, as the task slices it. -/
abbrev wAllK : Memref sig .scVector .hbm S100000x128 .f32 :=
  (wV).slice (Rect.unit (s := S100000x128) ![0, 0] S100000x128.size inb_S100000x128_S100000x128_0_0) (fun _ => rfl)
/-- Chunk `c`'s 128 rows of the output. -/
abbrev oBlkK (L : grid0.Coords) (c : Fin 50) : Memref sig .scVector .hbm S128x128 .f32 :=
  (oV).slice (Rect.unit (s := S204800x128) (k0_off2 L (BitVec.ofNat 32 c.val)) S128x128.size (k0_off2_inb L c)) (fun _ => rfl)

/-- The seven row buffers. -/
abbrev bV1 : Memref sig .scVector .vmem S128x128 .f32 := Memref.whole cc0_scratch1
abbrev bV2 : Memref sig .scVector .vmem S128x128 .f32 := Memref.whole cc0_scratch2
abbrev bV3 : Memref sig .scVector .vmem S128x128 .f32 := Memref.whole cc0_scratch3
abbrev bV4 : Memref sig .scVector .vmem S128x128 .f32 := Memref.whole cc0_scratch4
abbrev bV5 : Memref sig .scVector .vmem S128x128 .f32 := Memref.whole cc0_scratch5
abbrev bV6 : Memref sig .scVector .vmem S128x128 .f32 := Memref.whole cc0_scratch6
abbrev bV7 : Memref sig .scVector .vmem S128x128 .f32 := Memref.whole cc0_scratch7

local notation "thr" => (V d (cV L) (jV L))

/-! ## What the transfers carry -/

/-- What the index fetch lands in the index scratch: the tile's block of the index array. -/
abbrev idxP (fI : Buf (Elt F) (iLoc d)) : Buf (Elt F) ((sV).view.loc thr) :=
  ReadAs.same.apply ((iRowK L).view.read (Elt F) fI)

omit [URA U] [CountersIn U] [FloatOps F] in
/-- Every word of a row of the index scratch names a row of the table. -/
theorem hin_row (fI : Buf (Elt F) (iLoc d)) (hin : ∀ j, (fI j).toNat < 100000) (c : Fin 50) :
    ∀ x, ((idxRowK c).view.read (Elt F) (idxP d L fI) x).toNat < S100000x128.size gathers_S100000x128_S128x128.axis := by
  intro x
  rw [show ∀ (g : S50x128.Idx → Elt F .i32) j, (idxRowK c).view.read (Elt F) g j = g ((idxRowK c).view.emb j) from fun g j => (View.read_apply _ _).trans (cast_eq _ _)]
  show (((iRowK L).view.read (Elt F) fI) _).toNat < _
  rw [show ∀ j, (iRowK L).view.read (Elt F) fI j = fI ((iRowK L).view.emb j) from fun j => (View.read_apply _ _).trans (cast_eq _ _)]
  exact hin _

/-- Chunk `c`'s gathered rows: row `r` is the table's row named by word `r` of row `c` of the index scratch. -/
abbrev gP (fI : Buf (Elt F) (iLoc d)) (fW : Buf (Elt F) (wLoc d)) (hin : ∀ j, (fI j).toNat < 100000) (c : Fin 50) : S128x128.Idx → Elt F .f32 :=
  SparseCore.gatherPayload gathers_S100000x128_S128x128 ((wAllK).view.read (Elt F) fW)
    (SparseCore.rows ((idxRowK c).view.read (Elt F) (idxP d L fI)) rfl (hin_row d L fI hin c))

/-! ## Runs of pieces held one after another -/

/-- `Φ k ∗ Φ (k + 1) ∗ … ∗ Φ (k + m - 1)`: the pieces not yet handed out. -/
def Todo (Φ : ℕ → sProp 𝕄) : ℕ → ℕ → sProp 𝕄
  | _, 0 => iprop(emp)
  | k, m + 1 => iprop(Φ k ∗ Todo Φ (k + 1) m)
/-- `Φ (k - 1) ∗ … ∗ Φ 0`: the pieces already back. -/
def Done (Φ : ℕ → sProp 𝕄) : ℕ → sProp 𝕄
  | 0 => iprop(emp)
  | k + 1 => iprop(Φ k ∗ Done Φ k)

omit [CountersIn U] [FloatOps F] in
theorem Todo_succ (Φ : ℕ → sProp 𝕄) (k m : ℕ) : Todo Φ k (m + 1) = iprop(Φ k ∗ Todo Φ (k + 1) m) := rfl
omit [CountersIn U] [FloatOps F] in
theorem Done_succ (Φ : ℕ → sProp 𝕄) (k : ℕ) : Done Φ (k + 1) = iprop(Φ k ∗ Done Φ k) := rfl

omit [CountersIn U] [FloatOps F] in
theorem Done_eq_bigSep (Φ : ℕ → sProp 𝕄) : ∀ n, Done Φ n = bigSep (Finset.range n) Φ
  | 0 => by rw [Finset.range_zero, bigSep_empty]; rfl
  | n + 1 => by rw [Done_succ, Done_eq_bigSep Φ n, Finset.range_add_one, bigSep_insert Finset.notMem_range_self]; rfl

omit [CountersIn U] [FloatOps F] in
theorem Todo_eq_bigSep (Φ : ℕ → sProp 𝕄) : ∀ m k, Todo Φ k m = bigSep (Finset.Ico k (k + m)) Φ
  | 0, k => by rw [Nat.add_zero, Finset.Ico_self, bigSep_empty]; rfl
  | m + 1, k => by
    rw [Todo_succ, Todo_eq_bigSep Φ m (k + 1), ← Finset.insert_Ico_add_one_left_eq_Ico (by omega : k < k + (m + 1)),
      bigSep_insert (by simp), show k + 1 + m = k + (m + 1) by omega]
    rfl

/-- A piece by its number: nothing past the fiftieth. -/
def pc (Ψ : Fin 50 → sProp 𝕄) (k : ℕ) : sProp 𝕄 := if h : k < 50 then Ψ ⟨k, h⟩ else iprop(emp)
omit [CountersIn U] [FloatOps F] in
theorem pc_lt (Ψ : Fin 50 → sProp 𝕄) {k : ℕ} (h : k < 50) : pc Ψ k = Ψ ⟨k, h⟩ := dif_pos h

omit [CountersIn U] [FloatOps F] in
theorem todo_take (Ψ : Fin 50 → sProp 𝕄) (k m : ℕ) (h : k < 50) : Todo (pc Ψ) k (m + 1) = iprop(Ψ ⟨k, h⟩ ∗ Todo (pc Ψ) (k + 1) m) := by
  rw [Todo_succ, pc_lt Ψ h]
omit [CountersIn U] [FloatOps F] in
theorem done_put (Ψ : Fin 50 → sProp 𝕄) (k : ℕ) (h : k < 50) : iprop(Ψ ⟨k, h⟩ ∗ Done (pc Ψ) k) = Done (pc Ψ) (k + 1) := by
  rw [Done_succ, pc_lt Ψ h]

/-- Row `c` of the index scratch, held at what the fetch landed. -/
abbrev rowPts (fI : Buf (Elt F) (iLoc d)) (c : Fin 50) : sProp 𝕄 :=
  (idxRowK c).view.loc thr ↦[(idxRowK c).view.set]{fullShare} idxP d L fI
/-- Chunk `c`'s rows of the output, held at `f`. -/
abbrev blkPts (f : Buf (Elt F) (oLoc d)) (c : Fin 50) : sProp 𝕄 :=
  (oBlkK L c).view.loc thr ↦[(oBlkK L c).view.set]{fullShare} f

omit [FloatOps F] in
/-- What is waited for stays among the waits the post allows. -/
theorem wstep {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

/-- The table's elements as the task slices it, at share `q`. -/
abbrev wPts (fW : Buf (Elt F) (wLoc d)) (q : PosShare TreeShare) : sProp 𝕄 :=
  (wAllK).view.loc thr ↦[(wAllK).view.set]{q} fW

/-- Chunk `c`'s gather into row buffer `b` in flight on the buffer's gather semaphore: at the wait it hands back
    the buffer written with the chunk's rows, the table's share and the chunk's row of the index scratch. -/
abbrev GFl (fI : Buf (Elt F) (iLoc d)) (fW : Buf (Elt F) (wLoc d)) (hin : ∀ j, (fI j).toNat < 100000)
    (b : Memref sig .scVector .vmem S128x128 .f32) (gs : DmaSem sig) (q : PosShare TreeShare) (c : Fin 50)
    (fd : Buf (Elt F) (b.view.loc thr)) : sProp 𝕄 :=
  Transfers.Flight countersEmb thr (SemLoc.dma gs) (default : HIx 1) b.view.dmaCredit
    iprop((b.view.loc thr ↦[b.view.set]{fullShare} View.write (Elt F) b.view fd (gP d L fI fW hin c) Finset.univ)
      ∗ (wPts d L fW q) ∗ rowPts d L fI c)

/-- Chunk `c`'s copy out of row buffer `b` in flight on the buffer's store semaphore: at the wait it hands back
    the chunk's output rows written with the buffer's contents, and the buffer. -/
abbrev SFl (fI : Buf (Elt F) (iLoc d)) (fW : Buf (Elt F) (wLoc d)) (hin : ∀ j, (fI j).toNat < 100000) (fO : Buf (Elt F) (oLoc d))
    (b : Memref sig .scVector .vmem S128x128 .f32) (ss : DmaSem sig) (c : Fin 50)
    (fd : Buf (Elt F) (b.view.loc thr)) : sProp 𝕄 :=
  Transfers.Flight countersEmb thr (SemLoc.dma ss) (default : HIx 1) ((oBlkK L c).view.amount (SemLoc.dma ss))
    iprop(((oBlkK L c).view.loc thr ↦[(oBlkK L c).view.set]{fullShare}
        View.write (Elt F) (oBlkK L c).view fO
          (ReadAs.same.apply (b.view.read (Elt F) (View.write (Elt F) b.view fd (gP d L fI fW hin c) Finset.univ))) Finset.univ)
      ∗ (b.view.loc thr ↦[b.view.set]{fullShare} View.write (Elt F) b.view fd (gP d L fI fW hin c) Finset.univ))

/-- A row buffer's elements held at `f`. -/
abbrev bPts (b : Memref sig .scVector .vmem S128x128 .f32) (f : Buf (Elt F) (b.view.loc thr)) : sProp 𝕄 :=
  b.view.loc thr ↦[b.view.set]{fullShare} f

end Tile

end Cert.KernelIdeal.TileBody

end
-- ==== Proof.TileGeom.lean ====
/-
  The geometry of one subcore's task: which elements of the index array, of the index scratch and of the output each
  of its memory references covers.

  The block of the index array the task fetches is the tile's part of that array (the 32 parts along the first axis,
  the tile's number the part's). The index scratch, held whole, is its fifty rows held one by one, row c being what
  the task's slice for chunk c covers (the row along the first axis at c). The tile's 6400 rows of the output are the
  union of its fifty chunks' 128 rows, chunk c's starting at row 6400 · (the tile's number) + 128 · c: consecutive
  chunks do not overlap and together cover the tile's rows, so holding the tile's rows is holding the fifty chunks'
  rows separately. A run of fifty pieces handed out one after another, or given back one after another, is the
  product of the pieces over the fifty chunks.
-/
import proofs.«206768_g17686675325131_cont_8to1_990_33_alg».proof.Proof.TileDefs

noncomputable section

namespace Cert.KernelIdeal.TileBody

open Cert.KernelIdeal Cert.KernelIdeal.Gen Cert.KernelIdeal.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S32x50x128 EltTy.i32)
local notation "oV" => (Memref.whole Cert.KernelIdeal.main_v1_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S50x128 EltTy.i32)

variable (d : Dev nD) (L : grid0.Coords)

local notation "thr" => (V d (cV L) (jV L))

namespace Geom

/-! ## The tile's block of the index array -/

omit [URA U] [CountersIn U] [FloatOps F] in
/-- The rectangle the task addresses in the index array is the tile's part of it. -/
theorem irowK_eq : Rect.unit (s := S32x50x128) (k0_off1 L) S1x50x128.size (k0_off1_inb L) = irow (wid L) := by
  unfold irow Rect.part Rect.block
  congr 1 <;> funext a
  · rw [k0_off1_eq]
    match a with
    | 0 => simp [Shape.partIx, Shape.partSize]; omega
    | 1 => simp [Shape.partIx, Shape.partSize]
    | 2 => simp [Shape.partIx, Shape.partSize]
  · match a with
    | 0 => simp [Shape.partSize]
    | 1 => simp [Shape.partSize]
    | 2 => simp [Shape.partSize]

/-! ## Runs of fifty pieces as products over the fifty chunks -/

omit [CountersIn U] [FloatOps F] in
/-- The pieces numbered below 50 are the pieces of the fifty chunks. -/
theorem bigSep_range_pc (Ψ : Fin 50 → sProp 𝕄) : bigSep (Finset.range 50) (pc Ψ) = bigSep Finset.univ Ψ := by
  rw [← Nat.Iio_eq_range, ← Fin.map_valEmbedding_univ, bigSep_map]
  exact bigSep_congr fun i _ => by
    show pc Ψ i.val = Ψ i
    rw [pc_lt Ψ i.isLt]

omit [CountersIn U] [FloatOps F] in
theorem Todo_all (Ψ : Fin 50 → sProp 𝕄) : Todo (pc Ψ) 0 50 = bigSep Finset.univ Ψ := by
  rw [Todo_eq_bigSep, Nat.zero_add, ← Finset.range_eq_Ico, bigSep_range_pc]

omit [CountersIn U] [FloatOps F] in
theorem Done_all (Ψ : Fin 50 → sProp 𝕄) : Done (pc Ψ) 50 = bigSep Finset.univ Ψ := by
  rw [Done_eq_bigSep, bigSep_range_pc]

/-! ## The index scratch is its fifty rows -/

omit [URA U] [CountersIn U] [FloatOps F] in
/-- Row `c` of the index scratch, as the task slices it, is the scratch's row `c` along its first axis. -/
theorem idxRect_eq (c : Fin 50) :
    Rect.unit (s := S50x128) ![c.val, 0] S1x128.size (inb_idx c) = S50x128.rowRect (0 : Fin 2) c := by
  unfold Shape.rowRect
  congr 1 <;> funext a
  · match a with
    | 0 => rfl
    | 1 => rfl
  · match a with
    | 0 => rfl
    | 1 => rfl

omit [URA U] [CountersIn U] [FloatOps F] in
theorem set_idxRowK (c : Fin 50) : (idxRowK c).view.set = ((sV).view.slice (S50x128.rowRect (0 : Fin 2) c)).set := by
  have h : (idxRowK c).view.set = ((sV).view.slice (Rect.unit (s := S50x128) ![c.val, 0] S1x128.size (inb_idx c))).set :=
    View.set_reshape _ _
  exact h.trans (idxRect_eq c ▸ rfl)

omit [CountersIn U] [FloatOps F] in
/-- The whole index scratch held at `f` is its fifty rows held at `f`. -/
theorem idx_rows (f : Buf (Elt F) ((sV).view.loc thr)) :
    ((sV).view.loc thr ↦{fullShare} f : sProp 𝕄)
      = bigSep Finset.univ fun c : Fin 50 => (idxRowK c).view.loc thr ↦[(idxRowK c).view.set]{fullShare} f := by
  have h := pointsTo_rows (Ix := HIx 1) (Val := Elt F) (Name := ℕ) (U := U) (Lvl := ℕ) thr (sV).view (0 : Fin 2) fullShare f
  rw [View.set_whole] at h
  refine h.trans (bigSep_congr fun k _ => ?_)
  exact congrArg (fun I : Finset (Idx ((sV).view.loc thr)) => ((sV).view.loc thr ↦[I]{fullShare} f : sProp 𝕄)) (set_idxRowK k).symm

/-! ## The tile's output rows are its fifty chunks' rows -/

omit [URA U] [CountersIn U] [FloatOps F] in
/-- The tile's part of the output: rows `6400 · i` to `6400 · i + 6399`. -/
theorem mem_orow (i : Fin 32) (j : S204800x128.Idx) :
    j ∈ (orow i).set ↔ i.val * 6400 ≤ (j 0).val ∧ (j 0).val < i.val * 6400 + 6400 := by
  rw [Rect.mem_set_unit, Fin.forall_fin_two]
  have h1 : (j 1).val < 128 := (j 1).isLt
  show (i.val * 6400 ≤ (j 0).val ∧ (j 0).val < i.val * 6400 + 6400) ∧ (0 * 128 ≤ (j 1).val ∧ (j 1).val < 0 * 128 + 128) ↔ _
  omega

omit [URA U] [CountersIn U] [FloatOps F] in
/-- Chunk `c`'s rows of the output: 128 rows from `6400 · (the tile's number) + 128 · c`. -/
theorem mem_oblk (c : Fin 50) (j : S204800x128.Idx) :
    j ∈ (Rect.unit (s := S204800x128) (k0_off2 L (BitVec.ofNat 32 c.val)) S128x128.size (k0_off2_inb L c)).set
      ↔ (wid L).val * 6400 + 128 * c.val ≤ (j 0).val ∧ (j 0).val < (wid L).val * 6400 + 128 * c.val + 128 := by
  rw [Rect.mem_set_unit, Fin.forall_fin_two, k0_off2_eq L c]
  have h1 : (j 1).val < 128 := (j 1).isLt
  show (12800 * (L 1).val + 6400 * (L 0).val + 128 * c.val ≤ (j 0).val
      ∧ (j 0).val < 12800 * (L 1).val + 6400 * (L 0).val + 128 * c.val + 128) ∧ (0 ≤ (j 1).val ∧ (j 1).val < 0 + 128)
    ↔ ((L 1).val * 2 + (L 0).val) * 6400 + 128 * c.val ≤ (j 0).val ∧ (j 0).val < ((L 1).val * 2 + (L 0).val) * 6400 + 128 * c.val + 128
  omega

omit [URA U] [CountersIn U] [FloatOps F] in
theorem set_oBlkK (c : Fin 50) :
    (oBlkK L c).view.set = (Rect.unit (s := S204800x128) (k0_off2 L (BitVec.ofNat 32 c.val)) S128x128.size (k0_off2_inb L c)).set :=
  View.set_slice_whole main_v1_scv _

omit [URA U] [CountersIn U] [FloatOps F] in
/-- The tile's output rows are the union of its fifty chunks' rows. -/
theorem oRowSet_eq_biUnion : oRowSet (wid L) = Finset.univ.biUnion fun c : Fin 50 => (oBlkK L c).view.set := by
  ext j
  have hw : (wid L).val = (L 1).val * 2 + (L 0).val := rfl
  rw [Finset.mem_biUnion, show oRowSet (wid L) = (orow (wid L)).set from View.set_slice_whole main_v1_scv _, mem_orow]
  constructor
  · rintro ⟨h1, h2⟩
    refine ⟨⟨((j 0).val - (wid L).val * 6400) / 128, by omega⟩, Finset.mem_univ _, ?_⟩
    rw [set_oBlkK, mem_oblk]
    show (wid L).val * 6400 + 128 * (((j 0).val - (wid L).val * 6400) / 128) ≤ (j 0).val
      ∧ (j 0).val < (wid L).val * 6400 + 128 * (((j 0).val - (wid L).val * 6400) / 128) + 128
    omega
  · rintro ⟨c, -, hc⟩
    rw [set_oBlkK, mem_oblk] at hc
    have := c.isLt
    omega

omit [URA U] [CountersIn U] [FloatOps F] in
/-- Different chunks' rows are disjoint. -/
theorem oBlk_disjoint : ∀ c ∈ (Finset.univ : Finset (Fin 50)), ∀ c' ∈ (Finset.univ : Finset (Fin 50)), c ≠ c' →
    Disjoint (oBlkK L c).view.set (oBlkK L c').view.set := by
  intro c _ c' _ hne
  rw [set_oBlkK, set_oBlkK]
  refine Rect.unit_disjoint (0 : Fin 2) ?_
  have e := congrFun (k0_off2_eq L c) (0 : Fin 2)
  have e' := congrFun (k0_off2_eq L c') (0 : Fin 2)
  rw [e, e']
  have hv : c.val ≠ c'.val := fun h => hne (Fin.ext h)
  show 12800 * (L 1).val + 6400 * (L 0).val + 128 * c.val + 128 ≤ 12800 * (L 1).val + 6400 * (L 0).val + 128 * c'.val
    ∨ 12800 * (L 1).val + 6400 * (L 0).val + 128 * c'.val + 128 ≤ 12800 * (L 1).val + 6400 * (L 0).val + 128 * c.val
  omega

omit [CountersIn U] [FloatOps F] in
/-- The tile's output rows held at `f` are its fifty chunks' rows held at `f`. -/
theorem out_rows (f : Buf (Elt F) (oLoc d)) : (oRowPts d (wid L) f : sProp 𝕄) = bigSep Finset.univ (blkPts d L f) := by
  show (oLoc d ↦[oRowSet (wid L)]{fullShare} f : sProp 𝕄) = _
  rw [oRowSet_eq_biUnion]
  exact pointsTo_biUnion Finset.univ _ (oBlk_disjoint L)

end Geom

open Geom

/-! ## The statements the task's run uses -/

omit [URA U] [CountersIn U] [FloatOps F] in
theorem set_iRowK : (iRowK L).view.set = iRowSet (wid L) := by
  show (((iV).view.slice (Rect.unit (s := S32x50x128) (k0_off1 L) S1x50x128.size (k0_off1_inb L))).reshape S50x128 squeezes_S1x50x128_S50x128.numel_eq).set
    = ((iV).view.slice (irow (wid L))).set
  rw [View.set_reshape]
  exact irowK_eq L ▸ rfl

omit [CountersIn U] [FloatOps F] in
theorem idx_split (fI : Buf (Elt F) (iLoc d)) (fs : Buf (Elt F) ((sV).view.loc thr)) :
    ((sV).view.loc thr ↦{fullShare} View.write (Elt F) (sV).view fs (ReadAs.same.apply ((iRowK L).view.read (Elt F) fI)) Finset.univ : sProp 𝕄)
      ⊢ Todo (pc (rowPts d L fI)) 0 50 := by
  have hw : View.write (Elt F) (sV).view fs (ReadAs.same.apply ((iRowK L).view.read (Elt F) fI)) Finset.univ = idxP d L fI :=
    View.write_whole_univ cc0_scratch0 fs _
  rw [hw, Todo_all, idx_rows d L (idxP d L fI)]

omit [CountersIn U] [FloatOps F] in
theorem idx_join (fI : Buf (Elt F) (iLoc d)) :
    (Done (pc (rowPts d L fI)) 50 : sProp 𝕄) ⊢ iprop(∃ f, (sV).view.loc thr ↦{fullShare} f) := by
  rw [Done_all, ← idx_rows d L (idxP d L fI)]
  iintro H
  iexists idxP d L fI
  iexact H

omit [CountersIn U] [FloatOps F] in
theorem out_split (fO : Buf (Elt F) (oLoc d)) :
    (oRowPts d (wid L) fO : sProp 𝕄) ⊢ Todo (pc (blkPts d L fO)) 0 50 := by
  rw [Todo_all, out_rows]

omit [CountersIn U] [FloatOps F] in
theorem out_join (f : Buf (Elt F) (oLoc d)) :
    (Done (pc (blkPts d L f)) 50 : sProp 𝕄) ⊢ oRowPts d (wid L) f := by
  rw [Done_all, out_rows]

end Cert.KernelIdeal.TileBody

end
-- ==== Proof.TilePeel.lean ====
/-
  A vector subcore's own storage, taken apart: of the buffers the launch deals it, the task's index scratch and seven
  row buffers, each whole at some contents, and the rest; of its own semaphore counters at zero, the task's fetch
  semaphore, the seven gather semaphores, the seven store semaphores, and the rest.

  Both are one fact about a conjunction over a finite set: the conjuncts of a list of distinct members can be taken
  out one after another (`bigSep_peel`), or as one group (`bigSep_group`), leaving the conjunction over what is left.
-/
import proofs.«206768_g17686675325131_cont_8to1_990_33_alg».proof.Proof.TileDefs

noncomputable section

namespace Cert.KernelIdeal.TileBody

open Cert.KernelIdeal Cert.KernelIdeal.Gen Cert.KernelIdeal.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S32x50x128 EltTy.i32)
local notation "oV" => (Memref.whole Cert.KernelIdeal.main_v1_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S50x128 EltTy.i32)

variable (d : Dev nD) (L : grid0.Coords)

local notation "thr" => (V d (cV L) (jV L))

/-! ## Taking listed members out of a conjunction over a finite set -/

section Peel

variable {I : Type} [DecidableEq I] {M : Type} [URA M]

/-- `Φ i₁ ∗ … ∗ Φ iₙ ∗ R`, nested to the right. -/
def chainR (Φ : I → sProp M) : List I → sProp M → sProp M
  | [], R => R
  | i :: l, R => iprop(Φ i ∗ chainR Φ l R)

/-- The conjuncts of distinct members `l` of `s`, one after another, then the conjunction over `s` less them. -/
theorem bigSep_peel (Φ : I → sProp M) :
    ∀ (l : List I) (s : Finset I), l.Nodup → (∀ i ∈ l, i ∈ s) → bigSep s Φ = chainR Φ l (bigSep (l.foldl Finset.erase s) Φ)
  | [], _, _, _ => rfl
  | i :: l, s, hnd, hs => by
    obtain ⟨hi, hnd'⟩ := List.nodup_cons.mp hnd
    rw [SparseCore.bigSep_erase' (hs i List.mem_cons_self)]
    show _ = iprop(Φ i ∗ chainR Φ l (bigSep (l.foldl Finset.erase (s.erase i)) Φ))
    rw [← bigSep_peel Φ l (s.erase i) hnd' fun j hj => Finset.mem_erase.mpr ⟨fun e => hi (e ▸ hj), hs j (List.mem_cons_of_mem _ hj)⟩]

/-- The conjuncts of distinct members `l` of `s` as one group, then the conjunction over `s` less them. -/
theorem bigSep_group (Φ : I → sProp M) (s : Finset I) (l : List I) (hnd : l.Nodup) (hs : ∀ i ∈ l, i ∈ s) :
    bigSep s Φ = iprop(bigSepL l Φ ∗ bigSep (s \ l.toFinset) Φ) := by
  rw [SparseCore.bigSep_sdiff_split' (t := l.toFinset) (fun i hi => hs i (List.mem_toFinset.mp hi)), bigSep_eq_bigSepL l hnd]

end Peel

/-! ## The subcore's own buffers and semaphores: the task's eight scratch buffers and fifteen semaphores, and the rest -/

omit [CountersIn U] [FloatOps F] in
theorem ownBufs_V8 : ∃ RB : sProp 𝕄, (ownBufs thr : sProp 𝕄)
    = iprop((∃ f, (sV).view.loc thr ↦{fullShare} f) ∗ (∃ f, bPts d L bV1 f) ∗ (∃ f, bPts d L bV2 f) ∗ (∃ f, bPts d L bV3 f)
        ∗ (∃ f, bPts d L bV4 f) ∗ (∃ f, bPts d L bV5 f) ∗ (∃ f, bPts d L bV6 f) ∗ (∃ f, bPts d L bV7 f) ∗ RB) := by
  have hl : ([cc0_scratch0, cc0_scratch1, cc0_scratch2, cc0_scratch3, cc0_scratch4, cc0_scratch5, cc0_scratch6, cc0_scratch7] : List (Ref sig .scVector)).Nodup := by decide +kernel
  have hnd : (([cc0_scratch0, cc0_scratch1, cc0_scratch2, cc0_scratch3, cc0_scratch4, cc0_scratch5, cc0_scratch6, cc0_scratch7] : List (Ref sig .scVector)).map (Proc.scVector (cV L) (jV L)).devRef : List (DevRef τ sig)).Nodup :=
    List.Nodup.map (Proc.devRef_injective _) hl
  have hmem : ∀ b ∈ (([cc0_scratch0, cc0_scratch1, cc0_scratch2, cc0_scratch3, cc0_scratch4, cc0_scratch5, cc0_scratch6, cc0_scratch7] : List (Ref sig .scVector)).map (Proc.scVector (cV L) (jV L)).devRef : List (DevRef τ sig)),
      b ∈ ownRefs (τ := τ) (Proc.scVector (cV L) (jV L)) := fun b hb => by
    simp only [List.map_cons, List.map_nil, List.mem_cons, List.not_mem_nil, or_false] at hb
    rcases hb with rfl | rfl | rfl | rfl | rfl | rfl | rfl | rfl <;> exact SparseCore.Cfg.mem_ownRefs_of_owner rfl
  refine ⟨bigSep (List.foldl Finset.erase (ownRefs (τ := τ) (Proc.scVector (cV L) (jV L)))
      (([cc0_scratch0, cc0_scratch1, cc0_scratch2, cc0_scratch3, cc0_scratch4, cc0_scratch5, cc0_scratch6, cc0_scratch7] : List (Ref sig .scVector)).map (Proc.scVector (cV L) (jV L)).devRef))
      fun b => iprop(∃ f, ((d, b) : Loc nD τ sig) ↦{fullShare} f), ?_⟩
  unfold SparseCore.Cfg.ownBufs
  refine (bigSep_peel _ _ _ hnd hmem).trans ?_
  simp only [bPts, Memref.view_whole, View.set_whole, List.map_cons, List.map_nil, chainR]

omit [CountersIn U] [FloatOps F] in
theorem ownSems0_V15 : ∃ RS : sProp 𝕄, (ownSems0 thr : sProp 𝕄)
    = iprop(semVal (thr, SemLoc.dma cc0_scoped0.sem) 0
        ∗ (semVal (thr, SemLoc.dma cc0_scratch8.sem) 0 ∗ semVal (thr, SemLoc.dma cc0_scratch9.sem) 0 ∗ semVal (thr, SemLoc.dma cc0_scratch10.sem) 0
          ∗ semVal (thr, SemLoc.dma cc0_scratch11.sem) 0 ∗ semVal (thr, SemLoc.dma cc0_scratch12.sem) 0 ∗ semVal (thr, SemLoc.dma cc0_scratch13.sem) 0
          ∗ semVal (thr, SemLoc.dma cc0_scratch14.sem) 0)
        ∗ (semVal (thr, SemLoc.dma cc0_scratch15.sem) 0 ∗ semVal (thr, SemLoc.dma cc0_scratch16.sem) 0 ∗ semVal (thr, SemLoc.dma cc0_scratch17.sem) 0
          ∗ semVal (thr, SemLoc.dma cc0_scratch18.sem) 0 ∗ semVal (thr, SemLoc.dma cc0_scratch19.sem) 0 ∗ semVal (thr, SemLoc.dma cc0_scratch20.sem) 0
          ∗ semVal (thr, SemLoc.dma cc0_scratch21.sem) 0)
        ∗ RS) := by
  -- the fifteen semaphores are distinct and scoped on a vector subcore
  have hall : (([cc0_scoped0.sem] ++ [cc0_scratch8.sem, cc0_scratch9.sem, cc0_scratch10.sem, cc0_scratch11.sem, cc0_scratch12.sem, cc0_scratch13.sem, cc0_scratch14.sem] ++ [cc0_scratch15.sem, cc0_scratch16.sem, cc0_scratch17.sem, cc0_scratch18.sem, cc0_scratch19.sem, cc0_scratch20.sem, cc0_scratch21.sem] : List (DmaSem sig))).Nodup := by decide
  have hsc : ∀ s ∈ ([cc0_scoped0.sem] ++ [cc0_scratch8.sem, cc0_scratch9.sem, cc0_scratch10.sem, cc0_scratch11.sem, cc0_scratch12.sem, cc0_scratch13.sem, cc0_scratch14.sem] ++ [cc0_scratch15.sem, cc0_scratch16.sem, cc0_scratch17.sem, cc0_scratch18.sem, cc0_scratch19.sem, cc0_scratch20.sem, cc0_scratch21.sem] : List (DmaSem sig)),
      (SemLoc.dma s : SemLoc sig).isScoped .scVector = true := by decide
  have hnd1 : ([cc0_scratch8.sem, cc0_scratch9.sem, cc0_scratch10.sem, cc0_scratch11.sem, cc0_scratch12.sem, cc0_scratch13.sem, cc0_scratch14.sem] : List (DmaSem sig)).Nodup := by decide
  have hnd2 : ([cc0_scratch15.sem, cc0_scratch16.sem, cc0_scratch17.sem, cc0_scratch18.sem, cc0_scratch19.sem, cc0_scratch20.sem, cc0_scratch21.sem] : List (DmaSem sig)).Nodup := by decide
  have hne1 : ∀ s ∈ ([cc0_scratch8.sem, cc0_scratch9.sem, cc0_scratch10.sem, cc0_scratch11.sem, cc0_scratch12.sem, cc0_scratch13.sem, cc0_scratch14.sem] : List (DmaSem sig)), s ≠ cc0_scoped0.sem := by decide
  have hne2 : ∀ s ∈ ([cc0_scratch15.sem, cc0_scratch16.sem, cc0_scratch17.sem, cc0_scratch18.sem, cc0_scratch19.sem, cc0_scratch20.sem, cc0_scratch21.sem] : List (DmaSem sig)), s ≠ cc0_scoped0.sem ∧ s ∉ ([cc0_scratch8.sem, cc0_scratch9.sem, cc0_scratch10.sem, cc0_scratch11.sem, cc0_scratch12.sem, cc0_scratch13.sem, cc0_scratch14.sem] : List (DmaSem sig)) := by decide
  have hinj : Function.Injective (fun s : DmaSem sig => ((thr, SemLoc.dma s) : GSem nD τ sig)) := fun a b h => SemLoc.dma.inj (Prod.mk.inj h).2
  have hown : ∀ s ∈ ([cc0_scoped0.sem] ++ [cc0_scratch8.sem, cc0_scratch9.sem, cc0_scratch10.sem, cc0_scratch11.sem, cc0_scratch12.sem, cc0_scratch13.sem, cc0_scratch14.sem] ++ [cc0_scratch15.sem, cc0_scratch16.sem, cc0_scratch17.sem, cc0_scratch18.sem, cc0_scratch19.sem, cc0_scratch20.sem, cc0_scratch21.sem] : List (DmaSem sig)),
      ((thr, SemLoc.dma s) : GSem nD τ sig) ∈ ownCells thr := fun s hs => (mem_ownCells (g := (thr, SemLoc.dma s))).mpr ⟨rfl, hsc s hs⟩
  refine ⟨bigSep (((ownCells thr \ (([cc0_scoped0.sem] : List (DmaSem sig)).map fun s => ((thr, SemLoc.dma s) : GSem nD τ sig)).toFinset) \ (([cc0_scratch8.sem, cc0_scratch9.sem, cc0_scratch10.sem, cc0_scratch11.sem, cc0_scratch12.sem, cc0_scratch13.sem, cc0_scratch14.sem] : List (DmaSem sig)).map fun s => ((thr, SemLoc.dma s) : GSem nD τ sig)).toFinset) \ (([cc0_scratch15.sem, cc0_scratch16.sem, cc0_scratch17.sem, cc0_scratch18.sem, cc0_scratch19.sem, cc0_scratch20.sem, cc0_scratch21.sem] : List (DmaSem sig)).map fun s => ((thr, SemLoc.dma s) : GSem nD τ sig)).toFinset)
      fun g => semVal g 0, ?_⟩
  unfold SparseCore.Cfg.ownSems0
  rw [bigSep_group _ (ownCells thr) (([cc0_scoped0.sem] : List (DmaSem sig)).map fun s => ((thr, SemLoc.dma s) : GSem nD τ sig))
      ((List.nodup_singleton _).map hinj) (fun g hg => by
        obtain ⟨s, hs, rfl⟩ := List.mem_map.mp hg
        exact hown s (by simp only [List.mem_append]; exact .inl (.inl hs))),
    bigSep_group _ _ (([cc0_scratch8.sem, cc0_scratch9.sem, cc0_scratch10.sem, cc0_scratch11.sem, cc0_scratch12.sem, cc0_scratch13.sem, cc0_scratch14.sem] : List (DmaSem sig)).map fun s => ((thr, SemLoc.dma s) : GSem nD τ sig))
      (hnd1.map hinj) (fun g hg => by
        obtain ⟨s, hs, rfl⟩ := List.mem_map.mp hg
        refine Finset.mem_sdiff.mpr ⟨hown s (by simp only [List.mem_append]; exact .inl (.inr hs)), fun h => ?_⟩
        obtain ⟨a, ha, e⟩ := List.mem_map.mp (List.mem_toFinset.mp h)
        exact hne1 s hs ((hinj e).symm.trans (List.mem_singleton.mp ha))),
    bigSep_group _ _ (([cc0_scratch15.sem, cc0_scratch16.sem, cc0_scratch17.sem, cc0_scratch18.sem, cc0_scratch19.sem, cc0_scratch20.sem, cc0_scratch21.sem] : List (DmaSem sig)).map fun s => ((thr, SemLoc.dma s) : GSem nD τ sig))
      (hnd2.map hinj) (fun g hg => by
        obtain ⟨s, hs, rfl⟩ := List.mem_map.mp hg
        refine Finset.mem_sdiff.mpr ⟨Finset.mem_sdiff.mpr ⟨hown s (by simp only [List.mem_append]; exact .inr hs), fun h => ?_⟩, fun h => ?_⟩
        · obtain ⟨a, ha, e⟩ := List.mem_map.mp (List.mem_toFinset.mp h)
          exact (hne2 s hs).1 ((hinj e).symm.trans (List.mem_singleton.mp ha))
        · obtain ⟨a, ha, e⟩ := List.mem_map.mp (List.mem_toFinset.mp h)
          exact (hne2 s hs).2 ((hinj e) ▸ ha))]
  rfl

end Cert.KernelIdeal.TileBody

end
-- ==== Proof.TileVal.lean ====
/-
  What a chunk's copy-out leaves in the output, as the gathered array.

  Chunk c of a tile gathers, into a row buffer, the 128 table rows named by row c of the tile's index scratch, and
  copies the buffer out to 128 rows of the output. The index scratch holds the tile's block of the index array, so
  word p of its row c is the index array's word at (tile, c, p); the chunk's output rows start at row
  12800 * (L 1) + 6400 * (L 0) + 128 * c, so row p of the chunk is output row n = that start + p, and
  (n / 6400, n / 128 % 50, n % 128) = (tile, c, p): the place of the index array the gathered array reads row n
  through. Every index word is below the table's height, so reading it modulo the height changes nothing. Hence on
  the chunk's rows what the copy wrote is the gathered array, element by element.
-/
import proofs.«206768_g17686675325131_cont_8to1_990_33_alg».proof.Proof.TileDefs

noncomputable section

namespace Cert.KernelIdeal.TileBody

open Cert.KernelIdeal Cert.KernelIdeal.Gen Cert.KernelIdeal.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S32x50x128 EltTy.i32)
local notation "oV" => (Memref.whole Cert.KernelIdeal.main_v1_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S50x128 EltTy.i32)

variable (d : Dev nD) (L : grid0.Coords)

local notation "thr" => (V d (cV L) (jV L))

open Idealize.ShloMosaic.ValueIdx

/-! ## Where the task's views put their indices -/

omit [URA U] [CountersIn U] [FloatOps F] in
/-- A word's place in the 128-vector's row-major order is its coordinate. -/
theorem val_rowMajor_symm_S128 (k : Fin S128.numel) :
    S128.rowMajor.symm k = ix1 (⟨k.val, by have := k.isLt; simpa [Shape.numel] using this⟩ : Fin 128) := by
  rw [Equiv.symm_apply_eq]
  refine Fin.ext ?_
  rw [Shape.rowMajor_val_one]

omit [URA U] [CountersIn U] [FloatOps F] in
/-- Word `r` of row `c` of the index scratch sits at (c, r). -/
theorem val_idxRowK_emb (c : Fin 50) (r : Fin 128) : (idxRowK c).view.emb (ix1 r) = ix2 c r := by
  have e : Shape.reshapeEquiv (squeezes_S1x128_S128 : S1x128.Squeezes S128).numel_eq (ix1 r) = ix2 (0 : Fin 1) r :=
    Shape.reshapeEquiv_eq_of_rowMajor _ (by
      rw [Shape.rowMajor_val_two, Shape.rowMajor_val_one]
      show 0 * 128 + r.val = r.val
      omega)
  show (Rect.unit (s := S50x128) ![c.val, 0] S1x128.size (inb_idx c)).emb (Shape.reshapeEquiv _ (ix1 r)) = _
  rw [e]
  funext a
  refine Fin.ext ?_
  match a with
  | ⟨0, _⟩ => show c.val + 1 * 0 = c.val; omega
  | ⟨1, _⟩ => show 0 + 1 * r.val = r.val; omega

omit [URA U] [CountersIn U] [FloatOps F] in
/-- Place (c, r) of the tile's block of the index array sits at (tile, c, r). -/
theorem val_iRowK_emb (c : Fin 50) (r : Fin 128) : (iRowK L).view.emb (ix2 c r) = ix3 (wid L) c r := by
  have e : Shape.reshapeEquiv (squeezes_S1x50x128_S50x128 : S1x50x128.Squeezes S50x128).numel_eq (ix2 c r) = ix3 (0 : Fin 1) c r :=
    Shape.reshapeEquiv_eq_of_rowMajor _ (by
      rw [Shape.rowMajor_val_three, Shape.rowMajor_val_two]
      show (0 * 50 + c.val) * 128 + r.val = c.val * 128 + r.val
      omega)
  show (Rect.unit (s := S32x50x128) (k0_off1 L) S1x50x128.size (k0_off1_inb L)).emb (Shape.reshapeEquiv _ (ix2 c r)) = _
  rw [e]
  funext a
  refine Fin.ext ?_
  match a with
  | ⟨0, _⟩ =>
    show (k0_off1 L) 0 + 1 * 0 = (L 1).val * 2 + (L 0).val
    rw [k0_off1_eq]
    show 2 * (L 1).val + (L 0).val + 1 * 0 = (L 1).val * 2 + (L 0).val
    omega
  | ⟨1, _⟩ =>
    show (k0_off1 L) 1 + 1 * c.val = c.val
    rw [k0_off1_eq]
    show 0 + 1 * c.val = c.val
    omega
  | ⟨2, _⟩ =>
    show (k0_off1 L) 2 + 1 * r.val = r.val
    rw [k0_off1_eq]
    show 0 + 1 * r.val = r.val
    omega

omit [URA U] [CountersIn U] [FloatOps F] in
/-- Row `p`, feature `q` of chunk `c`'s output rows sits at row 12800 * (L 1) + 6400 * (L 0) + 128 * c + p, feature q. -/
theorem val_oBlkK_emb (c : Fin 50) (p q : Fin 128) :
    ((oBlkK L c).view.emb (ix2 p q) 0).val = 12800 * (L 1).val + 6400 * (L 0).val + 128 * c.val + p.val
      ∧ ((oBlkK L c).view.emb (ix2 p q) 1).val = q.val := by
  constructor
  · show (k0_off2 L (BitVec.ofNat 32 c.val)) 0 + 1 * p.val = _
    rw [k0_off2_eq]
    show 12800 * (L 1).val + 6400 * (L 0).val + 128 * c.val + 1 * p.val = _
    omega
  · show (k0_off2 L (BitVec.ofNat 32 c.val)) 1 + 1 * q.val = _
    rw [k0_off2_eq]
    show 0 + 1 * q.val = _
    omega

omit [URA U] [CountersIn U] [FloatOps F] in
/-- The place of the index array that output row 12800 * (L 1) + 6400 * (L 0) + 128 * c + p is gathered through. -/
theorem val_idxOf (c : Fin 50) (p : Fin 128) (n : Fin 204800)
    (hn : n.val = 12800 * (L 1).val + 6400 * (L 0).val + 128 * c.val + p.val) : idxOf n = ix3 (wid L) c p := by
  have h0 : (L 0).val < 2 := (L 0).isLt
  have h1 : (L 1).val < 16 := (L 1).isLt
  have hc := c.isLt
  have hp := p.isLt
  funext a
  refine Fin.ext ?_
  match a with
  | ⟨0, _⟩ => show n.val / 6400 = (L 1).val * 2 + (L 0).val; omega
  | ⟨1, _⟩ => show n.val / 128 % 50 = c.val; omega
  | ⟨2, _⟩ => show n.val % 128 = p.val; omega

omit [CountersIn U] [FloatOps F] in
/-- Word `p` of row `c` of the index scratch, after the fetch, is the index array's word at (tile, c, p). -/
theorem val_word (fI : Buf (Elt F) (iLoc d)) (c : Fin 50) (p : Fin 128) (k : Fin S128.numel) (hk : k.val = p.val) :
    (idxRowK c).view.read (Elt F) (idxP d L fI) (S128.rowMajor.symm k) = fI (ix3 (wid L) c p) := by
  rw [val_rowMajor_symm_S128, show (⟨k.val, by have := k.isLt; simpa [Shape.numel] using this⟩ : Fin 128) = p from Fin.ext hk]
  refine ((View.read_apply _ _).trans (cast_eq _ _)).trans ?_
  rw [val_idxRowK_emb]
  show (iRowK L).view.read (Elt F) fI (ix2 c p) = _
  refine ((View.read_apply _ _).trans (cast_eq _ _)).trans ?_
  rw [val_iRowK_emb]

/-! ## The value -/

omit [CountersIn U] [FloatOps F] in
theorem out_val (fI : Buf (Elt F) (iLoc d)) (fW : Buf (Elt F) (wLoc d)) (hin : ∀ j, (fI j).toNat < 100000) (fO : Buf (Elt F) (oLoc d))
    (c : Fin 50) (b : Memref sig .scVector .vmem S128x128 .f32) (fd : Buf (Elt F) (b.view.loc thr)) :
    ((oBlkK L c).view.loc thr ↦[(oBlkK L c).view.set]{fullShare}
        View.write (Elt F) (oBlkK L c).view fO
          (ReadAs.same.apply (b.view.read (Elt F) (View.write (Elt F) b.view fd (gP d L fI fW hin c) Finset.univ))) Finset.univ : sProp 𝕄)
      = blkPts d L (Gath fI fW) c := by
  refine pointsTo_congr fun i hi => ?_
  obtain ⟨y, -, rfl⟩ := Finset.mem_map.mp hi
  obtain ⟨p, q, rfl⟩ : ∃ (p q : Fin 128), y = ix2 p q := ⟨y 0, y 1, eq_ix2 y⟩
  rw [View.write_emb_of_mem _ _ (Finset.mem_univ _)]
  refine (cast_eq _ _).trans ?_
  show (View.read (Elt F) b.view (View.write (Elt F) b.view fd (gP d L fI fW hin c) Finset.univ)) (ix2 p q) = _
  rw [View.read_write_univ]
  obtain ⟨e0, e1⟩ := val_oBlkK_emb L c p q
  have hidx : idxOf ((oBlkK L c).view.emb (ix2 p q) 0) = ix3 (wid L) c p := val_idxOf L c p _ e0
  show (wAllK).view.read (Elt F) fW (gathers_S100000x128_S128x128.idx
      (SparseCore.rows ((idxRowK c).view.read (Elt F) (idxP d L fI)) rfl (hin_row d L fI hin c)) (ix2 p q))
    = fW (ix2 (Cert.Spec.rowOf (fI (idxOf ((oBlkK L c).view.emb (ix2 p q) 0)))) ((oBlkK L c).view.emb (ix2 p q) 1))
  refine ((View.read_apply _ _).trans (cast_eq _ _)).trans ?_
  rw [hidx]
  refine congrArg fW (funext fun a => Fin.ext ?_)
  match a with
  | ⟨0, _⟩ =>
    show 0 + 1 * ((idxRowK c).view.read (Elt F) (idxP d L fI) (S128.rowMajor.symm (Fin.cast _ p))).toNat
      = (fI (ix3 (wid L) c p)).toNat % 100000
    refine (congrArg (fun w : Elt F .i32 => 0 + 1 * BitVec.toNat w) (val_word d L fI c p _ (by rfl))).trans ?_
    show 0 + 1 * (fI (ix3 (wid L) c p)).toNat = (fI (ix3 (wid L) c p)).toNat % 100000
    rw [Nat.mod_eq_of_lt (hin _)]
    omega
  | ⟨1, _⟩ =>
    show 0 + 1 * q.val = ((oBlkK L c).view.emb (ix2 p q) 1).val
    rw [e1]
    omega

end Cert.KernelIdeal.TileBody

end
-- ==== Proof.TileP1.lean ====
import proofs.«206768_g17686675325131_cont_8to1_990_33_alg».proof.Proof.TileDefs
import proofs.«206768_g17686675325131_cont_8to1_990_33_alg».proof.Proof.TileVal
import proofs.«206768_g17686675325131_cont_8to1_990_33_alg».proof.Proof.TileGeom

noncomputable section

namespace Cert.KernelIdeal.TileBody

open Cert.KernelIdeal Cert.KernelIdeal.Gen Cert.KernelIdeal.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S32x50x128 EltTy.i32)
local notation "oV" => (Memref.whole Cert.KernelIdeal.main_v1_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S50x128 EltTy.i32)

variable (d : Dev nD) (L : grid0.Coords)

local notation "thr" => (V d (cV L) (jV L))

set_option maxHeartbeats 4000000 in
theorem part_1 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) :
    iprop(R
        ∗ Transfers.MayWaits thr (default : HIx 1) O
        ∗ (∃ W', ⌜∀ p ∈ W', p ∈ W ∨ p.2 = none⌝ ∗ owes thr O W')
        ∗ ((iRowK L).view.loc thr ↦[(iRowK L).view.set]{fullShare} fI)
        ∗ (∃ fs, (sV).view.loc thr ↦{fullShare} fs)
        ∗ semVal (thr, SemLoc.dma cc0_scoped0.sem) 0
        ∗ (∃ f, bPts d L bV1 f)
        ∗ wPts d L fW q1
        ∗ semVal (thr, SemLoc.dma cc0_scratch8.sem) 0
        ∗ semVal (thr, SemLoc.dma cc0_scratch15.sem) 0
        ∗ (∃ f, bPts d L bV2 f)
        ∗ wPts d L fW q2
        ∗ semVal (thr, SemLoc.dma cc0_scratch9.sem) 0
        ∗ semVal (thr, SemLoc.dma cc0_scratch16.sem) 0
        ∗ (∃ f, bPts d L bV3 f)
        ∗ wPts d L fW q3
        ∗ semVal (thr, SemLoc.dma cc0_scratch10.sem) 0
        ∗ semVal (thr, SemLoc.dma cc0_scratch17.sem) 0
        ∗ (∃ f, bPts d L bV4 f)
        ∗ wPts d L fW q4
        ∗ semVal (thr, SemLoc.dma cc0_scratch11.sem) 0
        ∗ semVal (thr, SemLoc.dma cc0_scratch18.sem) 0
        ∗ (∃ f, bPts d L bV5 f)
        ∗ wPts d L fW q5
        ∗ semVal (thr, SemLoc.dma cc0_scratch12.sem) 0
        ∗ semVal (thr, SemLoc.dma cc0_scratch19.sem) 0
        ∗ (∃ f, bPts d L bV6 f)
        ∗ wPts d L fW q6
        ∗ semVal (thr, SemLoc.dma cc0_scratch13.sem) 0
        ∗ semVal (thr, SemLoc.dma cc0_scratch20.sem) 0
        ∗ (∃ f, bPts d L bV7 f)
        ∗ wPts d L fW q7
        ∗ semVal (thr, SemLoc.dma cc0_scratch14.sem) 0
        ∗ semVal (thr, SemLoc.dma cc0_scratch21.sem) 0
        ∗ Done (pc (rowPts d L fI)) 0
        ∗ Todo (pc (blkPts d L fO)) 0 50
        ∗ Done (pc (blkPts d L (Gath fI fW))) 0)
      ⊢ (wp frame (wpE (defs₀ (F := F)) 𝒱₀ thr none) Set.univ (k0_part1 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0)
          fun _ => iprop((R ∗ ((iRowK L).view.loc thr ↦[(iRowK L).view.set]{fullShare} fI) ∗ semVal (thr, SemLoc.dma cc0_scoped0.sem) 0)
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (0 : Fin 50) fd)
            ∗ semVal (thr, SemLoc.dma cc0_scratch15.sem) 0
            ∗ (∃ fd, GFl d L fI fW hin bV2 cc0_scratch9.sem q2 (1 : Fin 50) fd)
            ∗ semVal (thr, SemLoc.dma cc0_scratch16.sem) 0
            ∗ (∃ fd, GFl d L fI fW hin bV3 cc0_scratch10.sem q3 (2 : Fin 50) fd)
            ∗ semVal (thr, SemLoc.dma cc0_scratch17.sem) 0
            ∗ (∃ fd, GFl d L fI fW hin bV4 cc0_scratch11.sem q4 (3 : Fin 50) fd)
            ∗ semVal (thr, SemLoc.dma cc0_scratch18.sem) 0
            ∗ (∃ f, bPts d L bV5 f)
            ∗ wPts d L fW q5
            ∗ semVal (thr, SemLoc.dma cc0_scratch12.sem) 0
            ∗ semVal (thr, SemLoc.dma cc0_scratch19.sem) 0
            ∗ (∃ f, bPts d L bV6 f)
            ∗ wPts d L fW q6
            ∗ semVal (thr, SemLoc.dma cc0_scratch13.sem) 0
            ∗ semVal (thr, SemLoc.dma cc0_scratch20.sem) 0
            ∗ (∃ f, bPts d L bV7 f)
            ∗ wPts d L fW q7
            ∗ semVal (thr, SemLoc.dma cc0_scratch14.sem) 0
            ∗ semVal (thr, SemLoc.dma cc0_scratch21.sem) 0
            ∗ Todo (pc (rowPts d L fI)) 4 46
            ∗ Done (pc (rowPts d L fI)) 0
            ∗ Todo (pc (blkPts d L fO)) 0 50
            ∗ Done (pc (blkPts d L (Gath fI fW))) 0) : sProp 𝕄) := by
  simp only [k0_part1_eq_skeleton]; unfold k0_part1_skel
  iintro ⟨HR, #Hmw, ⟨%W0, %hW0, HO⟩, Hi, ⟨%fs, Hs⟩, Hsc, ⟨%fd1, Hb1⟩, HW1, Hg1, Hs1, ⟨%fd2, Hb2⟩, HW2, Hg2, Hs2, ⟨%fd3, Hb3⟩, HW3, Hg3, Hs3, ⟨%fd4, Hb4⟩, HW4, Hg4, Hs4, ⟨%fd5, Hb5⟩, HW5, Hg5, Hs5, ⟨%fd6, Hb6⟩, HW6, Hg6, Hs6, ⟨%fd7, Hb7⟩, HW7, Hg7, Hs7, ID, OT, OD⟩
  iapply (Transfers.wp_dmaLocal countersEmb 𝒱₀ thr none (default : HIx 1) _ rfl
      (by decide : 0 < (sV).view.amount (SemLoc.dma cc0_scoped0.sem)) (Finset.subset_univ _)) $$ [Hi Hs Hsc]
  · isplitl [Hi]; · iexact Hi
    isplitl [Hs]; · iexact Hs
    iexact Hsc
  iintro HF
  iapply (Transfers.wp_waitLocalO countersEmb 𝒱₀ thr none (default : HIx 1) rfl) $$ [HF HO]
  · isplitl [HF]; · iexact HF
    isplitl [HO]; · iexact HO
    iapply (Transfers.MayWaits.elim (SemLoc.dma cc0_scoped0.sem)) $$ Hmw
  iintro ⟨⟨Hs, Hi⟩, Hsc, HO⟩
  have hW1 := wstep hW0 (SemLoc.dma cc0_scoped0.sem)
  ihave IT := (idx_split d L fI fs) $$ Hs
  ihave IT' := (Entails.of_eq (todo_take (rowPts d L fI) 0 49 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (0 : Fin 50))) $$ [HW1 Hb1 Hr Hg1]
  · isplitl [HW1]; · iexact HW1
    isplitl [Hb1]; · iexact Hb1
    isplitl [Hr]; · iexact Hr
    iexact Hg1
  iintro HG1
  ihave IT' := (Entails.of_eq (todo_take (rowPts d L fI) 1 48 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (1 : Fin 50))) $$ [HW2 Hb2 Hr Hg2]
  · isplitl [HW2]; · iexact HW2
    isplitl [Hb2]; · iexact Hb2
    isplitl [Hr]; · iexact Hr
    iexact Hg2
  iintro HG2
  ihave IT' := (Entails.of_eq (todo_take (rowPts d L fI) 2 47 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (2 : Fin 50))) $$ [HW3 Hb3 Hr Hg3]
  · isplitl [HW3]; · iexact HW3
    isplitl [Hb3]; · iexact Hb3
    isplitl [Hr]; · iexact Hr
    iexact Hg3
  iintro HG3
  ihave IT' := (Entails.of_eq (todo_take (rowPts d L fI) 3 46 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (3 : Fin 50))) $$ [HW4 Hb4 Hr Hg4]
  · isplitl [HW4]; · iexact HW4
    isplitl [Hb4]; · iexact Hb4
    isplitl [Hr]; · iexact Hr
    iexact Hg4
  iintro HG4
  iapply (le_wp_ret _ _)
  isplitl [HR Hi Hsc]
  · isplitl [HR]
    · iexact HR
    isplitl [Hi]
    · iexact Hi
    iexact Hsc
  isplitl []
  · iexact Hmw
  isplitl [HO]
  · iexists _; isplitr
    · ipureintro; exact hW1
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [Hb5]
  · iexists _; iexact Hb5
  isplitl [HW5]
  · iexact HW5
  isplitl [Hg5]
  · iexact Hg5
  isplitl [Hs5]
  · iexact Hs5
  isplitl [Hb6]
  · iexists _; iexact Hb6
  isplitl [HW6]
  · iexact HW6
  isplitl [Hg6]
  · iexact Hg6
  isplitl [Hs6]
  · iexact Hs6
  isplitl [Hb7]
  · iexists _; iexact Hb7
  isplitl [HW7]
  · iexact HW7
  isplitl [Hg7]
  · iexact Hg7
  isplitl [Hs7]
  · iexact Hs7
  isplitl [IT]
  · iexact IT
  isplitl [ID]
  · iexact ID
  isplitl [OT]
  · iexact OT
  iexact OD

set_option maxHeartbeats 4000000 in
theorem part_2 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (0 : Fin 50) fd)
        ∗ semVal (thr, SemLoc.dma cc0_scratch15.sem) 0
        ∗ (∃ fd, GFl d L fI fW hin bV2 cc0_scratch9.sem q2 (1 : Fin 50) fd)
        ∗ semVal (thr, SemLoc.dma cc0_scratch16.sem) 0
        ∗ (∃ fd, GFl d L fI fW hin bV3 cc0_scratch10.sem q3 (2 : Fin 50) fd)
        ∗ semVal (thr, SemLoc.dma cc0_scratch17.sem) 0
        ∗ (∃ fd, GFl d L fI fW hin bV4 cc0_scratch11.sem q4 (3 : Fin 50) fd)
        ∗ semVal (thr, SemLoc.dma cc0_scratch18.sem) 0
        ∗ (∃ f, bPts d L bV5 f)
        ∗ wPts d L fW q5
        ∗ semVal (thr, SemLoc.dma cc0_scratch12.sem) 0
        ∗ semVal (thr, SemLoc.dma cc0_scratch19.sem) 0
        ∗ (∃ f, bPts d L bV6 f)
        ∗ wPts d L fW q6
        ∗ semVal (thr, SemLoc.dma cc0_scratch13.sem) 0
        ∗ semVal (thr, SemLoc.dma cc0_scratch20.sem) 0
        ∗ (∃ f, bPts d L bV7 f)
        ∗ wPts d L fW q7
        ∗ semVal (thr, SemLoc.dma cc0_scratch14.sem) 0
        ∗ semVal (thr, SemLoc.dma cc0_scratch21.sem) 0
        ∗ Todo (pc (rowPts d L fI)) 4 46
        ∗ Done (pc (rowPts d L fI)) 0
        ∗ Todo (pc (blkPts d L fO)) 0 50
        ∗ Done (pc (blkPts d L (Gath fI fW))) 0)
      ⊢ (wp frame (wpE (defs₀ (F := F)) 𝒱₀ thr none) Set.univ (k0_part2 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (0 : Fin 50) fd)
            ∗ wPts d L fW q1
            ∗ semVal (thr, SemLoc.dma cc0_scratch8.sem) 0
            ∗ (∃ fd, SFl d L fI fW hin fO bV2 cc0_scratch16.sem (1 : Fin 50) fd)
            ∗ wPts d L fW q2
            ∗ semVal (thr, SemLoc.dma cc0_scratch9.sem) 0
            ∗ (∃ fd, GFl d L fI fW hin bV3 cc0_scratch10.sem q3 (2 : Fin 50) fd)
            ∗ semVal (thr, SemLoc.dma cc0_scratch17.sem) 0
            ∗ (∃ fd, GFl d L fI fW hin bV4 cc0_scratch11.sem q4 (3 : Fin 50) fd)
            ∗ semVal (thr, SemLoc.dma cc0_scratch18.sem) 0
            ∗ (∃ fd, GFl d L fI fW hin bV5 cc0_scratch12.sem q5 (4 : Fin 50) fd)
            ∗ semVal (thr, SemLoc.dma cc0_scratch19.sem) 0
            ∗ (∃ fd, GFl d L fI fW hin bV6 cc0_scratch13.sem q6 (5 : Fin 50) fd)
            ∗ semVal (thr, SemLoc.dma cc0_scratch20.sem) 0
            ∗ (∃ fd, GFl d L fI fW hin bV7 cc0_scratch14.sem q7 (6 : Fin 50) fd)
            ∗ semVal (thr, SemLoc.dma cc0_scratch21.sem) 0
            ∗ Todo (pc (rowPts d L fI)) 7 43
            ∗ Done (pc (rowPts d L fI)) 2
            ∗ Todo (pc (blkPts d L fO)) 2 48
            ∗ Done (pc (blkPts d L (Gath fI fW))) 0) : sProp 𝕄) := by
  simp only [k0_part2_eq_skeleton]; unfold k0_part2_skel
  iintro ⟨HR, #Hmw, ⟨%W0, %hW0, HO⟩, ⟨%fd1, HG1⟩, Hs1, ⟨%fd2, HG2⟩, Hs2, ⟨%fd3, HG3⟩, Hs3, ⟨%fd4, HG4⟩, Hs4, ⟨%fd5, Hb5⟩, HW5, Hg5, Hs5, ⟨%fd6, Hb6⟩, HW6, Hg6, Hs6, ⟨%fd7, Hb7⟩, HW7, Hg7, Hs7, IT, ID, OT, OD⟩
  ihave IT' := (Entails.of_eq (todo_take (rowPts d L fI) 4 45 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (4 : Fin 50))) $$ [HW5 Hb5 Hr Hg5]
  · isplitl [HW5]; · iexact HW5
    isplitl [Hb5]; · iexact Hb5
    isplitl [Hr]; · iexact Hr
    iexact Hg5
  iintro HG5
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW1 := wstep hW0 (SemLoc.dma cc0_scratch8.sem)
  ihave ID := (Entails.of_eq (done_put (rowPts d L fI) 0 (by decide))) $$ [Hr ID]
  · isplitl [Hr]; · iexact Hr
    iexact ID
  ihave OT' := (Entails.of_eq (todo_take (blkPts d L fO) 0 49 (by decide))) $$ OT
  icases OT' with ⟨Ho, OT⟩
  iapply (Transfers.wp_dmaLocal countersEmb 𝒱₀ thr none (default : HIx 1) _ rfl
      (show 0 < (oBlkK L (0 : Fin 50)).view.amount (SemLoc.dma cc0_scratch15.sem) from View.dmaCredit_pos (oBlkK L (0 : Fin 50)).view (by decide)) (Finset.Subset.refl _)) $$ [Hb1 Ho Hs1]
  · isplitl [Hb1]; · iexact Hb1
    isplitl [Ho]; · iexact Ho
    iexact Hs1
  iintro HS1
  ihave IT' := (Entails.of_eq (todo_take (rowPts d L fI) 5 44 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (5 : Fin 50))) $$ [HW6 Hb6 Hr Hg6]
  · isplitl [HW6]; · iexact HW6
    isplitl [Hb6]; · iexact Hb6
    isplitl [Hr]; · iexact Hr
    iexact Hg6
  iintro HG6
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW2 := wstep hW1 (SemLoc.dma cc0_scratch9.sem)
  ihave ID := (Entails.of_eq (done_put (rowPts d L fI) 1 (by decide))) $$ [Hr ID]
  · isplitl [Hr]; · iexact Hr
    iexact ID
  ihave OT' := (Entails.of_eq (todo_take (blkPts d L fO) 1 48 (by decide))) $$ OT
  icases OT' with ⟨Ho, OT⟩
  iapply (Transfers.wp_dmaLocal countersEmb 𝒱₀ thr none (default : HIx 1) _ rfl
      (show 0 < (oBlkK L (1 : Fin 50)).view.amount (SemLoc.dma cc0_scratch16.sem) from View.dmaCredit_pos (oBlkK L (1 : Fin 50)).view (by decide)) (Finset.Subset.refl _)) $$ [Hb2 Ho Hs2]
  · isplitl [Hb2]; · iexact Hb2
    isplitl [Ho]; · iexact Ho
    iexact Hs2
  iintro HS2
  ihave IT' := (Entails.of_eq (todo_take (rowPts d L fI) 6 43 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (6 : Fin 50))) $$ [HW7 Hb7 Hr Hg7]
  · isplitl [HW7]; · iexact HW7
    isplitl [Hb7]; · iexact Hb7
    isplitl [Hr]; · iexact Hr
    iexact Hg7
  iintro HG7
  iapply (le_wp_ret _ _)
  isplitl [HR]
  · iexact HR
  isplitl []
  · iexact Hmw
  isplitl [HO]
  · iexists _; isplitr
    · ipureintro; exact hW2
    · iexact HO
  isplitl [HS1]
  · iexists _; iexact HS1
  isplitl [HW1]
  · iexact HW1
  isplitl [Hg1]
  · iexact Hg1
  isplitl [HS2]
  · iexists _; iexact HS2
  isplitl [HW2]
  · iexact HW2
  isplitl [Hg2]
  · iexact Hg2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_3 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (0 : Fin 50) fd)
        ∗ wPts d L fW q1
        ∗ semVal (thr, SemLoc.dma cc0_scratch8.sem) 0
        ∗ (∃ fd, SFl d L fI fW hin fO bV2 cc0_scratch16.sem (1 : Fin 50) fd)
        ∗ wPts d L fW q2
        ∗ semVal (thr, SemLoc.dma cc0_scratch9.sem) 0
        ∗ (∃ fd, GFl d L fI fW hin bV3 cc0_scratch10.sem q3 (2 : Fin 50) fd)
        ∗ semVal (thr, SemLoc.dma cc0_scratch17.sem) 0
        ∗ (∃ fd, GFl d L fI fW hin bV4 cc0_scratch11.sem q4 (3 : Fin 50) fd)
        ∗ semVal (thr, SemLoc.dma cc0_scratch18.sem) 0
        ∗ (∃ fd, GFl d L fI fW hin bV5 cc0_scratch12.sem q5 (4 : Fin 50) fd)
        ∗ semVal (thr, SemLoc.dma cc0_scratch19.sem) 0
        ∗ (∃ fd, GFl d L fI fW hin bV6 cc0_scratch13.sem q6 (5 : Fin 50) fd)
        ∗ semVal (thr, SemLoc.dma cc0_scratch20.sem) 0
        ∗ (∃ fd, GFl d L fI fW hin bV7 cc0_scratch14.sem q7 (6 : Fin 50) fd)
        ∗ semVal (thr, SemLoc.dma cc0_scratch21.sem) 0
        ∗ Todo (pc (rowPts d L fI)) 7 43
        ∗ Done (pc (rowPts d L fI)) 2
        ∗ Todo (pc (blkPts d L fO)) 2 48
        ∗ Done (pc (blkPts d L (Gath fI fW))) 0)
      ⊢ (wp frame (wpE (defs₀ (F := F)) 𝒱₀ thr none) Set.univ (k0_part3 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (7 : Fin 50) fd)
            ∗ semVal (thr, SemLoc.dma cc0_scratch15.sem) 0
            ∗ (∃ fd, SFl d L fI fW hin fO bV2 cc0_scratch16.sem (1 : Fin 50) fd)
            ∗ wPts d L fW q2
            ∗ semVal (thr, SemLoc.dma cc0_scratch9.sem) 0
            ∗ (∃ fd, SFl d L fI fW hin fO bV3 cc0_scratch17.sem (2 : Fin 50) fd)
            ∗ wPts d L fW q3
            ∗ semVal (thr, SemLoc.dma cc0_scratch10.sem) 0
            ∗ (∃ fd, SFl d L fI fW hin fO bV4 cc0_scratch18.sem (3 : Fin 50) fd)
            ∗ wPts d L fW q4
            ∗ semVal (thr, SemLoc.dma cc0_scratch11.sem) 0
            ∗ (∃ fd, GFl d L fI fW hin bV5 cc0_scratch12.sem q5 (4 : Fin 50) fd)
            ∗ semVal (thr, SemLoc.dma cc0_scratch19.sem) 0
            ∗ (∃ fd, GFl d L fI fW hin bV6 cc0_scratch13.sem q6 (5 : Fin 50) fd)
            ∗ semVal (thr, SemLoc.dma cc0_scratch20.sem) 0
            ∗ (∃ fd, GFl d L fI fW hin bV7 cc0_scratch14.sem q7 (6 : Fin 50) fd)
            ∗ semVal (thr, SemLoc.dma cc0_scratch21.sem) 0
            ∗ Todo (pc (rowPts d L fI)) 8 42
            ∗ Done (pc (rowPts d L fI)) 4
            ∗ Todo (pc (blkPts d L fO)) 4 46
            ∗ Done (pc (blkPts d L (Gath fI fW))) 1) : sProp 𝕄) := by
  simp only [k0_part3_eq_skeleton]; unfold k0_part3_skel
  iintro ⟨HR, #Hmw, ⟨%W0, %hW0, HO⟩, ⟨%fd1, HS1⟩, HW1, Hg1, ⟨%fd2, HS2⟩, HW2, Hg2, ⟨%fd3, HG3⟩, Hs3, ⟨%fd4, HG4⟩, Hs4, ⟨%fd5, HG5⟩, Hs5, ⟨%fd6, HG6⟩, Hs6, ⟨%fd7, HG7⟩, Hs7, IT, ID, OT, OD⟩
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW1 := wstep hW0 (SemLoc.dma cc0_scratch10.sem)
  ihave ID := (Entails.of_eq (done_put (rowPts d L fI) 2 (by decide))) $$ [Hr ID]
  · isplitl [Hr]; · iexact Hr
    iexact ID
  ihave OT' := (Entails.of_eq (todo_take (blkPts d L fO) 2 47 (by decide))) $$ OT
  icases OT' with ⟨Ho, OT⟩
  iapply (Transfers.wp_dmaLocal countersEmb 𝒱₀ thr none (default : HIx 1) _ rfl
      (show 0 < (oBlkK L (2 : Fin 50)).view.amount (SemLoc.dma cc0_scratch17.sem) from View.dmaCredit_pos (oBlkK L (2 : Fin 50)).view (by decide)) (Finset.Subset.refl _)) $$ [Hb3 Ho Hs3]
  · isplitl [Hb3]; · iexact Hb3
    isplitl [Ho]; · iexact Ho
    iexact Hs3
  iintro HS3
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW2 := wstep hW1 (SemLoc.dma cc0_scratch15.sem)
  ihave Ho := (Entails.of_eq (out_val d L fI fW hin fO (0 : Fin 50) bV1 _)) $$ Ho
  ihave OD := (Entails.of_eq (done_put (blkPts d L (Gath fI fW)) 0 (by decide))) $$ [Ho OD]
  · isplitl [Ho]; · iexact Ho
    iexact OD
  ihave IT' := (Entails.of_eq (todo_take (rowPts d L fI) 7 42 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (7 : Fin 50))) $$ [HW1 Hb1 Hr Hg1]
  · isplitl [HW1]; · iexact HW1
    isplitl [Hb1]; · iexact Hb1
    isplitl [Hr]; · iexact Hr
    iexact Hg1
  iintro HG1
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW3 := wstep hW2 (SemLoc.dma cc0_scratch11.sem)
  ihave ID := (Entails.of_eq (done_put (rowPts d L fI) 3 (by decide))) $$ [Hr ID]
  · isplitl [Hr]; · iexact Hr
    iexact ID
  ihave OT' := (Entails.of_eq (todo_take (blkPts d L fO) 3 46 (by decide))) $$ OT
  icases OT' with ⟨Ho, OT⟩
  iapply (Transfers.wp_dmaLocal countersEmb 𝒱₀ thr none (default : HIx 1) _ rfl
      (show 0 < (oBlkK L (3 : Fin 50)).view.amount (SemLoc.dma cc0_scratch18.sem) from View.dmaCredit_pos (oBlkK L (3 : Fin 50)).view (by decide)) (Finset.Subset.refl _)) $$ [Hb4 Ho Hs4]
  · isplitl [Hb4]; · iexact Hb4
    isplitl [Ho]; · iexact Ho
    iexact Hs4
  iintro HS4
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_4 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (7 : Fin 50) fd)
        ∗ semVal (thr, SemLoc.dma cc0_scratch15.sem) 0
        ∗ (∃ fd, SFl d L fI fW hin fO bV2 cc0_scratch16.sem (1 : Fin 50) fd)
        ∗ wPts d L fW q2
        ∗ semVal (thr, SemLoc.dma cc0_scratch9.sem) 0
        ∗ (∃ fd, SFl d L fI fW hin fO bV3 cc0_scratch17.sem (2 : Fin 50) fd)
        ∗ wPts d L fW q3
        ∗ semVal (thr, SemLoc.dma cc0_scratch10.sem) 0
        ∗ (∃ fd, SFl d L fI fW hin fO bV4 cc0_scratch18.sem (3 : Fin 50) fd)
        ∗ wPts d L fW q4
        ∗ semVal (thr, SemLoc.dma cc0_scratch11.sem) 0
        ∗ (∃ fd, GFl d L fI fW hin bV5 cc0_scratch12.sem q5 (4 : Fin 50) fd)
        ∗ semVal (thr, SemLoc.dma cc0_scratch19.sem) 0
        ∗ (∃ fd, GFl d L fI fW hin bV6 cc0_scratch13.sem q6 (5 : Fin 50) fd)
        ∗ semVal (thr, SemLoc.dma cc0_scratch20.sem) 0
        ∗ (∃ fd, GFl d L fI fW hin bV7 cc0_scratch14.sem q7 (6 : Fin 50) fd)
        ∗ semVal (thr, SemLoc.dma cc0_scratch21.sem) 0
        ∗ Todo (pc (rowPts d L fI)) 8 42
        ∗ Done (pc (rowPts d L fI)) 4
        ∗ Todo (pc (blkPts d L fO)) 4 46
        ∗ Done (pc (blkPts d L (Gath fI fW))) 1)
      ⊢ (wp frame (wpE (defs₀ (F := F)) 𝒱₀ thr none) Set.univ (k0_part4 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (7 : Fin 50) fd)
            ∗ semVal (thr, SemLoc.dma cc0_scratch15.sem) 0
            ∗ (∃ fd, GFl d L fI fW hin bV2 cc0_scratch9.sem q2 (8 : Fin 50) fd)
            ∗ semVal (thr, SemLoc.dma cc0_scratch16.sem) 0
            ∗ (∃ fd, GFl d L fI fW hin bV3 cc0_scratch10.sem q3 (9 : Fin 50) fd)
            ∗ semVal (thr, SemLoc.dma cc0_scratch17.sem) 0
            ∗ (∃ fd, SFl d L fI fW hin fO bV4 cc0_scratch18.sem (3 : Fin 50) fd)
            ∗ wPts d L fW q4
            ∗ semVal (thr, SemLoc.dma cc0_scratch11.sem) 0
            ∗ (∃ fd, SFl d L fI fW hin fO bV5 cc0_scratch19.sem (4 : Fin 50) fd)
            ∗ wPts d L fW q5
            ∗ semVal (thr, SemLoc.dma cc0_scratch12.sem) 0
            ∗ (∃ fd, bPts d L bV6 (View.write (Elt F) (bV6).view fd (gP d L fI fW hin (5 : Fin 50)) Finset.univ))
            ∗ wPts d L fW q6
            ∗ semVal (thr, SemLoc.dma cc0_scratch13.sem) 0
            ∗ semVal (thr, SemLoc.dma cc0_scratch20.sem) 0
            ∗ (∃ fd, GFl d L fI fW hin bV7 cc0_scratch14.sem q7 (6 : Fin 50) fd)
            ∗ semVal (thr, SemLoc.dma cc0_scratch21.sem) 0
            ∗ Todo (pc (rowPts d L fI)) 10 40
            ∗ Done (pc (rowPts d L fI)) 6
            ∗ Todo (pc (blkPts d L fO)) 5 45
            ∗ Done (pc (blkPts d L (Gath fI fW))) 3) : sProp 𝕄) := by
  simp only [k0_part4_eq_skeleton]; unfold k0_part4_skel
  iintro ⟨HR, #Hmw, ⟨%W0, %hW0, HO⟩, ⟨%fd1, HG1⟩, Hs1, ⟨%fd2, HS2⟩, HW2, Hg2, ⟨%fd3, HS3⟩, HW3, Hg3, ⟨%fd4, HS4⟩, HW4, Hg4, ⟨%fd5, HG5⟩, Hs5, ⟨%fd6, HG6⟩, Hs6, ⟨%fd7, HG7⟩, Hs7, IT, ID, OT, OD⟩
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW1 := wstep hW0 (SemLoc.dma cc0_scratch16.sem)
  ihave Ho := (Entails.of_eq (out_val d L fI fW hin fO (1 : Fin 50) bV2 _)) $$ Ho
  ihave OD := (Entails.of_eq (done_put (blkPts d L (Gath fI fW)) 1 (by decide))) $$ [Ho OD]
  · isplitl [Ho]; · iexact Ho
    iexact OD
  ihave IT' := (Entails.of_eq (todo_take (rowPts d L fI) 8 41 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (8 : Fin 50))) $$ [HW2 Hb2 Hr Hg2]
  · isplitl [HW2]; · iexact HW2
    isplitl [Hb2]; · iexact Hb2
    isplitl [Hr]; · iexact Hr
    iexact Hg2
  iintro HG2
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW2 := wstep hW1 (SemLoc.dma cc0_scratch12.sem)
  ihave ID := (Entails.of_eq (done_put (rowPts d L fI) 4 (by decide))) $$ [Hr ID]
  · isplitl [Hr]; · iexact Hr
    iexact ID
  ihave OT' := (Entails.of_eq (todo_take (blkPts d L fO) 4 45 (by decide))) $$ OT
  icases OT' with ⟨Ho, OT⟩
  iapply (Transfers.wp_dmaLocal countersEmb 𝒱₀ thr none (default : HIx 1) _ rfl
      (show 0 < (oBlkK L (4 : Fin 50)).view.amount (SemLoc.dma cc0_scratch19.sem) from View.dmaCredit_pos (oBlkK L (4 : Fin 50)).view (by decide)) (Finset.Subset.refl _)) $$ [Hb5 Ho Hs5]
  · isplitl [Hb5]; · iexact Hb5
    isplitl [Ho]; · iexact Ho
    iexact Hs5
  iintro HS5
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW3 := wstep hW2 (SemLoc.dma cc0_scratch17.sem)
  ihave Ho := (Entails.of_eq (out_val d L fI fW hin fO (2 : Fin 50) bV3 _)) $$ Ho
  ihave OD := (Entails.of_eq (done_put (blkPts d L (Gath fI fW)) 2 (by decide))) $$ [Ho OD]
  · isplitl [Ho]; · iexact Ho
    iexact OD
  ihave IT' := (Entails.of_eq (todo_take (rowPts d L fI) 9 40 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (9 : Fin 50))) $$ [HW3 Hb3 Hr Hg3]
  · isplitl [HW3]; · iexact HW3
    isplitl [Hb3]; · iexact Hb3
    isplitl [Hr]; · iexact Hr
    iexact Hg3
  iintro HG3
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW4 := wstep hW3 (SemLoc.dma cc0_scratch13.sem)
  ihave ID := (Entails.of_eq (done_put (rowPts d L fI) 5 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW4
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [Hb6]
  · iexists _; iexact Hb6
  isplitl [HW6]
  · iexact HW6
  isplitl [Hg6]
  · iexact Hg6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_5 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (c50_i32_93 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (7 : Fin 50) fd)
        ∗ semVal (thr, SemLoc.dma cc0_scratch15.sem) 0
        ∗ (∃ fd, GFl d L fI fW hin bV2 cc0_scratch9.sem q2 (8 : Fin 50) fd)
        ∗ semVal (thr, SemLoc.dma cc0_scratch16.sem) 0
        ∗ (∃ fd, GFl d L fI fW hin bV3 cc0_scratch10.sem q3 (9 : Fin 50) fd)
        ∗ semVal (thr, SemLoc.dma cc0_scratch17.sem) 0
        ∗ (∃ fd, SFl d L fI fW hin fO bV4 cc0_scratch18.sem (3 : Fin 50) fd)
        ∗ wPts d L fW q4
        ∗ semVal (thr, SemLoc.dma cc0_scratch11.sem) 0
        ∗ (∃ fd, SFl d L fI fW hin fO bV5 cc0_scratch19.sem (4 : Fin 50) fd)
        ∗ wPts d L fW q5
        ∗ semVal (thr, SemLoc.dma cc0_scratch12.sem) 0
        ∗ (∃ fd, bPts d L bV6 (View.write (Elt F) (bV6).view fd (gP d L fI fW hin (5 : Fin 50)) Finset.univ))
        ∗ wPts d L fW q6
        ∗ semVal (thr, SemLoc.dma cc0_scratch13.sem) 0
        ∗ semVal (thr, SemLoc.dma cc0_scratch20.sem) 0
        ∗ (∃ fd, GFl d L fI fW hin bV7 cc0_scratch14.sem q7 (6 : Fin 50) fd)
        ∗ semVal (thr, SemLoc.dma cc0_scratch21.sem) 0
        ∗ Todo (pc (rowPts d L fI)) 10 40
        ∗ Done (pc (rowPts d L fI)) 6
        ∗ Todo (pc (blkPts d L fO)) 5 45
        ∗ Done (pc (blkPts d L (Gath fI fW))) 3)
      ⊢ (wp frame (wpE (defs₀ (F := F)) 𝒱₀ thr none) Set.univ (k0_part5 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 c50_i32_93)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (7 : Fin 50) fd)
            ∗ semVal (thr, SemLoc.dma cc0_scratch15.sem) 0
            ∗ (∃ fd, GFl d L fI fW hin bV2 cc0_scratch9.sem q2 (8 : Fin 50) fd)
            ∗ semVal (thr, SemLoc.dma cc0_scratch16.sem) 0
            ∗ (∃ fd, GFl d L fI fW hin bV3 cc0_scratch10.sem q3 (9 : Fin 50) fd)
            ∗ semVal (thr, SemLoc.dma cc0_scratch17.sem) 0
            ∗ (∃ fd, GFl d L fI fW hin bV4 cc0_scratch11.sem q4 (10 : Fin 50) fd)
            ∗ semVal (thr, SemLoc.dma cc0_scratch18.sem) 0
            ∗ (∃ f, bPts d L bV5 f)
            ∗ wPts d L fW q5
            ∗ semVal (thr, SemLoc.dma cc0_scratch12.sem) 0
            ∗ semVal (thr, SemLoc.dma cc0_scratch19.sem) 0
            ∗ (∃ fd, SFl d L fI fW hin fO bV6 cc0_scratch20.sem (5 : Fin 50) fd)
            ∗ wPts d L fW q6
            ∗ semVal (thr, SemLoc.dma cc0_scratch13.sem) 0
            ∗ (∃ fd, SFl d L fI fW hin fO bV7 cc0_scratch21.sem (6 : Fin 50) fd)
            ∗ wPts d L fW q7
            ∗ semVal (thr, SemLoc.dma cc0_scratch14.sem) 0
            ∗ Todo (pc (rowPts d L fI)) 11 39
            ∗ Done (pc (rowPts d L fI)) 7
            ∗ Todo (pc (blkPts d L fO)) 7 43
            ∗ Done (pc (blkPts d L (Gath fI fW))) 5) : sProp 𝕄) := by
  simp only [k0_part5_eq_skeleton]; unfold k0_part5_skel
  iintro ⟨HR, #Hmw, ⟨%W0, %hW0, HO⟩, ⟨%fd1, HG1⟩, Hs1, ⟨%fd2, HG2⟩, Hs2, ⟨%fd3, HG3⟩, Hs3, ⟨%fd4, HS4⟩, HW4, Hg4, ⟨%fd5, HS5⟩, HW5, Hg5, ⟨%fd6, Hb6⟩, HW6, Hg6, Hs6, ⟨%fd7, HG7⟩, Hs7, IT, ID, OT, OD⟩
  ihave OT' := (Entails.of_eq (todo_take (blkPts d L fO) 5 44 (by decide))) $$ OT
  icases OT' with ⟨Ho, OT⟩
  iapply (Transfers.wp_dmaLocal countersEmb 𝒱₀ thr none (default : HIx 1) _ rfl
      (show 0 < (oBlkK L (5 : Fin 50)).view.amount (SemLoc.dma cc0_scratch20.sem) from View.dmaCredit_pos (oBlkK L (5 : Fin 50)).view (by decide)) (Finset.Subset.refl _)) $$ [Hb6 Ho Hs6]
  · isplitl [Hb6]; · iexact Hb6
    isplitl [Ho]; · iexact Ho
    iexact Hs6
  iintro HS6
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW1 := wstep hW0 (SemLoc.dma cc0_scratch18.sem)
  ihave Ho := (Entails.of_eq (out_val d L fI fW hin fO (3 : Fin 50) bV4 _)) $$ Ho
  ihave OD := (Entails.of_eq (done_put (blkPts d L (Gath fI fW)) 3 (by decide))) $$ [Ho OD]
  · isplitl [Ho]; · iexact Ho
    iexact OD
  ihave IT' := (Entails.of_eq (todo_take (rowPts d L fI) 10 39 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (10 : Fin 50))) $$ [HW4 Hb4 Hr Hg4]
  · isplitl [HW4]; · iexact HW4
    isplitl [Hb4]; · iexact Hb4
    isplitl [Hr]; · iexact Hr
    iexact Hg4
  iintro HG4
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW2 := wstep hW1 (SemLoc.dma cc0_scratch14.sem)
  ihave ID := (Entails.of_eq (done_put (rowPts d L fI) 6 (by decide))) $$ [Hr ID]
  · isplitl [Hr]; · iexact Hr
    iexact ID
  ihave OT' := (Entails.of_eq (todo_take (blkPts d L fO) 6 43 (by decide))) $$ OT
  icases OT' with ⟨Ho, OT⟩
  iapply (Transfers.wp_dmaLocal countersEmb 𝒱₀ thr none (default : HIx 1) _ rfl
      (show 0 < (oBlkK L (6 : Fin 50)).view.amount (SemLoc.dma cc0_scratch21.sem) from View.dmaCredit_pos (oBlkK L (6 : Fin 50)).view (by decide)) (Finset.Subset.refl _)) $$ [Hb7 Ho Hs7]
  · isplitl [Hb7]; · iexact Hb7
    isplitl [Ho]; · iexact Ho
    iexact Hs7
  iintro HS7
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW3 := wstep hW2 (SemLoc.dma cc0_scratch19.sem)
  ihave Ho := (Entails.of_eq (out_val d L fI fW hin fO (4 : Fin 50) bV5 _)) $$ Ho
  ihave OD := (Entails.of_eq (done_put (blkPts d L (Gath fI fW)) 4 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [Hb5]
  · iexists _; iexact Hb5
  isplitl [HW5]
  · iexact HW5
  isplitl [Hg5]
  · iexact Hg5
  isplitl [Hs5]
  · iexact Hs5
  isplitl [HS6]
  · iexists _; iexact HS6
  isplitl [HW6]
  · iexact HW6
  isplitl [Hg6]
  · iexact Hg6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_6 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (7 : Fin 50) fd)
        ∗ semVal (thr, SemLoc.dma cc0_scratch15.sem) 0
        ∗ (∃ fd, GFl d L fI fW hin bV2 cc0_scratch9.sem q2 (8 : Fin 50) fd)
        ∗ semVal (thr, SemLoc.dma cc0_scratch16.sem) 0
        ∗ (∃ fd, GFl d L fI fW hin bV3 cc0_scratch10.sem q3 (9 : Fin 50) fd)
        ∗ semVal (thr, SemLoc.dma cc0_scratch17.sem) 0
        ∗ (∃ fd, GFl d L fI fW hin bV4 cc0_scratch11.sem q4 (10 : Fin 50) fd)
        ∗ semVal (thr, SemLoc.dma cc0_scratch18.sem) 0
        ∗ (∃ f, bPts d L bV5 f)
        ∗ wPts d L fW q5
        ∗ semVal (thr, SemLoc.dma cc0_scratch12.sem) 0
        ∗ semVal (thr, SemLoc.dma cc0_scratch19.sem) 0
        ∗ (∃ fd, SFl d L fI fW hin fO bV6 cc0_scratch20.sem (5 : Fin 50) fd)
        ∗ wPts d L fW q6
        ∗ semVal (thr, SemLoc.dma cc0_scratch13.sem) 0
        ∗ (∃ fd, SFl d L fI fW hin fO bV7 cc0_scratch21.sem (6 : Fin 50) fd)
        ∗ wPts d L fW q7
        ∗ semVal (thr, SemLoc.dma cc0_scratch14.sem) 0
        ∗ Todo (pc (rowPts d L fI)) 11 39
        ∗ Done (pc (rowPts d L fI)) 7
        ∗ Todo (pc (blkPts d L fO)) 7 43
        ∗ Done (pc (blkPts d L (Gath fI fW))) 5)
      ⊢ (wp frame (wpE (defs₀ (F := F)) 𝒱₀ thr none) Set.univ (k0_part6 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (7 : Fin 50) fd)
            ∗ wPts d L fW q1
            ∗ semVal (thr, SemLoc.dma cc0_scratch8.sem) 0
            ∗ (∃ fd, bPts d L bV2 (View.write (Elt F) (bV2).view fd (gP d L fI fW hin (8 : Fin 50)) Finset.univ))
            ∗ wPts d L fW q2
            ∗ semVal (thr, SemLoc.dma cc0_scratch9.sem) 0
            ∗ semVal (thr, SemLoc.dma cc0_scratch16.sem) 0
            ∗ (∃ fd, GFl d L fI fW hin bV3 cc0_scratch10.sem q3 (9 : Fin 50) fd)
            ∗ semVal (thr, SemLoc.dma cc0_scratch17.sem) 0
            ∗ (∃ fd, GFl d L fI fW hin bV4 cc0_scratch11.sem q4 (10 : Fin 50) fd)
            ∗ semVal (thr, SemLoc.dma cc0_scratch18.sem) 0
            ∗ (∃ fd, GFl d L fI fW hin bV5 cc0_scratch12.sem q5 (11 : Fin 50) fd)
            ∗ semVal (thr, SemLoc.dma cc0_scratch19.sem) 0
            ∗ (∃ fd, GFl d L fI fW hin bV6 cc0_scratch13.sem q6 (12 : Fin 50) fd)
            ∗ semVal (thr, SemLoc.dma cc0_scratch20.sem) 0
            ∗ (∃ fd, SFl d L fI fW hin fO bV7 cc0_scratch21.sem (6 : Fin 50) fd)
            ∗ wPts d L fW q7
            ∗ semVal (thr, SemLoc.dma cc0_scratch14.sem) 0
            ∗ Todo (pc (rowPts d L fI)) 13 37
            ∗ Done (pc (rowPts d L fI)) 9
            ∗ Todo (pc (blkPts d L fO)) 8 42
            ∗ Done (pc (blkPts d L (Gath fI fW))) 6) : sProp 𝕄) := by
  simp only [k0_part6_eq_skeleton]; unfold k0_part6_skel
  iintro ⟨HR, #Hmw, ⟨%W0, %hW0, HO⟩, ⟨%fd1, HG1⟩, Hs1, ⟨%fd2, HG2⟩, Hs2, ⟨%fd3, HG3⟩, Hs3, ⟨%fd4, HG4⟩, Hs4, ⟨%fd5, Hb5⟩, HW5, Hg5, Hs5, ⟨%fd6, HS6⟩, HW6, Hg6, ⟨%fd7, HS7⟩, HW7, Hg7, IT, ID, OT, OD⟩
  ihave IT' := (Entails.of_eq (todo_take (rowPts d L fI) 11 38 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (11 : Fin 50))) $$ [HW5 Hb5 Hr Hg5]
  · isplitl [HW5]; · iexact HW5
    isplitl [Hb5]; · iexact Hb5
    isplitl [Hr]; · iexact Hr
    iexact Hg5
  iintro HG5
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW1 := wstep hW0 (SemLoc.dma cc0_scratch8.sem)
  ihave ID := (Entails.of_eq (done_put (rowPts d L fI) 7 (by decide))) $$ [Hr ID]
  · isplitl [Hr]; · iexact Hr
    iexact ID
  ihave OT' := (Entails.of_eq (todo_take (blkPts d L fO) 7 42 (by decide))) $$ OT
  icases OT' with ⟨Ho, OT⟩
  iapply (Transfers.wp_dmaLocal countersEmb 𝒱₀ thr none (default : HIx 1) _ rfl
      (show 0 < (oBlkK L (7 : Fin 50)).view.amount (SemLoc.dma cc0_scratch15.sem) from View.dmaCredit_pos (oBlkK L (7 : Fin 50)).view (by decide)) (Finset.Subset.refl _)) $$ [Hb1 Ho Hs1]
  · isplitl [Hb1]; · iexact Hb1
    isplitl [Ho]; · iexact Ho
    iexact Hs1
  iintro HS1
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW2 := wstep hW1 (SemLoc.dma cc0_scratch20.sem)
  ihave Ho := (Entails.of_eq (out_val d L fI fW hin fO (5 : Fin 50) bV6 _)) $$ Ho
  ihave OD := (Entails.of_eq (done_put (blkPts d L (Gath fI fW)) 5 (by decide))) $$ [Ho OD]
  · isplitl [Ho]; · iexact Ho
    iexact OD
  ihave IT' := (Entails.of_eq (todo_take (rowPts d L fI) 12 37 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (12 : Fin 50))) $$ [HW6 Hb6 Hr Hg6]
  · isplitl [HW6]; · iexact HW6
    isplitl [Hb6]; · iexact Hb6
    isplitl [Hr]; · iexact Hr
    iexact Hg6
  iintro HG6
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW3 := wstep hW2 (SemLoc.dma cc0_scratch9.sem)
  ihave ID := (Entails.of_eq (done_put (rowPts d L fI) 8 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [Hb2]
  · iexists _; iexact Hb2
  isplitl [HW2]
  · iexact HW2
  isplitl [Hg2]
  · iexact Hg2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_7 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (7 : Fin 50) fd)
        ∗ wPts d L fW q1
        ∗ semVal (thr, SemLoc.dma cc0_scratch8.sem) 0
        ∗ (∃ fd, bPts d L bV2 (View.write (Elt F) (bV2).view fd (gP d L fI fW hin (8 : Fin 50)) Finset.univ))
        ∗ wPts d L fW q2
        ∗ semVal (thr, SemLoc.dma cc0_scratch9.sem) 0
        ∗ semVal (thr, SemLoc.dma cc0_scratch16.sem) 0
        ∗ (∃ fd, GFl d L fI fW hin bV3 cc0_scratch10.sem q3 (9 : Fin 50) fd)
        ∗ semVal (thr, SemLoc.dma cc0_scratch17.sem) 0
        ∗ (∃ fd, GFl d L fI fW hin bV4 cc0_scratch11.sem q4 (10 : Fin 50) fd)
        ∗ semVal (thr, SemLoc.dma cc0_scratch18.sem) 0
        ∗ (∃ fd, GFl d L fI fW hin bV5 cc0_scratch12.sem q5 (11 : Fin 50) fd)
        ∗ semVal (thr, SemLoc.dma cc0_scratch19.sem) 0
        ∗ (∃ fd, GFl d L fI fW hin bV6 cc0_scratch13.sem q6 (12 : Fin 50) fd)
        ∗ semVal (thr, SemLoc.dma cc0_scratch20.sem) 0
        ∗ (∃ fd, SFl d L fI fW hin fO bV7 cc0_scratch21.sem (6 : Fin 50) fd)
        ∗ wPts d L fW q7
        ∗ semVal (thr, SemLoc.dma cc0_scratch14.sem) 0
        ∗ Todo (pc (rowPts d L fI)) 13 37
        ∗ Done (pc (rowPts d L fI)) 9
        ∗ Todo (pc (blkPts d L fO)) 8 42
        ∗ Done (pc (blkPts d L (Gath fI fW))) 6)
      ⊢ (wp frame (wpE (defs₀ (F := F)) 𝒱₀ thr none) Set.univ (k0_part7 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ f, bPts d L bV1 f)
            ∗ wPts d L fW q1
            ∗ semVal (thr, SemLoc.dma cc0_scratch8.sem) 0
            ∗ semVal (thr, SemLoc.dma cc0_scratch15.sem) 0
            ∗ (∃ fd, SFl d L fI fW hin fO bV2 cc0_scratch16.sem (8 : Fin 50) fd)
            ∗ wPts d L fW q2
            ∗ semVal (thr, SemLoc.dma cc0_scratch9.sem) 0
            ∗ (∃ fd, SFl d L fI fW hin fO bV3 cc0_scratch17.sem (9 : Fin 50) fd)
            ∗ wPts d L fW q3
            ∗ semVal (thr, SemLoc.dma cc0_scratch10.sem) 0
            ∗ (∃ fd, GFl d L fI fW hin bV4 cc0_scratch11.sem q4 (10 : Fin 50) fd)
            ∗ semVal (thr, SemLoc.dma cc0_scratch18.sem) 0
            ∗ (∃ fd, GFl d L fI fW hin bV5 cc0_scratch12.sem q5 (11 : Fin 50) fd)
            ∗ semVal (thr, SemLoc.dma cc0_scratch19.sem) 0
            ∗ (∃ fd, GFl d L fI fW hin bV6 cc0_scratch13.sem q6 (12 : Fin 50) fd)
            ∗ semVal (thr, SemLoc.dma cc0_scratch20.sem) 0
            ∗ (∃ fd, GFl d L fI fW hin bV7 cc0_scratch14.sem q7 (13 : Fin 50) fd)
            ∗ semVal (thr, SemLoc.dma cc0_scratch21.sem) 0
            ∗ Todo (pc (rowPts d L fI)) 14 36
            ∗ Done (pc (rowPts d L fI)) 10
            ∗ Todo (pc (blkPts d L fO)) 10 40
            ∗ Done (pc (blkPts d L (Gath fI fW))) 8) : sProp 𝕄) := by
  simp only [k0_part7_eq_skeleton]; unfold k0_part7_skel
  iintro ⟨HR, #Hmw, ⟨%W0, %hW0, HO⟩, ⟨%fd1, HS1⟩, HW1, Hg1, ⟨%fd2, Hb2⟩, HW2, Hg2, Hs2, ⟨%fd3, HG3⟩, Hs3, ⟨%fd4, HG4⟩, Hs4, ⟨%fd5, HG5⟩, Hs5, ⟨%fd6, HG6⟩, Hs6, ⟨%fd7, HS7⟩, HW7, Hg7, IT, ID, OT, OD⟩
  ihave OT' := (Entails.of_eq (todo_take (blkPts d L fO) 8 41 (by decide))) $$ OT
  icases OT' with ⟨Ho, OT⟩
  iapply (Transfers.wp_dmaLocal countersEmb 𝒱₀ thr none (default : HIx 1) _ rfl
      (show 0 < (oBlkK L (8 : Fin 50)).view.amount (SemLoc.dma cc0_scratch16.sem) from View.dmaCredit_pos (oBlkK L (8 : Fin 50)).view (by decide)) (Finset.Subset.refl _)) $$ [Hb2 Ho Hs2]
  · isplitl [Hb2]; · iexact Hb2
    isplitl [Ho]; · iexact Ho
    iexact Hs2
  iintro HS2
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW1 := wstep hW0 (SemLoc.dma cc0_scratch21.sem)
  ihave Ho := (Entails.of_eq (out_val d L fI fW hin fO (6 : Fin 50) bV7 _)) $$ Ho
  ihave OD := (Entails.of_eq (done_put (blkPts d L (Gath fI fW)) 6 (by decide))) $$ [Ho OD]
  · isplitl [Ho]; · iexact Ho
    iexact OD
  ihave IT' := (Entails.of_eq (todo_take (rowPts d L fI) 13 36 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (13 : Fin 50))) $$ [HW7 Hb7 Hr Hg7]
  · isplitl [HW7]; · iexact HW7
    isplitl [Hb7]; · iexact Hb7
    isplitl [Hr]; · iexact Hr
    iexact Hg7
  iintro HG7
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW2 := wstep hW1 (SemLoc.dma cc0_scratch10.sem)
  ihave ID := (Entails.of_eq (done_put (rowPts d L fI) 9 (by decide))) $$ [Hr ID]
  · isplitl [Hr]; · iexact Hr
    iexact ID
  ihave OT' := (Entails.of_eq (todo_take (blkPts d L fO) 9 40 (by decide))) $$ OT
  icases OT' with ⟨Ho, OT⟩
  iapply (Transfers.wp_dmaLocal countersEmb 𝒱₀ thr none (default : HIx 1) _ rfl
      (show 0 < (oBlkK L (9 : Fin 50)).view.amount (SemLoc.dma cc0_scratch17.sem) from View.dmaCredit_pos (oBlkK L (9 : Fin 50)).view (by decide)) (Finset.Subset.refl _)) $$ [Hb3 Ho Hs3]
  · isplitl [Hb3]; · iexact Hb3
    isplitl [Ho]; · iexact Ho
    iexact Hs3
  iintro HS3
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW3 := wstep hW2 (SemLoc.dma cc0_scratch15.sem)
  ihave Ho := (Entails.of_eq (out_val d L fI fW hin fO (7 : Fin 50) bV1 _)) $$ Ho
  ihave OD := (Entails.of_eq (done_put (blkPts d L (Gath fI fW)) 7 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [Hb1]
  · iexists _; iexact Hb1
  isplitl [HW1]
  · iexact HW1
  isplitl [Hg1]
  · iexact Hg1
  isplitl [Hs1]
  · iexact Hs1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_8 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ f, bPts d L bV1 f)
        ∗ wPts d L fW q1
        ∗ semVal (thr, SemLoc.dma cc0_scratch8.sem) 0
        ∗ semVal (thr, SemLoc.dma cc0_scratch15.sem) 0
        ∗ (∃ fd, SFl d L fI fW hin fO bV2 cc0_scratch16.sem (8 : Fin 50) fd)
        ∗ wPts d L fW q2
        ∗ semVal (thr, SemLoc.dma cc0_scratch9.sem) 0
        ∗ (∃ fd, SFl d L fI fW hin fO bV3 cc0_scratch17.sem (9 : Fin 50) fd)
        ∗ wPts d L fW q3
        ∗ semVal (thr, SemLoc.dma cc0_scratch10.sem) 0
        ∗ (∃ fd, GFl d L fI fW hin bV4 cc0_scratch11.sem q4 (10 : Fin 50) fd)
        ∗ semVal (thr, SemLoc.dma cc0_scratch18.sem) 0
        ∗ (∃ fd, GFl d L fI fW hin bV5 cc0_scratch12.sem q5 (11 : Fin 50) fd)
        ∗ semVal (thr, SemLoc.dma cc0_scratch19.sem) 0
        ∗ (∃ fd, GFl d L fI fW hin bV6 cc0_scratch13.sem q6 (12 : Fin 50) fd)
        ∗ semVal (thr, SemLoc.dma cc0_scratch20.sem) 0
        ∗ (∃ fd, GFl d L fI fW hin bV7 cc0_scratch14.sem q7 (13 : Fin 50) fd)
        ∗ semVal (thr, SemLoc.dma cc0_scratch21.sem) 0
        ∗ Todo (pc (rowPts d L fI)) 14 36
        ∗ Done (pc (rowPts d L fI)) 10
        ∗ Todo (pc (blkPts d L fO)) 10 40
        ∗ Done (pc (blkPts d L (Gath fI fW))) 8)
      ⊢ (wp frame (wpE (defs₀ (F := F)) 𝒱₀ thr none) Set.univ (k0_part8 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (14 : Fin 50) fd)
            ∗ semVal (thr, SemLoc.dma cc0_scratch15.sem) 0
            ∗ (∃ fd, GFl d L fI fW hin bV2 cc0_scratch9.sem q2 (15 : Fin 50) fd)
            ∗ semVal (thr, SemLoc.dma cc0_scratch16.sem) 0
            ∗ (∃ fd, SFl d L fI fW hin fO bV3 cc0_scratch17.sem (9 : Fin 50) fd)
            ∗ wPts d L fW q3
            ∗ semVal (thr, SemLoc.dma cc0_scratch10.sem) 0
            ∗ (∃ fd, SFl d L fI fW hin fO bV4 cc0_scratch18.sem (10 : Fin 50) fd)
            ∗ wPts d L fW q4
            ∗ semVal (thr, SemLoc.dma cc0_scratch11.sem) 0
            ∗ (∃ fd, SFl d L fI fW hin fO bV5 cc0_scratch19.sem (11 : Fin 50) fd)
            ∗ wPts d L fW q5
            ∗ semVal (thr, SemLoc.dma cc0_scratch12.sem) 0
            ∗ (∃ fd, GFl d L fI fW hin bV6 cc0_scratch13.sem q6 (12 : Fin 50) fd)
            ∗ semVal (thr, SemLoc.dma cc0_scratch20.sem) 0
            ∗ (∃ fd, GFl d L fI fW hin bV7 cc0_scratch14.sem q7 (13 : Fin 50) fd)
            ∗ semVal (thr, SemLoc.dma cc0_scratch21.sem) 0
            ∗ Todo (pc (rowPts d L fI)) 16 34
            ∗ Done (pc (rowPts d L fI)) 12
            ∗ Todo (pc (blkPts d L fO)) 12 38
            ∗ Done (pc (blkPts d L (Gath fI fW))) 9) : sProp 𝕄) := by
  simp only [k0_part8_eq_skeleton]; unfold k0_part8_skel
  iintro ⟨HR, #Hmw, ⟨%W0, %hW0, HO⟩, ⟨%fd1, Hb1⟩, HW1, Hg1, Hs1, ⟨%fd2, HS2⟩, HW2, Hg2, ⟨%fd3, HS3⟩, HW3, Hg3, ⟨%fd4, HG4⟩, Hs4, ⟨%fd5, HG5⟩, Hs5, ⟨%fd6, HG6⟩, Hs6, ⟨%fd7, HG7⟩, Hs7, IT, ID, OT, OD⟩
  ihave IT' := (Entails.of_eq (todo_take (rowPts d L fI) 14 35 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (14 : Fin 50))) $$ [HW1 Hb1 Hr Hg1]
  · isplitl [HW1]; · iexact HW1
    isplitl [Hb1]; · iexact Hb1
    isplitl [Hr]; · iexact Hr
    iexact Hg1
  iintro HG1
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW1 := wstep hW0 (SemLoc.dma cc0_scratch11.sem)
  ihave ID := (Entails.of_eq (done_put (rowPts d L fI) 10 (by decide))) $$ [Hr ID]
  · isplitl [Hr]; · iexact Hr
    iexact ID
  ihave OT' := (Entails.of_eq (todo_take (blkPts d L fO) 10 39 (by decide))) $$ OT
  icases OT' with ⟨Ho, OT⟩
  iapply (Transfers.wp_dmaLocal countersEmb 𝒱₀ thr none (default : HIx 1) _ rfl
      (show 0 < (oBlkK L (10 : Fin 50)).view.amount (SemLoc.dma cc0_scratch18.sem) from View.dmaCredit_pos (oBlkK L (10 : Fin 50)).view (by decide)) (Finset.Subset.refl _)) $$ [Hb4 Ho Hs4]
  · isplitl [Hb4]; · iexact Hb4
    isplitl [Ho]; · iexact Ho
    iexact Hs4
  iintro HS4
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW2 := wstep hW1 (SemLoc.dma cc0_scratch16.sem)
  ihave Ho := (Entails.of_eq (out_val d L fI fW hin fO (8 : Fin 50) bV2 _)) $$ Ho
  ihave OD := (Entails.of_eq (done_put (blkPts d L (Gath fI fW)) 8 (by decide))) $$ [Ho OD]
  · isplitl [Ho]; · iexact Ho
    iexact OD
  ihave IT' := (Entails.of_eq (todo_take (rowPts d L fI) 15 34 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (15 : Fin 50))) $$ [HW2 Hb2 Hr Hg2]
  · isplitl [HW2]; · iexact HW2
    isplitl [Hb2]; · iexact Hb2
    isplitl [Hr]; · iexact Hr
    iexact Hg2
  iintro HG2
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW3 := wstep hW2 (SemLoc.dma cc0_scratch12.sem)
  ihave ID := (Entails.of_eq (done_put (rowPts d L fI) 11 (by decide))) $$ [Hr ID]
  · isplitl [Hr]; · iexact Hr
    iexact ID
  ihave OT' := (Entails.of_eq (todo_take (blkPts d L fO) 11 38 (by decide))) $$ OT
  icases OT' with ⟨Ho, OT⟩
  iapply (Transfers.wp_dmaLocal countersEmb 𝒱₀ thr none (default : HIx 1) _ rfl
      (show 0 < (oBlkK L (11 : Fin 50)).view.amount (SemLoc.dma cc0_scratch19.sem) from View.dmaCredit_pos (oBlkK L (11 : Fin 50)).view (by decide)) (Finset.Subset.refl _)) $$ [Hb5 Ho Hs5]
  · isplitl [Hb5]; · iexact Hb5
    isplitl [Ho]; · iexact Ho
    iexact Hs5
  iintro HS5
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_9 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v191 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (14 : Fin 50) fd)
        ∗ semVal (thr, SemLoc.dma cc0_scratch15.sem) 0
        ∗ (∃ fd, GFl d L fI fW hin bV2 cc0_scratch9.sem q2 (15 : Fin 50) fd)
        ∗ semVal (thr, SemLoc.dma cc0_scratch16.sem) 0
        ∗ (∃ fd, SFl d L fI fW hin fO bV3 cc0_scratch17.sem (9 : Fin 50) fd)
        ∗ wPts d L fW q3
        ∗ semVal (thr, SemLoc.dma cc0_scratch10.sem) 0
        ∗ (∃ fd, SFl d L fI fW hin fO bV4 cc0_scratch18.sem (10 : Fin 50) fd)
        ∗ wPts d L fW q4
        ∗ semVal (thr, SemLoc.dma cc0_scratch11.sem) 0
        ∗ (∃ fd, SFl d L fI fW hin fO bV5 cc0_scratch19.sem (11 : Fin 50) fd)
        ∗ wPts d L fW q5
        ∗ semVal (thr, SemLoc.dma cc0_scratch12.sem) 0
        ∗ (∃ fd, GFl d L fI fW hin bV6 cc0_scratch13.sem q6 (12 : Fin 50) fd)
        ∗ semVal (thr, SemLoc.dma cc0_scratch20.sem) 0
        ∗ (∃ fd, GFl d L fI fW hin bV7 cc0_scratch14.sem q7 (13 : Fin 50) fd)
        ∗ semVal (thr, SemLoc.dma cc0_scratch21.sem) 0
        ∗ Todo (pc (rowPts d L fI)) 16 34
        ∗ Done (pc (rowPts d L fI)) 12
        ∗ Todo (pc (blkPts d L fO)) 12 38
        ∗ Done (pc (blkPts d L (Gath fI fW))) 9)
      ⊢ (wp frame (wpE (defs₀ (F := F)) 𝒱₀ thr none) Set.univ (k0_part9 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v191)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (14 : Fin 50) fd)
            ∗ semVal (thr, SemLoc.dma cc0_scratch15.sem) 0
            ∗ (∃ fd, GFl d L fI fW hin bV2 cc0_scratch9.sem q2 (15 : Fin 50) fd)
            ∗ semVal (thr, SemLoc.dma cc0_scratch16.sem) 0
            ∗ (∃ fd, GFl d L fI fW hin bV3 cc0_scratch10.sem q3 (16 : Fin 50) fd)
            ∗ semVal (thr, SemLoc.dma cc0_scratch17.sem) 0
            ∗ (∃ fd, GFl d L fI fW hin bV4 cc0_scratch11.sem q4 (17 : Fin 50) fd)
            ∗ semVal (thr, SemLoc.dma cc0_scratch18.sem) 0
            ∗ (∃ fd, SFl d L fI fW hin fO bV5 cc0_scratch19.sem (11 : Fin 50) fd)
            ∗ wPts d L fW q5
            ∗ semVal (thr, SemLoc.dma cc0_scratch12.sem) 0
            ∗ (∃ fd, SFl d L fI fW hin fO bV6 cc0_scratch20.sem (12 : Fin 50) fd)
            ∗ wPts d L fW q6
            ∗ semVal (thr, SemLoc.dma cc0_scratch13.sem) 0
            ∗ (∃ fd, GFl d L fI fW hin bV7 cc0_scratch14.sem q7 (13 : Fin 50) fd)
            ∗ semVal (thr, SemLoc.dma cc0_scratch21.sem) 0
            ∗ Todo (pc (rowPts d L fI)) 18 32
            ∗ Done (pc (rowPts d L fI)) 13
            ∗ Todo (pc (blkPts d L fO)) 13 37
            ∗ Done (pc (blkPts d L (Gath fI fW))) 11) : sProp 𝕄) := by
  simp only [k0_part9_eq_skeleton]; unfold k0_part9_skel
  iintro ⟨HR, #Hmw, ⟨%W0, %hW0, HO⟩, ⟨%fd1, HG1⟩, Hs1, ⟨%fd2, HG2⟩, Hs2, ⟨%fd3, HS3⟩, HW3, Hg3, ⟨%fd4, HS4⟩, HW4, Hg4, ⟨%fd5, HS5⟩, HW5, Hg5, ⟨%fd6, HG6⟩, Hs6, ⟨%fd7, HG7⟩, Hs7, IT, ID, OT, OD⟩
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW1 := wstep hW0 (SemLoc.dma cc0_scratch17.sem)
  ihave Ho := (Entails.of_eq (out_val d L fI fW hin fO (9 : Fin 50) bV3 _)) $$ Ho
  ihave OD := (Entails.of_eq (done_put (blkPts d L (Gath fI fW)) 9 (by decide))) $$ [Ho OD]
  · isplitl [Ho]; · iexact Ho
    iexact OD
  ihave IT' := (Entails.of_eq (todo_take (rowPts d L fI) 16 33 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (16 : Fin 50))) $$ [HW3 Hb3 Hr Hg3]
  · isplitl [HW3]; · iexact HW3
    isplitl [Hb3]; · iexact Hb3
    isplitl [Hr]; · iexact Hr
    iexact Hg3
  iintro HG3
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW2 := wstep hW1 (SemLoc.dma cc0_scratch13.sem)
  ihave ID := (Entails.of_eq (done_put (rowPts d L fI) 12 (by decide))) $$ [Hr ID]
  · isplitl [Hr]; · iexact Hr
    iexact ID
  ihave OT' := (Entails.of_eq (todo_take (blkPts d L fO) 12 37 (by decide))) $$ OT
  icases OT' with ⟨Ho, OT⟩
  iapply (Transfers.wp_dmaLocal countersEmb 𝒱₀ thr none (default : HIx 1) _ rfl
      (show 0 < (oBlkK L (12 : Fin 50)).view.amount (SemLoc.dma cc0_scratch20.sem) from View.dmaCredit_pos (oBlkK L (12 : Fin 50)).view (by decide)) (Finset.Subset.refl _)) $$ [Hb6 Ho Hs6]
  · isplitl [Hb6]; · iexact Hb6
    isplitl [Ho]; · iexact Ho
    iexact Hs6
  iintro HS6
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW3 := wstep hW2 (SemLoc.dma cc0_scratch18.sem)
  ihave Ho := (Entails.of_eq (out_val d L fI fW hin fO (10 : Fin 50) bV4 _)) $$ Ho
  ihave OD := (Entails.of_eq (done_put (blkPts d L (Gath fI fW)) 10 (by decide))) $$ [Ho OD]
  · isplitl [Ho]; · iexact Ho
    iexact OD
  ihave IT' := (Entails.of_eq (todo_take (rowPts d L fI) 17 32 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (17 : Fin 50))) $$ [HW4 Hb4 Hr Hg4]
  · isplitl [HW4]; · iexact HW4
    isplitl [Hb4]; · iexact Hb4
    isplitl [Hr]; · iexact Hr
    iexact Hg4
  iintro HG4
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HS5]
  · iexists _; iexact HS5
  isplitl [HW5]
  · iexact HW5
  isplitl [Hg5]
  · iexact Hg5
  isplitl [HS6]
  · iexists _; iexact HS6
  isplitl [HW6]
  · iexact HW6
  isplitl [Hg6]
  · iexact Hg6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_10 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (14 : Fin 50) fd)
        ∗ semVal (thr, SemLoc.dma cc0_scratch15.sem) 0
        ∗ (∃ fd, GFl d L fI fW hin bV2 cc0_scratch9.sem q2 (15 : Fin 50) fd)
        ∗ semVal (thr, SemLoc.dma cc0_scratch16.sem) 0
        ∗ (∃ fd, GFl d L fI fW hin bV3 cc0_scratch10.sem q3 (16 : Fin 50) fd)
        ∗ semVal (thr, SemLoc.dma cc0_scratch17.sem) 0
        ∗ (∃ fd, GFl d L fI fW hin bV4 cc0_scratch11.sem q4 (17 : Fin 50) fd)
        ∗ semVal (thr, SemLoc.dma cc0_scratch18.sem) 0
        ∗ (∃ fd, SFl d L fI fW hin fO bV5 cc0_scratch19.sem (11 : Fin 50) fd)
        ∗ wPts d L fW q5
        ∗ semVal (thr, SemLoc.dma cc0_scratch12.sem) 0
        ∗ (∃ fd, SFl d L fI fW hin fO bV6 cc0_scratch20.sem (12 : Fin 50) fd)
        ∗ wPts d L fW q6
        ∗ semVal (thr, SemLoc.dma cc0_scratch13.sem) 0
        ∗ (∃ fd, GFl d L fI fW hin bV7 cc0_scratch14.sem q7 (13 : Fin 50) fd)
        ∗ semVal (thr, SemLoc.dma cc0_scratch21.sem) 0
        ∗ Todo (pc (rowPts d L fI)) 18 32
        ∗ Done (pc (rowPts d L fI)) 13
        ∗ Todo (pc (blkPts d L fO)) 13 37
        ∗ Done (pc (blkPts d L (Gath fI fW))) 11)
      ⊢ (wp frame (wpE (defs₀ (F := F)) 𝒱₀ thr none) Set.univ (k0_part10 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (14 : Fin 50) fd)
            ∗ wPts d L fW q1
            ∗ semVal (thr, SemLoc.dma cc0_scratch8.sem) 0
            ∗ (∃ fd, GFl d L fI fW hin bV2 cc0_scratch9.sem q2 (15 : Fin 50) fd)
            ∗ semVal (thr, SemLoc.dma cc0_scratch16.sem) 0
            ∗ (∃ fd, GFl d L fI fW hin bV3 cc0_scratch10.sem q3 (16 : Fin 50) fd)
            ∗ semVal (thr, SemLoc.dma cc0_scratch17.sem) 0
            ∗ (∃ fd, GFl d L fI fW hin bV4 cc0_scratch11.sem q4 (17 : Fin 50) fd)
            ∗ semVal (thr, SemLoc.dma cc0_scratch18.sem) 0
            ∗ (∃ fd, GFl d L fI fW hin bV5 cc0_scratch12.sem q5 (18 : Fin 50) fd)
            ∗ semVal (thr, SemLoc.dma cc0_scratch19.sem) 0
            ∗ (∃ fd, SFl d L fI fW hin fO bV6 cc0_scratch20.sem (12 : Fin 50) fd)
            ∗ wPts d L fW q6
            ∗ semVal (thr, SemLoc.dma cc0_scratch13.sem) 0
            ∗ (∃ fd, SFl d L fI fW hin fO bV7 cc0_scratch21.sem (13 : Fin 50) fd)
            ∗ wPts d L fW q7
            ∗ semVal (thr, SemLoc.dma cc0_scratch14.sem) 0
            ∗ Todo (pc (rowPts d L fI)) 19 31
            ∗ Done (pc (rowPts d L fI)) 15
            ∗ Todo (pc (blkPts d L fO)) 15 35
            ∗ Done (pc (blkPts d L (Gath fI fW))) 12) : sProp 𝕄) := by
  simp only [k0_part10_eq_skeleton]; unfold k0_part10_skel
  iintro ⟨HR, #Hmw, ⟨%W0, %hW0, HO⟩, ⟨%fd1, HG1⟩, Hs1, ⟨%fd2, HG2⟩, Hs2, ⟨%fd3, HG3⟩, Hs3, ⟨%fd4, HG4⟩, Hs4, ⟨%fd5, HS5⟩, HW5, Hg5, ⟨%fd6, HS6⟩, HW6, Hg6, ⟨%fd7, HG7⟩, Hs7, IT, ID, OT, OD⟩
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW1 := wstep hW0 (SemLoc.dma cc0_scratch14.sem)
  ihave ID := (Entails.of_eq (done_put (rowPts d L fI) 13 (by decide))) $$ [Hr ID]
  · isplitl [Hr]; · iexact Hr
    iexact ID
  ihave OT' := (Entails.of_eq (todo_take (blkPts d L fO) 13 36 (by decide))) $$ OT
  icases OT' with ⟨Ho, OT⟩
  iapply (Transfers.wp_dmaLocal countersEmb 𝒱₀ thr none (default : HIx 1) _ rfl
      (show 0 < (oBlkK L (13 : Fin 50)).view.amount (SemLoc.dma cc0_scratch21.sem) from View.dmaCredit_pos (oBlkK L (13 : Fin 50)).view (by decide)) (Finset.Subset.refl _)) $$ [Hb7 Ho Hs7]
  · isplitl [Hb7]; · iexact Hb7
    isplitl [Ho]; · iexact Ho
    iexact Hs7
  iintro HS7
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW2 := wstep hW1 (SemLoc.dma cc0_scratch19.sem)
  ihave Ho := (Entails.of_eq (out_val d L fI fW hin fO (11 : Fin 50) bV5 _)) $$ Ho
  ihave OD := (Entails.of_eq (done_put (blkPts d L (Gath fI fW)) 11 (by decide))) $$ [Ho OD]
  · isplitl [Ho]; · iexact Ho
    iexact OD
  ihave IT' := (Entails.of_eq (todo_take (rowPts d L fI) 18 31 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (18 : Fin 50))) $$ [HW5 Hb5 Hr Hg5]
  · isplitl [HW5]; · iexact HW5
    isplitl [Hb5]; · iexact Hb5
    isplitl [Hr]; · iexact Hr
    iexact Hg5
  iintro HG5
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW3 := wstep hW2 (SemLoc.dma cc0_scratch8.sem)
  ihave ID := (Entails.of_eq (done_put (rowPts d L fI) 14 (by decide))) $$ [Hr ID]
  · isplitl [Hr]; · iexact Hr
    iexact ID
  ihave OT' := (Entails.of_eq (todo_take (blkPts d L fO) 14 35 (by decide))) $$ OT
  icases OT' with ⟨Ho, OT⟩
  iapply (Transfers.wp_dmaLocal countersEmb 𝒱₀ thr none (default : HIx 1) _ rfl
      (show 0 < (oBlkK L (14 : Fin 50)).view.amount (SemLoc.dma cc0_scratch15.sem) from View.dmaCredit_pos (oBlkK L (14 : Fin 50)).view (by decide)) (Finset.Subset.refl _)) $$ [Hb1 Ho Hs1]
  · isplitl [Hb1]; · iexact Hb1
    isplitl [Ho]; · iexact Ho
    iexact Hs1
  iintro HS1
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HS6]
  · iexists _; iexact HS6
  isplitl [HW6]
  · iexact HW6
  isplitl [Hg6]
  · iexact Hg6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_11 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (14 : Fin 50) fd)
        ∗ wPts d L fW q1
        ∗ semVal (thr, SemLoc.dma cc0_scratch8.sem) 0
        ∗ (∃ fd, GFl d L fI fW hin bV2 cc0_scratch9.sem q2 (15 : Fin 50) fd)
        ∗ semVal (thr, SemLoc.dma cc0_scratch16.sem) 0
        ∗ (∃ fd, GFl d L fI fW hin bV3 cc0_scratch10.sem q3 (16 : Fin 50) fd)
        ∗ semVal (thr, SemLoc.dma cc0_scratch17.sem) 0
        ∗ (∃ fd, GFl d L fI fW hin bV4 cc0_scratch11.sem q4 (17 : Fin 50) fd)
        ∗ semVal (thr, SemLoc.dma cc0_scratch18.sem) 0
        ∗ (∃ fd, GFl d L fI fW hin bV5 cc0_scratch12.sem q5 (18 : Fin 50) fd)
        ∗ semVal (thr, SemLoc.dma cc0_scratch19.sem) 0
        ∗ (∃ fd, SFl d L fI fW hin fO bV6 cc0_scratch20.sem (12 : Fin 50) fd)
        ∗ wPts d L fW q6
        ∗ semVal (thr, SemLoc.dma cc0_scratch13.sem) 0
        ∗ (∃ fd, SFl d L fI fW hin fO bV7 cc0_scratch21.sem (13 : Fin 50) fd)
        ∗ wPts d L fW q7
        ∗ semVal (thr, SemLoc.dma cc0_scratch14.sem) 0
        ∗ Todo (pc (rowPts d L fI)) 19 31
        ∗ Done (pc (rowPts d L fI)) 15
        ∗ Todo (pc (blkPts d L fO)) 15 35
        ∗ Done (pc (blkPts d L (Gath fI fW))) 12)
      ⊢ (wp frame (wpE (defs₀ (F := F)) 𝒱₀ thr none) Set.univ (k0_part11 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (14 : Fin 50) fd)
            ∗ wPts d L fW q1
            ∗ semVal (thr, SemLoc.dma cc0_scratch8.sem) 0
            ∗ (∃ fd, SFl d L fI fW hin fO bV2 cc0_scratch16.sem (15 : Fin 50) fd)
            ∗ wPts d L fW q2
            ∗ semVal (thr, SemLoc.dma cc0_scratch9.sem) 0
            ∗ (∃ fd, bPts d L bV3 (View.write (Elt F) (bV3).view fd (gP d L fI fW hin (16 : Fin 50)) Finset.univ))
            ∗ wPts d L fW q3
            ∗ semVal (thr, SemLoc.dma cc0_scratch10.sem) 0
            ∗ semVal (thr, SemLoc.dma cc0_scratch17.sem) 0
            ∗ (∃ fd, GFl d L fI fW hin bV4 cc0_scratch11.sem q4 (17 : Fin 50) fd)
            ∗ semVal (thr, SemLoc.dma cc0_scratch18.sem) 0
            ∗ (∃ fd, GFl d L fI fW hin bV5 cc0_scratch12.sem q5 (18 : Fin 50) fd)
            ∗ semVal (thr, SemLoc.dma cc0_scratch19.sem) 0
            ∗ (∃ fd, GFl d L fI fW hin bV6 cc0_scratch13.sem q6 (19 : Fin 50) fd)
            ∗ semVal (thr, SemLoc.dma cc0_scratch20.sem) 0
            ∗ (∃ fd, GFl d L fI fW hin bV7 cc0_scratch14.sem q7 (20 : Fin 50) fd)
            ∗ semVal (thr, SemLoc.dma cc0_scratch21.sem) 0
            ∗ Todo (pc (rowPts d L fI)) 21 29
            ∗ Done (pc (rowPts d L fI)) 17
            ∗ Todo (pc (blkPts d L fO)) 16 34
            ∗ Done (pc (blkPts d L (Gath fI fW))) 14) : sProp 𝕄) := by
  simp only [k0_part11_eq_skeleton]; unfold k0_part11_skel
  iintro ⟨HR, #Hmw, ⟨%W0, %hW0, HO⟩, ⟨%fd1, HS1⟩, HW1, Hg1, ⟨%fd2, HG2⟩, Hs2, ⟨%fd3, HG3⟩, Hs3, ⟨%fd4, HG4⟩, Hs4, ⟨%fd5, HG5⟩, Hs5, ⟨%fd6, HS6⟩, HW6, Hg6, ⟨%fd7, HS7⟩, HW7, Hg7, IT, ID, OT, OD⟩
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW1 := wstep hW0 (SemLoc.dma cc0_scratch20.sem)
  ihave Ho := (Entails.of_eq (out_val d L fI fW hin fO (12 : Fin 50) bV6 _)) $$ Ho
  ihave OD := (Entails.of_eq (done_put (blkPts d L (Gath fI fW)) 12 (by decide))) $$ [Ho OD]
  · isplitl [Ho]; · iexact Ho
    iexact OD
  ihave IT' := (Entails.of_eq (todo_take (rowPts d L fI) 19 30 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (19 : Fin 50))) $$ [HW6 Hb6 Hr Hg6]
  · isplitl [HW6]; · iexact HW6
    isplitl [Hb6]; · iexact Hb6
    isplitl [Hr]; · iexact Hr
    iexact Hg6
  iintro HG6
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW2 := wstep hW1 (SemLoc.dma cc0_scratch9.sem)
  ihave ID := (Entails.of_eq (done_put (rowPts d L fI) 15 (by decide))) $$ [Hr ID]
  · isplitl [Hr]; · iexact Hr
    iexact ID
  ihave OT' := (Entails.of_eq (todo_take (blkPts d L fO) 15 34 (by decide))) $$ OT
  icases OT' with ⟨Ho, OT⟩
  iapply (Transfers.wp_dmaLocal countersEmb 𝒱₀ thr none (default : HIx 1) _ rfl
      (show 0 < (oBlkK L (15 : Fin 50)).view.amount (SemLoc.dma cc0_scratch16.sem) from View.dmaCredit_pos (oBlkK L (15 : Fin 50)).view (by decide)) (Finset.Subset.refl _)) $$ [Hb2 Ho Hs2]
  · isplitl [Hb2]; · iexact Hb2
    isplitl [Ho]; · iexact Ho
    iexact Hs2
  iintro HS2
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW3 := wstep hW2 (SemLoc.dma cc0_scratch21.sem)
  ihave Ho := (Entails.of_eq (out_val d L fI fW hin fO (13 : Fin 50) bV7 _)) $$ Ho
  ihave OD := (Entails.of_eq (done_put (blkPts d L (Gath fI fW)) 13 (by decide))) $$ [Ho OD]
  · isplitl [Ho]; · iexact Ho
    iexact OD
  ihave IT' := (Entails.of_eq (todo_take (rowPts d L fI) 20 29 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (20 : Fin 50))) $$ [HW7 Hb7 Hr Hg7]
  · isplitl [HW7]; · iexact HW7
    isplitl [Hb7]; · iexact Hb7
    isplitl [Hr]; · iexact Hr
    iexact Hg7
  iintro HG7
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW4 := wstep hW3 (SemLoc.dma cc0_scratch10.sem)
  ihave ID := (Entails.of_eq (done_put (rowPts d L fI) 16 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW4
    · iexact HO
  isplitl [HS1]
  · iexists _; iexact HS1
  isplitl [HW1]
  · iexact HW1
  isplitl [Hg1]
  · iexact Hg1
  isplitl [HS2]
  · iexists _; iexact HS2
  isplitl [HW2]
  · iexact HW2
  isplitl [Hg2]
  · iexact Hg2
  isplitl [Hb3]
  · iexists _; iexact Hb3
  isplitl [HW3]
  · iexact HW3
  isplitl [Hg3]
  · iexact Hg3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

end Cert.KernelIdeal.TileBody

end
-- ==== Proof.TileP2.lean ====
import proofs.«206768_g17686675325131_cont_8to1_990_33_alg».proof.Proof.TileDefs
import proofs.«206768_g17686675325131_cont_8to1_990_33_alg».proof.Proof.TileVal
import proofs.«206768_g17686675325131_cont_8to1_990_33_alg».proof.Proof.TileGeom

noncomputable section

namespace Cert.KernelIdeal.TileBody

open Cert.KernelIdeal Cert.KernelIdeal.Gen Cert.KernelIdeal.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S32x50x128 EltTy.i32)
local notation "oV" => (Memref.whole Cert.KernelIdeal.main_v1_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S50x128 EltTy.i32)

variable (d : Dev nD) (L : grid0.Coords)

local notation "thr" => (V d (cV L) (jV L))

set_option maxHeartbeats 4000000 in
theorem part_12 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v266 : BitVec 32) (c16_i32_281 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (14 : Fin 50) fd)
        ∗ wPts d L fW q1
        ∗ semVal (thr, SemLoc.dma cc0_scratch8.sem) 0
        ∗ (∃ fd, SFl d L fI fW hin fO bV2 cc0_scratch16.sem (15 : Fin 50) fd)
        ∗ wPts d L fW q2
        ∗ semVal (thr, SemLoc.dma cc0_scratch9.sem) 0
        ∗ (∃ fd, bPts d L bV3 (View.write (Elt F) (bV3).view fd (gP d L fI fW hin (16 : Fin 50)) Finset.univ))
        ∗ wPts d L fW q3
        ∗ semVal (thr, SemLoc.dma cc0_scratch10.sem) 0
        ∗ semVal (thr, SemLoc.dma cc0_scratch17.sem) 0
        ∗ (∃ fd, GFl d L fI fW hin bV4 cc0_scratch11.sem q4 (17 : Fin 50) fd)
        ∗ semVal (thr, SemLoc.dma cc0_scratch18.sem) 0
        ∗ (∃ fd, GFl d L fI fW hin bV5 cc0_scratch12.sem q5 (18 : Fin 50) fd)
        ∗ semVal (thr, SemLoc.dma cc0_scratch19.sem) 0
        ∗ (∃ fd, GFl d L fI fW hin bV6 cc0_scratch13.sem q6 (19 : Fin 50) fd)
        ∗ semVal (thr, SemLoc.dma cc0_scratch20.sem) 0
        ∗ (∃ fd, GFl d L fI fW hin bV7 cc0_scratch14.sem q7 (20 : Fin 50) fd)
        ∗ semVal (thr, SemLoc.dma cc0_scratch21.sem) 0
        ∗ Todo (pc (rowPts d L fI)) 21 29
        ∗ Done (pc (rowPts d L fI)) 17
        ∗ Todo (pc (blkPts d L fO)) 16 34
        ∗ Done (pc (blkPts d L (Gath fI fW))) 14)
      ⊢ (wp frame (wpE (defs₀ (F := F)) 𝒱₀ thr none) Set.univ (k0_part12 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v266 c16_i32_281)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (21 : Fin 50) fd)
            ∗ semVal (thr, SemLoc.dma cc0_scratch15.sem) 0
            ∗ (∃ f, bPts d L bV2 f)
            ∗ wPts d L fW q2
            ∗ semVal (thr, SemLoc.dma cc0_scratch9.sem) 0
            ∗ semVal (thr, SemLoc.dma cc0_scratch16.sem) 0
            ∗ (∃ fd, SFl d L fI fW hin fO bV3 cc0_scratch17.sem (16 : Fin 50) fd)
            ∗ wPts d L fW q3
            ∗ semVal (thr, SemLoc.dma cc0_scratch10.sem) 0
            ∗ (∃ fd, SFl d L fI fW hin fO bV4 cc0_scratch18.sem (17 : Fin 50) fd)
            ∗ wPts d L fW q4
            ∗ semVal (thr, SemLoc.dma cc0_scratch11.sem) 0
            ∗ (∃ fd, GFl d L fI fW hin bV5 cc0_scratch12.sem q5 (18 : Fin 50) fd)
            ∗ semVal (thr, SemLoc.dma cc0_scratch19.sem) 0
            ∗ (∃ fd, GFl d L fI fW hin bV6 cc0_scratch13.sem q6 (19 : Fin 50) fd)
            ∗ semVal (thr, SemLoc.dma cc0_scratch20.sem) 0
            ∗ (∃ fd, GFl d L fI fW hin bV7 cc0_scratch14.sem q7 (20 : Fin 50) fd)
            ∗ semVal (thr, SemLoc.dma cc0_scratch21.sem) 0
            ∗ Todo (pc (rowPts d L fI)) 22 28
            ∗ Done (pc (rowPts d L fI)) 18
            ∗ Todo (pc (blkPts d L fO)) 18 32
            ∗ Done (pc (blkPts d L (Gath fI fW))) 16) : sProp 𝕄) := by
  simp only [k0_part12_eq_skeleton]; unfold k0_part12_skel
  iintro ⟨HR, #Hmw, ⟨%W0, %hW0, HO⟩, ⟨%fd1, HS1⟩, HW1, Hg1, ⟨%fd2, HS2⟩, HW2, Hg2, ⟨%fd3, Hb3⟩, HW3, Hg3, Hs3, ⟨%fd4, HG4⟩, Hs4, ⟨%fd5, HG5⟩, Hs5, ⟨%fd6, HG6⟩, Hs6, ⟨%fd7, HG7⟩, Hs7, IT, ID, OT, OD⟩
  ihave OT' := (Entails.of_eq (todo_take (blkPts d L fO) 16 33 (by decide))) $$ OT
  icases OT' with ⟨Ho, OT⟩
  iapply (Transfers.wp_dmaLocal countersEmb 𝒱₀ thr none (default : HIx 1) _ rfl
      (show 0 < (oBlkK L (16 : Fin 50)).view.amount (SemLoc.dma cc0_scratch17.sem) from View.dmaCredit_pos (oBlkK L (16 : Fin 50)).view (by decide)) (Finset.Subset.refl _)) $$ [Hb3 Ho Hs3]
  · isplitl [Hb3]; · iexact Hb3
    isplitl [Ho]; · iexact Ho
    iexact Hs3
  iintro HS3
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW1 := wstep hW0 (SemLoc.dma cc0_scratch15.sem)
  ihave Ho := (Entails.of_eq (out_val d L fI fW hin fO (14 : Fin 50) bV1 _)) $$ Ho
  ihave OD := (Entails.of_eq (done_put (blkPts d L (Gath fI fW)) 14 (by decide))) $$ [Ho OD]
  · isplitl [Ho]; · iexact Ho
    iexact OD
  ihave IT' := (Entails.of_eq (todo_take (rowPts d L fI) 21 28 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (21 : Fin 50))) $$ [HW1 Hb1 Hr Hg1]
  · isplitl [HW1]; · iexact HW1
    isplitl [Hb1]; · iexact Hb1
    isplitl [Hr]; · iexact Hr
    iexact Hg1
  iintro HG1
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW2 := wstep hW1 (SemLoc.dma cc0_scratch11.sem)
  ihave ID := (Entails.of_eq (done_put (rowPts d L fI) 17 (by decide))) $$ [Hr ID]
  · isplitl [Hr]; · iexact Hr
    iexact ID
  ihave OT' := (Entails.of_eq (todo_take (blkPts d L fO) 17 32 (by decide))) $$ OT
  icases OT' with ⟨Ho, OT⟩
  iapply (Transfers.wp_dmaLocal countersEmb 𝒱₀ thr none (default : HIx 1) _ rfl
      (show 0 < (oBlkK L (17 : Fin 50)).view.amount (SemLoc.dma cc0_scratch18.sem) from View.dmaCredit_pos (oBlkK L (17 : Fin 50)).view (by decide)) (Finset.Subset.refl _)) $$ [Hb4 Ho Hs4]
  · isplitl [Hb4]; · iexact Hb4
    isplitl [Ho]; · iexact Ho
    iexact Hs4
  iintro HS4
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW3 := wstep hW2 (SemLoc.dma cc0_scratch16.sem)
  ihave Ho := (Entails.of_eq (out_val d L fI fW hin fO (15 : Fin 50) bV2 _)) $$ Ho
  ihave OD := (Entails.of_eq (done_put (blkPts d L (Gath fI fW)) 15 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [Hb2]
  · iexists _; iexact Hb2
  isplitl [HW2]
  · iexact HW2
  isplitl [Hg2]
  · iexact Hg2
  isplitl [Hs2]
  · iexact Hs2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_13 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (21 : Fin 50) fd)
        ∗ semVal (thr, SemLoc.dma cc0_scratch15.sem) 0
        ∗ (∃ f, bPts d L bV2 f)
        ∗ wPts d L fW q2
        ∗ semVal (thr, SemLoc.dma cc0_scratch9.sem) 0
        ∗ semVal (thr, SemLoc.dma cc0_scratch16.sem) 0
        ∗ (∃ fd, SFl d L fI fW hin fO bV3 cc0_scratch17.sem (16 : Fin 50) fd)
        ∗ wPts d L fW q3
        ∗ semVal (thr, SemLoc.dma cc0_scratch10.sem) 0
        ∗ (∃ fd, SFl d L fI fW hin fO bV4 cc0_scratch18.sem (17 : Fin 50) fd)
        ∗ wPts d L fW q4
        ∗ semVal (thr, SemLoc.dma cc0_scratch11.sem) 0
        ∗ (∃ fd, GFl d L fI fW hin bV5 cc0_scratch12.sem q5 (18 : Fin 50) fd)
        ∗ semVal (thr, SemLoc.dma cc0_scratch19.sem) 0
        ∗ (∃ fd, GFl d L fI fW hin bV6 cc0_scratch13.sem q6 (19 : Fin 50) fd)
        ∗ semVal (thr, SemLoc.dma cc0_scratch20.sem) 0
        ∗ (∃ fd, GFl d L fI fW hin bV7 cc0_scratch14.sem q7 (20 : Fin 50) fd)
        ∗ semVal (thr, SemLoc.dma cc0_scratch21.sem) 0
        ∗ Todo (pc (rowPts d L fI)) 22 28
        ∗ Done (pc (rowPts d L fI)) 18
        ∗ Todo (pc (blkPts d L fO)) 18 32
        ∗ Done (pc (blkPts d L (Gath fI fW))) 16)
      ⊢ (wp frame (wpE (defs₀ (F := F)) 𝒱₀ thr none) Set.univ (k0_part13 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (21 : Fin 50) fd)
            ∗ semVal (thr, SemLoc.dma cc0_scratch15.sem) 0
            ∗ (∃ fd, GFl d L fI fW hin bV2 cc0_scratch9.sem q2 (22 : Fin 50) fd)
            ∗ semVal (thr, SemLoc.dma cc0_scratch16.sem) 0
            ∗ (∃ fd, GFl d L fI fW hin bV3 cc0_scratch10.sem q3 (23 : Fin 50) fd)
            ∗ semVal (thr, SemLoc.dma cc0_scratch17.sem) 0
            ∗ (∃ fd, SFl d L fI fW hin fO bV4 cc0_scratch18.sem (17 : Fin 50) fd)
            ∗ wPts d L fW q4
            ∗ semVal (thr, SemLoc.dma cc0_scratch11.sem) 0
            ∗ (∃ fd, SFl d L fI fW hin fO bV5 cc0_scratch19.sem (18 : Fin 50) fd)
            ∗ wPts d L fW q5
            ∗ semVal (thr, SemLoc.dma cc0_scratch12.sem) 0
            ∗ (∃ fd, bPts d L bV6 (View.write (Elt F) (bV6).view fd (gP d L fI fW hin (19 : Fin 50)) Finset.univ))
            ∗ wPts d L fW q6
            ∗ semVal (thr, SemLoc.dma cc0_scratch13.sem) 0
            ∗ semVal (thr, SemLoc.dma cc0_scratch20.sem) 0
            ∗ (∃ fd, GFl d L fI fW hin bV7 cc0_scratch14.sem q7 (20 : Fin 50) fd)
            ∗ semVal (thr, SemLoc.dma cc0_scratch21.sem) 0
            ∗ Todo (pc (rowPts d L fI)) 24 26
            ∗ Done (pc (rowPts d L fI)) 20
            ∗ Todo (pc (blkPts d L fO)) 19 31
            ∗ Done (pc (blkPts d L (Gath fI fW))) 17) : sProp 𝕄) := by
  simp only [k0_part13_eq_skeleton]; unfold k0_part13_skel
  iintro ⟨HR, #Hmw, ⟨%W0, %hW0, HO⟩, ⟨%fd1, HG1⟩, Hs1, ⟨%fd2, Hb2⟩, HW2, Hg2, Hs2, ⟨%fd3, HS3⟩, HW3, Hg3, ⟨%fd4, HS4⟩, HW4, Hg4, ⟨%fd5, HG5⟩, Hs5, ⟨%fd6, HG6⟩, Hs6, ⟨%fd7, HG7⟩, Hs7, IT, ID, OT, OD⟩
  ihave IT' := (Entails.of_eq (todo_take (rowPts d L fI) 22 27 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (22 : Fin 50))) $$ [HW2 Hb2 Hr Hg2]
  · isplitl [HW2]; · iexact HW2
    isplitl [Hb2]; · iexact Hb2
    isplitl [Hr]; · iexact Hr
    iexact Hg2
  iintro HG2
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW1 := wstep hW0 (SemLoc.dma cc0_scratch12.sem)
  ihave ID := (Entails.of_eq (done_put (rowPts d L fI) 18 (by decide))) $$ [Hr ID]
  · isplitl [Hr]; · iexact Hr
    iexact ID
  ihave OT' := (Entails.of_eq (todo_take (blkPts d L fO) 18 31 (by decide))) $$ OT
  icases OT' with ⟨Ho, OT⟩
  iapply (Transfers.wp_dmaLocal countersEmb 𝒱₀ thr none (default : HIx 1) _ rfl
      (show 0 < (oBlkK L (18 : Fin 50)).view.amount (SemLoc.dma cc0_scratch19.sem) from View.dmaCredit_pos (oBlkK L (18 : Fin 50)).view (by decide)) (Finset.Subset.refl _)) $$ [Hb5 Ho Hs5]
  · isplitl [Hb5]; · iexact Hb5
    isplitl [Ho]; · iexact Ho
    iexact Hs5
  iintro HS5
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW2 := wstep hW1 (SemLoc.dma cc0_scratch17.sem)
  ihave Ho := (Entails.of_eq (out_val d L fI fW hin fO (16 : Fin 50) bV3 _)) $$ Ho
  ihave OD := (Entails.of_eq (done_put (blkPts d L (Gath fI fW)) 16 (by decide))) $$ [Ho OD]
  · isplitl [Ho]; · iexact Ho
    iexact OD
  ihave IT' := (Entails.of_eq (todo_take (rowPts d L fI) 23 26 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (23 : Fin 50))) $$ [HW3 Hb3 Hr Hg3]
  · isplitl [HW3]; · iexact HW3
    isplitl [Hb3]; · iexact Hb3
    isplitl [Hr]; · iexact Hr
    iexact Hg3
  iintro HG3
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW3 := wstep hW2 (SemLoc.dma cc0_scratch13.sem)
  ihave ID := (Entails.of_eq (done_put (rowPts d L fI) 19 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [Hb6]
  · iexists _; iexact Hb6
  isplitl [HW6]
  · iexact HW6
  isplitl [Hg6]
  · iexact Hg6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_14 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (21 : Fin 50) fd)
        ∗ semVal (thr, SemLoc.dma cc0_scratch15.sem) 0
        ∗ (∃ fd, GFl d L fI fW hin bV2 cc0_scratch9.sem q2 (22 : Fin 50) fd)
        ∗ semVal (thr, SemLoc.dma cc0_scratch16.sem) 0
        ∗ (∃ fd, GFl d L fI fW hin bV3 cc0_scratch10.sem q3 (23 : Fin 50) fd)
        ∗ semVal (thr, SemLoc.dma cc0_scratch17.sem) 0
        ∗ (∃ fd, SFl d L fI fW hin fO bV4 cc0_scratch18.sem (17 : Fin 50) fd)
        ∗ wPts d L fW q4
        ∗ semVal (thr, SemLoc.dma cc0_scratch11.sem) 0
        ∗ (∃ fd, SFl d L fI fW hin fO bV5 cc0_scratch19.sem (18 : Fin 50) fd)
        ∗ wPts d L fW q5
        ∗ semVal (thr, SemLoc.dma cc0_scratch12.sem) 0
        ∗ (∃ fd, bPts d L bV6 (View.write (Elt F) (bV6).view fd (gP d L fI fW hin (19 : Fin 50)) Finset.univ))
        ∗ wPts d L fW q6
        ∗ semVal (thr, SemLoc.dma cc0_scratch13.sem) 0
        ∗ semVal (thr, SemLoc.dma cc0_scratch20.sem) 0
        ∗ (∃ fd, GFl d L fI fW hin bV7 cc0_scratch14.sem q7 (20 : Fin 50) fd)
        ∗ semVal (thr, SemLoc.dma cc0_scratch21.sem) 0
        ∗ Todo (pc (rowPts d L fI)) 24 26
        ∗ Done (pc (rowPts d L fI)) 20
        ∗ Todo (pc (blkPts d L fO)) 19 31
        ∗ Done (pc (blkPts d L (Gath fI fW))) 17)
      ⊢ (wp frame (wpE (defs₀ (F := F)) 𝒱₀ thr none) Set.univ (k0_part14 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (21 : Fin 50) fd)
            ∗ semVal (thr, SemLoc.dma cc0_scratch15.sem) 0
            ∗ (∃ fd, GFl d L fI fW hin bV2 cc0_scratch9.sem q2 (22 : Fin 50) fd)
            ∗ semVal (thr, SemLoc.dma cc0_scratch16.sem) 0
            ∗ (∃ fd, GFl d L fI fW hin bV3 cc0_scratch10.sem q3 (23 : Fin 50) fd)
            ∗ semVal (thr, SemLoc.dma cc0_scratch17.sem) 0
            ∗ (∃ fd, GFl d L fI fW hin bV4 cc0_scratch11.sem q4 (24 : Fin 50) fd)
            ∗ semVal (thr, SemLoc.dma cc0_scratch18.sem) 0
            ∗ (∃ fd, GFl d L fI fW hin bV5 cc0_scratch12.sem q5 (25 : Fin 50) fd)
            ∗ semVal (thr, SemLoc.dma cc0_scratch19.sem) 0
            ∗ (∃ fd, SFl d L fI fW hin fO bV6 cc0_scratch20.sem (19 : Fin 50) fd)
            ∗ wPts d L fW q6
            ∗ semVal (thr, SemLoc.dma cc0_scratch13.sem) 0
            ∗ (∃ fd, SFl d L fI fW hin fO bV7 cc0_scratch21.sem (20 : Fin 50) fd)
            ∗ wPts d L fW q7
            ∗ semVal (thr, SemLoc.dma cc0_scratch14.sem) 0
            ∗ Todo (pc (rowPts d L fI)) 26 24
            ∗ Done (pc (rowPts d L fI)) 21
            ∗ Todo (pc (blkPts d L fO)) 21 29
            ∗ Done (pc (blkPts d L (Gath fI fW))) 19) : sProp 𝕄) := by
  simp only [k0_part14_eq_skeleton]; unfold k0_part14_skel
  iintro ⟨HR, #Hmw, ⟨%W0, %hW0, HO⟩, ⟨%fd1, HG1⟩, Hs1, ⟨%fd2, HG2⟩, Hs2, ⟨%fd3, HG3⟩, Hs3, ⟨%fd4, HS4⟩, HW4, Hg4, ⟨%fd5, HS5⟩, HW5, Hg5, ⟨%fd6, Hb6⟩, HW6, Hg6, Hs6, ⟨%fd7, HG7⟩, Hs7, IT, ID, OT, OD⟩
  ihave OT' := (Entails.of_eq (todo_take (blkPts d L fO) 19 30 (by decide))) $$ OT
  icases OT' with ⟨Ho, OT⟩
  iapply (Transfers.wp_dmaLocal countersEmb 𝒱₀ thr none (default : HIx 1) _ rfl
      (show 0 < (oBlkK L (19 : Fin 50)).view.amount (SemLoc.dma cc0_scratch20.sem) from View.dmaCredit_pos (oBlkK L (19 : Fin 50)).view (by decide)) (Finset.Subset.refl _)) $$ [Hb6 Ho Hs6]
  · isplitl [Hb6]; · iexact Hb6
    isplitl [Ho]; · iexact Ho
    iexact Hs6
  iintro HS6
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW1 := wstep hW0 (SemLoc.dma cc0_scratch18.sem)
  ihave Ho := (Entails.of_eq (out_val d L fI fW hin fO (17 : Fin 50) bV4 _)) $$ Ho
  ihave OD := (Entails.of_eq (done_put (blkPts d L (Gath fI fW)) 17 (by decide))) $$ [Ho OD]
  · isplitl [Ho]; · iexact Ho
    iexact OD
  ihave IT' := (Entails.of_eq (todo_take (rowPts d L fI) 24 25 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (24 : Fin 50))) $$ [HW4 Hb4 Hr Hg4]
  · isplitl [HW4]; · iexact HW4
    isplitl [Hb4]; · iexact Hb4
    isplitl [Hr]; · iexact Hr
    iexact Hg4
  iintro HG4
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW2 := wstep hW1 (SemLoc.dma cc0_scratch14.sem)
  ihave ID := (Entails.of_eq (done_put (rowPts d L fI) 20 (by decide))) $$ [Hr ID]
  · isplitl [Hr]; · iexact Hr
    iexact ID
  ihave OT' := (Entails.of_eq (todo_take (blkPts d L fO) 20 29 (by decide))) $$ OT
  icases OT' with ⟨Ho, OT⟩
  iapply (Transfers.wp_dmaLocal countersEmb 𝒱₀ thr none (default : HIx 1) _ rfl
      (show 0 < (oBlkK L (20 : Fin 50)).view.amount (SemLoc.dma cc0_scratch21.sem) from View.dmaCredit_pos (oBlkK L (20 : Fin 50)).view (by decide)) (Finset.Subset.refl _)) $$ [Hb7 Ho Hs7]
  · isplitl [Hb7]; · iexact Hb7
    isplitl [Ho]; · iexact Ho
    iexact Hs7
  iintro HS7
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW3 := wstep hW2 (SemLoc.dma cc0_scratch19.sem)
  ihave Ho := (Entails.of_eq (out_val d L fI fW hin fO (18 : Fin 50) bV5 _)) $$ Ho
  ihave OD := (Entails.of_eq (done_put (blkPts d L (Gath fI fW)) 18 (by decide))) $$ [Ho OD]
  · isplitl [Ho]; · iexact Ho
    iexact OD
  ihave IT' := (Entails.of_eq (todo_take (rowPts d L fI) 25 24 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (25 : Fin 50))) $$ [HW5 Hb5 Hr Hg5]
  · isplitl [HW5]; · iexact HW5
    isplitl [Hb5]; · iexact Hb5
    isplitl [Hr]; · iexact Hr
    iexact Hg5
  iintro HG5
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HS6]
  · iexists _; iexact HS6
  isplitl [HW6]
  · iexact HW6
  isplitl [Hg6]
  · iexact Hg6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_15 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (21 : Fin 50) fd)
        ∗ semVal (thr, SemLoc.dma cc0_scratch15.sem) 0
        ∗ (∃ fd, GFl d L fI fW hin bV2 cc0_scratch9.sem q2 (22 : Fin 50) fd)
        ∗ semVal (thr, SemLoc.dma cc0_scratch16.sem) 0
        ∗ (∃ fd, GFl d L fI fW hin bV3 cc0_scratch10.sem q3 (23 : Fin 50) fd)
        ∗ semVal (thr, SemLoc.dma cc0_scratch17.sem) 0
        ∗ (∃ fd, GFl d L fI fW hin bV4 cc0_scratch11.sem q4 (24 : Fin 50) fd)
        ∗ semVal (thr, SemLoc.dma cc0_scratch18.sem) 0
        ∗ (∃ fd, GFl d L fI fW hin bV5 cc0_scratch12.sem q5 (25 : Fin 50) fd)
        ∗ semVal (thr, SemLoc.dma cc0_scratch19.sem) 0
        ∗ (∃ fd, SFl d L fI fW hin fO bV6 cc0_scratch20.sem (19 : Fin 50) fd)
        ∗ wPts d L fW q6
        ∗ semVal (thr, SemLoc.dma cc0_scratch13.sem) 0
        ∗ (∃ fd, SFl d L fI fW hin fO bV7 cc0_scratch21.sem (20 : Fin 50) fd)
        ∗ wPts d L fW q7
        ∗ semVal (thr, SemLoc.dma cc0_scratch14.sem) 0
        ∗ Todo (pc (rowPts d L fI)) 26 24
        ∗ Done (pc (rowPts d L fI)) 21
        ∗ Todo (pc (blkPts d L fO)) 21 29
        ∗ Done (pc (blkPts d L (Gath fI fW))) 19)
      ⊢ (wp frame (wpE (defs₀ (F := F)) 𝒱₀ thr none) Set.univ (k0_part15 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (21 : Fin 50) fd)
            ∗ wPts d L fW q1
            ∗ semVal (thr, SemLoc.dma cc0_scratch8.sem) 0
            ∗ (∃ fd, SFl d L fI fW hin fO bV2 cc0_scratch16.sem (22 : Fin 50) fd)
            ∗ wPts d L fW q2
            ∗ semVal (thr, SemLoc.dma cc0_scratch9.sem) 0
            ∗ (∃ fd, GFl d L fI fW hin bV3 cc0_scratch10.sem q3 (23 : Fin 50) fd)
            ∗ semVal (thr, SemLoc.dma cc0_scratch17.sem) 0
            ∗ (∃ fd, GFl d L fI fW hin bV4 cc0_scratch11.sem q4 (24 : Fin 50) fd)
            ∗ semVal (thr, SemLoc.dma cc0_scratch18.sem) 0
            ∗ (∃ fd, GFl d L fI fW hin bV5 cc0_scratch12.sem q5 (25 : Fin 50) fd)
            ∗ semVal (thr, SemLoc.dma cc0_scratch19.sem) 0
            ∗ (∃ fd, GFl d L fI fW hin bV6 cc0_scratch13.sem q6 (26 : Fin 50) fd)
            ∗ semVal (thr, SemLoc.dma cc0_scratch20.sem) 0
            ∗ (∃ fd, SFl d L fI fW hin fO bV7 cc0_scratch21.sem (20 : Fin 50) fd)
            ∗ wPts d L fW q7
            ∗ semVal (thr, SemLoc.dma cc0_scratch14.sem) 0
            ∗ Todo (pc (rowPts d L fI)) 27 23
            ∗ Done (pc (rowPts d L fI)) 23
            ∗ Todo (pc (blkPts d L fO)) 23 27
            ∗ Done (pc (blkPts d L (Gath fI fW))) 20) : sProp 𝕄) := by
  simp only [k0_part15_eq_skeleton]; unfold k0_part15_skel
  iintro ⟨HR, #Hmw, ⟨%W0, %hW0, HO⟩, ⟨%fd1, HG1⟩, Hs1, ⟨%fd2, HG2⟩, Hs2, ⟨%fd3, HG3⟩, Hs3, ⟨%fd4, HG4⟩, Hs4, ⟨%fd5, HG5⟩, Hs5, ⟨%fd6, HS6⟩, HW6, Hg6, ⟨%fd7, HS7⟩, HW7, Hg7, IT, ID, OT, OD⟩
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW1 := wstep hW0 (SemLoc.dma cc0_scratch8.sem)
  ihave ID := (Entails.of_eq (done_put (rowPts d L fI) 21 (by decide))) $$ [Hr ID]
  · isplitl [Hr]; · iexact Hr
    iexact ID
  ihave OT' := (Entails.of_eq (todo_take (blkPts d L fO) 21 28 (by decide))) $$ OT
  icases OT' with ⟨Ho, OT⟩
  iapply (Transfers.wp_dmaLocal countersEmb 𝒱₀ thr none (default : HIx 1) _ rfl
      (show 0 < (oBlkK L (21 : Fin 50)).view.amount (SemLoc.dma cc0_scratch15.sem) from View.dmaCredit_pos (oBlkK L (21 : Fin 50)).view (by decide)) (Finset.Subset.refl _)) $$ [Hb1 Ho Hs1]
  · isplitl [Hb1]; · iexact Hb1
    isplitl [Ho]; · iexact Ho
    iexact Hs1
  iintro HS1
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW2 := wstep hW1 (SemLoc.dma cc0_scratch20.sem)
  ihave Ho := (Entails.of_eq (out_val d L fI fW hin fO (19 : Fin 50) bV6 _)) $$ Ho
  ihave OD := (Entails.of_eq (done_put (blkPts d L (Gath fI fW)) 19 (by decide))) $$ [Ho OD]
  · isplitl [Ho]; · iexact Ho
    iexact OD
  ihave IT' := (Entails.of_eq (todo_take (rowPts d L fI) 26 23 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (26 : Fin 50))) $$ [HW6 Hb6 Hr Hg6]
  · isplitl [HW6]; · iexact HW6
    isplitl [Hb6]; · iexact Hb6
    isplitl [Hr]; · iexact Hr
    iexact Hg6
  iintro HG6
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW3 := wstep hW2 (SemLoc.dma cc0_scratch9.sem)
  ihave ID := (Entails.of_eq (done_put (rowPts d L fI) 22 (by decide))) $$ [Hr ID]
  · isplitl [Hr]; · iexact Hr
    iexact ID
  ihave OT' := (Entails.of_eq (todo_take (blkPts d L fO) 22 27 (by decide))) $$ OT
  icases OT' with ⟨Ho, OT⟩
  iapply (Transfers.wp_dmaLocal countersEmb 𝒱₀ thr none (default : HIx 1) _ rfl
      (show 0 < (oBlkK L (22 : Fin 50)).view.amount (SemLoc.dma cc0_scratch16.sem) from View.dmaCredit_pos (oBlkK L (22 : Fin 50)).view (by decide)) (Finset.Subset.refl _)) $$ [Hb2 Ho Hs2]
  · isplitl [Hb2]; · iexact Hb2
    isplitl [Ho]; · iexact Ho
    iexact Hs2
  iintro HS2
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HS2]
  · iexists _; iexact HS2
  isplitl [HW2]
  · iexact HW2
  isplitl [Hg2]
  · iexact Hg2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_16 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v368 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (21 : Fin 50) fd)
        ∗ wPts d L fW q1
        ∗ semVal (thr, SemLoc.dma cc0_scratch8.sem) 0
        ∗ (∃ fd, SFl d L fI fW hin fO bV2 cc0_scratch16.sem (22 : Fin 50) fd)
        ∗ wPts d L fW q2
        ∗ semVal (thr, SemLoc.dma cc0_scratch9.sem) 0
        ∗ (∃ fd, GFl d L fI fW hin bV3 cc0_scratch10.sem q3 (23 : Fin 50) fd)
        ∗ semVal (thr, SemLoc.dma cc0_scratch17.sem) 0
        ∗ (∃ fd, GFl d L fI fW hin bV4 cc0_scratch11.sem q4 (24 : Fin 50) fd)
        ∗ semVal (thr, SemLoc.dma cc0_scratch18.sem) 0
        ∗ (∃ fd, GFl d L fI fW hin bV5 cc0_scratch12.sem q5 (25 : Fin 50) fd)
        ∗ semVal (thr, SemLoc.dma cc0_scratch19.sem) 0
        ∗ (∃ fd, GFl d L fI fW hin bV6 cc0_scratch13.sem q6 (26 : Fin 50) fd)
        ∗ semVal (thr, SemLoc.dma cc0_scratch20.sem) 0
        ∗ (∃ fd, SFl d L fI fW hin fO bV7 cc0_scratch21.sem (20 : Fin 50) fd)
        ∗ wPts d L fW q7
        ∗ semVal (thr, SemLoc.dma cc0_scratch14.sem) 0
        ∗ Todo (pc (rowPts d L fI)) 27 23
        ∗ Done (pc (rowPts d L fI)) 23
        ∗ Todo (pc (blkPts d L fO)) 23 27
        ∗ Done (pc (blkPts d L (Gath fI fW))) 20)
      ⊢ (wp frame (wpE (defs₀ (F := F)) 𝒱₀ thr none) Set.univ (k0_part16 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v368)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (28 : Fin 50) fd)
            ∗ semVal (thr, SemLoc.dma cc0_scratch15.sem) 0
            ∗ (∃ fd, SFl d L fI fW hin fO bV2 cc0_scratch16.sem (22 : Fin 50) fd)
            ∗ wPts d L fW q2
            ∗ semVal (thr, SemLoc.dma cc0_scratch9.sem) 0
            ∗ (∃ fd, SFl d L fI fW hin fO bV3 cc0_scratch17.sem (23 : Fin 50) fd)
            ∗ wPts d L fW q3
            ∗ semVal (thr, SemLoc.dma cc0_scratch10.sem) 0
            ∗ (∃ fd, GFl d L fI fW hin bV4 cc0_scratch11.sem q4 (24 : Fin 50) fd)
            ∗ semVal (thr, SemLoc.dma cc0_scratch18.sem) 0
            ∗ (∃ fd, GFl d L fI fW hin bV5 cc0_scratch12.sem q5 (25 : Fin 50) fd)
            ∗ semVal (thr, SemLoc.dma cc0_scratch19.sem) 0
            ∗ (∃ fd, GFl d L fI fW hin bV6 cc0_scratch13.sem q6 (26 : Fin 50) fd)
            ∗ semVal (thr, SemLoc.dma cc0_scratch20.sem) 0
            ∗ (∃ fd, GFl d L fI fW hin bV7 cc0_scratch14.sem q7 (27 : Fin 50) fd)
            ∗ semVal (thr, SemLoc.dma cc0_scratch21.sem) 0
            ∗ Todo (pc (rowPts d L fI)) 29 21
            ∗ Done (pc (rowPts d L fI)) 24
            ∗ Todo (pc (blkPts d L fO)) 24 26
            ∗ Done (pc (blkPts d L (Gath fI fW))) 22) : sProp 𝕄) := by
  simp only [k0_part16_eq_skeleton]; unfold k0_part16_skel
  iintro ⟨HR, #Hmw, ⟨%W0, %hW0, HO⟩, ⟨%fd1, HS1⟩, HW1, Hg1, ⟨%fd2, HS2⟩, HW2, Hg2, ⟨%fd3, HG3⟩, Hs3, ⟨%fd4, HG4⟩, Hs4, ⟨%fd5, HG5⟩, Hs5, ⟨%fd6, HG6⟩, Hs6, ⟨%fd7, HS7⟩, HW7, Hg7, IT, ID, OT, OD⟩
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW1 := wstep hW0 (SemLoc.dma cc0_scratch21.sem)
  ihave Ho := (Entails.of_eq (out_val d L fI fW hin fO (20 : Fin 50) bV7 _)) $$ Ho
  ihave OD := (Entails.of_eq (done_put (blkPts d L (Gath fI fW)) 20 (by decide))) $$ [Ho OD]
  · isplitl [Ho]; · iexact Ho
    iexact OD
  ihave IT' := (Entails.of_eq (todo_take (rowPts d L fI) 27 22 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (27 : Fin 50))) $$ [HW7 Hb7 Hr Hg7]
  · isplitl [HW7]; · iexact HW7
    isplitl [Hb7]; · iexact Hb7
    isplitl [Hr]; · iexact Hr
    iexact Hg7
  iintro HG7
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW2 := wstep hW1 (SemLoc.dma cc0_scratch10.sem)
  ihave ID := (Entails.of_eq (done_put (rowPts d L fI) 23 (by decide))) $$ [Hr ID]
  · isplitl [Hr]; · iexact Hr
    iexact ID
  ihave OT' := (Entails.of_eq (todo_take (blkPts d L fO) 23 26 (by decide))) $$ OT
  icases OT' with ⟨Ho, OT⟩
  iapply (Transfers.wp_dmaLocal countersEmb 𝒱₀ thr none (default : HIx 1) _ rfl
      (show 0 < (oBlkK L (23 : Fin 50)).view.amount (SemLoc.dma cc0_scratch17.sem) from View.dmaCredit_pos (oBlkK L (23 : Fin 50)).view (by decide)) (Finset.Subset.refl _)) $$ [Hb3 Ho Hs3]
  · isplitl [Hb3]; · iexact Hb3
    isplitl [Ho]; · iexact Ho
    iexact Hs3
  iintro HS3
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW3 := wstep hW2 (SemLoc.dma cc0_scratch15.sem)
  ihave Ho := (Entails.of_eq (out_val d L fI fW hin fO (21 : Fin 50) bV1 _)) $$ Ho
  ihave OD := (Entails.of_eq (done_put (blkPts d L (Gath fI fW)) 21 (by decide))) $$ [Ho OD]
  · isplitl [Ho]; · iexact Ho
    iexact OD
  ihave IT' := (Entails.of_eq (todo_take (rowPts d L fI) 28 21 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (28 : Fin 50))) $$ [HW1 Hb1 Hr Hg1]
  · isplitl [HW1]; · iexact HW1
    isplitl [Hb1]; · iexact Hb1
    isplitl [Hr]; · iexact Hr
    iexact Hg1
  iintro HG1
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_17 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (28 : Fin 50) fd)
        ∗ semVal (thr, SemLoc.dma cc0_scratch15.sem) 0
        ∗ (∃ fd, SFl d L fI fW hin fO bV2 cc0_scratch16.sem (22 : Fin 50) fd)
        ∗ wPts d L fW q2
        ∗ semVal (thr, SemLoc.dma cc0_scratch9.sem) 0
        ∗ (∃ fd, SFl d L fI fW hin fO bV3 cc0_scratch17.sem (23 : Fin 50) fd)
        ∗ wPts d L fW q3
        ∗ semVal (thr, SemLoc.dma cc0_scratch10.sem) 0
        ∗ (∃ fd, GFl d L fI fW hin bV4 cc0_scratch11.sem q4 (24 : Fin 50) fd)
        ∗ semVal (thr, SemLoc.dma cc0_scratch18.sem) 0
        ∗ (∃ fd, GFl d L fI fW hin bV5 cc0_scratch12.sem q5 (25 : Fin 50) fd)
        ∗ semVal (thr, SemLoc.dma cc0_scratch19.sem) 0
        ∗ (∃ fd, GFl d L fI fW hin bV6 cc0_scratch13.sem q6 (26 : Fin 50) fd)
        ∗ semVal (thr, SemLoc.dma cc0_scratch20.sem) 0
        ∗ (∃ fd, GFl d L fI fW hin bV7 cc0_scratch14.sem q7 (27 : Fin 50) fd)
        ∗ semVal (thr, SemLoc.dma cc0_scratch21.sem) 0
        ∗ Todo (pc (rowPts d L fI)) 29 21
        ∗ Done (pc (rowPts d L fI)) 24
        ∗ Todo (pc (blkPts d L fO)) 24 26
        ∗ Done (pc (blkPts d L (Gath fI fW))) 22)
      ⊢ (wp frame (wpE (defs₀ (F := F)) 𝒱₀ thr none) Set.univ (k0_part17 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (28 : Fin 50) fd)
            ∗ semVal (thr, SemLoc.dma cc0_scratch15.sem) 0
            ∗ (∃ fd, GFl d L fI fW hin bV2 cc0_scratch9.sem q2 (29 : Fin 50) fd)
            ∗ semVal (thr, SemLoc.dma cc0_scratch16.sem) 0
            ∗ (∃ fd, SFl d L fI fW hin fO bV3 cc0_scratch17.sem (23 : Fin 50) fd)
            ∗ wPts d L fW q3
            ∗ semVal (thr, SemLoc.dma cc0_scratch10.sem) 0
            ∗ (∃ fd, SFl d L fI fW hin fO bV4 cc0_scratch18.sem (24 : Fin 50) fd)
            ∗ wPts d L fW q4
            ∗ semVal (thr, SemLoc.dma cc0_scratch11.sem) 0
            ∗ (∃ fd, SFl d L fI fW hin fO bV5 cc0_scratch19.sem (25 : Fin 50) fd)
            ∗ wPts d L fW q5
            ∗ semVal (thr, SemLoc.dma cc0_scratch12.sem) 0
            ∗ (∃ fd, GFl d L fI fW hin bV6 cc0_scratch13.sem q6 (26 : Fin 50) fd)
            ∗ semVal (thr, SemLoc.dma cc0_scratch20.sem) 0
            ∗ (∃ fd, GFl d L fI fW hin bV7 cc0_scratch14.sem q7 (27 : Fin 50) fd)
            ∗ semVal (thr, SemLoc.dma cc0_scratch21.sem) 0
            ∗ Todo (pc (rowPts d L fI)) 30 20
            ∗ Done (pc (rowPts d L fI)) 26
            ∗ Todo (pc (blkPts d L fO)) 26 24
            ∗ Done (pc (blkPts d L (Gath fI fW))) 23) : sProp 𝕄) := by
  simp only [k0_part17_eq_skeleton]; unfold k0_part17_skel
  iintro ⟨HR, #Hmw, ⟨%W0, %hW0, HO⟩, ⟨%fd1, HG1⟩, Hs1, ⟨%fd2, HS2⟩, HW2, Hg2, ⟨%fd3, HS3⟩, HW3, Hg3, ⟨%fd4, HG4⟩, Hs4, ⟨%fd5, HG5⟩, Hs5, ⟨%fd6, HG6⟩, Hs6, ⟨%fd7, HG7⟩, Hs7, IT, ID, OT, OD⟩
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW1 := wstep hW0 (SemLoc.dma cc0_scratch11.sem)
  ihave ID := (Entails.of_eq (done_put (rowPts d L fI) 24 (by decide))) $$ [Hr ID]
  · isplitl [Hr]; · iexact Hr
    iexact ID
  ihave OT' := (Entails.of_eq (todo_take (blkPts d L fO) 24 25 (by decide))) $$ OT
  icases OT' with ⟨Ho, OT⟩
  iapply (Transfers.wp_dmaLocal countersEmb 𝒱₀ thr none (default : HIx 1) _ rfl
      (show 0 < (oBlkK L (24 : Fin 50)).view.amount (SemLoc.dma cc0_scratch18.sem) from View.dmaCredit_pos (oBlkK L (24 : Fin 50)).view (by decide)) (Finset.Subset.refl _)) $$ [Hb4 Ho Hs4]
  · isplitl [Hb4]; · iexact Hb4
    isplitl [Ho]; · iexact Ho
    iexact Hs4
  iintro HS4
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW2 := wstep hW1 (SemLoc.dma cc0_scratch16.sem)
  ihave Ho := (Entails.of_eq (out_val d L fI fW hin fO (22 : Fin 50) bV2 _)) $$ Ho
  ihave OD := (Entails.of_eq (done_put (blkPts d L (Gath fI fW)) 22 (by decide))) $$ [Ho OD]
  · isplitl [Ho]; · iexact Ho
    iexact OD
  ihave IT' := (Entails.of_eq (todo_take (rowPts d L fI) 29 20 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (29 : Fin 50))) $$ [HW2 Hb2 Hr Hg2]
  · isplitl [HW2]; · iexact HW2
    isplitl [Hb2]; · iexact Hb2
    isplitl [Hr]; · iexact Hr
    iexact Hg2
  iintro HG2
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW3 := wstep hW2 (SemLoc.dma cc0_scratch12.sem)
  ihave ID := (Entails.of_eq (done_put (rowPts d L fI) 25 (by decide))) $$ [Hr ID]
  · isplitl [Hr]; · iexact Hr
    iexact ID
  ihave OT' := (Entails.of_eq (todo_take (blkPts d L fO) 25 24 (by decide))) $$ OT
  icases OT' with ⟨Ho, OT⟩
  iapply (Transfers.wp_dmaLocal countersEmb 𝒱₀ thr none (default : HIx 1) _ rfl
      (show 0 < (oBlkK L (25 : Fin 50)).view.amount (SemLoc.dma cc0_scratch19.sem) from View.dmaCredit_pos (oBlkK L (25 : Fin 50)).view (by decide)) (Finset.Subset.refl _)) $$ [Hb5 Ho Hs5]
  · isplitl [Hb5]; · iexact Hb5
    isplitl [Ho]; · iexact Ho
    iexact Hs5
  iintro HS5
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_18 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (28 : Fin 50) fd)
        ∗ semVal (thr, SemLoc.dma cc0_scratch15.sem) 0
        ∗ (∃ fd, GFl d L fI fW hin bV2 cc0_scratch9.sem q2 (29 : Fin 50) fd)
        ∗ semVal (thr, SemLoc.dma cc0_scratch16.sem) 0
        ∗ (∃ fd, SFl d L fI fW hin fO bV3 cc0_scratch17.sem (23 : Fin 50) fd)
        ∗ wPts d L fW q3
        ∗ semVal (thr, SemLoc.dma cc0_scratch10.sem) 0
        ∗ (∃ fd, SFl d L fI fW hin fO bV4 cc0_scratch18.sem (24 : Fin 50) fd)
        ∗ wPts d L fW q4
        ∗ semVal (thr, SemLoc.dma cc0_scratch11.sem) 0
        ∗ (∃ fd, SFl d L fI fW hin fO bV5 cc0_scratch19.sem (25 : Fin 50) fd)
        ∗ wPts d L fW q5
        ∗ semVal (thr, SemLoc.dma cc0_scratch12.sem) 0
        ∗ (∃ fd, GFl d L fI fW hin bV6 cc0_scratch13.sem q6 (26 : Fin 50) fd)
        ∗ semVal (thr, SemLoc.dma cc0_scratch20.sem) 0
        ∗ (∃ fd, GFl d L fI fW hin bV7 cc0_scratch14.sem q7 (27 : Fin 50) fd)
        ∗ semVal (thr, SemLoc.dma cc0_scratch21.sem) 0
        ∗ Todo (pc (rowPts d L fI)) 30 20
        ∗ Done (pc (rowPts d L fI)) 26
        ∗ Todo (pc (blkPts d L fO)) 26 24
        ∗ Done (pc (blkPts d L (Gath fI fW))) 23)
      ⊢ (wp frame (wpE (defs₀ (F := F)) 𝒱₀ thr none) Set.univ (k0_part18 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (28 : Fin 50) fd)
            ∗ semVal (thr, SemLoc.dma cc0_scratch15.sem) 0
            ∗ (∃ fd, GFl d L fI fW hin bV2 cc0_scratch9.sem q2 (29 : Fin 50) fd)
            ∗ semVal (thr, SemLoc.dma cc0_scratch16.sem) 0
            ∗ (∃ fd, GFl d L fI fW hin bV3 cc0_scratch10.sem q3 (30 : Fin 50) fd)
            ∗ semVal (thr, SemLoc.dma cc0_scratch17.sem) 0
            ∗ (∃ fd, GFl d L fI fW hin bV4 cc0_scratch11.sem q4 (31 : Fin 50) fd)
            ∗ semVal (thr, SemLoc.dma cc0_scratch18.sem) 0
            ∗ (∃ fd, SFl d L fI fW hin fO bV5 cc0_scratch19.sem (25 : Fin 50) fd)
            ∗ wPts d L fW q5
            ∗ semVal (thr, SemLoc.dma cc0_scratch12.sem) 0
            ∗ (∃ fd, SFl d L fI fW hin fO bV6 cc0_scratch20.sem (26 : Fin 50) fd)
            ∗ wPts d L fW q6
            ∗ semVal (thr, SemLoc.dma cc0_scratch13.sem) 0
            ∗ (∃ fd, bPts d L bV7 (View.write (Elt F) (bV7).view fd (gP d L fI fW hin (27 : Fin 50)) Finset.univ))
            ∗ wPts d L fW q7
            ∗ semVal (thr, SemLoc.dma cc0_scratch14.sem) 0
            ∗ semVal (thr, SemLoc.dma cc0_scratch21.sem) 0
            ∗ Todo (pc (rowPts d L fI)) 32 18
            ∗ Done (pc (rowPts d L fI)) 28
            ∗ Todo (pc (blkPts d L fO)) 27 23
            ∗ Done (pc (blkPts d L (Gath fI fW))) 25) : sProp 𝕄) := by
  simp only [k0_part18_eq_skeleton]; unfold k0_part18_skel
  iintro ⟨HR, #Hmw, ⟨%W0, %hW0, HO⟩, ⟨%fd1, HG1⟩, Hs1, ⟨%fd2, HG2⟩, Hs2, ⟨%fd3, HS3⟩, HW3, Hg3, ⟨%fd4, HS4⟩, HW4, Hg4, ⟨%fd5, HS5⟩, HW5, Hg5, ⟨%fd6, HG6⟩, Hs6, ⟨%fd7, HG7⟩, Hs7, IT, ID, OT, OD⟩
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW1 := wstep hW0 (SemLoc.dma cc0_scratch17.sem)
  ihave Ho := (Entails.of_eq (out_val d L fI fW hin fO (23 : Fin 50) bV3 _)) $$ Ho
  ihave OD := (Entails.of_eq (done_put (blkPts d L (Gath fI fW)) 23 (by decide))) $$ [Ho OD]
  · isplitl [Ho]; · iexact Ho
    iexact OD
  ihave IT' := (Entails.of_eq (todo_take (rowPts d L fI) 30 19 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (30 : Fin 50))) $$ [HW3 Hb3 Hr Hg3]
  · isplitl [HW3]; · iexact HW3
    isplitl [Hb3]; · iexact Hb3
    isplitl [Hr]; · iexact Hr
    iexact Hg3
  iintro HG3
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW2 := wstep hW1 (SemLoc.dma cc0_scratch13.sem)
  ihave ID := (Entails.of_eq (done_put (rowPts d L fI) 26 (by decide))) $$ [Hr ID]
  · isplitl [Hr]; · iexact Hr
    iexact ID
  ihave OT' := (Entails.of_eq (todo_take (blkPts d L fO) 26 23 (by decide))) $$ OT
  icases OT' with ⟨Ho, OT⟩
  iapply (Transfers.wp_dmaLocal countersEmb 𝒱₀ thr none (default : HIx 1) _ rfl
      (show 0 < (oBlkK L (26 : Fin 50)).view.amount (SemLoc.dma cc0_scratch20.sem) from View.dmaCredit_pos (oBlkK L (26 : Fin 50)).view (by decide)) (Finset.Subset.refl _)) $$ [Hb6 Ho Hs6]
  · isplitl [Hb6]; · iexact Hb6
    isplitl [Ho]; · iexact Ho
    iexact Hs6
  iintro HS6
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW3 := wstep hW2 (SemLoc.dma cc0_scratch18.sem)
  ihave Ho := (Entails.of_eq (out_val d L fI fW hin fO (24 : Fin 50) bV4 _)) $$ Ho
  ihave OD := (Entails.of_eq (done_put (blkPts d L (Gath fI fW)) 24 (by decide))) $$ [Ho OD]
  · isplitl [Ho]; · iexact Ho
    iexact OD
  ihave IT' := (Entails.of_eq (todo_take (rowPts d L fI) 31 18 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (31 : Fin 50))) $$ [HW4 Hb4 Hr Hg4]
  · isplitl [HW4]; · iexact HW4
    isplitl [Hb4]; · iexact Hb4
    isplitl [Hr]; · iexact Hr
    iexact Hg4
  iintro HG4
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW4 := wstep hW3 (SemLoc.dma cc0_scratch14.sem)
  ihave ID := (Entails.of_eq (done_put (rowPts d L fI) 27 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW4
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HS5]
  · iexists _; iexact HS5
  isplitl [HW5]
  · iexact HW5
  isplitl [Hg5]
  · iexact Hg5
  isplitl [HS6]
  · iexists _; iexact HS6
  isplitl [HW6]
  · iexact HW6
  isplitl [Hg6]
  · iexact Hg6
  isplitl [Hb7]
  · iexists _; iexact Hb7
  isplitl [HW7]
  · iexact HW7
  isplitl [Hg7]
  · iexact Hg7
  isplitl [Hs7]
  · iexact Hs7
  isplitl [IT]
  · iexact IT
  isplitl [ID]
  · iexact ID
  isplitl [OT]
  · iexact OT
  iexact OD

set_option maxHeartbeats 4000000 in
theorem part_19 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v443 : BitVec 32) (c128_i32_469 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (28 : Fin 50) fd)
        ∗ semVal (thr, SemLoc.dma cc0_scratch15.sem) 0
        ∗ (∃ fd, GFl d L fI fW hin bV2 cc0_scratch9.sem q2 (29 : Fin 50) fd)
        ∗ semVal (thr, SemLoc.dma cc0_scratch16.sem) 0
        ∗ (∃ fd, GFl d L fI fW hin bV3 cc0_scratch10.sem q3 (30 : Fin 50) fd)
        ∗ semVal (thr, SemLoc.dma cc0_scratch17.sem) 0
        ∗ (∃ fd, GFl d L fI fW hin bV4 cc0_scratch11.sem q4 (31 : Fin 50) fd)
        ∗ semVal (thr, SemLoc.dma cc0_scratch18.sem) 0
        ∗ (∃ fd, SFl d L fI fW hin fO bV5 cc0_scratch19.sem (25 : Fin 50) fd)
        ∗ wPts d L fW q5
        ∗ semVal (thr, SemLoc.dma cc0_scratch12.sem) 0
        ∗ (∃ fd, SFl d L fI fW hin fO bV6 cc0_scratch20.sem (26 : Fin 50) fd)
        ∗ wPts d L fW q6
        ∗ semVal (thr, SemLoc.dma cc0_scratch13.sem) 0
        ∗ (∃ fd, bPts d L bV7 (View.write (Elt F) (bV7).view fd (gP d L fI fW hin (27 : Fin 50)) Finset.univ))
        ∗ wPts d L fW q7
        ∗ semVal (thr, SemLoc.dma cc0_scratch14.sem) 0
        ∗ semVal (thr, SemLoc.dma cc0_scratch21.sem) 0
        ∗ Todo (pc (rowPts d L fI)) 32 18
        ∗ Done (pc (rowPts d L fI)) 28
        ∗ Todo (pc (blkPts d L fO)) 27 23
        ∗ Done (pc (blkPts d L (Gath fI fW))) 25)
      ⊢ (wp frame (wpE (defs₀ (F := F)) 𝒱₀ thr none) Set.univ (k0_part19 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v443 c128_i32_469)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (28 : Fin 50) fd)
            ∗ wPts d L fW q1
            ∗ semVal (thr, SemLoc.dma cc0_scratch8.sem) 0
            ∗ (∃ fd, GFl d L fI fW hin bV2 cc0_scratch9.sem q2 (29 : Fin 50) fd)
            ∗ semVal (thr, SemLoc.dma cc0_scratch16.sem) 0
            ∗ (∃ fd, GFl d L fI fW hin bV3 cc0_scratch10.sem q3 (30 : Fin 50) fd)
            ∗ semVal (thr, SemLoc.dma cc0_scratch17.sem) 0
            ∗ (∃ fd, GFl d L fI fW hin bV4 cc0_scratch11.sem q4 (31 : Fin 50) fd)
            ∗ semVal (thr, SemLoc.dma cc0_scratch18.sem) 0
            ∗ (∃ fd, GFl d L fI fW hin bV5 cc0_scratch12.sem q5 (32 : Fin 50) fd)
            ∗ semVal (thr, SemLoc.dma cc0_scratch19.sem) 0
            ∗ (∃ f, bPts d L bV6 f)
            ∗ wPts d L fW q6
            ∗ semVal (thr, SemLoc.dma cc0_scratch13.sem) 0
            ∗ semVal (thr, SemLoc.dma cc0_scratch20.sem) 0
            ∗ (∃ fd, SFl d L fI fW hin fO bV7 cc0_scratch21.sem (27 : Fin 50) fd)
            ∗ wPts d L fW q7
            ∗ semVal (thr, SemLoc.dma cc0_scratch14.sem) 0
            ∗ Todo (pc (rowPts d L fI)) 33 17
            ∗ Done (pc (rowPts d L fI)) 29
            ∗ Todo (pc (blkPts d L fO)) 29 21
            ∗ Done (pc (blkPts d L (Gath fI fW))) 27) : sProp 𝕄) := by
  simp only [k0_part19_eq_skeleton]; unfold k0_part19_skel
  iintro ⟨HR, #Hmw, ⟨%W0, %hW0, HO⟩, ⟨%fd1, HG1⟩, Hs1, ⟨%fd2, HG2⟩, Hs2, ⟨%fd3, HG3⟩, Hs3, ⟨%fd4, HG4⟩, Hs4, ⟨%fd5, HS5⟩, HW5, Hg5, ⟨%fd6, HS6⟩, HW6, Hg6, ⟨%fd7, Hb7⟩, HW7, Hg7, Hs7, IT, ID, OT, OD⟩
  ihave OT' := (Entails.of_eq (todo_take (blkPts d L fO) 27 22 (by decide))) $$ OT
  icases OT' with ⟨Ho, OT⟩
  iapply (Transfers.wp_dmaLocal countersEmb 𝒱₀ thr none (default : HIx 1) _ rfl
      (show 0 < (oBlkK L (27 : Fin 50)).view.amount (SemLoc.dma cc0_scratch21.sem) from View.dmaCredit_pos (oBlkK L (27 : Fin 50)).view (by decide)) (Finset.Subset.refl _)) $$ [Hb7 Ho Hs7]
  · isplitl [Hb7]; · iexact Hb7
    isplitl [Ho]; · iexact Ho
    iexact Hs7
  iintro HS7
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW1 := wstep hW0 (SemLoc.dma cc0_scratch19.sem)
  ihave Ho := (Entails.of_eq (out_val d L fI fW hin fO (25 : Fin 50) bV5 _)) $$ Ho
  ihave OD := (Entails.of_eq (done_put (blkPts d L (Gath fI fW)) 25 (by decide))) $$ [Ho OD]
  · isplitl [Ho]; · iexact Ho
    iexact OD
  ihave IT' := (Entails.of_eq (todo_take (rowPts d L fI) 32 17 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (32 : Fin 50))) $$ [HW5 Hb5 Hr Hg5]
  · isplitl [HW5]; · iexact HW5
    isplitl [Hb5]; · iexact Hb5
    isplitl [Hr]; · iexact Hr
    iexact Hg5
  iintro HG5
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW2 := wstep hW1 (SemLoc.dma cc0_scratch8.sem)
  ihave ID := (Entails.of_eq (done_put (rowPts d L fI) 28 (by decide))) $$ [Hr ID]
  · isplitl [Hr]; · iexact Hr
    iexact ID
  ihave OT' := (Entails.of_eq (todo_take (blkPts d L fO) 28 21 (by decide))) $$ OT
  icases OT' with ⟨Ho, OT⟩
  iapply (Transfers.wp_dmaLocal countersEmb 𝒱₀ thr none (default : HIx 1) _ rfl
      (show 0 < (oBlkK L (28 : Fin 50)).view.amount (SemLoc.dma cc0_scratch15.sem) from View.dmaCredit_pos (oBlkK L (28 : Fin 50)).view (by decide)) (Finset.Subset.refl _)) $$ [Hb1 Ho Hs1]
  · isplitl [Hb1]; · iexact Hb1
    isplitl [Ho]; · iexact Ho
    iexact Hs1
  iintro HS1
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW3 := wstep hW2 (SemLoc.dma cc0_scratch20.sem)
  ihave Ho := (Entails.of_eq (out_val d L fI fW hin fO (26 : Fin 50) bV6 _)) $$ Ho
  ihave OD := (Entails.of_eq (done_put (blkPts d L (Gath fI fW)) 26 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [Hb6]
  · iexists _; iexact Hb6
  isplitl [HW6]
  · iexact HW6
  isplitl [Hg6]
  · iexact Hg6
  isplitl [Hs6]
  · iexact Hs6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_20 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (28 : Fin 50) fd)
        ∗ wPts d L fW q1
        ∗ semVal (thr, SemLoc.dma cc0_scratch8.sem) 0
        ∗ (∃ fd, GFl d L fI fW hin bV2 cc0_scratch9.sem q2 (29 : Fin 50) fd)
        ∗ semVal (thr, SemLoc.dma cc0_scratch16.sem) 0
        ∗ (∃ fd, GFl d L fI fW hin bV3 cc0_scratch10.sem q3 (30 : Fin 50) fd)
        ∗ semVal (thr, SemLoc.dma cc0_scratch17.sem) 0
        ∗ (∃ fd, GFl d L fI fW hin bV4 cc0_scratch11.sem q4 (31 : Fin 50) fd)
        ∗ semVal (thr, SemLoc.dma cc0_scratch18.sem) 0
        ∗ (∃ fd, GFl d L fI fW hin bV5 cc0_scratch12.sem q5 (32 : Fin 50) fd)
        ∗ semVal (thr, SemLoc.dma cc0_scratch19.sem) 0
        ∗ (∃ f, bPts d L bV6 f)
        ∗ wPts d L fW q6
        ∗ semVal (thr, SemLoc.dma cc0_scratch13.sem) 0
        ∗ semVal (thr, SemLoc.dma cc0_scratch20.sem) 0
        ∗ (∃ fd, SFl d L fI fW hin fO bV7 cc0_scratch21.sem (27 : Fin 50) fd)
        ∗ wPts d L fW q7
        ∗ semVal (thr, SemLoc.dma cc0_scratch14.sem) 0
        ∗ Todo (pc (rowPts d L fI)) 33 17
        ∗ Done (pc (rowPts d L fI)) 29
        ∗ Todo (pc (blkPts d L fO)) 29 21
        ∗ Done (pc (blkPts d L (Gath fI fW))) 27)
      ⊢ (wp frame (wpE (defs₀ (F := F)) 𝒱₀ thr none) Set.univ (k0_part20 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (28 : Fin 50) fd)
            ∗ wPts d L fW q1
            ∗ semVal (thr, SemLoc.dma cc0_scratch8.sem) 0
            ∗ (∃ fd, SFl d L fI fW hin fO bV2 cc0_scratch16.sem (29 : Fin 50) fd)
            ∗ wPts d L fW q2
            ∗ semVal (thr, SemLoc.dma cc0_scratch9.sem) 0
            ∗ (∃ fd, SFl d L fI fW hin fO bV3 cc0_scratch17.sem (30 : Fin 50) fd)
            ∗ wPts d L fW q3
            ∗ semVal (thr, SemLoc.dma cc0_scratch10.sem) 0
            ∗ (∃ fd, GFl d L fI fW hin bV4 cc0_scratch11.sem q4 (31 : Fin 50) fd)
            ∗ semVal (thr, SemLoc.dma cc0_scratch18.sem) 0
            ∗ (∃ fd, GFl d L fI fW hin bV5 cc0_scratch12.sem q5 (32 : Fin 50) fd)
            ∗ semVal (thr, SemLoc.dma cc0_scratch19.sem) 0
            ∗ (∃ fd, GFl d L fI fW hin bV6 cc0_scratch13.sem q6 (33 : Fin 50) fd)
            ∗ semVal (thr, SemLoc.dma cc0_scratch20.sem) 0
            ∗ (∃ fd, GFl d L fI fW hin bV7 cc0_scratch14.sem q7 (34 : Fin 50) fd)
            ∗ semVal (thr, SemLoc.dma cc0_scratch21.sem) 0
            ∗ Todo (pc (rowPts d L fI)) 35 15
            ∗ Done (pc (rowPts d L fI)) 31
            ∗ Todo (pc (blkPts d L fO)) 31 19
            ∗ Done (pc (blkPts d L (Gath fI fW))) 28) : sProp 𝕄) := by
  simp only [k0_part20_eq_skeleton]; unfold k0_part20_skel
  iintro ⟨HR, #Hmw, ⟨%W0, %hW0, HO⟩, ⟨%fd1, HS1⟩, HW1, Hg1, ⟨%fd2, HG2⟩, Hs2, ⟨%fd3, HG3⟩, Hs3, ⟨%fd4, HG4⟩, Hs4, ⟨%fd5, HG5⟩, Hs5, ⟨%fd6, Hb6⟩, HW6, Hg6, Hs6, ⟨%fd7, HS7⟩, HW7, Hg7, IT, ID, OT, OD⟩
  ihave IT' := (Entails.of_eq (todo_take (rowPts d L fI) 33 16 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (33 : Fin 50))) $$ [HW6 Hb6 Hr Hg6]
  · isplitl [HW6]; · iexact HW6
    isplitl [Hb6]; · iexact Hb6
    isplitl [Hr]; · iexact Hr
    iexact Hg6
  iintro HG6
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW1 := wstep hW0 (SemLoc.dma cc0_scratch9.sem)
  ihave ID := (Entails.of_eq (done_put (rowPts d L fI) 29 (by decide))) $$ [Hr ID]
  · isplitl [Hr]; · iexact Hr
    iexact ID
  ihave OT' := (Entails.of_eq (todo_take (blkPts d L fO) 29 20 (by decide))) $$ OT
  icases OT' with ⟨Ho, OT⟩
  iapply (Transfers.wp_dmaLocal countersEmb 𝒱₀ thr none (default : HIx 1) _ rfl
      (show 0 < (oBlkK L (29 : Fin 50)).view.amount (SemLoc.dma cc0_scratch16.sem) from View.dmaCredit_pos (oBlkK L (29 : Fin 50)).view (by decide)) (Finset.Subset.refl _)) $$ [Hb2 Ho Hs2]
  · isplitl [Hb2]; · iexact Hb2
    isplitl [Ho]; · iexact Ho
    iexact Hs2
  iintro HS2
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW2 := wstep hW1 (SemLoc.dma cc0_scratch21.sem)
  ihave Ho := (Entails.of_eq (out_val d L fI fW hin fO (27 : Fin 50) bV7 _)) $$ Ho
  ihave OD := (Entails.of_eq (done_put (blkPts d L (Gath fI fW)) 27 (by decide))) $$ [Ho OD]
  · isplitl [Ho]; · iexact Ho
    iexact OD
  ihave IT' := (Entails.of_eq (todo_take (rowPts d L fI) 34 15 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (34 : Fin 50))) $$ [HW7 Hb7 Hr Hg7]
  · isplitl [HW7]; · iexact HW7
    isplitl [Hb7]; · iexact Hb7
    isplitl [Hr]; · iexact Hr
    iexact Hg7
  iintro HG7
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW3 := wstep hW2 (SemLoc.dma cc0_scratch10.sem)
  ihave ID := (Entails.of_eq (done_put (rowPts d L fI) 30 (by decide))) $$ [Hr ID]
  · isplitl [Hr]; · iexact Hr
    iexact ID
  ihave OT' := (Entails.of_eq (todo_take (blkPts d L fO) 30 19 (by decide))) $$ OT
  icases OT' with ⟨Ho, OT⟩
  iapply (Transfers.wp_dmaLocal countersEmb 𝒱₀ thr none (default : HIx 1) _ rfl
      (show 0 < (oBlkK L (30 : Fin 50)).view.amount (SemLoc.dma cc0_scratch17.sem) from View.dmaCredit_pos (oBlkK L (30 : Fin 50)).view (by decide)) (Finset.Subset.refl _)) $$ [Hb3 Ho Hs3]
  · isplitl [Hb3]; · iexact Hb3
    isplitl [Ho]; · iexact Ho
    iexact Hs3
  iintro HS3
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_21 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (28 : Fin 50) fd)
        ∗ wPts d L fW q1
        ∗ semVal (thr, SemLoc.dma cc0_scratch8.sem) 0
        ∗ (∃ fd, SFl d L fI fW hin fO bV2 cc0_scratch16.sem (29 : Fin 50) fd)
        ∗ wPts d L fW q2
        ∗ semVal (thr, SemLoc.dma cc0_scratch9.sem) 0
        ∗ (∃ fd, SFl d L fI fW hin fO bV3 cc0_scratch17.sem (30 : Fin 50) fd)
        ∗ wPts d L fW q3
        ∗ semVal (thr, SemLoc.dma cc0_scratch10.sem) 0
        ∗ (∃ fd, GFl d L fI fW hin bV4 cc0_scratch11.sem q4 (31 : Fin 50) fd)
        ∗ semVal (thr, SemLoc.dma cc0_scratch18.sem) 0
        ∗ (∃ fd, GFl d L fI fW hin bV5 cc0_scratch12.sem q5 (32 : Fin 50) fd)
        ∗ semVal (thr, SemLoc.dma cc0_scratch19.sem) 0
        ∗ (∃ fd, GFl d L fI fW hin bV6 cc0_scratch13.sem q6 (33 : Fin 50) fd)
        ∗ semVal (thr, SemLoc.dma cc0_scratch20.sem) 0
        ∗ (∃ fd, GFl d L fI fW hin bV7 cc0_scratch14.sem q7 (34 : Fin 50) fd)
        ∗ semVal (thr, SemLoc.dma cc0_scratch21.sem) 0
        ∗ Todo (pc (rowPts d L fI)) 35 15
        ∗ Done (pc (rowPts d L fI)) 31
        ∗ Todo (pc (blkPts d L fO)) 31 19
        ∗ Done (pc (blkPts d L (Gath fI fW))) 28)
      ⊢ (wp frame (wpE (defs₀ (F := F)) 𝒱₀ thr none) Set.univ (k0_part21 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (35 : Fin 50) fd)
            ∗ semVal (thr, SemLoc.dma cc0_scratch15.sem) 0
            ∗ (∃ fd, GFl d L fI fW hin bV2 cc0_scratch9.sem q2 (36 : Fin 50) fd)
            ∗ semVal (thr, SemLoc.dma cc0_scratch16.sem) 0
            ∗ (∃ fd, SFl d L fI fW hin fO bV3 cc0_scratch17.sem (30 : Fin 50) fd)
            ∗ wPts d L fW q3
            ∗ semVal (thr, SemLoc.dma cc0_scratch10.sem) 0
            ∗ (∃ fd, SFl d L fI fW hin fO bV4 cc0_scratch18.sem (31 : Fin 50) fd)
            ∗ wPts d L fW q4
            ∗ semVal (thr, SemLoc.dma cc0_scratch11.sem) 0
            ∗ (∃ fd, GFl d L fI fW hin bV5 cc0_scratch12.sem q5 (32 : Fin 50) fd)
            ∗ semVal (thr, SemLoc.dma cc0_scratch19.sem) 0
            ∗ (∃ fd, GFl d L fI fW hin bV6 cc0_scratch13.sem q6 (33 : Fin 50) fd)
            ∗ semVal (thr, SemLoc.dma cc0_scratch20.sem) 0
            ∗ (∃ fd, GFl d L fI fW hin bV7 cc0_scratch14.sem q7 (34 : Fin 50) fd)
            ∗ semVal (thr, SemLoc.dma cc0_scratch21.sem) 0
            ∗ Todo (pc (rowPts d L fI)) 37 13
            ∗ Done (pc (rowPts d L fI)) 32
            ∗ Todo (pc (blkPts d L fO)) 32 18
            ∗ Done (pc (blkPts d L (Gath fI fW))) 30) : sProp 𝕄) := by
  simp only [k0_part21_eq_skeleton]; unfold k0_part21_skel
  iintro ⟨HR, #Hmw, ⟨%W0, %hW0, HO⟩, ⟨%fd1, HS1⟩, HW1, Hg1, ⟨%fd2, HS2⟩, HW2, Hg2, ⟨%fd3, HS3⟩, HW3, Hg3, ⟨%fd4, HG4⟩, Hs4, ⟨%fd5, HG5⟩, Hs5, ⟨%fd6, HG6⟩, Hs6, ⟨%fd7, HG7⟩, Hs7, IT, ID, OT, OD⟩
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW1 := wstep hW0 (SemLoc.dma cc0_scratch15.sem)
  ihave Ho := (Entails.of_eq (out_val d L fI fW hin fO (28 : Fin 50) bV1 _)) $$ Ho
  ihave OD := (Entails.of_eq (done_put (blkPts d L (Gath fI fW)) 28 (by decide))) $$ [Ho OD]
  · isplitl [Ho]; · iexact Ho
    iexact OD
  ihave IT' := (Entails.of_eq (todo_take (rowPts d L fI) 35 14 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (35 : Fin 50))) $$ [HW1 Hb1 Hr Hg1]
  · isplitl [HW1]; · iexact HW1
    isplitl [Hb1]; · iexact Hb1
    isplitl [Hr]; · iexact Hr
    iexact Hg1
  iintro HG1
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW2 := wstep hW1 (SemLoc.dma cc0_scratch11.sem)
  ihave ID := (Entails.of_eq (done_put (rowPts d L fI) 31 (by decide))) $$ [Hr ID]
  · isplitl [Hr]; · iexact Hr
    iexact ID
  ihave OT' := (Entails.of_eq (todo_take (blkPts d L fO) 31 18 (by decide))) $$ OT
  icases OT' with ⟨Ho, OT⟩
  iapply (Transfers.wp_dmaLocal countersEmb 𝒱₀ thr none (default : HIx 1) _ rfl
      (show 0 < (oBlkK L (31 : Fin 50)).view.amount (SemLoc.dma cc0_scratch18.sem) from View.dmaCredit_pos (oBlkK L (31 : Fin 50)).view (by decide)) (Finset.Subset.refl _)) $$ [Hb4 Ho Hs4]
  · isplitl [Hb4]; · iexact Hb4
    isplitl [Ho]; · iexact Ho
    iexact Hs4
  iintro HS4
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW3 := wstep hW2 (SemLoc.dma cc0_scratch16.sem)
  ihave Ho := (Entails.of_eq (out_val d L fI fW hin fO (29 : Fin 50) bV2 _)) $$ Ho
  ihave OD := (Entails.of_eq (done_put (blkPts d L (Gath fI fW)) 29 (by decide))) $$ [Ho OD]
  · isplitl [Ho]; · iexact Ho
    iexact OD
  ihave IT' := (Entails.of_eq (todo_take (rowPts d L fI) 36 13 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (36 : Fin 50))) $$ [HW2 Hb2 Hr Hg2]
  · isplitl [HW2]; · iexact HW2
    isplitl [Hb2]; · iexact Hb2
    isplitl [Hr]; · iexact Hr
    iexact Hg2
  iintro HG2
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_22 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (35 : Fin 50) fd)
        ∗ semVal (thr, SemLoc.dma cc0_scratch15.sem) 0
        ∗ (∃ fd, GFl d L fI fW hin bV2 cc0_scratch9.sem q2 (36 : Fin 50) fd)
        ∗ semVal (thr, SemLoc.dma cc0_scratch16.sem) 0
        ∗ (∃ fd, SFl d L fI fW hin fO bV3 cc0_scratch17.sem (30 : Fin 50) fd)
        ∗ wPts d L fW q3
        ∗ semVal (thr, SemLoc.dma cc0_scratch10.sem) 0
        ∗ (∃ fd, SFl d L fI fW hin fO bV4 cc0_scratch18.sem (31 : Fin 50) fd)
        ∗ wPts d L fW q4
        ∗ semVal (thr, SemLoc.dma cc0_scratch11.sem) 0
        ∗ (∃ fd, GFl d L fI fW hin bV5 cc0_scratch12.sem q5 (32 : Fin 50) fd)
        ∗ semVal (thr, SemLoc.dma cc0_scratch19.sem) 0
        ∗ (∃ fd, GFl d L fI fW hin bV6 cc0_scratch13.sem q6 (33 : Fin 50) fd)
        ∗ semVal (thr, SemLoc.dma cc0_scratch20.sem) 0
        ∗ (∃ fd, GFl d L fI fW hin bV7 cc0_scratch14.sem q7 (34 : Fin 50) fd)
        ∗ semVal (thr, SemLoc.dma cc0_scratch21.sem) 0
        ∗ Todo (pc (rowPts d L fI)) 37 13
        ∗ Done (pc (rowPts d L fI)) 32
        ∗ Todo (pc (blkPts d L fO)) 32 18
        ∗ Done (pc (blkPts d L (Gath fI fW))) 30)
      ⊢ (wp frame (wpE (defs₀ (F := F)) 𝒱₀ thr none) Set.univ (k0_part22 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (35 : Fin 50) fd)
            ∗ semVal (thr, SemLoc.dma cc0_scratch15.sem) 0
            ∗ (∃ fd, GFl d L fI fW hin bV2 cc0_scratch9.sem q2 (36 : Fin 50) fd)
            ∗ semVal (thr, SemLoc.dma cc0_scratch16.sem) 0
            ∗ (∃ fd, GFl d L fI fW hin bV3 cc0_scratch10.sem q3 (37 : Fin 50) fd)
            ∗ semVal (thr, SemLoc.dma cc0_scratch17.sem) 0
            ∗ (∃ fd, SFl d L fI fW hin fO bV4 cc0_scratch18.sem (31 : Fin 50) fd)
            ∗ wPts d L fW q4
            ∗ semVal (thr, SemLoc.dma cc0_scratch11.sem) 0
            ∗ (∃ fd, SFl d L fI fW hin fO bV5 cc0_scratch19.sem (32 : Fin 50) fd)
            ∗ wPts d L fW q5
            ∗ semVal (thr, SemLoc.dma cc0_scratch12.sem) 0
            ∗ (∃ fd, SFl d L fI fW hin fO bV6 cc0_scratch20.sem (33 : Fin 50) fd)
            ∗ wPts d L fW q6
            ∗ semVal (thr, SemLoc.dma cc0_scratch13.sem) 0
            ∗ (∃ fd, GFl d L fI fW hin bV7 cc0_scratch14.sem q7 (34 : Fin 50) fd)
            ∗ semVal (thr, SemLoc.dma cc0_scratch21.sem) 0
            ∗ Todo (pc (rowPts d L fI)) 38 12
            ∗ Done (pc (rowPts d L fI)) 34
            ∗ Todo (pc (blkPts d L fO)) 34 16
            ∗ Done (pc (blkPts d L (Gath fI fW))) 31) : sProp 𝕄) := by
  simp only [k0_part22_eq_skeleton]; unfold k0_part22_skel
  iintro ⟨HR, #Hmw, ⟨%W0, %hW0, HO⟩, ⟨%fd1, HG1⟩, Hs1, ⟨%fd2, HG2⟩, Hs2, ⟨%fd3, HS3⟩, HW3, Hg3, ⟨%fd4, HS4⟩, HW4, Hg4, ⟨%fd5, HG5⟩, Hs5, ⟨%fd6, HG6⟩, Hs6, ⟨%fd7, HG7⟩, Hs7, IT, ID, OT, OD⟩
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW1 := wstep hW0 (SemLoc.dma cc0_scratch12.sem)
  ihave ID := (Entails.of_eq (done_put (rowPts d L fI) 32 (by decide))) $$ [Hr ID]
  · isplitl [Hr]; · iexact Hr
    iexact ID
  ihave OT' := (Entails.of_eq (todo_take (blkPts d L fO) 32 17 (by decide))) $$ OT
  icases OT' with ⟨Ho, OT⟩
  iapply (Transfers.wp_dmaLocal countersEmb 𝒱₀ thr none (default : HIx 1) _ rfl
      (show 0 < (oBlkK L (32 : Fin 50)).view.amount (SemLoc.dma cc0_scratch19.sem) from View.dmaCredit_pos (oBlkK L (32 : Fin 50)).view (by decide)) (Finset.Subset.refl _)) $$ [Hb5 Ho Hs5]
  · isplitl [Hb5]; · iexact Hb5
    isplitl [Ho]; · iexact Ho
    iexact Hs5
  iintro HS5
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW2 := wstep hW1 (SemLoc.dma cc0_scratch17.sem)
  ihave Ho := (Entails.of_eq (out_val d L fI fW hin fO (30 : Fin 50) bV3 _)) $$ Ho
  ihave OD := (Entails.of_eq (done_put (blkPts d L (Gath fI fW)) 30 (by decide))) $$ [Ho OD]
  · isplitl [Ho]; · iexact Ho
    iexact OD
  ihave IT' := (Entails.of_eq (todo_take (rowPts d L fI) 37 12 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (37 : Fin 50))) $$ [HW3 Hb3 Hr Hg3]
  · isplitl [HW3]; · iexact HW3
    isplitl [Hb3]; · iexact Hb3
    isplitl [Hr]; · iexact Hr
    iexact Hg3
  iintro HG3
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW3 := wstep hW2 (SemLoc.dma cc0_scratch13.sem)
  ihave ID := (Entails.of_eq (done_put (rowPts d L fI) 33 (by decide))) $$ [Hr ID]
  · isplitl [Hr]; · iexact Hr
    iexact ID
  ihave OT' := (Entails.of_eq (todo_take (blkPts d L fO) 33 16 (by decide))) $$ OT
  icases OT' with ⟨Ho, OT⟩
  iapply (Transfers.wp_dmaLocal countersEmb 𝒱₀ thr none (default : HIx 1) _ rfl
      (show 0 < (oBlkK L (33 : Fin 50)).view.amount (SemLoc.dma cc0_scratch20.sem) from View.dmaCredit_pos (oBlkK L (33 : Fin 50)).view (by decide)) (Finset.Subset.refl _)) $$ [Hb6 Ho Hs6]
  · isplitl [Hb6]; · iexact Hb6
    isplitl [Ho]; · iexact Ho
    iexact Hs6
  iintro HS6
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [HS6]
  · iexists _; iexact HS6
  isplitl [HW6]
  · iexact HW6
  isplitl [Hg6]
  · iexact Hg6
  isplitl [HG7]
  · iexists _; iexact HG7
  isplitl [Hs7]
  · iexact Hs7
  isplitl [IT]
  · iexact IT
  isplitl [ID]
  · iexact ID
  isplitl [OT]
  · iexact OT
  iexact OD

end Cert.KernelIdeal.TileBody

end
-- ==== Proof.TileP3.lean ====
import proofs.«206768_g17686675325131_cont_8to1_990_33_alg».proof.Proof.TileDefs
import proofs.«206768_g17686675325131_cont_8to1_990_33_alg».proof.Proof.TileVal
import proofs.«206768_g17686675325131_cont_8to1_990_33_alg».proof.Proof.TileGeom

noncomputable section

namespace Cert.KernelIdeal.TileBody

open Cert.KernelIdeal Cert.KernelIdeal.Gen Cert.KernelIdeal.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S32x50x128 EltTy.i32)
local notation "oV" => (Memref.whole Cert.KernelIdeal.main_v1_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S50x128 EltTy.i32)

variable (d : Dev nD) (L : grid0.Coords)

local notation "thr" => (V d (cV L) (jV L))

set_option maxHeartbeats 4000000 in
theorem part_23 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (35 : Fin 50) fd)
        ∗ semVal (thr, SemLoc.dma cc0_scratch15.sem) 0
        ∗ (∃ fd, GFl d L fI fW hin bV2 cc0_scratch9.sem q2 (36 : Fin 50) fd)
        ∗ semVal (thr, SemLoc.dma cc0_scratch16.sem) 0
        ∗ (∃ fd, GFl d L fI fW hin bV3 cc0_scratch10.sem q3 (37 : Fin 50) fd)
        ∗ semVal (thr, SemLoc.dma cc0_scratch17.sem) 0
        ∗ (∃ fd, SFl d L fI fW hin fO bV4 cc0_scratch18.sem (31 : Fin 50) fd)
        ∗ wPts d L fW q4
        ∗ semVal (thr, SemLoc.dma cc0_scratch11.sem) 0
        ∗ (∃ fd, SFl d L fI fW hin fO bV5 cc0_scratch19.sem (32 : Fin 50) fd)
        ∗ wPts d L fW q5
        ∗ semVal (thr, SemLoc.dma cc0_scratch12.sem) 0
        ∗ (∃ fd, SFl d L fI fW hin fO bV6 cc0_scratch20.sem (33 : Fin 50) fd)
        ∗ wPts d L fW q6
        ∗ semVal (thr, SemLoc.dma cc0_scratch13.sem) 0
        ∗ (∃ fd, GFl d L fI fW hin bV7 cc0_scratch14.sem q7 (34 : Fin 50) fd)
        ∗ semVal (thr, SemLoc.dma cc0_scratch21.sem) 0
        ∗ Todo (pc (rowPts d L fI)) 38 12
        ∗ Done (pc (rowPts d L fI)) 34
        ∗ Todo (pc (blkPts d L fO)) 34 16
        ∗ Done (pc (blkPts d L (Gath fI fW))) 31)
      ⊢ (wp frame (wpE (defs₀ (F := F)) 𝒱₀ thr none) Set.univ (k0_part23 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, bPts d L bV1 (View.write (Elt F) (bV1).view fd (gP d L fI fW hin (35 : Fin 50)) Finset.univ))
            ∗ wPts d L fW q1
            ∗ semVal (thr, SemLoc.dma cc0_scratch8.sem) 0
            ∗ semVal (thr, SemLoc.dma cc0_scratch15.sem) 0
            ∗ (∃ fd, GFl d L fI fW hin bV2 cc0_scratch9.sem q2 (36 : Fin 50) fd)
            ∗ semVal (thr, SemLoc.dma cc0_scratch16.sem) 0
            ∗ (∃ fd, GFl d L fI fW hin bV3 cc0_scratch10.sem q3 (37 : Fin 50) fd)
            ∗ semVal (thr, SemLoc.dma cc0_scratch17.sem) 0
            ∗ (∃ fd, GFl d L fI fW hin bV4 cc0_scratch11.sem q4 (38 : Fin 50) fd)
            ∗ semVal (thr, SemLoc.dma cc0_scratch18.sem) 0
            ∗ (∃ fd, GFl d L fI fW hin bV5 cc0_scratch12.sem q5 (39 : Fin 50) fd)
            ∗ semVal (thr, SemLoc.dma cc0_scratch19.sem) 0
            ∗ (∃ fd, SFl d L fI fW hin fO bV6 cc0_scratch20.sem (33 : Fin 50) fd)
            ∗ wPts d L fW q6
            ∗ semVal (thr, SemLoc.dma cc0_scratch13.sem) 0
            ∗ (∃ fd, SFl d L fI fW hin fO bV7 cc0_scratch21.sem (34 : Fin 50) fd)
            ∗ wPts d L fW q7
            ∗ semVal (thr, SemLoc.dma cc0_scratch14.sem) 0
            ∗ Todo (pc (rowPts d L fI)) 40 10
            ∗ Done (pc (rowPts d L fI)) 36
            ∗ Todo (pc (blkPts d L fO)) 35 15
            ∗ Done (pc (blkPts d L (Gath fI fW))) 33) : sProp 𝕄) := by
  simp only [k0_part23_eq_skeleton]; unfold k0_part23_skel
  iintro ⟨HR, #Hmw, ⟨%W0, %hW0, HO⟩, ⟨%fd1, HG1⟩, Hs1, ⟨%fd2, HG2⟩, Hs2, ⟨%fd3, HG3⟩, Hs3, ⟨%fd4, HS4⟩, HW4, Hg4, ⟨%fd5, HS5⟩, HW5, Hg5, ⟨%fd6, HS6⟩, HW6, Hg6, ⟨%fd7, HG7⟩, Hs7, IT, ID, OT, OD⟩
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW1 := wstep hW0 (SemLoc.dma cc0_scratch18.sem)
  ihave Ho := (Entails.of_eq (out_val d L fI fW hin fO (31 : Fin 50) bV4 _)) $$ Ho
  ihave OD := (Entails.of_eq (done_put (blkPts d L (Gath fI fW)) 31 (by decide))) $$ [Ho OD]
  · isplitl [Ho]; · iexact Ho
    iexact OD
  ihave IT' := (Entails.of_eq (todo_take (rowPts d L fI) 38 11 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (38 : Fin 50))) $$ [HW4 Hb4 Hr Hg4]
  · isplitl [HW4]; · iexact HW4
    isplitl [Hb4]; · iexact Hb4
    isplitl [Hr]; · iexact Hr
    iexact Hg4
  iintro HG4
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW2 := wstep hW1 (SemLoc.dma cc0_scratch14.sem)
  ihave ID := (Entails.of_eq (done_put (rowPts d L fI) 34 (by decide))) $$ [Hr ID]
  · isplitl [Hr]; · iexact Hr
    iexact ID
  ihave OT' := (Entails.of_eq (todo_take (blkPts d L fO) 34 15 (by decide))) $$ OT
  icases OT' with ⟨Ho, OT⟩
  iapply (Transfers.wp_dmaLocal countersEmb 𝒱₀ thr none (default : HIx 1) _ rfl
      (show 0 < (oBlkK L (34 : Fin 50)).view.amount (SemLoc.dma cc0_scratch21.sem) from View.dmaCredit_pos (oBlkK L (34 : Fin 50)).view (by decide)) (Finset.Subset.refl _)) $$ [Hb7 Ho Hs7]
  · isplitl [Hb7]; · iexact Hb7
    isplitl [Ho]; · iexact Ho
    iexact Hs7
  iintro HS7
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW3 := wstep hW2 (SemLoc.dma cc0_scratch19.sem)
  ihave Ho := (Entails.of_eq (out_val d L fI fW hin fO (32 : Fin 50) bV5 _)) $$ Ho
  ihave OD := (Entails.of_eq (done_put (blkPts d L (Gath fI fW)) 32 (by decide))) $$ [Ho OD]
  · isplitl [Ho]; · iexact Ho
    iexact OD
  ihave IT' := (Entails.of_eq (todo_take (rowPts d L fI) 39 10 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (39 : Fin 50))) $$ [HW5 Hb5 Hr Hg5]
  · isplitl [HW5]; · iexact HW5
    isplitl [Hb5]; · iexact Hb5
    isplitl [Hr]; · iexact Hr
    iexact Hg5
  iintro HG5
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW4 := wstep hW3 (SemLoc.dma cc0_scratch8.sem)
  ihave ID := (Entails.of_eq (done_put (rowPts d L fI) 35 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW4
    · iexact HO
  isplitl [Hb1]
  · iexists _; iexact Hb1
  isplitl [HW1]
  · iexact HW1
  isplitl [Hg1]
  · iexact Hg1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HS6]
  · iexists _; iexact HS6
  isplitl [HW6]
  · iexact HW6
  isplitl [Hg6]
  · iexact Hg6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_24 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (c50_i32_603 : BitVec 32) :
    iprop(R
        ∗ Transfers.MayWaits thr (default : HIx 1) O
        ∗ (∃ W', ⌜∀ p ∈ W', p ∈ W ∨ p.2 = none⌝ ∗ owes thr O W')
        ∗ (∃ fd, bPts d L bV1 (View.write (Elt F) (bV1).view fd (gP d L fI fW hin (35 : Fin 50)) Finset.univ))
        ∗ wPts d L fW q1
        ∗ semVal (thr, SemLoc.dma cc0_scratch8.sem) 0
        ∗ semVal (thr, SemLoc.dma cc0_scratch15.sem) 0
        ∗ (∃ fd, GFl d L fI fW hin bV2 cc0_scratch9.sem q2 (36 : Fin 50) fd)
        ∗ semVal (thr, SemLoc.dma cc0_scratch16.sem) 0
        ∗ (∃ fd, GFl d L fI fW hin bV3 cc0_scratch10.sem q3 (37 : Fin 50) fd)
        ∗ semVal (thr, SemLoc.dma cc0_scratch17.sem) 0
        ∗ (∃ fd, GFl d L fI fW hin bV4 cc0_scratch11.sem q4 (38 : Fin 50) fd)
        ∗ semVal (thr, SemLoc.dma cc0_scratch18.sem) 0
        ∗ (∃ fd, GFl d L fI fW hin bV5 cc0_scratch12.sem q5 (39 : Fin 50) fd)
        ∗ semVal (thr, SemLoc.dma cc0_scratch19.sem) 0
        ∗ (∃ fd, SFl d L fI fW hin fO bV6 cc0_scratch20.sem (33 : Fin 50) fd)
        ∗ wPts d L fW q6
        ∗ semVal (thr, SemLoc.dma cc0_scratch13.sem) 0
        ∗ (∃ fd, SFl d L fI fW hin fO bV7 cc0_scratch21.sem (34 : Fin 50) fd)
        ∗ wPts d L fW q7
        ∗ semVal (thr, SemLoc.dma cc0_scratch14.sem) 0
        ∗ Todo (pc (rowPts d L fI)) 40 10
        ∗ Done (pc (rowPts d L fI)) 36
        ∗ Todo (pc (blkPts d L fO)) 35 15
        ∗ Done (pc (blkPts d L (Gath fI fW))) 33)
      ⊢ (wp frame (wpE (defs₀ (F := F)) 𝒱₀ thr none) Set.univ (k0_part24 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 c50_i32_603)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (35 : Fin 50) fd)
            ∗ wPts d L fW q1
            ∗ semVal (thr, SemLoc.dma cc0_scratch8.sem) 0
            ∗ (∃ fd, SFl d L fI fW hin fO bV2 cc0_scratch16.sem (36 : Fin 50) fd)
            ∗ wPts d L fW q2
            ∗ semVal (thr, SemLoc.dma cc0_scratch9.sem) 0
            ∗ (∃ fd, GFl d L fI fW hin bV3 cc0_scratch10.sem q3 (37 : Fin 50) fd)
            ∗ semVal (thr, SemLoc.dma cc0_scratch17.sem) 0
            ∗ (∃ fd, GFl d L fI fW hin bV4 cc0_scratch11.sem q4 (38 : Fin 50) fd)
            ∗ semVal (thr, SemLoc.dma cc0_scratch18.sem) 0
            ∗ (∃ fd, GFl d L fI fW hin bV5 cc0_scratch12.sem q5 (39 : Fin 50) fd)
            ∗ semVal (thr, SemLoc.dma cc0_scratch19.sem) 0
            ∗ (∃ fd, GFl d L fI fW hin bV6 cc0_scratch13.sem q6 (40 : Fin 50) fd)
            ∗ semVal (thr, SemLoc.dma cc0_scratch20.sem) 0
            ∗ (∃ f, bPts d L bV7 f)
            ∗ wPts d L fW q7
            ∗ semVal (thr, SemLoc.dma cc0_scratch14.sem) 0
            ∗ semVal (thr, SemLoc.dma cc0_scratch21.sem) 0
            ∗ Todo (pc (rowPts d L fI)) 41 9
            ∗ Done (pc (rowPts d L fI)) 37
            ∗ Todo (pc (blkPts d L fO)) 37 13
            ∗ Done (pc (blkPts d L (Gath fI fW))) 35) : sProp 𝕄) := by
  simp only [k0_part24_eq_skeleton]; unfold k0_part24_skel
  iintro ⟨HR, #Hmw, ⟨%W0, %hW0, HO⟩, ⟨%fd1, Hb1⟩, HW1, Hg1, Hs1, ⟨%fd2, HG2⟩, Hs2, ⟨%fd3, HG3⟩, Hs3, ⟨%fd4, HG4⟩, Hs4, ⟨%fd5, HG5⟩, Hs5, ⟨%fd6, HS6⟩, HW6, Hg6, ⟨%fd7, HS7⟩, HW7, Hg7, IT, ID, OT, OD⟩
  ihave OT' := (Entails.of_eq (todo_take (blkPts d L fO) 35 14 (by decide))) $$ OT
  icases OT' with ⟨Ho, OT⟩
  iapply (Transfers.wp_dmaLocal countersEmb 𝒱₀ thr none (default : HIx 1) _ rfl
      (show 0 < (oBlkK L (35 : Fin 50)).view.amount (SemLoc.dma cc0_scratch15.sem) from View.dmaCredit_pos (oBlkK L (35 : Fin 50)).view (by decide)) (Finset.Subset.refl _)) $$ [Hb1 Ho Hs1]
  · isplitl [Hb1]; · iexact Hb1
    isplitl [Ho]; · iexact Ho
    iexact Hs1
  iintro HS1
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW1 := wstep hW0 (SemLoc.dma cc0_scratch20.sem)
  ihave Ho := (Entails.of_eq (out_val d L fI fW hin fO (33 : Fin 50) bV6 _)) $$ Ho
  ihave OD := (Entails.of_eq (done_put (blkPts d L (Gath fI fW)) 33 (by decide))) $$ [Ho OD]
  · isplitl [Ho]; · iexact Ho
    iexact OD
  ihave IT' := (Entails.of_eq (todo_take (rowPts d L fI) 40 9 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (40 : Fin 50))) $$ [HW6 Hb6 Hr Hg6]
  · isplitl [HW6]; · iexact HW6
    isplitl [Hb6]; · iexact Hb6
    isplitl [Hr]; · iexact Hr
    iexact Hg6
  iintro HG6
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW2 := wstep hW1 (SemLoc.dma cc0_scratch9.sem)
  ihave ID := (Entails.of_eq (done_put (rowPts d L fI) 36 (by decide))) $$ [Hr ID]
  · isplitl [Hr]; · iexact Hr
    iexact ID
  ihave OT' := (Entails.of_eq (todo_take (blkPts d L fO) 36 13 (by decide))) $$ OT
  icases OT' with ⟨Ho, OT⟩
  iapply (Transfers.wp_dmaLocal countersEmb 𝒱₀ thr none (default : HIx 1) _ rfl
      (show 0 < (oBlkK L (36 : Fin 50)).view.amount (SemLoc.dma cc0_scratch16.sem) from View.dmaCredit_pos (oBlkK L (36 : Fin 50)).view (by decide)) (Finset.Subset.refl _)) $$ [Hb2 Ho Hs2]
  · isplitl [Hb2]; · iexact Hb2
    isplitl [Ho]; · iexact Ho
    iexact Hs2
  iintro HS2
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW3 := wstep hW2 (SemLoc.dma cc0_scratch21.sem)
  ihave Ho := (Entails.of_eq (out_val d L fI fW hin fO (34 : Fin 50) bV7 _)) $$ Ho
  ihave OD := (Entails.of_eq (done_put (blkPts d L (Gath fI fW)) 34 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HS2]
  · iexists _; iexact HS2
  isplitl [HW2]
  · iexact HW2
  isplitl [Hg2]
  · iexact Hg2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [Hb7]
  · iexists _; iexact Hb7
  isplitl [HW7]
  · iexact HW7
  isplitl [Hg7]
  · iexact Hg7
  isplitl [Hs7]
  · iexact Hs7
  isplitl [IT]
  · iexact IT
  isplitl [ID]
  · iexact ID
  isplitl [OT]
  · iexact OT
  iexact OD

set_option maxHeartbeats 4000000 in
theorem part_25 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (35 : Fin 50) fd)
        ∗ wPts d L fW q1
        ∗ semVal (thr, SemLoc.dma cc0_scratch8.sem) 0
        ∗ (∃ fd, SFl d L fI fW hin fO bV2 cc0_scratch16.sem (36 : Fin 50) fd)
        ∗ wPts d L fW q2
        ∗ semVal (thr, SemLoc.dma cc0_scratch9.sem) 0
        ∗ (∃ fd, GFl d L fI fW hin bV3 cc0_scratch10.sem q3 (37 : Fin 50) fd)
        ∗ semVal (thr, SemLoc.dma cc0_scratch17.sem) 0
        ∗ (∃ fd, GFl d L fI fW hin bV4 cc0_scratch11.sem q4 (38 : Fin 50) fd)
        ∗ semVal (thr, SemLoc.dma cc0_scratch18.sem) 0
        ∗ (∃ fd, GFl d L fI fW hin bV5 cc0_scratch12.sem q5 (39 : Fin 50) fd)
        ∗ semVal (thr, SemLoc.dma cc0_scratch19.sem) 0
        ∗ (∃ fd, GFl d L fI fW hin bV6 cc0_scratch13.sem q6 (40 : Fin 50) fd)
        ∗ semVal (thr, SemLoc.dma cc0_scratch20.sem) 0
        ∗ (∃ f, bPts d L bV7 f)
        ∗ wPts d L fW q7
        ∗ semVal (thr, SemLoc.dma cc0_scratch14.sem) 0
        ∗ semVal (thr, SemLoc.dma cc0_scratch21.sem) 0
        ∗ Todo (pc (rowPts d L fI)) 41 9
        ∗ Done (pc (rowPts d L fI)) 37
        ∗ Todo (pc (blkPts d L fO)) 37 13
        ∗ Done (pc (blkPts d L (Gath fI fW))) 35)
      ⊢ (wp frame (wpE (defs₀ (F := F)) 𝒱₀ thr none) Set.univ (k0_part25 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (42 : Fin 50) fd)
            ∗ semVal (thr, SemLoc.dma cc0_scratch15.sem) 0
            ∗ (∃ fd, SFl d L fI fW hin fO bV2 cc0_scratch16.sem (36 : Fin 50) fd)
            ∗ wPts d L fW q2
            ∗ semVal (thr, SemLoc.dma cc0_scratch9.sem) 0
            ∗ (∃ fd, SFl d L fI fW hin fO bV3 cc0_scratch17.sem (37 : Fin 50) fd)
            ∗ wPts d L fW q3
            ∗ semVal (thr, SemLoc.dma cc0_scratch10.sem) 0
            ∗ (∃ fd, bPts d L bV4 (View.write (Elt F) (bV4).view fd (gP d L fI fW hin (38 : Fin 50)) Finset.univ))
            ∗ wPts d L fW q4
            ∗ semVal (thr, SemLoc.dma cc0_scratch11.sem) 0
            ∗ semVal (thr, SemLoc.dma cc0_scratch18.sem) 0
            ∗ (∃ fd, GFl d L fI fW hin bV5 cc0_scratch12.sem q5 (39 : Fin 50) fd)
            ∗ semVal (thr, SemLoc.dma cc0_scratch19.sem) 0
            ∗ (∃ fd, GFl d L fI fW hin bV6 cc0_scratch13.sem q6 (40 : Fin 50) fd)
            ∗ semVal (thr, SemLoc.dma cc0_scratch20.sem) 0
            ∗ (∃ fd, GFl d L fI fW hin bV7 cc0_scratch14.sem q7 (41 : Fin 50) fd)
            ∗ semVal (thr, SemLoc.dma cc0_scratch21.sem) 0
            ∗ Todo (pc (rowPts d L fI)) 43 7
            ∗ Done (pc (rowPts d L fI)) 39
            ∗ Todo (pc (blkPts d L fO)) 38 12
            ∗ Done (pc (blkPts d L (Gath fI fW))) 36) : sProp 𝕄) := by
  simp only [k0_part25_eq_skeleton]; unfold k0_part25_skel
  iintro ⟨HR, #Hmw, ⟨%W0, %hW0, HO⟩, ⟨%fd1, HS1⟩, HW1, Hg1, ⟨%fd2, HS2⟩, HW2, Hg2, ⟨%fd3, HG3⟩, Hs3, ⟨%fd4, HG4⟩, Hs4, ⟨%fd5, HG5⟩, Hs5, ⟨%fd6, HG6⟩, Hs6, ⟨%fd7, Hb7⟩, HW7, Hg7, Hs7, IT, ID, OT, OD⟩
  ihave IT' := (Entails.of_eq (todo_take (rowPts d L fI) 41 8 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (41 : Fin 50))) $$ [HW7 Hb7 Hr Hg7]
  · isplitl [HW7]; · iexact HW7
    isplitl [Hb7]; · iexact Hb7
    isplitl [Hr]; · iexact Hr
    iexact Hg7
  iintro HG7
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW1 := wstep hW0 (SemLoc.dma cc0_scratch10.sem)
  ihave ID := (Entails.of_eq (done_put (rowPts d L fI) 37 (by decide))) $$ [Hr ID]
  · isplitl [Hr]; · iexact Hr
    iexact ID
  ihave OT' := (Entails.of_eq (todo_take (blkPts d L fO) 37 12 (by decide))) $$ OT
  icases OT' with ⟨Ho, OT⟩
  iapply (Transfers.wp_dmaLocal countersEmb 𝒱₀ thr none (default : HIx 1) _ rfl
      (show 0 < (oBlkK L (37 : Fin 50)).view.amount (SemLoc.dma cc0_scratch17.sem) from View.dmaCredit_pos (oBlkK L (37 : Fin 50)).view (by decide)) (Finset.Subset.refl _)) $$ [Hb3 Ho Hs3]
  · isplitl [Hb3]; · iexact Hb3
    isplitl [Ho]; · iexact Ho
    iexact Hs3
  iintro HS3
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW2 := wstep hW1 (SemLoc.dma cc0_scratch15.sem)
  ihave Ho := (Entails.of_eq (out_val d L fI fW hin fO (35 : Fin 50) bV1 _)) $$ Ho
  ihave OD := (Entails.of_eq (done_put (blkPts d L (Gath fI fW)) 35 (by decide))) $$ [Ho OD]
  · isplitl [Ho]; · iexact Ho
    iexact OD
  ihave IT' := (Entails.of_eq (todo_take (rowPts d L fI) 42 7 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (42 : Fin 50))) $$ [HW1 Hb1 Hr Hg1]
  · isplitl [HW1]; · iexact HW1
    isplitl [Hb1]; · iexact Hb1
    isplitl [Hr]; · iexact Hr
    iexact Hg1
  iintro HG1
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW3 := wstep hW2 (SemLoc.dma cc0_scratch11.sem)
  ihave ID := (Entails.of_eq (done_put (rowPts d L fI) 38 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [Hb4]
  · iexists _; iexact Hb4
  isplitl [HW4]
  · iexact HW4
  isplitl [Hg4]
  · iexact Hg4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_26 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (42 : Fin 50) fd)
        ∗ semVal (thr, SemLoc.dma cc0_scratch15.sem) 0
        ∗ (∃ fd, SFl d L fI fW hin fO bV2 cc0_scratch16.sem (36 : Fin 50) fd)
        ∗ wPts d L fW q2
        ∗ semVal (thr, SemLoc.dma cc0_scratch9.sem) 0
        ∗ (∃ fd, SFl d L fI fW hin fO bV3 cc0_scratch17.sem (37 : Fin 50) fd)
        ∗ wPts d L fW q3
        ∗ semVal (thr, SemLoc.dma cc0_scratch10.sem) 0
        ∗ (∃ fd, bPts d L bV4 (View.write (Elt F) (bV4).view fd (gP d L fI fW hin (38 : Fin 50)) Finset.univ))
        ∗ wPts d L fW q4
        ∗ semVal (thr, SemLoc.dma cc0_scratch11.sem) 0
        ∗ semVal (thr, SemLoc.dma cc0_scratch18.sem) 0
        ∗ (∃ fd, GFl d L fI fW hin bV5 cc0_scratch12.sem q5 (39 : Fin 50) fd)
        ∗ semVal (thr, SemLoc.dma cc0_scratch19.sem) 0
        ∗ (∃ fd, GFl d L fI fW hin bV6 cc0_scratch13.sem q6 (40 : Fin 50) fd)
        ∗ semVal (thr, SemLoc.dma cc0_scratch20.sem) 0
        ∗ (∃ fd, GFl d L fI fW hin bV7 cc0_scratch14.sem q7 (41 : Fin 50) fd)
        ∗ semVal (thr, SemLoc.dma cc0_scratch21.sem) 0
        ∗ Todo (pc (rowPts d L fI)) 43 7
        ∗ Done (pc (rowPts d L fI)) 39
        ∗ Todo (pc (blkPts d L fO)) 38 12
        ∗ Done (pc (blkPts d L (Gath fI fW))) 36)
      ⊢ (wp frame (wpE (defs₀ (F := F)) 𝒱₀ thr none) Set.univ (k0_part26 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (42 : Fin 50) fd)
            ∗ semVal (thr, SemLoc.dma cc0_scratch15.sem) 0
            ∗ (∃ fd, GFl d L fI fW hin bV2 cc0_scratch9.sem q2 (43 : Fin 50) fd)
            ∗ semVal (thr, SemLoc.dma cc0_scratch16.sem) 0
            ∗ (∃ f, bPts d L bV3 f)
            ∗ wPts d L fW q3
            ∗ semVal (thr, SemLoc.dma cc0_scratch10.sem) 0
            ∗ semVal (thr, SemLoc.dma cc0_scratch17.sem) 0
            ∗ (∃ fd, SFl d L fI fW hin fO bV4 cc0_scratch18.sem (38 : Fin 50) fd)
            ∗ wPts d L fW q4
            ∗ semVal (thr, SemLoc.dma cc0_scratch11.sem) 0
            ∗ (∃ fd, SFl d L fI fW hin fO bV5 cc0_scratch19.sem (39 : Fin 50) fd)
            ∗ wPts d L fW q5
            ∗ semVal (thr, SemLoc.dma cc0_scratch12.sem) 0
            ∗ (∃ fd, GFl d L fI fW hin bV6 cc0_scratch13.sem q6 (40 : Fin 50) fd)
            ∗ semVal (thr, SemLoc.dma cc0_scratch20.sem) 0
            ∗ (∃ fd, GFl d L fI fW hin bV7 cc0_scratch14.sem q7 (41 : Fin 50) fd)
            ∗ semVal (thr, SemLoc.dma cc0_scratch21.sem) 0
            ∗ Todo (pc (rowPts d L fI)) 44 6
            ∗ Done (pc (rowPts d L fI)) 40
            ∗ Todo (pc (blkPts d L fO)) 40 10
            ∗ Done (pc (blkPts d L (Gath fI fW))) 38) : sProp 𝕄) := by
  simp only [k0_part26_eq_skeleton]; unfold k0_part26_skel
  iintro ⟨HR, #Hmw, ⟨%W0, %hW0, HO⟩, ⟨%fd1, HG1⟩, Hs1, ⟨%fd2, HS2⟩, HW2, Hg2, ⟨%fd3, HS3⟩, HW3, Hg3, ⟨%fd4, Hb4⟩, HW4, Hg4, Hs4, ⟨%fd5, HG5⟩, Hs5, ⟨%fd6, HG6⟩, Hs6, ⟨%fd7, HG7⟩, Hs7, IT, ID, OT, OD⟩
  ihave OT' := (Entails.of_eq (todo_take (blkPts d L fO) 38 11 (by decide))) $$ OT
  icases OT' with ⟨Ho, OT⟩
  iapply (Transfers.wp_dmaLocal countersEmb 𝒱₀ thr none (default : HIx 1) _ rfl
      (show 0 < (oBlkK L (38 : Fin 50)).view.amount (SemLoc.dma cc0_scratch18.sem) from View.dmaCredit_pos (oBlkK L (38 : Fin 50)).view (by decide)) (Finset.Subset.refl _)) $$ [Hb4 Ho Hs4]
  · isplitl [Hb4]; · iexact Hb4
    isplitl [Ho]; · iexact Ho
    iexact Hs4
  iintro HS4
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW1 := wstep hW0 (SemLoc.dma cc0_scratch16.sem)
  ihave Ho := (Entails.of_eq (out_val d L fI fW hin fO (36 : Fin 50) bV2 _)) $$ Ho
  ihave OD := (Entails.of_eq (done_put (blkPts d L (Gath fI fW)) 36 (by decide))) $$ [Ho OD]
  · isplitl [Ho]; · iexact Ho
    iexact OD
  ihave IT' := (Entails.of_eq (todo_take (rowPts d L fI) 43 6 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (43 : Fin 50))) $$ [HW2 Hb2 Hr Hg2]
  · isplitl [HW2]; · iexact HW2
    isplitl [Hb2]; · iexact Hb2
    isplitl [Hr]; · iexact Hr
    iexact Hg2
  iintro HG2
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW2 := wstep hW1 (SemLoc.dma cc0_scratch12.sem)
  ihave ID := (Entails.of_eq (done_put (rowPts d L fI) 39 (by decide))) $$ [Hr ID]
  · isplitl [Hr]; · iexact Hr
    iexact ID
  ihave OT' := (Entails.of_eq (todo_take (blkPts d L fO) 39 10 (by decide))) $$ OT
  icases OT' with ⟨Ho, OT⟩
  iapply (Transfers.wp_dmaLocal countersEmb 𝒱₀ thr none (default : HIx 1) _ rfl
      (show 0 < (oBlkK L (39 : Fin 50)).view.amount (SemLoc.dma cc0_scratch19.sem) from View.dmaCredit_pos (oBlkK L (39 : Fin 50)).view (by decide)) (Finset.Subset.refl _)) $$ [Hb5 Ho Hs5]
  · isplitl [Hb5]; · iexact Hb5
    isplitl [Ho]; · iexact Ho
    iexact Hs5
  iintro HS5
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW3 := wstep hW2 (SemLoc.dma cc0_scratch17.sem)
  ihave Ho := (Entails.of_eq (out_val d L fI fW hin fO (37 : Fin 50) bV3 _)) $$ Ho
  ihave OD := (Entails.of_eq (done_put (blkPts d L (Gath fI fW)) 37 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [Hb3]
  · iexists _; iexact Hb3
  isplitl [HW3]
  · iexact HW3
  isplitl [Hg3]
  · iexact Hg3
  isplitl [Hs3]
  · iexact Hs3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_27 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (42 : Fin 50) fd)
        ∗ semVal (thr, SemLoc.dma cc0_scratch15.sem) 0
        ∗ (∃ fd, GFl d L fI fW hin bV2 cc0_scratch9.sem q2 (43 : Fin 50) fd)
        ∗ semVal (thr, SemLoc.dma cc0_scratch16.sem) 0
        ∗ (∃ f, bPts d L bV3 f)
        ∗ wPts d L fW q3
        ∗ semVal (thr, SemLoc.dma cc0_scratch10.sem) 0
        ∗ semVal (thr, SemLoc.dma cc0_scratch17.sem) 0
        ∗ (∃ fd, SFl d L fI fW hin fO bV4 cc0_scratch18.sem (38 : Fin 50) fd)
        ∗ wPts d L fW q4
        ∗ semVal (thr, SemLoc.dma cc0_scratch11.sem) 0
        ∗ (∃ fd, SFl d L fI fW hin fO bV5 cc0_scratch19.sem (39 : Fin 50) fd)
        ∗ wPts d L fW q5
        ∗ semVal (thr, SemLoc.dma cc0_scratch12.sem) 0
        ∗ (∃ fd, GFl d L fI fW hin bV6 cc0_scratch13.sem q6 (40 : Fin 50) fd)
        ∗ semVal (thr, SemLoc.dma cc0_scratch20.sem) 0
        ∗ (∃ fd, GFl d L fI fW hin bV7 cc0_scratch14.sem q7 (41 : Fin 50) fd)
        ∗ semVal (thr, SemLoc.dma cc0_scratch21.sem) 0
        ∗ Todo (pc (rowPts d L fI)) 44 6
        ∗ Done (pc (rowPts d L fI)) 40
        ∗ Todo (pc (blkPts d L fO)) 40 10
        ∗ Done (pc (blkPts d L (Gath fI fW))) 38)
      ⊢ (wp frame (wpE (defs₀ (F := F)) 𝒱₀ thr none) Set.univ (k0_part27 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (42 : Fin 50) fd)
            ∗ semVal (thr, SemLoc.dma cc0_scratch15.sem) 0
            ∗ (∃ fd, GFl d L fI fW hin bV2 cc0_scratch9.sem q2 (43 : Fin 50) fd)
            ∗ semVal (thr, SemLoc.dma cc0_scratch16.sem) 0
            ∗ (∃ fd, GFl d L fI fW hin bV3 cc0_scratch10.sem q3 (44 : Fin 50) fd)
            ∗ semVal (thr, SemLoc.dma cc0_scratch17.sem) 0
            ∗ (∃ fd, GFl d L fI fW hin bV4 cc0_scratch11.sem q4 (45 : Fin 50) fd)
            ∗ semVal (thr, SemLoc.dma cc0_scratch18.sem) 0
            ∗ (∃ fd, SFl d L fI fW hin fO bV5 cc0_scratch19.sem (39 : Fin 50) fd)
            ∗ wPts d L fW q5
            ∗ semVal (thr, SemLoc.dma cc0_scratch12.sem) 0
            ∗ (∃ fd, SFl d L fI fW hin fO bV6 cc0_scratch20.sem (40 : Fin 50) fd)
            ∗ wPts d L fW q6
            ∗ semVal (thr, SemLoc.dma cc0_scratch13.sem) 0
            ∗ (∃ fd, SFl d L fI fW hin fO bV7 cc0_scratch21.sem (41 : Fin 50) fd)
            ∗ wPts d L fW q7
            ∗ semVal (thr, SemLoc.dma cc0_scratch14.sem) 0
            ∗ Todo (pc (rowPts d L fI)) 46 4
            ∗ Done (pc (rowPts d L fI)) 42
            ∗ Todo (pc (blkPts d L fO)) 42 8
            ∗ Done (pc (blkPts d L (Gath fI fW))) 39) : sProp 𝕄) := by
  simp only [k0_part27_eq_skeleton]; unfold k0_part27_skel
  iintro ⟨HR, #Hmw, ⟨%W0, %hW0, HO⟩, ⟨%fd1, HG1⟩, Hs1, ⟨%fd2, HG2⟩, Hs2, ⟨%fd3, Hb3⟩, HW3, Hg3, Hs3, ⟨%fd4, HS4⟩, HW4, Hg4, ⟨%fd5, HS5⟩, HW5, Hg5, ⟨%fd6, HG6⟩, Hs6, ⟨%fd7, HG7⟩, Hs7, IT, ID, OT, OD⟩
  ihave IT' := (Entails.of_eq (todo_take (rowPts d L fI) 44 5 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (44 : Fin 50))) $$ [HW3 Hb3 Hr Hg3]
  · isplitl [HW3]; · iexact HW3
    isplitl [Hb3]; · iexact Hb3
    isplitl [Hr]; · iexact Hr
    iexact Hg3
  iintro HG3
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW1 := wstep hW0 (SemLoc.dma cc0_scratch13.sem)
  ihave ID := (Entails.of_eq (done_put (rowPts d L fI) 40 (by decide))) $$ [Hr ID]
  · isplitl [Hr]; · iexact Hr
    iexact ID
  ihave OT' := (Entails.of_eq (todo_take (blkPts d L fO) 40 9 (by decide))) $$ OT
  icases OT' with ⟨Ho, OT⟩
  iapply (Transfers.wp_dmaLocal countersEmb 𝒱₀ thr none (default : HIx 1) _ rfl
      (show 0 < (oBlkK L (40 : Fin 50)).view.amount (SemLoc.dma cc0_scratch20.sem) from View.dmaCredit_pos (oBlkK L (40 : Fin 50)).view (by decide)) (Finset.Subset.refl _)) $$ [Hb6 Ho Hs6]
  · isplitl [Hb6]; · iexact Hb6
    isplitl [Ho]; · iexact Ho
    iexact Hs6
  iintro HS6
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW2 := wstep hW1 (SemLoc.dma cc0_scratch18.sem)
  ihave Ho := (Entails.of_eq (out_val d L fI fW hin fO (38 : Fin 50) bV4 _)) $$ Ho
  ihave OD := (Entails.of_eq (done_put (blkPts d L (Gath fI fW)) 38 (by decide))) $$ [Ho OD]
  · isplitl [Ho]; · iexact Ho
    iexact OD
  ihave IT' := (Entails.of_eq (todo_take (rowPts d L fI) 45 4 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (45 : Fin 50))) $$ [HW4 Hb4 Hr Hg4]
  · isplitl [HW4]; · iexact HW4
    isplitl [Hb4]; · iexact Hb4
    isplitl [Hr]; · iexact Hr
    iexact Hg4
  iintro HG4
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW3 := wstep hW2 (SemLoc.dma cc0_scratch14.sem)
  ihave ID := (Entails.of_eq (done_put (rowPts d L fI) 41 (by decide))) $$ [Hr ID]
  · isplitl [Hr]; · iexact Hr
    iexact ID
  ihave OT' := (Entails.of_eq (todo_take (blkPts d L fO) 41 8 (by decide))) $$ OT
  icases OT' with ⟨Ho, OT⟩
  iapply (Transfers.wp_dmaLocal countersEmb 𝒱₀ thr none (default : HIx 1) _ rfl
      (show 0 < (oBlkK L (41 : Fin 50)).view.amount (SemLoc.dma cc0_scratch21.sem) from View.dmaCredit_pos (oBlkK L (41 : Fin 50)).view (by decide)) (Finset.Subset.refl _)) $$ [Hb7 Ho Hs7]
  · isplitl [Hb7]; · iexact Hb7
    isplitl [Ho]; · iexact Ho
    iexact Hs7
  iintro HS7
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HS5]
  · iexists _; iexact HS5
  isplitl [HW5]
  · iexact HW5
  isplitl [Hg5]
  · iexact Hg5
  isplitl [HS6]
  · iexists _; iexact HS6
  isplitl [HW6]
  · iexact HW6
  isplitl [Hg6]
  · iexact Hg6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_28 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v671 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (42 : Fin 50) fd)
        ∗ semVal (thr, SemLoc.dma cc0_scratch15.sem) 0
        ∗ (∃ fd, GFl d L fI fW hin bV2 cc0_scratch9.sem q2 (43 : Fin 50) fd)
        ∗ semVal (thr, SemLoc.dma cc0_scratch16.sem) 0
        ∗ (∃ fd, GFl d L fI fW hin bV3 cc0_scratch10.sem q3 (44 : Fin 50) fd)
        ∗ semVal (thr, SemLoc.dma cc0_scratch17.sem) 0
        ∗ (∃ fd, GFl d L fI fW hin bV4 cc0_scratch11.sem q4 (45 : Fin 50) fd)
        ∗ semVal (thr, SemLoc.dma cc0_scratch18.sem) 0
        ∗ (∃ fd, SFl d L fI fW hin fO bV5 cc0_scratch19.sem (39 : Fin 50) fd)
        ∗ wPts d L fW q5
        ∗ semVal (thr, SemLoc.dma cc0_scratch12.sem) 0
        ∗ (∃ fd, SFl d L fI fW hin fO bV6 cc0_scratch20.sem (40 : Fin 50) fd)
        ∗ wPts d L fW q6
        ∗ semVal (thr, SemLoc.dma cc0_scratch13.sem) 0
        ∗ (∃ fd, SFl d L fI fW hin fO bV7 cc0_scratch21.sem (41 : Fin 50) fd)
        ∗ wPts d L fW q7
        ∗ semVal (thr, SemLoc.dma cc0_scratch14.sem) 0
        ∗ Todo (pc (rowPts d L fI)) 46 4
        ∗ Done (pc (rowPts d L fI)) 42
        ∗ Todo (pc (blkPts d L fO)) 42 8
        ∗ Done (pc (blkPts d L (Gath fI fW))) 39)
      ⊢ (wp frame (wpE (defs₀ (F := F)) 𝒱₀ thr none) Set.univ (k0_part28 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v671)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (42 : Fin 50) fd)
            ∗ wPts d L fW q1
            ∗ semVal (thr, SemLoc.dma cc0_scratch8.sem) 0
            ∗ (∃ fd, GFl d L fI fW hin bV2 cc0_scratch9.sem q2 (43 : Fin 50) fd)
            ∗ semVal (thr, SemLoc.dma cc0_scratch16.sem) 0
            ∗ (∃ fd, GFl d L fI fW hin bV3 cc0_scratch10.sem q3 (44 : Fin 50) fd)
            ∗ semVal (thr, SemLoc.dma cc0_scratch17.sem) 0
            ∗ (∃ fd, GFl d L fI fW hin bV4 cc0_scratch11.sem q4 (45 : Fin 50) fd)
            ∗ semVal (thr, SemLoc.dma cc0_scratch18.sem) 0
            ∗ (∃ fd, GFl d L fI fW hin bV5 cc0_scratch12.sem q5 (46 : Fin 50) fd)
            ∗ semVal (thr, SemLoc.dma cc0_scratch19.sem) 0
            ∗ (∃ fd, GFl d L fI fW hin bV6 cc0_scratch13.sem q6 (47 : Fin 50) fd)
            ∗ semVal (thr, SemLoc.dma cc0_scratch20.sem) 0
            ∗ (∃ fd, SFl d L fI fW hin fO bV7 cc0_scratch21.sem (41 : Fin 50) fd)
            ∗ wPts d L fW q7
            ∗ semVal (thr, SemLoc.dma cc0_scratch14.sem) 0
            ∗ Todo (pc (rowPts d L fI)) 48 2
            ∗ Done (pc (rowPts d L fI)) 43
            ∗ Todo (pc (blkPts d L fO)) 43 7
            ∗ Done (pc (blkPts d L (Gath fI fW))) 41) : sProp 𝕄) := by
  simp only [k0_part28_eq_skeleton]; unfold k0_part28_skel
  iintro ⟨HR, #Hmw, ⟨%W0, %hW0, HO⟩, ⟨%fd1, HG1⟩, Hs1, ⟨%fd2, HG2⟩, Hs2, ⟨%fd3, HG3⟩, Hs3, ⟨%fd4, HG4⟩, Hs4, ⟨%fd5, HS5⟩, HW5, Hg5, ⟨%fd6, HS6⟩, HW6, Hg6, ⟨%fd7, HS7⟩, HW7, Hg7, IT, ID, OT, OD⟩
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW1 := wstep hW0 (SemLoc.dma cc0_scratch19.sem)
  ihave Ho := (Entails.of_eq (out_val d L fI fW hin fO (39 : Fin 50) bV5 _)) $$ Ho
  ihave OD := (Entails.of_eq (done_put (blkPts d L (Gath fI fW)) 39 (by decide))) $$ [Ho OD]
  · isplitl [Ho]; · iexact Ho
    iexact OD
  ihave IT' := (Entails.of_eq (todo_take (rowPts d L fI) 46 3 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (46 : Fin 50))) $$ [HW5 Hb5 Hr Hg5]
  · isplitl [HW5]; · iexact HW5
    isplitl [Hb5]; · iexact Hb5
    isplitl [Hr]; · iexact Hr
    iexact Hg5
  iintro HG5
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW2 := wstep hW1 (SemLoc.dma cc0_scratch8.sem)
  ihave ID := (Entails.of_eq (done_put (rowPts d L fI) 42 (by decide))) $$ [Hr ID]
  · isplitl [Hr]; · iexact Hr
    iexact ID
  ihave OT' := (Entails.of_eq (todo_take (blkPts d L fO) 42 7 (by decide))) $$ OT
  icases OT' with ⟨Ho, OT⟩
  iapply (Transfers.wp_dmaLocal countersEmb 𝒱₀ thr none (default : HIx 1) _ rfl
      (show 0 < (oBlkK L (42 : Fin 50)).view.amount (SemLoc.dma cc0_scratch15.sem) from View.dmaCredit_pos (oBlkK L (42 : Fin 50)).view (by decide)) (Finset.Subset.refl _)) $$ [Hb1 Ho Hs1]
  · isplitl [Hb1]; · iexact Hb1
    isplitl [Ho]; · iexact Ho
    iexact Hs1
  iintro HS1
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW3 := wstep hW2 (SemLoc.dma cc0_scratch20.sem)
  ihave Ho := (Entails.of_eq (out_val d L fI fW hin fO (40 : Fin 50) bV6 _)) $$ Ho
  ihave OD := (Entails.of_eq (done_put (blkPts d L (Gath fI fW)) 40 (by decide))) $$ [Ho OD]
  · isplitl [Ho]; · iexact Ho
    iexact OD
  ihave IT' := (Entails.of_eq (todo_take (rowPts d L fI) 47 2 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (47 : Fin 50))) $$ [HW6 Hb6 Hr Hg6]
  · isplitl [HW6]; · iexact HW6
    isplitl [Hb6]; · iexact Hb6
    isplitl [Hr]; · iexact Hr
    iexact Hg6
  iintro HG6
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_29 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (42 : Fin 50) fd)
        ∗ wPts d L fW q1
        ∗ semVal (thr, SemLoc.dma cc0_scratch8.sem) 0
        ∗ (∃ fd, GFl d L fI fW hin bV2 cc0_scratch9.sem q2 (43 : Fin 50) fd)
        ∗ semVal (thr, SemLoc.dma cc0_scratch16.sem) 0
        ∗ (∃ fd, GFl d L fI fW hin bV3 cc0_scratch10.sem q3 (44 : Fin 50) fd)
        ∗ semVal (thr, SemLoc.dma cc0_scratch17.sem) 0
        ∗ (∃ fd, GFl d L fI fW hin bV4 cc0_scratch11.sem q4 (45 : Fin 50) fd)
        ∗ semVal (thr, SemLoc.dma cc0_scratch18.sem) 0
        ∗ (∃ fd, GFl d L fI fW hin bV5 cc0_scratch12.sem q5 (46 : Fin 50) fd)
        ∗ semVal (thr, SemLoc.dma cc0_scratch19.sem) 0
        ∗ (∃ fd, GFl d L fI fW hin bV6 cc0_scratch13.sem q6 (47 : Fin 50) fd)
        ∗ semVal (thr, SemLoc.dma cc0_scratch20.sem) 0
        ∗ (∃ fd, SFl d L fI fW hin fO bV7 cc0_scratch21.sem (41 : Fin 50) fd)
        ∗ wPts d L fW q7
        ∗ semVal (thr, SemLoc.dma cc0_scratch14.sem) 0
        ∗ Todo (pc (rowPts d L fI)) 48 2
        ∗ Done (pc (rowPts d L fI)) 43
        ∗ Todo (pc (blkPts d L fO)) 43 7
        ∗ Done (pc (blkPts d L (Gath fI fW))) 41)
      ⊢ (wp frame (wpE (defs₀ (F := F)) 𝒱₀ thr none) Set.univ (k0_part29 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (42 : Fin 50) fd)
            ∗ wPts d L fW q1
            ∗ semVal (thr, SemLoc.dma cc0_scratch8.sem) 0
            ∗ (∃ fd, SFl d L fI fW hin fO bV2 cc0_scratch16.sem (43 : Fin 50) fd)
            ∗ wPts d L fW q2
            ∗ semVal (thr, SemLoc.dma cc0_scratch9.sem) 0
            ∗ (∃ fd, SFl d L fI fW hin fO bV3 cc0_scratch17.sem (44 : Fin 50) fd)
            ∗ wPts d L fW q3
            ∗ semVal (thr, SemLoc.dma cc0_scratch10.sem) 0
            ∗ (∃ fd, GFl d L fI fW hin bV4 cc0_scratch11.sem q4 (45 : Fin 50) fd)
            ∗ semVal (thr, SemLoc.dma cc0_scratch18.sem) 0
            ∗ (∃ fd, GFl d L fI fW hin bV5 cc0_scratch12.sem q5 (46 : Fin 50) fd)
            ∗ semVal (thr, SemLoc.dma cc0_scratch19.sem) 0
            ∗ (∃ fd, GFl d L fI fW hin bV6 cc0_scratch13.sem q6 (47 : Fin 50) fd)
            ∗ semVal (thr, SemLoc.dma cc0_scratch20.sem) 0
            ∗ (∃ fd, GFl d L fI fW hin bV7 cc0_scratch14.sem q7 (48 : Fin 50) fd)
            ∗ semVal (thr, SemLoc.dma cc0_scratch21.sem) 0
            ∗ Todo (pc (rowPts d L fI)) 49 1
            ∗ Done (pc (rowPts d L fI)) 45
            ∗ Todo (pc (blkPts d L fO)) 45 5
            ∗ Done (pc (blkPts d L (Gath fI fW))) 42) : sProp 𝕄) := by
  simp only [k0_part29_eq_skeleton]; unfold k0_part29_skel
  iintro ⟨HR, #Hmw, ⟨%W0, %hW0, HO⟩, ⟨%fd1, HS1⟩, HW1, Hg1, ⟨%fd2, HG2⟩, Hs2, ⟨%fd3, HG3⟩, Hs3, ⟨%fd4, HG4⟩, Hs4, ⟨%fd5, HG5⟩, Hs5, ⟨%fd6, HG6⟩, Hs6, ⟨%fd7, HS7⟩, HW7, Hg7, IT, ID, OT, OD⟩
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW1 := wstep hW0 (SemLoc.dma cc0_scratch9.sem)
  ihave ID := (Entails.of_eq (done_put (rowPts d L fI) 43 (by decide))) $$ [Hr ID]
  · isplitl [Hr]; · iexact Hr
    iexact ID
  ihave OT' := (Entails.of_eq (todo_take (blkPts d L fO) 43 6 (by decide))) $$ OT
  icases OT' with ⟨Ho, OT⟩
  iapply (Transfers.wp_dmaLocal countersEmb 𝒱₀ thr none (default : HIx 1) _ rfl
      (show 0 < (oBlkK L (43 : Fin 50)).view.amount (SemLoc.dma cc0_scratch16.sem) from View.dmaCredit_pos (oBlkK L (43 : Fin 50)).view (by decide)) (Finset.Subset.refl _)) $$ [Hb2 Ho Hs2]
  · isplitl [Hb2]; · iexact Hb2
    isplitl [Ho]; · iexact Ho
    iexact Hs2
  iintro HS2
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW2 := wstep hW1 (SemLoc.dma cc0_scratch21.sem)
  ihave Ho := (Entails.of_eq (out_val d L fI fW hin fO (41 : Fin 50) bV7 _)) $$ Ho
  ihave OD := (Entails.of_eq (done_put (blkPts d L (Gath fI fW)) 41 (by decide))) $$ [Ho OD]
  · isplitl [Ho]; · iexact Ho
    iexact OD
  ihave IT' := (Entails.of_eq (todo_take (rowPts d L fI) 48 1 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (48 : Fin 50))) $$ [HW7 Hb7 Hr Hg7]
  · isplitl [HW7]; · iexact HW7
    isplitl [Hb7]; · iexact Hb7
    isplitl [Hr]; · iexact Hr
    iexact Hg7
  iintro HG7
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW3 := wstep hW2 (SemLoc.dma cc0_scratch10.sem)
  ihave ID := (Entails.of_eq (done_put (rowPts d L fI) 44 (by decide))) $$ [Hr ID]
  · isplitl [Hr]; · iexact Hr
    iexact ID
  ihave OT' := (Entails.of_eq (todo_take (blkPts d L fO) 44 5 (by decide))) $$ OT
  icases OT' with ⟨Ho, OT⟩
  iapply (Transfers.wp_dmaLocal countersEmb 𝒱₀ thr none (default : HIx 1) _ rfl
      (show 0 < (oBlkK L (44 : Fin 50)).view.amount (SemLoc.dma cc0_scratch17.sem) from View.dmaCredit_pos (oBlkK L (44 : Fin 50)).view (by decide)) (Finset.Subset.refl _)) $$ [Hb3 Ho Hs3]
  · isplitl [Hb3]; · iexact Hb3
    isplitl [Ho]; · iexact Ho
    iexact Hs3
  iintro HS3
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_30 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (42 : Fin 50) fd)
        ∗ wPts d L fW q1
        ∗ semVal (thr, SemLoc.dma cc0_scratch8.sem) 0
        ∗ (∃ fd, SFl d L fI fW hin fO bV2 cc0_scratch16.sem (43 : Fin 50) fd)
        ∗ wPts d L fW q2
        ∗ semVal (thr, SemLoc.dma cc0_scratch9.sem) 0
        ∗ (∃ fd, SFl d L fI fW hin fO bV3 cc0_scratch17.sem (44 : Fin 50) fd)
        ∗ wPts d L fW q3
        ∗ semVal (thr, SemLoc.dma cc0_scratch10.sem) 0
        ∗ (∃ fd, GFl d L fI fW hin bV4 cc0_scratch11.sem q4 (45 : Fin 50) fd)
        ∗ semVal (thr, SemLoc.dma cc0_scratch18.sem) 0
        ∗ (∃ fd, GFl d L fI fW hin bV5 cc0_scratch12.sem q5 (46 : Fin 50) fd)
        ∗ semVal (thr, SemLoc.dma cc0_scratch19.sem) 0
        ∗ (∃ fd, GFl d L fI fW hin bV6 cc0_scratch13.sem q6 (47 : Fin 50) fd)
        ∗ semVal (thr, SemLoc.dma cc0_scratch20.sem) 0
        ∗ (∃ fd, GFl d L fI fW hin bV7 cc0_scratch14.sem q7 (48 : Fin 50) fd)
        ∗ semVal (thr, SemLoc.dma cc0_scratch21.sem) 0
        ∗ Todo (pc (rowPts d L fI)) 49 1
        ∗ Done (pc (rowPts d L fI)) 45
        ∗ Todo (pc (blkPts d L fO)) 45 5
        ∗ Done (pc (blkPts d L (Gath fI fW))) 42)
      ⊢ (wp frame (wpE (defs₀ (F := F)) 𝒱₀ thr none) Set.univ (k0_part30 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (49 : Fin 50) fd)
            ∗ semVal (thr, SemLoc.dma cc0_scratch15.sem) 0
            ∗ (∃ fd, SFl d L fI fW hin fO bV2 cc0_scratch16.sem (43 : Fin 50) fd)
            ∗ wPts d L fW q2
            ∗ semVal (thr, SemLoc.dma cc0_scratch9.sem) 0
            ∗ (∃ fd, SFl d L fI fW hin fO bV3 cc0_scratch17.sem (44 : Fin 50) fd)
            ∗ wPts d L fW q3
            ∗ semVal (thr, SemLoc.dma cc0_scratch10.sem) 0
            ∗ (∃ fd, SFl d L fI fW hin fO bV4 cc0_scratch18.sem (45 : Fin 50) fd)
            ∗ wPts d L fW q4
            ∗ semVal (thr, SemLoc.dma cc0_scratch11.sem) 0
            ∗ (∃ fd, SFl d L fI fW hin fO bV5 cc0_scratch19.sem (46 : Fin 50) fd)
            ∗ wPts d L fW q5
            ∗ semVal (thr, SemLoc.dma cc0_scratch12.sem) 0
            ∗ (∃ fd, bPts d L bV6 (View.write (Elt F) (bV6).view fd (gP d L fI fW hin (47 : Fin 50)) Finset.univ))
            ∗ wPts d L fW q6
            ∗ semVal (thr, SemLoc.dma cc0_scratch13.sem) 0
            ∗ semVal (thr, SemLoc.dma cc0_scratch20.sem) 0
            ∗ (∃ fd, GFl d L fI fW hin bV7 cc0_scratch14.sem q7 (48 : Fin 50) fd)
            ∗ semVal (thr, SemLoc.dma cc0_scratch21.sem) 0
            ∗ Todo (pc (rowPts d L fI)) 50 0
            ∗ Done (pc (rowPts d L fI)) 48
            ∗ Todo (pc (blkPts d L fO)) 47 3
            ∗ Done (pc (blkPts d L (Gath fI fW))) 43) : sProp 𝕄) := by
  simp only [k0_part30_eq_skeleton]; unfold k0_part30_skel
  iintro ⟨HR, #Hmw, ⟨%W0, %hW0, HO⟩, ⟨%fd1, HS1⟩, HW1, Hg1, ⟨%fd2, HS2⟩, HW2, Hg2, ⟨%fd3, HS3⟩, HW3, Hg3, ⟨%fd4, HG4⟩, Hs4, ⟨%fd5, HG5⟩, Hs5, ⟨%fd6, HG6⟩, Hs6, ⟨%fd7, HG7⟩, Hs7, IT, ID, OT, OD⟩
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW1 := wstep hW0 (SemLoc.dma cc0_scratch15.sem)
  ihave Ho := (Entails.of_eq (out_val d L fI fW hin fO (42 : Fin 50) bV1 _)) $$ Ho
  ihave OD := (Entails.of_eq (done_put (blkPts d L (Gath fI fW)) 42 (by decide))) $$ [Ho OD]
  · isplitl [Ho]; · iexact Ho
    iexact OD
  ihave IT' := (Entails.of_eq (todo_take (rowPts d L fI) 49 0 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (49 : Fin 50))) $$ [HW1 Hb1 Hr Hg1]
  · isplitl [HW1]; · iexact HW1
    isplitl [Hb1]; · iexact Hb1
    isplitl [Hr]; · iexact Hr
    iexact Hg1
  iintro HG1
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW2 := wstep hW1 (SemLoc.dma cc0_scratch11.sem)
  ihave ID := (Entails.of_eq (done_put (rowPts d L fI) 45 (by decide))) $$ [Hr ID]
  · isplitl [Hr]; · iexact Hr
    iexact ID
  ihave OT' := (Entails.of_eq (todo_take (blkPts d L fO) 45 4 (by decide))) $$ OT
  icases OT' with ⟨Ho, OT⟩
  iapply (Transfers.wp_dmaLocal countersEmb 𝒱₀ thr none (default : HIx 1) _ rfl
      (show 0 < (oBlkK L (45 : Fin 50)).view.amount (SemLoc.dma cc0_scratch18.sem) from View.dmaCredit_pos (oBlkK L (45 : Fin 50)).view (by decide)) (Finset.Subset.refl _)) $$ [Hb4 Ho Hs4]
  · isplitl [Hb4]; · iexact Hb4
    isplitl [Ho]; · iexact Ho
    iexact Hs4
  iintro HS4
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW3 := wstep hW2 (SemLoc.dma cc0_scratch12.sem)
  ihave ID := (Entails.of_eq (done_put (rowPts d L fI) 46 (by decide))) $$ [Hr ID]
  · isplitl [Hr]; · iexact Hr
    iexact ID
  ihave OT' := (Entails.of_eq (todo_take (blkPts d L fO) 46 3 (by decide))) $$ OT
  icases OT' with ⟨Ho, OT⟩
  iapply (Transfers.wp_dmaLocal countersEmb 𝒱₀ thr none (default : HIx 1) _ rfl
      (show 0 < (oBlkK L (46 : Fin 50)).view.amount (SemLoc.dma cc0_scratch19.sem) from View.dmaCredit_pos (oBlkK L (46 : Fin 50)).view (by decide)) (Finset.Subset.refl _)) $$ [Hb5 Ho Hs5]
  · isplitl [Hb5]; · iexact Hb5
    isplitl [Ho]; · iexact Ho
    iexact Hs5
  iintro HS5
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW4 := wstep hW3 (SemLoc.dma cc0_scratch13.sem)
  ihave ID := (Entails.of_eq (done_put (rowPts d L fI) 47 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW4
    · iexact HO
  isplitl [HG1]
  · iexists _; iexact HG1
  isplitl [Hs1]
  · iexact Hs1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [Hb6]
  · iexists _; iexact Hb6
  isplitl [HW6]
  · iexact HW6
  isplitl [Hg6]
  · iexact Hg6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_31 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v746 : BitVec 32) (c47_i32_792 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (49 : Fin 50) fd)
        ∗ semVal (thr, SemLoc.dma cc0_scratch15.sem) 0
        ∗ (∃ fd, SFl d L fI fW hin fO bV2 cc0_scratch16.sem (43 : Fin 50) fd)
        ∗ wPts d L fW q2
        ∗ semVal (thr, SemLoc.dma cc0_scratch9.sem) 0
        ∗ (∃ fd, SFl d L fI fW hin fO bV3 cc0_scratch17.sem (44 : Fin 50) fd)
        ∗ wPts d L fW q3
        ∗ semVal (thr, SemLoc.dma cc0_scratch10.sem) 0
        ∗ (∃ fd, SFl d L fI fW hin fO bV4 cc0_scratch18.sem (45 : Fin 50) fd)
        ∗ wPts d L fW q4
        ∗ semVal (thr, SemLoc.dma cc0_scratch11.sem) 0
        ∗ (∃ fd, SFl d L fI fW hin fO bV5 cc0_scratch19.sem (46 : Fin 50) fd)
        ∗ wPts d L fW q5
        ∗ semVal (thr, SemLoc.dma cc0_scratch12.sem) 0
        ∗ (∃ fd, bPts d L bV6 (View.write (Elt F) (bV6).view fd (gP d L fI fW hin (47 : Fin 50)) Finset.univ))
        ∗ wPts d L fW q6
        ∗ semVal (thr, SemLoc.dma cc0_scratch13.sem) 0
        ∗ semVal (thr, SemLoc.dma cc0_scratch20.sem) 0
        ∗ (∃ fd, GFl d L fI fW hin bV7 cc0_scratch14.sem q7 (48 : Fin 50) fd)
        ∗ semVal (thr, SemLoc.dma cc0_scratch21.sem) 0
        ∗ Todo (pc (rowPts d L fI)) 50 0
        ∗ Done (pc (rowPts d L fI)) 48
        ∗ Todo (pc (blkPts d L fO)) 47 3
        ∗ Done (pc (blkPts d L (Gath fI fW))) 43)
      ⊢ (wp frame (wpE (defs₀ (F := F)) 𝒱₀ thr none) Set.univ (k0_part31 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v746 c47_i32_792)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (49 : Fin 50) fd)
            ∗ wPts d L fW q1
            ∗ semVal (thr, SemLoc.dma cc0_scratch8.sem) 0
            ∗ (∃ f, bPts d L bV2 f)
            ∗ wPts d L fW q2
            ∗ semVal (thr, SemLoc.dma cc0_scratch9.sem) 0
            ∗ semVal (thr, SemLoc.dma cc0_scratch16.sem) 0
            ∗ (∃ fd, SFl d L fI fW hin fO bV3 cc0_scratch17.sem (44 : Fin 50) fd)
            ∗ wPts d L fW q3
            ∗ semVal (thr, SemLoc.dma cc0_scratch10.sem) 0
            ∗ (∃ fd, SFl d L fI fW hin fO bV4 cc0_scratch18.sem (45 : Fin 50) fd)
            ∗ wPts d L fW q4
            ∗ semVal (thr, SemLoc.dma cc0_scratch11.sem) 0
            ∗ (∃ fd, SFl d L fI fW hin fO bV5 cc0_scratch19.sem (46 : Fin 50) fd)
            ∗ wPts d L fW q5
            ∗ semVal (thr, SemLoc.dma cc0_scratch12.sem) 0
            ∗ (∃ fd, SFl d L fI fW hin fO bV6 cc0_scratch20.sem (47 : Fin 50) fd)
            ∗ wPts d L fW q6
            ∗ semVal (thr, SemLoc.dma cc0_scratch13.sem) 0
            ∗ (∃ fd, SFl d L fI fW hin fO bV7 cc0_scratch21.sem (48 : Fin 50) fd)
            ∗ wPts d L fW q7
            ∗ semVal (thr, SemLoc.dma cc0_scratch14.sem) 0
            ∗ Todo (pc (rowPts d L fI)) 50 0
            ∗ Done (pc (rowPts d L fI)) 50
            ∗ Todo (pc (blkPts d L fO)) 50 0
            ∗ Done (pc (blkPts d L (Gath fI fW))) 44) : sProp 𝕄) := by
  simp only [k0_part31_eq_skeleton]; unfold k0_part31_skel
  iintro ⟨HR, #Hmw, ⟨%W0, %hW0, HO⟩, ⟨%fd1, HG1⟩, Hs1, ⟨%fd2, HS2⟩, HW2, Hg2, ⟨%fd3, HS3⟩, HW3, Hg3, ⟨%fd4, HS4⟩, HW4, Hg4, ⟨%fd5, HS5⟩, HW5, Hg5, ⟨%fd6, Hb6⟩, HW6, Hg6, Hs6, ⟨%fd7, HG7⟩, Hs7, IT, ID, OT, OD⟩
  ihave OT' := (Entails.of_eq (todo_take (blkPts d L fO) 47 2 (by decide))) $$ OT
  icases OT' with ⟨Ho, OT⟩
  iapply (Transfers.wp_dmaLocal countersEmb 𝒱₀ thr none (default : HIx 1) _ rfl
      (show 0 < (oBlkK L (47 : Fin 50)).view.amount (SemLoc.dma cc0_scratch20.sem) from View.dmaCredit_pos (oBlkK L (47 : Fin 50)).view (by decide)) (Finset.Subset.refl _)) $$ [Hb6 Ho Hs6]
  · isplitl [Hb6]; · iexact Hb6
    isplitl [Ho]; · iexact Ho
    iexact Hs6
  iintro HS6
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW1 := wstep hW0 (SemLoc.dma cc0_scratch14.sem)
  ihave ID := (Entails.of_eq (done_put (rowPts d L fI) 48 (by decide))) $$ [Hr ID]
  · isplitl [Hr]; · iexact Hr
    iexact ID
  ihave OT' := (Entails.of_eq (todo_take (blkPts d L fO) 48 1 (by decide))) $$ OT
  icases OT' with ⟨Ho, OT⟩
  iapply (Transfers.wp_dmaLocal countersEmb 𝒱₀ thr none (default : HIx 1) _ rfl
      (show 0 < (oBlkK L (48 : Fin 50)).view.amount (SemLoc.dma cc0_scratch21.sem) from View.dmaCredit_pos (oBlkK L (48 : Fin 50)).view (by decide)) (Finset.Subset.refl _)) $$ [Hb7 Ho Hs7]
  · isplitl [Hb7]; · iexact Hb7
    isplitl [Ho]; · iexact Ho
    iexact Hs7
  iintro HS7
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW2 := wstep hW1 (SemLoc.dma cc0_scratch8.sem)
  ihave ID := (Entails.of_eq (done_put (rowPts d L fI) 49 (by decide))) $$ [Hr ID]
  · isplitl [Hr]; · iexact Hr
    iexact ID
  ihave OT' := (Entails.of_eq (todo_take (blkPts d L fO) 49 0 (by decide))) $$ OT
  icases OT' with ⟨Ho, OT⟩
  iapply (Transfers.wp_dmaLocal countersEmb 𝒱₀ thr none (default : HIx 1) _ rfl
      (show 0 < (oBlkK L (49 : Fin 50)).view.amount (SemLoc.dma cc0_scratch15.sem) from View.dmaCredit_pos (oBlkK L (49 : Fin 50)).view (by decide)) (Finset.Subset.refl _)) $$ [Hb1 Ho Hs1]
  · isplitl [Hb1]; · iexact Hb1
    isplitl [Ho]; · iexact Ho
    iexact Hs1
  iintro HS1
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW3 := wstep hW2 (SemLoc.dma cc0_scratch16.sem)
  ihave Ho := (Entails.of_eq (out_val d L fI fW hin fO (43 : Fin 50) bV2 _)) $$ Ho
  ihave OD := (Entails.of_eq (done_put (blkPts d L (Gath fI fW)) 43 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [Hb2]
  · iexists _; iexact Hb2
  isplitl [HW2]
  · iexact HW2
  isplitl [Hg2]
  · iexact Hg2
  isplitl [Hs2]
  · iexact Hs2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [HS6]
  · iexists _; iexact HS6
  isplitl [HW6]
  · iexact HW6
  isplitl [Hg6]
  · iexact Hg6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_32 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v772 : BitVec 32) (c44_i32_820 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (49 : Fin 50) fd)
        ∗ wPts d L fW q1
        ∗ semVal (thr, SemLoc.dma cc0_scratch8.sem) 0
        ∗ (∃ f, bPts d L bV2 f)
        ∗ wPts d L fW q2
        ∗ semVal (thr, SemLoc.dma cc0_scratch9.sem) 0
        ∗ semVal (thr, SemLoc.dma cc0_scratch16.sem) 0
        ∗ (∃ fd, SFl d L fI fW hin fO bV3 cc0_scratch17.sem (44 : Fin 50) fd)
        ∗ wPts d L fW q3
        ∗ semVal (thr, SemLoc.dma cc0_scratch10.sem) 0
        ∗ (∃ fd, SFl d L fI fW hin fO bV4 cc0_scratch18.sem (45 : Fin 50) fd)
        ∗ wPts d L fW q4
        ∗ semVal (thr, SemLoc.dma cc0_scratch11.sem) 0
        ∗ (∃ fd, SFl d L fI fW hin fO bV5 cc0_scratch19.sem (46 : Fin 50) fd)
        ∗ wPts d L fW q5
        ∗ semVal (thr, SemLoc.dma cc0_scratch12.sem) 0
        ∗ (∃ fd, SFl d L fI fW hin fO bV6 cc0_scratch20.sem (47 : Fin 50) fd)
        ∗ wPts d L fW q6
        ∗ semVal (thr, SemLoc.dma cc0_scratch13.sem) 0
        ∗ (∃ fd, SFl d L fI fW hin fO bV7 cc0_scratch21.sem (48 : Fin 50) fd)
        ∗ wPts d L fW q7
        ∗ semVal (thr, SemLoc.dma cc0_scratch14.sem) 0
        ∗ Todo (pc (rowPts d L fI)) 50 0
        ∗ Done (pc (rowPts d L fI)) 50
        ∗ Todo (pc (blkPts d L fO)) 50 0
        ∗ Done (pc (blkPts d L (Gath fI fW))) 44)
      ⊢ (wp frame (wpE (defs₀ (F := F)) 𝒱₀ thr none) Set.univ (k0_part32 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v772 c44_i32_820)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (49 : Fin 50) fd)
            ∗ wPts d L fW q1
            ∗ semVal (thr, SemLoc.dma cc0_scratch8.sem) 0
            ∗ (∃ f, bPts d L bV2 f)
            ∗ wPts d L fW q2
            ∗ semVal (thr, SemLoc.dma cc0_scratch9.sem) 0
            ∗ semVal (thr, SemLoc.dma cc0_scratch16.sem) 0
            ∗ (∃ f, bPts d L bV3 f)
            ∗ wPts d L fW q3
            ∗ semVal (thr, SemLoc.dma cc0_scratch10.sem) 0
            ∗ semVal (thr, SemLoc.dma cc0_scratch17.sem) 0
            ∗ (∃ f, bPts d L bV4 f)
            ∗ wPts d L fW q4
            ∗ semVal (thr, SemLoc.dma cc0_scratch11.sem) 0
            ∗ semVal (thr, SemLoc.dma cc0_scratch18.sem) 0
            ∗ (∃ f, bPts d L bV5 f)
            ∗ wPts d L fW q5
            ∗ semVal (thr, SemLoc.dma cc0_scratch12.sem) 0
            ∗ semVal (thr, SemLoc.dma cc0_scratch19.sem) 0
            ∗ (∃ f, bPts d L bV6 f)
            ∗ wPts d L fW q6
            ∗ semVal (thr, SemLoc.dma cc0_scratch13.sem) 0
            ∗ semVal (thr, SemLoc.dma cc0_scratch20.sem) 0
            ∗ (∃ f, bPts d L bV7 f)
            ∗ wPts d L fW q7
            ∗ semVal (thr, SemLoc.dma cc0_scratch14.sem) 0
            ∗ semVal (thr, SemLoc.dma cc0_scratch21.sem) 0
            ∗ Todo (pc (rowPts d L fI)) 50 0
            ∗ Done (pc (rowPts d L fI)) 50
            ∗ Todo (pc (blkPts d L fO)) 50 0
            ∗ Done (pc (blkPts d L (Gath fI fW))) 49) : sProp 𝕄) := by
  simp only [k0_part32_eq_skeleton]; unfold k0_part32_skel
  iintro ⟨HR, #Hmw, ⟨%W0, %hW0, HO⟩, ⟨%fd1, HS1⟩, HW1, Hg1, ⟨%fd2, Hb2⟩, HW2, Hg2, Hs2, ⟨%fd3, HS3⟩, HW3, Hg3, ⟨%fd4, HS4⟩, HW4, Hg4, ⟨%fd5, HS5⟩, HW5, Hg5, ⟨%fd6, HS6⟩, HW6, Hg6, ⟨%fd7, HS7⟩, HW7, Hg7, IT, ID, OT, OD⟩
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW1 := wstep hW0 (SemLoc.dma cc0_scratch17.sem)
  ihave Ho := (Entails.of_eq (out_val d L fI fW hin fO (44 : Fin 50) bV3 _)) $$ Ho
  ihave OD := (Entails.of_eq (done_put (blkPts d L (Gath fI fW)) 44 (by decide))) $$ [Ho OD]
  · isplitl [Ho]; · iexact Ho
    iexact OD
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW2 := wstep hW1 (SemLoc.dma cc0_scratch18.sem)
  ihave Ho := (Entails.of_eq (out_val d L fI fW hin fO (45 : Fin 50) bV4 _)) $$ Ho
  ihave OD := (Entails.of_eq (done_put (blkPts d L (Gath fI fW)) 45 (by decide))) $$ [Ho OD]
  · isplitl [Ho]; · iexact Ho
    iexact OD
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW3 := wstep hW2 (SemLoc.dma cc0_scratch19.sem)
  ihave Ho := (Entails.of_eq (out_val d L fI fW hin fO (46 : Fin 50) bV5 _)) $$ Ho
  ihave OD := (Entails.of_eq (done_put (blkPts d L (Gath fI fW)) 46 (by decide))) $$ [Ho OD]
  · isplitl [Ho]; · iexact Ho
    iexact OD
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW4 := wstep hW3 (SemLoc.dma cc0_scratch20.sem)
  ihave Ho := (Entails.of_eq (out_val d L fI fW hin fO (47 : Fin 50) bV6 _)) $$ Ho
  ihave OD := (Entails.of_eq (done_put (blkPts d L (Gath fI fW)) 47 (by decide))) $$ [Ho OD]
  · isplitl [Ho]; · iexact Ho
    iexact OD
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW5 := wstep hW4 (SemLoc.dma cc0_scratch21.sem)
  ihave Ho := (Entails.of_eq (out_val d L fI fW hin fO (48 : Fin 50) bV7 _)) $$ Ho
  ihave OD := (Entails.of_eq (done_put (blkPts d L (Gath fI fW)) 48 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW5
    · iexact HO
  isplitl [HS1]
  · iexists _; iexact HS1
  isplitl [HW1]
  · iexact HW1
  isplitl [Hg1]
  · iexact Hg1
  isplitl [Hb2]
  · iexists _; iexact Hb2
  isplitl [HW2]
  · iexact HW2
  isplitl [Hg2]
  · iexact Hg2
  isplitl [Hs2]
  · iexact Hs2
  isplitl [Hb3]
  · iexists _; iexact Hb3
  isplitl [HW3]
  · iexact HW3
  isplitl [Hg3]
  · iexact Hg3
  isplitl [Hs3]
  · iexact Hs3
  isplitl [Hb4]
  · iexists _; iexact Hb4
  isplitl [HW4]
  · iexact HW4
  isplitl [Hg4]
  · iexact Hg4
  isplitl [Hs4]
  · iexact Hs4
  isplitl [Hb5]
  · iexists _; iexact Hb5
  isplitl [HW5]
  · iexact HW5
  isplitl [Hg5]
  · iexact Hg5
  isplitl [Hs5]
  · iexact Hs5
  isplitl [Hb6]
  · iexists _; iexact Hb6
  isplitl [HW6]
  · iexact HW6
  isplitl [Hg6]
  · iexact Hg6
  isplitl [Hs6]
  · iexact Hs6
  isplitl [Hb7]
  · iexists _; iexact Hb7
  isplitl [HW7]
  · iexact HW7
  isplitl [Hg7]
  · iexact Hg7
  isplitl [Hs7]
  · iexact Hs7
  isplitl [IT]
  · iexact IT
  isplitl [ID]
  · iexact ID
  isplitl [OT]
  · iexact OT
  iexact OD

set_option maxHeartbeats 4000000 in
theorem part_33 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (49 : Fin 50) fd)
        ∗ wPts d L fW q1
        ∗ semVal (thr, SemLoc.dma cc0_scratch8.sem) 0
        ∗ (∃ f, bPts d L bV2 f)
        ∗ wPts d L fW q2
        ∗ semVal (thr, SemLoc.dma cc0_scratch9.sem) 0
        ∗ semVal (thr, SemLoc.dma cc0_scratch16.sem) 0
        ∗ (∃ f, bPts d L bV3 f)
        ∗ wPts d L fW q3
        ∗ semVal (thr, SemLoc.dma cc0_scratch10.sem) 0
        ∗ semVal (thr, SemLoc.dma cc0_scratch17.sem) 0
        ∗ (∃ f, bPts d L bV4 f)
        ∗ wPts d L fW q4
        ∗ semVal (thr, SemLoc.dma cc0_scratch11.sem) 0
        ∗ semVal (thr, SemLoc.dma cc0_scratch18.sem) 0
        ∗ (∃ f, bPts d L bV5 f)
        ∗ wPts d L fW q5
        ∗ semVal (thr, SemLoc.dma cc0_scratch12.sem) 0
        ∗ semVal (thr, SemLoc.dma cc0_scratch19.sem) 0
        ∗ (∃ f, bPts d L bV6 f)
        ∗ wPts d L fW q6
        ∗ semVal (thr, SemLoc.dma cc0_scratch13.sem) 0
        ∗ semVal (thr, SemLoc.dma cc0_scratch20.sem) 0
        ∗ (∃ f, bPts d L bV7 f)
        ∗ wPts d L fW q7
        ∗ semVal (thr, SemLoc.dma cc0_scratch14.sem) 0
        ∗ semVal (thr, SemLoc.dma cc0_scratch21.sem) 0
        ∗ Todo (pc (rowPts d L fI)) 50 0
        ∗ Done (pc (rowPts d L fI)) 50
        ∗ Todo (pc (blkPts d L fO)) 50 0
        ∗ Done (pc (blkPts d L (Gath fI fW))) 49)
      ⊢ (wp frame (wpE (defs₀ (F := F)) 𝒱₀ thr none) Set.univ (do
            let v801 : Memref sig .scVector .hbm S128x128 .f32 := (oV).slice (Rect.unit (s := S204800x128) (k0_off2 L 49#32) S128x128.size (k0_off2_inb L 49)) (fun _ => rfl)
            Prog.lift (.waitDma2 cc0_scratch15.sem bV1 v801 (Memref.isWhole_whole _).wordExact (View.wordExact_bits rfl))
            pure ⟨⟩ : Prog (TpuEff nD τ sig (Elt F) Λ₀ (.scVector ((L 0).castLE hcore0) ((L 1).castLE hsub0))) PUnit)
          fun _ => iprop(R
            ∗ Transfers.MayWaits thr (default : HIx 1) O
            ∗ (∃ W', ⌜∀ p ∈ W', p ∈ W ∨ p.2 = none⌝ ∗ owes thr O W')
            ∗ (∃ f, bPts d L bV1 f)
            ∗ wPts d L fW q1
            ∗ semVal (thr, SemLoc.dma cc0_scratch8.sem) 0
            ∗ semVal (thr, SemLoc.dma cc0_scratch15.sem) 0
            ∗ (∃ f, bPts d L bV2 f)
            ∗ wPts d L fW q2
            ∗ semVal (thr, SemLoc.dma cc0_scratch9.sem) 0
            ∗ semVal (thr, SemLoc.dma cc0_scratch16.sem) 0
            ∗ (∃ f, bPts d L bV3 f)
            ∗ wPts d L fW q3
            ∗ semVal (thr, SemLoc.dma cc0_scratch10.sem) 0
            ∗ semVal (thr, SemLoc.dma cc0_scratch17.sem) 0
            ∗ (∃ f, bPts d L bV4 f)
            ∗ wPts d L fW q4
            ∗ semVal (thr, SemLoc.dma cc0_scratch11.sem) 0
            ∗ semVal (thr, SemLoc.dma cc0_scratch18.sem) 0
            ∗ (∃ f, bPts d L bV5 f)
            ∗ wPts d L fW q5
            ∗ semVal (thr, SemLoc.dma cc0_scratch12.sem) 0
            ∗ semVal (thr, SemLoc.dma cc0_scratch19.sem) 0
            ∗ (∃ f, bPts d L bV6 f)
            ∗ wPts d L fW q6
            ∗ semVal (thr, SemLoc.dma cc0_scratch13.sem) 0
            ∗ semVal (thr, SemLoc.dma cc0_scratch20.sem) 0
            ∗ (∃ f, bPts d L bV7 f)
            ∗ wPts d L fW q7
            ∗ semVal (thr, SemLoc.dma cc0_scratch14.sem) 0
            ∗ semVal (thr, SemLoc.dma cc0_scratch21.sem) 0
            ∗ Todo (pc (rowPts d L fI)) 50 0
            ∗ Done (pc (rowPts d L fI)) 50
            ∗ Todo (pc (blkPts d L fO)) 50 0
            ∗ Done (pc (blkPts d L (Gath fI fW))) 50) : sProp 𝕄) := by
  iintro ⟨HR, #Hmw, ⟨%W0, %hW0, HO⟩, ⟨%fd1, HS1⟩, HW1, Hg1, ⟨%fd2, Hb2⟩, HW2, Hg2, Hs2, ⟨%fd3, Hb3⟩, HW3, Hg3, Hs3, ⟨%fd4, Hb4⟩, HW4, Hg4, Hs4, ⟨%fd5, Hb5⟩, HW5, Hg5, Hs5, ⟨%fd6, Hb6⟩, HW6, Hg6, Hs6, ⟨%fd7, Hb7⟩, HW7, Hg7, Hs7, IT, ID, OT, OD⟩
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW1 := wstep hW0 (SemLoc.dma cc0_scratch15.sem)
  ihave Ho := (Entails.of_eq (out_val d L fI fW hin fO (49 : Fin 50) bV1 _)) $$ Ho
  ihave OD := (Entails.of_eq (done_put (blkPts d L (Gath fI fW)) 49 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW1
    · iexact HO
  isplitl [Hb1]
  · iexists _; iexact Hb1
  isplitl [HW1]
  · iexact HW1
  isplitl [Hg1]
  · iexact Hg1
  isplitl [Hs1]
  · iexact Hs1
  isplitl [Hb2]
  · iexists _; iexact Hb2
  isplitl [HW2]
  · iexact HW2
  isplitl [Hg2]
  · iexact Hg2
  isplitl [Hs2]
  · iexact Hs2
  isplitl [Hb3]
  · iexists _; iexact Hb3
  isplitl [HW3]
  · iexact HW3
  isplitl [Hg3]
  · iexact Hg3
  isplitl [Hs3]
  · iexact Hs3
  isplitl [Hb4]
  · iexists _; iexact Hb4
  isplitl [HW4]
  · iexact HW4
  isplitl [Hg4]
  · iexact Hg4
  isplitl [Hs4]
  · iexact Hs4
  isplitl [Hb5]
  · iexists _; iexact Hb5
  isplitl [HW5]
  · iexact HW5
  isplitl [Hg5]
  · iexact Hg5
  isplitl [Hs5]
  · iexact Hs5
  isplitl [Hb6]
  · iexists _; iexact Hb6
  isplitl [HW6]
  · iexact HW6
  isplitl [Hg6]
  · iexact Hg6
  isplitl [Hs6]
  · iexact Hs6
  isplitl [Hb7]
  · iexists _; iexact Hb7
  isplitl [HW7]
  · iexact HW7
  isplitl [Hg7]
  · iexact Hg7
  isplitl [Hs7]
  · iexact Hs7
  isplitl [IT]
  · iexact IT
  isplitl [ID]
  · iexact ID
  isplitl [OT]
  · iexact OT
  iexact OD

end Cert.KernelIdeal.TileBody

end
-- ==== Proof.TileRun.lean ====
import proofs.«206768_g17686675325131_cont_8to1_990_33_alg».proof.Proof.TileDefs
import proofs.«206768_g17686675325131_cont_8to1_990_33_alg».proof.Proof.TileVal
import proofs.«206768_g17686675325131_cont_8to1_990_33_alg».proof.Proof.TileGeom
import proofs.«206768_g17686675325131_cont_8to1_990_33_alg».proof.Proof.TileP1
import proofs.«206768_g17686675325131_cont_8to1_990_33_alg».proof.Proof.TileP2
import proofs.«206768_g17686675325131_cont_8to1_990_33_alg».proof.Proof.TileP3

noncomputable section

namespace Cert.KernelIdeal.TileBody

open Cert.KernelIdeal Cert.KernelIdeal.Gen Cert.KernelIdeal.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S32x50x128 EltTy.i32)
local notation "oV" => (Memref.whole Cert.KernelIdeal.main_v1_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S50x128 EltTy.i32)

variable (d : Dev nD) (L : grid0.Coords)

local notation "thr" => (V d (cV L) (jV L))

set_option maxHeartbeats 4000000 in
/-- The whole task, part after part: from the state before the index fetch to the state after the last wait. -/
theorem run_all (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) :
    iprop(R
        ∗ Transfers.MayWaits thr (default : HIx 1) O
        ∗ (∃ W', ⌜∀ p ∈ W', p ∈ W ∨ p.2 = none⌝ ∗ owes thr O W')
        ∗ ((iRowK L).view.loc thr ↦[(iRowK L).view.set]{fullShare} fI)
        ∗ (∃ fs, (sV).view.loc thr ↦{fullShare} fs)
        ∗ semVal (thr, SemLoc.dma cc0_scoped0.sem) 0
        ∗ (∃ f, bPts d L bV1 f)
        ∗ wPts d L fW q1
        ∗ semVal (thr, SemLoc.dma cc0_scratch8.sem) 0
        ∗ semVal (thr, SemLoc.dma cc0_scratch15.sem) 0
        ∗ (∃ f, bPts d L bV2 f)
        ∗ wPts d L fW q2
        ∗ semVal (thr, SemLoc.dma cc0_scratch9.sem) 0
        ∗ semVal (thr, SemLoc.dma cc0_scratch16.sem) 0
        ∗ (∃ f, bPts d L bV3 f)
        ∗ wPts d L fW q3
        ∗ semVal (thr, SemLoc.dma cc0_scratch10.sem) 0
        ∗ semVal (thr, SemLoc.dma cc0_scratch17.sem) 0
        ∗ (∃ f, bPts d L bV4 f)
        ∗ wPts d L fW q4
        ∗ semVal (thr, SemLoc.dma cc0_scratch11.sem) 0
        ∗ semVal (thr, SemLoc.dma cc0_scratch18.sem) 0
        ∗ (∃ f, bPts d L bV5 f)
        ∗ wPts d L fW q5
        ∗ semVal (thr, SemLoc.dma cc0_scratch12.sem) 0
        ∗ semVal (thr, SemLoc.dma cc0_scratch19.sem) 0
        ∗ (∃ f, bPts d L bV6 f)
        ∗ wPts d L fW q6
        ∗ semVal (thr, SemLoc.dma cc0_scratch13.sem) 0
        ∗ semVal (thr, SemLoc.dma cc0_scratch20.sem) 0
        ∗ (∃ f, bPts d L bV7 f)
        ∗ wPts d L fW q7
        ∗ semVal (thr, SemLoc.dma cc0_scratch14.sem) 0
        ∗ semVal (thr, SemLoc.dma cc0_scratch21.sem) 0
        ∗ Done (pc (rowPts d L fI)) 0
        ∗ Todo (pc (blkPts d L fO)) 0 50
        ∗ Done (pc (blkPts d L (Gath fI fW))) 0)
      ⊢ (wp frame (wpE (defs₀ (F := F)) 𝒱₀ thr none) Set.univ (cc0_gather_kernel L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0)
          fun _ => iprop(iprop(R ∗ ((iRowK L).view.loc thr ↦[(iRowK L).view.set]{fullShare} fI) ∗ semVal (thr, SemLoc.dma cc0_scoped0.sem) 0)
            ∗ Transfers.MayWaits thr (default : HIx 1) O
            ∗ (∃ W', ⌜∀ p ∈ W', p ∈ W ∨ p.2 = none⌝ ∗ owes thr O W')
            ∗ (∃ f, bPts d L bV1 f)
            ∗ wPts d L fW q1
            ∗ semVal (thr, SemLoc.dma cc0_scratch8.sem) 0
            ∗ semVal (thr, SemLoc.dma cc0_scratch15.sem) 0
            ∗ (∃ f, bPts d L bV2 f)
            ∗ wPts d L fW q2
            ∗ semVal (thr, SemLoc.dma cc0_scratch9.sem) 0
            ∗ semVal (thr, SemLoc.dma cc0_scratch16.sem) 0
            ∗ (∃ f, bPts d L bV3 f)
            ∗ wPts d L fW q3
            ∗ semVal (thr, SemLoc.dma cc0_scratch10.sem) 0
            ∗ semVal (thr, SemLoc.dma cc0_scratch17.sem) 0
            ∗ (∃ f, bPts d L bV4 f)
            ∗ wPts d L fW q4
            ∗ semVal (thr, SemLoc.dma cc0_scratch11.sem) 0
            ∗ semVal (thr, SemLoc.dma cc0_scratch18.sem) 0
            ∗ (∃ f, bPts d L bV5 f)
            ∗ wPts d L fW q5
            ∗ semVal (thr, SemLoc.dma cc0_scratch12.sem) 0
            ∗ semVal (thr, SemLoc.dma cc0_scratch19.sem) 0
            ∗ (∃ f, bPts d L bV6 f)
            ∗ wPts d L fW q6
            ∗ semVal (thr, SemLoc.dma cc0_scratch13.sem) 0
            ∗ semVal (thr, SemLoc.dma cc0_scratch20.sem) 0
            ∗ (∃ f, bPts d L bV7 f)
            ∗ wPts d L fW q7
            ∗ semVal (thr, SemLoc.dma cc0_scratch14.sem) 0
            ∗ semVal (thr, SemLoc.dma cc0_scratch21.sem) 0
            ∗ Todo (pc (rowPts d L fI)) 50 0
            ∗ Done (pc (rowPts d L fI)) 50
            ∗ Todo (pc (blkPts d L fO)) 50 0
            ∗ Done (pc (blkPts d L (Gath fI fW))) 50) : sProp 𝕄) := by
  simp only [cc0_gather_kernel_eq_skeleton]; unfold cc0_gather_kernel_skel
  rw [wp_bind]; refine (part_1 d L R O W fI fW fO hin q1 q2 q3 q4 q5 q6 q7).trans (wp_mono _ _ _ fun v1 => ?_)
  rw [wp_bind]; refine (part_2 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_3 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_4 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun c50_i32_93 => ?_)
  rw [wp_bind]; refine (part_5 d L (iprop(R ∗ ((iRowK L).view.loc thr ↦[(iRowK L).view.set]{fullShare} fI) ∗ semVal (thr, SemLoc.dma cc0_scoped0.sem) 0)) O W fI fW fO hin q1 q2 q3 q4 q5 q6 q7 v1 c50_i32_93).trans (wp_mono _ _ _ fun _ => ?_)
  rw [wp_bind]; refine (part_6 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_7 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_8 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun v191 => ?_)
  rw [wp_bind]; refine (part_9 d L (iprop(R ∗ ((iRowK L).view.loc thr ↦[(iRowK L).view.set]{fullShare} fI) ∗ semVal (thr, SemLoc.dma cc0_scoped0.sem) 0)) O W fI fW fO hin q1 q2 q3 q4 q5 q6 q7 v1 v191).trans (wp_mono _ _ _ fun _ => ?_)
  rw [wp_bind]; refine (part_10 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_11 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun v => ?_)
  obtain ⟨v266, c16_i32_281⟩ := v
  rw [wp_bind]; refine (part_12 d L (iprop(R ∗ ((iRowK L).view.loc thr ↦[(iRowK L).view.set]{fullShare} fI) ∗ semVal (thr, SemLoc.dma cc0_scoped0.sem) 0)) O W fI fW fO hin q1 q2 q3 q4 q5 q6 q7 v1 v266 c16_i32_281).trans (wp_mono _ _ _ fun _ => ?_)
  rw [wp_bind]; refine (part_13 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_14 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_15 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun v368 => ?_)
  rw [wp_bind]; refine (part_16 d L (iprop(R ∗ ((iRowK L).view.loc thr ↦[(iRowK L).view.set]{fullShare} fI) ∗ semVal (thr, SemLoc.dma cc0_scoped0.sem) 0)) O W fI fW fO hin q1 q2 q3 q4 q5 q6 q7 v1 v368).trans (wp_mono _ _ _ fun _ => ?_)
  rw [wp_bind]; refine (part_17 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_18 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun v => ?_)
  obtain ⟨v443, c128_i32_469⟩ := v
  rw [wp_bind]; refine (part_19 d L (iprop(R ∗ ((iRowK L).view.loc thr ↦[(iRowK L).view.set]{fullShare} fI) ∗ semVal (thr, SemLoc.dma cc0_scoped0.sem) 0)) O W fI fW fO hin q1 q2 q3 q4 q5 q6 q7 v1 v443 c128_i32_469).trans (wp_mono _ _ _ fun _ => ?_)
  rw [wp_bind]; refine (part_20 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_21 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_22 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_23 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun c50_i32_603 => ?_)
  rw [wp_bind]; refine (part_24 d L (iprop(R ∗ ((iRowK L).view.loc thr ↦[(iRowK L).view.set]{fullShare} fI) ∗ semVal (thr, SemLoc.dma cc0_scoped0.sem) 0)) O W fI fW fO hin q1 q2 q3 q4 q5 q6 q7 v1 c50_i32_603).trans (wp_mono _ _ _ fun _ => ?_)
  rw [wp_bind]; refine (part_25 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_26 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_27 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun v671 => ?_)
  rw [wp_bind]; refine (part_28 d L (iprop(R ∗ ((iRowK L).view.loc thr ↦[(iRowK L).view.set]{fullShare} fI) ∗ semVal (thr, SemLoc.dma cc0_scoped0.sem) 0)) O W fI fW fO hin q1 q2 q3 q4 q5 q6 q7 v1 v671).trans (wp_mono _ _ _ fun _ => ?_)
  rw [wp_bind]; refine (part_29 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_30 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun v => ?_)
  obtain ⟨v746, c47_i32_792⟩ := v
  rw [wp_bind]; refine (part_31 d L (iprop(R ∗ ((iRowK L).view.loc thr ↦[(iRowK L).view.set]{fullShare} fI) ∗ semVal (thr, SemLoc.dma cc0_scoped0.sem) 0)) O W fI fW fO hin q1 q2 q3 q4 q5 q6 q7 v1 v746 c47_i32_792).trans (wp_mono _ _ _ fun v => ?_)
  obtain ⟨v772, c44_i32_820⟩ := v
  rw [wp_bind]; refine (part_32 d L (iprop(R ∗ ((iRowK L).view.loc thr ↦[(iRowK L).view.set]{fullShare} fI) ∗ semVal (thr, SemLoc.dma cc0_scoped0.sem) 0)) O W fI fW fO hin q1 q2 q3 q4 q5 q6 q7 v1 v772 c44_i32_820).trans (wp_mono _ _ _ fun _ => ?_)
  exact part_33 d L (iprop(R ∗ ((iRowK L).view.loc thr ↦[(iRowK L).view.set]{fullShare} fI) ∗ semVal (thr, SemLoc.dma cc0_scoped0.sem) 0)) O W fI fW fO hin q1 q2 q3 q4 q5 q6 q7

end Cert.KernelIdeal.TileBody

end
-- ==== Proof.TileBody.lean ====
/-
  One vector subcore's task of the gather kernel, at a symbolic place: the obligation the launch consumes.

  Before the run the tile's block of the index array, its share of the table and its 6400 output rows are restated
  as the program addresses them: the table's share is cut in seven, one piece per row buffer (a gather holds its
  buffer's piece from its issue to its wait, and up to seven are in flight at once); the output rows are cut in the
  fifty blocks the chunks are copied out to; the eight scratch buffers and the fifteen semaphores are taken out of
  the subcore's own. The run is the composition of the printed parts. After it the pieces are joined again: the
  index scratch from its fifty rows, the output rows from their fifty blocks, each held at the gathered array.
-/
import proofs.«206768_g17686675325131_cont_8to1_990_33_alg».proof.Proof.TileDefs
import proofs.«206768_g17686675325131_cont_8to1_990_33_alg».proof.Proof.TileGeom
import proofs.«206768_g17686675325131_cont_8to1_990_33_alg».proof.Proof.TilePeel
import proofs.«206768_g17686675325131_cont_8to1_990_33_alg».proof.Proof.TileRun

noncomputable section

namespace Cert.KernelIdeal.TileBody

open Cert.KernelIdeal Cert.KernelIdeal.Gen Cert.KernelIdeal.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S32x50x128 EltTy.i32)
local notation "oV" => (Memref.whole Cert.KernelIdeal.main_v1_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S50x128 EltTy.i32)

variable (d : Dev nD) (L : grid0.Coords)

local notation "thr" => (V d (cV L) (jV L))

omit [CountersIn U] [FloatOps F] in
theorem pts_wV (q : PosShare TreeShare) (f : Buf (Elt F) (wLoc d)) : ((wV).view.loc thr ↦{q} f : sProp 𝕄) = wLoc d ↦{q} f := rfl

omit [CountersIn U] [FloatOps F] in
theorem pts_iRowK (f : Buf (Elt F) (iLoc d)) :
    ((iRowK L).view.loc thr ↦[(iRowK L).view.set]{fullShare} f : sProp 𝕄) = iRowPts d (wid L) f := by
  rw [set_iRowK]

omit [CountersIn U] [FloatOps F] in
theorem Done_zero_intro (Φ : ℕ → sProp 𝕄) : (iprop(emp) : sProp 𝕄) ⊢ Done Φ 0 := Entails.of_eq rfl
omit [CountersIn U] [FloatOps F] in
theorem Todo_zero (Φ : ℕ → sProp 𝕄) (k : ℕ) : Todo Φ k 0 = iprop(emp) := rfl

/-- What the last wait leaves is the task's post: the table's share joined, the index scratch's rows and the
    output's blocks joined, the scratch buffers and semaphores put back among the subcore's own. -/
theorem teardown (O : CellTallies nD τ sig (HIx 1)) (W : Waits sig (HIx 1)) (q : PosShare TreeShare)
    (fI : Buf (Elt F) (iLoc d)) (fW : Buf (Elt F) (wLoc d)) (fO : Buf (Elt F) (oLoc d)) (RB RS : sProp 𝕄) :
    iprop(iprop(iprop(((wV).view.loc thr ↦[Finset.univ \ (wAllK).view.set]{q} fW) ∗ RB ∗ RS) ∗ ((iRowK L).view.loc thr ↦[(iRowK L).view.set]{fullShare} fI) ∗ semVal (thr, SemLoc.dma cc0_scoped0.sem) 0)
        ∗ Transfers.MayWaits thr (default : HIx 1) O
        ∗ (∃ W', ⌜∀ p ∈ W', p ∈ W ∨ p.2 = none⌝ ∗ owes thr O W')
        ∗ (∃ f, bPts d L bV1 f)
        ∗ wPts d L fW (q.left)
        ∗ semVal (thr, SemLoc.dma cc0_scratch8.sem) 0
        ∗ semVal (thr, SemLoc.dma cc0_scratch15.sem) 0
        ∗ (∃ f, bPts d L bV2 f)
        ∗ wPts d L fW (q.right.left)
        ∗ semVal (thr, SemLoc.dma cc0_scratch9.sem) 0
        ∗ semVal (thr, SemLoc.dma cc0_scratch16.sem) 0
        ∗ (∃ f, bPts d L bV3 f)
        ∗ wPts d L fW (q.right.right.left)
        ∗ semVal (thr, SemLoc.dma cc0_scratch10.sem) 0
        ∗ semVal (thr, SemLoc.dma cc0_scratch17.sem) 0
        ∗ (∃ f, bPts d L bV4 f)
        ∗ wPts d L fW (q.right.right.right.left)
        ∗ semVal (thr, SemLoc.dma cc0_scratch11.sem) 0
        ∗ semVal (thr, SemLoc.dma cc0_scratch18.sem) 0
        ∗ (∃ f, bPts d L bV5 f)
        ∗ wPts d L fW (q.right.right.right.right.left)
        ∗ semVal (thr, SemLoc.dma cc0_scratch12.sem) 0
        ∗ semVal (thr, SemLoc.dma cc0_scratch19.sem) 0
        ∗ (∃ f, bPts d L bV6 f)
        ∗ wPts d L fW (q.right.right.right.right.right.left)
        ∗ semVal (thr, SemLoc.dma cc0_scratch13.sem) 0
        ∗ semVal (thr, SemLoc.dma cc0_scratch20.sem) 0
        ∗ (∃ f, bPts d L bV7 f)
        ∗ wPts d L fW (q.right.right.right.right.right.right)
        ∗ semVal (thr, SemLoc.dma cc0_scratch14.sem) 0
        ∗ semVal (thr, SemLoc.dma cc0_scratch21.sem) 0
        ∗ Todo (pc (rowPts d L fI)) 50 0
        ∗ Done (pc (rowPts d L fI)) 50
        ∗ Todo (pc (blkPts d L fO)) 50 0
        ∗ Done (pc (blkPts d L (Gath fI fW))) 50)
      ⊢ iprop((iRowPts d (wid L) fI ∗ wShPts d q fW ∗ oRowPts d (wid L) (Gath fI fW))
          ∗ iprop((∃ f, (sV).view.loc thr ↦{fullShare} f) ∗ (∃ f, bPts d L bV1 f) ∗ (∃ f, bPts d L bV2 f) ∗ (∃ f, bPts d L bV3 f)
              ∗ (∃ f, bPts d L bV4 f) ∗ (∃ f, bPts d L bV5 f) ∗ (∃ f, bPts d L bV6 f) ∗ (∃ f, bPts d L bV7 f) ∗ RB)
          ∗ iprop(semVal (thr, SemLoc.dma cc0_scoped0.sem) 0
              ∗ (semVal (thr, SemLoc.dma cc0_scratch8.sem) 0 ∗ semVal (thr, SemLoc.dma cc0_scratch9.sem) 0 ∗ semVal (thr, SemLoc.dma cc0_scratch10.sem) 0
                ∗ semVal (thr, SemLoc.dma cc0_scratch11.sem) 0 ∗ semVal (thr, SemLoc.dma cc0_scratch12.sem) 0 ∗ semVal (thr, SemLoc.dma cc0_scratch13.sem) 0
                ∗ semVal (thr, SemLoc.dma cc0_scratch14.sem) 0)
              ∗ (semVal (thr, SemLoc.dma cc0_scratch15.sem) 0 ∗ semVal (thr, SemLoc.dma cc0_scratch16.sem) 0 ∗ semVal (thr, SemLoc.dma cc0_scratch17.sem) 0
                ∗ semVal (thr, SemLoc.dma cc0_scratch18.sem) 0 ∗ semVal (thr, SemLoc.dma cc0_scratch19.sem) 0 ∗ semVal (thr, SemLoc.dma cc0_scratch20.sem) 0
                ∗ semVal (thr, SemLoc.dma cc0_scratch21.sem) 0)
              ∗ RS)
          ∗ ∃ W', ⌜∀ p ∈ W', p ∈ W ∨ p.2 = none⌝ ∗ owes thr O W') := by
  rw [Todo_zero, Todo_zero]
  iintro ⟨⟨⟨Hwr, HRB, HRS⟩, Hi, Hsc⟩, -, HOw, Hb1, HW1, Hg1, Hs1, Hb2, HW2, Hg2, Hs2, Hb3, HW3, Hg3, Hs3, Hb4, HW4, Hg4, Hs4, Hb5, HW5, Hg5, Hs5, Hb6, HW6, Hg6, Hs6, Hb7, HW7, Hg7, Hs7, -, ID, -, OD⟩
  ihave Hws := (pointsTo_share (PosShare.mem_left_op_right (q.right.right.right.right.right))).2 $$ [HW6 HW7]
  · isplitl [HW6]
    · iexact HW6
    iexact HW7
  ihave Hws := (pointsTo_share (PosShare.mem_left_op_right (q.right.right.right.right))).2 $$ [HW5 Hws]
  · isplitl [HW5]
    · iexact HW5
    iexact Hws
  ihave Hws := (pointsTo_share (PosShare.mem_left_op_right (q.right.right.right))).2 $$ [HW4 Hws]
  · isplitl [HW4]
    · iexact HW4
    iexact Hws
  ihave Hws := (pointsTo_share (PosShare.mem_left_op_right (q.right.right))).2 $$ [HW3 Hws]
  · isplitl [HW3]
    · iexact HW3
    iexact Hws
  ihave Hws := (pointsTo_share (PosShare.mem_left_op_right (q.right))).2 $$ [HW2 Hws]
  · isplitl [HW2]
    · iexact HW2
    iexact Hws
  ihave Hws := (pointsTo_share (PosShare.mem_left_op_right (q))).2 $$ [HW1 Hws]
  · isplitl [HW1]
    · iexact HW1
    iexact Hws
  ihave Hw := (pointsTo_split_subset (q := q) (f := fW) (S := Finset.univ) (Finset.subset_univ (wAllK).view.set)).2 $$ [Hws Hwr]
  · isplitl [Hws]
    · iexact Hws
    iexact Hwr
  ihave Hw := (Entails.of_eq (pts_wV (F := F) (U := U) d L q fW)) $$ Hw
  ihave Hi := (Entails.of_eq (pts_iRowK (F := F) (U := U) d L fI)) $$ Hi
  ihave Ho := (out_join (F := F) (U := U) d L (Gath fI fW)) $$ OD
  ihave Hs := (idx_join (F := F) (U := U) d L fI) $$ ID
  isplitl [Hi Hw Ho]
  · isplitl [Hi]
    · iexact Hi
    isplitl [Hw]
    · iexact Hw
    iexact Ho
  isplitl [Hs Hb1 Hb2 Hb3 Hb4 Hb5 Hb6 Hb7 HRB]
  · isplitl [Hs]
    · iexact Hs
    isplitl [Hb1]
    · iexact Hb1
    isplitl [Hb2]
    · iexact Hb2
    isplitl [Hb3]
    · iexact Hb3
    isplitl [Hb4]
    · iexact Hb4
    isplitl [Hb5]
    · iexact Hb5
    isplitl [Hb6]
    · iexact Hb6
    isplitl [Hb7]
    · iexact Hb7
    iexact HRB
  isplitl [Hsc Hg1 Hg2 Hg3 Hg4 Hg5 Hg6 Hg7 Hs1 Hs2 Hs3 Hs4 Hs5 Hs6 Hs7 HRS]
  · isplitl [Hsc]
    · iexact Hsc
    isplitl [Hg1 Hg2 Hg3 Hg4 Hg5 Hg6 Hg7]
    · isplitl [Hg1]
      · iexact Hg1
      isplitl [Hg2]
      · iexact Hg2
      isplitl [Hg3]
      · iexact Hg3
      isplitl [Hg4]
      · iexact Hg4
      isplitl [Hg5]
      · iexact Hg5
      isplitl [Hg6]
      · iexact Hg6
      iexact Hg7
    isplitl [Hs1 Hs2 Hs3 Hs4 Hs5 Hs6 Hs7]
    · isplitl [Hs1]
      · iexact Hs1
      isplitl [Hs2]
      · iexact Hs2
      isplitl [Hs3]
      · iexact Hs3
      isplitl [Hs4]
      · iexact Hs4
      isplitl [Hs5]
      · iexact Hs5
      isplitl [Hs6]
      · iexact Hs6
      iexact Hs7
    iexact HRS
  iexact HOw

set_option maxHeartbeats 4000000 in
/-- The task on vector subcore `(L 0, L 1)` of device `d`. -/
theorem tile_body (hF : (K (F := F)).Facts) (O : CellTallies nD τ sig (HIx 1)) (W : Waits sig (HIx 1)) (hO : ∀ g, O g none = 0)
    (q : PosShare TreeShare) (fI : Buf (Elt F) (iLoc d)) (fW : Buf (Elt F) (wLoc d)) (fO : Buf (Elt F) (oLoc d))
    (hin : ∀ j, (fI j).toNat < 100000) :
    iprop(levAts (K (F := F)).L (K (F := F)).lev ∗ emp
        ∗ (iRowPts d (wid L) fI ∗ wShPts d q fW ∗ oRowPts d (wid L) fO)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0_gather_kernel L wV (Memref.isWhole_whole _) iV (Memref.isWhole_whole _) oV (Memref.isWhole_whole _)
            sV (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0)
          fun _ => iprop((iRowPts d (wid L) fI ∗ wShPts d q fW ∗ oRowPts d (wid L) (Gath fI fW))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  obtain ⟨RB, hRB⟩ := ownBufs_V8 (F := F) (U := U) d L
  obtain ⟨RS, hRS⟩ := ownSems0_V15 (F := F) (U := U) d L
  rw [(K (F := F)).scopedBufs_V hF d (cV L) (jV L), SparseCore.Cfg.scopedSems0_V (Val := Elt F) d (cV L) (jV L), hRB, hRS]
  iintro ⟨#Hlv, -, ⟨Hi, Hw, Ho⟩, ⟨Hs, Hb1, Hb2, Hb3, Hb4, Hb5, Hb6, Hb7, HRB⟩, ⟨Hsc, ⟨Hg1, Hg2, Hg3, Hg4, Hg5, Hg6, Hg7⟩, ⟨Hs1, Hs2, Hs3, Hs4, Hs5, Hs6, Hs7⟩, HRS⟩, HO⟩
  ihave Hi := (Entails.of_eq (pts_iRowK (F := F) (U := U) d L fI).symm) $$ Hi
  ihave Hw := (Entails.of_eq (pts_wV (F := F) (U := U) d L q fW).symm) $$ Hw
  ihave Hws := (pointsTo_split_subset (q := q) (f := fW) (S := Finset.univ) (Finset.subset_univ (wAllK).view.set)).1 $$ Hw
  icases Hws with ⟨Hws, Hwr⟩
  ihave H := (pointsTo_share (PosShare.mem_left_op_right (q))).1 $$ Hws
  icases H with ⟨HW1, Hws⟩
  ihave H := (pointsTo_share (PosShare.mem_left_op_right (q.right))).1 $$ Hws
  icases H with ⟨HW2, Hws⟩
  ihave H := (pointsTo_share (PosShare.mem_left_op_right (q.right.right))).1 $$ Hws
  icases H with ⟨HW3, Hws⟩
  ihave H := (pointsTo_share (PosShare.mem_left_op_right (q.right.right.right))).1 $$ Hws
  icases H with ⟨HW4, Hws⟩
  ihave H := (pointsTo_share (PosShare.mem_left_op_right (q.right.right.right.right))).1 $$ Hws
  icases H with ⟨HW5, Hws⟩
  ihave H := (pointsTo_share (PosShare.mem_left_op_right (q.right.right.right.right.right))).1 $$ Hws
  icases H with ⟨HW6, Hws⟩
  ihave OT := (out_split (F := F) (U := U) d L fO) $$ Ho
  iapply (Transfers.ent (BI.Entails.trans (run_all (F := F) (U := U) d L (iprop(((wV).view.loc thr ↦[Finset.univ \ (wAllK).view.set]{q} fW) ∗ RB ∗ RS)) O W fI fW fO hin
      (q.left) (q.right.left) (q.right.right.left) (q.right.right.right.left) (q.right.right.right.right.left) (q.right.right.right.right.right.left) (q.right.right.right.right.right.right))
    (wp_mono frame _ _ fun _ => teardown (F := F) (U := U) d L O W q fI fW fO RB RS))) $$ [Hwr HRB HRS HO Hi Hs Hsc Hb1 HW1 Hg1 Hs1 Hb2 HW2 Hg2 Hs2 Hb3 HW3 Hg3 Hs3 Hb4 HW4 Hg4 Hs4 Hb5 HW5 Hg5 Hs5 Hb6 HW6 Hg6 Hs6 Hb7 Hws Hg7 Hs7 OT]
  ·
    isplitl [Hwr HRB HRS]
    · isplitl [Hwr]
      · iexact Hwr
      isplitl [HRB]
      · iexact HRB
      iexact HRS
    isplitl []
    · iapply ((K (F := F)).mayWaits_none hO)
      iexact Hlv
    isplitl [HO]
    · iexists W; isplitr
      · ipureintro; exact fun p hp => .inl hp
      · iexact HO
    isplitl [Hi]
    · iexact Hi
    isplitl [Hs]
    · iexact Hs
    isplitl [Hsc]
    · iexact Hsc
    isplitl [Hb1]
    · iexact Hb1
    isplitl [HW1]
    · iexact HW1
    isplitl [Hg1]
    · iexact Hg1
    isplitl [Hs1]
    · iexact Hs1
    isplitl [Hb2]
    · iexact Hb2
    isplitl [HW2]
    · iexact HW2
    isplitl [Hg2]
    · iexact Hg2
    isplitl [Hs2]
    · iexact Hs2
    isplitl [Hb3]
    · iexact Hb3
    isplitl [HW3]
    · iexact HW3
    isplitl [Hg3]
    · iexact Hg3
    isplitl [Hs3]
    · iexact Hs3
    isplitl [Hb4]
    · iexact Hb4
    isplitl [HW4]
    · iexact HW4
    isplitl [Hg4]
    · iexact Hg4
    isplitl [Hs4]
    · iexact Hs4
    isplitl [Hb5]
    · iexact Hb5
    isplitl [HW5]
    · iexact HW5
    isplitl [Hg5]
    · iexact Hg5
    isplitl [Hs5]
    · iexact Hs5
    isplitl [Hb6]
    · iexact Hb6
    isplitl [HW6]
    · iexact HW6
    isplitl [Hg6]
    · iexact Hg6
    isplitl [Hs6]
    · iexact Hs6
    isplitl [Hb7]
    · iexact Hb7
    isplitl [Hws]
    · iexact Hws
    isplitl [Hg7]
    · iexact Hg7
    isplitl [Hs7]
    · iexact Hs7
    isplitl []
    · iapply (Done_zero_intro _)
      iempintro
    isplitl [OT]
    · iexact OT
    iapply (Done_zero_intro _)
    iempintro

end Cert.KernelIdeal.TileBody

end
-- ==== Proof.Region.lean ====
/-
  The TensorCore kernel call inside the SparseCore program: the LayerNorm pipeline's region, run on the TensorCore of
  a device from the region boundary and the five arrays it moves.

  The pipeline has a grid of 16 points. At point `t` it fetches block `t` of the gathered array (64 batch rows, whole
  along the two other axes) and, at the first point only, the position rows and the scale and shift rows whole; the
  body loads the four staging buffers, computes one value and stores it whole into the result's staging buffer, which
  is written back to block `t` of the result array. So:
    * the body at a symbolic point: five whole-buffer loads, one whole-buffer store (`sound_kernel`), and the
      library's body obligation for proof data that name, after each point, the inputs' buffers at their blocks and
      the result's at the stored value of those blocks (`dats`, `body_obligation`);
    * the region as a segment (`reg`): the five arrays enter the pipeline, nothing else does; the body owes nothing,
      so its waits need no level evidence; `region_at` is the library's region step lifted to the SparseCore
      program's body table;
    * the value: the stored value of block `t` is block `t` of ONE whole-array function `Out` of the four operand
      arrays (`flushed_eq`), the 16 blocks cover the result array (`cover`), so the array ends at `Out` (`final4`),
      and `region_run` states the run with the result array so named.
  Generic in the float instance, in the names, in the ghost-state algebra and in its embedding of the pipeline
  library's rounds; `Gd` is the ghost state the launch must deal each TensorCore for this pipeline and `fund` makes
  it from the rounds library's launch element `u₀P`.
-/
import proofs.«206768_g17686675325131_cont_8to1_990_33_alg».proof.Proof.Gen.KernelIdeal.Launch
import proofs.«206768_g17686675325131_cont_8to1_990_33_alg».proof.Proof.Gen.KernelIdeal.Skeleton
import proofs.«206768_g17686675325131_cont_8to1_990_33_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.SparseCore.Threads
import Idealize.ShloMosaic.Lib.ValueIdx
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]
variable {Name : Type} [DecidableEq Name] {U : Type} [URA U]

local notation "𝕄" => MT nD τ sig (HIx 1) (Elt F) Name U ℕ

/-! ## The body's accesses and what it leaves in the result's buffer -/

abbrev r3 : Rect S64x200x128 := Rect.unit (s := S64x200x128) ![0, 0, 0] S64x200x128.size inb_S64x200x128_S64x200x128_0_0_0
abbrev r2 : Rect S200x128 := Rect.unit (s := S200x128) ![0, 0] S200x128.size inb_S200x128_S200x128_0_0
abbrev r1 : Rect S1x128 := Rect.unit (s := S1x128) ![0, 0] S1x128.size inb_S1x128_S1x128_0_0

/-- The result window's staging buffer after the body, from the four input blocks: its one whole-block store. -/
def out4 (x0 : Vec F S64x200x128 .f32) (x1 : Vec F S200x128 .f32) (x2 x3 : Vec F S1x128 .f32) : Vec F S64x200x128 .f32 :=
  View.canon [⟨r3, k1_pay1 (View.ld x0 r3) (View.ld x1 r2) (View.ld x2 r1) (View.ld x3 r1)⟩]

theorem cover4 (p0 : Vec F S64x200x128 .f32) (y : S64x200x128.Idx) :
    ∃ pc ∈ ([⟨r3, p0⟩] : List (View.Piece (Elt F) S64x200x128 .f32)), y ∈ pc.1.set :=
  View.cover_of_tiled [⟨r3, p0⟩] S64x200x128.size (by rfl) y

set_option maxHeartbeats 1000000 in
/-- The body on whole staging memrefs: the four inputs' at read contents, the result's at anything, to the inputs' as
    they were and the result's at `out4` of them. -/
theorem sound_kernel (𝒱₀ : Variants) (c : Dev nD) (E : Set Name) (i : grid1.Coords)
    (arg1 : Memref sig .tc .vmem S64x200x128 .f32) (harg1 : arg1.IsWhole) (arg2 : Memref sig .tc .vmem S200x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S64x200x128 .f32) (harg5 : arg5.IsWhole)
    (x0 : Vec F S64x200x128 .f32) (x1 : Vec F S200x128 .f32) (x2 x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) 𝒱₀ c none) E (cc1__ln_body i arg1 harg1 arg2 harg2 arg3 harg3 arg4 harg4 arg5 harg5) K := by
  simp only [cc1__ln_body_eq_skeleton]; unfold cc1__ln_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The one admissible contents of the prefetched tables: there is no table. -/
abbrev adm : (p : Fin 1) → (pcfgs (F := F) p).Adm := fun p => (cfgs p).toPCfg_adm

variable (V : (c : Dev nD) → (b : Ref sig .tc) → Buf (Elt F) ((c : Thread nD τ).loc b))
variable (B : Dev nD → Set (SemLoc sig × HIx 1))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data on core `c`: the arrays as the region finds them; after the body at point `t` each input's buffer at
    its block and the result's at the body's store of the four input blocks; the invariant the scoped buffers no window
    stages (there is none); nothing owed, the recorded pairs within `B c`; full shares. -/
def dats (_ : Fin 1) (c : Dev nD) : Dat τ (Elt F) (HIx 1) Name U ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
  Φ _ := Pipeline.scopedRest spec1 c
  q _ := fullShare
  owed _ := 0
  recorded _ := B c

theorem A_eq (c : Dev nD) (w : Fin cfg1.W) : (dats (Name := Name) (U := U) V B 0 c).A w = V c (Pipeline.arrRef spec1 w) := by
  dsimp only [dats]

theorem after0 (c : Dev nD) (t : Fin cfg1.N) : (dats (Name := Name) (U := U) V B 0 c).after 0 t = iblk V c 0 t := by dsimp only [dats]
theorem after1 (c : Dev nD) (t : Fin cfg1.N) : (dats (Name := Name) (U := U) V B 0 c).after 1 t = iblk V c 1 t := by dsimp only [dats]
theorem after2 (c : Dev nD) (t : Fin cfg1.N) : (dats (Name := Name) (U := U) V B 0 c).after 2 t = iblk V c 2 t := by dsimp only [dats]
theorem after3 (c : Dev nD) (t : Fin cfg1.N) : (dats (Name := Name) (U := U) V B 0 c).after 3 t = iblk V c 3 t := by dsimp only [dats]
theorem after4 (c : Dev nD) (t : Fin cfg1.N) : (dats (Name := Name) (U := U) V B 0 c).after 4 t
    = out4 (iblk V c 0 t) (iblk V c 1 t) (iblk V c 2 t) (iblk V c 3 t) := by dsimp only [dats]

/-- Each input's current staging buffer holds its block at every point, fetched there or not. -/
theorem before0 (c : Dev nD) (t : Fin cfg1.N) (d) : (dats (Name := Name) (U := U) V B 0 c).before 0 t d = iblk V c 0 t :=
  ((dats (Name := Name) (U := U) V B 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg1.N) (d) : (dats (Name := Name) (U := U) V B 0 c).before 1 t d = iblk V c 1 t :=
  ((dats (Name := Name) (U := U) V B 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg1.N) (d) : (dats (Name := Name) (U := U) V B 0 c).before 2 t d = iblk V c 2 t :=
  ((dats (Name := Name) (U := U) V B 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg1.N) (d) : (dats (Name := Name) (U := U) V B 0 c).before 3 t d = iblk V c 3 t :=
  ((dats (Name := Name) (U := U) V B 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dats (Name := Name) (U := U) V B 0 c).Φ t.castSucc ∗ (dats (Name := Name) (U := U) V B 0 c).owesAt none t.castSucc
    ∗ (∃ d, owns (c : Thread nD τ) (st1_0 t) fullShare ((dats (Name := Name) (U := U) V B 0 c).before 0 t d))
    ∗ (∃ d, owns (c : Thread nD τ) (st1_1 t) fullShare ((dats (Name := Name) (U := U) V B 0 c).before 1 t d))
    ∗ (∃ d, owns (c : Thread nD τ) (st1_2 t) fullShare ((dats (Name := Name) (U := U) V B 0 c).before 2 t d))
    ∗ (∃ d, owns (c : Thread nD τ) (st1_3 t) fullShare ((dats (Name := Name) (U := U) V B 0 c).before 3 t d))
    ∗ (∃ d, owns (c : Thread nD τ) (st1_4 t) fullShare ((dats (Name := Name) (U := U) V B 0 c).before 4 t d)))

/-- and what it returns. -/
def bodyPost (c : Dev nD) (t : Fin cfg1.N) : sProp 𝕄 :=
  iprop((dats (Name := Name) (U := U) V B 0 c).Φ t.succ ∗ (dats (Name := Name) (U := U) V B 0 c).owesAt none t.succ
    ∗ owns (c : Thread nD τ) (st1_0 t) fullShare ((dats (Name := Name) (U := U) V B 0 c).after 0 t)
    ∗ owns (c : Thread nD τ) (st1_1 t) fullShare ((dats (Name := Name) (U := U) V B 0 c).after 1 t)
    ∗ owns (c : Thread nD τ) (st1_2 t) fullShare ((dats (Name := Name) (U := U) V B 0 c).after 2 t)
    ∗ owns (c : Thread nD τ) (st1_3 t) fullShare ((dats (Name := Name) (U := U) V B 0 c).after 3 t)
    ∗ owns (c : Thread nD τ) (st1_4 t) fullShare ((dats (Name := Name) (U := U) V B 0 c).after 4 t))

/-- The body at any point: the inputs' memrefs hold their blocks, so `sound_kernel` applies; the invariant and the
    core's `owes` pass through unread. -/
theorem sound_body (𝒱₀ : Variants) (c : Dev nD) (t : Fin cfg1.N) :
    bodyPre (Name := Name) (U := U) V B c t ⊢ wp frame (wpE (defs₀ (F := F)) 𝒱₀ c none) Set.univ (bodyAt1 t) (fun _ => bodyPost (Name := Name) (U := U) V B c t) := by
  unfold bodyPre bodyPost bodyAt1
  simp only [before0, before1, before2, before3]
  rw [show (dats (Name := Name) (U := U) V B 0 c).Φ t.succ = (dats (Name := Name) (U := U) V B 0 c).Φ t.castSucc from rfl,
    show (dats (Name := Name) (U := U) V B 0 c).owesAt none t.succ = (dats (Name := Name) (U := U) V B 0 c).owesAt none t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel 𝒱₀ c Set.univ (grid1.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (𝒱₀ : Variants) (c : Dev nD) : BodyObligation (dats (Name := Name) (U := U) V B 0 c) (defs₀ (F := F)) 𝒱₀ none Set.univ := fun t => by
  rw [bigSep_W1, bigSep_W1]
  exact sound_body V B 𝒱₀ c t

/-! ## The region as a segment of the TensorCore's program -/

/-- The thread state the region is entered from: the four operand arrays and the result array at `V`, the core owing
    nothing with its recorded pairs within `B c`. -/
def Pre (c : Dev nD) : sProp 𝕄 :=
  iprop((((c : Thread nD τ).loc main_v2) ↦{fullShare} V c main_v2) ∗ (((c : Thread nD τ).loc main_v3) ↦{fullShare} V c main_v3)
    ∗ (((c : Thread nD τ).loc main_v4) ↦{fullShare} V c main_v4) ∗ (((c : Thread nD τ).loc main_v5) ↦{fullShare} V c main_v5)
    ∗ (((c : Thread nD τ).loc main_v6) ↦{fullShare} V c main_v6)
    ∗ Pipeline.owesWithin c 0 (B c))

/-- The thread state it leaves: the operands unchanged, the result array at what the pipeline's write-backs leave, the
    core owing nothing, its recorded pairs the former ones and the staging cells' at the index `none`. -/
def PostAt (c : Dev nD) : sProp 𝕄 :=
  iprop((((c : Thread nD τ).loc main_v2) ↦{fullShare} V c main_v2) ∗ (((c : Thread nD τ).loc main_v3) ↦{fullShare} V c main_v3)
    ∗ (((c : Thread nD τ).loc main_v4) ↦{fullShare} V c main_v4) ∗ (((c : Thread nD τ).loc main_v5) ↦{fullShare} V c main_v5)
    ∗ (((c : Thread nD τ).loc main_v6) ↦{fullShare} (dats (Name := Name) (U := U) V B 0 c).arrAt 4 cfg1.N)
    ∗ Pipeline.owesWithin c 0 (B c ∪ cfg1.waitPairs none))

variable (𝒱₀ : Variants) (L : GSem nD τ sig → Finset (HIx 1)) (lv : GSem nD τ sig → HIx 1 → ℕ)

theorem share_full (c : Dev nD) (w : Fin cfg1.W) : (dats (Name := Name) (U := U) V B 0 c).share w = fullShare :=
  (dats (Name := Name) (U := U) V B 0 c).share_full (fun _ => rfl) w

/-- The region as the library's record: the windows' layout as decided for the launch, the kernel having no semaphore
    of its own, the body obligation; entered with the five
    arrays going into the pipeline and nothing else, left with them at their final contents. -/
def reg : Pipeline.RegionSeg (pcfgs (F := F)) adm (dats (Name := Name) (U := U) V B) none defs₀ 𝒱₀ L lv 0 where
  win := launch1.win.to₀
  block_pos := launch1.block_pos
  stage_whole := launch1.stage_whole
  K := PEmpty
  osem := fun k => k.elim
  ho := Pipeline.OwnSemFacts.none _
  hbody c := (body_obligation V B 𝒱₀ c).loose
  hwaits := Pipeline.hwaits_of_owed_zero _ _ _ _ L lv 0 fun _ _ => rfl
  pre := Pre V B
  post := PostAt V B
  X _ := iprop(emp)
  Y _ := iprop(emp)
  Z _ := iprop(emp)
  hentry c := by
    rw [Pipeline.arrays_eq cfgs (dats (Name := Name) (U := U) V B) 0 c launch1.arr_whole (share_full V B c), bigSep_W1]
    unfold Pre
    iintro ⟨⟨H2, H3, H4, H5, H6, HO⟩, -, -⟩
    imodintro
    isplitl [H2 H3 H4 H5 H6]
    · isplitl [H2]; · iexact H2
      isplitl [H3]; · iexact H3
      isplitl [H4]; · iexact H4
      isplitl [H5]; · iexact H5
      iexact H6
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl <;> iempintro
  hin c := by
    rw [show (dats (Name := Name) (U := U) V B 0 c).Φ 0 = Pipeline.scopedRest spec1 c from rfl]
    iintro ⟨-, -, Hr⟩
    iassumption
  hout c := by
    rw [Pipeline.ownSems0_none, show (dats (Name := Name) (U := U) V B 0 c).Φ (Fin.last cfg1.N) = Pipeline.scopedRest spec1 c from rfl]
    iintro Hr
    isplitr; · iempintro
    isplitr; · iempintro
    iassumption
  hexit c := by
    rw [Pipeline.arrays_eq cfgs (dats (Name := Name) (U := U) V B) 0 c launch1.arr_whole (share_full V B c), bigSep_W1]
    unfold PostAt
    rw [(dats (Name := Name) (U := U) V B 0 c).arrAt_in 0 rfl _, (dats (Name := Name) (U := U) V B 0 c).arrAt_in 1 rfl _, (dats (Name := Name) (U := U) V B 0 c).arrAt_in 2 rfl _, (dats (Name := Name) (U := U) V B 0 c).arrAt_in 3 rfl _]
    iintro ⟨⟨H2, H3, H4, H5, H6⟩, HO, -, -⟩
    imodintro
    isplitl [H2]; · iexact H2
    isplitl [H3]; · iexact H3
    isplitl [H4]; · iexact H4
    isplitl [H5]; · iexact H5
    isplitl [H6]; · iexact H6
    iexact HO

/-- The pipeline's ghost state on core `c` as the launch deals it: its staging cells' launch state and its transfers'
    duty tokens. -/
abbrev Gd (EP : Emb (URounds (GSem nD τ sig) Unit) (MT nD τ sig (HIx 1) (Elt F) Name U ℕ)) (c : Dev nD) : sProp 𝕄 :=
  iprop(Pipeline.cellsGhost cfgs EP 0 c ∗ Pipeline.toksInit cfgs EP 0 c)

/-- The rounds library's launch element at the staging cells and the pipeline's transfers. -/
abbrev u₀P : URounds (GSem nD τ sig) Unit := initOf (Pipeline.cells (nD := nD) (τ := τ) cfgs cellOf_inj) (Pipeline.launchToks (nD := nD) (τ := τ) cfgs cellOf_inj)

/-- Funding: the launch element yields every core's ghost state for the pipeline. -/
theorem fund (EP : Emb (URounds (GSem nD τ sig) Unit) (MT nD τ sig (HIx 1) (Elt F) Name U ℕ)) :
    BI.own (EP u₀P) ⊢ iprop(|==> bigSep Finset.univ fun c : Dev nD => (Gd EP c : sProp 𝕄)) := by
  have h1 : ∀ (Φ : Fin 1 → sProp 𝕄), bigSep Finset.univ Φ = Φ 0 := fun Φ => by
    rw [show (Finset.univ : Finset (Fin 1)) = {0} from by decide, BI.bigSep_singleton]
  refine (Pipeline.fund_ghost (Ix := HIx 1) (Val := Elt F) (Name := Name) (U := U) (Lvl := ℕ) cfgs EP cellOf_inj).trans ?_
  simp only [h1, bigSep_sep']
  exact Entails.refl _

-- the region rule's implicit arguments are found by unifying its conclusion with this one, which takes unfolding plain
-- definitions in a metavariable's type
set_option backward.isDefEq.respectTransparency.types false in
set_option maxHeartbeats 1000000 in
/-- The region's run with the result array at what the pipeline's write-backs leave: the library's region step on this
    pipeline's proof data, lifted to the SparseCore program's body table (a call of a label of the pipelines' table is
    a call of the same label there). -/
theorem region_at [Infinite Name] (EP : Emb (URounds (GSem nD τ sig) Unit) (MT nD τ sig (HIx 1) (Elt F) Name U ℕ)) [EP.LandsIn (upEmb : UEmb _ 𝕄)] (c : Dev nD) :
    iprop(boundary (c : Thread nD τ) ∗ Pre V B c ∗ levAts L lv ∗ Gd EP c)
      ⊢ wp frame (wpE (sc.defs (Pipeline.defs pcfgs defs₀)) (Variants.lift 𝒱₀) (c : Thread nD τ) none) Set.univ
          (Prog.lift (.customCall (SparseCore.inner (Pipeline.entry 0)) ()))
          (fun _ => iprop(boundary (c : Thread nD τ) ∗ PostAt V B c)) := by
  have h := Pipeline.RegionSeg.wp (pcfgs (F := F)) adm (dats (Name := Name) (U := U) V B) none cellOf_inj EP defs₀ 𝒱₀ L lv (reg V B 𝒱₀ L lv) c none
    (fun u h => nomatch h) (fun _ => .ret PUnit.unit) (fun _ => iprop(boundary (c : Thread nD τ) ∗ PostAt V B c))
  have hl := (sc (F := F)).wp_liftProg (Name := Name) (U := U) (Pipeline.defs pcfgs defs₀) (Variants.lift 𝒱₀) (c : Thread nD τ) Set.univ none
    (.op (.customCall (Pipeline.entry 0) ()) fun _ => .ret PUnit.unit) (fun _ => iprop(boundary (c : Thread nD τ) ∗ PostAt V B c))
  have hp : SparseCore.liftProg (Q := 1) (.op (.customCall (Pipeline.entry (0 : Fin 1)) ()) fun _ => .ret PUnit.unit : Prog (TpuEff nD τ sig (Elt F) (Pipeline.Sig Λ₀ (Fin 1) fun p => (pcfgs (F := F) p).Adm) .tc) PUnit)
      = Prog.lift (.customCall (SparseCore.inner (Pipeline.entry 0)) ()) := rfl
  rw [hp] at hl
  rw [show (reg (Name := Name) (U := U) V B 𝒱₀ L lv).pre c = Pre V B c from rfl, show (reg (Name := Name) (U := U) V B 𝒱₀ L lv).post c = PostAt V B c from rfl] at h
  iintro ⟨Hbd, Hpre, Hla, Hg, Ht⟩
  iapply hl
  iapply h
  isplitr [Hbd Hpre Hla Hg Ht]
  · iintro H
    rw [wp_ret]
    imodintro
    iexact H
  isplitl [Hbd]; · iexact Hbd
  isplitl [Hpre]; · iexact Hpre
  isplitl [Hla]; · iexact Hla
  isplitl [Hg] <;> iassumption

/-! ## The result array as one function of the operand arrays -/

/-- Block `t` of the gathered array: 64 batch rows from row `64 t`. -/
def blk (x2 : S1024x200x128.Idx → Elt F .f32) (t : Fin 16) : Vec F S64x200x128 .f32 :=
  fun y => x2 (ix3 (⟨64 * t.val + (y 0).val, by have h : (y 0).val < 64 := (y 0).isLt; have := t.isLt; omega⟩ : Fin 1024)
    (⟨(y 1).val, (y 1).isLt⟩ : Fin 200) (⟨(y 2).val, (y 2).isLt⟩ : Fin 128))

/-- THE RESULT ARRAY: at batch row `b`, the body's stored value, for block `b / 64` of the gathered array and the
    three whole operands, at block-local row `b % 64`. -/
def Out (x2 : S1024x200x128.Idx → Elt F .f32) (x3 : S200x128.Idx → Elt F .f32) (x4 x5 : S1x128.Idx → Elt F .f32) :
    S1024x200x128.Idx → Elt F .f32 := fun i =>
  k1_pay1 (blk x2 ⟨(i 0).val / 64, by have h : (i 0).val < 1024 := (i 0).isLt; omega⟩) x3 x4 x5
    (ix3 (⟨(i 0).val % 64, Nat.mod_lt _ (by norm_num)⟩ : Fin 64) (⟨(i 1).val, (i 1).isLt⟩ : Fin 200) (⟨(i 2).val, (i 2).isLt⟩ : Fin 128))

/-- Block `t` of `Out` is the body's stored value of block `t`. -/
theorem Out_blk (x2 : S1024x200x128.Idx → Elt F .f32) (x3 : S200x128.Idx → Elt F .f32) (x4 x5 : S1x128.Idx → Elt F .f32)
    (t : Fin 16) (i : S1024x200x128.Idx) (y : S64x200x128.Idx)
    (h0 : (i 0).val = 64 * t.val + (y 0).val) (h1 : (i 1).val = (y 1).val) (h2 : (i 2).val = (y 2).val) :
    Out x2 x3 x4 x5 i = k1_pay1 (blk x2 t) x3 x4 x5 y := by
  have hy : (y 0).val < 64 := (y 0).isLt
  have e1 : (⟨(i 0).val / 64, by have h : (i 0).val < 1024 := (i 0).isLt; omega⟩ : Fin 16) = t := Fin.ext (by show (i 0).val / 64 = t.val; omega)
  have e2 : (ix3 (⟨(i 0).val % 64, Nat.mod_lt _ (by norm_num)⟩ : Fin 64) (⟨(i 1).val, (i 1).isLt⟩ : Fin 200) (⟨(i 2).val, (i 2).isLt⟩ : Fin 128) : S64x200x128.Idx) = y := by
    funext a
    match a with
    | ⟨0, _⟩ => exact Fin.ext (by show (i 0).val % 64 = (y 0).val; omega)
    | ⟨1, _⟩ => exact Fin.ext h1
    | ⟨2, _⟩ => exact Fin.ext h2
  unfold Out
  rw [e1, e2]

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the gathered array's and the result's blocks move with the point
    along the batch axis; the three other operands are whole. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 3) = t.val ∧ win1_4.index t (1 : Fin 3) = 0 ∧ win1_4.index t (2 : Fin 3) = 0) :=
  (by decide +kernel : ∀ t : Fin grid1.N, _)

/-- The point as a block number. -/
abbrev pt (t : Fin cfg1.N) : Fin 16 := ⟨t.val, by have := t.isLt; have h16 : cfg1.N = 16 := N_1; omega⟩

/-- The gathered array's block at point `t`. -/
theorem iblk0_eq (c : Dev nD) (t : Fin cfg1.N) :
    (iblk V c 0 t : Vec F S64x200x128 .f32) = blk (V c main_v2 : S1024x200x128.Idx → Elt F .f32) (pt t) := by
  obtain ⟨⟨e0, e1, e2⟩, -⟩ := idx_facts t
  funext y
  unfold iblk blk
  rw [View.read_apply]
  show (V c main_v2 : S1024x200x128.Idx → Elt F .f32) _ = (V c main_v2 : S1024x200x128.Idx → Elt F .f32) _
  congr 1
  funext a
  apply Fin.ext
  match a with
  | ⟨0, _⟩ => show win1_0.index t (0 : Fin 3) * 64 + 1 * (y 0).val = 64 * t.val + (y 0).val; rw [e0]; omega
  | ⟨1, _⟩ => show win1_0.index t (1 : Fin 3) * 200 + 1 * (y 1).val = (y 1).val; rw [e1]; omega
  | ⟨2, _⟩ => show win1_0.index t (2 : Fin 3) * 128 + 1 * (y 2).val = (y 2).val; rw [e2]; omega

/-- The position rows' block at any point is the whole operand. -/
theorem iblk1_eq (c : Dev nD) (t : Fin cfg1.N) :
    (iblk V c 1 t : Vec F S200x128 .f32) = (V c main_v3 : S200x128.Idx → Elt F .f32) := by
  obtain ⟨-, ⟨e0, e1⟩, -⟩ := idx_facts t
  funext y
  unfold iblk
  rw [View.read_apply]
  show (V c main_v3 : S200x128.Idx → Elt F .f32) _ = (V c main_v3 : S200x128.Idx → Elt F .f32) _
  congr 1
  funext a
  apply Fin.ext
  match a with
  | ⟨0, _⟩ => show win1_1.index t (0 : Fin 2) * 200 + 1 * (y 0).val = (y 0).val; rw [e0]; omega
  | ⟨1, _⟩ => show win1_1.index t (1 : Fin 2) * 128 + 1 * (y 1).val = (y 1).val; rw [e1]; omega

/-- The scale row's block at any point is the whole operand. -/
theorem iblk2_eq (c : Dev nD) (t : Fin cfg1.N) :
    (iblk V c 2 t : Vec F S1x128 .f32) = (V c main_v4 : S1x128.Idx → Elt F .f32) := by
  obtain ⟨-, -, ⟨e0, e1⟩, -⟩ := idx_facts t
  funext y
  unfold iblk
  rw [View.read_apply]
  show (V c main_v4 : S1x128.Idx → Elt F .f32) _ = (V c main_v4 : S1x128.Idx → Elt F .f32) _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The shift row's block at any point is the whole operand. -/
theorem iblk3_eq (c : Dev nD) (t : Fin cfg1.N) :
    (iblk V c 3 t : Vec F S1x128 .f32) = (V c main_v5 : S1x128.Idx → Elt F .f32) := by
  obtain ⟨-, -, -, ⟨e0, e1⟩, -⟩ := idx_facts t
  funext y
  unfold iblk
  rw [View.read_apply]
  show (V c main_v5 : S1x128.Idx → Elt F .f32) _ = (V c main_v5 : S1x128.Idx → Elt F .f32) _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The whole-array function of the operand arrays as the region finds them. -/
abbrev OutV (c : Dev nD) : S1024x200x128.Idx → Elt F .f32 :=
  Out (V c main_v2 : S1024x200x128.Idx → Elt F .f32) (V c main_v3 : S200x128.Idx → Elt F .f32)
    (V c main_v4 : S1x128.Idx → Elt F .f32) (V c main_v5 : S1x128.Idx → Elt F .f32)

/-- WHAT POINT `t` WRITES BACK is block `t` of `Out` of the operand arrays. -/
theorem flushed_eq (c : Dev nD) (t : Fin cfg1.N) :
    (dats (Name := Name) (U := U) V B 0 c).flushed 4 t = ((cfg1.win 4).blk t).view.read (Elt F) (OutV V c) := by
  show (cfg1.win 4).cut (grid1.coords t) ((dats (Name := Name) (U := U) V B 0 c).after 4 t) = _
  rw [after4]
  unfold out4
  rw [View.canon_unit_zero hz3]
  simp only [View.ld_unit_zero (S := S64x200x128) hz3, View.ld_unit_zero (S := S200x128) hz2, View.ld_unit_zero (S := S1x128) hz2]
  rw [iblk0_eq, iblk1_eq, iblk2_eq, iblk3_eq]
  obtain ⟨-, -, -, -, ⟨e0, e1, e2⟩⟩ := idx_facts t
  funext y
  rw [View.read_apply]
  refine (Out_blk _ _ _ _ (pt t) _ y ?_ ?_ ?_).symm
  · show win1_4.index t (0 : Fin 3) * 64 + 1 * (y 0).val = 64 * t.val + (y 0).val; rw [e0]; omega
  · show win1_4.index t (1 : Fin 3) * 200 + 1 * (y 1).val = (y 1).val; rw [e1]; omega
  · show win1_4.index t (2 : Fin 3) * 128 + 1 * (y 2).val = (y 2).val; rw [e2]; omega

/-- An index of the result array is in point `t`'s block iff each coordinate is in the block's range on its axis. -/
theorem mem_blk (t : Fin cfg1.N) (i : S1024x200x128.Idx) :
    i ∈ ((cfg1.win 4).blk t).view.set ↔ ∀ a : Fin 3, win1_4.index t a * S64x200x128.size a ≤ (i a).val ∧ (i a).val < win1_4.index t a * S64x200x128.size a + S64x200x128.size a := by
  show i ∈ ((View.whole main_v6).slice (win1_4.rect t)).set ↔ _
  rw [View.set_slice_whole, Rect.mem_set_unit]
  exact Iff.rfl

/-- Every index of the result array is in the block of the point its batch row names. -/
theorem cover (i : S1024x200x128.Idx) : ∃ t : Fin cfg1.N, (cfg1.win 4).flush t = true ∧ i ∈ ((cfg1.win 4).blk t).view.set := by
  have hi0 : (i 0).val < 1024 := (i 0).isLt
  have hi1 : (i 1).val < 200 := (i 1).isLt
  have hi2 : (i 2).val < 128 := (i 2).isLt
  let t : Fin cfg1.N := ⟨(i 0).val / 64, by rw [show cfg1.N = 16 from N_1]; omega⟩
  obtain ⟨-, -, -, -, ⟨e0, e1, e2⟩⟩ := idx_facts t
  have ht : t.val = (i 0).val / 64 := rfl
  refine ⟨t, flush1_4 t, ?_⟩
  rw [mem_blk]
  intro a
  match a with
  | ⟨0, _⟩ => show win1_4.index t (0 : Fin 3) * 64 ≤ (i 0).val ∧ (i 0).val < win1_4.index t (0 : Fin 3) * 64 + 64; rw [e0, ht]; omega
  | ⟨1, _⟩ => show win1_4.index t (1 : Fin 3) * 200 ≤ (i 1).val ∧ (i 1).val < win1_4.index t (1 : Fin 3) * 200 + 200; rw [e1]; omega
  | ⟨2, _⟩ => show win1_4.index t (2 : Fin 3) * 128 ≤ (i 2).val ∧ (i 2).val < win1_4.index t (2 : Fin 3) * 128 + 128; rw [e2]; omega

/-- THE RESULT ARRAY after the region is `Out` of the operand arrays. -/
theorem final4 (c : Dev nD) : (dats (Name := Name) (U := U) V B 0 c).arrAt 4 cfg1.N = OutV V c :=
  (dats (Name := Name) (U := U) V B 0 c).arrAt_eq_of_cover 4 (OutV V c) (fun t _ => flushed_eq V B c t) cover

/-- The thread state the region leaves, the result array named. -/
def Post (c : Dev nD) : sProp 𝕄 :=
  iprop((((c : Thread nD τ).loc main_v2) ↦{fullShare} V c main_v2) ∗ (((c : Thread nD τ).loc main_v3) ↦{fullShare} V c main_v3)
    ∗ (((c : Thread nD τ).loc main_v4) ↦{fullShare} V c main_v4) ∗ (((c : Thread nD τ).loc main_v5) ↦{fullShare} V c main_v5)
    ∗ (((c : Thread nD τ).loc main_v6) ↦{fullShare} OutV V c)
    ∗ Pipeline.owesWithin c 0 (B c ∪ cfg1.waitPairs none))

theorem PostAt_eq (c : Dev nD) : PostAt (Name := Name) (U := U) V B c = Post V B c := by
  unfold PostAt Post
  rw [final4]

/-- THE REGION'S RUN on the TensorCore of `c`, inside the SparseCore program's body table: from the region boundary
    (the staging buffers at any contents, the staging semaphores at zero, the idle operation slot), the four operand
    arrays and the result array whole at `V`, the core owing nothing, the level facts and the pipeline's launch ghost
    state, the call of the pipeline's entry runs to the boundary again, the operands unchanged and the result array at
    `Out` of the operands. -/
theorem region_run [Infinite Name] (EP : Emb (URounds (GSem nD τ sig) Unit) (MT nD τ sig (HIx 1) (Elt F) Name U ℕ)) [EP.LandsIn (upEmb : UEmb _ 𝕄)] (c : Dev nD) :
    iprop(boundary (c : Thread nD τ) ∗ Pre V B c ∗ levAts L lv ∗ Gd EP c)
      ⊢ wp frame (wpE (sc.defs (Pipeline.defs pcfgs defs₀)) (Variants.lift 𝒱₀) (c : Thread nD τ) none) Set.univ
          (Prog.lift (.customCall (SparseCore.inner (Pipeline.entry 0)) ()))
          (fun _ => iprop(boundary (c : Thread nD τ) ∗ Post V B c)) := by
  have h := region_at V B 𝒱₀ L lv EP c
  rw [PostAt_eq] at h
  exact h

end Cert.KernelIdeal.Region

end
-- ==== Proof.Launch.lean ====
/-
  The gather kernel's call as the launch theorem sees it: the program's configuration and ghost algebra, the three HBM
  arrays the call works on, how they are dealt to the 32 tiles and gathered again.

  Tile `(c, s)` (SparseCore `c`, vector subcore `s`) has number `w = 2 s + c`. It is handed row `w` of the
  32 x 50 x 128 index array (read only), a read share of the whole table, and rows `6400 w … 6400 w + 6399` of the
  204800 x 128 output. It hands them back with the output rows holding the gathered function `Gath`.
-/
import proofs.«206768_g17686675325131_cont_8to1_990_33_alg».proof.Defs
import proofs.«206768_g17686675325131_cont_8to1_990_33_alg».proof.Proof.Gen.KernelIdeal
import proofs.«206768_g17686675325131_cont_8to1_990_33_alg».proof.Proof.GatherSpec
import proofs.«206768_g17686675325131_cont_8to1_990_33_alg».proof.Proof.TileBody
import proofs.«206768_g17686675325131_cont_8to1_990_33_alg».proof.Proof.Region
import proofs.«206768_g17686675325131_cont_8to1_990_33_alg».proof.Proof.Gen.KernelIdeal.Launch
import proofs.«206768_g17686675325131_cont_8to1_990_33_alg».proof.Proof.Gen.KernelIdeal.Points
import proofs.«206768_g17686675325131_cont_8to1_990_33_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.KernelIdeal.Launch

open Cert.KernelIdeal Cert.KernelIdeal.Gen Cert.KernelIdeal.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_sdiff_result wp_hlo_within)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipeline's staging cells' rounds: the middle component. -/
abbrev EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by unfold EP; infer_instance

/-! ## The call's three arrays -/

abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

local notation "iV" => (Memref.whole Cert.KernelIdeal.main_v0_scv : Memref Cert.KernelIdeal.sig Kind.scVector Space.hbm Cert.KernelIdeal.S32x50x128 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S204800x128 EltTy.f32)

theorem idiv : 32 ∣ S32x50x128.size 0 := ⟨1, rfl⟩
theorem odiv : 32 ∣ S204800x128.size 0 := ⟨6400, rfl⟩
/-- Row `w` of the index array; rows `6400 w …` of the output. -/
abbrev irow (w : Fin 32) : Rect S32x50x128 := Rect.part (s := S32x50x128) (a₀ := 0) idiv w
abbrev orow (w : Fin 32) : Rect S204800x128 := Rect.part (s := S204800x128) (a₀ := 0) odiv w
abbrev iRowSet (w : Fin 32) : Finset S32x50x128.Idx := ((iV).view.slice (irow w)).set
abbrev oRowSet (w : Fin 32) : Finset S204800x128.Idx := ((oV).view.slice (orow w)).set

/-- The number of tile `(c, s)`. -/
def wid (c : Fin 2) (s : Fin 16) : Fin 32 := ⟨s.val * 2 + c.val, by omega⟩

/-- Tile number `w`'s read share of the table. -/
abbrev xq (w : Fin 32) : PosShare TreeShare := Transfers.shareTok fullShare 32 w

variable [FloatOps F]

/-! ## What the handshakes carry -/

variable (m : (ℓ : Loc nD τ sig) → Buf (Elt F) ℓ) (ρ : Dev nD → PrngReg)
-- the index array's contents at the call (the host reshape of the first argument)
variable (fI : (d : Dev nD) → Buf (Elt F) (iLoc d))

/-- The gathered array on device `d`. -/
abbrev gath (d : Dev nD) : Buf (Elt F) (oLoc d) := Gath (F := F) (fI d) (m (xLoc d))

abbrev iRowPts (d : Dev nD) (w : Fin 32) : sProp 𝕄 := iLoc d ↦[iRowSet w]{fullShare} fI d
abbrev xShPts (d : Dev nD) (w : Fin 32) : sProp 𝕄 := xLoc d ↦{xq w} m (xLoc d)
abbrev oRowPts (d : Dev nD) (w : Fin 32) (f : Buf (Elt F) (oLoc d)) : sProp 𝕄 := oLoc d ↦[oRowSet w]{fullShare} f

/-- What a tile is handed, and what it hands back. -/
abbrev tilePre (d : Dev nD) (w : Fin 32) : sProp 𝕄 := iprop(iRowPts fI d w ∗ xShPts m d w ∗ oRowPts d w (m (oLoc d)))
abbrev tilePost (d : Dev nD) (w : Fin 32) : sProp 𝕄 := iprop(iRowPts fI d w ∗ xShPts m d w ∗ oRowPts d w (gath m fI d))

/-- The one call: SparseCore `c` takes its sixteen tiles' parts; each tile its own. -/
def P : (K (F := F)).Pay (nD := nD) (Val := Elt F) (Name := ℕ) (U := UU) where
  st := fun q d c => match q with | 0 => bigSep Finset.univ fun s : Fin 16 => tilePre m fI d (wid (Fin.cast nCore_zero c) s)
  dn := fun q d c => match q with | 0 => bigSep Finset.univ fun s : Fin 16 => tilePost m fI d (wid (Fin.cast nCore_zero c) s)
  go := fun q d c i => match q with | 0 => tilePre m fI d (wid (Fin.cast nCore_zero c) (Fin.cast nSub_zero i))
  td := fun q d c i => match q with | 0 => tilePost m fI d (wid (Fin.cast nCore_zero c) (Fin.cast nSub_zero i))
  x := fun _ _ => iprop(emp)

instance P_storable : (P (F := F) m fI).IsStorable where
  st q d c := match q with
    | 0 => (inferInstance : BI.Storable (upEmb : UEmb _ 𝕄) (bigSep Finset.univ fun s : Fin 16 => tilePre m fI d (wid (Fin.cast nCore_zero c) s)))
  dn q d c := match q with
    | 0 => (inferInstance : BI.Storable (upEmb : UEmb _ 𝕄) (bigSep Finset.univ fun s : Fin 16 => tilePost m fI d (wid (Fin.cast nCore_zero c) s)))
  go q d c i := match q with
    | 0 => (inferInstance : BI.Storable (upEmb : UEmb _ 𝕄) (tilePre m fI d (wid (Fin.cast nCore_zero c) (Fin.cast nSub_zero i))))
  td q d c i := match q with
    | 0 => (inferInstance : BI.Storable (upEmb : UEmb _ 𝕄) (tilePost m fI d (wid (Fin.cast nCore_zero c) (Fin.cast nSub_zero i))))

/-! ## A SparseCore's parts are its tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m fI) 0 := by
  intro d c
  show (bigSep Finset.univ fun s : Fin 16 => tilePre m fI d (wid (Fin.cast nCore_zero c) s)) ⊢ |={Set.univ}=> iprop(
      (bigSep Finset.univ fun i : Fin ((K (F := F)).nSub 0) => tilePre m fI d (wid (Fin.cast nCore_zero c) (Fin.cast nSub_zero i)))
      ∗ ((bigSep Finset.univ fun i : Fin ((K (F := F)).nSub 0) => tilePost m fI d (wid (Fin.cast nCore_zero c) (Fin.cast nSub_zero i)))
          -∗ bigSep Finset.univ fun s : Fin 16 => tilePost m fI d (wid (Fin.cast nCore_zero c) s)))
  rw [bigSep_tasks (F := F) (fun s => tilePre m fI d (wid (Fin.cast nCore_zero c) s)),
    bigSep_tasks (F := F) (fun s => tilePost m fI d (wid (Fin.cast nCore_zero c) s))]
  iintro H; imodintro
  isplitl [H]; · iexact H
  iintro H; iexact H

/-! ## The arrays in rows, the table in shares; the tiles numbered -/

omit [FloatOps F] in
theorem iRowSet_eq (w : Fin 32) : iRowSet w = (irow w).set := by
  show ((View.whole (main_v0_scv : Ref sig .scVector)).slice (irow w)).set = _
  rw [View.set_slice]; exact Finset.map_refl
omit [FloatOps F] in
theorem oRowSet_eq (w : Fin 32) : oRowSet w = (orow w).set := by
  show ((View.whole (main_v1_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-- Tiles `(c, s)` and numbers `2 s + c` are the same 32 things. -/
def widEquiv : Fin 2 × Fin 16 ≃ Fin 32 where
  toFun p := wid p.1 p.2
  invFun w := (⟨w.val % 2, Nat.mod_lt _ (by norm_num)⟩, ⟨w.val / 2, by have := w.isLt; omega⟩)
  left_inv p := by
    obtain ⟨c, s⟩ := p
    refine Prod.ext (Fin.ext ?_) (Fin.ext ?_)
    · show (s.val * 2 + c.val) % 2 = c.val; have := c.isLt; omega
    · show (s.val * 2 + c.val) / 2 = s.val; have := c.isLt; omega
  right_inv w := Fin.ext (by show (w.val / 2) * 2 + w.val % 2 = w.val; omega)

omit [FloatOps F] in
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

abbrev iPts (d : Dev nD) : sProp 𝕄 := iLoc d ↦{fullShare} fI d
abbrev oPts (d : Dev nD) (f : Buf (Elt F) (oLoc d)) : sProp 𝕄 := oLoc d ↦{fullShare} f
/-- The 32 tiles' shares of the table together. -/
abbrev xToks (d : Dev nD) : sProp 𝕄 := bigSep Finset.univ fun w : Fin 32 => xShPts m d w

theorem st0_eq (d : Dev nD) : (bigSep Finset.univ fun c : Fin ((K (F := F)).nCore 0) => (P m fI).st 0 d c)
    = iprop(iPts fI d ∗ xToks m d ∗ oPts d (m (oLoc d))) := by
  show (bigSep Finset.univ fun c : Fin ((K (F := F)).nCore 0) => bigSep Finset.univ fun s : Fin 16 => tilePre m fI d (wid (Fin.cast nCore_zero c) s)) = _
  rw [bigSep_cores (F := F) (fun c => bigSep Finset.univ fun s : Fin 16 => tilePre m fI d (wid c s)), ← bigSep_wid (F := F) (fun w => tilePre m fI d w),
    bigSep_sep', bigSep_sep']
  unfold iPts oPts xToks
  rw [iPts_rows, oPts_rows]
theorem dn0_eq (d : Dev nD) : (bigSep Finset.univ fun c : Fin ((K (F := F)).nCore 0) => (P m fI).dn 0 d c)
    = iprop(iPts fI d ∗ xToks m d ∗ oPts d (gath m fI d)) := by
  show (bigSep Finset.univ fun c : Fin ((K (F := F)).nCore 0) => bigSep Finset.univ fun s : Fin 16 => tilePost m fI d (wid (Fin.cast nCore_zero c) s)) = _
  rw [bigSep_cores (F := F) (fun c => bigSep Finset.univ fun s : Fin 16 => tilePost m fI d (wid c s)), ← bigSep_wid (F := F) (fun w => tilePost m fI d w),
    bigSep_sep', bigSep_sep']
  unfold iPts oPts xToks
  rw [iPts_rows, oPts_rows]

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

local notation "sV" => (Memref.whole Cert.KernelIdeal.cc0_scratch0 : Memref Cert.KernelIdeal.sig Kind.scVector Space.vmem Cert.KernelIdeal.S50x128 EltTy.i32)

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) iV (Memref.isWhole_whole _) oV (Memref.isWhole_whole _)
          sV (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _)
          cc0_scratch8 cc0_scratch9 cc0_scratch10 cc0_scratch11 cc0_scratch12 cc0_scratch13 cc0_scratch14
          cc0_scratch15 cc0_scratch16 cc0_scratch17 cc0_scratch18 cc0_scratch19 cc0_scratch20 cc0_scratch21 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : ∀ d j, (fI d j).toNat < 100000) : (K (F := F)).TileObl (D (F := F)) 𝒱 (P m fI) v₀ 0 := by
  intro d c i O W hO _ _
  simp only [show (P m fI).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (Cert.KernelIdeal.TileBody.tile_body d (coordsV ⟨_, hci.1⟩ ⟨_, hci.2⟩) hF O W hO _ (fI d) (m (xLoc d)) (m (oLoc d)) (hI d)).trans (wp_mono frame _ _ fun _ => obl_post)

/-! ## The region's names over this certificate's algebra -/

/-- The pipeline's staging cells' ghost state on device `d`. -/
abbrev Gd (d : Dev nD) : sProp 𝕄 := Cert.KernelIdeal.Region.Gd (EP (F := F)) d
/-- The region's result array as one function of its four operand arrays. -/
abbrev Out (x2 : (⟨S1024x200x128, .f32⟩ : BufTy).Contents (Elt F)) (x3 : (⟨S200x128, .f32⟩ : BufTy).Contents (Elt F))
    (x4 x5 : (⟨S1x128, .f32⟩ : BufTy).Contents (Elt F)) : (⟨S1024x200x128, .f32⟩ : BufTy).Contents (Elt F) :=
  Cert.KernelIdeal.Region.Out (F := F) x2 x3 x4 x5
abbrev u₀P : UP := Cert.KernelIdeal.Region.u₀P
theorem fund : BI.own (EP (F := F) u₀P) ⊢ iprop(|==> bigSep Finset.univ fun d : Dev nD => Gd (F := F) d) :=
  Cert.KernelIdeal.Region.fund (EP (F := F))

/-! ## The launch element of the ghost state -/

def u₀ : UU := (initOf (K (F := F)).hsCells (K (F := F)).hsToks, ((u₀P : UP), (1 : Counters)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m fI).x q thr) := by
  unfold u₀
  iintro Hu
  ihave H := (ownU_pair (initOf (K (F := F)).hsCells (K (F := F)).hsToks) ((u₀P : UP), (1 : Counters))) $$ Hu
  icases H with ⟨HH, HR⟩
  ihave H2 := (own_pair_emb (embR : Emb (UP × Counters) 𝕄) (u₀P : UP) (1 : Counters)) $$ HR
  icases H2 with ⟨HP, -⟩
  imod (fund (F := F)) $$ HP with HG
  imodintro
  isplitl [HH]; · iexact HH
  isplitl [HG]; · iexact HG
  rw [show (bigSep Finset.univ fun thr : Thread nD τ => bigSep Finset.univ fun q : Fin 1 => (P (F := F) m fI).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

/-- The five host operations of @main. -/
abbrev op0 : HloOp τ sig (Elt F) := StableHlo.reshape main_arg0 main_v0 rfl Gen.shapeCasts_S1024x200_S32x50x128
abbrev op2 : HloOp τ sig (Elt F) := StableHlo.reshape main_v1 main_v2 rfl Gen.shapeCasts_S204800x128_S1024x200x128
abbrev op3 : HloOp τ sig (Elt F) := StableHlo.unary main_arg2 main_v3
  ((extractStridedSlice S200x128 ![0, 0] · Gen.slices_S512x128_S200x128_0_0) : (⟨S512x128, .f32⟩ : BufTy).Contents (Elt F) → (⟨S200x128, .f32⟩ : BufTy).Contents (Elt F))
abbrev op4 : HloOp τ sig (Elt F) := StableHlo.reshape main_arg3 main_v4 rfl Gen.shapeCasts_S128_S1x128
abbrev op5 : HloOp τ sig (Elt F) := StableHlo.reshape main_arg4 main_v5 rfl Gen.shapeCasts_S128_S1x128

/-- The TensorCore's twelve HBM arrays. -/
abbrev S12 : Finset (DevRef τ sig) := {a0', a1', a2', a3', a4', v0', v1', v2', v3', v4', v5', v6'}
/-- The call's three. -/
abbrev T3 : Finset (DevRef τ sig) := {v0', a1', v1'}
/-- The region's five. -/
abbrev T5 : Finset (DevRef τ sig) := {v2', v3', v4', v5', v6'}

abbrev pt (d : Dev nD) (W : Valuation τ sig (Elt F)) (b : DevRef τ sig) : sProp 𝕄 := ((d, b) : Loc nD τ sig) ↦{fullShare} W b

omit [FloatOps F] in
theorem held_S12 (d : Dev nD) (W : Valuation τ sig (Elt F)) :
    (held (T d) S12 W : sProp 𝕄) = iprop(pt d W a0' ∗ pt d W a1' ∗ pt d W a2' ∗ pt d W a3' ∗ pt d W a4' ∗ pt d W v0' ∗ pt d W v1'
      ∗ pt d W v2' ∗ pt d W v3' ∗ pt d W v4' ∗ pt d W v5' ∗ pt d W v6') := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1)
          ∗ ((SparseCore.T d).loc main_arg2 ↦{fullShare} W main_arg2) ∗ ((SparseCore.T d).loc main_arg3 ↦{fullShare} W main_arg3)
          ∗ ((SparseCore.T d).loc main_arg4 ↦{fullShare} W main_arg4) ∗ ((SparseCore.T d).loc main_v0 ↦{fullShare} W main_v0)
          ∗ ((SparseCore.T d).loc main_v1 ↦{fullShare} W main_v1) ∗ ((SparseCore.T d).loc main_v2 ↦{fullShare} W main_v2)
          ∗ ((SparseCore.T d).loc main_v3 ↦{fullShare} W main_v3) ∗ ((SparseCore.T d).loc main_v4 ↦{fullShare} W main_v4)
          ∗ ((SparseCore.T d).loc main_v5 ↦{fullShare} W main_v5) ∗ ((SparseCore.T d).loc main_v6 ↦{fullShare} W main_v6)) := by
  unfold unscopedBufs
  rw [show (Finset.univ.filter fun b : Ref sig .tc => ¬ b.isScoped)
      = {main_arg0, main_arg1, main_arg2, main_arg3, main_arg4, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S12 (V0 m d) := by
  rw [unscopedBufs_eq, held_S12]; rfl

/-! ### The valuations along @main -/

-- the index array at the call: the host reshape of the first argument
abbrev fIof (d : Dev nD) : Buf (Elt F) (iLoc d) :=
  fun i => shapeCast S32x50x128 (m ((SparseCore.T d).loc main_arg0)) Gen.shapeCasts_S1024x200_S32x50x128 i

/-- Before the call, after the call (the output at the gathered function), before the region. -/
def V1 (d : Dev nD) : Valuation τ sig (Elt F) := (op0 (F := F)).result (V0 m d)
def V2 (d : Dev nD) : Valuation τ sig (Elt F) := Function.update (V1 m d) v1' (gath m (fIof m) d)
def V3 (d : Dev nD) : Valuation τ sig (Elt F) :=
  (op5 (F := F)).result ((op4 (F := F)).result ((op3 (F := F)).result ((op2 (F := F)).result (V2 m d))))

theorem V1_v0 (d : Dev nD) : V1 m d v0' = fIof m d := by
  unfold V1 op0; exact StableHlo.reshape_result' _ _ _ _ _
theorem V1_of_ne (d : Dev nD) {r : Ref sig .tc} (h : r ≠ main_v0) : V1 m d (Proc.devRef .tc r) = m (d, Proc.devRef .tc r) := by
  unfold V1 op0; exact StableHlo.reshape_result_ne' _ _ _ _ _ h
theorem V2_v1 (d : Dev nD) : V2 m d v1' = gath m (fIof m) d := Function.update_self _ _ _
theorem V2_of_ne (d : Dev nD) {b : DevRef τ sig} (h : b ≠ v1') : V2 m d b = V1 m d b := Function.update_of_ne h _ _
theorem V3_of_ne (d : Dev nD) {r : Ref sig .tc} (h2 : r ≠ main_v2) (h3 : r ≠ main_v3) (h4 : r ≠ main_v4) (h5 : r ≠ main_v5) :
    V3 m d (Proc.devRef .tc r) = V2 m d (Proc.devRef .tc r) := by
  unfold V3 op5 op4 op3 op2
  rw [StableHlo.reshape_result_ne' _ _ _ _ _ h5, StableHlo.reshape_result_ne' _ _ _ _ _ h4, StableHlo.unary_result_ne' _ _ _ _ h3,
    StableHlo.reshape_result_ne' _ _ _ _ _ h2]
/-- An argument array is at its launch contents throughout. -/
theorem V3_arg (d : Dev nD) {r : Ref sig .tc} (h0 : r ≠ main_v0) (h1 : r ≠ main_v1) (h2 : r ≠ main_v2) (h3 : r ≠ main_v3) (h4 : r ≠ main_v4)
    (h5 : r ≠ main_v5) : V3 m d (Proc.devRef .tc r) = m (d, Proc.devRef .tc r) := by
  rw [V3_of_ne m d h2 h3 h4 h5, V2_of_ne m d (StableHlo.devRef_ne_of_ne h1), V1_of_ne m d h0]

/-- What the region's four operands hold. -/
abbrev X2 (d : Dev nD) : (⟨S1024x200x128, .f32⟩ : BufTy).Contents (Elt F) :=
  fun i => shapeCast S1024x200x128 (gath m (fIof m) d) Gen.shapeCasts_S204800x128_S1024x200x128 i
abbrev X3 (d : Dev nD) : (⟨S200x128, .f32⟩ : BufTy).Contents (Elt F) :=
  extractStridedSlice S200x128 ![0, 0] (m ((SparseCore.T d).loc main_arg2)) Gen.slices_S512x128_S200x128_0_0
abbrev X4 (d : Dev nD) : (⟨S1x128, .f32⟩ : BufTy).Contents (Elt F) :=
  fun i => shapeCast S1x128 (m ((SparseCore.T d).loc main_arg3)) Gen.shapeCasts_S128_S1x128 i
abbrev X5 (d : Dev nD) : (⟨S1x128, .f32⟩ : BufTy).Contents (Elt F) :=
  fun i => shapeCast S1x128 (m ((SparseCore.T d).loc main_arg4)) Gen.shapeCasts_S128_S1x128 i

theorem V3_v2 (d : Dev nD) : V3 m d v2' = X2 m d := by
  unfold V3 op5 op4 op3 op2
  rw [StableHlo.reshape_result_ne' _ _ _ _ _ (show main_v2 ≠ main_v5 by decide), StableHlo.reshape_result_ne' _ _ _ _ _ (show main_v2 ≠ main_v4 by decide),
    StableHlo.unary_result_ne' _ _ _ _ (show main_v2 ≠ main_v3 by decide), StableHlo.reshape_result' _ _ _ _ _, V2_v1]
  rfl
theorem V3_v3 (d : Dev nD) : V3 m d v3' = X3 m d := by
  unfold V3 op5 op4 op3
  rw [StableHlo.reshape_result_ne' _ _ _ _ _ (show main_v3 ≠ main_v5 by decide), StableHlo.reshape_result_ne' _ _ _ _ _ (show main_v3 ≠ main_v4 by decide),
    StableHlo.unary_result' _ _ _ _]
  unfold op2
  rw [StableHlo.reshape_result_ne' _ _ _ _ _ (show main_arg2 ≠ main_v2 by decide), V2_of_ne m d (by decide), V1_of_ne m d (by decide)]
theorem V3_v4 (d : Dev nD) : V3 m d v4' = X4 m d := by
  unfold V3 op5 op4
  rw [StableHlo.reshape_result_ne' _ _ _ _ _ (show main_v4 ≠ main_v5 by decide), StableHlo.reshape_result' _ _ _ _ _]
  unfold op3 op2
  rw [StableHlo.unary_result_ne' _ _ _ _ (show main_arg3 ≠ main_v3 by decide), StableHlo.reshape_result_ne' _ _ _ _ _ (show main_arg3 ≠ main_v2 by decide),
    V2_of_ne m d (by decide), V1_of_ne m d (by decide)]
  rfl
theorem V3_v5 (d : Dev nD) : V3 m d v5' = X5 m d := by
  unfold V3 op5
  rw [StableHlo.reshape_result' _ _ _ _ _]
  unfold op4 op3 op2
  rw [StableHlo.reshape_result_ne' _ _ _ _ _ (show main_arg4 ≠ main_v4 by decide), StableHlo.unary_result_ne' _ _ _ _ (show main_arg4 ≠ main_v3 by decide),
    StableHlo.reshape_result_ne' _ _ _ _ _ (show main_arg4 ≠ main_v2 by decide), V2_of_ne m d (by decide), V1_of_ne m d (by decide)]
  rfl

/-- The program's result array on device `d`. -/
abbrev OutV (d : Dev nD) : (⟨S1024x200x128, .f32⟩ : BufTy).Contents (Elt F) := Out (F := F) (X2 m d) (X3 m d) (X4 m d) (X5 m d)

/-! ### The arrays' contents at each stage, spelt out -/

abbrev S7 : Finset (DevRef τ sig) := {a0', a1', a2', a3', a4', v0', v1'}

omit [FloatOps F] in
theorem held_T5 (d : Dev nD) (W : Valuation τ sig (Elt F)) :
    (held (T d) T5 W : sProp 𝕄) = iprop(pt d W v2' ∗ pt d W v3' ∗ pt d W v4' ∗ pt d W v5' ∗ pt d W v6') := by
  unfold held T5
  rw [SparseCore.bigSep_insert' (by decide), SparseCore.bigSep_insert' (by decide), SparseCore.bigSep_insert' (by decide),
    SparseCore.bigSep_insert' (by decide), bigSep_singleton]
omit [FloatOps F] in
theorem held_S7 (d : Dev nD) (W : Valuation τ sig (Elt F)) :
    (held (T d) S7 W : sProp 𝕄) = iprop(pt d W a0' ∗ pt d W a1' ∗ pt d W a2' ∗ pt d W a3' ∗ pt d W a4' ∗ pt d W v0' ∗ pt d W v1') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev mpt (d : Dev nD) (b : DevRef τ sig) : sProp 𝕄 := ((d, b) : Loc nD τ sig) ↦{fullShare} m (d, b)

/-- After the first reshape: everything at its launch contents but the index array. -/
theorem held_V1 (d : Dev nD) :
    (held (T d) S12 ((op0 (F := F)).result (V0 m d)) : sProp 𝕄)
      = iprop(mpt m d a0' ∗ mpt m d a1' ∗ mpt m d a2' ∗ mpt m d a3' ∗ mpt m d a4' ∗ iPts (fIof m) d ∗ oPts d (m (oLoc d))
          ∗ mpt m d v2' ∗ mpt m d v3' ∗ mpt m d v4' ∗ mpt m d v5' ∗ mpt m d v6') := by
  show held (T d) S12 (V1 m d) = _
  rw [held_S12]; unfold pt
  rw [V1_v0, V1_of_ne m d (r := main_arg0) (by decide), V1_of_ne m d (r := main_arg1) (by decide), V1_of_ne m d (r := main_arg2) (by decide),
    V1_of_ne m d (r := main_arg3) (by decide), V1_of_ne m d (r := main_arg4) (by decide), V1_of_ne m d (r := main_v1) (by decide),
    V1_of_ne m d (r := main_v2) (by decide), V1_of_ne m d (r := main_v3) (by decide), V1_of_ne m d (r := main_v4) (by decide),
    V1_of_ne m d (r := main_v5) (by decide), V1_of_ne m d (r := main_v6) (by decide)]

/-- After the call: the output at the gathered function. -/
theorem held_V2 (d : Dev nD) :
    (held (T d) S12 (V2 m d) : sProp 𝕄)
      = iprop(mpt m d a0' ∗ mpt m d a1' ∗ mpt m d a2' ∗ mpt m d a3' ∗ mpt m d a4' ∗ iPts (fIof m) d ∗ oPts d (gath m (fIof m) d)
          ∗ mpt m d v2' ∗ mpt m d v3' ∗ mpt m d v4' ∗ mpt m d v5' ∗ mpt m d v6') := by
  rw [held_S12]; unfold pt
  rw [V2_v1, V2_of_ne m d (b := a0') (by decide), V2_of_ne m d (b := a1') (by decide), V2_of_ne m d (b := a2') (by decide),
    V2_of_ne m d (b := a3') (by decide), V2_of_ne m d (b := a4') (by decide), V2_of_ne m d (b := v0') (by decide),
    V2_of_ne m d (b := v2') (by decide), V2_of_ne m d (b := v3') (by decide), V2_of_ne m d (b := v4') (by decide),
    V2_of_ne m d (b := v5') (by decide), V2_of_ne m d (b := v6') (by decide),
    V1_v0, V1_of_ne m d (r := main_arg0) (by decide), V1_of_ne m d (r := main_arg1) (by decide), V1_of_ne m d (r := main_arg2) (by decide),
    V1_of_ne m d (r := main_arg3) (by decide), V1_of_ne m d (r := main_arg4) (by decide),
    V1_of_ne m d (r := main_v2) (by decide), V1_of_ne m d (r := main_v3) (by decide), V1_of_ne m d (r := main_v4) (by decide),
    V1_of_ne m d (r := main_v5) (by decide), V1_of_ne m d (r := main_v6) (by decide)]

/-- The arrays the region does not touch, at the end: the arguments at their launch contents. -/
theorem held_S7_V3 (d : Dev nD) :
    (held (T d) S7 (V3 m d) : sProp 𝕄)
      = iprop(mpt m d a0' ∗ mpt m d a1' ∗ mpt m d a2' ∗ mpt m d a3' ∗ mpt m d a4' ∗ pt d (V3 m d) v0' ∗ pt d (V3 m d) v1') := by
  rw [held_S7]; unfold pt
  rw [V3_arg m d (r := main_arg0) (by decide) (by decide) (by decide) (by decide) (by decide) (by decide),
    V3_arg m d (r := main_arg1) (by decide) (by decide) (by decide) (by decide) (by decide) (by decide),
    V3_arg m d (r := main_arg2) (by decide) (by decide) (by decide) (by decide) (by decide) (by decide),
    V3_arg m d (r := main_arg3) (by decide) (by decide) (by decide) (by decide) (by decide) (by decide),
    V3_arg m d (r := main_arg4) (by decide) (by decide) (by decide) (by decide) (by decide) (by decide)]

/-- The table's full share is the 32 tiles' shares and a remainder. -/
theorem xPts_split (d : Dev nD) :
    (mpt m d a1' : sProp 𝕄) ⊣⊢ iprop((xLoc d ↦{Transfers.shareDrop fullShare 32} m (xLoc d)) ∗ xToks m d) :=
  Transfers.pointsTo_toks (ℓ := xLoc d) (S := Finset.univ) (f := m (xLoc d)) fullShare 32

/-! ### @main -/

theorem h0S : (op0 (F := F)).bufs ⊆ S12 := show ({a0', v0'} : Finset (DevRef τ sig)) ⊆ S12 by decide
theorem h2S : (op2 (F := F)).bufs ⊆ S12 := show ({v1', v2'} : Finset (DevRef τ sig)) ⊆ S12 by decide
theorem h3S : (op3 (F := F)).bufs ⊆ S12 := show ({a2', v3'} : Finset (DevRef τ sig)) ⊆ S12 by decide
theorem h4S : (op4 (F := F)).bufs ⊆ S12 := show ({a3', v4'} : Finset (DevRef τ sig)) ⊆ S12 by decide
theorem h5S : (op5 (F := F)).bufs ⊆ S12 := show ({a4', v5'} : Finset (DevRef τ sig)) ⊆ S12 by decide

/-- What @main leaves the claim: the five arguments at their launch contents, the result at `OutV`. -/
abbrev FIN (d : Dev nD) : sProp 𝕄 :=
  iprop(mpt m d a0' ∗ mpt m d a1' ∗ mpt m d a2' ∗ mpt m d a3' ∗ mpt m d a4' ∗ (((d, v6') : Loc nD τ sig) ↦{fullShare} OutV m d))

/-- The region, from the TensorCore's state after the call: its recorded waits stay below the bound, the result array
    ends at `OutV`. -/
theorem region_step (κ : GSem nD τ sig → ℕ) (d : Dev nD) :
    iprop((K (F := F)).ctx EH (P m (fIof m)) κ ∗ (K (F := F)).tcSt EH d 1 ∗ boundary (T d) ∗ (held (T d) S12 (V3 m d) : sProp 𝕄) ∗ Gd (F := F) d)
      ⊢ wp frame (wpE ((K (F := F)).defs (D (F := F))) 𝒱 (SparseCore.T d) none) Set.univ
          (Prog.lift (.customCall (SparseCore.inner (Pipeline.entry 0)) ()))
          fun _ => iprop((K (F := F)).tcSt EH d 1 ∗ FIN m d) := by
  unfold SparseCore.Cfg.tcSt
  rw [(K (F := F)).Otc_end d (le_refl 1), held_sub_split (T d) (show T5 ⊆ S12 by decide) (V3 m d),
    show (S12 \ T5 : Finset (DevRef τ sig)) = S7 by decide, held_T5, held_S7_V3]
  have hPre : iprop(pt d (V3 m d) v2' ∗ pt d (V3 m d) v3' ∗ pt d (V3 m d) v4' ∗ pt d (V3 m d) v5' ∗ pt d (V3 m d) v6'
        ∗ Pipeline.owesWithin d 0 {p : SemLoc sig × HIx 1 | (K (F := F)).lev (T d, p.1) p.2 ≤ 8})
      ⊢ (Cert.KernelIdeal.Region.Pre (fun c b => V3 m c (Proc.devRef .tc b)) (fun c => {p : SemLoc sig × HIx 1 | (K (F := F)).lev (T c, p.1) p.2 ≤ 8}) d : sProp 𝕄) :=
    Entails.of_eq rfl
  have hPost : (Cert.KernelIdeal.Region.Post (fun c b => V3 m c (Proc.devRef .tc b)) (fun c => {p : SemLoc sig × HIx 1 | (K (F := F)).lev (T c, p.1) p.2 ≤ 8}) d : sProp 𝕄)
      ⊢ iprop(pt d (V3 m d) v2' ∗ pt d (V3 m d) v3' ∗ pt d (V3 m d) v4' ∗ pt d (V3 m d) v5'
        ∗ (((d, v6') : Loc nD τ sig) ↦{fullShare} Out (F := F) (V3 m d v2') (V3 m d v3') (V3 m d v4') (V3 m d v5'))
        ∗ Pipeline.owesWithin d 0 ({p : SemLoc sig × HIx 1 | (K (F := F)).lev (T d, p.1) p.2 ≤ 8} ∪ cfg1.waitPairs none)) :=
    Entails.of_eq rfl
  iintro ⟨#Hctx, ⟨⟨%W, %hW, HO⟩, Hrest⟩, Hb, ⟨⟨H2, H3, H4, H5, H6⟩, ⟨Ha0, Ha1, Ha2, Ha3, Ha4, -, -⟩⟩, HG⟩
  ihave Hlev := ((K (F := F)).ctx_levAts κ) $$ Hctx
  iapply (wp_wand frame _ _) $$ [Hb H2 H3 H4 H5 H6 HO HG Hlev]
  · iapply (Cert.KernelIdeal.Region.region_run (F := F) (fun c b => V3 m c (Proc.devRef .tc b))
      (fun c => {p : SemLoc sig × HIx 1 | (K (F := F)).lev (T c, p.1) p.2 ≤ 8}) 𝒱₀ (K (F := F)).L (K (F := F)).lev (EP (F := F)) d)
    isplitl [Hb]; · iexact Hb
    isplitl [H2 H3 H4 H5 H6 HO]
    · iapply hPre
      isplitl [H2]; · iexact H2
      isplitl [H3]; · iexact H3
      isplitl [H4]; · iexact H4
      isplitl [H5]; · iexact H5
      isplitl [H6]; · iexact H6
      iexists W; isplitr
      · ipureintro; exact fun p hp => hW p hp
      · iexact HO
    isplitl [Hlev]; · iexact Hlev
    iexact HG
  iintro %_ ⟨-, Hpost⟩
  ihave Hp := hPost $$ Hpost
  icases Hp with ⟨-, -, -, -, H6, ⟨%W', %hW', HO⟩⟩
  isplitl [HO Hrest]
  · isplitl [HO]
    · iexists W'; isplitr
      · ipureintro; intro p hp
        rcases hW' hp with h | ⟨w, s, rfl⟩
        · exact h
        · show (K (F := F)).lev _ none ≤ 8; rw [SparseCore.Cfg.lev_none]; exact Nat.zero_le _
      · iexact HO
    · iexact Hrest
  isplitl [Ha0]; · iexact Ha0
  isplitl [Ha1]; · iexact Ha1
  isplitl [Ha2]; · iexact Ha2
  isplitl [Ha3]; · iexact Ha3
  isplitl [Ha4]; · iexact Ha4
  iapply (Entails.of_eq (show ((((d, v6') : Loc nD τ sig) ↦{fullShare} Out (F := F) (V3 m d v2') (V3 m d v3') (V3 m d v4') (V3 m d v5')) : sProp 𝕄)
      = (((d, v6') : Loc nD τ sig) ↦{fullShare} OutV m d) by rw [V3_v2, V3_v3, V3_v4, V3_v5]))
  iexact H6

/-- @main on device `d`'s TensorCore: the index array's reshape, the call, the four host operations, the region. -/
theorem hmain (κ : GSem nD τ sig → ℕ) (d : Dev nD) :
    iprop((K (F := F)).ctx EH (P m (fIof m)) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the index array's reshape
  iapply (wp_hlo_within 𝒱 (SparseCore.T d) none Set.univ (op := op0) (S := S12) h0S (V := V0 m d)) $$ [Hb Hheld]
  · isplitl [Hb] <;> iassumption
  iintro ⟨Hb, Hheld⟩
  rw [wp_ret]; imodintro
  -- the call: the index array, the table in 32 shares, the output, to the two SparseCores and back
  ihave Hh := (Entails.of_eq (held_V1 (F := F) m d)) $$ Hheld
  icases Hh with ⟨Ha0, Ha1, Ha2, Ha3, Ha4, Hi, Ho, H2, H3, H4, H5, H6⟩
  ihave Hx := (xPts_split (F := F) m d).1 $$ Ha1
  icases Hx with ⟨Hxr, Hxt⟩
  iapply ((K (F := F)).wp_run (D (F := F)) 𝒱 (EH := EH) (P := P m (fIof m)) κ d 0) $$ [Hst Hi Hxt Ho Hb Ha0 Ha2 Ha3 Ha4 Hxr H2 H3 H4 H5 H6 HG]
  isplitr; · iexact Hctx
  isplitl [Hst]; · iexact Hst
  isplitl [Hi Hxt Ho]
  · rw [st0_eq]
    isplitl [Hi]; · iexact Hi
    isplitl [Hxt]; · iexact Hxt
    iexact Ho
  iintro ⟨Hst, Hdn⟩
  ihave Hdn' := (Entails.of_eq (dn0_eq m (fIof m) d)) $$ Hdn
  icases Hdn' with ⟨Hi, Hxt, Ho⟩
  ihave Ha1 := (xPts_split (F := F) m d).2 $$ [Hxr Hxt]
  · isplitl [Hxr] <;> iassumption
  ihave Hheld := (Entails.of_eq (held_V2 (F := F) m d).symm) $$ [Ha0 Ha1 Ha2 Ha3 Ha4 Hi Ho H2 H3 H4 H5 H6]
  · isplitl [Ha0]; · iexact Ha0
    isplitl [Ha1]; · iexact Ha1
    isplitl [Ha2]; · iexact Ha2
    isplitl [Ha3]; · iexact Ha3
    isplitl [Ha4]; · iexact Ha4
    isplitl [Hi]; · iexact Hi
    isplitl [Ho]; · iexact Ho
    isplitl [H2]; · iexact H2
    isplitl [H3]; · iexact H3
    isplitl [H4]; · iexact H4
    isplitl [H5]; · iexact H5
    iexact H6
  -- the four host operations before the region
  iapply (wp_hlo_within 𝒱 (SparseCore.T d) none Set.univ (op := op2) (S := S12) h2S (V := V2 m d)) $$ [Hb Hheld]
  · isplitl [Hb] <;> iassumption
  iintro ⟨Hb, Hheld⟩
  rw [wp_ret]; imodintro
  iapply (wp_hlo_within 𝒱 (SparseCore.T d) none Set.univ (op := op3) (S := S12) h3S (V := (op2 (F := F)).result (V2 m d))) $$ [Hb Hheld]
  · isplitl [Hb] <;> iassumption
  iintro ⟨Hb, Hheld⟩
  rw [wp_ret]; imodintro
  iapply (wp_hlo_within 𝒱 (SparseCore.T d) none Set.univ (op := op4) (S := S12) h4S (V := (op3 (F := F)).result ((op2 (F := F)).result (V2 m d)))) $$ [Hb Hheld]
  · isplitl [Hb] <;> iassumption
  iintro ⟨Hb, Hheld⟩
  rw [wp_ret]; imodintro
  iapply (wp_hlo_within 𝒱 (SparseCore.T d) none Set.univ (op := op5) (S := S12) h5S
    (V := (op4 (F := F)).result ((op3 (F := F)).result ((op2 (F := F)).result (V2 m d))))) $$ [Hb Hheld]
  · isplitl [Hb] <;> iassumption
  iintro ⟨Hb, Hheld⟩
  rw [wp_ret]; imodintro
  -- the region
  iapply (wp_wand frame _ _) $$ [Hst Hb Hheld HG]
  · iapply (region_step (F := F) m κ d)
    isplitr; · iexact Hctx
    isplitl [Hst]; · iexact Hst
    isplitl [Hb]; · iexact Hb
    isplitl [Hheld]; · iexact Hheld
    iexact HG
  iintro %_ H
  imodintro
  iexact H

/-! ## The final memory reads the claim -/

def fq (d : Dev nD) (s' : Phys nD τ sig (Elt F)) : Prop :=
  s'.mem.mem ((d, v6') : Loc nD τ sig) = OutV m d
    ∧ s'.mem.mem ((d, a0') : Loc nD τ sig) = m (d, a0') ∧ s'.mem.mem ((d, a1') : Loc nD τ sig) = m (d, a1')
    ∧ s'.mem.mem ((d, a2') : Loc nD τ sig) = m (d, a2') ∧ s'.mem.mem ((d, a3') : Loc nD τ sig) = m (d, a3')
    ∧ s'.mem.mem ((d, a4') : Loc nD τ sig) = m (d, a4')

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H6⟩, HSI⟩
  ihave H := (persistent_entails_right (SI_pointsTo_agree (st := s') (ℓ := ((d, a0') : Loc nD τ sig)) (I := Finset.univ) (q := fullShare) (f := m (d, a0')))) $$ [HSI H0]
  · isplitl [HSI] <;> iassumption
  icases H with ⟨%h0, HSI, -⟩
  ihave H := (persistent_entails_right (SI_pointsTo_agree (st := s') (ℓ := ((d, a1') : Loc nD τ sig)) (I := Finset.univ) (q := fullShare) (f := m (d, a1')))) $$ [HSI H1]
  · isplitl [HSI] <;> iassumption
  icases H with ⟨%h1, HSI, -⟩
  ihave H := (persistent_entails_right (SI_pointsTo_agree (st := s') (ℓ := ((d, a2') : Loc nD τ sig)) (I := Finset.univ) (q := fullShare) (f := m (d, a2')))) $$ [HSI H2]
  · isplitl [HSI] <;> iassumption
  icases H with ⟨%h2, HSI, -⟩
  ihave H := (persistent_entails_right (SI_pointsTo_agree (st := s') (ℓ := ((d, a3') : Loc nD τ sig)) (I := Finset.univ) (q := fullShare) (f := m (d, a3')))) $$ [HSI H3]
  · isplitl [HSI] <;> iassumption
  icases H with ⟨%h3, HSI, -⟩
  ihave H := (persistent_entails_right (SI_pointsTo_agree (st := s') (ℓ := ((d, a4') : Loc nD τ sig)) (I := Finset.univ) (q := fullShare) (f := m (d, a4')))) $$ [HSI H4]
  · isplitl [HSI] <;> iassumption
  icases H with ⟨%h4, HSI, -⟩
  ihave H := (SI_pointsTo_agree (st := s') (ℓ := ((d, v6') : Loc nD τ sig)) (I := Finset.univ) (q := fullShare) (f := OutV m d)) $$ [HSI H6]
  · isplitl [HSI] <;> iassumption
  icases H with %h6
  ipureintro
  exact ⟨funext fun i => h6 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

/-! ## The program's run -/

/-- Every device ends with its result array at `OutV` and its five arguments unchanged. -/
def QC : PUnit × MemSt nD τ sig (Elt F) → Prop := fun r => ∀ c : Dev nD,
  r.2.mem ((c.tc : Thread nD τ).loc main_v6) = OutV m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- Every weakly fair execution of the whole family of threads terminates, nothing faulting, with the result array at
    `OutV` and the arguments unchanged — provided every index word names a table row. -/
theorem run_main [∀ e, Nonempty (Elt F e)] (hI : ∀ d j, (fIof m d j).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (fIof m)) facts v₀
    (fun q hq => match q with | 0 => nomatch hq)
    (fun q _ => match q with | 0 => tileObl m (fIof m) facts hI)
    (fun q _ => match q with | 0 => SparseCore.Cfg.VecSplit.of_plain (vecSplit m (fIof m)))
    m ρ main (fun d => Gd (F := F) d) (FIN m) (u₀ (F := F)) (sep_elim_left.trans (hu₀ m (fIof m))) (hmain m ρ) (fq m) (hfin m) (QC m) (fun _ h => h)

end Cert.KernelIdeal.Launch

end
-- ==== Proof.HostValue.lean ====
/-
  The kernel program's host operations, read at an index.

  @main reshapes the 1024 x 200 index array to 32 x 50 x 128 before the gather and the gathered 204800 x 128 rows
  to 1024 x 200 x 128 after it, takes the first 200 rows of the position table, and views the two 128-vectors as
  1 x 128. A reshape keeps row-major order: place (b, l) of the index array is flat position b * 200 + l, which is
  place (n / 6400, n / 128 % 50, n % 128) of the 32 x 50 x 128 array and row n of the gathered rows; so element
  (b, l, e) of the reshaped rows is the table's row named by the word at (b, l), feature e. The slice reads row l of
  the position table at row l, and the 1 x 128 view reads feature e at (0, e).
-/
import proofs.«206768_g17686675325131_cont_8to1_990_33_alg».proof.Proof.Gen.KernelIdeal
import proofs.«206768_g17686675325131_cont_8to1_990_33_alg».proof.Proof.Spec
import proofs.«206768_g17686675325131_cont_8to1_990_33_alg».proof.Proof.GatherSpec
import Idealize.ShloMosaic.Lib.ValueIdx
import Idealize.ShloMosaic.Lib.Pipeline.Value
import Idealize.ShloMosaic.Lib.ValueLayout

noncomputable section

namespace Cert.KernelIdeal.HostValue

open Cert.KernelIdeal Cert.KernelIdeal.GatherSpec Idealize.ShloMosaic Idealize.ShloMosaic.ValueIdx

variable {F : FTy → Type}

/-- Place (b, l) of the 1024 x 200 index array as a row of the 204800 gathered rows: its row-major position. -/
def rowNo (b : Fin 1024) (l : Fin 200) : Fin 204800 :=
  ⟨b.val * 200 + l.val, by have := b.isLt; have := l.isLt; omega⟩

theorem rowNo_val (b : Fin 1024) (l : Fin 200) : (rowNo b l).val = b.val * 200 + l.val := rfl

/-- Every word of the reshaped index array is a word of the index array. -/
theorem fI_mem (ids : (⟨S1024x200, .i32⟩ : BufTy).Contents (Elt F)) (h : S1024x200.ShapeCasts S32x50x128)
    (j : S32x50x128.Idx) : ∃ i, shapeCast S32x50x128 ids h j = ids i :=
  ⟨Shape.reshapeEquiv h j, rfl⟩

/-- The reshaped index array at the place gathered row `rowNo b l` reads through is the index array at (b, l):
    both are flat position b * 200 + l. -/
theorem fI_idxOf (ids : (⟨S1024x200, .i32⟩ : BufTy).Contents (Elt F)) (h : S1024x200.ShapeCasts S32x50x128)
    (b : Fin 1024) (l : Fin 200) :
    shapeCast S32x50x128 ids h (idxOf (rowNo b l)) = ids (ix2 b l) := by
  refine shapeCast_apply ids h _ (ix2 b l) ?_
  rw [Shape.rowMajor_val_two, Shape.rowMajor_val_three]
  show b.val * 200 + l.val
      = ((b.val * 200 + l.val) / 6400 * 50 + (b.val * 200 + l.val) / 128 % 50) * 128 + (b.val * 200 + l.val) % 128
  omega

/-- The gathered rows reshaped to 1024 x 200 x 128, at (b, l, e): the table's row named by the word at (b, l),
    feature e. -/
theorem X2_apply (ids : (⟨S1024x200, .i32⟩ : BufTy).Contents (Elt F)) (W : (⟨S100000x128, .f32⟩ : BufTy).Contents (Elt F))
    (h1 : S1024x200.ShapeCasts S32x50x128) (h2 : S204800x128.ShapeCasts S1024x200x128)
    (b : Fin 1024) (l : Fin 200) (e : Fin 128) :
    shapeCast S1024x200x128 (Gath (shapeCast S32x50x128 ids h1) W) h2 (ix3 b l e)
      = W (ix2 (Cert.Spec.rowOf (ids (ix2 b l))) e) := by
  refine (shapeCast_apply _ h2 (ix3 b l e) (ix2 (rowNo b l) e) ?_).trans ?_
  · rw [Shape.rowMajor_val_two, Shape.rowMajor_val_three]
    show (b.val * 200 + l.val) * 128 + e.val = (b.val * 200 + l.val) * 128 + e.val
    rfl
  · rw [Gath_apply, fI_idxOf]

/-- The first 200 rows of the position table, at (l, e): the table at row l, feature e. -/
theorem X3_apply (pos : (⟨S512x128, .f32⟩ : BufTy).Contents (Elt F)) (h : S512x128.Slices ![0, 0] S200x128)
    (l : Fin 200) (e : Fin 128) :
    extractStridedSlice S200x128 ![0, 0] pos h (ix2 l e) = pos (ix2 (Cert.Spec.posRow l) e) := by
  refine extractStridedSlice_apply _ pos h (ix2 l e) (ix2 (Cert.Spec.posRow l) e) fun a => ?_
  match a with
  | ⟨0, _⟩ => show l.val = 0 + l.val; omega
  | ⟨1, _⟩ => show e.val = 0 + e.val; omega

/-- A 128-vector viewed as 1 x 128, at (0, e): the vector at e. -/
theorem X4_apply (g : (⟨S128, .f32⟩ : BufTy).Contents (Elt F)) (h : S128.ShapeCasts S1x128) (e : Fin 128) :
    shapeCast S1x128 g h (ix2 (0 : Fin 1) e) = g (ix1 e) := by
  refine shapeCast_apply g h _ (ix1 e) ?_
  rw [Shape.rowMajor_val_one, Shape.rowMajor_val_two]
  show e.val = 0 * 128 + e.val
  omega

end Cert.KernelIdeal.HostValue

end
-- ==== Proof.PreFacts.lean ====
/-
  What the precondition gives.

  The precondition is a printed predicate of the five argument arrays that ends in one bit: the conjunction of
  "every entry of W, of pos, of gamma and of beta has absolute value below +∞" and "every index word w
  satisfies 0 ≤ w and w ≤ 99999, read signed". Stated as "the bit is 1", it is decoded here, one conjunct at
  a time: a conjunction that is 1 has both sides 1; a reduction by `and` over a whole array that is 1 had a 1
  at every index; a comparison that is 1 says its relation of the words compared.

  For every float instance: an index word in [0, 99999] signed is below 100000 unsigned, so the table row
  it names is the word itself read as a natural number. At the exact instance: an extended real whose
  absolute value max x (-x) is below +∞ is neither infinity, so it is a real number.
-/
import proofs.«206768_g17686675325131_cont_8to1_990_33_alg».proof.Pre_input_domain
import proofs.«206768_g17686675325131_cont_8to1_990_33_alg».proof.Proof.Gen.Pre_input_domain
import proofs.«206768_g17686675325131_cont_8to1_990_33_alg».proof.Proof.Spec
import Idealize.ShloMosaic.Lib.ReduceAll
import Idealize.ShloMosaic.Lib.ValueIdx

noncomputable section

namespace Cert.PreFacts

open Idealize.ShloMosaic Idealize.ShloMosaic.ValueIdx
open Cert.Pre_input_domain (S1024x200 S100000x128 S512x128 S128 S_)

/-- The scalar shape has one index. -/
instance : Subsingleton S_.Idx := ⟨fun a b => funext fun d => d.elim0⟩

/-- A word between 0 and 99999 read signed is below 100000 read unsigned. -/
theorem toNat_lt_of_signed (w : BitVec 32) (h0 : (0#32 : BitVec 32).toInt ≤ w.toInt) (h1 : w.toInt ≤ (99999#32 : BitVec 32).toInt) :
    w.toNat < 100000 := by
  have e0 : (0#32 : BitVec 32).toInt = 0 := by decide
  have e1 : (99999#32 : BitVec 32).toInt = 99999 := by decide
  rw [e0] at h0
  rw [e1] at h1
  have hw := w.isLt
  rw [BitVec.toInt_eq_toNat_cond] at h0 h1
  split at h0 <;> omega

section Generic
variable {F : FTy → Type} [FloatOps F]

/-- Under the precondition every index word is below the table's height, read unsigned. The last conjunct of
    the predicate is the reduction by `and` of (w ≥ 0 signed) ∧ (w ≤ 99999 signed) over the index array. -/
theorem ids_lt (ids : (⟨S1024x200, .i32⟩ : BufTy).Contents (Elt F)) (W : (⟨S100000x128, .f32⟩ : BufTy).Contents (Elt F))
    (pos : (⟨S512x128, .f32⟩ : BufTy).Contents (Elt F)) (gamma beta : (⟨S128, .f32⟩ : BufTy).Contents (Elt F))
    (h : Cert.Pre_input_domain.fn (F := F) ids W pos gamma beta = (fun _ => 1#1)) :
    ∀ i, (ids i).toNat < 100000 := by
  intro i
  have e := congrFun h ix0
  dsimp only [Cert.Pre_input_domain.fn, Cert.Pre_input_domain.fn_part1] at e
  have e2 := (IntOp.andi_eq_one.1 e).2
  have e3 := Host.reduce_andi_all _ _ _ _ ix0 e2 i
  obtain ⟨h0, h1⟩ := IntOp.andi_eq_one.1 e3
  exact toNat_lt_of_signed (ids i) (IntOp.cmpi_sge.1 h0) (IntOp.cmpi_sle.1 h1)

/-- So the table row an index word names is the word read as a natural number: the reduction modulo the
    table's height is the identity. -/
theorem rowOf_val (ids : (⟨S1024x200, .i32⟩ : BufTy).Contents (Elt F)) (W : (⟨S100000x128, .f32⟩ : BufTy).Contents (Elt F))
    (pos : (⟨S512x128, .f32⟩ : BufTy).Contents (Elt F)) (gamma beta : (⟨S128, .f32⟩ : BufTy).Contents (Elt F))
    (h : Cert.Pre_input_domain.fn (F := F) ids W pos gamma beta = (fun _ => 1#1)) :
    ∀ i, (Cert.Spec.rowOf (ids i)).val = (ids i).toNat := fun i =>
  Nat.mod_eq_of_lt (ids_lt ids W pos gamma beta h i)

end Generic

section AtIdeal

/-- The word 0x7F800000 is +∞. -/
theorem inf_word : Ideal.ofBits .f32 0x7F800000#32 = ⊤ := by simp [Ideal.ofBits, Ideal.ieee]

/-- An extended real whose absolute value is below +∞ is a real: at either infinity the absolute value is +∞. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => exact absurd h (by simp [Ideal.cmp])
  | coe r => exact ⟨r, rfl⟩
  | top => exact absurd h (by simp [Ideal.cmp])

variable (ids : (⟨S1024x200, .i32⟩ : BufTy).Contents (Elt Ideal)) (W : (⟨S100000x128, .f32⟩ : BufTy).Contents (Elt Ideal))
    (pos : (⟨S512x128, .f32⟩ : BufTy).Contents (Elt Ideal)) (gamma beta : (⟨S128, .f32⟩ : BufTy).Contents (Elt Ideal))

/-- Under the precondition every entry of the table is a real. -/
theorem W_real (h : Cert.Pre_input_domain.fn (F := Ideal) ids W pos gamma beta = (fun _ => 1#1)) :
    ∀ i, ∃ r : ℝ, W i = (r : EReal) := by
  intro i
  have e := congrFun h ix0
  dsimp only [Cert.Pre_input_domain.fn, Cert.Pre_input_domain.fn_part1] at e
  have e1 := (IntOp.andi_eq_one.1 (IntOp.andi_eq_one.1 (IntOp.andi_eq_one.1 (IntOp.andi_eq_one.1 e).1).1).1).1
  exact real_of_abs_lt (W i) (Host.reduce_andi_all _ _ _ _ ix0 e1 i)

/-- Under the precondition every entry of the position table is a real. -/
theorem pos_real (h : Cert.Pre_input_domain.fn (F := Ideal) ids W pos gamma beta = (fun _ => 1#1)) :
    ∀ i, ∃ r : ℝ, pos i = (r : EReal) := by
  intro i
  have e := congrFun h ix0
  dsimp only [Cert.Pre_input_domain.fn, Cert.Pre_input_domain.fn_part1] at e
  have e1 := (IntOp.andi_eq_one.1 (IntOp.andi_eq_one.1 (IntOp.andi_eq_one.1 (IntOp.andi_eq_one.1 e).1).1).1).2
  exact real_of_abs_lt (pos i) (Host.reduce_andi_all _ _ _ _ ix0 e1 i)

/-- Under the precondition every scale is a real. -/
theorem gamma_real (h : Cert.Pre_input_domain.fn (F := Ideal) ids W pos gamma beta = (fun _ => 1#1)) :
    ∀ i, ∃ r : ℝ, gamma i = (r : EReal) := by
  intro i
  have e := congrFun h ix0
  dsimp only [Cert.Pre_input_domain.fn, Cert.Pre_input_domain.fn_part1] at e
  have e1 := (IntOp.andi_eq_one.1 (IntOp.andi_eq_one.1 (IntOp.andi_eq_one.1 e).1).1).2
  exact real_of_abs_lt (gamma i) (Host.reduce_andi_all _ _ _ _ ix0 e1 i)

/-- Under the precondition every shift is a real. -/
theorem beta_real (h : Cert.Pre_input_domain.fn (F := Ideal) ids W pos gamma beta = (fun _ => 1#1)) :
    ∀ i, ∃ r : ℝ, beta i = (r : EReal) := by
  intro i
  have e := congrFun h ix0
  dsimp only [Cert.Pre_input_domain.fn, Cert.Pre_input_domain.fn_part1] at e
  have e1 := (IntOp.andi_eq_one.1 (IntOp.andi_eq_one.1 e).1).2
  exact real_of_abs_lt (beta i) (Host.reduce_andi_all _ _ _ _ ix0 e1 i)

end AtIdeal

end Cert.PreFacts

end
-- ==== Proof.FrameOf.lean ====
/-
  The kernel program's frame, at any float instance: its run with the value dropped. The run asks that every word of
  the reshaped index array name a table row; the precondition says so of the argument's words, and the reshape only
  moves words.
-/
import proofs.«206768_g17686675325131_cont_8to1_990_33_alg».proof.Defs
import proofs.«206768_g17686675325131_cont_8to1_990_33_alg».proof.Proof.Gen.KernelIdeal
import proofs.«206768_g17686675325131_cont_8to1_990_33_alg».proof.Proof.Gen.Pre_input_domain
import proofs.«206768_g17686675325131_cont_8to1_990_33_alg».proof.Proof.Launch
import proofs.«206768_g17686675325131_cont_8to1_990_33_alg».proof.Proof.HostValue
import proofs.«206768_g17686675325131_cont_8to1_990_33_alg».proof.Proof.PreFacts

noncomputable section

namespace Cert.KernelIdeal.FrameOf

open Idealize.ShloMosaic Idealize.SL.Sem Cert.KernelIdeal Cert.KernelIdeal.Launch

variable {F : FTy → Type} [FloatOps F]

/-- Under the precondition every word of the reshaped index array names a table row. -/
theorem hI_of_pre (m : (ℓ : Loc nD τ sig) → Buf (Elt F) ℓ)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1)) :
    ∀ d j, (fIof m d j).toNat < 100000 := by
  intro d j
  obtain ⟨i, hi⟩ := Cert.KernelIdeal.HostValue.fI_mem (F := F) (m ((SparseCore.T d).loc main_arg0)) Gen.shapeCasts_S1024x200_S32x50x128 j
  show (shapeCast S32x50x128 (m ((SparseCore.T d).loc main_arg0)) Gen.shapeCasts_S1024x200_S32x50x128 j).toNat < 100000
  rw [hi]
  exact Cert.PreFacts.ids_lt _ _ _ _ _ (hpre d) i

/-- The run with its value, under the precondition. -/
theorem run_of_pre [∀ e, Nonempty (Elt F e)] (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1)) :
    θ_run (Cert.KernelIdeal.defs (F := F)) (Cert.KernelIdeal.threads (F := F)) ⟨m, fun _ => 0, ρ⟩ (QC m) :=
  run_main (F := F) m ρ (hI_of_pre m hpre)

/-- The frame: every weakly fair execution terminates, nothing faulting, the five arguments unchanged. -/
theorem frame_run [∀ e, Nonempty (Elt F e)] (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1)) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.KernelIdeal.defs (F := F)) _ _).mono (fun _ h c => (h c).2) (run_of_pre m ρ hpre)

end Cert.KernelIdeal.FrameOf

end
-- ==== Proof.GatherSpecBits.lean ====
/-
  What the gather kernel leaves in its output array, as ONE function of the index.

  The output has 204800 rows of 128 features. Row `n` belongs to tile `n / 6400`, chunk `(n / 128) % 50`, lane
  `n % 128`: it is the table row named by the word at that place of the 32 x 50 x 128 index array, feature by feature.
  The word is read as a row number modulo the table's height (the identity on words below the height).
-/
import proofs.«206768_g17686675325131_cont_8to1_990_33_alg».proof.Kernel
import proofs.«206768_g17686675325131_cont_8to1_990_33_alg».proof.Proof.Spec
import Idealize.ShloMosaic.Lib.ValueIdx

noncomputable section

namespace Cert.Kernel.GatherSpec

open Cert.Kernel Idealize.ShloMosaic Idealize.ShloMosaic.ValueIdx

variable {F : FTy → Type}

/-- The place in the index array that output row `n` is gathered through. -/
def idxOf (n : Fin 204800) : S32x50x128.Idx :=
  ix3 (⟨n.val / 6400, by have := n.isLt; omega⟩ : Fin 32) (⟨n.val / 128 % 50, Nat.mod_lt _ (by norm_num)⟩ : Fin 50)
    (⟨n.val % 128, Nat.mod_lt _ (by norm_num)⟩ : Fin 128)

/-- The gathered array: row `n`, feature `e` is the table's row `rowOf (fI (idxOf n))`, feature `e`. -/
def Gath (fI : (⟨S32x50x128, .i32⟩ : BufTy).Contents (Elt F)) (fW : (⟨S100000x128, .f32⟩ : BufTy).Contents (Elt F)) :
    (⟨S204800x128, .f32⟩ : BufTy).Contents (Elt F) :=
  fun j => fW (ix2 (Cert.Spec.rowOf (fI (idxOf (j 0)))) (j 1))

theorem Gath_apply (fI : (⟨S32x50x128, .i32⟩ : BufTy).Contents (Elt F)) (fW : (⟨S100000x128, .f32⟩ : BufTy).Contents (Elt F))
    (n : Fin 204800) (e : Fin 128) : Gath fI fW (ix2 n e) = fW (ix2 (Cert.Spec.rowOf (fI (idxOf n))) e) := rfl

end Cert.Kernel.GatherSpec

end
-- ==== Proof.TileDefsBits.lean ====
/-
  One vector subcore's task of the gather kernel, at a symbolic place.

  The task copies its 50 x 128 block of the index array into its index scratch; then, for each of its 50 chunks,
  gathers the 128 table rows the chunk's index words name into one of seven row buffers and copies that buffer out to
  the chunk's 128 rows of the output. Each row buffer has a semaphore of its own for the gathers into it and another
  for the copies out of it: a gather into a buffer is issued only after the last copy out of it has been waited for,
  and a copy out only after the gather has been waited for, so on each semaphore at most one transfer is outstanding
  and no buffer is touched while a transfer on it is pending. What the task leaves in its 6400 output rows is the
  gathered array, index by index.
-/
import proofs.«206768_g17686675325131_cont_8to1_990_33_alg».proof.Kernel
import proofs.«206768_g17686675325131_cont_8to1_990_33_alg».proof.Proof.Gen.Kernel
import proofs.«206768_g17686675325131_cont_8to1_990_33_alg».proof.Proof.Gen.Kernel.Skeleton
import proofs.«206768_g17686675325131_cont_8to1_990_33_alg».proof.Proof.GatherSpecBits
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import Idealize.ShloMosaic.Lib.Writes

noncomputable section

namespace Cert.Kernel.TileBody

open Cert.Kernel Cert.Kernel.Gen Cert.Kernel.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none

/-! ## The ghost state: any user algebra with a copy of the transfers' counters -/

variable {U : Type} [URA U] [CountersIn U]

local notation "𝕄" => MT nD τ sig (HIx 1) (Elt F) ℕ U ℕ

/-! ## The arrays and the buffers -/

abbrev iLoc (d : Dev nD) : Loc nD τ sig := (SparseCore.T d).loc main_v0
abbrev wLoc (d : Dev nD) : Loc nD τ sig := (SparseCore.T d).loc main_arg1
abbrev oLoc (d : Dev nD) : Loc nD τ sig := (SparseCore.T d).loc main_v1

local notation "wV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S32x50x128 EltTy.i32)
local notation "oV" => (Memref.whole Cert.Kernel.main_v1_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S50x128 EltTy.i32)

theorem idiv : 32 ∣ S32x50x128.size 0 := ⟨1, rfl⟩
theorem odiv : 32 ∣ S204800x128.size 0 := ⟨6400, rfl⟩
/-- Tile `i`'s block of the index array and its 6400 rows of the output. -/
abbrev irow (i : Fin 32) : Rect S32x50x128 := Rect.part (s := S32x50x128) (a₀ := 0) idiv i
abbrev orow (i : Fin 32) : Rect S204800x128 := Rect.part (s := S204800x128) (a₀ := 0) odiv i
abbrev iRowSet (i : Fin 32) : Finset S32x50x128.Idx := ((iV).view.slice (irow i)).set
abbrev oRowSet (i : Fin 32) : Finset S204800x128.Idx := ((oV).view.slice (orow i)).set

/-- Tile `i`'s block of the index array, the table at a read share, tile `i`'s rows of the output. -/
abbrev iRowPts (d : Dev nD) (i : Fin 32) (f : Buf (Elt F) (iLoc d)) : sProp 𝕄 := iLoc d ↦[iRowSet i]{fullShare} f
abbrev wShPts (d : Dev nD) (q : PosShare TreeShare) (f : Buf (Elt F) (wLoc d)) : sProp 𝕄 := wLoc d ↦{q} f
abbrev oRowPts (d : Dev nD) (i : Fin 32) (f : Buf (Elt F) (oLoc d)) : sProp 𝕄 := oLoc d ↦[oRowSet i]{fullShare} f

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The tile's number among the 32: twice its subcore's plus its SparseCore's. -/
abbrev wid (L : grid0.Coords) : Fin 32 := ⟨(L 1).val * 2 + (L 0).val, by
  have h0 : (L 0).val < 2 := (L 0).isLt
  have h1 : (L 1).val < 16 := (L 1).isLt
  omega⟩

/-! ## The memrefs as the program slices them -/

/-- The tile's block of the index array, as the task addresses it. -/
abbrev iRowK (L : grid0.Coords) : Memref sig .scVector .hbm S50x128 .i32 :=
  ((iV).slice (Rect.unit (s := S32x50x128) (k0_off1 L) S1x50x128.size (k0_off1_inb L)) (fun _ => rfl)).squeeze S50x128 squeezes_S1x50x128_S50x128
theorem inb_idx (c : Fin 50) : ∀ a, (![c.val, 0] : Fin 2 → Nat) a + S1x128.size a ≤ S50x128.size a := by
  intro a; have := c.isLt
  match a with
  | 0 => show c.val + 1 ≤ 50; omega
  | 1 => show 0 + 128 ≤ 128; omega
/-- Row `c` of the index scratch: chunk `c`'s 128 index words. -/
abbrev idxRowK (c : Fin 50) : Memref sig .scVector .vmem S128 .i32 :=
  ((sV).slice (Rect.unit (s := S50x128) ![c.val, 0] S1x128.size (inb_idx c)) (fun _ => rfl)).squeeze S128 squeezes_S1x128_S128
/-- The whole table, as the task slices it. -/
abbrev wAllK : Memref sig .scVector .hbm S100000x128 .f32 :=
  (wV).slice (Rect.unit (s := S100000x128) ![0, 0] S100000x128.size inb_S100000x128_S100000x128_0_0) (fun _ => rfl)
/-- Chunk `c`'s 128 rows of the output. -/
abbrev oBlkK (L : grid0.Coords) (c : Fin 50) : Memref sig .scVector .hbm S128x128 .f32 :=
  (oV).slice (Rect.unit (s := S204800x128) (k0_off2 L (BitVec.ofNat 32 c.val)) S128x128.size (k0_off2_inb L c)) (fun _ => rfl)

/-- The seven row buffers. -/
abbrev bV1 : Memref sig .scVector .vmem S128x128 .f32 := Memref.whole cc0_scratch1
abbrev bV2 : Memref sig .scVector .vmem S128x128 .f32 := Memref.whole cc0_scratch2
abbrev bV3 : Memref sig .scVector .vmem S128x128 .f32 := Memref.whole cc0_scratch3
abbrev bV4 : Memref sig .scVector .vmem S128x128 .f32 := Memref.whole cc0_scratch4
abbrev bV5 : Memref sig .scVector .vmem S128x128 .f32 := Memref.whole cc0_scratch5
abbrev bV6 : Memref sig .scVector .vmem S128x128 .f32 := Memref.whole cc0_scratch6
abbrev bV7 : Memref sig .scVector .vmem S128x128 .f32 := Memref.whole cc0_scratch7

local notation "thr" => (V d (cV L) (jV L))

/-! ## What the transfers carry -/

/-- What the index fetch lands in the index scratch: the tile's block of the index array. -/
abbrev idxP (fI : Buf (Elt F) (iLoc d)) : Buf (Elt F) ((sV).view.loc thr) :=
  ReadAs.same.apply ((iRowK L).view.read (Elt F) fI)

omit [URA U] [CountersIn U] [FloatOps F] in
/-- Every word of a row of the index scratch names a row of the table. -/
theorem hin_row (fI : Buf (Elt F) (iLoc d)) (hin : ∀ j, (fI j).toNat < 100000) (c : Fin 50) :
    ∀ x, ((idxRowK c).view.read (Elt F) (idxP d L fI) x).toNat < S100000x128.size gathers_S100000x128_S128x128.axis := by
  intro x
  rw [show ∀ (g : S50x128.Idx → Elt F .i32) j, (idxRowK c).view.read (Elt F) g j = g ((idxRowK c).view.emb j) from fun g j => (View.read_apply _ _).trans (cast_eq _ _)]
  show (((iRowK L).view.read (Elt F) fI) _).toNat < _
  rw [show ∀ j, (iRowK L).view.read (Elt F) fI j = fI ((iRowK L).view.emb j) from fun j => (View.read_apply _ _).trans (cast_eq _ _)]
  exact hin _

/-- Chunk `c`'s gathered rows: row `r` is the table's row named by word `r` of row `c` of the index scratch. -/
abbrev gP (fI : Buf (Elt F) (iLoc d)) (fW : Buf (Elt F) (wLoc d)) (hin : ∀ j, (fI j).toNat < 100000) (c : Fin 50) : S128x128.Idx → Elt F .f32 :=
  SparseCore.gatherPayload gathers_S100000x128_S128x128 ((wAllK).view.read (Elt F) fW)
    (SparseCore.rows ((idxRowK c).view.read (Elt F) (idxP d L fI)) rfl (hin_row d L fI hin c))

/-! ## Runs of pieces held one after another -/

/-- `Φ k ∗ Φ (k + 1) ∗ … ∗ Φ (k + m - 1)`: the pieces not yet handed out. -/
def Todo (Φ : ℕ → sProp 𝕄) : ℕ → ℕ → sProp 𝕄
  | _, 0 => iprop(emp)
  | k, m + 1 => iprop(Φ k ∗ Todo Φ (k + 1) m)
/-- `Φ (k - 1) ∗ … ∗ Φ 0`: the pieces already back. -/
def Done (Φ : ℕ → sProp 𝕄) : ℕ → sProp 𝕄
  | 0 => iprop(emp)
  | k + 1 => iprop(Φ k ∗ Done Φ k)

omit [CountersIn U] [FloatOps F] in
theorem Todo_succ (Φ : ℕ → sProp 𝕄) (k m : ℕ) : Todo Φ k (m + 1) = iprop(Φ k ∗ Todo Φ (k + 1) m) := rfl
omit [CountersIn U] [FloatOps F] in
theorem Done_succ (Φ : ℕ → sProp 𝕄) (k : ℕ) : Done Φ (k + 1) = iprop(Φ k ∗ Done Φ k) := rfl

omit [CountersIn U] [FloatOps F] in
theorem Done_eq_bigSep (Φ : ℕ → sProp 𝕄) : ∀ n, Done Φ n = bigSep (Finset.range n) Φ
  | 0 => by rw [Finset.range_zero, bigSep_empty]; rfl
  | n + 1 => by rw [Done_succ, Done_eq_bigSep Φ n, Finset.range_add_one, bigSep_insert Finset.notMem_range_self]; rfl

omit [CountersIn U] [FloatOps F] in
theorem Todo_eq_bigSep (Φ : ℕ → sProp 𝕄) : ∀ m k, Todo Φ k m = bigSep (Finset.Ico k (k + m)) Φ
  | 0, k => by rw [Nat.add_zero, Finset.Ico_self, bigSep_empty]; rfl
  | m + 1, k => by
    rw [Todo_succ, Todo_eq_bigSep Φ m (k + 1), ← Finset.insert_Ico_add_one_left_eq_Ico (by omega : k < k + (m + 1)),
      bigSep_insert (by simp), show k + 1 + m = k + (m + 1) by omega]
    rfl

/-- A piece by its number: nothing past the fiftieth. -/
def pc (Ψ : Fin 50 → sProp 𝕄) (k : ℕ) : sProp 𝕄 := if h : k < 50 then Ψ ⟨k, h⟩ else iprop(emp)
omit [CountersIn U] [FloatOps F] in
theorem pc_lt (Ψ : Fin 50 → sProp 𝕄) {k : ℕ} (h : k < 50) : pc Ψ k = Ψ ⟨k, h⟩ := dif_pos h

omit [CountersIn U] [FloatOps F] in
theorem todo_take (Ψ : Fin 50 → sProp 𝕄) (k m : ℕ) (h : k < 50) : Todo (pc Ψ) k (m + 1) = iprop(Ψ ⟨k, h⟩ ∗ Todo (pc Ψ) (k + 1) m) := by
  rw [Todo_succ, pc_lt Ψ h]
omit [CountersIn U] [FloatOps F] in
theorem done_put (Ψ : Fin 50 → sProp 𝕄) (k : ℕ) (h : k < 50) : iprop(Ψ ⟨k, h⟩ ∗ Done (pc Ψ) k) = Done (pc Ψ) (k + 1) := by
  rw [Done_succ, pc_lt Ψ h]

/-- Row `c` of the index scratch, held at what the fetch landed. -/
abbrev rowPts (fI : Buf (Elt F) (iLoc d)) (c : Fin 50) : sProp 𝕄 :=
  (idxRowK c).view.loc thr ↦[(idxRowK c).view.set]{fullShare} idxP d L fI
/-- Chunk `c`'s rows of the output, held at `f`. -/
abbrev blkPts (f : Buf (Elt F) (oLoc d)) (c : Fin 50) : sProp 𝕄 :=
  (oBlkK L c).view.loc thr ↦[(oBlkK L c).view.set]{fullShare} f

omit [FloatOps F] in
/-- What is waited for stays among the waits the post allows. -/
theorem wstep {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

/-- The table's elements as the task slices it, at share `q`. -/
abbrev wPts (fW : Buf (Elt F) (wLoc d)) (q : PosShare TreeShare) : sProp 𝕄 :=
  (wAllK).view.loc thr ↦[(wAllK).view.set]{q} fW

/-- Chunk `c`'s gather into row buffer `b` in flight on the buffer's gather semaphore: at the wait it hands back
    the buffer written with the chunk's rows, the table's share and the chunk's row of the index scratch. -/
abbrev GFl (fI : Buf (Elt F) (iLoc d)) (fW : Buf (Elt F) (wLoc d)) (hin : ∀ j, (fI j).toNat < 100000)
    (b : Memref sig .scVector .vmem S128x128 .f32) (gs : DmaSem sig) (q : PosShare TreeShare) (c : Fin 50)
    (fd : Buf (Elt F) (b.view.loc thr)) : sProp 𝕄 :=
  Transfers.Flight countersEmb thr (SemLoc.dma gs) (default : HIx 1) b.view.dmaCredit
    iprop((b.view.loc thr ↦[b.view.set]{fullShare} View.write (Elt F) b.view fd (gP d L fI fW hin c) Finset.univ)
      ∗ (wPts d L fW q) ∗ rowPts d L fI c)

/-- Chunk `c`'s copy out of row buffer `b` in flight on the buffer's store semaphore: at the wait it hands back
    the chunk's output rows written with the buffer's contents, and the buffer. -/
abbrev SFl (fI : Buf (Elt F) (iLoc d)) (fW : Buf (Elt F) (wLoc d)) (hin : ∀ j, (fI j).toNat < 100000) (fO : Buf (Elt F) (oLoc d))
    (b : Memref sig .scVector .vmem S128x128 .f32) (ss : DmaSem sig) (c : Fin 50)
    (fd : Buf (Elt F) (b.view.loc thr)) : sProp 𝕄 :=
  Transfers.Flight countersEmb thr (SemLoc.dma ss) (default : HIx 1) ((oBlkK L c).view.amount (SemLoc.dma ss))
    iprop(((oBlkK L c).view.loc thr ↦[(oBlkK L c).view.set]{fullShare}
        View.write (Elt F) (oBlkK L c).view fO
          (ReadAs.same.apply (b.view.read (Elt F) (View.write (Elt F) b.view fd (gP d L fI fW hin c) Finset.univ))) Finset.univ)
      ∗ (b.view.loc thr ↦[b.view.set]{fullShare} View.write (Elt F) b.view fd (gP d L fI fW hin c) Finset.univ))

/-- A row buffer's elements held at `f`. -/
abbrev bPts (b : Memref sig .scVector .vmem S128x128 .f32) (f : Buf (Elt F) (b.view.loc thr)) : sProp 𝕄 :=
  b.view.loc thr ↦[b.view.set]{fullShare} f

end Tile

end Cert.Kernel.TileBody

end
-- ==== Proof.TileGeomBits.lean ====
/-
  The geometry of one subcore's task: which elements of the index array, of the index scratch and of the output each
  of its memory references covers.

  The block of the index array the task fetches is the tile's part of that array (the 32 parts along the first axis,
  the tile's number the part's). The index scratch, held whole, is its fifty rows held one by one, row c being what
  the task's slice for chunk c covers (the row along the first axis at c). The tile's 6400 rows of the output are the
  union of its fifty chunks' 128 rows, chunk c's starting at row 6400 · (the tile's number) + 128 · c: consecutive
  chunks do not overlap and together cover the tile's rows, so holding the tile's rows is holding the fifty chunks'
  rows separately. A run of fifty pieces handed out one after another, or given back one after another, is the
  product of the pieces over the fifty chunks.
-/
import proofs.«206768_g17686675325131_cont_8to1_990_33_alg».proof.Proof.TileDefsBits

noncomputable section

namespace Cert.Kernel.TileBody

open Cert.Kernel Cert.Kernel.Gen Cert.Kernel.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S32x50x128 EltTy.i32)
local notation "oV" => (Memref.whole Cert.Kernel.main_v1_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S50x128 EltTy.i32)

variable (d : Dev nD) (L : grid0.Coords)

local notation "thr" => (V d (cV L) (jV L))

namespace Geom

/-! ## The tile's block of the index array -/

omit [URA U] [CountersIn U] [FloatOps F] in
/-- The rectangle the task addresses in the index array is the tile's part of it. -/
theorem irowK_eq : Rect.unit (s := S32x50x128) (k0_off1 L) S1x50x128.size (k0_off1_inb L) = irow (wid L) := by
  unfold irow Rect.part Rect.block
  congr 1 <;> funext a
  · rw [k0_off1_eq]
    match a with
    | 0 => simp [Shape.partIx, Shape.partSize]; omega
    | 1 => simp [Shape.partIx, Shape.partSize]
    | 2 => simp [Shape.partIx, Shape.partSize]
  · match a with
    | 0 => simp [Shape.partSize]
    | 1 => simp [Shape.partSize]
    | 2 => simp [Shape.partSize]

/-! ## Runs of fifty pieces as products over the fifty chunks -/

omit [CountersIn U] [FloatOps F] in
/-- The pieces numbered below 50 are the pieces of the fifty chunks. -/
theorem bigSep_range_pc (Ψ : Fin 50 → sProp 𝕄) : bigSep (Finset.range 50) (pc Ψ) = bigSep Finset.univ Ψ := by
  rw [← Nat.Iio_eq_range, ← Fin.map_valEmbedding_univ, bigSep_map]
  exact bigSep_congr fun i _ => by
    show pc Ψ i.val = Ψ i
    rw [pc_lt Ψ i.isLt]

omit [CountersIn U] [FloatOps F] in
theorem Todo_all (Ψ : Fin 50 → sProp 𝕄) : Todo (pc Ψ) 0 50 = bigSep Finset.univ Ψ := by
  rw [Todo_eq_bigSep, Nat.zero_add, ← Finset.range_eq_Ico, bigSep_range_pc]

omit [CountersIn U] [FloatOps F] in
theorem Done_all (Ψ : Fin 50 → sProp 𝕄) : Done (pc Ψ) 50 = bigSep Finset.univ Ψ := by
  rw [Done_eq_bigSep, bigSep_range_pc]

/-! ## The index scratch is its fifty rows -/

omit [URA U] [CountersIn U] [FloatOps F] in
/-- Row `c` of the index scratch, as the task slices it, is the scratch's row `c` along its first axis. -/
theorem idxRect_eq (c : Fin 50) :
    Rect.unit (s := S50x128) ![c.val, 0] S1x128.size (inb_idx c) = S50x128.rowRect (0 : Fin 2) c := by
  unfold Shape.rowRect
  congr 1 <;> funext a
  · match a with
    | 0 => rfl
    | 1 => rfl
  · match a with
    | 0 => rfl
    | 1 => rfl

omit [URA U] [CountersIn U] [FloatOps F] in
theorem set_idxRowK (c : Fin 50) : (idxRowK c).view.set = ((sV).view.slice (S50x128.rowRect (0 : Fin 2) c)).set := by
  have h : (idxRowK c).view.set = ((sV).view.slice (Rect.unit (s := S50x128) ![c.val, 0] S1x128.size (inb_idx c))).set :=
    View.set_reshape _ _
  exact h.trans (idxRect_eq c ▸ rfl)

omit [CountersIn U] [FloatOps F] in
/-- The whole index scratch held at `f` is its fifty rows held at `f`. -/
theorem idx_rows (f : Buf (Elt F) ((sV).view.loc thr)) :
    ((sV).view.loc thr ↦{fullShare} f : sProp 𝕄)
      = bigSep Finset.univ fun c : Fin 50 => (idxRowK c).view.loc thr ↦[(idxRowK c).view.set]{fullShare} f := by
  have h := pointsTo_rows (Ix := HIx 1) (Val := Elt F) (Name := ℕ) (U := U) (Lvl := ℕ) thr (sV).view (0 : Fin 2) fullShare f
  rw [View.set_whole] at h
  refine h.trans (bigSep_congr fun k _ => ?_)
  exact congrArg (fun I : Finset (Idx ((sV).view.loc thr)) => ((sV).view.loc thr ↦[I]{fullShare} f : sProp 𝕄)) (set_idxRowK k).symm

/-! ## The tile's output rows are its fifty chunks' rows -/

omit [URA U] [CountersIn U] [FloatOps F] in
/-- The tile's part of the output: rows `6400 · i` to `6400 · i + 6399`. -/
theorem mem_orow (i : Fin 32) (j : S204800x128.Idx) :
    j ∈ (orow i).set ↔ i.val * 6400 ≤ (j 0).val ∧ (j 0).val < i.val * 6400 + 6400 := by
  rw [Rect.mem_set_unit, Fin.forall_fin_two]
  have h1 : (j 1).val < 128 := (j 1).isLt
  show (i.val * 6400 ≤ (j 0).val ∧ (j 0).val < i.val * 6400 + 6400) ∧ (0 * 128 ≤ (j 1).val ∧ (j 1).val < 0 * 128 + 128) ↔ _
  omega

omit [URA U] [CountersIn U] [FloatOps F] in
/-- Chunk `c`'s rows of the output: 128 rows from `6400 · (the tile's number) + 128 · c`. -/
theorem mem_oblk (c : Fin 50) (j : S204800x128.Idx) :
    j ∈ (Rect.unit (s := S204800x128) (k0_off2 L (BitVec.ofNat 32 c.val)) S128x128.size (k0_off2_inb L c)).set
      ↔ (wid L).val * 6400 + 128 * c.val ≤ (j 0).val ∧ (j 0).val < (wid L).val * 6400 + 128 * c.val + 128 := by
  rw [Rect.mem_set_unit, Fin.forall_fin_two, k0_off2_eq L c]
  have h1 : (j 1).val < 128 := (j 1).isLt
  show (12800 * (L 1).val + 6400 * (L 0).val + 128 * c.val ≤ (j 0).val
      ∧ (j 0).val < 12800 * (L 1).val + 6400 * (L 0).val + 128 * c.val + 128) ∧ (0 ≤ (j 1).val ∧ (j 1).val < 0 + 128)
    ↔ ((L 1).val * 2 + (L 0).val) * 6400 + 128 * c.val ≤ (j 0).val ∧ (j 0).val < ((L 1).val * 2 + (L 0).val) * 6400 + 128 * c.val + 128
  omega

omit [URA U] [CountersIn U] [FloatOps F] in
theorem set_oBlkK (c : Fin 50) :
    (oBlkK L c).view.set = (Rect.unit (s := S204800x128) (k0_off2 L (BitVec.ofNat 32 c.val)) S128x128.size (k0_off2_inb L c)).set :=
  View.set_slice_whole main_v1_scv _

omit [URA U] [CountersIn U] [FloatOps F] in
/-- The tile's output rows are the union of its fifty chunks' rows. -/
theorem oRowSet_eq_biUnion : oRowSet (wid L) = Finset.univ.biUnion fun c : Fin 50 => (oBlkK L c).view.set := by
  ext j
  have hw : (wid L).val = (L 1).val * 2 + (L 0).val := rfl
  rw [Finset.mem_biUnion, show oRowSet (wid L) = (orow (wid L)).set from View.set_slice_whole main_v1_scv _, mem_orow]
  constructor
  · rintro ⟨h1, h2⟩
    refine ⟨⟨((j 0).val - (wid L).val * 6400) / 128, by omega⟩, Finset.mem_univ _, ?_⟩
    rw [set_oBlkK, mem_oblk]
    show (wid L).val * 6400 + 128 * (((j 0).val - (wid L).val * 6400) / 128) ≤ (j 0).val
      ∧ (j 0).val < (wid L).val * 6400 + 128 * (((j 0).val - (wid L).val * 6400) / 128) + 128
    omega
  · rintro ⟨c, -, hc⟩
    rw [set_oBlkK, mem_oblk] at hc
    have := c.isLt
    omega

omit [URA U] [CountersIn U] [FloatOps F] in
/-- Different chunks' rows are disjoint. -/
theorem oBlk_disjoint : ∀ c ∈ (Finset.univ : Finset (Fin 50)), ∀ c' ∈ (Finset.univ : Finset (Fin 50)), c ≠ c' →
    Disjoint (oBlkK L c).view.set (oBlkK L c').view.set := by
  intro c _ c' _ hne
  rw [set_oBlkK, set_oBlkK]
  refine Rect.unit_disjoint (0 : Fin 2) ?_
  have e := congrFun (k0_off2_eq L c) (0 : Fin 2)
  have e' := congrFun (k0_off2_eq L c') (0 : Fin 2)
  rw [e, e']
  have hv : c.val ≠ c'.val := fun h => hne (Fin.ext h)
  show 12800 * (L 1).val + 6400 * (L 0).val + 128 * c.val + 128 ≤ 12800 * (L 1).val + 6400 * (L 0).val + 128 * c'.val
    ∨ 12800 * (L 1).val + 6400 * (L 0).val + 128 * c'.val + 128 ≤ 12800 * (L 1).val + 6400 * (L 0).val + 128 * c.val
  omega

omit [CountersIn U] [FloatOps F] in
/-- The tile's output rows held at `f` are its fifty chunks' rows held at `f`. -/
theorem out_rows (f : Buf (Elt F) (oLoc d)) : (oRowPts d (wid L) f : sProp 𝕄) = bigSep Finset.univ (blkPts d L f) := by
  show (oLoc d ↦[oRowSet (wid L)]{fullShare} f : sProp 𝕄) = _
  rw [oRowSet_eq_biUnion]
  exact pointsTo_biUnion Finset.univ _ (oBlk_disjoint L)

end Geom

open Geom

/-! ## The statements the task's run uses -/

omit [URA U] [CountersIn U] [FloatOps F] in
theorem set_iRowK : (iRowK L).view.set = iRowSet (wid L) := by
  show (((iV).view.slice (Rect.unit (s := S32x50x128) (k0_off1 L) S1x50x128.size (k0_off1_inb L))).reshape S50x128 squeezes_S1x50x128_S50x128.numel_eq).set
    = ((iV).view.slice (irow (wid L))).set
  rw [View.set_reshape]
  exact irowK_eq L ▸ rfl

omit [CountersIn U] [FloatOps F] in
theorem idx_split (fI : Buf (Elt F) (iLoc d)) (fs : Buf (Elt F) ((sV).view.loc thr)) :
    ((sV).view.loc thr ↦{fullShare} View.write (Elt F) (sV).view fs (ReadAs.same.apply ((iRowK L).view.read (Elt F) fI)) Finset.univ : sProp 𝕄)
      ⊢ Todo (pc (rowPts d L fI)) 0 50 := by
  have hw : View.write (Elt F) (sV).view fs (ReadAs.same.apply ((iRowK L).view.read (Elt F) fI)) Finset.univ = idxP d L fI :=
    View.write_whole_univ cc0_scratch0 fs _
  rw [hw, Todo_all, idx_rows d L (idxP d L fI)]

omit [CountersIn U] [FloatOps F] in
theorem idx_join (fI : Buf (Elt F) (iLoc d)) :
    (Done (pc (rowPts d L fI)) 50 : sProp 𝕄) ⊢ iprop(∃ f, (sV).view.loc thr ↦{fullShare} f) := by
  rw [Done_all, ← idx_rows d L (idxP d L fI)]
  iintro H
  iexists idxP d L fI
  iexact H

omit [CountersIn U] [FloatOps F] in
theorem out_split (fO : Buf (Elt F) (oLoc d)) :
    (oRowPts d (wid L) fO : sProp 𝕄) ⊢ Todo (pc (blkPts d L fO)) 0 50 := by
  rw [Todo_all, out_rows]

omit [CountersIn U] [FloatOps F] in
theorem out_join (f : Buf (Elt F) (oLoc d)) :
    (Done (pc (blkPts d L f)) 50 : sProp 𝕄) ⊢ oRowPts d (wid L) f := by
  rw [Done_all, out_rows]

end Cert.Kernel.TileBody

end
-- ==== Proof.TilePeelBits.lean ====
/-
  A vector subcore's own storage, taken apart: of the buffers the launch deals it, the task's index scratch and seven
  row buffers, each whole at some contents, and the rest; of its own semaphore counters at zero, the task's fetch
  semaphore, the seven gather semaphores, the seven store semaphores, and the rest.

  Both are one fact about a conjunction over a finite set: the conjuncts of a list of distinct members can be taken
  out one after another (`bigSep_peel`), or as one group (`bigSep_group`), leaving the conjunction over what is left.
-/
import proofs.«206768_g17686675325131_cont_8to1_990_33_alg».proof.Proof.TileDefsBits

noncomputable section

namespace Cert.Kernel.TileBody

open Cert.Kernel Cert.Kernel.Gen Cert.Kernel.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S32x50x128 EltTy.i32)
local notation "oV" => (Memref.whole Cert.Kernel.main_v1_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S50x128 EltTy.i32)

variable (d : Dev nD) (L : grid0.Coords)

local notation "thr" => (V d (cV L) (jV L))

/-! ## Taking listed members out of a conjunction over a finite set -/

section Peel

variable {I : Type} [DecidableEq I] {M : Type} [URA M]

/-- `Φ i₁ ∗ … ∗ Φ iₙ ∗ R`, nested to the right. -/
def chainR (Φ : I → sProp M) : List I → sProp M → sProp M
  | [], R => R
  | i :: l, R => iprop(Φ i ∗ chainR Φ l R)

/-- The conjuncts of distinct members `l` of `s`, one after another, then the conjunction over `s` less them. -/
theorem bigSep_peel (Φ : I → sProp M) :
    ∀ (l : List I) (s : Finset I), l.Nodup → (∀ i ∈ l, i ∈ s) → bigSep s Φ = chainR Φ l (bigSep (l.foldl Finset.erase s) Φ)
  | [], _, _, _ => rfl
  | i :: l, s, hnd, hs => by
    obtain ⟨hi, hnd'⟩ := List.nodup_cons.mp hnd
    rw [SparseCore.bigSep_erase' (hs i List.mem_cons_self)]
    show _ = iprop(Φ i ∗ chainR Φ l (bigSep (l.foldl Finset.erase (s.erase i)) Φ))
    rw [← bigSep_peel Φ l (s.erase i) hnd' fun j hj => Finset.mem_erase.mpr ⟨fun e => hi (e ▸ hj), hs j (List.mem_cons_of_mem _ hj)⟩]

/-- The conjuncts of distinct members `l` of `s` as one group, then the conjunction over `s` less them. -/
theorem bigSep_group (Φ : I → sProp M) (s : Finset I) (l : List I) (hnd : l.Nodup) (hs : ∀ i ∈ l, i ∈ s) :
    bigSep s Φ = iprop(bigSepL l Φ ∗ bigSep (s \ l.toFinset) Φ) := by
  rw [SparseCore.bigSep_sdiff_split' (t := l.toFinset) (fun i hi => hs i (List.mem_toFinset.mp hi)), bigSep_eq_bigSepL l hnd]

end Peel

/-! ## The subcore's own buffers and semaphores: the task's eight scratch buffers and fifteen semaphores, and the rest -/

omit [CountersIn U] [FloatOps F] in
theorem ownBufs_V8 : ∃ RB : sProp 𝕄, (ownBufs thr : sProp 𝕄)
    = iprop((∃ f, (sV).view.loc thr ↦{fullShare} f) ∗ (∃ f, bPts d L bV1 f) ∗ (∃ f, bPts d L bV2 f) ∗ (∃ f, bPts d L bV3 f)
        ∗ (∃ f, bPts d L bV4 f) ∗ (∃ f, bPts d L bV5 f) ∗ (∃ f, bPts d L bV6 f) ∗ (∃ f, bPts d L bV7 f) ∗ RB) := by
  have hl : ([cc0_scratch0, cc0_scratch1, cc0_scratch2, cc0_scratch3, cc0_scratch4, cc0_scratch5, cc0_scratch6, cc0_scratch7] : List (Ref sig .scVector)).Nodup := by decide +kernel
  have hnd : (([cc0_scratch0, cc0_scratch1, cc0_scratch2, cc0_scratch3, cc0_scratch4, cc0_scratch5, cc0_scratch6, cc0_scratch7] : List (Ref sig .scVector)).map (Proc.scVector (cV L) (jV L)).devRef : List (DevRef τ sig)).Nodup :=
    List.Nodup.map (Proc.devRef_injective _) hl
  have hmem : ∀ b ∈ (([cc0_scratch0, cc0_scratch1, cc0_scratch2, cc0_scratch3, cc0_scratch4, cc0_scratch5, cc0_scratch6, cc0_scratch7] : List (Ref sig .scVector)).map (Proc.scVector (cV L) (jV L)).devRef : List (DevRef τ sig)),
      b ∈ ownRefs (τ := τ) (Proc.scVector (cV L) (jV L)) := fun b hb => by
    simp only [List.map_cons, List.map_nil, List.mem_cons, List.not_mem_nil, or_false] at hb
    rcases hb with rfl | rfl | rfl | rfl | rfl | rfl | rfl | rfl <;> exact SparseCore.Cfg.mem_ownRefs_of_owner rfl
  refine ⟨bigSep (List.foldl Finset.erase (ownRefs (τ := τ) (Proc.scVector (cV L) (jV L)))
      (([cc0_scratch0, cc0_scratch1, cc0_scratch2, cc0_scratch3, cc0_scratch4, cc0_scratch5, cc0_scratch6, cc0_scratch7] : List (Ref sig .scVector)).map (Proc.scVector (cV L) (jV L)).devRef))
      fun b => iprop(∃ f, ((d, b) : Loc nD τ sig) ↦{fullShare} f), ?_⟩
  unfold SparseCore.Cfg.ownBufs
  refine (bigSep_peel _ _ _ hnd hmem).trans ?_
  simp only [bPts, Memref.view_whole, View.set_whole, List.map_cons, List.map_nil, chainR]

omit [CountersIn U] [FloatOps F] in
theorem ownSems0_V15 : ∃ RS : sProp 𝕄, (ownSems0 thr : sProp 𝕄)
    = iprop(semVal (thr, SemLoc.dma cc0_scoped0.sem) 0
        ∗ (semVal (thr, SemLoc.dma cc0_scratch8.sem) 0 ∗ semVal (thr, SemLoc.dma cc0_scratch9.sem) 0 ∗ semVal (thr, SemLoc.dma cc0_scratch10.sem) 0
          ∗ semVal (thr, SemLoc.dma cc0_scratch11.sem) 0 ∗ semVal (thr, SemLoc.dma cc0_scratch12.sem) 0 ∗ semVal (thr, SemLoc.dma cc0_scratch13.sem) 0
          ∗ semVal (thr, SemLoc.dma cc0_scratch14.sem) 0)
        ∗ (semVal (thr, SemLoc.dma cc0_scratch15.sem) 0 ∗ semVal (thr, SemLoc.dma cc0_scratch16.sem) 0 ∗ semVal (thr, SemLoc.dma cc0_scratch17.sem) 0
          ∗ semVal (thr, SemLoc.dma cc0_scratch18.sem) 0 ∗ semVal (thr, SemLoc.dma cc0_scratch19.sem) 0 ∗ semVal (thr, SemLoc.dma cc0_scratch20.sem) 0
          ∗ semVal (thr, SemLoc.dma cc0_scratch21.sem) 0)
        ∗ RS) := by
  -- the fifteen semaphores are distinct and scoped on a vector subcore
  have hall : (([cc0_scoped0.sem] ++ [cc0_scratch8.sem, cc0_scratch9.sem, cc0_scratch10.sem, cc0_scratch11.sem, cc0_scratch12.sem, cc0_scratch13.sem, cc0_scratch14.sem] ++ [cc0_scratch15.sem, cc0_scratch16.sem, cc0_scratch17.sem, cc0_scratch18.sem, cc0_scratch19.sem, cc0_scratch20.sem, cc0_scratch21.sem] : List (DmaSem sig))).Nodup := by decide
  have hsc : ∀ s ∈ ([cc0_scoped0.sem] ++ [cc0_scratch8.sem, cc0_scratch9.sem, cc0_scratch10.sem, cc0_scratch11.sem, cc0_scratch12.sem, cc0_scratch13.sem, cc0_scratch14.sem] ++ [cc0_scratch15.sem, cc0_scratch16.sem, cc0_scratch17.sem, cc0_scratch18.sem, cc0_scratch19.sem, cc0_scratch20.sem, cc0_scratch21.sem] : List (DmaSem sig)),
      (SemLoc.dma s : SemLoc sig).isScoped .scVector = true := by decide
  have hnd1 : ([cc0_scratch8.sem, cc0_scratch9.sem, cc0_scratch10.sem, cc0_scratch11.sem, cc0_scratch12.sem, cc0_scratch13.sem, cc0_scratch14.sem] : List (DmaSem sig)).Nodup := by decide
  have hnd2 : ([cc0_scratch15.sem, cc0_scratch16.sem, cc0_scratch17.sem, cc0_scratch18.sem, cc0_scratch19.sem, cc0_scratch20.sem, cc0_scratch21.sem] : List (DmaSem sig)).Nodup := by decide
  have hne1 : ∀ s ∈ ([cc0_scratch8.sem, cc0_scratch9.sem, cc0_scratch10.sem, cc0_scratch11.sem, cc0_scratch12.sem, cc0_scratch13.sem, cc0_scratch14.sem] : List (DmaSem sig)), s ≠ cc0_scoped0.sem := by decide
  have hne2 : ∀ s ∈ ([cc0_scratch15.sem, cc0_scratch16.sem, cc0_scratch17.sem, cc0_scratch18.sem, cc0_scratch19.sem, cc0_scratch20.sem, cc0_scratch21.sem] : List (DmaSem sig)), s ≠ cc0_scoped0.sem ∧ s ∉ ([cc0_scratch8.sem, cc0_scratch9.sem, cc0_scratch10.sem, cc0_scratch11.sem, cc0_scratch12.sem, cc0_scratch13.sem, cc0_scratch14.sem] : List (DmaSem sig)) := by decide
  have hinj : Function.Injective (fun s : DmaSem sig => ((thr, SemLoc.dma s) : GSem nD τ sig)) := fun a b h => SemLoc.dma.inj (Prod.mk.inj h).2
  have hown : ∀ s ∈ ([cc0_scoped0.sem] ++ [cc0_scratch8.sem, cc0_scratch9.sem, cc0_scratch10.sem, cc0_scratch11.sem, cc0_scratch12.sem, cc0_scratch13.sem, cc0_scratch14.sem] ++ [cc0_scratch15.sem, cc0_scratch16.sem, cc0_scratch17.sem, cc0_scratch18.sem, cc0_scratch19.sem, cc0_scratch20.sem, cc0_scratch21.sem] : List (DmaSem sig)),
      ((thr, SemLoc.dma s) : GSem nD τ sig) ∈ ownCells thr := fun s hs => (mem_ownCells (g := (thr, SemLoc.dma s))).mpr ⟨rfl, hsc s hs⟩
  refine ⟨bigSep (((ownCells thr \ (([cc0_scoped0.sem] : List (DmaSem sig)).map fun s => ((thr, SemLoc.dma s) : GSem nD τ sig)).toFinset) \ (([cc0_scratch8.sem, cc0_scratch9.sem, cc0_scratch10.sem, cc0_scratch11.sem, cc0_scratch12.sem, cc0_scratch13.sem, cc0_scratch14.sem] : List (DmaSem sig)).map fun s => ((thr, SemLoc.dma s) : GSem nD τ sig)).toFinset) \ (([cc0_scratch15.sem, cc0_scratch16.sem, cc0_scratch17.sem, cc0_scratch18.sem, cc0_scratch19.sem, cc0_scratch20.sem, cc0_scratch21.sem] : List (DmaSem sig)).map fun s => ((thr, SemLoc.dma s) : GSem nD τ sig)).toFinset)
      fun g => semVal g 0, ?_⟩
  unfold SparseCore.Cfg.ownSems0
  rw [bigSep_group _ (ownCells thr) (([cc0_scoped0.sem] : List (DmaSem sig)).map fun s => ((thr, SemLoc.dma s) : GSem nD τ sig))
      ((List.nodup_singleton _).map hinj) (fun g hg => by
        obtain ⟨s, hs, rfl⟩ := List.mem_map.mp hg
        exact hown s (by simp only [List.mem_append]; exact .inl (.inl hs))),
    bigSep_group _ _ (([cc0_scratch8.sem, cc0_scratch9.sem, cc0_scratch10.sem, cc0_scratch11.sem, cc0_scratch12.sem, cc0_scratch13.sem, cc0_scratch14.sem] : List (DmaSem sig)).map fun s => ((thr, SemLoc.dma s) : GSem nD τ sig))
      (hnd1.map hinj) (fun g hg => by
        obtain ⟨s, hs, rfl⟩ := List.mem_map.mp hg
        refine Finset.mem_sdiff.mpr ⟨hown s (by simp only [List.mem_append]; exact .inl (.inr hs)), fun h => ?_⟩
        obtain ⟨a, ha, e⟩ := List.mem_map.mp (List.mem_toFinset.mp h)
        exact hne1 s hs ((hinj e).symm.trans (List.mem_singleton.mp ha))),
    bigSep_group _ _ (([cc0_scratch15.sem, cc0_scratch16.sem, cc0_scratch17.sem, cc0_scratch18.sem, cc0_scratch19.sem, cc0_scratch20.sem, cc0_scratch21.sem] : List (DmaSem sig)).map fun s => ((thr, SemLoc.dma s) : GSem nD τ sig))
      (hnd2.map hinj) (fun g hg => by
        obtain ⟨s, hs, rfl⟩ := List.mem_map.mp hg
        refine Finset.mem_sdiff.mpr ⟨Finset.mem_sdiff.mpr ⟨hown s (by simp only [List.mem_append]; exact .inr hs), fun h => ?_⟩, fun h => ?_⟩
        · obtain ⟨a, ha, e⟩ := List.mem_map.mp (List.mem_toFinset.mp h)
          exact (hne2 s hs).1 ((hinj e).symm.trans (List.mem_singleton.mp ha))
        · obtain ⟨a, ha, e⟩ := List.mem_map.mp (List.mem_toFinset.mp h)
          exact (hne2 s hs).2 ((hinj e) ▸ ha))]
  rfl

end Cert.Kernel.TileBody

end
-- ==== Proof.TileValBits.lean ====
/-
  What a chunk's copy-out leaves in the output, as the gathered array.

  Chunk c of a tile gathers, into a row buffer, the 128 table rows named by row c of the tile's index scratch, and
  copies the buffer out to 128 rows of the output. The index scratch holds the tile's block of the index array, so
  word p of its row c is the index array's word at (tile, c, p); the chunk's output rows start at row
  12800 * (L 1) + 6400 * (L 0) + 128 * c, so row p of the chunk is output row n = that start + p, and
  (n / 6400, n / 128 % 50, n % 128) = (tile, c, p): the place of the index array the gathered array reads row n
  through. Every index word is below the table's height, so reading it modulo the height changes nothing. Hence on
  the chunk's rows what the copy wrote is the gathered array, element by element.
-/
import proofs.«206768_g17686675325131_cont_8to1_990_33_alg».proof.Proof.TileDefsBits

noncomputable section

namespace Cert.Kernel.TileBody

open Cert.Kernel Cert.Kernel.Gen Cert.Kernel.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S32x50x128 EltTy.i32)
local notation "oV" => (Memref.whole Cert.Kernel.main_v1_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S50x128 EltTy.i32)

variable (d : Dev nD) (L : grid0.Coords)

local notation "thr" => (V d (cV L) (jV L))

open Idealize.ShloMosaic.ValueIdx

/-! ## Where the task's views put their indices -/

omit [URA U] [CountersIn U] [FloatOps F] in
/-- A word's place in the 128-vector's row-major order is its coordinate. -/
theorem val_rowMajor_symm_S128 (k : Fin S128.numel) :
    S128.rowMajor.symm k = ix1 (⟨k.val, by have := k.isLt; simpa [Shape.numel] using this⟩ : Fin 128) := by
  rw [Equiv.symm_apply_eq]
  refine Fin.ext ?_
  rw [Shape.rowMajor_val_one]

omit [URA U] [CountersIn U] [FloatOps F] in
/-- Word `r` of row `c` of the index scratch sits at (c, r). -/
theorem val_idxRowK_emb (c : Fin 50) (r : Fin 128) : (idxRowK c).view.emb (ix1 r) = ix2 c r := by
  have e : Shape.reshapeEquiv (squeezes_S1x128_S128 : S1x128.Squeezes S128).numel_eq (ix1 r) = ix2 (0 : Fin 1) r :=
    Shape.reshapeEquiv_eq_of_rowMajor _ (by
      rw [Shape.rowMajor_val_two, Shape.rowMajor_val_one]
      show 0 * 128 + r.val = r.val
      omega)
  show (Rect.unit (s := S50x128) ![c.val, 0] S1x128.size (inb_idx c)).emb (Shape.reshapeEquiv _ (ix1 r)) = _
  rw [e]
  funext a
  refine Fin.ext ?_
  match a with
  | ⟨0, _⟩ => show c.val + 1 * 0 = c.val; omega
  | ⟨1, _⟩ => show 0 + 1 * r.val = r.val; omega

omit [URA U] [CountersIn U] [FloatOps F] in
/-- Place (c, r) of the tile's block of the index array sits at (tile, c, r). -/
theorem val_iRowK_emb (c : Fin 50) (r : Fin 128) : (iRowK L).view.emb (ix2 c r) = ix3 (wid L) c r := by
  have e : Shape.reshapeEquiv (squeezes_S1x50x128_S50x128 : S1x50x128.Squeezes S50x128).numel_eq (ix2 c r) = ix3 (0 : Fin 1) c r :=
    Shape.reshapeEquiv_eq_of_rowMajor _ (by
      rw [Shape.rowMajor_val_three, Shape.rowMajor_val_two]
      show (0 * 50 + c.val) * 128 + r.val = c.val * 128 + r.val
      omega)
  show (Rect.unit (s := S32x50x128) (k0_off1 L) S1x50x128.size (k0_off1_inb L)).emb (Shape.reshapeEquiv _ (ix2 c r)) = _
  rw [e]
  funext a
  refine Fin.ext ?_
  match a with
  | ⟨0, _⟩ =>
    show (k0_off1 L) 0 + 1 * 0 = (L 1).val * 2 + (L 0).val
    rw [k0_off1_eq]
    show 2 * (L 1).val + (L 0).val + 1 * 0 = (L 1).val * 2 + (L 0).val
    omega
  | ⟨1, _⟩ =>
    show (k0_off1 L) 1 + 1 * c.val = c.val
    rw [k0_off1_eq]
    show 0 + 1 * c.val = c.val
    omega
  | ⟨2, _⟩ =>
    show (k0_off1 L) 2 + 1 * r.val = r.val
    rw [k0_off1_eq]
    show 0 + 1 * r.val = r.val
    omega

omit [URA U] [CountersIn U] [FloatOps F] in
/-- Row `p`, feature `q` of chunk `c`'s output rows sits at row 12800 * (L 1) + 6400 * (L 0) + 128 * c + p, feature q. -/
theorem val_oBlkK_emb (c : Fin 50) (p q : Fin 128) :
    ((oBlkK L c).view.emb (ix2 p q) 0).val = 12800 * (L 1).val + 6400 * (L 0).val + 128 * c.val + p.val
      ∧ ((oBlkK L c).view.emb (ix2 p q) 1).val = q.val := by
  constructor
  · show (k0_off2 L (BitVec.ofNat 32 c.val)) 0 + 1 * p.val = _
    rw [k0_off2_eq]
    show 12800 * (L 1).val + 6400 * (L 0).val + 128 * c.val + 1 * p.val = _
    omega
  · show (k0_off2 L (BitVec.ofNat 32 c.val)) 1 + 1 * q.val = _
    rw [k0_off2_eq]
    show 0 + 1 * q.val = _
    omega

omit [URA U] [CountersIn U] [FloatOps F] in
/-- The place of the index array that output row 12800 * (L 1) + 6400 * (L 0) + 128 * c + p is gathered through. -/
theorem val_idxOf (c : Fin 50) (p : Fin 128) (n : Fin 204800)
    (hn : n.val = 12800 * (L 1).val + 6400 * (L 0).val + 128 * c.val + p.val) : idxOf n = ix3 (wid L) c p := by
  have h0 : (L 0).val < 2 := (L 0).isLt
  have h1 : (L 1).val < 16 := (L 1).isLt
  have hc := c.isLt
  have hp := p.isLt
  funext a
  refine Fin.ext ?_
  match a with
  | ⟨0, _⟩ => show n.val / 6400 = (L 1).val * 2 + (L 0).val; omega
  | ⟨1, _⟩ => show n.val / 128 % 50 = c.val; omega
  | ⟨2, _⟩ => show n.val % 128 = p.val; omega

omit [CountersIn U] [FloatOps F] in
/-- Word `p` of row `c` of the index scratch, after the fetch, is the index array's word at (tile, c, p). -/
theorem val_word (fI : Buf (Elt F) (iLoc d)) (c : Fin 50) (p : Fin 128) (k : Fin S128.numel) (hk : k.val = p.val) :
    (idxRowK c).view.read (Elt F) (idxP d L fI) (S128.rowMajor.symm k) = fI (ix3 (wid L) c p) := by
  rw [val_rowMajor_symm_S128, show (⟨k.val, by have := k.isLt; simpa [Shape.numel] using this⟩ : Fin 128) = p from Fin.ext hk]
  refine ((View.read_apply _ _).trans (cast_eq _ _)).trans ?_
  rw [val_idxRowK_emb]
  show (iRowK L).view.read (Elt F) fI (ix2 c p) = _
  refine ((View.read_apply _ _).trans (cast_eq _ _)).trans ?_
  rw [val_iRowK_emb]

/-! ## The value -/

omit [CountersIn U] [FloatOps F] in
theorem out_val (fI : Buf (Elt F) (iLoc d)) (fW : Buf (Elt F) (wLoc d)) (hin : ∀ j, (fI j).toNat < 100000) (fO : Buf (Elt F) (oLoc d))
    (c : Fin 50) (b : Memref sig .scVector .vmem S128x128 .f32) (fd : Buf (Elt F) (b.view.loc thr)) :
    ((oBlkK L c).view.loc thr ↦[(oBlkK L c).view.set]{fullShare}
        View.write (Elt F) (oBlkK L c).view fO
          (ReadAs.same.apply (b.view.read (Elt F) (View.write (Elt F) b.view fd (gP d L fI fW hin c) Finset.univ))) Finset.univ : sProp 𝕄)
      = blkPts d L (Gath fI fW) c := by
  refine pointsTo_congr fun i hi => ?_
  obtain ⟨y, -, rfl⟩ := Finset.mem_map.mp hi
  obtain ⟨p, q, rfl⟩ : ∃ (p q : Fin 128), y = ix2 p q := ⟨y 0, y 1, eq_ix2 y⟩
  rw [View.write_emb_of_mem _ _ (Finset.mem_univ _)]
  refine (cast_eq _ _).trans ?_
  show (View.read (Elt F) b.view (View.write (Elt F) b.view fd (gP d L fI fW hin c) Finset.univ)) (ix2 p q) = _
  rw [View.read_write_univ]
  obtain ⟨e0, e1⟩ := val_oBlkK_emb L c p q
  have hidx : idxOf ((oBlkK L c).view.emb (ix2 p q) 0) = ix3 (wid L) c p := val_idxOf L c p _ e0
  show (wAllK).view.read (Elt F) fW (gathers_S100000x128_S128x128.idx
      (SparseCore.rows ((idxRowK c).view.read (Elt F) (idxP d L fI)) rfl (hin_row d L fI hin c)) (ix2 p q))
    = fW (ix2 (Cert.Spec.rowOf (fI (idxOf ((oBlkK L c).view.emb (ix2 p q) 0)))) ((oBlkK L c).view.emb (ix2 p q) 1))
  refine ((View.read_apply _ _).trans (cast_eq _ _)).trans ?_
  rw [hidx]
  refine congrArg fW (funext fun a => Fin.ext ?_)
  match a with
  | ⟨0, _⟩ =>
    show 0 + 1 * ((idxRowK c).view.read (Elt F) (idxP d L fI) (S128.rowMajor.symm (Fin.cast _ p))).toNat
      = (fI (ix3 (wid L) c p)).toNat % 100000
    refine (congrArg (fun w : Elt F .i32 => 0 + 1 * BitVec.toNat w) (val_word d L fI c p _ (by rfl))).trans ?_
    show 0 + 1 * (fI (ix3 (wid L) c p)).toNat = (fI (ix3 (wid L) c p)).toNat % 100000
    rw [Nat.mod_eq_of_lt (hin _)]
    omega
  | ⟨1, _⟩ =>
    show 0 + 1 * q.val = ((oBlkK L c).view.emb (ix2 p q) 1).val
    rw [e1]
    omega

end Cert.Kernel.TileBody

end
-- ==== Proof.TileP1Bits.lean ====
import proofs.«206768_g17686675325131_cont_8to1_990_33_alg».proof.Proof.TileDefsBits
import proofs.«206768_g17686675325131_cont_8to1_990_33_alg».proof.Proof.TileValBits
import proofs.«206768_g17686675325131_cont_8to1_990_33_alg».proof.Proof.TileGeomBits

noncomputable section

namespace Cert.Kernel.TileBody

open Cert.Kernel Cert.Kernel.Gen Cert.Kernel.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S32x50x128 EltTy.i32)
local notation "oV" => (Memref.whole Cert.Kernel.main_v1_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S50x128 EltTy.i32)

variable (d : Dev nD) (L : grid0.Coords)

local notation "thr" => (V d (cV L) (jV L))

set_option maxHeartbeats 4000000 in
theorem part_1 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) :
    iprop(R
        ∗ Transfers.MayWaits thr (default : HIx 1) O
        ∗ (∃ W', ⌜∀ p ∈ W', p ∈ W ∨ p.2 = none⌝ ∗ owes thr O W')
        ∗ ((iRowK L).view.loc thr ↦[(iRowK L).view.set]{fullShare} fI)
        ∗ (∃ fs, (sV).view.loc thr ↦{fullShare} fs)
        ∗ semVal (thr, SemLoc.dma cc0_scoped0.sem) 0
        ∗ (∃ f, bPts d L bV1 f)
        ∗ wPts d L fW q1
        ∗ semVal (thr, SemLoc.dma cc0_scratch8.sem) 0
        ∗ semVal (thr, SemLoc.dma cc0_scratch15.sem) 0
        ∗ (∃ f, bPts d L bV2 f)
        ∗ wPts d L fW q2
        ∗ semVal (thr, SemLoc.dma cc0_scratch9.sem) 0
        ∗ semVal (thr, SemLoc.dma cc0_scratch16.sem) 0
        ∗ (∃ f, bPts d L bV3 f)
        ∗ wPts d L fW q3
        ∗ semVal (thr, SemLoc.dma cc0_scratch10.sem) 0
        ∗ semVal (thr, SemLoc.dma cc0_scratch17.sem) 0
        ∗ (∃ f, bPts d L bV4 f)
        ∗ wPts d L fW q4
        ∗ semVal (thr, SemLoc.dma cc0_scratch11.sem) 0
        ∗ semVal (thr, SemLoc.dma cc0_scratch18.sem) 0
        ∗ (∃ f, bPts d L bV5 f)
        ∗ wPts d L fW q5
        ∗ semVal (thr, SemLoc.dma cc0_scratch12.sem) 0
        ∗ semVal (thr, SemLoc.dma cc0_scratch19.sem) 0
        ∗ (∃ f, bPts d L bV6 f)
        ∗ wPts d L fW q6
        ∗ semVal (thr, SemLoc.dma cc0_scratch13.sem) 0
        ∗ semVal (thr, SemLoc.dma cc0_scratch20.sem) 0
        ∗ (∃ f, bPts d L bV7 f)
        ∗ wPts d L fW q7
        ∗ semVal (thr, SemLoc.dma cc0_scratch14.sem) 0
        ∗ semVal (thr, SemLoc.dma cc0_scratch21.sem) 0
        ∗ Done (pc (rowPts d L fI)) 0
        ∗ Todo (pc (blkPts d L fO)) 0 50
        ∗ Done (pc (blkPts d L (Gath fI fW))) 0)
      ⊢ (wp frame (wpE (defs₀ (F := F)) 𝒱₀ thr none) Set.univ (k0_part1 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0)
          fun _ => iprop((R ∗ ((iRowK L).view.loc thr ↦[(iRowK L).view.set]{fullShare} fI) ∗ semVal (thr, SemLoc.dma cc0_scoped0.sem) 0)
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (0 : Fin 50) fd)
            ∗ semVal (thr, SemLoc.dma cc0_scratch15.sem) 0
            ∗ (∃ fd, GFl d L fI fW hin bV2 cc0_scratch9.sem q2 (1 : Fin 50) fd)
            ∗ semVal (thr, SemLoc.dma cc0_scratch16.sem) 0
            ∗ (∃ fd, GFl d L fI fW hin bV3 cc0_scratch10.sem q3 (2 : Fin 50) fd)
            ∗ semVal (thr, SemLoc.dma cc0_scratch17.sem) 0
            ∗ (∃ fd, GFl d L fI fW hin bV4 cc0_scratch11.sem q4 (3 : Fin 50) fd)
            ∗ semVal (thr, SemLoc.dma cc0_scratch18.sem) 0
            ∗ (∃ f, bPts d L bV5 f)
            ∗ wPts d L fW q5
            ∗ semVal (thr, SemLoc.dma cc0_scratch12.sem) 0
            ∗ semVal (thr, SemLoc.dma cc0_scratch19.sem) 0
            ∗ (∃ f, bPts d L bV6 f)
            ∗ wPts d L fW q6
            ∗ semVal (thr, SemLoc.dma cc0_scratch13.sem) 0
            ∗ semVal (thr, SemLoc.dma cc0_scratch20.sem) 0
            ∗ (∃ f, bPts d L bV7 f)
            ∗ wPts d L fW q7
            ∗ semVal (thr, SemLoc.dma cc0_scratch14.sem) 0
            ∗ semVal (thr, SemLoc.dma cc0_scratch21.sem) 0
            ∗ Todo (pc (rowPts d L fI)) 4 46
            ∗ Done (pc (rowPts d L fI)) 0
            ∗ Todo (pc (blkPts d L fO)) 0 50
            ∗ Done (pc (blkPts d L (Gath fI fW))) 0) : sProp 𝕄) := by
  simp only [k0_part1_eq_skeleton]; unfold k0_part1_skel
  iintro ⟨HR, #Hmw, ⟨%W0, %hW0, HO⟩, Hi, ⟨%fs, Hs⟩, Hsc, ⟨%fd1, Hb1⟩, HW1, Hg1, Hs1, ⟨%fd2, Hb2⟩, HW2, Hg2, Hs2, ⟨%fd3, Hb3⟩, HW3, Hg3, Hs3, ⟨%fd4, Hb4⟩, HW4, Hg4, Hs4, ⟨%fd5, Hb5⟩, HW5, Hg5, Hs5, ⟨%fd6, Hb6⟩, HW6, Hg6, Hs6, ⟨%fd7, Hb7⟩, HW7, Hg7, Hs7, ID, OT, OD⟩
  iapply (Transfers.wp_dmaLocal countersEmb 𝒱₀ thr none (default : HIx 1) _ rfl
      (by decide : 0 < (sV).view.amount (SemLoc.dma cc0_scoped0.sem)) (Finset.subset_univ _)) $$ [Hi Hs Hsc]
  · isplitl [Hi]; · iexact Hi
    isplitl [Hs]; · iexact Hs
    iexact Hsc
  iintro HF
  iapply (Transfers.wp_waitLocalO countersEmb 𝒱₀ thr none (default : HIx 1) rfl) $$ [HF HO]
  · isplitl [HF]; · iexact HF
    isplitl [HO]; · iexact HO
    iapply (Transfers.MayWaits.elim (SemLoc.dma cc0_scoped0.sem)) $$ Hmw
  iintro ⟨⟨Hs, Hi⟩, Hsc, HO⟩
  have hW1 := wstep hW0 (SemLoc.dma cc0_scoped0.sem)
  ihave IT := (idx_split d L fI fs) $$ Hs
  ihave IT' := (Entails.of_eq (todo_take (rowPts d L fI) 0 49 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (0 : Fin 50))) $$ [HW1 Hb1 Hr Hg1]
  · isplitl [HW1]; · iexact HW1
    isplitl [Hb1]; · iexact Hb1
    isplitl [Hr]; · iexact Hr
    iexact Hg1
  iintro HG1
  ihave IT' := (Entails.of_eq (todo_take (rowPts d L fI) 1 48 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (1 : Fin 50))) $$ [HW2 Hb2 Hr Hg2]
  · isplitl [HW2]; · iexact HW2
    isplitl [Hb2]; · iexact Hb2
    isplitl [Hr]; · iexact Hr
    iexact Hg2
  iintro HG2
  ihave IT' := (Entails.of_eq (todo_take (rowPts d L fI) 2 47 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (2 : Fin 50))) $$ [HW3 Hb3 Hr Hg3]
  · isplitl [HW3]; · iexact HW3
    isplitl [Hb3]; · iexact Hb3
    isplitl [Hr]; · iexact Hr
    iexact Hg3
  iintro HG3
  ihave IT' := (Entails.of_eq (todo_take (rowPts d L fI) 3 46 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (3 : Fin 50))) $$ [HW4 Hb4 Hr Hg4]
  · isplitl [HW4]; · iexact HW4
    isplitl [Hb4]; · iexact Hb4
    isplitl [Hr]; · iexact Hr
    iexact Hg4
  iintro HG4
  iapply (le_wp_ret _ _)
  isplitl [HR Hi Hsc]
  · isplitl [HR]
    · iexact HR
    isplitl [Hi]
    · iexact Hi
    iexact Hsc
  isplitl []
  · iexact Hmw
  isplitl [HO]
  · iexists _; isplitr
    · ipureintro; exact hW1
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [Hb5]
  · iexists _; iexact Hb5
  isplitl [HW5]
  · iexact HW5
  isplitl [Hg5]
  · iexact Hg5
  isplitl [Hs5]
  · iexact Hs5
  isplitl [Hb6]
  · iexists _; iexact Hb6
  isplitl [HW6]
  · iexact HW6
  isplitl [Hg6]
  · iexact Hg6
  isplitl [Hs6]
  · iexact Hs6
  isplitl [Hb7]
  · iexists _; iexact Hb7
  isplitl [HW7]
  · iexact HW7
  isplitl [Hg7]
  · iexact Hg7
  isplitl [Hs7]
  · iexact Hs7
  isplitl [IT]
  · iexact IT
  isplitl [ID]
  · iexact ID
  isplitl [OT]
  · iexact OT
  iexact OD

set_option maxHeartbeats 4000000 in
theorem part_2 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (0 : Fin 50) fd)
        ∗ semVal (thr, SemLoc.dma cc0_scratch15.sem) 0
        ∗ (∃ fd, GFl d L fI fW hin bV2 cc0_scratch9.sem q2 (1 : Fin 50) fd)
        ∗ semVal (thr, SemLoc.dma cc0_scratch16.sem) 0
        ∗ (∃ fd, GFl d L fI fW hin bV3 cc0_scratch10.sem q3 (2 : Fin 50) fd)
        ∗ semVal (thr, SemLoc.dma cc0_scratch17.sem) 0
        ∗ (∃ fd, GFl d L fI fW hin bV4 cc0_scratch11.sem q4 (3 : Fin 50) fd)
        ∗ semVal (thr, SemLoc.dma cc0_scratch18.sem) 0
        ∗ (∃ f, bPts d L bV5 f)
        ∗ wPts d L fW q5
        ∗ semVal (thr, SemLoc.dma cc0_scratch12.sem) 0
        ∗ semVal (thr, SemLoc.dma cc0_scratch19.sem) 0
        ∗ (∃ f, bPts d L bV6 f)
        ∗ wPts d L fW q6
        ∗ semVal (thr, SemLoc.dma cc0_scratch13.sem) 0
        ∗ semVal (thr, SemLoc.dma cc0_scratch20.sem) 0
        ∗ (∃ f, bPts d L bV7 f)
        ∗ wPts d L fW q7
        ∗ semVal (thr, SemLoc.dma cc0_scratch14.sem) 0
        ∗ semVal (thr, SemLoc.dma cc0_scratch21.sem) 0
        ∗ Todo (pc (rowPts d L fI)) 4 46
        ∗ Done (pc (rowPts d L fI)) 0
        ∗ Todo (pc (blkPts d L fO)) 0 50
        ∗ Done (pc (blkPts d L (Gath fI fW))) 0)
      ⊢ (wp frame (wpE (defs₀ (F := F)) 𝒱₀ thr none) Set.univ (k0_part2 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (0 : Fin 50) fd)
            ∗ wPts d L fW q1
            ∗ semVal (thr, SemLoc.dma cc0_scratch8.sem) 0
            ∗ (∃ fd, SFl d L fI fW hin fO bV2 cc0_scratch16.sem (1 : Fin 50) fd)
            ∗ wPts d L fW q2
            ∗ semVal (thr, SemLoc.dma cc0_scratch9.sem) 0
            ∗ (∃ fd, GFl d L fI fW hin bV3 cc0_scratch10.sem q3 (2 : Fin 50) fd)
            ∗ semVal (thr, SemLoc.dma cc0_scratch17.sem) 0
            ∗ (∃ fd, GFl d L fI fW hin bV4 cc0_scratch11.sem q4 (3 : Fin 50) fd)
            ∗ semVal (thr, SemLoc.dma cc0_scratch18.sem) 0
            ∗ (∃ fd, GFl d L fI fW hin bV5 cc0_scratch12.sem q5 (4 : Fin 50) fd)
            ∗ semVal (thr, SemLoc.dma cc0_scratch19.sem) 0
            ∗ (∃ fd, GFl d L fI fW hin bV6 cc0_scratch13.sem q6 (5 : Fin 50) fd)
            ∗ semVal (thr, SemLoc.dma cc0_scratch20.sem) 0
            ∗ (∃ fd, GFl d L fI fW hin bV7 cc0_scratch14.sem q7 (6 : Fin 50) fd)
            ∗ semVal (thr, SemLoc.dma cc0_scratch21.sem) 0
            ∗ Todo (pc (rowPts d L fI)) 7 43
            ∗ Done (pc (rowPts d L fI)) 2
            ∗ Todo (pc (blkPts d L fO)) 2 48
            ∗ Done (pc (blkPts d L (Gath fI fW))) 0) : sProp 𝕄) := by
  simp only [k0_part2_eq_skeleton]; unfold k0_part2_skel
  iintro ⟨HR, #Hmw, ⟨%W0, %hW0, HO⟩, ⟨%fd1, HG1⟩, Hs1, ⟨%fd2, HG2⟩, Hs2, ⟨%fd3, HG3⟩, Hs3, ⟨%fd4, HG4⟩, Hs4, ⟨%fd5, Hb5⟩, HW5, Hg5, Hs5, ⟨%fd6, Hb6⟩, HW6, Hg6, Hs6, ⟨%fd7, Hb7⟩, HW7, Hg7, Hs7, IT, ID, OT, OD⟩
  ihave IT' := (Entails.of_eq (todo_take (rowPts d L fI) 4 45 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (4 : Fin 50))) $$ [HW5 Hb5 Hr Hg5]
  · isplitl [HW5]; · iexact HW5
    isplitl [Hb5]; · iexact Hb5
    isplitl [Hr]; · iexact Hr
    iexact Hg5
  iintro HG5
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW1 := wstep hW0 (SemLoc.dma cc0_scratch8.sem)
  ihave ID := (Entails.of_eq (done_put (rowPts d L fI) 0 (by decide))) $$ [Hr ID]
  · isplitl [Hr]; · iexact Hr
    iexact ID
  ihave OT' := (Entails.of_eq (todo_take (blkPts d L fO) 0 49 (by decide))) $$ OT
  icases OT' with ⟨Ho, OT⟩
  iapply (Transfers.wp_dmaLocal countersEmb 𝒱₀ thr none (default : HIx 1) _ rfl
      (show 0 < (oBlkK L (0 : Fin 50)).view.amount (SemLoc.dma cc0_scratch15.sem) from View.dmaCredit_pos (oBlkK L (0 : Fin 50)).view (by decide)) (Finset.Subset.refl _)) $$ [Hb1 Ho Hs1]
  · isplitl [Hb1]; · iexact Hb1
    isplitl [Ho]; · iexact Ho
    iexact Hs1
  iintro HS1
  ihave IT' := (Entails.of_eq (todo_take (rowPts d L fI) 5 44 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (5 : Fin 50))) $$ [HW6 Hb6 Hr Hg6]
  · isplitl [HW6]; · iexact HW6
    isplitl [Hb6]; · iexact Hb6
    isplitl [Hr]; · iexact Hr
    iexact Hg6
  iintro HG6
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW2 := wstep hW1 (SemLoc.dma cc0_scratch9.sem)
  ihave ID := (Entails.of_eq (done_put (rowPts d L fI) 1 (by decide))) $$ [Hr ID]
  · isplitl [Hr]; · iexact Hr
    iexact ID
  ihave OT' := (Entails.of_eq (todo_take (blkPts d L fO) 1 48 (by decide))) $$ OT
  icases OT' with ⟨Ho, OT⟩
  iapply (Transfers.wp_dmaLocal countersEmb 𝒱₀ thr none (default : HIx 1) _ rfl
      (show 0 < (oBlkK L (1 : Fin 50)).view.amount (SemLoc.dma cc0_scratch16.sem) from View.dmaCredit_pos (oBlkK L (1 : Fin 50)).view (by decide)) (Finset.Subset.refl _)) $$ [Hb2 Ho Hs2]
  · isplitl [Hb2]; · iexact Hb2
    isplitl [Ho]; · iexact Ho
    iexact Hs2
  iintro HS2
  ihave IT' := (Entails.of_eq (todo_take (rowPts d L fI) 6 43 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (6 : Fin 50))) $$ [HW7 Hb7 Hr Hg7]
  · isplitl [HW7]; · iexact HW7
    isplitl [Hb7]; · iexact Hb7
    isplitl [Hr]; · iexact Hr
    iexact Hg7
  iintro HG7
  iapply (le_wp_ret _ _)
  isplitl [HR]
  · iexact HR
  isplitl []
  · iexact Hmw
  isplitl [HO]
  · iexists _; isplitr
    · ipureintro; exact hW2
    · iexact HO
  isplitl [HS1]
  · iexists _; iexact HS1
  isplitl [HW1]
  · iexact HW1
  isplitl [Hg1]
  · iexact Hg1
  isplitl [HS2]
  · iexists _; iexact HS2
  isplitl [HW2]
  · iexact HW2
  isplitl [Hg2]
  · iexact Hg2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_3 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (0 : Fin 50) fd)
        ∗ wPts d L fW q1
        ∗ semVal (thr, SemLoc.dma cc0_scratch8.sem) 0
        ∗ (∃ fd, SFl d L fI fW hin fO bV2 cc0_scratch16.sem (1 : Fin 50) fd)
        ∗ wPts d L fW q2
        ∗ semVal (thr, SemLoc.dma cc0_scratch9.sem) 0
        ∗ (∃ fd, GFl d L fI fW hin bV3 cc0_scratch10.sem q3 (2 : Fin 50) fd)
        ∗ semVal (thr, SemLoc.dma cc0_scratch17.sem) 0
        ∗ (∃ fd, GFl d L fI fW hin bV4 cc0_scratch11.sem q4 (3 : Fin 50) fd)
        ∗ semVal (thr, SemLoc.dma cc0_scratch18.sem) 0
        ∗ (∃ fd, GFl d L fI fW hin bV5 cc0_scratch12.sem q5 (4 : Fin 50) fd)
        ∗ semVal (thr, SemLoc.dma cc0_scratch19.sem) 0
        ∗ (∃ fd, GFl d L fI fW hin bV6 cc0_scratch13.sem q6 (5 : Fin 50) fd)
        ∗ semVal (thr, SemLoc.dma cc0_scratch20.sem) 0
        ∗ (∃ fd, GFl d L fI fW hin bV7 cc0_scratch14.sem q7 (6 : Fin 50) fd)
        ∗ semVal (thr, SemLoc.dma cc0_scratch21.sem) 0
        ∗ Todo (pc (rowPts d L fI)) 7 43
        ∗ Done (pc (rowPts d L fI)) 2
        ∗ Todo (pc (blkPts d L fO)) 2 48
        ∗ Done (pc (blkPts d L (Gath fI fW))) 0)
      ⊢ (wp frame (wpE (defs₀ (F := F)) 𝒱₀ thr none) Set.univ (k0_part3 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (7 : Fin 50) fd)
            ∗ semVal (thr, SemLoc.dma cc0_scratch15.sem) 0
            ∗ (∃ fd, SFl d L fI fW hin fO bV2 cc0_scratch16.sem (1 : Fin 50) fd)
            ∗ wPts d L fW q2
            ∗ semVal (thr, SemLoc.dma cc0_scratch9.sem) 0
            ∗ (∃ fd, SFl d L fI fW hin fO bV3 cc0_scratch17.sem (2 : Fin 50) fd)
            ∗ wPts d L fW q3
            ∗ semVal (thr, SemLoc.dma cc0_scratch10.sem) 0
            ∗ (∃ fd, SFl d L fI fW hin fO bV4 cc0_scratch18.sem (3 : Fin 50) fd)
            ∗ wPts d L fW q4
            ∗ semVal (thr, SemLoc.dma cc0_scratch11.sem) 0
            ∗ (∃ fd, GFl d L fI fW hin bV5 cc0_scratch12.sem q5 (4 : Fin 50) fd)
            ∗ semVal (thr, SemLoc.dma cc0_scratch19.sem) 0
            ∗ (∃ fd, GFl d L fI fW hin bV6 cc0_scratch13.sem q6 (5 : Fin 50) fd)
            ∗ semVal (thr, SemLoc.dma cc0_scratch20.sem) 0
            ∗ (∃ fd, GFl d L fI fW hin bV7 cc0_scratch14.sem q7 (6 : Fin 50) fd)
            ∗ semVal (thr, SemLoc.dma cc0_scratch21.sem) 0
            ∗ Todo (pc (rowPts d L fI)) 8 42
            ∗ Done (pc (rowPts d L fI)) 4
            ∗ Todo (pc (blkPts d L fO)) 4 46
            ∗ Done (pc (blkPts d L (Gath fI fW))) 1) : sProp 𝕄) := by
  simp only [k0_part3_eq_skeleton]; unfold k0_part3_skel
  iintro ⟨HR, #Hmw, ⟨%W0, %hW0, HO⟩, ⟨%fd1, HS1⟩, HW1, Hg1, ⟨%fd2, HS2⟩, HW2, Hg2, ⟨%fd3, HG3⟩, Hs3, ⟨%fd4, HG4⟩, Hs4, ⟨%fd5, HG5⟩, Hs5, ⟨%fd6, HG6⟩, Hs6, ⟨%fd7, HG7⟩, Hs7, IT, ID, OT, OD⟩
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW1 := wstep hW0 (SemLoc.dma cc0_scratch10.sem)
  ihave ID := (Entails.of_eq (done_put (rowPts d L fI) 2 (by decide))) $$ [Hr ID]
  · isplitl [Hr]; · iexact Hr
    iexact ID
  ihave OT' := (Entails.of_eq (todo_take (blkPts d L fO) 2 47 (by decide))) $$ OT
  icases OT' with ⟨Ho, OT⟩
  iapply (Transfers.wp_dmaLocal countersEmb 𝒱₀ thr none (default : HIx 1) _ rfl
      (show 0 < (oBlkK L (2 : Fin 50)).view.amount (SemLoc.dma cc0_scratch17.sem) from View.dmaCredit_pos (oBlkK L (2 : Fin 50)).view (by decide)) (Finset.Subset.refl _)) $$ [Hb3 Ho Hs3]
  · isplitl [Hb3]; · iexact Hb3
    isplitl [Ho]; · iexact Ho
    iexact Hs3
  iintro HS3
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW2 := wstep hW1 (SemLoc.dma cc0_scratch15.sem)
  ihave Ho := (Entails.of_eq (out_val d L fI fW hin fO (0 : Fin 50) bV1 _)) $$ Ho
  ihave OD := (Entails.of_eq (done_put (blkPts d L (Gath fI fW)) 0 (by decide))) $$ [Ho OD]
  · isplitl [Ho]; · iexact Ho
    iexact OD
  ihave IT' := (Entails.of_eq (todo_take (rowPts d L fI) 7 42 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (7 : Fin 50))) $$ [HW1 Hb1 Hr Hg1]
  · isplitl [HW1]; · iexact HW1
    isplitl [Hb1]; · iexact Hb1
    isplitl [Hr]; · iexact Hr
    iexact Hg1
  iintro HG1
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW3 := wstep hW2 (SemLoc.dma cc0_scratch11.sem)
  ihave ID := (Entails.of_eq (done_put (rowPts d L fI) 3 (by decide))) $$ [Hr ID]
  · isplitl [Hr]; · iexact Hr
    iexact ID
  ihave OT' := (Entails.of_eq (todo_take (blkPts d L fO) 3 46 (by decide))) $$ OT
  icases OT' with ⟨Ho, OT⟩
  iapply (Transfers.wp_dmaLocal countersEmb 𝒱₀ thr none (default : HIx 1) _ rfl
      (show 0 < (oBlkK L (3 : Fin 50)).view.amount (SemLoc.dma cc0_scratch18.sem) from View.dmaCredit_pos (oBlkK L (3 : Fin 50)).view (by decide)) (Finset.Subset.refl _)) $$ [Hb4 Ho Hs4]
  · isplitl [Hb4]; · iexact Hb4
    isplitl [Ho]; · iexact Ho
    iexact Hs4
  iintro HS4
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_4 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (7 : Fin 50) fd)
        ∗ semVal (thr, SemLoc.dma cc0_scratch15.sem) 0
        ∗ (∃ fd, SFl d L fI fW hin fO bV2 cc0_scratch16.sem (1 : Fin 50) fd)
        ∗ wPts d L fW q2
        ∗ semVal (thr, SemLoc.dma cc0_scratch9.sem) 0
        ∗ (∃ fd, SFl d L fI fW hin fO bV3 cc0_scratch17.sem (2 : Fin 50) fd)
        ∗ wPts d L fW q3
        ∗ semVal (thr, SemLoc.dma cc0_scratch10.sem) 0
        ∗ (∃ fd, SFl d L fI fW hin fO bV4 cc0_scratch18.sem (3 : Fin 50) fd)
        ∗ wPts d L fW q4
        ∗ semVal (thr, SemLoc.dma cc0_scratch11.sem) 0
        ∗ (∃ fd, GFl d L fI fW hin bV5 cc0_scratch12.sem q5 (4 : Fin 50) fd)
        ∗ semVal (thr, SemLoc.dma cc0_scratch19.sem) 0
        ∗ (∃ fd, GFl d L fI fW hin bV6 cc0_scratch13.sem q6 (5 : Fin 50) fd)
        ∗ semVal (thr, SemLoc.dma cc0_scratch20.sem) 0
        ∗ (∃ fd, GFl d L fI fW hin bV7 cc0_scratch14.sem q7 (6 : Fin 50) fd)
        ∗ semVal (thr, SemLoc.dma cc0_scratch21.sem) 0
        ∗ Todo (pc (rowPts d L fI)) 8 42
        ∗ Done (pc (rowPts d L fI)) 4
        ∗ Todo (pc (blkPts d L fO)) 4 46
        ∗ Done (pc (blkPts d L (Gath fI fW))) 1)
      ⊢ (wp frame (wpE (defs₀ (F := F)) 𝒱₀ thr none) Set.univ (k0_part4 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (7 : Fin 50) fd)
            ∗ semVal (thr, SemLoc.dma cc0_scratch15.sem) 0
            ∗ (∃ fd, GFl d L fI fW hin bV2 cc0_scratch9.sem q2 (8 : Fin 50) fd)
            ∗ semVal (thr, SemLoc.dma cc0_scratch16.sem) 0
            ∗ (∃ fd, GFl d L fI fW hin bV3 cc0_scratch10.sem q3 (9 : Fin 50) fd)
            ∗ semVal (thr, SemLoc.dma cc0_scratch17.sem) 0
            ∗ (∃ fd, SFl d L fI fW hin fO bV4 cc0_scratch18.sem (3 : Fin 50) fd)
            ∗ wPts d L fW q4
            ∗ semVal (thr, SemLoc.dma cc0_scratch11.sem) 0
            ∗ (∃ fd, SFl d L fI fW hin fO bV5 cc0_scratch19.sem (4 : Fin 50) fd)
            ∗ wPts d L fW q5
            ∗ semVal (thr, SemLoc.dma cc0_scratch12.sem) 0
            ∗ (∃ fd, bPts d L bV6 (View.write (Elt F) (bV6).view fd (gP d L fI fW hin (5 : Fin 50)) Finset.univ))
            ∗ wPts d L fW q6
            ∗ semVal (thr, SemLoc.dma cc0_scratch13.sem) 0
            ∗ semVal (thr, SemLoc.dma cc0_scratch20.sem) 0
            ∗ (∃ fd, GFl d L fI fW hin bV7 cc0_scratch14.sem q7 (6 : Fin 50) fd)
            ∗ semVal (thr, SemLoc.dma cc0_scratch21.sem) 0
            ∗ Todo (pc (rowPts d L fI)) 10 40
            ∗ Done (pc (rowPts d L fI)) 6
            ∗ Todo (pc (blkPts d L fO)) 5 45
            ∗ Done (pc (blkPts d L (Gath fI fW))) 3) : sProp 𝕄) := by
  simp only [k0_part4_eq_skeleton]; unfold k0_part4_skel
  iintro ⟨HR, #Hmw, ⟨%W0, %hW0, HO⟩, ⟨%fd1, HG1⟩, Hs1, ⟨%fd2, HS2⟩, HW2, Hg2, ⟨%fd3, HS3⟩, HW3, Hg3, ⟨%fd4, HS4⟩, HW4, Hg4, ⟨%fd5, HG5⟩, Hs5, ⟨%fd6, HG6⟩, Hs6, ⟨%fd7, HG7⟩, Hs7, IT, ID, OT, OD⟩
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW1 := wstep hW0 (SemLoc.dma cc0_scratch16.sem)
  ihave Ho := (Entails.of_eq (out_val d L fI fW hin fO (1 : Fin 50) bV2 _)) $$ Ho
  ihave OD := (Entails.of_eq (done_put (blkPts d L (Gath fI fW)) 1 (by decide))) $$ [Ho OD]
  · isplitl [Ho]; · iexact Ho
    iexact OD
  ihave IT' := (Entails.of_eq (todo_take (rowPts d L fI) 8 41 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (8 : Fin 50))) $$ [HW2 Hb2 Hr Hg2]
  · isplitl [HW2]; · iexact HW2
    isplitl [Hb2]; · iexact Hb2
    isplitl [Hr]; · iexact Hr
    iexact Hg2
  iintro HG2
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW2 := wstep hW1 (SemLoc.dma cc0_scratch12.sem)
  ihave ID := (Entails.of_eq (done_put (rowPts d L fI) 4 (by decide))) $$ [Hr ID]
  · isplitl [Hr]; · iexact Hr
    iexact ID
  ihave OT' := (Entails.of_eq (todo_take (blkPts d L fO) 4 45 (by decide))) $$ OT
  icases OT' with ⟨Ho, OT⟩
  iapply (Transfers.wp_dmaLocal countersEmb 𝒱₀ thr none (default : HIx 1) _ rfl
      (show 0 < (oBlkK L (4 : Fin 50)).view.amount (SemLoc.dma cc0_scratch19.sem) from View.dmaCredit_pos (oBlkK L (4 : Fin 50)).view (by decide)) (Finset.Subset.refl _)) $$ [Hb5 Ho Hs5]
  · isplitl [Hb5]; · iexact Hb5
    isplitl [Ho]; · iexact Ho
    iexact Hs5
  iintro HS5
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW3 := wstep hW2 (SemLoc.dma cc0_scratch17.sem)
  ihave Ho := (Entails.of_eq (out_val d L fI fW hin fO (2 : Fin 50) bV3 _)) $$ Ho
  ihave OD := (Entails.of_eq (done_put (blkPts d L (Gath fI fW)) 2 (by decide))) $$ [Ho OD]
  · isplitl [Ho]; · iexact Ho
    iexact OD
  ihave IT' := (Entails.of_eq (todo_take (rowPts d L fI) 9 40 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (9 : Fin 50))) $$ [HW3 Hb3 Hr Hg3]
  · isplitl [HW3]; · iexact HW3
    isplitl [Hb3]; · iexact Hb3
    isplitl [Hr]; · iexact Hr
    iexact Hg3
  iintro HG3
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW4 := wstep hW3 (SemLoc.dma cc0_scratch13.sem)
  ihave ID := (Entails.of_eq (done_put (rowPts d L fI) 5 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW4
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [Hb6]
  · iexists _; iexact Hb6
  isplitl [HW6]
  · iexact HW6
  isplitl [Hg6]
  · iexact Hg6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_5 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (c50_i32_93 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (7 : Fin 50) fd)
        ∗ semVal (thr, SemLoc.dma cc0_scratch15.sem) 0
        ∗ (∃ fd, GFl d L fI fW hin bV2 cc0_scratch9.sem q2 (8 : Fin 50) fd)
        ∗ semVal (thr, SemLoc.dma cc0_scratch16.sem) 0
        ∗ (∃ fd, GFl d L fI fW hin bV3 cc0_scratch10.sem q3 (9 : Fin 50) fd)
        ∗ semVal (thr, SemLoc.dma cc0_scratch17.sem) 0
        ∗ (∃ fd, SFl d L fI fW hin fO bV4 cc0_scratch18.sem (3 : Fin 50) fd)
        ∗ wPts d L fW q4
        ∗ semVal (thr, SemLoc.dma cc0_scratch11.sem) 0
        ∗ (∃ fd, SFl d L fI fW hin fO bV5 cc0_scratch19.sem (4 : Fin 50) fd)
        ∗ wPts d L fW q5
        ∗ semVal (thr, SemLoc.dma cc0_scratch12.sem) 0
        ∗ (∃ fd, bPts d L bV6 (View.write (Elt F) (bV6).view fd (gP d L fI fW hin (5 : Fin 50)) Finset.univ))
        ∗ wPts d L fW q6
        ∗ semVal (thr, SemLoc.dma cc0_scratch13.sem) 0
        ∗ semVal (thr, SemLoc.dma cc0_scratch20.sem) 0
        ∗ (∃ fd, GFl d L fI fW hin bV7 cc0_scratch14.sem q7 (6 : Fin 50) fd)
        ∗ semVal (thr, SemLoc.dma cc0_scratch21.sem) 0
        ∗ Todo (pc (rowPts d L fI)) 10 40
        ∗ Done (pc (rowPts d L fI)) 6
        ∗ Todo (pc (blkPts d L fO)) 5 45
        ∗ Done (pc (blkPts d L (Gath fI fW))) 3)
      ⊢ (wp frame (wpE (defs₀ (F := F)) 𝒱₀ thr none) Set.univ (k0_part5 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 c50_i32_93)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (7 : Fin 50) fd)
            ∗ semVal (thr, SemLoc.dma cc0_scratch15.sem) 0
            ∗ (∃ fd, GFl d L fI fW hin bV2 cc0_scratch9.sem q2 (8 : Fin 50) fd)
            ∗ semVal (thr, SemLoc.dma cc0_scratch16.sem) 0
            ∗ (∃ fd, GFl d L fI fW hin bV3 cc0_scratch10.sem q3 (9 : Fin 50) fd)
            ∗ semVal (thr, SemLoc.dma cc0_scratch17.sem) 0
            ∗ (∃ fd, GFl d L fI fW hin bV4 cc0_scratch11.sem q4 (10 : Fin 50) fd)
            ∗ semVal (thr, SemLoc.dma cc0_scratch18.sem) 0
            ∗ (∃ f, bPts d L bV5 f)
            ∗ wPts d L fW q5
            ∗ semVal (thr, SemLoc.dma cc0_scratch12.sem) 0
            ∗ semVal (thr, SemLoc.dma cc0_scratch19.sem) 0
            ∗ (∃ fd, SFl d L fI fW hin fO bV6 cc0_scratch20.sem (5 : Fin 50) fd)
            ∗ wPts d L fW q6
            ∗ semVal (thr, SemLoc.dma cc0_scratch13.sem) 0
            ∗ (∃ fd, SFl d L fI fW hin fO bV7 cc0_scratch21.sem (6 : Fin 50) fd)
            ∗ wPts d L fW q7
            ∗ semVal (thr, SemLoc.dma cc0_scratch14.sem) 0
            ∗ Todo (pc (rowPts d L fI)) 11 39
            ∗ Done (pc (rowPts d L fI)) 7
            ∗ Todo (pc (blkPts d L fO)) 7 43
            ∗ Done (pc (blkPts d L (Gath fI fW))) 5) : sProp 𝕄) := by
  simp only [k0_part5_eq_skeleton]; unfold k0_part5_skel
  iintro ⟨HR, #Hmw, ⟨%W0, %hW0, HO⟩, ⟨%fd1, HG1⟩, Hs1, ⟨%fd2, HG2⟩, Hs2, ⟨%fd3, HG3⟩, Hs3, ⟨%fd4, HS4⟩, HW4, Hg4, ⟨%fd5, HS5⟩, HW5, Hg5, ⟨%fd6, Hb6⟩, HW6, Hg6, Hs6, ⟨%fd7, HG7⟩, Hs7, IT, ID, OT, OD⟩
  ihave OT' := (Entails.of_eq (todo_take (blkPts d L fO) 5 44 (by decide))) $$ OT
  icases OT' with ⟨Ho, OT⟩
  iapply (Transfers.wp_dmaLocal countersEmb 𝒱₀ thr none (default : HIx 1) _ rfl
      (show 0 < (oBlkK L (5 : Fin 50)).view.amount (SemLoc.dma cc0_scratch20.sem) from View.dmaCredit_pos (oBlkK L (5 : Fin 50)).view (by decide)) (Finset.Subset.refl _)) $$ [Hb6 Ho Hs6]
  · isplitl [Hb6]; · iexact Hb6
    isplitl [Ho]; · iexact Ho
    iexact Hs6
  iintro HS6
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW1 := wstep hW0 (SemLoc.dma cc0_scratch18.sem)
  ihave Ho := (Entails.of_eq (out_val d L fI fW hin fO (3 : Fin 50) bV4 _)) $$ Ho
  ihave OD := (Entails.of_eq (done_put (blkPts d L (Gath fI fW)) 3 (by decide))) $$ [Ho OD]
  · isplitl [Ho]; · iexact Ho
    iexact OD
  ihave IT' := (Entails.of_eq (todo_take (rowPts d L fI) 10 39 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (10 : Fin 50))) $$ [HW4 Hb4 Hr Hg4]
  · isplitl [HW4]; · iexact HW4
    isplitl [Hb4]; · iexact Hb4
    isplitl [Hr]; · iexact Hr
    iexact Hg4
  iintro HG4
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW2 := wstep hW1 (SemLoc.dma cc0_scratch14.sem)
  ihave ID := (Entails.of_eq (done_put (rowPts d L fI) 6 (by decide))) $$ [Hr ID]
  · isplitl [Hr]; · iexact Hr
    iexact ID
  ihave OT' := (Entails.of_eq (todo_take (blkPts d L fO) 6 43 (by decide))) $$ OT
  icases OT' with ⟨Ho, OT⟩
  iapply (Transfers.wp_dmaLocal countersEmb 𝒱₀ thr none (default : HIx 1) _ rfl
      (show 0 < (oBlkK L (6 : Fin 50)).view.amount (SemLoc.dma cc0_scratch21.sem) from View.dmaCredit_pos (oBlkK L (6 : Fin 50)).view (by decide)) (Finset.Subset.refl _)) $$ [Hb7 Ho Hs7]
  · isplitl [Hb7]; · iexact Hb7
    isplitl [Ho]; · iexact Ho
    iexact Hs7
  iintro HS7
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW3 := wstep hW2 (SemLoc.dma cc0_scratch19.sem)
  ihave Ho := (Entails.of_eq (out_val d L fI fW hin fO (4 : Fin 50) bV5 _)) $$ Ho
  ihave OD := (Entails.of_eq (done_put (blkPts d L (Gath fI fW)) 4 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [Hb5]
  · iexists _; iexact Hb5
  isplitl [HW5]
  · iexact HW5
  isplitl [Hg5]
  · iexact Hg5
  isplitl [Hs5]
  · iexact Hs5
  isplitl [HS6]
  · iexists _; iexact HS6
  isplitl [HW6]
  · iexact HW6
  isplitl [Hg6]
  · iexact Hg6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_6 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (7 : Fin 50) fd)
        ∗ semVal (thr, SemLoc.dma cc0_scratch15.sem) 0
        ∗ (∃ fd, GFl d L fI fW hin bV2 cc0_scratch9.sem q2 (8 : Fin 50) fd)
        ∗ semVal (thr, SemLoc.dma cc0_scratch16.sem) 0
        ∗ (∃ fd, GFl d L fI fW hin bV3 cc0_scratch10.sem q3 (9 : Fin 50) fd)
        ∗ semVal (thr, SemLoc.dma cc0_scratch17.sem) 0
        ∗ (∃ fd, GFl d L fI fW hin bV4 cc0_scratch11.sem q4 (10 : Fin 50) fd)
        ∗ semVal (thr, SemLoc.dma cc0_scratch18.sem) 0
        ∗ (∃ f, bPts d L bV5 f)
        ∗ wPts d L fW q5
        ∗ semVal (thr, SemLoc.dma cc0_scratch12.sem) 0
        ∗ semVal (thr, SemLoc.dma cc0_scratch19.sem) 0
        ∗ (∃ fd, SFl d L fI fW hin fO bV6 cc0_scratch20.sem (5 : Fin 50) fd)
        ∗ wPts d L fW q6
        ∗ semVal (thr, SemLoc.dma cc0_scratch13.sem) 0
        ∗ (∃ fd, SFl d L fI fW hin fO bV7 cc0_scratch21.sem (6 : Fin 50) fd)
        ∗ wPts d L fW q7
        ∗ semVal (thr, SemLoc.dma cc0_scratch14.sem) 0
        ∗ Todo (pc (rowPts d L fI)) 11 39
        ∗ Done (pc (rowPts d L fI)) 7
        ∗ Todo (pc (blkPts d L fO)) 7 43
        ∗ Done (pc (blkPts d L (Gath fI fW))) 5)
      ⊢ (wp frame (wpE (defs₀ (F := F)) 𝒱₀ thr none) Set.univ (k0_part6 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (7 : Fin 50) fd)
            ∗ wPts d L fW q1
            ∗ semVal (thr, SemLoc.dma cc0_scratch8.sem) 0
            ∗ (∃ fd, bPts d L bV2 (View.write (Elt F) (bV2).view fd (gP d L fI fW hin (8 : Fin 50)) Finset.univ))
            ∗ wPts d L fW q2
            ∗ semVal (thr, SemLoc.dma cc0_scratch9.sem) 0
            ∗ semVal (thr, SemLoc.dma cc0_scratch16.sem) 0
            ∗ (∃ fd, GFl d L fI fW hin bV3 cc0_scratch10.sem q3 (9 : Fin 50) fd)
            ∗ semVal (thr, SemLoc.dma cc0_scratch17.sem) 0
            ∗ (∃ fd, GFl d L fI fW hin bV4 cc0_scratch11.sem q4 (10 : Fin 50) fd)
            ∗ semVal (thr, SemLoc.dma cc0_scratch18.sem) 0
            ∗ (∃ fd, GFl d L fI fW hin bV5 cc0_scratch12.sem q5 (11 : Fin 50) fd)
            ∗ semVal (thr, SemLoc.dma cc0_scratch19.sem) 0
            ∗ (∃ fd, GFl d L fI fW hin bV6 cc0_scratch13.sem q6 (12 : Fin 50) fd)
            ∗ semVal (thr, SemLoc.dma cc0_scratch20.sem) 0
            ∗ (∃ fd, SFl d L fI fW hin fO bV7 cc0_scratch21.sem (6 : Fin 50) fd)
            ∗ wPts d L fW q7
            ∗ semVal (thr, SemLoc.dma cc0_scratch14.sem) 0
            ∗ Todo (pc (rowPts d L fI)) 13 37
            ∗ Done (pc (rowPts d L fI)) 9
            ∗ Todo (pc (blkPts d L fO)) 8 42
            ∗ Done (pc (blkPts d L (Gath fI fW))) 6) : sProp 𝕄) := by
  simp only [k0_part6_eq_skeleton]; unfold k0_part6_skel
  iintro ⟨HR, #Hmw, ⟨%W0, %hW0, HO⟩, ⟨%fd1, HG1⟩, Hs1, ⟨%fd2, HG2⟩, Hs2, ⟨%fd3, HG3⟩, Hs3, ⟨%fd4, HG4⟩, Hs4, ⟨%fd5, Hb5⟩, HW5, Hg5, Hs5, ⟨%fd6, HS6⟩, HW6, Hg6, ⟨%fd7, HS7⟩, HW7, Hg7, IT, ID, OT, OD⟩
  ihave IT' := (Entails.of_eq (todo_take (rowPts d L fI) 11 38 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (11 : Fin 50))) $$ [HW5 Hb5 Hr Hg5]
  · isplitl [HW5]; · iexact HW5
    isplitl [Hb5]; · iexact Hb5
    isplitl [Hr]; · iexact Hr
    iexact Hg5
  iintro HG5
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW1 := wstep hW0 (SemLoc.dma cc0_scratch8.sem)
  ihave ID := (Entails.of_eq (done_put (rowPts d L fI) 7 (by decide))) $$ [Hr ID]
  · isplitl [Hr]; · iexact Hr
    iexact ID
  ihave OT' := (Entails.of_eq (todo_take (blkPts d L fO) 7 42 (by decide))) $$ OT
  icases OT' with ⟨Ho, OT⟩
  iapply (Transfers.wp_dmaLocal countersEmb 𝒱₀ thr none (default : HIx 1) _ rfl
      (show 0 < (oBlkK L (7 : Fin 50)).view.amount (SemLoc.dma cc0_scratch15.sem) from View.dmaCredit_pos (oBlkK L (7 : Fin 50)).view (by decide)) (Finset.Subset.refl _)) $$ [Hb1 Ho Hs1]
  · isplitl [Hb1]; · iexact Hb1
    isplitl [Ho]; · iexact Ho
    iexact Hs1
  iintro HS1
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW2 := wstep hW1 (SemLoc.dma cc0_scratch20.sem)
  ihave Ho := (Entails.of_eq (out_val d L fI fW hin fO (5 : Fin 50) bV6 _)) $$ Ho
  ihave OD := (Entails.of_eq (done_put (blkPts d L (Gath fI fW)) 5 (by decide))) $$ [Ho OD]
  · isplitl [Ho]; · iexact Ho
    iexact OD
  ihave IT' := (Entails.of_eq (todo_take (rowPts d L fI) 12 37 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (12 : Fin 50))) $$ [HW6 Hb6 Hr Hg6]
  · isplitl [HW6]; · iexact HW6
    isplitl [Hb6]; · iexact Hb6
    isplitl [Hr]; · iexact Hr
    iexact Hg6
  iintro HG6
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW3 := wstep hW2 (SemLoc.dma cc0_scratch9.sem)
  ihave ID := (Entails.of_eq (done_put (rowPts d L fI) 8 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [Hb2]
  · iexists _; iexact Hb2
  isplitl [HW2]
  · iexact HW2
  isplitl [Hg2]
  · iexact Hg2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_7 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (7 : Fin 50) fd)
        ∗ wPts d L fW q1
        ∗ semVal (thr, SemLoc.dma cc0_scratch8.sem) 0
        ∗ (∃ fd, bPts d L bV2 (View.write (Elt F) (bV2).view fd (gP d L fI fW hin (8 : Fin 50)) Finset.univ))
        ∗ wPts d L fW q2
        ∗ semVal (thr, SemLoc.dma cc0_scratch9.sem) 0
        ∗ semVal (thr, SemLoc.dma cc0_scratch16.sem) 0
        ∗ (∃ fd, GFl d L fI fW hin bV3 cc0_scratch10.sem q3 (9 : Fin 50) fd)
        ∗ semVal (thr, SemLoc.dma cc0_scratch17.sem) 0
        ∗ (∃ fd, GFl d L fI fW hin bV4 cc0_scratch11.sem q4 (10 : Fin 50) fd)
        ∗ semVal (thr, SemLoc.dma cc0_scratch18.sem) 0
        ∗ (∃ fd, GFl d L fI fW hin bV5 cc0_scratch12.sem q5 (11 : Fin 50) fd)
        ∗ semVal (thr, SemLoc.dma cc0_scratch19.sem) 0
        ∗ (∃ fd, GFl d L fI fW hin bV6 cc0_scratch13.sem q6 (12 : Fin 50) fd)
        ∗ semVal (thr, SemLoc.dma cc0_scratch20.sem) 0
        ∗ (∃ fd, SFl d L fI fW hin fO bV7 cc0_scratch21.sem (6 : Fin 50) fd)
        ∗ wPts d L fW q7
        ∗ semVal (thr, SemLoc.dma cc0_scratch14.sem) 0
        ∗ Todo (pc (rowPts d L fI)) 13 37
        ∗ Done (pc (rowPts d L fI)) 9
        ∗ Todo (pc (blkPts d L fO)) 8 42
        ∗ Done (pc (blkPts d L (Gath fI fW))) 6)
      ⊢ (wp frame (wpE (defs₀ (F := F)) 𝒱₀ thr none) Set.univ (k0_part7 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ f, bPts d L bV1 f)
            ∗ wPts d L fW q1
            ∗ semVal (thr, SemLoc.dma cc0_scratch8.sem) 0
            ∗ semVal (thr, SemLoc.dma cc0_scratch15.sem) 0
            ∗ (∃ fd, SFl d L fI fW hin fO bV2 cc0_scratch16.sem (8 : Fin 50) fd)
            ∗ wPts d L fW q2
            ∗ semVal (thr, SemLoc.dma cc0_scratch9.sem) 0
            ∗ (∃ fd, SFl d L fI fW hin fO bV3 cc0_scratch17.sem (9 : Fin 50) fd)
            ∗ wPts d L fW q3
            ∗ semVal (thr, SemLoc.dma cc0_scratch10.sem) 0
            ∗ (∃ fd, GFl d L fI fW hin bV4 cc0_scratch11.sem q4 (10 : Fin 50) fd)
            ∗ semVal (thr, SemLoc.dma cc0_scratch18.sem) 0
            ∗ (∃ fd, GFl d L fI fW hin bV5 cc0_scratch12.sem q5 (11 : Fin 50) fd)
            ∗ semVal (thr, SemLoc.dma cc0_scratch19.sem) 0
            ∗ (∃ fd, GFl d L fI fW hin bV6 cc0_scratch13.sem q6 (12 : Fin 50) fd)
            ∗ semVal (thr, SemLoc.dma cc0_scratch20.sem) 0
            ∗ (∃ fd, GFl d L fI fW hin bV7 cc0_scratch14.sem q7 (13 : Fin 50) fd)
            ∗ semVal (thr, SemLoc.dma cc0_scratch21.sem) 0
            ∗ Todo (pc (rowPts d L fI)) 14 36
            ∗ Done (pc (rowPts d L fI)) 10
            ∗ Todo (pc (blkPts d L fO)) 10 40
            ∗ Done (pc (blkPts d L (Gath fI fW))) 8) : sProp 𝕄) := by
  simp only [k0_part7_eq_skeleton]; unfold k0_part7_skel
  iintro ⟨HR, #Hmw, ⟨%W0, %hW0, HO⟩, ⟨%fd1, HS1⟩, HW1, Hg1, ⟨%fd2, Hb2⟩, HW2, Hg2, Hs2, ⟨%fd3, HG3⟩, Hs3, ⟨%fd4, HG4⟩, Hs4, ⟨%fd5, HG5⟩, Hs5, ⟨%fd6, HG6⟩, Hs6, ⟨%fd7, HS7⟩, HW7, Hg7, IT, ID, OT, OD⟩
  ihave OT' := (Entails.of_eq (todo_take (blkPts d L fO) 8 41 (by decide))) $$ OT
  icases OT' with ⟨Ho, OT⟩
  iapply (Transfers.wp_dmaLocal countersEmb 𝒱₀ thr none (default : HIx 1) _ rfl
      (show 0 < (oBlkK L (8 : Fin 50)).view.amount (SemLoc.dma cc0_scratch16.sem) from View.dmaCredit_pos (oBlkK L (8 : Fin 50)).view (by decide)) (Finset.Subset.refl _)) $$ [Hb2 Ho Hs2]
  · isplitl [Hb2]; · iexact Hb2
    isplitl [Ho]; · iexact Ho
    iexact Hs2
  iintro HS2
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW1 := wstep hW0 (SemLoc.dma cc0_scratch21.sem)
  ihave Ho := (Entails.of_eq (out_val d L fI fW hin fO (6 : Fin 50) bV7 _)) $$ Ho
  ihave OD := (Entails.of_eq (done_put (blkPts d L (Gath fI fW)) 6 (by decide))) $$ [Ho OD]
  · isplitl [Ho]; · iexact Ho
    iexact OD
  ihave IT' := (Entails.of_eq (todo_take (rowPts d L fI) 13 36 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (13 : Fin 50))) $$ [HW7 Hb7 Hr Hg7]
  · isplitl [HW7]; · iexact HW7
    isplitl [Hb7]; · iexact Hb7
    isplitl [Hr]; · iexact Hr
    iexact Hg7
  iintro HG7
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW2 := wstep hW1 (SemLoc.dma cc0_scratch10.sem)
  ihave ID := (Entails.of_eq (done_put (rowPts d L fI) 9 (by decide))) $$ [Hr ID]
  · isplitl [Hr]; · iexact Hr
    iexact ID
  ihave OT' := (Entails.of_eq (todo_take (blkPts d L fO) 9 40 (by decide))) $$ OT
  icases OT' with ⟨Ho, OT⟩
  iapply (Transfers.wp_dmaLocal countersEmb 𝒱₀ thr none (default : HIx 1) _ rfl
      (show 0 < (oBlkK L (9 : Fin 50)).view.amount (SemLoc.dma cc0_scratch17.sem) from View.dmaCredit_pos (oBlkK L (9 : Fin 50)).view (by decide)) (Finset.Subset.refl _)) $$ [Hb3 Ho Hs3]
  · isplitl [Hb3]; · iexact Hb3
    isplitl [Ho]; · iexact Ho
    iexact Hs3
  iintro HS3
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW3 := wstep hW2 (SemLoc.dma cc0_scratch15.sem)
  ihave Ho := (Entails.of_eq (out_val d L fI fW hin fO (7 : Fin 50) bV1 _)) $$ Ho
  ihave OD := (Entails.of_eq (done_put (blkPts d L (Gath fI fW)) 7 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [Hb1]
  · iexists _; iexact Hb1
  isplitl [HW1]
  · iexact HW1
  isplitl [Hg1]
  · iexact Hg1
  isplitl [Hs1]
  · iexact Hs1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_8 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ f, bPts d L bV1 f)
        ∗ wPts d L fW q1
        ∗ semVal (thr, SemLoc.dma cc0_scratch8.sem) 0
        ∗ semVal (thr, SemLoc.dma cc0_scratch15.sem) 0
        ∗ (∃ fd, SFl d L fI fW hin fO bV2 cc0_scratch16.sem (8 : Fin 50) fd)
        ∗ wPts d L fW q2
        ∗ semVal (thr, SemLoc.dma cc0_scratch9.sem) 0
        ∗ (∃ fd, SFl d L fI fW hin fO bV3 cc0_scratch17.sem (9 : Fin 50) fd)
        ∗ wPts d L fW q3
        ∗ semVal (thr, SemLoc.dma cc0_scratch10.sem) 0
        ∗ (∃ fd, GFl d L fI fW hin bV4 cc0_scratch11.sem q4 (10 : Fin 50) fd)
        ∗ semVal (thr, SemLoc.dma cc0_scratch18.sem) 0
        ∗ (∃ fd, GFl d L fI fW hin bV5 cc0_scratch12.sem q5 (11 : Fin 50) fd)
        ∗ semVal (thr, SemLoc.dma cc0_scratch19.sem) 0
        ∗ (∃ fd, GFl d L fI fW hin bV6 cc0_scratch13.sem q6 (12 : Fin 50) fd)
        ∗ semVal (thr, SemLoc.dma cc0_scratch20.sem) 0
        ∗ (∃ fd, GFl d L fI fW hin bV7 cc0_scratch14.sem q7 (13 : Fin 50) fd)
        ∗ semVal (thr, SemLoc.dma cc0_scratch21.sem) 0
        ∗ Todo (pc (rowPts d L fI)) 14 36
        ∗ Done (pc (rowPts d L fI)) 10
        ∗ Todo (pc (blkPts d L fO)) 10 40
        ∗ Done (pc (blkPts d L (Gath fI fW))) 8)
      ⊢ (wp frame (wpE (defs₀ (F := F)) 𝒱₀ thr none) Set.univ (k0_part8 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (14 : Fin 50) fd)
            ∗ semVal (thr, SemLoc.dma cc0_scratch15.sem) 0
            ∗ (∃ fd, GFl d L fI fW hin bV2 cc0_scratch9.sem q2 (15 : Fin 50) fd)
            ∗ semVal (thr, SemLoc.dma cc0_scratch16.sem) 0
            ∗ (∃ fd, SFl d L fI fW hin fO bV3 cc0_scratch17.sem (9 : Fin 50) fd)
            ∗ wPts d L fW q3
            ∗ semVal (thr, SemLoc.dma cc0_scratch10.sem) 0
            ∗ (∃ fd, SFl d L fI fW hin fO bV4 cc0_scratch18.sem (10 : Fin 50) fd)
            ∗ wPts d L fW q4
            ∗ semVal (thr, SemLoc.dma cc0_scratch11.sem) 0
            ∗ (∃ fd, SFl d L fI fW hin fO bV5 cc0_scratch19.sem (11 : Fin 50) fd)
            ∗ wPts d L fW q5
            ∗ semVal (thr, SemLoc.dma cc0_scratch12.sem) 0
            ∗ (∃ fd, GFl d L fI fW hin bV6 cc0_scratch13.sem q6 (12 : Fin 50) fd)
            ∗ semVal (thr, SemLoc.dma cc0_scratch20.sem) 0
            ∗ (∃ fd, GFl d L fI fW hin bV7 cc0_scratch14.sem q7 (13 : Fin 50) fd)
            ∗ semVal (thr, SemLoc.dma cc0_scratch21.sem) 0
            ∗ Todo (pc (rowPts d L fI)) 16 34
            ∗ Done (pc (rowPts d L fI)) 12
            ∗ Todo (pc (blkPts d L fO)) 12 38
            ∗ Done (pc (blkPts d L (Gath fI fW))) 9) : sProp 𝕄) := by
  simp only [k0_part8_eq_skeleton]; unfold k0_part8_skel
  iintro ⟨HR, #Hmw, ⟨%W0, %hW0, HO⟩, ⟨%fd1, Hb1⟩, HW1, Hg1, Hs1, ⟨%fd2, HS2⟩, HW2, Hg2, ⟨%fd3, HS3⟩, HW3, Hg3, ⟨%fd4, HG4⟩, Hs4, ⟨%fd5, HG5⟩, Hs5, ⟨%fd6, HG6⟩, Hs6, ⟨%fd7, HG7⟩, Hs7, IT, ID, OT, OD⟩
  ihave IT' := (Entails.of_eq (todo_take (rowPts d L fI) 14 35 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (14 : Fin 50))) $$ [HW1 Hb1 Hr Hg1]
  · isplitl [HW1]; · iexact HW1
    isplitl [Hb1]; · iexact Hb1
    isplitl [Hr]; · iexact Hr
    iexact Hg1
  iintro HG1
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW1 := wstep hW0 (SemLoc.dma cc0_scratch11.sem)
  ihave ID := (Entails.of_eq (done_put (rowPts d L fI) 10 (by decide))) $$ [Hr ID]
  · isplitl [Hr]; · iexact Hr
    iexact ID
  ihave OT' := (Entails.of_eq (todo_take (blkPts d L fO) 10 39 (by decide))) $$ OT
  icases OT' with ⟨Ho, OT⟩
  iapply (Transfers.wp_dmaLocal countersEmb 𝒱₀ thr none (default : HIx 1) _ rfl
      (show 0 < (oBlkK L (10 : Fin 50)).view.amount (SemLoc.dma cc0_scratch18.sem) from View.dmaCredit_pos (oBlkK L (10 : Fin 50)).view (by decide)) (Finset.Subset.refl _)) $$ [Hb4 Ho Hs4]
  · isplitl [Hb4]; · iexact Hb4
    isplitl [Ho]; · iexact Ho
    iexact Hs4
  iintro HS4
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW2 := wstep hW1 (SemLoc.dma cc0_scratch16.sem)
  ihave Ho := (Entails.of_eq (out_val d L fI fW hin fO (8 : Fin 50) bV2 _)) $$ Ho
  ihave OD := (Entails.of_eq (done_put (blkPts d L (Gath fI fW)) 8 (by decide))) $$ [Ho OD]
  · isplitl [Ho]; · iexact Ho
    iexact OD
  ihave IT' := (Entails.of_eq (todo_take (rowPts d L fI) 15 34 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (15 : Fin 50))) $$ [HW2 Hb2 Hr Hg2]
  · isplitl [HW2]; · iexact HW2
    isplitl [Hb2]; · iexact Hb2
    isplitl [Hr]; · iexact Hr
    iexact Hg2
  iintro HG2
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW3 := wstep hW2 (SemLoc.dma cc0_scratch12.sem)
  ihave ID := (Entails.of_eq (done_put (rowPts d L fI) 11 (by decide))) $$ [Hr ID]
  · isplitl [Hr]; · iexact Hr
    iexact ID
  ihave OT' := (Entails.of_eq (todo_take (blkPts d L fO) 11 38 (by decide))) $$ OT
  icases OT' with ⟨Ho, OT⟩
  iapply (Transfers.wp_dmaLocal countersEmb 𝒱₀ thr none (default : HIx 1) _ rfl
      (show 0 < (oBlkK L (11 : Fin 50)).view.amount (SemLoc.dma cc0_scratch19.sem) from View.dmaCredit_pos (oBlkK L (11 : Fin 50)).view (by decide)) (Finset.Subset.refl _)) $$ [Hb5 Ho Hs5]
  · isplitl [Hb5]; · iexact Hb5
    isplitl [Ho]; · iexact Ho
    iexact Hs5
  iintro HS5
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_9 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v191 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (14 : Fin 50) fd)
        ∗ semVal (thr, SemLoc.dma cc0_scratch15.sem) 0
        ∗ (∃ fd, GFl d L fI fW hin bV2 cc0_scratch9.sem q2 (15 : Fin 50) fd)
        ∗ semVal (thr, SemLoc.dma cc0_scratch16.sem) 0
        ∗ (∃ fd, SFl d L fI fW hin fO bV3 cc0_scratch17.sem (9 : Fin 50) fd)
        ∗ wPts d L fW q3
        ∗ semVal (thr, SemLoc.dma cc0_scratch10.sem) 0
        ∗ (∃ fd, SFl d L fI fW hin fO bV4 cc0_scratch18.sem (10 : Fin 50) fd)
        ∗ wPts d L fW q4
        ∗ semVal (thr, SemLoc.dma cc0_scratch11.sem) 0
        ∗ (∃ fd, SFl d L fI fW hin fO bV5 cc0_scratch19.sem (11 : Fin 50) fd)
        ∗ wPts d L fW q5
        ∗ semVal (thr, SemLoc.dma cc0_scratch12.sem) 0
        ∗ (∃ fd, GFl d L fI fW hin bV6 cc0_scratch13.sem q6 (12 : Fin 50) fd)
        ∗ semVal (thr, SemLoc.dma cc0_scratch20.sem) 0
        ∗ (∃ fd, GFl d L fI fW hin bV7 cc0_scratch14.sem q7 (13 : Fin 50) fd)
        ∗ semVal (thr, SemLoc.dma cc0_scratch21.sem) 0
        ∗ Todo (pc (rowPts d L fI)) 16 34
        ∗ Done (pc (rowPts d L fI)) 12
        ∗ Todo (pc (blkPts d L fO)) 12 38
        ∗ Done (pc (blkPts d L (Gath fI fW))) 9)
      ⊢ (wp frame (wpE (defs₀ (F := F)) 𝒱₀ thr none) Set.univ (k0_part9 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v191)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (14 : Fin 50) fd)
            ∗ semVal (thr, SemLoc.dma cc0_scratch15.sem) 0
            ∗ (∃ fd, GFl d L fI fW hin bV2 cc0_scratch9.sem q2 (15 : Fin 50) fd)
            ∗ semVal (thr, SemLoc.dma cc0_scratch16.sem) 0
            ∗ (∃ fd, GFl d L fI fW hin bV3 cc0_scratch10.sem q3 (16 : Fin 50) fd)
            ∗ semVal (thr, SemLoc.dma cc0_scratch17.sem) 0
            ∗ (∃ fd, GFl d L fI fW hin bV4 cc0_scratch11.sem q4 (17 : Fin 50) fd)
            ∗ semVal (thr, SemLoc.dma cc0_scratch18.sem) 0
            ∗ (∃ fd, SFl d L fI fW hin fO bV5 cc0_scratch19.sem (11 : Fin 50) fd)
            ∗ wPts d L fW q5
            ∗ semVal (thr, SemLoc.dma cc0_scratch12.sem) 0
            ∗ (∃ fd, SFl d L fI fW hin fO bV6 cc0_scratch20.sem (12 : Fin 50) fd)
            ∗ wPts d L fW q6
            ∗ semVal (thr, SemLoc.dma cc0_scratch13.sem) 0
            ∗ (∃ fd, GFl d L fI fW hin bV7 cc0_scratch14.sem q7 (13 : Fin 50) fd)
            ∗ semVal (thr, SemLoc.dma cc0_scratch21.sem) 0
            ∗ Todo (pc (rowPts d L fI)) 18 32
            ∗ Done (pc (rowPts d L fI)) 13
            ∗ Todo (pc (blkPts d L fO)) 13 37
            ∗ Done (pc (blkPts d L (Gath fI fW))) 11) : sProp 𝕄) := by
  simp only [k0_part9_eq_skeleton]; unfold k0_part9_skel
  iintro ⟨HR, #Hmw, ⟨%W0, %hW0, HO⟩, ⟨%fd1, HG1⟩, Hs1, ⟨%fd2, HG2⟩, Hs2, ⟨%fd3, HS3⟩, HW3, Hg3, ⟨%fd4, HS4⟩, HW4, Hg4, ⟨%fd5, HS5⟩, HW5, Hg5, ⟨%fd6, HG6⟩, Hs6, ⟨%fd7, HG7⟩, Hs7, IT, ID, OT, OD⟩
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW1 := wstep hW0 (SemLoc.dma cc0_scratch17.sem)
  ihave Ho := (Entails.of_eq (out_val d L fI fW hin fO (9 : Fin 50) bV3 _)) $$ Ho
  ihave OD := (Entails.of_eq (done_put (blkPts d L (Gath fI fW)) 9 (by decide))) $$ [Ho OD]
  · isplitl [Ho]; · iexact Ho
    iexact OD
  ihave IT' := (Entails.of_eq (todo_take (rowPts d L fI) 16 33 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (16 : Fin 50))) $$ [HW3 Hb3 Hr Hg3]
  · isplitl [HW3]; · iexact HW3
    isplitl [Hb3]; · iexact Hb3
    isplitl [Hr]; · iexact Hr
    iexact Hg3
  iintro HG3
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW2 := wstep hW1 (SemLoc.dma cc0_scratch13.sem)
  ihave ID := (Entails.of_eq (done_put (rowPts d L fI) 12 (by decide))) $$ [Hr ID]
  · isplitl [Hr]; · iexact Hr
    iexact ID
  ihave OT' := (Entails.of_eq (todo_take (blkPts d L fO) 12 37 (by decide))) $$ OT
  icases OT' with ⟨Ho, OT⟩
  iapply (Transfers.wp_dmaLocal countersEmb 𝒱₀ thr none (default : HIx 1) _ rfl
      (show 0 < (oBlkK L (12 : Fin 50)).view.amount (SemLoc.dma cc0_scratch20.sem) from View.dmaCredit_pos (oBlkK L (12 : Fin 50)).view (by decide)) (Finset.Subset.refl _)) $$ [Hb6 Ho Hs6]
  · isplitl [Hb6]; · iexact Hb6
    isplitl [Ho]; · iexact Ho
    iexact Hs6
  iintro HS6
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW3 := wstep hW2 (SemLoc.dma cc0_scratch18.sem)
  ihave Ho := (Entails.of_eq (out_val d L fI fW hin fO (10 : Fin 50) bV4 _)) $$ Ho
  ihave OD := (Entails.of_eq (done_put (blkPts d L (Gath fI fW)) 10 (by decide))) $$ [Ho OD]
  · isplitl [Ho]; · iexact Ho
    iexact OD
  ihave IT' := (Entails.of_eq (todo_take (rowPts d L fI) 17 32 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (17 : Fin 50))) $$ [HW4 Hb4 Hr Hg4]
  · isplitl [HW4]; · iexact HW4
    isplitl [Hb4]; · iexact Hb4
    isplitl [Hr]; · iexact Hr
    iexact Hg4
  iintro HG4
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HS5]
  · iexists _; iexact HS5
  isplitl [HW5]
  · iexact HW5
  isplitl [Hg5]
  · iexact Hg5
  isplitl [HS6]
  · iexists _; iexact HS6
  isplitl [HW6]
  · iexact HW6
  isplitl [Hg6]
  · iexact Hg6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_10 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (14 : Fin 50) fd)
        ∗ semVal (thr, SemLoc.dma cc0_scratch15.sem) 0
        ∗ (∃ fd, GFl d L fI fW hin bV2 cc0_scratch9.sem q2 (15 : Fin 50) fd)
        ∗ semVal (thr, SemLoc.dma cc0_scratch16.sem) 0
        ∗ (∃ fd, GFl d L fI fW hin bV3 cc0_scratch10.sem q3 (16 : Fin 50) fd)
        ∗ semVal (thr, SemLoc.dma cc0_scratch17.sem) 0
        ∗ (∃ fd, GFl d L fI fW hin bV4 cc0_scratch11.sem q4 (17 : Fin 50) fd)
        ∗ semVal (thr, SemLoc.dma cc0_scratch18.sem) 0
        ∗ (∃ fd, SFl d L fI fW hin fO bV5 cc0_scratch19.sem (11 : Fin 50) fd)
        ∗ wPts d L fW q5
        ∗ semVal (thr, SemLoc.dma cc0_scratch12.sem) 0
        ∗ (∃ fd, SFl d L fI fW hin fO bV6 cc0_scratch20.sem (12 : Fin 50) fd)
        ∗ wPts d L fW q6
        ∗ semVal (thr, SemLoc.dma cc0_scratch13.sem) 0
        ∗ (∃ fd, GFl d L fI fW hin bV7 cc0_scratch14.sem q7 (13 : Fin 50) fd)
        ∗ semVal (thr, SemLoc.dma cc0_scratch21.sem) 0
        ∗ Todo (pc (rowPts d L fI)) 18 32
        ∗ Done (pc (rowPts d L fI)) 13
        ∗ Todo (pc (blkPts d L fO)) 13 37
        ∗ Done (pc (blkPts d L (Gath fI fW))) 11)
      ⊢ (wp frame (wpE (defs₀ (F := F)) 𝒱₀ thr none) Set.univ (k0_part10 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (14 : Fin 50) fd)
            ∗ wPts d L fW q1
            ∗ semVal (thr, SemLoc.dma cc0_scratch8.sem) 0
            ∗ (∃ fd, GFl d L fI fW hin bV2 cc0_scratch9.sem q2 (15 : Fin 50) fd)
            ∗ semVal (thr, SemLoc.dma cc0_scratch16.sem) 0
            ∗ (∃ fd, GFl d L fI fW hin bV3 cc0_scratch10.sem q3 (16 : Fin 50) fd)
            ∗ semVal (thr, SemLoc.dma cc0_scratch17.sem) 0
            ∗ (∃ fd, GFl d L fI fW hin bV4 cc0_scratch11.sem q4 (17 : Fin 50) fd)
            ∗ semVal (thr, SemLoc.dma cc0_scratch18.sem) 0
            ∗ (∃ fd, GFl d L fI fW hin bV5 cc0_scratch12.sem q5 (18 : Fin 50) fd)
            ∗ semVal (thr, SemLoc.dma cc0_scratch19.sem) 0
            ∗ (∃ fd, SFl d L fI fW hin fO bV6 cc0_scratch20.sem (12 : Fin 50) fd)
            ∗ wPts d L fW q6
            ∗ semVal (thr, SemLoc.dma cc0_scratch13.sem) 0
            ∗ (∃ fd, SFl d L fI fW hin fO bV7 cc0_scratch21.sem (13 : Fin 50) fd)
            ∗ wPts d L fW q7
            ∗ semVal (thr, SemLoc.dma cc0_scratch14.sem) 0
            ∗ Todo (pc (rowPts d L fI)) 19 31
            ∗ Done (pc (rowPts d L fI)) 15
            ∗ Todo (pc (blkPts d L fO)) 15 35
            ∗ Done (pc (blkPts d L (Gath fI fW))) 12) : sProp 𝕄) := by
  simp only [k0_part10_eq_skeleton]; unfold k0_part10_skel
  iintro ⟨HR, #Hmw, ⟨%W0, %hW0, HO⟩, ⟨%fd1, HG1⟩, Hs1, ⟨%fd2, HG2⟩, Hs2, ⟨%fd3, HG3⟩, Hs3, ⟨%fd4, HG4⟩, Hs4, ⟨%fd5, HS5⟩, HW5, Hg5, ⟨%fd6, HS6⟩, HW6, Hg6, ⟨%fd7, HG7⟩, Hs7, IT, ID, OT, OD⟩
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW1 := wstep hW0 (SemLoc.dma cc0_scratch14.sem)
  ihave ID := (Entails.of_eq (done_put (rowPts d L fI) 13 (by decide))) $$ [Hr ID]
  · isplitl [Hr]; · iexact Hr
    iexact ID
  ihave OT' := (Entails.of_eq (todo_take (blkPts d L fO) 13 36 (by decide))) $$ OT
  icases OT' with ⟨Ho, OT⟩
  iapply (Transfers.wp_dmaLocal countersEmb 𝒱₀ thr none (default : HIx 1) _ rfl
      (show 0 < (oBlkK L (13 : Fin 50)).view.amount (SemLoc.dma cc0_scratch21.sem) from View.dmaCredit_pos (oBlkK L (13 : Fin 50)).view (by decide)) (Finset.Subset.refl _)) $$ [Hb7 Ho Hs7]
  · isplitl [Hb7]; · iexact Hb7
    isplitl [Ho]; · iexact Ho
    iexact Hs7
  iintro HS7
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW2 := wstep hW1 (SemLoc.dma cc0_scratch19.sem)
  ihave Ho := (Entails.of_eq (out_val d L fI fW hin fO (11 : Fin 50) bV5 _)) $$ Ho
  ihave OD := (Entails.of_eq (done_put (blkPts d L (Gath fI fW)) 11 (by decide))) $$ [Ho OD]
  · isplitl [Ho]; · iexact Ho
    iexact OD
  ihave IT' := (Entails.of_eq (todo_take (rowPts d L fI) 18 31 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (18 : Fin 50))) $$ [HW5 Hb5 Hr Hg5]
  · isplitl [HW5]; · iexact HW5
    isplitl [Hb5]; · iexact Hb5
    isplitl [Hr]; · iexact Hr
    iexact Hg5
  iintro HG5
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW3 := wstep hW2 (SemLoc.dma cc0_scratch8.sem)
  ihave ID := (Entails.of_eq (done_put (rowPts d L fI) 14 (by decide))) $$ [Hr ID]
  · isplitl [Hr]; · iexact Hr
    iexact ID
  ihave OT' := (Entails.of_eq (todo_take (blkPts d L fO) 14 35 (by decide))) $$ OT
  icases OT' with ⟨Ho, OT⟩
  iapply (Transfers.wp_dmaLocal countersEmb 𝒱₀ thr none (default : HIx 1) _ rfl
      (show 0 < (oBlkK L (14 : Fin 50)).view.amount (SemLoc.dma cc0_scratch15.sem) from View.dmaCredit_pos (oBlkK L (14 : Fin 50)).view (by decide)) (Finset.Subset.refl _)) $$ [Hb1 Ho Hs1]
  · isplitl [Hb1]; · iexact Hb1
    isplitl [Ho]; · iexact Ho
    iexact Hs1
  iintro HS1
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HS6]
  · iexists _; iexact HS6
  isplitl [HW6]
  · iexact HW6
  isplitl [Hg6]
  · iexact Hg6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_11 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (14 : Fin 50) fd)
        ∗ wPts d L fW q1
        ∗ semVal (thr, SemLoc.dma cc0_scratch8.sem) 0
        ∗ (∃ fd, GFl d L fI fW hin bV2 cc0_scratch9.sem q2 (15 : Fin 50) fd)
        ∗ semVal (thr, SemLoc.dma cc0_scratch16.sem) 0
        ∗ (∃ fd, GFl d L fI fW hin bV3 cc0_scratch10.sem q3 (16 : Fin 50) fd)
        ∗ semVal (thr, SemLoc.dma cc0_scratch17.sem) 0
        ∗ (∃ fd, GFl d L fI fW hin bV4 cc0_scratch11.sem q4 (17 : Fin 50) fd)
        ∗ semVal (thr, SemLoc.dma cc0_scratch18.sem) 0
        ∗ (∃ fd, GFl d L fI fW hin bV5 cc0_scratch12.sem q5 (18 : Fin 50) fd)
        ∗ semVal (thr, SemLoc.dma cc0_scratch19.sem) 0
        ∗ (∃ fd, SFl d L fI fW hin fO bV6 cc0_scratch20.sem (12 : Fin 50) fd)
        ∗ wPts d L fW q6
        ∗ semVal (thr, SemLoc.dma cc0_scratch13.sem) 0
        ∗ (∃ fd, SFl d L fI fW hin fO bV7 cc0_scratch21.sem (13 : Fin 50) fd)
        ∗ wPts d L fW q7
        ∗ semVal (thr, SemLoc.dma cc0_scratch14.sem) 0
        ∗ Todo (pc (rowPts d L fI)) 19 31
        ∗ Done (pc (rowPts d L fI)) 15
        ∗ Todo (pc (blkPts d L fO)) 15 35
        ∗ Done (pc (blkPts d L (Gath fI fW))) 12)
      ⊢ (wp frame (wpE (defs₀ (F := F)) 𝒱₀ thr none) Set.univ (k0_part11 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (14 : Fin 50) fd)
            ∗ wPts d L fW q1
            ∗ semVal (thr, SemLoc.dma cc0_scratch8.sem) 0
            ∗ (∃ fd, SFl d L fI fW hin fO bV2 cc0_scratch16.sem (15 : Fin 50) fd)
            ∗ wPts d L fW q2
            ∗ semVal (thr, SemLoc.dma cc0_scratch9.sem) 0
            ∗ (∃ fd, bPts d L bV3 (View.write (Elt F) (bV3).view fd (gP d L fI fW hin (16 : Fin 50)) Finset.univ))
            ∗ wPts d L fW q3
            ∗ semVal (thr, SemLoc.dma cc0_scratch10.sem) 0
            ∗ semVal (thr, SemLoc.dma cc0_scratch17.sem) 0
            ∗ (∃ fd, GFl d L fI fW hin bV4 cc0_scratch11.sem q4 (17 : Fin 50) fd)
            ∗ semVal (thr, SemLoc.dma cc0_scratch18.sem) 0
            ∗ (∃ fd, GFl d L fI fW hin bV5 cc0_scratch12.sem q5 (18 : Fin 50) fd)
            ∗ semVal (thr, SemLoc.dma cc0_scratch19.sem) 0
            ∗ (∃ fd, GFl d L fI fW hin bV6 cc0_scratch13.sem q6 (19 : Fin 50) fd)
            ∗ semVal (thr, SemLoc.dma cc0_scratch20.sem) 0
            ∗ (∃ fd, GFl d L fI fW hin bV7 cc0_scratch14.sem q7 (20 : Fin 50) fd)
            ∗ semVal (thr, SemLoc.dma cc0_scratch21.sem) 0
            ∗ Todo (pc (rowPts d L fI)) 21 29
            ∗ Done (pc (rowPts d L fI)) 17
            ∗ Todo (pc (blkPts d L fO)) 16 34
            ∗ Done (pc (blkPts d L (Gath fI fW))) 14) : sProp 𝕄) := by
  simp only [k0_part11_eq_skeleton]; unfold k0_part11_skel
  iintro ⟨HR, #Hmw, ⟨%W0, %hW0, HO⟩, ⟨%fd1, HS1⟩, HW1, Hg1, ⟨%fd2, HG2⟩, Hs2, ⟨%fd3, HG3⟩, Hs3, ⟨%fd4, HG4⟩, Hs4, ⟨%fd5, HG5⟩, Hs5, ⟨%fd6, HS6⟩, HW6, Hg6, ⟨%fd7, HS7⟩, HW7, Hg7, IT, ID, OT, OD⟩
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW1 := wstep hW0 (SemLoc.dma cc0_scratch20.sem)
  ihave Ho := (Entails.of_eq (out_val d L fI fW hin fO (12 : Fin 50) bV6 _)) $$ Ho
  ihave OD := (Entails.of_eq (done_put (blkPts d L (Gath fI fW)) 12 (by decide))) $$ [Ho OD]
  · isplitl [Ho]; · iexact Ho
    iexact OD
  ihave IT' := (Entails.of_eq (todo_take (rowPts d L fI) 19 30 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (19 : Fin 50))) $$ [HW6 Hb6 Hr Hg6]
  · isplitl [HW6]; · iexact HW6
    isplitl [Hb6]; · iexact Hb6
    isplitl [Hr]; · iexact Hr
    iexact Hg6
  iintro HG6
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW2 := wstep hW1 (SemLoc.dma cc0_scratch9.sem)
  ihave ID := (Entails.of_eq (done_put (rowPts d L fI) 15 (by decide))) $$ [Hr ID]
  · isplitl [Hr]; · iexact Hr
    iexact ID
  ihave OT' := (Entails.of_eq (todo_take (blkPts d L fO) 15 34 (by decide))) $$ OT
  icases OT' with ⟨Ho, OT⟩
  iapply (Transfers.wp_dmaLocal countersEmb 𝒱₀ thr none (default : HIx 1) _ rfl
      (show 0 < (oBlkK L (15 : Fin 50)).view.amount (SemLoc.dma cc0_scratch16.sem) from View.dmaCredit_pos (oBlkK L (15 : Fin 50)).view (by decide)) (Finset.Subset.refl _)) $$ [Hb2 Ho Hs2]
  · isplitl [Hb2]; · iexact Hb2
    isplitl [Ho]; · iexact Ho
    iexact Hs2
  iintro HS2
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW3 := wstep hW2 (SemLoc.dma cc0_scratch21.sem)
  ihave Ho := (Entails.of_eq (out_val d L fI fW hin fO (13 : Fin 50) bV7 _)) $$ Ho
  ihave OD := (Entails.of_eq (done_put (blkPts d L (Gath fI fW)) 13 (by decide))) $$ [Ho OD]
  · isplitl [Ho]; · iexact Ho
    iexact OD
  ihave IT' := (Entails.of_eq (todo_take (rowPts d L fI) 20 29 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (20 : Fin 50))) $$ [HW7 Hb7 Hr Hg7]
  · isplitl [HW7]; · iexact HW7
    isplitl [Hb7]; · iexact Hb7
    isplitl [Hr]; · iexact Hr
    iexact Hg7
  iintro HG7
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW4 := wstep hW3 (SemLoc.dma cc0_scratch10.sem)
  ihave ID := (Entails.of_eq (done_put (rowPts d L fI) 16 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW4
    · iexact HO
  isplitl [HS1]
  · iexists _; iexact HS1
  isplitl [HW1]
  · iexact HW1
  isplitl [Hg1]
  · iexact Hg1
  isplitl [HS2]
  · iexists _; iexact HS2
  isplitl [HW2]
  · iexact HW2
  isplitl [Hg2]
  · iexact Hg2
  isplitl [Hb3]
  · iexists _; iexact Hb3
  isplitl [HW3]
  · iexact HW3
  isplitl [Hg3]
  · iexact Hg3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

end Cert.Kernel.TileBody

end
-- ==== Proof.TileP2Bits.lean ====
import proofs.«206768_g17686675325131_cont_8to1_990_33_alg».proof.Proof.TileDefsBits
import proofs.«206768_g17686675325131_cont_8to1_990_33_alg».proof.Proof.TileValBits
import proofs.«206768_g17686675325131_cont_8to1_990_33_alg».proof.Proof.TileGeomBits

noncomputable section

namespace Cert.Kernel.TileBody

open Cert.Kernel Cert.Kernel.Gen Cert.Kernel.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S32x50x128 EltTy.i32)
local notation "oV" => (Memref.whole Cert.Kernel.main_v1_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S50x128 EltTy.i32)

variable (d : Dev nD) (L : grid0.Coords)

local notation "thr" => (V d (cV L) (jV L))

set_option maxHeartbeats 4000000 in
theorem part_12 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v266 : BitVec 32) (c16_i32_281 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (14 : Fin 50) fd)
        ∗ wPts d L fW q1
        ∗ semVal (thr, SemLoc.dma cc0_scratch8.sem) 0
        ∗ (∃ fd, SFl d L fI fW hin fO bV2 cc0_scratch16.sem (15 : Fin 50) fd)
        ∗ wPts d L fW q2
        ∗ semVal (thr, SemLoc.dma cc0_scratch9.sem) 0
        ∗ (∃ fd, bPts d L bV3 (View.write (Elt F) (bV3).view fd (gP d L fI fW hin (16 : Fin 50)) Finset.univ))
        ∗ wPts d L fW q3
        ∗ semVal (thr, SemLoc.dma cc0_scratch10.sem) 0
        ∗ semVal (thr, SemLoc.dma cc0_scratch17.sem) 0
        ∗ (∃ fd, GFl d L fI fW hin bV4 cc0_scratch11.sem q4 (17 : Fin 50) fd)
        ∗ semVal (thr, SemLoc.dma cc0_scratch18.sem) 0
        ∗ (∃ fd, GFl d L fI fW hin bV5 cc0_scratch12.sem q5 (18 : Fin 50) fd)
        ∗ semVal (thr, SemLoc.dma cc0_scratch19.sem) 0
        ∗ (∃ fd, GFl d L fI fW hin bV6 cc0_scratch13.sem q6 (19 : Fin 50) fd)
        ∗ semVal (thr, SemLoc.dma cc0_scratch20.sem) 0
        ∗ (∃ fd, GFl d L fI fW hin bV7 cc0_scratch14.sem q7 (20 : Fin 50) fd)
        ∗ semVal (thr, SemLoc.dma cc0_scratch21.sem) 0
        ∗ Todo (pc (rowPts d L fI)) 21 29
        ∗ Done (pc (rowPts d L fI)) 17
        ∗ Todo (pc (blkPts d L fO)) 16 34
        ∗ Done (pc (blkPts d L (Gath fI fW))) 14)
      ⊢ (wp frame (wpE (defs₀ (F := F)) 𝒱₀ thr none) Set.univ (k0_part12 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v266 c16_i32_281)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (21 : Fin 50) fd)
            ∗ semVal (thr, SemLoc.dma cc0_scratch15.sem) 0
            ∗ (∃ f, bPts d L bV2 f)
            ∗ wPts d L fW q2
            ∗ semVal (thr, SemLoc.dma cc0_scratch9.sem) 0
            ∗ semVal (thr, SemLoc.dma cc0_scratch16.sem) 0
            ∗ (∃ fd, SFl d L fI fW hin fO bV3 cc0_scratch17.sem (16 : Fin 50) fd)
            ∗ wPts d L fW q3
            ∗ semVal (thr, SemLoc.dma cc0_scratch10.sem) 0
            ∗ (∃ fd, SFl d L fI fW hin fO bV4 cc0_scratch18.sem (17 : Fin 50) fd)
            ∗ wPts d L fW q4
            ∗ semVal (thr, SemLoc.dma cc0_scratch11.sem) 0
            ∗ (∃ fd, GFl d L fI fW hin bV5 cc0_scratch12.sem q5 (18 : Fin 50) fd)
            ∗ semVal (thr, SemLoc.dma cc0_scratch19.sem) 0
            ∗ (∃ fd, GFl d L fI fW hin bV6 cc0_scratch13.sem q6 (19 : Fin 50) fd)
            ∗ semVal (thr, SemLoc.dma cc0_scratch20.sem) 0
            ∗ (∃ fd, GFl d L fI fW hin bV7 cc0_scratch14.sem q7 (20 : Fin 50) fd)
            ∗ semVal (thr, SemLoc.dma cc0_scratch21.sem) 0
            ∗ Todo (pc (rowPts d L fI)) 22 28
            ∗ Done (pc (rowPts d L fI)) 18
            ∗ Todo (pc (blkPts d L fO)) 18 32
            ∗ Done (pc (blkPts d L (Gath fI fW))) 16) : sProp 𝕄) := by
  simp only [k0_part12_eq_skeleton]; unfold k0_part12_skel
  iintro ⟨HR, #Hmw, ⟨%W0, %hW0, HO⟩, ⟨%fd1, HS1⟩, HW1, Hg1, ⟨%fd2, HS2⟩, HW2, Hg2, ⟨%fd3, Hb3⟩, HW3, Hg3, Hs3, ⟨%fd4, HG4⟩, Hs4, ⟨%fd5, HG5⟩, Hs5, ⟨%fd6, HG6⟩, Hs6, ⟨%fd7, HG7⟩, Hs7, IT, ID, OT, OD⟩
  ihave OT' := (Entails.of_eq (todo_take (blkPts d L fO) 16 33 (by decide))) $$ OT
  icases OT' with ⟨Ho, OT⟩
  iapply (Transfers.wp_dmaLocal countersEmb 𝒱₀ thr none (default : HIx 1) _ rfl
      (show 0 < (oBlkK L (16 : Fin 50)).view.amount (SemLoc.dma cc0_scratch17.sem) from View.dmaCredit_pos (oBlkK L (16 : Fin 50)).view (by decide)) (Finset.Subset.refl _)) $$ [Hb3 Ho Hs3]
  · isplitl [Hb3]; · iexact Hb3
    isplitl [Ho]; · iexact Ho
    iexact Hs3
  iintro HS3
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW1 := wstep hW0 (SemLoc.dma cc0_scratch15.sem)
  ihave Ho := (Entails.of_eq (out_val d L fI fW hin fO (14 : Fin 50) bV1 _)) $$ Ho
  ihave OD := (Entails.of_eq (done_put (blkPts d L (Gath fI fW)) 14 (by decide))) $$ [Ho OD]
  · isplitl [Ho]; · iexact Ho
    iexact OD
  ihave IT' := (Entails.of_eq (todo_take (rowPts d L fI) 21 28 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (21 : Fin 50))) $$ [HW1 Hb1 Hr Hg1]
  · isplitl [HW1]; · iexact HW1
    isplitl [Hb1]; · iexact Hb1
    isplitl [Hr]; · iexact Hr
    iexact Hg1
  iintro HG1
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW2 := wstep hW1 (SemLoc.dma cc0_scratch11.sem)
  ihave ID := (Entails.of_eq (done_put (rowPts d L fI) 17 (by decide))) $$ [Hr ID]
  · isplitl [Hr]; · iexact Hr
    iexact ID
  ihave OT' := (Entails.of_eq (todo_take (blkPts d L fO) 17 32 (by decide))) $$ OT
  icases OT' with ⟨Ho, OT⟩
  iapply (Transfers.wp_dmaLocal countersEmb 𝒱₀ thr none (default : HIx 1) _ rfl
      (show 0 < (oBlkK L (17 : Fin 50)).view.amount (SemLoc.dma cc0_scratch18.sem) from View.dmaCredit_pos (oBlkK L (17 : Fin 50)).view (by decide)) (Finset.Subset.refl _)) $$ [Hb4 Ho Hs4]
  · isplitl [Hb4]; · iexact Hb4
    isplitl [Ho]; · iexact Ho
    iexact Hs4
  iintro HS4
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW3 := wstep hW2 (SemLoc.dma cc0_scratch16.sem)
  ihave Ho := (Entails.of_eq (out_val d L fI fW hin fO (15 : Fin 50) bV2 _)) $$ Ho
  ihave OD := (Entails.of_eq (done_put (blkPts d L (Gath fI fW)) 15 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [Hb2]
  · iexists _; iexact Hb2
  isplitl [HW2]
  · iexact HW2
  isplitl [Hg2]
  · iexact Hg2
  isplitl [Hs2]
  · iexact Hs2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_13 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (21 : Fin 50) fd)
        ∗ semVal (thr, SemLoc.dma cc0_scratch15.sem) 0
        ∗ (∃ f, bPts d L bV2 f)
        ∗ wPts d L fW q2
        ∗ semVal (thr, SemLoc.dma cc0_scratch9.sem) 0
        ∗ semVal (thr, SemLoc.dma cc0_scratch16.sem) 0
        ∗ (∃ fd, SFl d L fI fW hin fO bV3 cc0_scratch17.sem (16 : Fin 50) fd)
        ∗ wPts d L fW q3
        ∗ semVal (thr, SemLoc.dma cc0_scratch10.sem) 0
        ∗ (∃ fd, SFl d L fI fW hin fO bV4 cc0_scratch18.sem (17 : Fin 50) fd)
        ∗ wPts d L fW q4
        ∗ semVal (thr, SemLoc.dma cc0_scratch11.sem) 0
        ∗ (∃ fd, GFl d L fI fW hin bV5 cc0_scratch12.sem q5 (18 : Fin 50) fd)
        ∗ semVal (thr, SemLoc.dma cc0_scratch19.sem) 0
        ∗ (∃ fd, GFl d L fI fW hin bV6 cc0_scratch13.sem q6 (19 : Fin 50) fd)
        ∗ semVal (thr, SemLoc.dma cc0_scratch20.sem) 0
        ∗ (∃ fd, GFl d L fI fW hin bV7 cc0_scratch14.sem q7 (20 : Fin 50) fd)
        ∗ semVal (thr, SemLoc.dma cc0_scratch21.sem) 0
        ∗ Todo (pc (rowPts d L fI)) 22 28
        ∗ Done (pc (rowPts d L fI)) 18
        ∗ Todo (pc (blkPts d L fO)) 18 32
        ∗ Done (pc (blkPts d L (Gath fI fW))) 16)
      ⊢ (wp frame (wpE (defs₀ (F := F)) 𝒱₀ thr none) Set.univ (k0_part13 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (21 : Fin 50) fd)
            ∗ semVal (thr, SemLoc.dma cc0_scratch15.sem) 0
            ∗ (∃ fd, GFl d L fI fW hin bV2 cc0_scratch9.sem q2 (22 : Fin 50) fd)
            ∗ semVal (thr, SemLoc.dma cc0_scratch16.sem) 0
            ∗ (∃ fd, GFl d L fI fW hin bV3 cc0_scratch10.sem q3 (23 : Fin 50) fd)
            ∗ semVal (thr, SemLoc.dma cc0_scratch17.sem) 0
            ∗ (∃ fd, SFl d L fI fW hin fO bV4 cc0_scratch18.sem (17 : Fin 50) fd)
            ∗ wPts d L fW q4
            ∗ semVal (thr, SemLoc.dma cc0_scratch11.sem) 0
            ∗ (∃ fd, SFl d L fI fW hin fO bV5 cc0_scratch19.sem (18 : Fin 50) fd)
            ∗ wPts d L fW q5
            ∗ semVal (thr, SemLoc.dma cc0_scratch12.sem) 0
            ∗ (∃ fd, bPts d L bV6 (View.write (Elt F) (bV6).view fd (gP d L fI fW hin (19 : Fin 50)) Finset.univ))
            ∗ wPts d L fW q6
            ∗ semVal (thr, SemLoc.dma cc0_scratch13.sem) 0
            ∗ semVal (thr, SemLoc.dma cc0_scratch20.sem) 0
            ∗ (∃ fd, GFl d L fI fW hin bV7 cc0_scratch14.sem q7 (20 : Fin 50) fd)
            ∗ semVal (thr, SemLoc.dma cc0_scratch21.sem) 0
            ∗ Todo (pc (rowPts d L fI)) 24 26
            ∗ Done (pc (rowPts d L fI)) 20
            ∗ Todo (pc (blkPts d L fO)) 19 31
            ∗ Done (pc (blkPts d L (Gath fI fW))) 17) : sProp 𝕄) := by
  simp only [k0_part13_eq_skeleton]; unfold k0_part13_skel
  iintro ⟨HR, #Hmw, ⟨%W0, %hW0, HO⟩, ⟨%fd1, HG1⟩, Hs1, ⟨%fd2, Hb2⟩, HW2, Hg2, Hs2, ⟨%fd3, HS3⟩, HW3, Hg3, ⟨%fd4, HS4⟩, HW4, Hg4, ⟨%fd5, HG5⟩, Hs5, ⟨%fd6, HG6⟩, Hs6, ⟨%fd7, HG7⟩, Hs7, IT, ID, OT, OD⟩
  ihave IT' := (Entails.of_eq (todo_take (rowPts d L fI) 22 27 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (22 : Fin 50))) $$ [HW2 Hb2 Hr Hg2]
  · isplitl [HW2]; · iexact HW2
    isplitl [Hb2]; · iexact Hb2
    isplitl [Hr]; · iexact Hr
    iexact Hg2
  iintro HG2
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW1 := wstep hW0 (SemLoc.dma cc0_scratch12.sem)
  ihave ID := (Entails.of_eq (done_put (rowPts d L fI) 18 (by decide))) $$ [Hr ID]
  · isplitl [Hr]; · iexact Hr
    iexact ID
  ihave OT' := (Entails.of_eq (todo_take (blkPts d L fO) 18 31 (by decide))) $$ OT
  icases OT' with ⟨Ho, OT⟩
  iapply (Transfers.wp_dmaLocal countersEmb 𝒱₀ thr none (default : HIx 1) _ rfl
      (show 0 < (oBlkK L (18 : Fin 50)).view.amount (SemLoc.dma cc0_scratch19.sem) from View.dmaCredit_pos (oBlkK L (18 : Fin 50)).view (by decide)) (Finset.Subset.refl _)) $$ [Hb5 Ho Hs5]
  · isplitl [Hb5]; · iexact Hb5
    isplitl [Ho]; · iexact Ho
    iexact Hs5
  iintro HS5
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW2 := wstep hW1 (SemLoc.dma cc0_scratch17.sem)
  ihave Ho := (Entails.of_eq (out_val d L fI fW hin fO (16 : Fin 50) bV3 _)) $$ Ho
  ihave OD := (Entails.of_eq (done_put (blkPts d L (Gath fI fW)) 16 (by decide))) $$ [Ho OD]
  · isplitl [Ho]; · iexact Ho
    iexact OD
  ihave IT' := (Entails.of_eq (todo_take (rowPts d L fI) 23 26 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (23 : Fin 50))) $$ [HW3 Hb3 Hr Hg3]
  · isplitl [HW3]; · iexact HW3
    isplitl [Hb3]; · iexact Hb3
    isplitl [Hr]; · iexact Hr
    iexact Hg3
  iintro HG3
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW3 := wstep hW2 (SemLoc.dma cc0_scratch13.sem)
  ihave ID := (Entails.of_eq (done_put (rowPts d L fI) 19 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [Hb6]
  · iexists _; iexact Hb6
  isplitl [HW6]
  · iexact HW6
  isplitl [Hg6]
  · iexact Hg6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_14 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (21 : Fin 50) fd)
        ∗ semVal (thr, SemLoc.dma cc0_scratch15.sem) 0
        ∗ (∃ fd, GFl d L fI fW hin bV2 cc0_scratch9.sem q2 (22 : Fin 50) fd)
        ∗ semVal (thr, SemLoc.dma cc0_scratch16.sem) 0
        ∗ (∃ fd, GFl d L fI fW hin bV3 cc0_scratch10.sem q3 (23 : Fin 50) fd)
        ∗ semVal (thr, SemLoc.dma cc0_scratch17.sem) 0
        ∗ (∃ fd, SFl d L fI fW hin fO bV4 cc0_scratch18.sem (17 : Fin 50) fd)
        ∗ wPts d L fW q4
        ∗ semVal (thr, SemLoc.dma cc0_scratch11.sem) 0
        ∗ (∃ fd, SFl d L fI fW hin fO bV5 cc0_scratch19.sem (18 : Fin 50) fd)
        ∗ wPts d L fW q5
        ∗ semVal (thr, SemLoc.dma cc0_scratch12.sem) 0
        ∗ (∃ fd, bPts d L bV6 (View.write (Elt F) (bV6).view fd (gP d L fI fW hin (19 : Fin 50)) Finset.univ))
        ∗ wPts d L fW q6
        ∗ semVal (thr, SemLoc.dma cc0_scratch13.sem) 0
        ∗ semVal (thr, SemLoc.dma cc0_scratch20.sem) 0
        ∗ (∃ fd, GFl d L fI fW hin bV7 cc0_scratch14.sem q7 (20 : Fin 50) fd)
        ∗ semVal (thr, SemLoc.dma cc0_scratch21.sem) 0
        ∗ Todo (pc (rowPts d L fI)) 24 26
        ∗ Done (pc (rowPts d L fI)) 20
        ∗ Todo (pc (blkPts d L fO)) 19 31
        ∗ Done (pc (blkPts d L (Gath fI fW))) 17)
      ⊢ (wp frame (wpE (defs₀ (F := F)) 𝒱₀ thr none) Set.univ (k0_part14 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (21 : Fin 50) fd)
            ∗ semVal (thr, SemLoc.dma cc0_scratch15.sem) 0
            ∗ (∃ fd, GFl d L fI fW hin bV2 cc0_scratch9.sem q2 (22 : Fin 50) fd)
            ∗ semVal (thr, SemLoc.dma cc0_scratch16.sem) 0
            ∗ (∃ fd, GFl d L fI fW hin bV3 cc0_scratch10.sem q3 (23 : Fin 50) fd)
            ∗ semVal (thr, SemLoc.dma cc0_scratch17.sem) 0
            ∗ (∃ fd, GFl d L fI fW hin bV4 cc0_scratch11.sem q4 (24 : Fin 50) fd)
            ∗ semVal (thr, SemLoc.dma cc0_scratch18.sem) 0
            ∗ (∃ fd, GFl d L fI fW hin bV5 cc0_scratch12.sem q5 (25 : Fin 50) fd)
            ∗ semVal (thr, SemLoc.dma cc0_scratch19.sem) 0
            ∗ (∃ fd, SFl d L fI fW hin fO bV6 cc0_scratch20.sem (19 : Fin 50) fd)
            ∗ wPts d L fW q6
            ∗ semVal (thr, SemLoc.dma cc0_scratch13.sem) 0
            ∗ (∃ fd, SFl d L fI fW hin fO bV7 cc0_scratch21.sem (20 : Fin 50) fd)
            ∗ wPts d L fW q7
            ∗ semVal (thr, SemLoc.dma cc0_scratch14.sem) 0
            ∗ Todo (pc (rowPts d L fI)) 26 24
            ∗ Done (pc (rowPts d L fI)) 21
            ∗ Todo (pc (blkPts d L fO)) 21 29
            ∗ Done (pc (blkPts d L (Gath fI fW))) 19) : sProp 𝕄) := by
  simp only [k0_part14_eq_skeleton]; unfold k0_part14_skel
  iintro ⟨HR, #Hmw, ⟨%W0, %hW0, HO⟩, ⟨%fd1, HG1⟩, Hs1, ⟨%fd2, HG2⟩, Hs2, ⟨%fd3, HG3⟩, Hs3, ⟨%fd4, HS4⟩, HW4, Hg4, ⟨%fd5, HS5⟩, HW5, Hg5, ⟨%fd6, Hb6⟩, HW6, Hg6, Hs6, ⟨%fd7, HG7⟩, Hs7, IT, ID, OT, OD⟩
  ihave OT' := (Entails.of_eq (todo_take (blkPts d L fO) 19 30 (by decide))) $$ OT
  icases OT' with ⟨Ho, OT⟩
  iapply (Transfers.wp_dmaLocal countersEmb 𝒱₀ thr none (default : HIx 1) _ rfl
      (show 0 < (oBlkK L (19 : Fin 50)).view.amount (SemLoc.dma cc0_scratch20.sem) from View.dmaCredit_pos (oBlkK L (19 : Fin 50)).view (by decide)) (Finset.Subset.refl _)) $$ [Hb6 Ho Hs6]
  · isplitl [Hb6]; · iexact Hb6
    isplitl [Ho]; · iexact Ho
    iexact Hs6
  iintro HS6
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW1 := wstep hW0 (SemLoc.dma cc0_scratch18.sem)
  ihave Ho := (Entails.of_eq (out_val d L fI fW hin fO (17 : Fin 50) bV4 _)) $$ Ho
  ihave OD := (Entails.of_eq (done_put (blkPts d L (Gath fI fW)) 17 (by decide))) $$ [Ho OD]
  · isplitl [Ho]; · iexact Ho
    iexact OD
  ihave IT' := (Entails.of_eq (todo_take (rowPts d L fI) 24 25 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (24 : Fin 50))) $$ [HW4 Hb4 Hr Hg4]
  · isplitl [HW4]; · iexact HW4
    isplitl [Hb4]; · iexact Hb4
    isplitl [Hr]; · iexact Hr
    iexact Hg4
  iintro HG4
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW2 := wstep hW1 (SemLoc.dma cc0_scratch14.sem)
  ihave ID := (Entails.of_eq (done_put (rowPts d L fI) 20 (by decide))) $$ [Hr ID]
  · isplitl [Hr]; · iexact Hr
    iexact ID
  ihave OT' := (Entails.of_eq (todo_take (blkPts d L fO) 20 29 (by decide))) $$ OT
  icases OT' with ⟨Ho, OT⟩
  iapply (Transfers.wp_dmaLocal countersEmb 𝒱₀ thr none (default : HIx 1) _ rfl
      (show 0 < (oBlkK L (20 : Fin 50)).view.amount (SemLoc.dma cc0_scratch21.sem) from View.dmaCredit_pos (oBlkK L (20 : Fin 50)).view (by decide)) (Finset.Subset.refl _)) $$ [Hb7 Ho Hs7]
  · isplitl [Hb7]; · iexact Hb7
    isplitl [Ho]; · iexact Ho
    iexact Hs7
  iintro HS7
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW3 := wstep hW2 (SemLoc.dma cc0_scratch19.sem)
  ihave Ho := (Entails.of_eq (out_val d L fI fW hin fO (18 : Fin 50) bV5 _)) $$ Ho
  ihave OD := (Entails.of_eq (done_put (blkPts d L (Gath fI fW)) 18 (by decide))) $$ [Ho OD]
  · isplitl [Ho]; · iexact Ho
    iexact OD
  ihave IT' := (Entails.of_eq (todo_take (rowPts d L fI) 25 24 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (25 : Fin 50))) $$ [HW5 Hb5 Hr Hg5]
  · isplitl [HW5]; · iexact HW5
    isplitl [Hb5]; · iexact Hb5
    isplitl [Hr]; · iexact Hr
    iexact Hg5
  iintro HG5
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HS6]
  · iexists _; iexact HS6
  isplitl [HW6]
  · iexact HW6
  isplitl [Hg6]
  · iexact Hg6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_15 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (21 : Fin 50) fd)
        ∗ semVal (thr, SemLoc.dma cc0_scratch15.sem) 0
        ∗ (∃ fd, GFl d L fI fW hin bV2 cc0_scratch9.sem q2 (22 : Fin 50) fd)
        ∗ semVal (thr, SemLoc.dma cc0_scratch16.sem) 0
        ∗ (∃ fd, GFl d L fI fW hin bV3 cc0_scratch10.sem q3 (23 : Fin 50) fd)
        ∗ semVal (thr, SemLoc.dma cc0_scratch17.sem) 0
        ∗ (∃ fd, GFl d L fI fW hin bV4 cc0_scratch11.sem q4 (24 : Fin 50) fd)
        ∗ semVal (thr, SemLoc.dma cc0_scratch18.sem) 0
        ∗ (∃ fd, GFl d L fI fW hin bV5 cc0_scratch12.sem q5 (25 : Fin 50) fd)
        ∗ semVal (thr, SemLoc.dma cc0_scratch19.sem) 0
        ∗ (∃ fd, SFl d L fI fW hin fO bV6 cc0_scratch20.sem (19 : Fin 50) fd)
        ∗ wPts d L fW q6
        ∗ semVal (thr, SemLoc.dma cc0_scratch13.sem) 0
        ∗ (∃ fd, SFl d L fI fW hin fO bV7 cc0_scratch21.sem (20 : Fin 50) fd)
        ∗ wPts d L fW q7
        ∗ semVal (thr, SemLoc.dma cc0_scratch14.sem) 0
        ∗ Todo (pc (rowPts d L fI)) 26 24
        ∗ Done (pc (rowPts d L fI)) 21
        ∗ Todo (pc (blkPts d L fO)) 21 29
        ∗ Done (pc (blkPts d L (Gath fI fW))) 19)
      ⊢ (wp frame (wpE (defs₀ (F := F)) 𝒱₀ thr none) Set.univ (k0_part15 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (21 : Fin 50) fd)
            ∗ wPts d L fW q1
            ∗ semVal (thr, SemLoc.dma cc0_scratch8.sem) 0
            ∗ (∃ fd, SFl d L fI fW hin fO bV2 cc0_scratch16.sem (22 : Fin 50) fd)
            ∗ wPts d L fW q2
            ∗ semVal (thr, SemLoc.dma cc0_scratch9.sem) 0
            ∗ (∃ fd, GFl d L fI fW hin bV3 cc0_scratch10.sem q3 (23 : Fin 50) fd)
            ∗ semVal (thr, SemLoc.dma cc0_scratch17.sem) 0
            ∗ (∃ fd, GFl d L fI fW hin bV4 cc0_scratch11.sem q4 (24 : Fin 50) fd)
            ∗ semVal (thr, SemLoc.dma cc0_scratch18.sem) 0
            ∗ (∃ fd, GFl d L fI fW hin bV5 cc0_scratch12.sem q5 (25 : Fin 50) fd)
            ∗ semVal (thr, SemLoc.dma cc0_scratch19.sem) 0
            ∗ (∃ fd, GFl d L fI fW hin bV6 cc0_scratch13.sem q6 (26 : Fin 50) fd)
            ∗ semVal (thr, SemLoc.dma cc0_scratch20.sem) 0
            ∗ (∃ fd, SFl d L fI fW hin fO bV7 cc0_scratch21.sem (20 : Fin 50) fd)
            ∗ wPts d L fW q7
            ∗ semVal (thr, SemLoc.dma cc0_scratch14.sem) 0
            ∗ Todo (pc (rowPts d L fI)) 27 23
            ∗ Done (pc (rowPts d L fI)) 23
            ∗ Todo (pc (blkPts d L fO)) 23 27
            ∗ Done (pc (blkPts d L (Gath fI fW))) 20) : sProp 𝕄) := by
  simp only [k0_part15_eq_skeleton]; unfold k0_part15_skel
  iintro ⟨HR, #Hmw, ⟨%W0, %hW0, HO⟩, ⟨%fd1, HG1⟩, Hs1, ⟨%fd2, HG2⟩, Hs2, ⟨%fd3, HG3⟩, Hs3, ⟨%fd4, HG4⟩, Hs4, ⟨%fd5, HG5⟩, Hs5, ⟨%fd6, HS6⟩, HW6, Hg6, ⟨%fd7, HS7⟩, HW7, Hg7, IT, ID, OT, OD⟩
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW1 := wstep hW0 (SemLoc.dma cc0_scratch8.sem)
  ihave ID := (Entails.of_eq (done_put (rowPts d L fI) 21 (by decide))) $$ [Hr ID]
  · isplitl [Hr]; · iexact Hr
    iexact ID
  ihave OT' := (Entails.of_eq (todo_take (blkPts d L fO) 21 28 (by decide))) $$ OT
  icases OT' with ⟨Ho, OT⟩
  iapply (Transfers.wp_dmaLocal countersEmb 𝒱₀ thr none (default : HIx 1) _ rfl
      (show 0 < (oBlkK L (21 : Fin 50)).view.amount (SemLoc.dma cc0_scratch15.sem) from View.dmaCredit_pos (oBlkK L (21 : Fin 50)).view (by decide)) (Finset.Subset.refl _)) $$ [Hb1 Ho Hs1]
  · isplitl [Hb1]; · iexact Hb1
    isplitl [Ho]; · iexact Ho
    iexact Hs1
  iintro HS1
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW2 := wstep hW1 (SemLoc.dma cc0_scratch20.sem)
  ihave Ho := (Entails.of_eq (out_val d L fI fW hin fO (19 : Fin 50) bV6 _)) $$ Ho
  ihave OD := (Entails.of_eq (done_put (blkPts d L (Gath fI fW)) 19 (by decide))) $$ [Ho OD]
  · isplitl [Ho]; · iexact Ho
    iexact OD
  ihave IT' := (Entails.of_eq (todo_take (rowPts d L fI) 26 23 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (26 : Fin 50))) $$ [HW6 Hb6 Hr Hg6]
  · isplitl [HW6]; · iexact HW6
    isplitl [Hb6]; · iexact Hb6
    isplitl [Hr]; · iexact Hr
    iexact Hg6
  iintro HG6
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW3 := wstep hW2 (SemLoc.dma cc0_scratch9.sem)
  ihave ID := (Entails.of_eq (done_put (rowPts d L fI) 22 (by decide))) $$ [Hr ID]
  · isplitl [Hr]; · iexact Hr
    iexact ID
  ihave OT' := (Entails.of_eq (todo_take (blkPts d L fO) 22 27 (by decide))) $$ OT
  icases OT' with ⟨Ho, OT⟩
  iapply (Transfers.wp_dmaLocal countersEmb 𝒱₀ thr none (default : HIx 1) _ rfl
      (show 0 < (oBlkK L (22 : Fin 50)).view.amount (SemLoc.dma cc0_scratch16.sem) from View.dmaCredit_pos (oBlkK L (22 : Fin 50)).view (by decide)) (Finset.Subset.refl _)) $$ [Hb2 Ho Hs2]
  · isplitl [Hb2]; · iexact Hb2
    isplitl [Ho]; · iexact Ho
    iexact Hs2
  iintro HS2
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HS2]
  · iexists _; iexact HS2
  isplitl [HW2]
  · iexact HW2
  isplitl [Hg2]
  · iexact Hg2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_16 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v368 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (21 : Fin 50) fd)
        ∗ wPts d L fW q1
        ∗ semVal (thr, SemLoc.dma cc0_scratch8.sem) 0
        ∗ (∃ fd, SFl d L fI fW hin fO bV2 cc0_scratch16.sem (22 : Fin 50) fd)
        ∗ wPts d L fW q2
        ∗ semVal (thr, SemLoc.dma cc0_scratch9.sem) 0
        ∗ (∃ fd, GFl d L fI fW hin bV3 cc0_scratch10.sem q3 (23 : Fin 50) fd)
        ∗ semVal (thr, SemLoc.dma cc0_scratch17.sem) 0
        ∗ (∃ fd, GFl d L fI fW hin bV4 cc0_scratch11.sem q4 (24 : Fin 50) fd)
        ∗ semVal (thr, SemLoc.dma cc0_scratch18.sem) 0
        ∗ (∃ fd, GFl d L fI fW hin bV5 cc0_scratch12.sem q5 (25 : Fin 50) fd)
        ∗ semVal (thr, SemLoc.dma cc0_scratch19.sem) 0
        ∗ (∃ fd, GFl d L fI fW hin bV6 cc0_scratch13.sem q6 (26 : Fin 50) fd)
        ∗ semVal (thr, SemLoc.dma cc0_scratch20.sem) 0
        ∗ (∃ fd, SFl d L fI fW hin fO bV7 cc0_scratch21.sem (20 : Fin 50) fd)
        ∗ wPts d L fW q7
        ∗ semVal (thr, SemLoc.dma cc0_scratch14.sem) 0
        ∗ Todo (pc (rowPts d L fI)) 27 23
        ∗ Done (pc (rowPts d L fI)) 23
        ∗ Todo (pc (blkPts d L fO)) 23 27
        ∗ Done (pc (blkPts d L (Gath fI fW))) 20)
      ⊢ (wp frame (wpE (defs₀ (F := F)) 𝒱₀ thr none) Set.univ (k0_part16 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v368)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (28 : Fin 50) fd)
            ∗ semVal (thr, SemLoc.dma cc0_scratch15.sem) 0
            ∗ (∃ fd, SFl d L fI fW hin fO bV2 cc0_scratch16.sem (22 : Fin 50) fd)
            ∗ wPts d L fW q2
            ∗ semVal (thr, SemLoc.dma cc0_scratch9.sem) 0
            ∗ (∃ fd, SFl d L fI fW hin fO bV3 cc0_scratch17.sem (23 : Fin 50) fd)
            ∗ wPts d L fW q3
            ∗ semVal (thr, SemLoc.dma cc0_scratch10.sem) 0
            ∗ (∃ fd, GFl d L fI fW hin bV4 cc0_scratch11.sem q4 (24 : Fin 50) fd)
            ∗ semVal (thr, SemLoc.dma cc0_scratch18.sem) 0
            ∗ (∃ fd, GFl d L fI fW hin bV5 cc0_scratch12.sem q5 (25 : Fin 50) fd)
            ∗ semVal (thr, SemLoc.dma cc0_scratch19.sem) 0
            ∗ (∃ fd, GFl d L fI fW hin bV6 cc0_scratch13.sem q6 (26 : Fin 50) fd)
            ∗ semVal (thr, SemLoc.dma cc0_scratch20.sem) 0
            ∗ (∃ fd, GFl d L fI fW hin bV7 cc0_scratch14.sem q7 (27 : Fin 50) fd)
            ∗ semVal (thr, SemLoc.dma cc0_scratch21.sem) 0
            ∗ Todo (pc (rowPts d L fI)) 29 21
            ∗ Done (pc (rowPts d L fI)) 24
            ∗ Todo (pc (blkPts d L fO)) 24 26
            ∗ Done (pc (blkPts d L (Gath fI fW))) 22) : sProp 𝕄) := by
  simp only [k0_part16_eq_skeleton]; unfold k0_part16_skel
  iintro ⟨HR, #Hmw, ⟨%W0, %hW0, HO⟩, ⟨%fd1, HS1⟩, HW1, Hg1, ⟨%fd2, HS2⟩, HW2, Hg2, ⟨%fd3, HG3⟩, Hs3, ⟨%fd4, HG4⟩, Hs4, ⟨%fd5, HG5⟩, Hs5, ⟨%fd6, HG6⟩, Hs6, ⟨%fd7, HS7⟩, HW7, Hg7, IT, ID, OT, OD⟩
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW1 := wstep hW0 (SemLoc.dma cc0_scratch21.sem)
  ihave Ho := (Entails.of_eq (out_val d L fI fW hin fO (20 : Fin 50) bV7 _)) $$ Ho
  ihave OD := (Entails.of_eq (done_put (blkPts d L (Gath fI fW)) 20 (by decide))) $$ [Ho OD]
  · isplitl [Ho]; · iexact Ho
    iexact OD
  ihave IT' := (Entails.of_eq (todo_take (rowPts d L fI) 27 22 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (27 : Fin 50))) $$ [HW7 Hb7 Hr Hg7]
  · isplitl [HW7]; · iexact HW7
    isplitl [Hb7]; · iexact Hb7
    isplitl [Hr]; · iexact Hr
    iexact Hg7
  iintro HG7
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW2 := wstep hW1 (SemLoc.dma cc0_scratch10.sem)
  ihave ID := (Entails.of_eq (done_put (rowPts d L fI) 23 (by decide))) $$ [Hr ID]
  · isplitl [Hr]; · iexact Hr
    iexact ID
  ihave OT' := (Entails.of_eq (todo_take (blkPts d L fO) 23 26 (by decide))) $$ OT
  icases OT' with ⟨Ho, OT⟩
  iapply (Transfers.wp_dmaLocal countersEmb 𝒱₀ thr none (default : HIx 1) _ rfl
      (show 0 < (oBlkK L (23 : Fin 50)).view.amount (SemLoc.dma cc0_scratch17.sem) from View.dmaCredit_pos (oBlkK L (23 : Fin 50)).view (by decide)) (Finset.Subset.refl _)) $$ [Hb3 Ho Hs3]
  · isplitl [Hb3]; · iexact Hb3
    isplitl [Ho]; · iexact Ho
    iexact Hs3
  iintro HS3
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW3 := wstep hW2 (SemLoc.dma cc0_scratch15.sem)
  ihave Ho := (Entails.of_eq (out_val d L fI fW hin fO (21 : Fin 50) bV1 _)) $$ Ho
  ihave OD := (Entails.of_eq (done_put (blkPts d L (Gath fI fW)) 21 (by decide))) $$ [Ho OD]
  · isplitl [Ho]; · iexact Ho
    iexact OD
  ihave IT' := (Entails.of_eq (todo_take (rowPts d L fI) 28 21 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (28 : Fin 50))) $$ [HW1 Hb1 Hr Hg1]
  · isplitl [HW1]; · iexact HW1
    isplitl [Hb1]; · iexact Hb1
    isplitl [Hr]; · iexact Hr
    iexact Hg1
  iintro HG1
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_17 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (28 : Fin 50) fd)
        ∗ semVal (thr, SemLoc.dma cc0_scratch15.sem) 0
        ∗ (∃ fd, SFl d L fI fW hin fO bV2 cc0_scratch16.sem (22 : Fin 50) fd)
        ∗ wPts d L fW q2
        ∗ semVal (thr, SemLoc.dma cc0_scratch9.sem) 0
        ∗ (∃ fd, SFl d L fI fW hin fO bV3 cc0_scratch17.sem (23 : Fin 50) fd)
        ∗ wPts d L fW q3
        ∗ semVal (thr, SemLoc.dma cc0_scratch10.sem) 0
        ∗ (∃ fd, GFl d L fI fW hin bV4 cc0_scratch11.sem q4 (24 : Fin 50) fd)
        ∗ semVal (thr, SemLoc.dma cc0_scratch18.sem) 0
        ∗ (∃ fd, GFl d L fI fW hin bV5 cc0_scratch12.sem q5 (25 : Fin 50) fd)
        ∗ semVal (thr, SemLoc.dma cc0_scratch19.sem) 0
        ∗ (∃ fd, GFl d L fI fW hin bV6 cc0_scratch13.sem q6 (26 : Fin 50) fd)
        ∗ semVal (thr, SemLoc.dma cc0_scratch20.sem) 0
        ∗ (∃ fd, GFl d L fI fW hin bV7 cc0_scratch14.sem q7 (27 : Fin 50) fd)
        ∗ semVal (thr, SemLoc.dma cc0_scratch21.sem) 0
        ∗ Todo (pc (rowPts d L fI)) 29 21
        ∗ Done (pc (rowPts d L fI)) 24
        ∗ Todo (pc (blkPts d L fO)) 24 26
        ∗ Done (pc (blkPts d L (Gath fI fW))) 22)
      ⊢ (wp frame (wpE (defs₀ (F := F)) 𝒱₀ thr none) Set.univ (k0_part17 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (28 : Fin 50) fd)
            ∗ semVal (thr, SemLoc.dma cc0_scratch15.sem) 0
            ∗ (∃ fd, GFl d L fI fW hin bV2 cc0_scratch9.sem q2 (29 : Fin 50) fd)
            ∗ semVal (thr, SemLoc.dma cc0_scratch16.sem) 0
            ∗ (∃ fd, SFl d L fI fW hin fO bV3 cc0_scratch17.sem (23 : Fin 50) fd)
            ∗ wPts d L fW q3
            ∗ semVal (thr, SemLoc.dma cc0_scratch10.sem) 0
            ∗ (∃ fd, SFl d L fI fW hin fO bV4 cc0_scratch18.sem (24 : Fin 50) fd)
            ∗ wPts d L fW q4
            ∗ semVal (thr, SemLoc.dma cc0_scratch11.sem) 0
            ∗ (∃ fd, SFl d L fI fW hin fO bV5 cc0_scratch19.sem (25 : Fin 50) fd)
            ∗ wPts d L fW q5
            ∗ semVal (thr, SemLoc.dma cc0_scratch12.sem) 0
            ∗ (∃ fd, GFl d L fI fW hin bV6 cc0_scratch13.sem q6 (26 : Fin 50) fd)
            ∗ semVal (thr, SemLoc.dma cc0_scratch20.sem) 0
            ∗ (∃ fd, GFl d L fI fW hin bV7 cc0_scratch14.sem q7 (27 : Fin 50) fd)
            ∗ semVal (thr, SemLoc.dma cc0_scratch21.sem) 0
            ∗ Todo (pc (rowPts d L fI)) 30 20
            ∗ Done (pc (rowPts d L fI)) 26
            ∗ Todo (pc (blkPts d L fO)) 26 24
            ∗ Done (pc (blkPts d L (Gath fI fW))) 23) : sProp 𝕄) := by
  simp only [k0_part17_eq_skeleton]; unfold k0_part17_skel
  iintro ⟨HR, #Hmw, ⟨%W0, %hW0, HO⟩, ⟨%fd1, HG1⟩, Hs1, ⟨%fd2, HS2⟩, HW2, Hg2, ⟨%fd3, HS3⟩, HW3, Hg3, ⟨%fd4, HG4⟩, Hs4, ⟨%fd5, HG5⟩, Hs5, ⟨%fd6, HG6⟩, Hs6, ⟨%fd7, HG7⟩, Hs7, IT, ID, OT, OD⟩
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW1 := wstep hW0 (SemLoc.dma cc0_scratch11.sem)
  ihave ID := (Entails.of_eq (done_put (rowPts d L fI) 24 (by decide))) $$ [Hr ID]
  · isplitl [Hr]; · iexact Hr
    iexact ID
  ihave OT' := (Entails.of_eq (todo_take (blkPts d L fO) 24 25 (by decide))) $$ OT
  icases OT' with ⟨Ho, OT⟩
  iapply (Transfers.wp_dmaLocal countersEmb 𝒱₀ thr none (default : HIx 1) _ rfl
      (show 0 < (oBlkK L (24 : Fin 50)).view.amount (SemLoc.dma cc0_scratch18.sem) from View.dmaCredit_pos (oBlkK L (24 : Fin 50)).view (by decide)) (Finset.Subset.refl _)) $$ [Hb4 Ho Hs4]
  · isplitl [Hb4]; · iexact Hb4
    isplitl [Ho]; · iexact Ho
    iexact Hs4
  iintro HS4
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW2 := wstep hW1 (SemLoc.dma cc0_scratch16.sem)
  ihave Ho := (Entails.of_eq (out_val d L fI fW hin fO (22 : Fin 50) bV2 _)) $$ Ho
  ihave OD := (Entails.of_eq (done_put (blkPts d L (Gath fI fW)) 22 (by decide))) $$ [Ho OD]
  · isplitl [Ho]; · iexact Ho
    iexact OD
  ihave IT' := (Entails.of_eq (todo_take (rowPts d L fI) 29 20 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (29 : Fin 50))) $$ [HW2 Hb2 Hr Hg2]
  · isplitl [HW2]; · iexact HW2
    isplitl [Hb2]; · iexact Hb2
    isplitl [Hr]; · iexact Hr
    iexact Hg2
  iintro HG2
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW3 := wstep hW2 (SemLoc.dma cc0_scratch12.sem)
  ihave ID := (Entails.of_eq (done_put (rowPts d L fI) 25 (by decide))) $$ [Hr ID]
  · isplitl [Hr]; · iexact Hr
    iexact ID
  ihave OT' := (Entails.of_eq (todo_take (blkPts d L fO) 25 24 (by decide))) $$ OT
  icases OT' with ⟨Ho, OT⟩
  iapply (Transfers.wp_dmaLocal countersEmb 𝒱₀ thr none (default : HIx 1) _ rfl
      (show 0 < (oBlkK L (25 : Fin 50)).view.amount (SemLoc.dma cc0_scratch19.sem) from View.dmaCredit_pos (oBlkK L (25 : Fin 50)).view (by decide)) (Finset.Subset.refl _)) $$ [Hb5 Ho Hs5]
  · isplitl [Hb5]; · iexact Hb5
    isplitl [Ho]; · iexact Ho
    iexact Hs5
  iintro HS5
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_18 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (28 : Fin 50) fd)
        ∗ semVal (thr, SemLoc.dma cc0_scratch15.sem) 0
        ∗ (∃ fd, GFl d L fI fW hin bV2 cc0_scratch9.sem q2 (29 : Fin 50) fd)
        ∗ semVal (thr, SemLoc.dma cc0_scratch16.sem) 0
        ∗ (∃ fd, SFl d L fI fW hin fO bV3 cc0_scratch17.sem (23 : Fin 50) fd)
        ∗ wPts d L fW q3
        ∗ semVal (thr, SemLoc.dma cc0_scratch10.sem) 0
        ∗ (∃ fd, SFl d L fI fW hin fO bV4 cc0_scratch18.sem (24 : Fin 50) fd)
        ∗ wPts d L fW q4
        ∗ semVal (thr, SemLoc.dma cc0_scratch11.sem) 0
        ∗ (∃ fd, SFl d L fI fW hin fO bV5 cc0_scratch19.sem (25 : Fin 50) fd)
        ∗ wPts d L fW q5
        ∗ semVal (thr, SemLoc.dma cc0_scratch12.sem) 0
        ∗ (∃ fd, GFl d L fI fW hin bV6 cc0_scratch13.sem q6 (26 : Fin 50) fd)
        ∗ semVal (thr, SemLoc.dma cc0_scratch20.sem) 0
        ∗ (∃ fd, GFl d L fI fW hin bV7 cc0_scratch14.sem q7 (27 : Fin 50) fd)
        ∗ semVal (thr, SemLoc.dma cc0_scratch21.sem) 0
        ∗ Todo (pc (rowPts d L fI)) 30 20
        ∗ Done (pc (rowPts d L fI)) 26
        ∗ Todo (pc (blkPts d L fO)) 26 24
        ∗ Done (pc (blkPts d L (Gath fI fW))) 23)
      ⊢ (wp frame (wpE (defs₀ (F := F)) 𝒱₀ thr none) Set.univ (k0_part18 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (28 : Fin 50) fd)
            ∗ semVal (thr, SemLoc.dma cc0_scratch15.sem) 0
            ∗ (∃ fd, GFl d L fI fW hin bV2 cc0_scratch9.sem q2 (29 : Fin 50) fd)
            ∗ semVal (thr, SemLoc.dma cc0_scratch16.sem) 0
            ∗ (∃ fd, GFl d L fI fW hin bV3 cc0_scratch10.sem q3 (30 : Fin 50) fd)
            ∗ semVal (thr, SemLoc.dma cc0_scratch17.sem) 0
            ∗ (∃ fd, GFl d L fI fW hin bV4 cc0_scratch11.sem q4 (31 : Fin 50) fd)
            ∗ semVal (thr, SemLoc.dma cc0_scratch18.sem) 0
            ∗ (∃ fd, SFl d L fI fW hin fO bV5 cc0_scratch19.sem (25 : Fin 50) fd)
            ∗ wPts d L fW q5
            ∗ semVal (thr, SemLoc.dma cc0_scratch12.sem) 0
            ∗ (∃ fd, SFl d L fI fW hin fO bV6 cc0_scratch20.sem (26 : Fin 50) fd)
            ∗ wPts d L fW q6
            ∗ semVal (thr, SemLoc.dma cc0_scratch13.sem) 0
            ∗ (∃ fd, bPts d L bV7 (View.write (Elt F) (bV7).view fd (gP d L fI fW hin (27 : Fin 50)) Finset.univ))
            ∗ wPts d L fW q7
            ∗ semVal (thr, SemLoc.dma cc0_scratch14.sem) 0
            ∗ semVal (thr, SemLoc.dma cc0_scratch21.sem) 0
            ∗ Todo (pc (rowPts d L fI)) 32 18
            ∗ Done (pc (rowPts d L fI)) 28
            ∗ Todo (pc (blkPts d L fO)) 27 23
            ∗ Done (pc (blkPts d L (Gath fI fW))) 25) : sProp 𝕄) := by
  simp only [k0_part18_eq_skeleton]; unfold k0_part18_skel
  iintro ⟨HR, #Hmw, ⟨%W0, %hW0, HO⟩, ⟨%fd1, HG1⟩, Hs1, ⟨%fd2, HG2⟩, Hs2, ⟨%fd3, HS3⟩, HW3, Hg3, ⟨%fd4, HS4⟩, HW4, Hg4, ⟨%fd5, HS5⟩, HW5, Hg5, ⟨%fd6, HG6⟩, Hs6, ⟨%fd7, HG7⟩, Hs7, IT, ID, OT, OD⟩
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW1 := wstep hW0 (SemLoc.dma cc0_scratch17.sem)
  ihave Ho := (Entails.of_eq (out_val d L fI fW hin fO (23 : Fin 50) bV3 _)) $$ Ho
  ihave OD := (Entails.of_eq (done_put (blkPts d L (Gath fI fW)) 23 (by decide))) $$ [Ho OD]
  · isplitl [Ho]; · iexact Ho
    iexact OD
  ihave IT' := (Entails.of_eq (todo_take (rowPts d L fI) 30 19 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (30 : Fin 50))) $$ [HW3 Hb3 Hr Hg3]
  · isplitl [HW3]; · iexact HW3
    isplitl [Hb3]; · iexact Hb3
    isplitl [Hr]; · iexact Hr
    iexact Hg3
  iintro HG3
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW2 := wstep hW1 (SemLoc.dma cc0_scratch13.sem)
  ihave ID := (Entails.of_eq (done_put (rowPts d L fI) 26 (by decide))) $$ [Hr ID]
  · isplitl [Hr]; · iexact Hr
    iexact ID
  ihave OT' := (Entails.of_eq (todo_take (blkPts d L fO) 26 23 (by decide))) $$ OT
  icases OT' with ⟨Ho, OT⟩
  iapply (Transfers.wp_dmaLocal countersEmb 𝒱₀ thr none (default : HIx 1) _ rfl
      (show 0 < (oBlkK L (26 : Fin 50)).view.amount (SemLoc.dma cc0_scratch20.sem) from View.dmaCredit_pos (oBlkK L (26 : Fin 50)).view (by decide)) (Finset.Subset.refl _)) $$ [Hb6 Ho Hs6]
  · isplitl [Hb6]; · iexact Hb6
    isplitl [Ho]; · iexact Ho
    iexact Hs6
  iintro HS6
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW3 := wstep hW2 (SemLoc.dma cc0_scratch18.sem)
  ihave Ho := (Entails.of_eq (out_val d L fI fW hin fO (24 : Fin 50) bV4 _)) $$ Ho
  ihave OD := (Entails.of_eq (done_put (blkPts d L (Gath fI fW)) 24 (by decide))) $$ [Ho OD]
  · isplitl [Ho]; · iexact Ho
    iexact OD
  ihave IT' := (Entails.of_eq (todo_take (rowPts d L fI) 31 18 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (31 : Fin 50))) $$ [HW4 Hb4 Hr Hg4]
  · isplitl [HW4]; · iexact HW4
    isplitl [Hb4]; · iexact Hb4
    isplitl [Hr]; · iexact Hr
    iexact Hg4
  iintro HG4
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW4 := wstep hW3 (SemLoc.dma cc0_scratch14.sem)
  ihave ID := (Entails.of_eq (done_put (rowPts d L fI) 27 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW4
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HS5]
  · iexists _; iexact HS5
  isplitl [HW5]
  · iexact HW5
  isplitl [Hg5]
  · iexact Hg5
  isplitl [HS6]
  · iexists _; iexact HS6
  isplitl [HW6]
  · iexact HW6
  isplitl [Hg6]
  · iexact Hg6
  isplitl [Hb7]
  · iexists _; iexact Hb7
  isplitl [HW7]
  · iexact HW7
  isplitl [Hg7]
  · iexact Hg7
  isplitl [Hs7]
  · iexact Hs7
  isplitl [IT]
  · iexact IT
  isplitl [ID]
  · iexact ID
  isplitl [OT]
  · iexact OT
  iexact OD

set_option maxHeartbeats 4000000 in
theorem part_19 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v443 : BitVec 32) (c128_i32_469 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (28 : Fin 50) fd)
        ∗ semVal (thr, SemLoc.dma cc0_scratch15.sem) 0
        ∗ (∃ fd, GFl d L fI fW hin bV2 cc0_scratch9.sem q2 (29 : Fin 50) fd)
        ∗ semVal (thr, SemLoc.dma cc0_scratch16.sem) 0
        ∗ (∃ fd, GFl d L fI fW hin bV3 cc0_scratch10.sem q3 (30 : Fin 50) fd)
        ∗ semVal (thr, SemLoc.dma cc0_scratch17.sem) 0
        ∗ (∃ fd, GFl d L fI fW hin bV4 cc0_scratch11.sem q4 (31 : Fin 50) fd)
        ∗ semVal (thr, SemLoc.dma cc0_scratch18.sem) 0
        ∗ (∃ fd, SFl d L fI fW hin fO bV5 cc0_scratch19.sem (25 : Fin 50) fd)
        ∗ wPts d L fW q5
        ∗ semVal (thr, SemLoc.dma cc0_scratch12.sem) 0
        ∗ (∃ fd, SFl d L fI fW hin fO bV6 cc0_scratch20.sem (26 : Fin 50) fd)
        ∗ wPts d L fW q6
        ∗ semVal (thr, SemLoc.dma cc0_scratch13.sem) 0
        ∗ (∃ fd, bPts d L bV7 (View.write (Elt F) (bV7).view fd (gP d L fI fW hin (27 : Fin 50)) Finset.univ))
        ∗ wPts d L fW q7
        ∗ semVal (thr, SemLoc.dma cc0_scratch14.sem) 0
        ∗ semVal (thr, SemLoc.dma cc0_scratch21.sem) 0
        ∗ Todo (pc (rowPts d L fI)) 32 18
        ∗ Done (pc (rowPts d L fI)) 28
        ∗ Todo (pc (blkPts d L fO)) 27 23
        ∗ Done (pc (blkPts d L (Gath fI fW))) 25)
      ⊢ (wp frame (wpE (defs₀ (F := F)) 𝒱₀ thr none) Set.univ (k0_part19 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v443 c128_i32_469)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (28 : Fin 50) fd)
            ∗ wPts d L fW q1
            ∗ semVal (thr, SemLoc.dma cc0_scratch8.sem) 0
            ∗ (∃ fd, GFl d L fI fW hin bV2 cc0_scratch9.sem q2 (29 : Fin 50) fd)
            ∗ semVal (thr, SemLoc.dma cc0_scratch16.sem) 0
            ∗ (∃ fd, GFl d L fI fW hin bV3 cc0_scratch10.sem q3 (30 : Fin 50) fd)
            ∗ semVal (thr, SemLoc.dma cc0_scratch17.sem) 0
            ∗ (∃ fd, GFl d L fI fW hin bV4 cc0_scratch11.sem q4 (31 : Fin 50) fd)
            ∗ semVal (thr, SemLoc.dma cc0_scratch18.sem) 0
            ∗ (∃ fd, GFl d L fI fW hin bV5 cc0_scratch12.sem q5 (32 : Fin 50) fd)
            ∗ semVal (thr, SemLoc.dma cc0_scratch19.sem) 0
            ∗ (∃ f, bPts d L bV6 f)
            ∗ wPts d L fW q6
            ∗ semVal (thr, SemLoc.dma cc0_scratch13.sem) 0
            ∗ semVal (thr, SemLoc.dma cc0_scratch20.sem) 0
            ∗ (∃ fd, SFl d L fI fW hin fO bV7 cc0_scratch21.sem (27 : Fin 50) fd)
            ∗ wPts d L fW q7
            ∗ semVal (thr, SemLoc.dma cc0_scratch14.sem) 0
            ∗ Todo (pc (rowPts d L fI)) 33 17
            ∗ Done (pc (rowPts d L fI)) 29
            ∗ Todo (pc (blkPts d L fO)) 29 21
            ∗ Done (pc (blkPts d L (Gath fI fW))) 27) : sProp 𝕄) := by
  simp only [k0_part19_eq_skeleton]; unfold k0_part19_skel
  iintro ⟨HR, #Hmw, ⟨%W0, %hW0, HO⟩, ⟨%fd1, HG1⟩, Hs1, ⟨%fd2, HG2⟩, Hs2, ⟨%fd3, HG3⟩, Hs3, ⟨%fd4, HG4⟩, Hs4, ⟨%fd5, HS5⟩, HW5, Hg5, ⟨%fd6, HS6⟩, HW6, Hg6, ⟨%fd7, Hb7⟩, HW7, Hg7, Hs7, IT, ID, OT, OD⟩
  ihave OT' := (Entails.of_eq (todo_take (blkPts d L fO) 27 22 (by decide))) $$ OT
  icases OT' with ⟨Ho, OT⟩
  iapply (Transfers.wp_dmaLocal countersEmb 𝒱₀ thr none (default : HIx 1) _ rfl
      (show 0 < (oBlkK L (27 : Fin 50)).view.amount (SemLoc.dma cc0_scratch21.sem) from View.dmaCredit_pos (oBlkK L (27 : Fin 50)).view (by decide)) (Finset.Subset.refl _)) $$ [Hb7 Ho Hs7]
  · isplitl [Hb7]; · iexact Hb7
    isplitl [Ho]; · iexact Ho
    iexact Hs7
  iintro HS7
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW1 := wstep hW0 (SemLoc.dma cc0_scratch19.sem)
  ihave Ho := (Entails.of_eq (out_val d L fI fW hin fO (25 : Fin 50) bV5 _)) $$ Ho
  ihave OD := (Entails.of_eq (done_put (blkPts d L (Gath fI fW)) 25 (by decide))) $$ [Ho OD]
  · isplitl [Ho]; · iexact Ho
    iexact OD
  ihave IT' := (Entails.of_eq (todo_take (rowPts d L fI) 32 17 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (32 : Fin 50))) $$ [HW5 Hb5 Hr Hg5]
  · isplitl [HW5]; · iexact HW5
    isplitl [Hb5]; · iexact Hb5
    isplitl [Hr]; · iexact Hr
    iexact Hg5
  iintro HG5
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW2 := wstep hW1 (SemLoc.dma cc0_scratch8.sem)
  ihave ID := (Entails.of_eq (done_put (rowPts d L fI) 28 (by decide))) $$ [Hr ID]
  · isplitl [Hr]; · iexact Hr
    iexact ID
  ihave OT' := (Entails.of_eq (todo_take (blkPts d L fO) 28 21 (by decide))) $$ OT
  icases OT' with ⟨Ho, OT⟩
  iapply (Transfers.wp_dmaLocal countersEmb 𝒱₀ thr none (default : HIx 1) _ rfl
      (show 0 < (oBlkK L (28 : Fin 50)).view.amount (SemLoc.dma cc0_scratch15.sem) from View.dmaCredit_pos (oBlkK L (28 : Fin 50)).view (by decide)) (Finset.Subset.refl _)) $$ [Hb1 Ho Hs1]
  · isplitl [Hb1]; · iexact Hb1
    isplitl [Ho]; · iexact Ho
    iexact Hs1
  iintro HS1
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW3 := wstep hW2 (SemLoc.dma cc0_scratch20.sem)
  ihave Ho := (Entails.of_eq (out_val d L fI fW hin fO (26 : Fin 50) bV6 _)) $$ Ho
  ihave OD := (Entails.of_eq (done_put (blkPts d L (Gath fI fW)) 26 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [Hb6]
  · iexists _; iexact Hb6
  isplitl [HW6]
  · iexact HW6
  isplitl [Hg6]
  · iexact Hg6
  isplitl [Hs6]
  · iexact Hs6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_20 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (28 : Fin 50) fd)
        ∗ wPts d L fW q1
        ∗ semVal (thr, SemLoc.dma cc0_scratch8.sem) 0
        ∗ (∃ fd, GFl d L fI fW hin bV2 cc0_scratch9.sem q2 (29 : Fin 50) fd)
        ∗ semVal (thr, SemLoc.dma cc0_scratch16.sem) 0
        ∗ (∃ fd, GFl d L fI fW hin bV3 cc0_scratch10.sem q3 (30 : Fin 50) fd)
        ∗ semVal (thr, SemLoc.dma cc0_scratch17.sem) 0
        ∗ (∃ fd, GFl d L fI fW hin bV4 cc0_scratch11.sem q4 (31 : Fin 50) fd)
        ∗ semVal (thr, SemLoc.dma cc0_scratch18.sem) 0
        ∗ (∃ fd, GFl d L fI fW hin bV5 cc0_scratch12.sem q5 (32 : Fin 50) fd)
        ∗ semVal (thr, SemLoc.dma cc0_scratch19.sem) 0
        ∗ (∃ f, bPts d L bV6 f)
        ∗ wPts d L fW q6
        ∗ semVal (thr, SemLoc.dma cc0_scratch13.sem) 0
        ∗ semVal (thr, SemLoc.dma cc0_scratch20.sem) 0
        ∗ (∃ fd, SFl d L fI fW hin fO bV7 cc0_scratch21.sem (27 : Fin 50) fd)
        ∗ wPts d L fW q7
        ∗ semVal (thr, SemLoc.dma cc0_scratch14.sem) 0
        ∗ Todo (pc (rowPts d L fI)) 33 17
        ∗ Done (pc (rowPts d L fI)) 29
        ∗ Todo (pc (blkPts d L fO)) 29 21
        ∗ Done (pc (blkPts d L (Gath fI fW))) 27)
      ⊢ (wp frame (wpE (defs₀ (F := F)) 𝒱₀ thr none) Set.univ (k0_part20 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (28 : Fin 50) fd)
            ∗ wPts d L fW q1
            ∗ semVal (thr, SemLoc.dma cc0_scratch8.sem) 0
            ∗ (∃ fd, SFl d L fI fW hin fO bV2 cc0_scratch16.sem (29 : Fin 50) fd)
            ∗ wPts d L fW q2
            ∗ semVal (thr, SemLoc.dma cc0_scratch9.sem) 0
            ∗ (∃ fd, SFl d L fI fW hin fO bV3 cc0_scratch17.sem (30 : Fin 50) fd)
            ∗ wPts d L fW q3
            ∗ semVal (thr, SemLoc.dma cc0_scratch10.sem) 0
            ∗ (∃ fd, GFl d L fI fW hin bV4 cc0_scratch11.sem q4 (31 : Fin 50) fd)
            ∗ semVal (thr, SemLoc.dma cc0_scratch18.sem) 0
            ∗ (∃ fd, GFl d L fI fW hin bV5 cc0_scratch12.sem q5 (32 : Fin 50) fd)
            ∗ semVal (thr, SemLoc.dma cc0_scratch19.sem) 0
            ∗ (∃ fd, GFl d L fI fW hin bV6 cc0_scratch13.sem q6 (33 : Fin 50) fd)
            ∗ semVal (thr, SemLoc.dma cc0_scratch20.sem) 0
            ∗ (∃ fd, GFl d L fI fW hin bV7 cc0_scratch14.sem q7 (34 : Fin 50) fd)
            ∗ semVal (thr, SemLoc.dma cc0_scratch21.sem) 0
            ∗ Todo (pc (rowPts d L fI)) 35 15
            ∗ Done (pc (rowPts d L fI)) 31
            ∗ Todo (pc (blkPts d L fO)) 31 19
            ∗ Done (pc (blkPts d L (Gath fI fW))) 28) : sProp 𝕄) := by
  simp only [k0_part20_eq_skeleton]; unfold k0_part20_skel
  iintro ⟨HR, #Hmw, ⟨%W0, %hW0, HO⟩, ⟨%fd1, HS1⟩, HW1, Hg1, ⟨%fd2, HG2⟩, Hs2, ⟨%fd3, HG3⟩, Hs3, ⟨%fd4, HG4⟩, Hs4, ⟨%fd5, HG5⟩, Hs5, ⟨%fd6, Hb6⟩, HW6, Hg6, Hs6, ⟨%fd7, HS7⟩, HW7, Hg7, IT, ID, OT, OD⟩
  ihave IT' := (Entails.of_eq (todo_take (rowPts d L fI) 33 16 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (33 : Fin 50))) $$ [HW6 Hb6 Hr Hg6]
  · isplitl [HW6]; · iexact HW6
    isplitl [Hb6]; · iexact Hb6
    isplitl [Hr]; · iexact Hr
    iexact Hg6
  iintro HG6
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW1 := wstep hW0 (SemLoc.dma cc0_scratch9.sem)
  ihave ID := (Entails.of_eq (done_put (rowPts d L fI) 29 (by decide))) $$ [Hr ID]
  · isplitl [Hr]; · iexact Hr
    iexact ID
  ihave OT' := (Entails.of_eq (todo_take (blkPts d L fO) 29 20 (by decide))) $$ OT
  icases OT' with ⟨Ho, OT⟩
  iapply (Transfers.wp_dmaLocal countersEmb 𝒱₀ thr none (default : HIx 1) _ rfl
      (show 0 < (oBlkK L (29 : Fin 50)).view.amount (SemLoc.dma cc0_scratch16.sem) from View.dmaCredit_pos (oBlkK L (29 : Fin 50)).view (by decide)) (Finset.Subset.refl _)) $$ [Hb2 Ho Hs2]
  · isplitl [Hb2]; · iexact Hb2
    isplitl [Ho]; · iexact Ho
    iexact Hs2
  iintro HS2
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW2 := wstep hW1 (SemLoc.dma cc0_scratch21.sem)
  ihave Ho := (Entails.of_eq (out_val d L fI fW hin fO (27 : Fin 50) bV7 _)) $$ Ho
  ihave OD := (Entails.of_eq (done_put (blkPts d L (Gath fI fW)) 27 (by decide))) $$ [Ho OD]
  · isplitl [Ho]; · iexact Ho
    iexact OD
  ihave IT' := (Entails.of_eq (todo_take (rowPts d L fI) 34 15 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (34 : Fin 50))) $$ [HW7 Hb7 Hr Hg7]
  · isplitl [HW7]; · iexact HW7
    isplitl [Hb7]; · iexact Hb7
    isplitl [Hr]; · iexact Hr
    iexact Hg7
  iintro HG7
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW3 := wstep hW2 (SemLoc.dma cc0_scratch10.sem)
  ihave ID := (Entails.of_eq (done_put (rowPts d L fI) 30 (by decide))) $$ [Hr ID]
  · isplitl [Hr]; · iexact Hr
    iexact ID
  ihave OT' := (Entails.of_eq (todo_take (blkPts d L fO) 30 19 (by decide))) $$ OT
  icases OT' with ⟨Ho, OT⟩
  iapply (Transfers.wp_dmaLocal countersEmb 𝒱₀ thr none (default : HIx 1) _ rfl
      (show 0 < (oBlkK L (30 : Fin 50)).view.amount (SemLoc.dma cc0_scratch17.sem) from View.dmaCredit_pos (oBlkK L (30 : Fin 50)).view (by decide)) (Finset.Subset.refl _)) $$ [Hb3 Ho Hs3]
  · isplitl [Hb3]; · iexact Hb3
    isplitl [Ho]; · iexact Ho
    iexact Hs3
  iintro HS3
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_21 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (28 : Fin 50) fd)
        ∗ wPts d L fW q1
        ∗ semVal (thr, SemLoc.dma cc0_scratch8.sem) 0
        ∗ (∃ fd, SFl d L fI fW hin fO bV2 cc0_scratch16.sem (29 : Fin 50) fd)
        ∗ wPts d L fW q2
        ∗ semVal (thr, SemLoc.dma cc0_scratch9.sem) 0
        ∗ (∃ fd, SFl d L fI fW hin fO bV3 cc0_scratch17.sem (30 : Fin 50) fd)
        ∗ wPts d L fW q3
        ∗ semVal (thr, SemLoc.dma cc0_scratch10.sem) 0
        ∗ (∃ fd, GFl d L fI fW hin bV4 cc0_scratch11.sem q4 (31 : Fin 50) fd)
        ∗ semVal (thr, SemLoc.dma cc0_scratch18.sem) 0
        ∗ (∃ fd, GFl d L fI fW hin bV5 cc0_scratch12.sem q5 (32 : Fin 50) fd)
        ∗ semVal (thr, SemLoc.dma cc0_scratch19.sem) 0
        ∗ (∃ fd, GFl d L fI fW hin bV6 cc0_scratch13.sem q6 (33 : Fin 50) fd)
        ∗ semVal (thr, SemLoc.dma cc0_scratch20.sem) 0
        ∗ (∃ fd, GFl d L fI fW hin bV7 cc0_scratch14.sem q7 (34 : Fin 50) fd)
        ∗ semVal (thr, SemLoc.dma cc0_scratch21.sem) 0
        ∗ Todo (pc (rowPts d L fI)) 35 15
        ∗ Done (pc (rowPts d L fI)) 31
        ∗ Todo (pc (blkPts d L fO)) 31 19
        ∗ Done (pc (blkPts d L (Gath fI fW))) 28)
      ⊢ (wp frame (wpE (defs₀ (F := F)) 𝒱₀ thr none) Set.univ (k0_part21 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (35 : Fin 50) fd)
            ∗ semVal (thr, SemLoc.dma cc0_scratch15.sem) 0
            ∗ (∃ fd, GFl d L fI fW hin bV2 cc0_scratch9.sem q2 (36 : Fin 50) fd)
            ∗ semVal (thr, SemLoc.dma cc0_scratch16.sem) 0
            ∗ (∃ fd, SFl d L fI fW hin fO bV3 cc0_scratch17.sem (30 : Fin 50) fd)
            ∗ wPts d L fW q3
            ∗ semVal (thr, SemLoc.dma cc0_scratch10.sem) 0
            ∗ (∃ fd, SFl d L fI fW hin fO bV4 cc0_scratch18.sem (31 : Fin 50) fd)
            ∗ wPts d L fW q4
            ∗ semVal (thr, SemLoc.dma cc0_scratch11.sem) 0
            ∗ (∃ fd, GFl d L fI fW hin bV5 cc0_scratch12.sem q5 (32 : Fin 50) fd)
            ∗ semVal (thr, SemLoc.dma cc0_scratch19.sem) 0
            ∗ (∃ fd, GFl d L fI fW hin bV6 cc0_scratch13.sem q6 (33 : Fin 50) fd)
            ∗ semVal (thr, SemLoc.dma cc0_scratch20.sem) 0
            ∗ (∃ fd, GFl d L fI fW hin bV7 cc0_scratch14.sem q7 (34 : Fin 50) fd)
            ∗ semVal (thr, SemLoc.dma cc0_scratch21.sem) 0
            ∗ Todo (pc (rowPts d L fI)) 37 13
            ∗ Done (pc (rowPts d L fI)) 32
            ∗ Todo (pc (blkPts d L fO)) 32 18
            ∗ Done (pc (blkPts d L (Gath fI fW))) 30) : sProp 𝕄) := by
  simp only [k0_part21_eq_skeleton]; unfold k0_part21_skel
  iintro ⟨HR, #Hmw, ⟨%W0, %hW0, HO⟩, ⟨%fd1, HS1⟩, HW1, Hg1, ⟨%fd2, HS2⟩, HW2, Hg2, ⟨%fd3, HS3⟩, HW3, Hg3, ⟨%fd4, HG4⟩, Hs4, ⟨%fd5, HG5⟩, Hs5, ⟨%fd6, HG6⟩, Hs6, ⟨%fd7, HG7⟩, Hs7, IT, ID, OT, OD⟩
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW1 := wstep hW0 (SemLoc.dma cc0_scratch15.sem)
  ihave Ho := (Entails.of_eq (out_val d L fI fW hin fO (28 : Fin 50) bV1 _)) $$ Ho
  ihave OD := (Entails.of_eq (done_put (blkPts d L (Gath fI fW)) 28 (by decide))) $$ [Ho OD]
  · isplitl [Ho]; · iexact Ho
    iexact OD
  ihave IT' := (Entails.of_eq (todo_take (rowPts d L fI) 35 14 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (35 : Fin 50))) $$ [HW1 Hb1 Hr Hg1]
  · isplitl [HW1]; · iexact HW1
    isplitl [Hb1]; · iexact Hb1
    isplitl [Hr]; · iexact Hr
    iexact Hg1
  iintro HG1
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW2 := wstep hW1 (SemLoc.dma cc0_scratch11.sem)
  ihave ID := (Entails.of_eq (done_put (rowPts d L fI) 31 (by decide))) $$ [Hr ID]
  · isplitl [Hr]; · iexact Hr
    iexact ID
  ihave OT' := (Entails.of_eq (todo_take (blkPts d L fO) 31 18 (by decide))) $$ OT
  icases OT' with ⟨Ho, OT⟩
  iapply (Transfers.wp_dmaLocal countersEmb 𝒱₀ thr none (default : HIx 1) _ rfl
      (show 0 < (oBlkK L (31 : Fin 50)).view.amount (SemLoc.dma cc0_scratch18.sem) from View.dmaCredit_pos (oBlkK L (31 : Fin 50)).view (by decide)) (Finset.Subset.refl _)) $$ [Hb4 Ho Hs4]
  · isplitl [Hb4]; · iexact Hb4
    isplitl [Ho]; · iexact Ho
    iexact Hs4
  iintro HS4
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW3 := wstep hW2 (SemLoc.dma cc0_scratch16.sem)
  ihave Ho := (Entails.of_eq (out_val d L fI fW hin fO (29 : Fin 50) bV2 _)) $$ Ho
  ihave OD := (Entails.of_eq (done_put (blkPts d L (Gath fI fW)) 29 (by decide))) $$ [Ho OD]
  · isplitl [Ho]; · iexact Ho
    iexact OD
  ihave IT' := (Entails.of_eq (todo_take (rowPts d L fI) 36 13 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (36 : Fin 50))) $$ [HW2 Hb2 Hr Hg2]
  · isplitl [HW2]; · iexact HW2
    isplitl [Hb2]; · iexact Hb2
    isplitl [Hr]; · iexact Hr
    iexact Hg2
  iintro HG2
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_22 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (35 : Fin 50) fd)
        ∗ semVal (thr, SemLoc.dma cc0_scratch15.sem) 0
        ∗ (∃ fd, GFl d L fI fW hin bV2 cc0_scratch9.sem q2 (36 : Fin 50) fd)
        ∗ semVal (thr, SemLoc.dma cc0_scratch16.sem) 0
        ∗ (∃ fd, SFl d L fI fW hin fO bV3 cc0_scratch17.sem (30 : Fin 50) fd)
        ∗ wPts d L fW q3
        ∗ semVal (thr, SemLoc.dma cc0_scratch10.sem) 0
        ∗ (∃ fd, SFl d L fI fW hin fO bV4 cc0_scratch18.sem (31 : Fin 50) fd)
        ∗ wPts d L fW q4
        ∗ semVal (thr, SemLoc.dma cc0_scratch11.sem) 0
        ∗ (∃ fd, GFl d L fI fW hin bV5 cc0_scratch12.sem q5 (32 : Fin 50) fd)
        ∗ semVal (thr, SemLoc.dma cc0_scratch19.sem) 0
        ∗ (∃ fd, GFl d L fI fW hin bV6 cc0_scratch13.sem q6 (33 : Fin 50) fd)
        ∗ semVal (thr, SemLoc.dma cc0_scratch20.sem) 0
        ∗ (∃ fd, GFl d L fI fW hin bV7 cc0_scratch14.sem q7 (34 : Fin 50) fd)
        ∗ semVal (thr, SemLoc.dma cc0_scratch21.sem) 0
        ∗ Todo (pc (rowPts d L fI)) 37 13
        ∗ Done (pc (rowPts d L fI)) 32
        ∗ Todo (pc (blkPts d L fO)) 32 18
        ∗ Done (pc (blkPts d L (Gath fI fW))) 30)
      ⊢ (wp frame (wpE (defs₀ (F := F)) 𝒱₀ thr none) Set.univ (k0_part22 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (35 : Fin 50) fd)
            ∗ semVal (thr, SemLoc.dma cc0_scratch15.sem) 0
            ∗ (∃ fd, GFl d L fI fW hin bV2 cc0_scratch9.sem q2 (36 : Fin 50) fd)
            ∗ semVal (thr, SemLoc.dma cc0_scratch16.sem) 0
            ∗ (∃ fd, GFl d L fI fW hin bV3 cc0_scratch10.sem q3 (37 : Fin 50) fd)
            ∗ semVal (thr, SemLoc.dma cc0_scratch17.sem) 0
            ∗ (∃ fd, SFl d L fI fW hin fO bV4 cc0_scratch18.sem (31 : Fin 50) fd)
            ∗ wPts d L fW q4
            ∗ semVal (thr, SemLoc.dma cc0_scratch11.sem) 0
            ∗ (∃ fd, SFl d L fI fW hin fO bV5 cc0_scratch19.sem (32 : Fin 50) fd)
            ∗ wPts d L fW q5
            ∗ semVal (thr, SemLoc.dma cc0_scratch12.sem) 0
            ∗ (∃ fd, SFl d L fI fW hin fO bV6 cc0_scratch20.sem (33 : Fin 50) fd)
            ∗ wPts d L fW q6
            ∗ semVal (thr, SemLoc.dma cc0_scratch13.sem) 0
            ∗ (∃ fd, GFl d L fI fW hin bV7 cc0_scratch14.sem q7 (34 : Fin 50) fd)
            ∗ semVal (thr, SemLoc.dma cc0_scratch21.sem) 0
            ∗ Todo (pc (rowPts d L fI)) 38 12
            ∗ Done (pc (rowPts d L fI)) 34
            ∗ Todo (pc (blkPts d L fO)) 34 16
            ∗ Done (pc (blkPts d L (Gath fI fW))) 31) : sProp 𝕄) := by
  simp only [k0_part22_eq_skeleton]; unfold k0_part22_skel
  iintro ⟨HR, #Hmw, ⟨%W0, %hW0, HO⟩, ⟨%fd1, HG1⟩, Hs1, ⟨%fd2, HG2⟩, Hs2, ⟨%fd3, HS3⟩, HW3, Hg3, ⟨%fd4, HS4⟩, HW4, Hg4, ⟨%fd5, HG5⟩, Hs5, ⟨%fd6, HG6⟩, Hs6, ⟨%fd7, HG7⟩, Hs7, IT, ID, OT, OD⟩
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW1 := wstep hW0 (SemLoc.dma cc0_scratch12.sem)
  ihave ID := (Entails.of_eq (done_put (rowPts d L fI) 32 (by decide))) $$ [Hr ID]
  · isplitl [Hr]; · iexact Hr
    iexact ID
  ihave OT' := (Entails.of_eq (todo_take (blkPts d L fO) 32 17 (by decide))) $$ OT
  icases OT' with ⟨Ho, OT⟩
  iapply (Transfers.wp_dmaLocal countersEmb 𝒱₀ thr none (default : HIx 1) _ rfl
      (show 0 < (oBlkK L (32 : Fin 50)).view.amount (SemLoc.dma cc0_scratch19.sem) from View.dmaCredit_pos (oBlkK L (32 : Fin 50)).view (by decide)) (Finset.Subset.refl _)) $$ [Hb5 Ho Hs5]
  · isplitl [Hb5]; · iexact Hb5
    isplitl [Ho]; · iexact Ho
    iexact Hs5
  iintro HS5
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW2 := wstep hW1 (SemLoc.dma cc0_scratch17.sem)
  ihave Ho := (Entails.of_eq (out_val d L fI fW hin fO (30 : Fin 50) bV3 _)) $$ Ho
  ihave OD := (Entails.of_eq (done_put (blkPts d L (Gath fI fW)) 30 (by decide))) $$ [Ho OD]
  · isplitl [Ho]; · iexact Ho
    iexact OD
  ihave IT' := (Entails.of_eq (todo_take (rowPts d L fI) 37 12 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (37 : Fin 50))) $$ [HW3 Hb3 Hr Hg3]
  · isplitl [HW3]; · iexact HW3
    isplitl [Hb3]; · iexact Hb3
    isplitl [Hr]; · iexact Hr
    iexact Hg3
  iintro HG3
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW3 := wstep hW2 (SemLoc.dma cc0_scratch13.sem)
  ihave ID := (Entails.of_eq (done_put (rowPts d L fI) 33 (by decide))) $$ [Hr ID]
  · isplitl [Hr]; · iexact Hr
    iexact ID
  ihave OT' := (Entails.of_eq (todo_take (blkPts d L fO) 33 16 (by decide))) $$ OT
  icases OT' with ⟨Ho, OT⟩
  iapply (Transfers.wp_dmaLocal countersEmb 𝒱₀ thr none (default : HIx 1) _ rfl
      (show 0 < (oBlkK L (33 : Fin 50)).view.amount (SemLoc.dma cc0_scratch20.sem) from View.dmaCredit_pos (oBlkK L (33 : Fin 50)).view (by decide)) (Finset.Subset.refl _)) $$ [Hb6 Ho Hs6]
  · isplitl [Hb6]; · iexact Hb6
    isplitl [Ho]; · iexact Ho
    iexact Hs6
  iintro HS6
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [HS6]
  · iexists _; iexact HS6
  isplitl [HW6]
  · iexact HW6
  isplitl [Hg6]
  · iexact Hg6
  isplitl [HG7]
  · iexists _; iexact HG7
  isplitl [Hs7]
  · iexact Hs7
  isplitl [IT]
  · iexact IT
  isplitl [ID]
  · iexact ID
  isplitl [OT]
  · iexact OT
  iexact OD

end Cert.Kernel.TileBody

end
-- ==== Proof.TileP3Bits.lean ====
import proofs.«206768_g17686675325131_cont_8to1_990_33_alg».proof.Proof.TileDefsBits
import proofs.«206768_g17686675325131_cont_8to1_990_33_alg».proof.Proof.TileValBits
import proofs.«206768_g17686675325131_cont_8to1_990_33_alg».proof.Proof.TileGeomBits

noncomputable section

namespace Cert.Kernel.TileBody

open Cert.Kernel Cert.Kernel.Gen Cert.Kernel.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S32x50x128 EltTy.i32)
local notation "oV" => (Memref.whole Cert.Kernel.main_v1_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S50x128 EltTy.i32)

variable (d : Dev nD) (L : grid0.Coords)

local notation "thr" => (V d (cV L) (jV L))

set_option maxHeartbeats 4000000 in
theorem part_23 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (35 : Fin 50) fd)
        ∗ semVal (thr, SemLoc.dma cc0_scratch15.sem) 0
        ∗ (∃ fd, GFl d L fI fW hin bV2 cc0_scratch9.sem q2 (36 : Fin 50) fd)
        ∗ semVal (thr, SemLoc.dma cc0_scratch16.sem) 0
        ∗ (∃ fd, GFl d L fI fW hin bV3 cc0_scratch10.sem q3 (37 : Fin 50) fd)
        ∗ semVal (thr, SemLoc.dma cc0_scratch17.sem) 0
        ∗ (∃ fd, SFl d L fI fW hin fO bV4 cc0_scratch18.sem (31 : Fin 50) fd)
        ∗ wPts d L fW q4
        ∗ semVal (thr, SemLoc.dma cc0_scratch11.sem) 0
        ∗ (∃ fd, SFl d L fI fW hin fO bV5 cc0_scratch19.sem (32 : Fin 50) fd)
        ∗ wPts d L fW q5
        ∗ semVal (thr, SemLoc.dma cc0_scratch12.sem) 0
        ∗ (∃ fd, SFl d L fI fW hin fO bV6 cc0_scratch20.sem (33 : Fin 50) fd)
        ∗ wPts d L fW q6
        ∗ semVal (thr, SemLoc.dma cc0_scratch13.sem) 0
        ∗ (∃ fd, GFl d L fI fW hin bV7 cc0_scratch14.sem q7 (34 : Fin 50) fd)
        ∗ semVal (thr, SemLoc.dma cc0_scratch21.sem) 0
        ∗ Todo (pc (rowPts d L fI)) 38 12
        ∗ Done (pc (rowPts d L fI)) 34
        ∗ Todo (pc (blkPts d L fO)) 34 16
        ∗ Done (pc (blkPts d L (Gath fI fW))) 31)
      ⊢ (wp frame (wpE (defs₀ (F := F)) 𝒱₀ thr none) Set.univ (k0_part23 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, bPts d L bV1 (View.write (Elt F) (bV1).view fd (gP d L fI fW hin (35 : Fin 50)) Finset.univ))
            ∗ wPts d L fW q1
            ∗ semVal (thr, SemLoc.dma cc0_scratch8.sem) 0
            ∗ semVal (thr, SemLoc.dma cc0_scratch15.sem) 0
            ∗ (∃ fd, GFl d L fI fW hin bV2 cc0_scratch9.sem q2 (36 : Fin 50) fd)
            ∗ semVal (thr, SemLoc.dma cc0_scratch16.sem) 0
            ∗ (∃ fd, GFl d L fI fW hin bV3 cc0_scratch10.sem q3 (37 : Fin 50) fd)
            ∗ semVal (thr, SemLoc.dma cc0_scratch17.sem) 0
            ∗ (∃ fd, GFl d L fI fW hin bV4 cc0_scratch11.sem q4 (38 : Fin 50) fd)
            ∗ semVal (thr, SemLoc.dma cc0_scratch18.sem) 0
            ∗ (∃ fd, GFl d L fI fW hin bV5 cc0_scratch12.sem q5 (39 : Fin 50) fd)
            ∗ semVal (thr, SemLoc.dma cc0_scratch19.sem) 0
            ∗ (∃ fd, SFl d L fI fW hin fO bV6 cc0_scratch20.sem (33 : Fin 50) fd)
            ∗ wPts d L fW q6
            ∗ semVal (thr, SemLoc.dma cc0_scratch13.sem) 0
            ∗ (∃ fd, SFl d L fI fW hin fO bV7 cc0_scratch21.sem (34 : Fin 50) fd)
            ∗ wPts d L fW q7
            ∗ semVal (thr, SemLoc.dma cc0_scratch14.sem) 0
            ∗ Todo (pc (rowPts d L fI)) 40 10
            ∗ Done (pc (rowPts d L fI)) 36
            ∗ Todo (pc (blkPts d L fO)) 35 15
            ∗ Done (pc (blkPts d L (Gath fI fW))) 33) : sProp 𝕄) := by
  simp only [k0_part23_eq_skeleton]; unfold k0_part23_skel
  iintro ⟨HR, #Hmw, ⟨%W0, %hW0, HO⟩, ⟨%fd1, HG1⟩, Hs1, ⟨%fd2, HG2⟩, Hs2, ⟨%fd3, HG3⟩, Hs3, ⟨%fd4, HS4⟩, HW4, Hg4, ⟨%fd5, HS5⟩, HW5, Hg5, ⟨%fd6, HS6⟩, HW6, Hg6, ⟨%fd7, HG7⟩, Hs7, IT, ID, OT, OD⟩
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW1 := wstep hW0 (SemLoc.dma cc0_scratch18.sem)
  ihave Ho := (Entails.of_eq (out_val d L fI fW hin fO (31 : Fin 50) bV4 _)) $$ Ho
  ihave OD := (Entails.of_eq (done_put (blkPts d L (Gath fI fW)) 31 (by decide))) $$ [Ho OD]
  · isplitl [Ho]; · iexact Ho
    iexact OD
  ihave IT' := (Entails.of_eq (todo_take (rowPts d L fI) 38 11 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (38 : Fin 50))) $$ [HW4 Hb4 Hr Hg4]
  · isplitl [HW4]; · iexact HW4
    isplitl [Hb4]; · iexact Hb4
    isplitl [Hr]; · iexact Hr
    iexact Hg4
  iintro HG4
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW2 := wstep hW1 (SemLoc.dma cc0_scratch14.sem)
  ihave ID := (Entails.of_eq (done_put (rowPts d L fI) 34 (by decide))) $$ [Hr ID]
  · isplitl [Hr]; · iexact Hr
    iexact ID
  ihave OT' := (Entails.of_eq (todo_take (blkPts d L fO) 34 15 (by decide))) $$ OT
  icases OT' with ⟨Ho, OT⟩
  iapply (Transfers.wp_dmaLocal countersEmb 𝒱₀ thr none (default : HIx 1) _ rfl
      (show 0 < (oBlkK L (34 : Fin 50)).view.amount (SemLoc.dma cc0_scratch21.sem) from View.dmaCredit_pos (oBlkK L (34 : Fin 50)).view (by decide)) (Finset.Subset.refl _)) $$ [Hb7 Ho Hs7]
  · isplitl [Hb7]; · iexact Hb7
    isplitl [Ho]; · iexact Ho
    iexact Hs7
  iintro HS7
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW3 := wstep hW2 (SemLoc.dma cc0_scratch19.sem)
  ihave Ho := (Entails.of_eq (out_val d L fI fW hin fO (32 : Fin 50) bV5 _)) $$ Ho
  ihave OD := (Entails.of_eq (done_put (blkPts d L (Gath fI fW)) 32 (by decide))) $$ [Ho OD]
  · isplitl [Ho]; · iexact Ho
    iexact OD
  ihave IT' := (Entails.of_eq (todo_take (rowPts d L fI) 39 10 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (39 : Fin 50))) $$ [HW5 Hb5 Hr Hg5]
  · isplitl [HW5]; · iexact HW5
    isplitl [Hb5]; · iexact Hb5
    isplitl [Hr]; · iexact Hr
    iexact Hg5
  iintro HG5
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW4 := wstep hW3 (SemLoc.dma cc0_scratch8.sem)
  ihave ID := (Entails.of_eq (done_put (rowPts d L fI) 35 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW4
    · iexact HO
  isplitl [Hb1]
  · iexists _; iexact Hb1
  isplitl [HW1]
  · iexact HW1
  isplitl [Hg1]
  · iexact Hg1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HS6]
  · iexists _; iexact HS6
  isplitl [HW6]
  · iexact HW6
  isplitl [Hg6]
  · iexact Hg6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_24 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (c50_i32_603 : BitVec 32) :
    iprop(R
        ∗ Transfers.MayWaits thr (default : HIx 1) O
        ∗ (∃ W', ⌜∀ p ∈ W', p ∈ W ∨ p.2 = none⌝ ∗ owes thr O W')
        ∗ (∃ fd, bPts d L bV1 (View.write (Elt F) (bV1).view fd (gP d L fI fW hin (35 : Fin 50)) Finset.univ))
        ∗ wPts d L fW q1
        ∗ semVal (thr, SemLoc.dma cc0_scratch8.sem) 0
        ∗ semVal (thr, SemLoc.dma cc0_scratch15.sem) 0
        ∗ (∃ fd, GFl d L fI fW hin bV2 cc0_scratch9.sem q2 (36 : Fin 50) fd)
        ∗ semVal (thr, SemLoc.dma cc0_scratch16.sem) 0
        ∗ (∃ fd, GFl d L fI fW hin bV3 cc0_scratch10.sem q3 (37 : Fin 50) fd)
        ∗ semVal (thr, SemLoc.dma cc0_scratch17.sem) 0
        ∗ (∃ fd, GFl d L fI fW hin bV4 cc0_scratch11.sem q4 (38 : Fin 50) fd)
        ∗ semVal (thr, SemLoc.dma cc0_scratch18.sem) 0
        ∗ (∃ fd, GFl d L fI fW hin bV5 cc0_scratch12.sem q5 (39 : Fin 50) fd)
        ∗ semVal (thr, SemLoc.dma cc0_scratch19.sem) 0
        ∗ (∃ fd, SFl d L fI fW hin fO bV6 cc0_scratch20.sem (33 : Fin 50) fd)
        ∗ wPts d L fW q6
        ∗ semVal (thr, SemLoc.dma cc0_scratch13.sem) 0
        ∗ (∃ fd, SFl d L fI fW hin fO bV7 cc0_scratch21.sem (34 : Fin 50) fd)
        ∗ wPts d L fW q7
        ∗ semVal (thr, SemLoc.dma cc0_scratch14.sem) 0
        ∗ Todo (pc (rowPts d L fI)) 40 10
        ∗ Done (pc (rowPts d L fI)) 36
        ∗ Todo (pc (blkPts d L fO)) 35 15
        ∗ Done (pc (blkPts d L (Gath fI fW))) 33)
      ⊢ (wp frame (wpE (defs₀ (F := F)) 𝒱₀ thr none) Set.univ (k0_part24 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 c50_i32_603)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (35 : Fin 50) fd)
            ∗ wPts d L fW q1
            ∗ semVal (thr, SemLoc.dma cc0_scratch8.sem) 0
            ∗ (∃ fd, SFl d L fI fW hin fO bV2 cc0_scratch16.sem (36 : Fin 50) fd)
            ∗ wPts d L fW q2
            ∗ semVal (thr, SemLoc.dma cc0_scratch9.sem) 0
            ∗ (∃ fd, GFl d L fI fW hin bV3 cc0_scratch10.sem q3 (37 : Fin 50) fd)
            ∗ semVal (thr, SemLoc.dma cc0_scratch17.sem) 0
            ∗ (∃ fd, GFl d L fI fW hin bV4 cc0_scratch11.sem q4 (38 : Fin 50) fd)
            ∗ semVal (thr, SemLoc.dma cc0_scratch18.sem) 0
            ∗ (∃ fd, GFl d L fI fW hin bV5 cc0_scratch12.sem q5 (39 : Fin 50) fd)
            ∗ semVal (thr, SemLoc.dma cc0_scratch19.sem) 0
            ∗ (∃ fd, GFl d L fI fW hin bV6 cc0_scratch13.sem q6 (40 : Fin 50) fd)
            ∗ semVal (thr, SemLoc.dma cc0_scratch20.sem) 0
            ∗ (∃ f, bPts d L bV7 f)
            ∗ wPts d L fW q7
            ∗ semVal (thr, SemLoc.dma cc0_scratch14.sem) 0
            ∗ semVal (thr, SemLoc.dma cc0_scratch21.sem) 0
            ∗ Todo (pc (rowPts d L fI)) 41 9
            ∗ Done (pc (rowPts d L fI)) 37
            ∗ Todo (pc (blkPts d L fO)) 37 13
            ∗ Done (pc (blkPts d L (Gath fI fW))) 35) : sProp 𝕄) := by
  simp only [k0_part24_eq_skeleton]; unfold k0_part24_skel
  iintro ⟨HR, #Hmw, ⟨%W0, %hW0, HO⟩, ⟨%fd1, Hb1⟩, HW1, Hg1, Hs1, ⟨%fd2, HG2⟩, Hs2, ⟨%fd3, HG3⟩, Hs3, ⟨%fd4, HG4⟩, Hs4, ⟨%fd5, HG5⟩, Hs5, ⟨%fd6, HS6⟩, HW6, Hg6, ⟨%fd7, HS7⟩, HW7, Hg7, IT, ID, OT, OD⟩
  ihave OT' := (Entails.of_eq (todo_take (blkPts d L fO) 35 14 (by decide))) $$ OT
  icases OT' with ⟨Ho, OT⟩
  iapply (Transfers.wp_dmaLocal countersEmb 𝒱₀ thr none (default : HIx 1) _ rfl
      (show 0 < (oBlkK L (35 : Fin 50)).view.amount (SemLoc.dma cc0_scratch15.sem) from View.dmaCredit_pos (oBlkK L (35 : Fin 50)).view (by decide)) (Finset.Subset.refl _)) $$ [Hb1 Ho Hs1]
  · isplitl [Hb1]; · iexact Hb1
    isplitl [Ho]; · iexact Ho
    iexact Hs1
  iintro HS1
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW1 := wstep hW0 (SemLoc.dma cc0_scratch20.sem)
  ihave Ho := (Entails.of_eq (out_val d L fI fW hin fO (33 : Fin 50) bV6 _)) $$ Ho
  ihave OD := (Entails.of_eq (done_put (blkPts d L (Gath fI fW)) 33 (by decide))) $$ [Ho OD]
  · isplitl [Ho]; · iexact Ho
    iexact OD
  ihave IT' := (Entails.of_eq (todo_take (rowPts d L fI) 40 9 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (40 : Fin 50))) $$ [HW6 Hb6 Hr Hg6]
  · isplitl [HW6]; · iexact HW6
    isplitl [Hb6]; · iexact Hb6
    isplitl [Hr]; · iexact Hr
    iexact Hg6
  iintro HG6
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW2 := wstep hW1 (SemLoc.dma cc0_scratch9.sem)
  ihave ID := (Entails.of_eq (done_put (rowPts d L fI) 36 (by decide))) $$ [Hr ID]
  · isplitl [Hr]; · iexact Hr
    iexact ID
  ihave OT' := (Entails.of_eq (todo_take (blkPts d L fO) 36 13 (by decide))) $$ OT
  icases OT' with ⟨Ho, OT⟩
  iapply (Transfers.wp_dmaLocal countersEmb 𝒱₀ thr none (default : HIx 1) _ rfl
      (show 0 < (oBlkK L (36 : Fin 50)).view.amount (SemLoc.dma cc0_scratch16.sem) from View.dmaCredit_pos (oBlkK L (36 : Fin 50)).view (by decide)) (Finset.Subset.refl _)) $$ [Hb2 Ho Hs2]
  · isplitl [Hb2]; · iexact Hb2
    isplitl [Ho]; · iexact Ho
    iexact Hs2
  iintro HS2
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW3 := wstep hW2 (SemLoc.dma cc0_scratch21.sem)
  ihave Ho := (Entails.of_eq (out_val d L fI fW hin fO (34 : Fin 50) bV7 _)) $$ Ho
  ihave OD := (Entails.of_eq (done_put (blkPts d L (Gath fI fW)) 34 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HS2]
  · iexists _; iexact HS2
  isplitl [HW2]
  · iexact HW2
  isplitl [Hg2]
  · iexact Hg2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [Hb7]
  · iexists _; iexact Hb7
  isplitl [HW7]
  · iexact HW7
  isplitl [Hg7]
  · iexact Hg7
  isplitl [Hs7]
  · iexact Hs7
  isplitl [IT]
  · iexact IT
  isplitl [ID]
  · iexact ID
  isplitl [OT]
  · iexact OT
  iexact OD

set_option maxHeartbeats 4000000 in
theorem part_25 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (35 : Fin 50) fd)
        ∗ wPts d L fW q1
        ∗ semVal (thr, SemLoc.dma cc0_scratch8.sem) 0
        ∗ (∃ fd, SFl d L fI fW hin fO bV2 cc0_scratch16.sem (36 : Fin 50) fd)
        ∗ wPts d L fW q2
        ∗ semVal (thr, SemLoc.dma cc0_scratch9.sem) 0
        ∗ (∃ fd, GFl d L fI fW hin bV3 cc0_scratch10.sem q3 (37 : Fin 50) fd)
        ∗ semVal (thr, SemLoc.dma cc0_scratch17.sem) 0
        ∗ (∃ fd, GFl d L fI fW hin bV4 cc0_scratch11.sem q4 (38 : Fin 50) fd)
        ∗ semVal (thr, SemLoc.dma cc0_scratch18.sem) 0
        ∗ (∃ fd, GFl d L fI fW hin bV5 cc0_scratch12.sem q5 (39 : Fin 50) fd)
        ∗ semVal (thr, SemLoc.dma cc0_scratch19.sem) 0
        ∗ (∃ fd, GFl d L fI fW hin bV6 cc0_scratch13.sem q6 (40 : Fin 50) fd)
        ∗ semVal (thr, SemLoc.dma cc0_scratch20.sem) 0
        ∗ (∃ f, bPts d L bV7 f)
        ∗ wPts d L fW q7
        ∗ semVal (thr, SemLoc.dma cc0_scratch14.sem) 0
        ∗ semVal (thr, SemLoc.dma cc0_scratch21.sem) 0
        ∗ Todo (pc (rowPts d L fI)) 41 9
        ∗ Done (pc (rowPts d L fI)) 37
        ∗ Todo (pc (blkPts d L fO)) 37 13
        ∗ Done (pc (blkPts d L (Gath fI fW))) 35)
      ⊢ (wp frame (wpE (defs₀ (F := F)) 𝒱₀ thr none) Set.univ (k0_part25 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (42 : Fin 50) fd)
            ∗ semVal (thr, SemLoc.dma cc0_scratch15.sem) 0
            ∗ (∃ fd, SFl d L fI fW hin fO bV2 cc0_scratch16.sem (36 : Fin 50) fd)
            ∗ wPts d L fW q2
            ∗ semVal (thr, SemLoc.dma cc0_scratch9.sem) 0
            ∗ (∃ fd, SFl d L fI fW hin fO bV3 cc0_scratch17.sem (37 : Fin 50) fd)
            ∗ wPts d L fW q3
            ∗ semVal (thr, SemLoc.dma cc0_scratch10.sem) 0
            ∗ (∃ fd, bPts d L bV4 (View.write (Elt F) (bV4).view fd (gP d L fI fW hin (38 : Fin 50)) Finset.univ))
            ∗ wPts d L fW q4
            ∗ semVal (thr, SemLoc.dma cc0_scratch11.sem) 0
            ∗ semVal (thr, SemLoc.dma cc0_scratch18.sem) 0
            ∗ (∃ fd, GFl d L fI fW hin bV5 cc0_scratch12.sem q5 (39 : Fin 50) fd)
            ∗ semVal (thr, SemLoc.dma cc0_scratch19.sem) 0
            ∗ (∃ fd, GFl d L fI fW hin bV6 cc0_scratch13.sem q6 (40 : Fin 50) fd)
            ∗ semVal (thr, SemLoc.dma cc0_scratch20.sem) 0
            ∗ (∃ fd, GFl d L fI fW hin bV7 cc0_scratch14.sem q7 (41 : Fin 50) fd)
            ∗ semVal (thr, SemLoc.dma cc0_scratch21.sem) 0
            ∗ Todo (pc (rowPts d L fI)) 43 7
            ∗ Done (pc (rowPts d L fI)) 39
            ∗ Todo (pc (blkPts d L fO)) 38 12
            ∗ Done (pc (blkPts d L (Gath fI fW))) 36) : sProp 𝕄) := by
  simp only [k0_part25_eq_skeleton]; unfold k0_part25_skel
  iintro ⟨HR, #Hmw, ⟨%W0, %hW0, HO⟩, ⟨%fd1, HS1⟩, HW1, Hg1, ⟨%fd2, HS2⟩, HW2, Hg2, ⟨%fd3, HG3⟩, Hs3, ⟨%fd4, HG4⟩, Hs4, ⟨%fd5, HG5⟩, Hs5, ⟨%fd6, HG6⟩, Hs6, ⟨%fd7, Hb7⟩, HW7, Hg7, Hs7, IT, ID, OT, OD⟩
  ihave IT' := (Entails.of_eq (todo_take (rowPts d L fI) 41 8 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (41 : Fin 50))) $$ [HW7 Hb7 Hr Hg7]
  · isplitl [HW7]; · iexact HW7
    isplitl [Hb7]; · iexact Hb7
    isplitl [Hr]; · iexact Hr
    iexact Hg7
  iintro HG7
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW1 := wstep hW0 (SemLoc.dma cc0_scratch10.sem)
  ihave ID := (Entails.of_eq (done_put (rowPts d L fI) 37 (by decide))) $$ [Hr ID]
  · isplitl [Hr]; · iexact Hr
    iexact ID
  ihave OT' := (Entails.of_eq (todo_take (blkPts d L fO) 37 12 (by decide))) $$ OT
  icases OT' with ⟨Ho, OT⟩
  iapply (Transfers.wp_dmaLocal countersEmb 𝒱₀ thr none (default : HIx 1) _ rfl
      (show 0 < (oBlkK L (37 : Fin 50)).view.amount (SemLoc.dma cc0_scratch17.sem) from View.dmaCredit_pos (oBlkK L (37 : Fin 50)).view (by decide)) (Finset.Subset.refl _)) $$ [Hb3 Ho Hs3]
  · isplitl [Hb3]; · iexact Hb3
    isplitl [Ho]; · iexact Ho
    iexact Hs3
  iintro HS3
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW2 := wstep hW1 (SemLoc.dma cc0_scratch15.sem)
  ihave Ho := (Entails.of_eq (out_val d L fI fW hin fO (35 : Fin 50) bV1 _)) $$ Ho
  ihave OD := (Entails.of_eq (done_put (blkPts d L (Gath fI fW)) 35 (by decide))) $$ [Ho OD]
  · isplitl [Ho]; · iexact Ho
    iexact OD
  ihave IT' := (Entails.of_eq (todo_take (rowPts d L fI) 42 7 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (42 : Fin 50))) $$ [HW1 Hb1 Hr Hg1]
  · isplitl [HW1]; · iexact HW1
    isplitl [Hb1]; · iexact Hb1
    isplitl [Hr]; · iexact Hr
    iexact Hg1
  iintro HG1
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW3 := wstep hW2 (SemLoc.dma cc0_scratch11.sem)
  ihave ID := (Entails.of_eq (done_put (rowPts d L fI) 38 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [Hb4]
  · iexists _; iexact Hb4
  isplitl [HW4]
  · iexact HW4
  isplitl [Hg4]
  · iexact Hg4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_26 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (42 : Fin 50) fd)
        ∗ semVal (thr, SemLoc.dma cc0_scratch15.sem) 0
        ∗ (∃ fd, SFl d L fI fW hin fO bV2 cc0_scratch16.sem (36 : Fin 50) fd)
        ∗ wPts d L fW q2
        ∗ semVal (thr, SemLoc.dma cc0_scratch9.sem) 0
        ∗ (∃ fd, SFl d L fI fW hin fO bV3 cc0_scratch17.sem (37 : Fin 50) fd)
        ∗ wPts d L fW q3
        ∗ semVal (thr, SemLoc.dma cc0_scratch10.sem) 0
        ∗ (∃ fd, bPts d L bV4 (View.write (Elt F) (bV4).view fd (gP d L fI fW hin (38 : Fin 50)) Finset.univ))
        ∗ wPts d L fW q4
        ∗ semVal (thr, SemLoc.dma cc0_scratch11.sem) 0
        ∗ semVal (thr, SemLoc.dma cc0_scratch18.sem) 0
        ∗ (∃ fd, GFl d L fI fW hin bV5 cc0_scratch12.sem q5 (39 : Fin 50) fd)
        ∗ semVal (thr, SemLoc.dma cc0_scratch19.sem) 0
        ∗ (∃ fd, GFl d L fI fW hin bV6 cc0_scratch13.sem q6 (40 : Fin 50) fd)
        ∗ semVal (thr, SemLoc.dma cc0_scratch20.sem) 0
        ∗ (∃ fd, GFl d L fI fW hin bV7 cc0_scratch14.sem q7 (41 : Fin 50) fd)
        ∗ semVal (thr, SemLoc.dma cc0_scratch21.sem) 0
        ∗ Todo (pc (rowPts d L fI)) 43 7
        ∗ Done (pc (rowPts d L fI)) 39
        ∗ Todo (pc (blkPts d L fO)) 38 12
        ∗ Done (pc (blkPts d L (Gath fI fW))) 36)
      ⊢ (wp frame (wpE (defs₀ (F := F)) 𝒱₀ thr none) Set.univ (k0_part26 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (42 : Fin 50) fd)
            ∗ semVal (thr, SemLoc.dma cc0_scratch15.sem) 0
            ∗ (∃ fd, GFl d L fI fW hin bV2 cc0_scratch9.sem q2 (43 : Fin 50) fd)
            ∗ semVal (thr, SemLoc.dma cc0_scratch16.sem) 0
            ∗ (∃ f, bPts d L bV3 f)
            ∗ wPts d L fW q3
            ∗ semVal (thr, SemLoc.dma cc0_scratch10.sem) 0
            ∗ semVal (thr, SemLoc.dma cc0_scratch17.sem) 0
            ∗ (∃ fd, SFl d L fI fW hin fO bV4 cc0_scratch18.sem (38 : Fin 50) fd)
            ∗ wPts d L fW q4
            ∗ semVal (thr, SemLoc.dma cc0_scratch11.sem) 0
            ∗ (∃ fd, SFl d L fI fW hin fO bV5 cc0_scratch19.sem (39 : Fin 50) fd)
            ∗ wPts d L fW q5
            ∗ semVal (thr, SemLoc.dma cc0_scratch12.sem) 0
            ∗ (∃ fd, GFl d L fI fW hin bV6 cc0_scratch13.sem q6 (40 : Fin 50) fd)
            ∗ semVal (thr, SemLoc.dma cc0_scratch20.sem) 0
            ∗ (∃ fd, GFl d L fI fW hin bV7 cc0_scratch14.sem q7 (41 : Fin 50) fd)
            ∗ semVal (thr, SemLoc.dma cc0_scratch21.sem) 0
            ∗ Todo (pc (rowPts d L fI)) 44 6
            ∗ Done (pc (rowPts d L fI)) 40
            ∗ Todo (pc (blkPts d L fO)) 40 10
            ∗ Done (pc (blkPts d L (Gath fI fW))) 38) : sProp 𝕄) := by
  simp only [k0_part26_eq_skeleton]; unfold k0_part26_skel
  iintro ⟨HR, #Hmw, ⟨%W0, %hW0, HO⟩, ⟨%fd1, HG1⟩, Hs1, ⟨%fd2, HS2⟩, HW2, Hg2, ⟨%fd3, HS3⟩, HW3, Hg3, ⟨%fd4, Hb4⟩, HW4, Hg4, Hs4, ⟨%fd5, HG5⟩, Hs5, ⟨%fd6, HG6⟩, Hs6, ⟨%fd7, HG7⟩, Hs7, IT, ID, OT, OD⟩
  ihave OT' := (Entails.of_eq (todo_take (blkPts d L fO) 38 11 (by decide))) $$ OT
  icases OT' with ⟨Ho, OT⟩
  iapply (Transfers.wp_dmaLocal countersEmb 𝒱₀ thr none (default : HIx 1) _ rfl
      (show 0 < (oBlkK L (38 : Fin 50)).view.amount (SemLoc.dma cc0_scratch18.sem) from View.dmaCredit_pos (oBlkK L (38 : Fin 50)).view (by decide)) (Finset.Subset.refl _)) $$ [Hb4 Ho Hs4]
  · isplitl [Hb4]; · iexact Hb4
    isplitl [Ho]; · iexact Ho
    iexact Hs4
  iintro HS4
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW1 := wstep hW0 (SemLoc.dma cc0_scratch16.sem)
  ihave Ho := (Entails.of_eq (out_val d L fI fW hin fO (36 : Fin 50) bV2 _)) $$ Ho
  ihave OD := (Entails.of_eq (done_put (blkPts d L (Gath fI fW)) 36 (by decide))) $$ [Ho OD]
  · isplitl [Ho]; · iexact Ho
    iexact OD
  ihave IT' := (Entails.of_eq (todo_take (rowPts d L fI) 43 6 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV2).view.dmaCredit (SparseCore.sum_rowCredit_eq_dmaCredit _ _ (fun _ => rfl)) (by decide) (hin_row d L fI hin (43 : Fin 50))) $$ [HW2 Hb2 Hr Hg2]
  · isplitl [HW2]; · iexact HW2
    isplitl [Hb2]; · iexact Hb2
    isplitl [Hr]; · iexact Hr
    iexact Hg2
  iintro HG2
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW2 := wstep hW1 (SemLoc.dma cc0_scratch12.sem)
  ihave ID := (Entails.of_eq (done_put (rowPts d L fI) 39 (by decide))) $$ [Hr ID]
  · isplitl [Hr]; · iexact Hr
    iexact ID
  ihave OT' := (Entails.of_eq (todo_take (blkPts d L fO) 39 10 (by decide))) $$ OT
  icases OT' with ⟨Ho, OT⟩
  iapply (Transfers.wp_dmaLocal countersEmb 𝒱₀ thr none (default : HIx 1) _ rfl
      (show 0 < (oBlkK L (39 : Fin 50)).view.amount (SemLoc.dma cc0_scratch19.sem) from View.dmaCredit_pos (oBlkK L (39 : Fin 50)).view (by decide)) (Finset.Subset.refl _)) $$ [Hb5 Ho Hs5]
  · isplitl [Hb5]; · iexact Hb5
    isplitl [Ho]; · iexact Ho
    iexact Hs5
  iintro HS5
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW3 := wstep hW2 (SemLoc.dma cc0_scratch17.sem)
  ihave Ho := (Entails.of_eq (out_val d L fI fW hin fO (37 : Fin 50) bV3 _)) $$ Ho
  ihave OD := (Entails.of_eq (done_put (blkPts d L (Gath fI fW)) 37 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [Hb3]
  · iexists _; iexact Hb3
  isplitl [HW3]
  · iexact HW3
  isplitl [Hg3]
  · iexact Hg3
  isplitl [Hs3]
  · iexact Hs3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_27 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (42 : Fin 50) fd)
        ∗ semVal (thr, SemLoc.dma cc0_scratch15.sem) 0
        ∗ (∃ fd, GFl d L fI fW hin bV2 cc0_scratch9.sem q2 (43 : Fin 50) fd)
        ∗ semVal (thr, SemLoc.dma cc0_scratch16.sem) 0
        ∗ (∃ f, bPts d L bV3 f)
        ∗ wPts d L fW q3
        ∗ semVal (thr, SemLoc.dma cc0_scratch10.sem) 0
        ∗ semVal (thr, SemLoc.dma cc0_scratch17.sem) 0
        ∗ (∃ fd, SFl d L fI fW hin fO bV4 cc0_scratch18.sem (38 : Fin 50) fd)
        ∗ wPts d L fW q4
        ∗ semVal (thr, SemLoc.dma cc0_scratch11.sem) 0
        ∗ (∃ fd, SFl d L fI fW hin fO bV5 cc0_scratch19.sem (39 : Fin 50) fd)
        ∗ wPts d L fW q5
        ∗ semVal (thr, SemLoc.dma cc0_scratch12.sem) 0
        ∗ (∃ fd, GFl d L fI fW hin bV6 cc0_scratch13.sem q6 (40 : Fin 50) fd)
        ∗ semVal (thr, SemLoc.dma cc0_scratch20.sem) 0
        ∗ (∃ fd, GFl d L fI fW hin bV7 cc0_scratch14.sem q7 (41 : Fin 50) fd)
        ∗ semVal (thr, SemLoc.dma cc0_scratch21.sem) 0
        ∗ Todo (pc (rowPts d L fI)) 44 6
        ∗ Done (pc (rowPts d L fI)) 40
        ∗ Todo (pc (blkPts d L fO)) 40 10
        ∗ Done (pc (blkPts d L (Gath fI fW))) 38)
      ⊢ (wp frame (wpE (defs₀ (F := F)) 𝒱₀ thr none) Set.univ (k0_part27 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (42 : Fin 50) fd)
            ∗ semVal (thr, SemLoc.dma cc0_scratch15.sem) 0
            ∗ (∃ fd, GFl d L fI fW hin bV2 cc0_scratch9.sem q2 (43 : Fin 50) fd)
            ∗ semVal (thr, SemLoc.dma cc0_scratch16.sem) 0
            ∗ (∃ fd, GFl d L fI fW hin bV3 cc0_scratch10.sem q3 (44 : Fin 50) fd)
            ∗ semVal (thr, SemLoc.dma cc0_scratch17.sem) 0
            ∗ (∃ fd, GFl d L fI fW hin bV4 cc0_scratch11.sem q4 (45 : Fin 50) fd)
            ∗ semVal (thr, SemLoc.dma cc0_scratch18.sem) 0
            ∗ (∃ fd, SFl d L fI fW hin fO bV5 cc0_scratch19.sem (39 : Fin 50) fd)
            ∗ wPts d L fW q5
            ∗ semVal (thr, SemLoc.dma cc0_scratch12.sem) 0
            ∗ (∃ fd, SFl d L fI fW hin fO bV6 cc0_scratch20.sem (40 : Fin 50) fd)
            ∗ wPts d L fW q6
            ∗ semVal (thr, SemLoc.dma cc0_scratch13.sem) 0
            ∗ (∃ fd, SFl d L fI fW hin fO bV7 cc0_scratch21.sem (41 : Fin 50) fd)
            ∗ wPts d L fW q7
            ∗ semVal (thr, SemLoc.dma cc0_scratch14.sem) 0
            ∗ Todo (pc (rowPts d L fI)) 46 4
            ∗ Done (pc (rowPts d L fI)) 42
            ∗ Todo (pc (blkPts d L fO)) 42 8
            ∗ Done (pc (blkPts d L (Gath fI fW))) 39) : sProp 𝕄) := by
  simp only [k0_part27_eq_skeleton]; unfold k0_part27_skel
  iintro ⟨HR, #Hmw, ⟨%W0, %hW0, HO⟩, ⟨%fd1, HG1⟩, Hs1, ⟨%fd2, HG2⟩, Hs2, ⟨%fd3, Hb3⟩, HW3, Hg3, Hs3, ⟨%fd4, HS4⟩, HW4, Hg4, ⟨%fd5, HS5⟩, HW5, Hg5, ⟨%fd6, HG6⟩, Hs6, ⟨%fd7, HG7⟩, Hs7, IT, ID, OT, OD⟩
  ihave IT' := (Entails.of_eq (todo_take (rowPts d L fI) 44 5 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV3).view.dmaCredit (SparseCore.sum_rowCredit_eq_dmaCredit _ _ (fun _ => rfl)) (by decide) (hin_row d L fI hin (44 : Fin 50))) $$ [HW3 Hb3 Hr Hg3]
  · isplitl [HW3]; · iexact HW3
    isplitl [Hb3]; · iexact Hb3
    isplitl [Hr]; · iexact Hr
    iexact Hg3
  iintro HG3
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW1 := wstep hW0 (SemLoc.dma cc0_scratch13.sem)
  ihave ID := (Entails.of_eq (done_put (rowPts d L fI) 40 (by decide))) $$ [Hr ID]
  · isplitl [Hr]; · iexact Hr
    iexact ID
  ihave OT' := (Entails.of_eq (todo_take (blkPts d L fO) 40 9 (by decide))) $$ OT
  icases OT' with ⟨Ho, OT⟩
  iapply (Transfers.wp_dmaLocal countersEmb 𝒱₀ thr none (default : HIx 1) _ rfl
      (show 0 < (oBlkK L (40 : Fin 50)).view.amount (SemLoc.dma cc0_scratch20.sem) from View.dmaCredit_pos (oBlkK L (40 : Fin 50)).view (by decide)) (Finset.Subset.refl _)) $$ [Hb6 Ho Hs6]
  · isplitl [Hb6]; · iexact Hb6
    isplitl [Ho]; · iexact Ho
    iexact Hs6
  iintro HS6
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW2 := wstep hW1 (SemLoc.dma cc0_scratch18.sem)
  ihave Ho := (Entails.of_eq (out_val d L fI fW hin fO (38 : Fin 50) bV4 _)) $$ Ho
  ihave OD := (Entails.of_eq (done_put (blkPts d L (Gath fI fW)) 38 (by decide))) $$ [Ho OD]
  · isplitl [Ho]; · iexact Ho
    iexact OD
  ihave IT' := (Entails.of_eq (todo_take (rowPts d L fI) 45 4 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV4).view.dmaCredit (SparseCore.sum_rowCredit_eq_dmaCredit _ _ (fun _ => rfl)) (by decide) (hin_row d L fI hin (45 : Fin 50))) $$ [HW4 Hb4 Hr Hg4]
  · isplitl [HW4]; · iexact HW4
    isplitl [Hb4]; · iexact Hb4
    isplitl [Hr]; · iexact Hr
    iexact Hg4
  iintro HG4
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW3 := wstep hW2 (SemLoc.dma cc0_scratch14.sem)
  ihave ID := (Entails.of_eq (done_put (rowPts d L fI) 41 (by decide))) $$ [Hr ID]
  · isplitl [Hr]; · iexact Hr
    iexact ID
  ihave OT' := (Entails.of_eq (todo_take (blkPts d L fO) 41 8 (by decide))) $$ OT
  icases OT' with ⟨Ho, OT⟩
  iapply (Transfers.wp_dmaLocal countersEmb 𝒱₀ thr none (default : HIx 1) _ rfl
      (show 0 < (oBlkK L (41 : Fin 50)).view.amount (SemLoc.dma cc0_scratch21.sem) from View.dmaCredit_pos (oBlkK L (41 : Fin 50)).view (by decide)) (Finset.Subset.refl _)) $$ [Hb7 Ho Hs7]
  · isplitl [Hb7]; · iexact Hb7
    isplitl [Ho]; · iexact Ho
    iexact Hs7
  iintro HS7
  iapply (le_wp_ret _ _)
  isplitl [HR]
  · iexact HR
  isplitl []
  · iexact Hmw
  isplitl [HO]
  · iexists _; isplitr
    · ipureintro; exact hW3
    · iexact HO
  isplitl [HG1]
  · iexists _; iexact HG1
  isplitl [Hs1]
  · iexact Hs1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HS5]
  · iexists _; iexact HS5
  isplitl [HW5]
  · iexact HW5
  isplitl [Hg5]
  · iexact Hg5
  isplitl [HS6]
  · iexists _; iexact HS6
  isplitl [HW6]
  · iexact HW6
  isplitl [Hg6]
  · iexact Hg6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_28 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v671 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (42 : Fin 50) fd)
        ∗ semVal (thr, SemLoc.dma cc0_scratch15.sem) 0
        ∗ (∃ fd, GFl d L fI fW hin bV2 cc0_scratch9.sem q2 (43 : Fin 50) fd)
        ∗ semVal (thr, SemLoc.dma cc0_scratch16.sem) 0
        ∗ (∃ fd, GFl d L fI fW hin bV3 cc0_scratch10.sem q3 (44 : Fin 50) fd)
        ∗ semVal (thr, SemLoc.dma cc0_scratch17.sem) 0
        ∗ (∃ fd, GFl d L fI fW hin bV4 cc0_scratch11.sem q4 (45 : Fin 50) fd)
        ∗ semVal (thr, SemLoc.dma cc0_scratch18.sem) 0
        ∗ (∃ fd, SFl d L fI fW hin fO bV5 cc0_scratch19.sem (39 : Fin 50) fd)
        ∗ wPts d L fW q5
        ∗ semVal (thr, SemLoc.dma cc0_scratch12.sem) 0
        ∗ (∃ fd, SFl d L fI fW hin fO bV6 cc0_scratch20.sem (40 : Fin 50) fd)
        ∗ wPts d L fW q6
        ∗ semVal (thr, SemLoc.dma cc0_scratch13.sem) 0
        ∗ (∃ fd, SFl d L fI fW hin fO bV7 cc0_scratch21.sem (41 : Fin 50) fd)
        ∗ wPts d L fW q7
        ∗ semVal (thr, SemLoc.dma cc0_scratch14.sem) 0
        ∗ Todo (pc (rowPts d L fI)) 46 4
        ∗ Done (pc (rowPts d L fI)) 42
        ∗ Todo (pc (blkPts d L fO)) 42 8
        ∗ Done (pc (blkPts d L (Gath fI fW))) 39)
      ⊢ (wp frame (wpE (defs₀ (F := F)) 𝒱₀ thr none) Set.univ (k0_part28 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v671)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (42 : Fin 50) fd)
            ∗ wPts d L fW q1
            ∗ semVal (thr, SemLoc.dma cc0_scratch8.sem) 0
            ∗ (∃ fd, GFl d L fI fW hin bV2 cc0_scratch9.sem q2 (43 : Fin 50) fd)
            ∗ semVal (thr, SemLoc.dma cc0_scratch16.sem) 0
            ∗ (∃ fd, GFl d L fI fW hin bV3 cc0_scratch10.sem q3 (44 : Fin 50) fd)
            ∗ semVal (thr, SemLoc.dma cc0_scratch17.sem) 0
            ∗ (∃ fd, GFl d L fI fW hin bV4 cc0_scratch11.sem q4 (45 : Fin 50) fd)
            ∗ semVal (thr, SemLoc.dma cc0_scratch18.sem) 0
            ∗ (∃ fd, GFl d L fI fW hin bV5 cc0_scratch12.sem q5 (46 : Fin 50) fd)
            ∗ semVal (thr, SemLoc.dma cc0_scratch19.sem) 0
            ∗ (∃ fd, GFl d L fI fW hin bV6 cc0_scratch13.sem q6 (47 : Fin 50) fd)
            ∗ semVal (thr, SemLoc.dma cc0_scratch20.sem) 0
            ∗ (∃ fd, SFl d L fI fW hin fO bV7 cc0_scratch21.sem (41 : Fin 50) fd)
            ∗ wPts d L fW q7
            ∗ semVal (thr, SemLoc.dma cc0_scratch14.sem) 0
            ∗ Todo (pc (rowPts d L fI)) 48 2
            ∗ Done (pc (rowPts d L fI)) 43
            ∗ Todo (pc (blkPts d L fO)) 43 7
            ∗ Done (pc (blkPts d L (Gath fI fW))) 41) : sProp 𝕄) := by
  simp only [k0_part28_eq_skeleton]; unfold k0_part28_skel
  iintro ⟨HR, #Hmw, ⟨%W0, %hW0, HO⟩, ⟨%fd1, HG1⟩, Hs1, ⟨%fd2, HG2⟩, Hs2, ⟨%fd3, HG3⟩, Hs3, ⟨%fd4, HG4⟩, Hs4, ⟨%fd5, HS5⟩, HW5, Hg5, ⟨%fd6, HS6⟩, HW6, Hg6, ⟨%fd7, HS7⟩, HW7, Hg7, IT, ID, OT, OD⟩
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW1 := wstep hW0 (SemLoc.dma cc0_scratch19.sem)
  ihave Ho := (Entails.of_eq (out_val d L fI fW hin fO (39 : Fin 50) bV5 _)) $$ Ho
  ihave OD := (Entails.of_eq (done_put (blkPts d L (Gath fI fW)) 39 (by decide))) $$ [Ho OD]
  · isplitl [Ho]; · iexact Ho
    iexact OD
  ihave IT' := (Entails.of_eq (todo_take (rowPts d L fI) 46 3 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV5).view.dmaCredit (SparseCore.sum_rowCredit_eq_dmaCredit _ _ (fun _ => rfl)) (by decide) (hin_row d L fI hin (46 : Fin 50))) $$ [HW5 Hb5 Hr Hg5]
  · isplitl [HW5]; · iexact HW5
    isplitl [Hb5]; · iexact Hb5
    isplitl [Hr]; · iexact Hr
    iexact Hg5
  iintro HG5
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW2 := wstep hW1 (SemLoc.dma cc0_scratch8.sem)
  ihave ID := (Entails.of_eq (done_put (rowPts d L fI) 42 (by decide))) $$ [Hr ID]
  · isplitl [Hr]; · iexact Hr
    iexact ID
  ihave OT' := (Entails.of_eq (todo_take (blkPts d L fO) 42 7 (by decide))) $$ OT
  icases OT' with ⟨Ho, OT⟩
  iapply (Transfers.wp_dmaLocal countersEmb 𝒱₀ thr none (default : HIx 1) _ rfl
      (show 0 < (oBlkK L (42 : Fin 50)).view.amount (SemLoc.dma cc0_scratch15.sem) from View.dmaCredit_pos (oBlkK L (42 : Fin 50)).view (by decide)) (Finset.Subset.refl _)) $$ [Hb1 Ho Hs1]
  · isplitl [Hb1]; · iexact Hb1
    isplitl [Ho]; · iexact Ho
    iexact Hs1
  iintro HS1
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW3 := wstep hW2 (SemLoc.dma cc0_scratch20.sem)
  ihave Ho := (Entails.of_eq (out_val d L fI fW hin fO (40 : Fin 50) bV6 _)) $$ Ho
  ihave OD := (Entails.of_eq (done_put (blkPts d L (Gath fI fW)) 40 (by decide))) $$ [Ho OD]
  · isplitl [Ho]; · iexact Ho
    iexact OD
  ihave IT' := (Entails.of_eq (todo_take (rowPts d L fI) 47 2 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV6).view.dmaCredit (SparseCore.sum_rowCredit_eq_dmaCredit _ _ (fun _ => rfl)) (by decide) (hin_row d L fI hin (47 : Fin 50))) $$ [HW6 Hb6 Hr Hg6]
  · isplitl [HW6]; · iexact HW6
    isplitl [Hb6]; · iexact Hb6
    isplitl [Hr]; · iexact Hr
    iexact Hg6
  iintro HG6
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HG2]
  · iexists _; iexact HG2
  isplitl [Hs2]
  · iexact Hs2
  isplitl [HG3]
  · iexists _; iexact HG3
  isplitl [Hs3]
  · iexact Hs3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_29 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (42 : Fin 50) fd)
        ∗ wPts d L fW q1
        ∗ semVal (thr, SemLoc.dma cc0_scratch8.sem) 0
        ∗ (∃ fd, GFl d L fI fW hin bV2 cc0_scratch9.sem q2 (43 : Fin 50) fd)
        ∗ semVal (thr, SemLoc.dma cc0_scratch16.sem) 0
        ∗ (∃ fd, GFl d L fI fW hin bV3 cc0_scratch10.sem q3 (44 : Fin 50) fd)
        ∗ semVal (thr, SemLoc.dma cc0_scratch17.sem) 0
        ∗ (∃ fd, GFl d L fI fW hin bV4 cc0_scratch11.sem q4 (45 : Fin 50) fd)
        ∗ semVal (thr, SemLoc.dma cc0_scratch18.sem) 0
        ∗ (∃ fd, GFl d L fI fW hin bV5 cc0_scratch12.sem q5 (46 : Fin 50) fd)
        ∗ semVal (thr, SemLoc.dma cc0_scratch19.sem) 0
        ∗ (∃ fd, GFl d L fI fW hin bV6 cc0_scratch13.sem q6 (47 : Fin 50) fd)
        ∗ semVal (thr, SemLoc.dma cc0_scratch20.sem) 0
        ∗ (∃ fd, SFl d L fI fW hin fO bV7 cc0_scratch21.sem (41 : Fin 50) fd)
        ∗ wPts d L fW q7
        ∗ semVal (thr, SemLoc.dma cc0_scratch14.sem) 0
        ∗ Todo (pc (rowPts d L fI)) 48 2
        ∗ Done (pc (rowPts d L fI)) 43
        ∗ Todo (pc (blkPts d L fO)) 43 7
        ∗ Done (pc (blkPts d L (Gath fI fW))) 41)
      ⊢ (wp frame (wpE (defs₀ (F := F)) 𝒱₀ thr none) Set.univ (k0_part29 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (42 : Fin 50) fd)
            ∗ wPts d L fW q1
            ∗ semVal (thr, SemLoc.dma cc0_scratch8.sem) 0
            ∗ (∃ fd, SFl d L fI fW hin fO bV2 cc0_scratch16.sem (43 : Fin 50) fd)
            ∗ wPts d L fW q2
            ∗ semVal (thr, SemLoc.dma cc0_scratch9.sem) 0
            ∗ (∃ fd, SFl d L fI fW hin fO bV3 cc0_scratch17.sem (44 : Fin 50) fd)
            ∗ wPts d L fW q3
            ∗ semVal (thr, SemLoc.dma cc0_scratch10.sem) 0
            ∗ (∃ fd, GFl d L fI fW hin bV4 cc0_scratch11.sem q4 (45 : Fin 50) fd)
            ∗ semVal (thr, SemLoc.dma cc0_scratch18.sem) 0
            ∗ (∃ fd, GFl d L fI fW hin bV5 cc0_scratch12.sem q5 (46 : Fin 50) fd)
            ∗ semVal (thr, SemLoc.dma cc0_scratch19.sem) 0
            ∗ (∃ fd, GFl d L fI fW hin bV6 cc0_scratch13.sem q6 (47 : Fin 50) fd)
            ∗ semVal (thr, SemLoc.dma cc0_scratch20.sem) 0
            ∗ (∃ fd, GFl d L fI fW hin bV7 cc0_scratch14.sem q7 (48 : Fin 50) fd)
            ∗ semVal (thr, SemLoc.dma cc0_scratch21.sem) 0
            ∗ Todo (pc (rowPts d L fI)) 49 1
            ∗ Done (pc (rowPts d L fI)) 45
            ∗ Todo (pc (blkPts d L fO)) 45 5
            ∗ Done (pc (blkPts d L (Gath fI fW))) 42) : sProp 𝕄) := by
  simp only [k0_part29_eq_skeleton]; unfold k0_part29_skel
  iintro ⟨HR, #Hmw, ⟨%W0, %hW0, HO⟩, ⟨%fd1, HS1⟩, HW1, Hg1, ⟨%fd2, HG2⟩, Hs2, ⟨%fd3, HG3⟩, Hs3, ⟨%fd4, HG4⟩, Hs4, ⟨%fd5, HG5⟩, Hs5, ⟨%fd6, HG6⟩, Hs6, ⟨%fd7, HS7⟩, HW7, Hg7, IT, ID, OT, OD⟩
  iapply (Transfers.wp_waitLocalO countersEmb 𝒱₀ thr none (default : HIx 1) rfl) $$ [HG2 HO]
  · isplitl [HG2]; · iexact HG2
    isplitl [HO]; · iexact HO
    iapply (Transfers.MayWaits.elim (SemLoc.dma cc0_scratch9.sem)) $$ Hmw
  iintro ⟨⟨Hb2, HW2, Hr⟩, Hg2, HO⟩
  have hW1 := wstep hW0 (SemLoc.dma cc0_scratch9.sem)
  ihave ID := (Entails.of_eq (done_put (rowPts d L fI) 43 (by decide))) $$ [Hr ID]
  · isplitl [Hr]; · iexact Hr
    iexact ID
  ihave OT' := (Entails.of_eq (todo_take (blkPts d L fO) 43 6 (by decide))) $$ OT
  icases OT' with ⟨Ho, OT⟩
  iapply (Transfers.wp_dmaLocal countersEmb 𝒱₀ thr none (default : HIx 1) _ rfl
      (show 0 < (oBlkK L (43 : Fin 50)).view.amount (SemLoc.dma cc0_scratch16.sem) from View.dmaCredit_pos (oBlkK L (43 : Fin 50)).view (by decide)) (Finset.Subset.refl _)) $$ [Hb2 Ho Hs2]
  · isplitl [Hb2]; · iexact Hb2
    isplitl [Ho]; · iexact Ho
    iexact Hs2
  iintro HS2
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW2 := wstep hW1 (SemLoc.dma cc0_scratch21.sem)
  ihave Ho := (Entails.of_eq (out_val d L fI fW hin fO (41 : Fin 50) bV7 _)) $$ Ho
  ihave OD := (Entails.of_eq (done_put (blkPts d L (Gath fI fW)) 41 (by decide))) $$ [Ho OD]
  · isplitl [Ho]; · iexact Ho
    iexact OD
  ihave IT' := (Entails.of_eq (todo_take (rowPts d L fI) 48 1 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV7).view.dmaCredit (SparseCore.sum_rowCredit_eq_dmaCredit _ _ (fun _ => rfl)) (by decide) (hin_row d L fI hin (48 : Fin 50))) $$ [HW7 Hb7 Hr Hg7]
  · isplitl [HW7]; · iexact HW7
    isplitl [Hb7]; · iexact Hb7
    isplitl [Hr]; · iexact Hr
    iexact Hg7
  iintro HG7
  iapply (Transfers.wp_waitLocalO countersEmb 𝒱₀ thr none (default : HIx 1) rfl) $$ [HG3 HO]
  · isplitl [HG3]; · iexact HG3
    isplitl [HO]; · iexact HO
    iapply (Transfers.MayWaits.elim (SemLoc.dma cc0_scratch10.sem)) $$ Hmw
  iintro ⟨⟨Hb3, HW3, Hr⟩, Hg3, HO⟩
  have hW3 := wstep hW2 (SemLoc.dma cc0_scratch10.sem)
  ihave ID := (Entails.of_eq (done_put (rowPts d L fI) 44 (by decide))) $$ [Hr ID]
  · isplitl [Hr]; · iexact Hr
    iexact ID
  ihave OT' := (Entails.of_eq (todo_take (blkPts d L fO) 44 5 (by decide))) $$ OT
  icases OT' with ⟨Ho, OT⟩
  iapply (Transfers.wp_dmaLocal countersEmb 𝒱₀ thr none (default : HIx 1) _ rfl
      (show 0 < (oBlkK L (44 : Fin 50)).view.amount (SemLoc.dma cc0_scratch17.sem) from View.dmaCredit_pos (oBlkK L (44 : Fin 50)).view (by decide)) (Finset.Subset.refl _)) $$ [Hb3 Ho Hs3]
  · isplitl [Hb3]; · iexact Hb3
    isplitl [Ho]; · iexact Ho
    iexact Hs3
  iintro HS3
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [HG4]
  · iexists _; iexact HG4
  isplitl [Hs4]
  · iexact Hs4
  isplitl [HG5]
  · iexists _; iexact HG5
  isplitl [Hs5]
  · iexact Hs5
  isplitl [HG6]
  · iexists _; iexact HG6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_30 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (42 : Fin 50) fd)
        ∗ wPts d L fW q1
        ∗ semVal (thr, SemLoc.dma cc0_scratch8.sem) 0
        ∗ (∃ fd, SFl d L fI fW hin fO bV2 cc0_scratch16.sem (43 : Fin 50) fd)
        ∗ wPts d L fW q2
        ∗ semVal (thr, SemLoc.dma cc0_scratch9.sem) 0
        ∗ (∃ fd, SFl d L fI fW hin fO bV3 cc0_scratch17.sem (44 : Fin 50) fd)
        ∗ wPts d L fW q3
        ∗ semVal (thr, SemLoc.dma cc0_scratch10.sem) 0
        ∗ (∃ fd, GFl d L fI fW hin bV4 cc0_scratch11.sem q4 (45 : Fin 50) fd)
        ∗ semVal (thr, SemLoc.dma cc0_scratch18.sem) 0
        ∗ (∃ fd, GFl d L fI fW hin bV5 cc0_scratch12.sem q5 (46 : Fin 50) fd)
        ∗ semVal (thr, SemLoc.dma cc0_scratch19.sem) 0
        ∗ (∃ fd, GFl d L fI fW hin bV6 cc0_scratch13.sem q6 (47 : Fin 50) fd)
        ∗ semVal (thr, SemLoc.dma cc0_scratch20.sem) 0
        ∗ (∃ fd, GFl d L fI fW hin bV7 cc0_scratch14.sem q7 (48 : Fin 50) fd)
        ∗ semVal (thr, SemLoc.dma cc0_scratch21.sem) 0
        ∗ Todo (pc (rowPts d L fI)) 49 1
        ∗ Done (pc (rowPts d L fI)) 45
        ∗ Todo (pc (blkPts d L fO)) 45 5
        ∗ Done (pc (blkPts d L (Gath fI fW))) 42)
      ⊢ (wp frame (wpE (defs₀ (F := F)) 𝒱₀ thr none) Set.univ (k0_part30 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1)
          fun _ => iprop(R
            ∗ Transfers.MayWaits thr (default : HIx 1) O
            ∗ (∃ W', ⌜∀ p ∈ W', p ∈ W ∨ p.2 = none⌝ ∗ owes thr O W')
            ∗ (∃ fd, GFl d L fI fW hin bV1 cc0_scratch8.sem q1 (49 : Fin 50) fd)
            ∗ semVal (thr, SemLoc.dma cc0_scratch15.sem) 0
            ∗ (∃ fd, SFl d L fI fW hin fO bV2 cc0_scratch16.sem (43 : Fin 50) fd)
            ∗ wPts d L fW q2
            ∗ semVal (thr, SemLoc.dma cc0_scratch9.sem) 0
            ∗ (∃ fd, SFl d L fI fW hin fO bV3 cc0_scratch17.sem (44 : Fin 50) fd)
            ∗ wPts d L fW q3
            ∗ semVal (thr, SemLoc.dma cc0_scratch10.sem) 0
            ∗ (∃ fd, SFl d L fI fW hin fO bV4 cc0_scratch18.sem (45 : Fin 50) fd)
            ∗ wPts d L fW q4
            ∗ semVal (thr, SemLoc.dma cc0_scratch11.sem) 0
            ∗ (∃ fd, SFl d L fI fW hin fO bV5 cc0_scratch19.sem (46 : Fin 50) fd)
            ∗ wPts d L fW q5
            ∗ semVal (thr, SemLoc.dma cc0_scratch12.sem) 0
            ∗ (∃ fd, bPts d L bV6 (View.write (Elt F) (bV6).view fd (gP d L fI fW hin (47 : Fin 50)) Finset.univ))
            ∗ wPts d L fW q6
            ∗ semVal (thr, SemLoc.dma cc0_scratch13.sem) 0
            ∗ semVal (thr, SemLoc.dma cc0_scratch20.sem) 0
            ∗ (∃ fd, GFl d L fI fW hin bV7 cc0_scratch14.sem q7 (48 : Fin 50) fd)
            ∗ semVal (thr, SemLoc.dma cc0_scratch21.sem) 0
            ∗ Todo (pc (rowPts d L fI)) 50 0
            ∗ Done (pc (rowPts d L fI)) 48
            ∗ Todo (pc (blkPts d L fO)) 47 3
            ∗ Done (pc (blkPts d L (Gath fI fW))) 43) : sProp 𝕄) := by
  simp only [k0_part30_eq_skeleton]; unfold k0_part30_skel
  iintro ⟨HR, #Hmw, ⟨%W0, %hW0, HO⟩, ⟨%fd1, HS1⟩, HW1, Hg1, ⟨%fd2, HS2⟩, HW2, Hg2, ⟨%fd3, HS3⟩, HW3, Hg3, ⟨%fd4, HG4⟩, Hs4, ⟨%fd5, HG5⟩, Hs5, ⟨%fd6, HG6⟩, Hs6, ⟨%fd7, HG7⟩, Hs7, IT, ID, OT, OD⟩
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW1 := wstep hW0 (SemLoc.dma cc0_scratch15.sem)
  ihave Ho := (Entails.of_eq (out_val d L fI fW hin fO (42 : Fin 50) bV1 _)) $$ Ho
  ihave OD := (Entails.of_eq (done_put (blkPts d L (Gath fI fW)) 42 (by decide))) $$ [Ho OD]
  · isplitl [Ho]; · iexact Ho
    iexact OD
  ihave IT' := (Entails.of_eq (todo_take (rowPts d L fI) 49 0 (by decide))) $$ IT
  icases IT' with ⟨Hr, IT⟩
  iapply (SparseCore.wp_indirectGatherLocal countersEmb 𝒱₀ thr none (hg := gathers_S100000x128_S128x128) (hsp := Or.inl rfl) (hr := by decide) (default : HIx 1)
      (bV1).view.dmaCredit (SparseCore.sum_rowCredit_eq_dmaCredit _ _ (fun _ => rfl)) (by decide) (hin_row d L fI hin (49 : Fin 50))) $$ [HW1 Hb1 Hr Hg1]
  · isplitl [HW1]; · iexact HW1
    isplitl [Hb1]; · iexact Hb1
    isplitl [Hr]; · iexact Hr
    iexact Hg1
  iintro HG1
  iapply (Transfers.wp_waitLocalO countersEmb 𝒱₀ thr none (default : HIx 1) rfl) $$ [HG4 HO]
  · isplitl [HG4]; · iexact HG4
    isplitl [HO]; · iexact HO
    iapply (Transfers.MayWaits.elim (SemLoc.dma cc0_scratch11.sem)) $$ Hmw
  iintro ⟨⟨Hb4, HW4, Hr⟩, Hg4, HO⟩
  have hW2 := wstep hW1 (SemLoc.dma cc0_scratch11.sem)
  ihave ID := (Entails.of_eq (done_put (rowPts d L fI) 45 (by decide))) $$ [Hr ID]
  · isplitl [Hr]; · iexact Hr
    iexact ID
  ihave OT' := (Entails.of_eq (todo_take (blkPts d L fO) 45 4 (by decide))) $$ OT
  icases OT' with ⟨Ho, OT⟩
  iapply (Transfers.wp_dmaLocal countersEmb 𝒱₀ thr none (default : HIx 1) _ rfl
      (show 0 < (oBlkK L (45 : Fin 50)).view.amount (SemLoc.dma cc0_scratch18.sem) from View.dmaCredit_pos (oBlkK L (45 : Fin 50)).view (by decide)) (Finset.Subset.refl _)) $$ [Hb4 Ho Hs4]
  · isplitl [Hb4]; · iexact Hb4
    isplitl [Ho]; · iexact Ho
    iexact Hs4
  iintro HS4
  iapply (Transfers.wp_waitLocalO countersEmb 𝒱₀ thr none (default : HIx 1) rfl) $$ [HG5 HO]
  · isplitl [HG5]; · iexact HG5
    isplitl [HO]; · iexact HO
    iapply (Transfers.MayWaits.elim (SemLoc.dma cc0_scratch12.sem)) $$ Hmw
  iintro ⟨⟨Hb5, HW5, Hr⟩, Hg5, HO⟩
  have hW3 := wstep hW2 (SemLoc.dma cc0_scratch12.sem)
  ihave ID := (Entails.of_eq (done_put (rowPts d L fI) 46 (by decide))) $$ [Hr ID]
  · isplitl [Hr]; · iexact Hr
    iexact ID
  ihave OT' := (Entails.of_eq (todo_take (blkPts d L fO) 46 3 (by decide))) $$ OT
  icases OT' with ⟨Ho, OT⟩
  iapply (Transfers.wp_dmaLocal countersEmb 𝒱₀ thr none (default : HIx 1) _ rfl
      (show 0 < (oBlkK L (46 : Fin 50)).view.amount (SemLoc.dma cc0_scratch19.sem) from View.dmaCredit_pos (oBlkK L (46 : Fin 50)).view (by decide)) (Finset.Subset.refl _)) $$ [Hb5 Ho Hs5]
  · isplitl [Hb5]; · iexact Hb5
    isplitl [Ho]; · iexact Ho
    iexact Hs5
  iintro HS5
  iapply (Transfers.wp_waitLocalO countersEmb 𝒱₀ thr none (default : HIx 1) rfl) $$ [HG6 HO]
  · isplitl [HG6]; · iexact HG6
    isplitl [HO]; · iexact HO
    iapply (Transfers.MayWaits.elim (SemLoc.dma cc0_scratch13.sem)) $$ Hmw
  iintro ⟨⟨Hb6, HW6, Hr⟩, Hg6, HO⟩
  have hW4 := wstep hW3 (SemLoc.dma cc0_scratch13.sem)
  ihave ID := (Entails.of_eq (done_put (rowPts d L fI) 47 (by decide))) $$ [Hr ID]
  · isplitl [Hr]; · iexact Hr
    iexact ID
  iapply (le_wp_ret _ _)
  isplitl [HR]
  · iexact HR
  isplitl []
  · iexact Hmw
  isplitl [HO]
  · iexists _; isplitr
    · ipureintro; exact hW4
    · iexact HO
  isplitl [HG1]
  · iexists _; iexact HG1
  isplitl [Hs1]
  · iexact Hs1
  isplitl [HS2]
  · iexists _; iexact HS2
  isplitl [HW2]
  · iexact HW2
  isplitl [Hg2]
  · iexact Hg2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [Hb6]
  · iexists _; iexact Hb6
  isplitl [HW6]
  · iexact HW6
  isplitl [Hg6]
  · iexact Hg6
  isplitl [Hs6]
  · iexact Hs6
  isplitl [HG7]
  · iexists _; iexact HG7
  isplitl [Hs7]
  · iexact Hs7
  isplitl [IT]
  · iexact IT
  isplitl [ID]
  · iexact ID
  isplitl [OT]
  · iexact OT
  iexact OD

set_option maxHeartbeats 4000000 in
theorem part_31 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v746 : BitVec 32) (c47_i32_792 : BitVec 32) :
    iprop(R
        ∗ Transfers.MayWaits thr (default : HIx 1) O
        ∗ (∃ W', ⌜∀ p ∈ W', p ∈ W ∨ p.2 = none⌝ ∗ owes thr O W')
        ∗ (∃ fd, GFl d L fI fW hin bV1 cc0_scratch8.sem q1 (49 : Fin 50) fd)
        ∗ semVal (thr, SemLoc.dma cc0_scratch15.sem) 0
        ∗ (∃ fd, SFl d L fI fW hin fO bV2 cc0_scratch16.sem (43 : Fin 50) fd)
        ∗ wPts d L fW q2
        ∗ semVal (thr, SemLoc.dma cc0_scratch9.sem) 0
        ∗ (∃ fd, SFl d L fI fW hin fO bV3 cc0_scratch17.sem (44 : Fin 50) fd)
        ∗ wPts d L fW q3
        ∗ semVal (thr, SemLoc.dma cc0_scratch10.sem) 0
        ∗ (∃ fd, SFl d L fI fW hin fO bV4 cc0_scratch18.sem (45 : Fin 50) fd)
        ∗ wPts d L fW q4
        ∗ semVal (thr, SemLoc.dma cc0_scratch11.sem) 0
        ∗ (∃ fd, SFl d L fI fW hin fO bV5 cc0_scratch19.sem (46 : Fin 50) fd)
        ∗ wPts d L fW q5
        ∗ semVal (thr, SemLoc.dma cc0_scratch12.sem) 0
        ∗ (∃ fd, bPts d L bV6 (View.write (Elt F) (bV6).view fd (gP d L fI fW hin (47 : Fin 50)) Finset.univ))
        ∗ wPts d L fW q6
        ∗ semVal (thr, SemLoc.dma cc0_scratch13.sem) 0
        ∗ semVal (thr, SemLoc.dma cc0_scratch20.sem) 0
        ∗ (∃ fd, GFl d L fI fW hin bV7 cc0_scratch14.sem q7 (48 : Fin 50) fd)
        ∗ semVal (thr, SemLoc.dma cc0_scratch21.sem) 0
        ∗ Todo (pc (rowPts d L fI)) 50 0
        ∗ Done (pc (rowPts d L fI)) 48
        ∗ Todo (pc (blkPts d L fO)) 47 3
        ∗ Done (pc (blkPts d L (Gath fI fW))) 43)
      ⊢ (wp frame (wpE (defs₀ (F := F)) 𝒱₀ thr none) Set.univ (k0_part31 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v746 c47_i32_792)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (49 : Fin 50) fd)
            ∗ wPts d L fW q1
            ∗ semVal (thr, SemLoc.dma cc0_scratch8.sem) 0
            ∗ (∃ f, bPts d L bV2 f)
            ∗ wPts d L fW q2
            ∗ semVal (thr, SemLoc.dma cc0_scratch9.sem) 0
            ∗ semVal (thr, SemLoc.dma cc0_scratch16.sem) 0
            ∗ (∃ fd, SFl d L fI fW hin fO bV3 cc0_scratch17.sem (44 : Fin 50) fd)
            ∗ wPts d L fW q3
            ∗ semVal (thr, SemLoc.dma cc0_scratch10.sem) 0
            ∗ (∃ fd, SFl d L fI fW hin fO bV4 cc0_scratch18.sem (45 : Fin 50) fd)
            ∗ wPts d L fW q4
            ∗ semVal (thr, SemLoc.dma cc0_scratch11.sem) 0
            ∗ (∃ fd, SFl d L fI fW hin fO bV5 cc0_scratch19.sem (46 : Fin 50) fd)
            ∗ wPts d L fW q5
            ∗ semVal (thr, SemLoc.dma cc0_scratch12.sem) 0
            ∗ (∃ fd, SFl d L fI fW hin fO bV6 cc0_scratch20.sem (47 : Fin 50) fd)
            ∗ wPts d L fW q6
            ∗ semVal (thr, SemLoc.dma cc0_scratch13.sem) 0
            ∗ (∃ fd, SFl d L fI fW hin fO bV7 cc0_scratch21.sem (48 : Fin 50) fd)
            ∗ wPts d L fW q7
            ∗ semVal (thr, SemLoc.dma cc0_scratch14.sem) 0
            ∗ Todo (pc (rowPts d L fI)) 50 0
            ∗ Done (pc (rowPts d L fI)) 50
            ∗ Todo (pc (blkPts d L fO)) 50 0
            ∗ Done (pc (blkPts d L (Gath fI fW))) 44) : sProp 𝕄) := by
  simp only [k0_part31_eq_skeleton]; unfold k0_part31_skel
  iintro ⟨HR, #Hmw, ⟨%W0, %hW0, HO⟩, ⟨%fd1, HG1⟩, Hs1, ⟨%fd2, HS2⟩, HW2, Hg2, ⟨%fd3, HS3⟩, HW3, Hg3, ⟨%fd4, HS4⟩, HW4, Hg4, ⟨%fd5, HS5⟩, HW5, Hg5, ⟨%fd6, Hb6⟩, HW6, Hg6, Hs6, ⟨%fd7, HG7⟩, Hs7, IT, ID, OT, OD⟩
  ihave OT' := (Entails.of_eq (todo_take (blkPts d L fO) 47 2 (by decide))) $$ OT
  icases OT' with ⟨Ho, OT⟩
  iapply (Transfers.wp_dmaLocal countersEmb 𝒱₀ thr none (default : HIx 1) _ rfl
      (show 0 < (oBlkK L (47 : Fin 50)).view.amount (SemLoc.dma cc0_scratch20.sem) from View.dmaCredit_pos (oBlkK L (47 : Fin 50)).view (by decide)) (Finset.Subset.refl _)) $$ [Hb6 Ho Hs6]
  · isplitl [Hb6]; · iexact Hb6
    isplitl [Ho]; · iexact Ho
    iexact Hs6
  iintro HS6
  iapply (Transfers.wp_waitLocalO countersEmb 𝒱₀ thr none (default : HIx 1) rfl) $$ [HG7 HO]
  · isplitl [HG7]; · iexact HG7
    isplitl [HO]; · iexact HO
    iapply (Transfers.MayWaits.elim (SemLoc.dma cc0_scratch14.sem)) $$ Hmw
  iintro ⟨⟨Hb7, HW7, Hr⟩, Hg7, HO⟩
  have hW1 := wstep hW0 (SemLoc.dma cc0_scratch14.sem)
  ihave ID := (Entails.of_eq (done_put (rowPts d L fI) 48 (by decide))) $$ [Hr ID]
  · isplitl [Hr]; · iexact Hr
    iexact ID
  ihave OT' := (Entails.of_eq (todo_take (blkPts d L fO) 48 1 (by decide))) $$ OT
  icases OT' with ⟨Ho, OT⟩
  iapply (Transfers.wp_dmaLocal countersEmb 𝒱₀ thr none (default : HIx 1) _ rfl
      (show 0 < (oBlkK L (48 : Fin 50)).view.amount (SemLoc.dma cc0_scratch21.sem) from View.dmaCredit_pos (oBlkK L (48 : Fin 50)).view (by decide)) (Finset.Subset.refl _)) $$ [Hb7 Ho Hs7]
  · isplitl [Hb7]; · iexact Hb7
    isplitl [Ho]; · iexact Ho
    iexact Hs7
  iintro HS7
  iapply (Transfers.wp_waitLocalO countersEmb 𝒱₀ thr none (default : HIx 1) rfl) $$ [HG1 HO]
  · isplitl [HG1]; · iexact HG1
    isplitl [HO]; · iexact HO
    iapply (Transfers.MayWaits.elim (SemLoc.dma cc0_scratch8.sem)) $$ Hmw
  iintro ⟨⟨Hb1, HW1, Hr⟩, Hg1, HO⟩
  have hW2 := wstep hW1 (SemLoc.dma cc0_scratch8.sem)
  ihave ID := (Entails.of_eq (done_put (rowPts d L fI) 49 (by decide))) $$ [Hr ID]
  · isplitl [Hr]; · iexact Hr
    iexact ID
  ihave OT' := (Entails.of_eq (todo_take (blkPts d L fO) 49 0 (by decide))) $$ OT
  icases OT' with ⟨Ho, OT⟩
  iapply (Transfers.wp_dmaLocal countersEmb 𝒱₀ thr none (default : HIx 1) _ rfl
      (show 0 < (oBlkK L (49 : Fin 50)).view.amount (SemLoc.dma cc0_scratch15.sem) from View.dmaCredit_pos (oBlkK L (49 : Fin 50)).view (by decide)) (Finset.Subset.refl _)) $$ [Hb1 Ho Hs1]
  · isplitl [Hb1]; · iexact Hb1
    isplitl [Ho]; · iexact Ho
    iexact Hs1
  iintro HS1
  iapply (Transfers.wp_waitLocalO countersEmb 𝒱₀ thr none (default : HIx 1) rfl) $$ [HS2 HO]
  · isplitl [HS2]; · iexact HS2
    isplitl [HO]; · iexact HO
    iapply (Transfers.MayWaits.elim (SemLoc.dma cc0_scratch16.sem)) $$ Hmw
  iintro ⟨⟨Ho, Hb2⟩, Hs2, HO⟩
  have hW3 := wstep hW2 (SemLoc.dma cc0_scratch16.sem)
  ihave Ho := (Entails.of_eq (out_val d L fI fW hin fO (43 : Fin 50) bV2 _)) $$ Ho
  ihave OD := (Entails.of_eq (done_put (blkPts d L (Gath fI fW)) 43 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW3
    · iexact HO
  isplitl [HS1]
  · iexists _; iexact HS1
  isplitl [HW1]
  · iexact HW1
  isplitl [Hg1]
  · iexact Hg1
  isplitl [Hb2]
  · iexists _; iexact Hb2
  isplitl [HW2]
  · iexact HW2
  isplitl [Hg2]
  · iexact Hg2
  isplitl [Hs2]
  · iexact Hs2
  isplitl [HS3]
  · iexists _; iexact HS3
  isplitl [HW3]
  · iexact HW3
  isplitl [Hg3]
  · iexact Hg3
  isplitl [HS4]
  · iexists _; iexact HS4
  isplitl [HW4]
  · iexact HW4
  isplitl [Hg4]
  · iexact Hg4
  isplitl [HS5]
  · iexists _; iexact HS5
  isplitl [HW5]
  · iexact HW5
  isplitl [Hg5]
  · iexact Hg5
  isplitl [HS6]
  · iexists _; iexact HS6
  isplitl [HW6]
  · iexact HW6
  isplitl [Hg6]
  · iexact Hg6
  isplitl [HS7]
  · iexists _; iexact HS7
  isplitl [HW7]
  · iexact HW7
  isplitl [Hg7]
  · iexact Hg7
  isplitl [IT]
  · iexact IT
  isplitl [ID]
  · iexact ID
  isplitl [OT]
  · iexact OT
  iexact OD

set_option maxHeartbeats 4000000 in
theorem part_32 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) (v1 : BitVec 32) (v772 : BitVec 32) (c44_i32_820 : BitVec 32) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (49 : Fin 50) fd)
        ∗ wPts d L fW q1
        ∗ semVal (thr, SemLoc.dma cc0_scratch8.sem) 0
        ∗ (∃ f, bPts d L bV2 f)
        ∗ wPts d L fW q2
        ∗ semVal (thr, SemLoc.dma cc0_scratch9.sem) 0
        ∗ semVal (thr, SemLoc.dma cc0_scratch16.sem) 0
        ∗ (∃ fd, SFl d L fI fW hin fO bV3 cc0_scratch17.sem (44 : Fin 50) fd)
        ∗ wPts d L fW q3
        ∗ semVal (thr, SemLoc.dma cc0_scratch10.sem) 0
        ∗ (∃ fd, SFl d L fI fW hin fO bV4 cc0_scratch18.sem (45 : Fin 50) fd)
        ∗ wPts d L fW q4
        ∗ semVal (thr, SemLoc.dma cc0_scratch11.sem) 0
        ∗ (∃ fd, SFl d L fI fW hin fO bV5 cc0_scratch19.sem (46 : Fin 50) fd)
        ∗ wPts d L fW q5
        ∗ semVal (thr, SemLoc.dma cc0_scratch12.sem) 0
        ∗ (∃ fd, SFl d L fI fW hin fO bV6 cc0_scratch20.sem (47 : Fin 50) fd)
        ∗ wPts d L fW q6
        ∗ semVal (thr, SemLoc.dma cc0_scratch13.sem) 0
        ∗ (∃ fd, SFl d L fI fW hin fO bV7 cc0_scratch21.sem (48 : Fin 50) fd)
        ∗ wPts d L fW q7
        ∗ semVal (thr, SemLoc.dma cc0_scratch14.sem) 0
        ∗ Todo (pc (rowPts d L fI)) 50 0
        ∗ Done (pc (rowPts d L fI)) 50
        ∗ Todo (pc (blkPts d L fO)) 50 0
        ∗ Done (pc (blkPts d L (Gath fI fW))) 44)
      ⊢ (wp frame (wpE (defs₀ (F := F)) 𝒱₀ thr none) Set.univ (k0_part32 L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0 v1 v772 c44_i32_820)
          fun _ => iprop(R
            ∗ Transfers.MayWaits thr (default : HIx 1) O
            ∗ (∃ W', ⌜∀ p ∈ W', p ∈ W ∨ p.2 = none⌝ ∗ owes thr O W')
            ∗ (∃ fd, SFl d L fI fW hin fO bV1 cc0_scratch15.sem (49 : Fin 50) fd)
            ∗ wPts d L fW q1
            ∗ semVal (thr, SemLoc.dma cc0_scratch8.sem) 0
            ∗ (∃ f, bPts d L bV2 f)
            ∗ wPts d L fW q2
            ∗ semVal (thr, SemLoc.dma cc0_scratch9.sem) 0
            ∗ semVal (thr, SemLoc.dma cc0_scratch16.sem) 0
            ∗ (∃ f, bPts d L bV3 f)
            ∗ wPts d L fW q3
            ∗ semVal (thr, SemLoc.dma cc0_scratch10.sem) 0
            ∗ semVal (thr, SemLoc.dma cc0_scratch17.sem) 0
            ∗ (∃ f, bPts d L bV4 f)
            ∗ wPts d L fW q4
            ∗ semVal (thr, SemLoc.dma cc0_scratch11.sem) 0
            ∗ semVal (thr, SemLoc.dma cc0_scratch18.sem) 0
            ∗ (∃ f, bPts d L bV5 f)
            ∗ wPts d L fW q5
            ∗ semVal (thr, SemLoc.dma cc0_scratch12.sem) 0
            ∗ semVal (thr, SemLoc.dma cc0_scratch19.sem) 0
            ∗ (∃ f, bPts d L bV6 f)
            ∗ wPts d L fW q6
            ∗ semVal (thr, SemLoc.dma cc0_scratch13.sem) 0
            ∗ semVal (thr, SemLoc.dma cc0_scratch20.sem) 0
            ∗ (∃ f, bPts d L bV7 f)
            ∗ wPts d L fW q7
            ∗ semVal (thr, SemLoc.dma cc0_scratch14.sem) 0
            ∗ semVal (thr, SemLoc.dma cc0_scratch21.sem) 0
            ∗ Todo (pc (rowPts d L fI)) 50 0
            ∗ Done (pc (rowPts d L fI)) 50
            ∗ Todo (pc (blkPts d L fO)) 50 0
            ∗ Done (pc (blkPts d L (Gath fI fW))) 49) : sProp 𝕄) := by
  simp only [k0_part32_eq_skeleton]; unfold k0_part32_skel
  iintro ⟨HR, #Hmw, ⟨%W0, %hW0, HO⟩, ⟨%fd1, HS1⟩, HW1, Hg1, ⟨%fd2, Hb2⟩, HW2, Hg2, Hs2, ⟨%fd3, HS3⟩, HW3, Hg3, ⟨%fd4, HS4⟩, HW4, Hg4, ⟨%fd5, HS5⟩, HW5, Hg5, ⟨%fd6, HS6⟩, HW6, Hg6, ⟨%fd7, HS7⟩, HW7, Hg7, IT, ID, OT, OD⟩
  iapply (Transfers.wp_waitLocalO countersEmb 𝒱₀ thr none (default : HIx 1) rfl) $$ [HS3 HO]
  · isplitl [HS3]; · iexact HS3
    isplitl [HO]; · iexact HO
    iapply (Transfers.MayWaits.elim (SemLoc.dma cc0_scratch17.sem)) $$ Hmw
  iintro ⟨⟨Ho, Hb3⟩, Hs3, HO⟩
  have hW1 := wstep hW0 (SemLoc.dma cc0_scratch17.sem)
  ihave Ho := (Entails.of_eq (out_val d L fI fW hin fO (44 : Fin 50) bV3 _)) $$ Ho
  ihave OD := (Entails.of_eq (done_put (blkPts d L (Gath fI fW)) 44 (by decide))) $$ [Ho OD]
  · isplitl [Ho]; · iexact Ho
    iexact OD
  iapply (Transfers.wp_waitLocalO countersEmb 𝒱₀ thr none (default : HIx 1) rfl) $$ [HS4 HO]
  · isplitl [HS4]; · iexact HS4
    isplitl [HO]; · iexact HO
    iapply (Transfers.MayWaits.elim (SemLoc.dma cc0_scratch18.sem)) $$ Hmw
  iintro ⟨⟨Ho, Hb4⟩, Hs4, HO⟩
  have hW2 := wstep hW1 (SemLoc.dma cc0_scratch18.sem)
  ihave Ho := (Entails.of_eq (out_val d L fI fW hin fO (45 : Fin 50) bV4 _)) $$ Ho
  ihave OD := (Entails.of_eq (done_put (blkPts d L (Gath fI fW)) 45 (by decide))) $$ [Ho OD]
  · isplitl [Ho]; · iexact Ho
    iexact OD
  iapply (Transfers.wp_waitLocalO countersEmb 𝒱₀ thr none (default : HIx 1) rfl) $$ [HS5 HO]
  · isplitl [HS5]; · iexact HS5
    isplitl [HO]; · iexact HO
    iapply (Transfers.MayWaits.elim (SemLoc.dma cc0_scratch19.sem)) $$ Hmw
  iintro ⟨⟨Ho, Hb5⟩, Hs5, HO⟩
  have hW3 := wstep hW2 (SemLoc.dma cc0_scratch19.sem)
  ihave Ho := (Entails.of_eq (out_val d L fI fW hin fO (46 : Fin 50) bV5 _)) $$ Ho
  ihave OD := (Entails.of_eq (done_put (blkPts d L (Gath fI fW)) 46 (by decide))) $$ [Ho OD]
  · isplitl [Ho]; · iexact Ho
    iexact OD
  iapply (Transfers.wp_waitLocalO countersEmb 𝒱₀ thr none (default : HIx 1) rfl) $$ [HS6 HO]
  · isplitl [HS6]; · iexact HS6
    isplitl [HO]; · iexact HO
    iapply (Transfers.MayWaits.elim (SemLoc.dma cc0_scratch20.sem)) $$ Hmw
  iintro ⟨⟨Ho, Hb6⟩, Hs6, HO⟩
  have hW4 := wstep hW3 (SemLoc.dma cc0_scratch20.sem)
  ihave Ho := (Entails.of_eq (out_val d L fI fW hin fO (47 : Fin 50) bV6 _)) $$ Ho
  ihave OD := (Entails.of_eq (done_put (blkPts d L (Gath fI fW)) 47 (by decide))) $$ [Ho OD]
  · isplitl [Ho]; · iexact Ho
    iexact OD
  iapply (Transfers.wp_waitLocalO countersEmb 𝒱₀ thr none (default : HIx 1) rfl) $$ [HS7 HO]
  · isplitl [HS7]; · iexact HS7
    isplitl [HO]; · iexact HO
    iapply (Transfers.MayWaits.elim (SemLoc.dma cc0_scratch21.sem)) $$ Hmw
  iintro ⟨⟨Ho, Hb7⟩, Hs7, HO⟩
  have hW5 := wstep hW4 (SemLoc.dma cc0_scratch21.sem)
  ihave Ho := (Entails.of_eq (out_val d L fI fW hin fO (48 : Fin 50) bV7 _)) $$ Ho
  ihave OD := (Entails.of_eq (done_put (blkPts d L (Gath fI fW)) 48 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW5
    · iexact HO
  isplitl [HS1]
  · iexists _; iexact HS1
  isplitl [HW1]
  · iexact HW1
  isplitl [Hg1]
  · iexact Hg1
  isplitl [Hb2]
  · iexists _; iexact Hb2
  isplitl [HW2]
  · iexact HW2
  isplitl [Hg2]
  · iexact Hg2
  isplitl [Hs2]
  · iexact Hs2
  isplitl [Hb3]
  · iexists _; iexact Hb3
  isplitl [HW3]
  · iexact HW3
  isplitl [Hg3]
  · iexact Hg3
  isplitl [Hs3]
  · iexact Hs3
  isplitl [Hb4]
  · iexists _; iexact Hb4
  isplitl [HW4]
  · iexact HW4
  isplitl [Hg4]
  · iexact Hg4
  isplitl [Hs4]
  · iexact Hs4
  isplitl [Hb5]
  · iexists _; iexact Hb5
  isplitl [HW5]
  · iexact HW5
  isplitl [Hg5]
  · iexact Hg5
  isplitl [Hs5]
  · iexact Hs5
  isplitl [Hb6]
  · iexists _; iexact Hb6
  isplitl [HW6]
  · iexact HW6
  isplitl [Hg6]
  · iexact Hg6
  isplitl [Hs6]
  · iexact Hs6
  isplitl [Hb7]
  · iexists _; iexact Hb7
  isplitl [HW7]
  · iexact HW7
  isplitl [Hg7]
  · iexact Hg7
  isplitl [Hs7]
  · iexact Hs7
  isplitl [IT]
  · iexact IT
  isplitl [ID]
  · iexact ID
  isplitl [OT]
  · iexact OT
  iexact OD

set_option maxHeartbeats 4000000 in
theorem part_33 (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) :
    iprop(R
        ∗ Transfers.MayWaits thr (default : HIx 1) O
        ∗ (∃ W', ⌜∀ p ∈ W', p ∈ W ∨ p.2 = none⌝ ∗ owes thr O W')
        ∗ (∃ fd, SFl d L fI fW hin fO bV1 cc0_scratch15.sem (49 : Fin 50) fd)
        ∗ wPts d L fW q1
        ∗ semVal (thr, SemLoc.dma cc0_scratch8.sem) 0
        ∗ (∃ f, bPts d L bV2 f)
        ∗ wPts d L fW q2
        ∗ semVal (thr, SemLoc.dma cc0_scratch9.sem) 0
        ∗ semVal (thr, SemLoc.dma cc0_scratch16.sem) 0
        ∗ (∃ f, bPts d L bV3 f)
        ∗ wPts d L fW q3
        ∗ semVal (thr, SemLoc.dma cc0_scratch10.sem) 0
        ∗ semVal (thr, SemLoc.dma cc0_scratch17.sem) 0
        ∗ (∃ f, bPts d L bV4 f)
        ∗ wPts d L fW q4
        ∗ semVal (thr, SemLoc.dma cc0_scratch11.sem) 0
        ∗ semVal (thr, SemLoc.dma cc0_scratch18.sem) 0
        ∗ (∃ f, bPts d L bV5 f)
        ∗ wPts d L fW q5
        ∗ semVal (thr, SemLoc.dma cc0_scratch12.sem) 0
        ∗ semVal (thr, SemLoc.dma cc0_scratch19.sem) 0
        ∗ (∃ f, bPts d L bV6 f)
        ∗ wPts d L fW q6
        ∗ semVal (thr, SemLoc.dma cc0_scratch13.sem) 0
        ∗ semVal (thr, SemLoc.dma cc0_scratch20.sem) 0
        ∗ (∃ f, bPts d L bV7 f)
        ∗ wPts d L fW q7
        ∗ semVal (thr, SemLoc.dma cc0_scratch14.sem) 0
        ∗ semVal (thr, SemLoc.dma cc0_scratch21.sem) 0
        ∗ Todo (pc (rowPts d L fI)) 50 0
        ∗ Done (pc (rowPts d L fI)) 50
        ∗ Todo (pc (blkPts d L fO)) 50 0
        ∗ Done (pc (blkPts d L (Gath fI fW))) 49)
      ⊢ (wp frame (wpE (defs₀ (F := F)) 𝒱₀ thr none) Set.univ (do
            let v801 : Memref sig .scVector .hbm S128x128 .f32 := (oV).slice (Rect.unit (s := S204800x128) (k0_off2 L 49#32) S128x128.size (k0_off2_inb L 49)) (fun _ => rfl)
            Prog.lift (.waitDma2 cc0_scratch15.sem bV1 v801 (Memref.isWhole_whole _).wordExact (View.wordExact_bits rfl))
            pure ⟨⟩ : Prog (TpuEff nD τ sig (Elt F) Λ₀ (.scVector ((L 0).castLE hcore0) ((L 1).castLE hsub0))) PUnit)
          fun _ => iprop(R
            ∗ Transfers.MayWaits thr (default : HIx 1) O
            ∗ (∃ W', ⌜∀ p ∈ W', p ∈ W ∨ p.2 = none⌝ ∗ owes thr O W')
            ∗ (∃ f, bPts d L bV1 f)
            ∗ wPts d L fW q1
            ∗ semVal (thr, SemLoc.dma cc0_scratch8.sem) 0
            ∗ semVal (thr, SemLoc.dma cc0_scratch15.sem) 0
            ∗ (∃ f, bPts d L bV2 f)
            ∗ wPts d L fW q2
            ∗ semVal (thr, SemLoc.dma cc0_scratch9.sem) 0
            ∗ semVal (thr, SemLoc.dma cc0_scratch16.sem) 0
            ∗ (∃ f, bPts d L bV3 f)
            ∗ wPts d L fW q3
            ∗ semVal (thr, SemLoc.dma cc0_scratch10.sem) 0
            ∗ semVal (thr, SemLoc.dma cc0_scratch17.sem) 0
            ∗ (∃ f, bPts d L bV4 f)
            ∗ wPts d L fW q4
            ∗ semVal (thr, SemLoc.dma cc0_scratch11.sem) 0
            ∗ semVal (thr, SemLoc.dma cc0_scratch18.sem) 0
            ∗ (∃ f, bPts d L bV5 f)
            ∗ wPts d L fW q5
            ∗ semVal (thr, SemLoc.dma cc0_scratch12.sem) 0
            ∗ semVal (thr, SemLoc.dma cc0_scratch19.sem) 0
            ∗ (∃ f, bPts d L bV6 f)
            ∗ wPts d L fW q6
            ∗ semVal (thr, SemLoc.dma cc0_scratch13.sem) 0
            ∗ semVal (thr, SemLoc.dma cc0_scratch20.sem) 0
            ∗ (∃ f, bPts d L bV7 f)
            ∗ wPts d L fW q7
            ∗ semVal (thr, SemLoc.dma cc0_scratch14.sem) 0
            ∗ semVal (thr, SemLoc.dma cc0_scratch21.sem) 0
            ∗ Todo (pc (rowPts d L fI)) 50 0
            ∗ Done (pc (rowPts d L fI)) 50
            ∗ Todo (pc (blkPts d L fO)) 50 0
            ∗ Done (pc (blkPts d L (Gath fI fW))) 50) : sProp 𝕄) := by
  iintro ⟨HR, #Hmw, ⟨%W0, %hW0, HO⟩, ⟨%fd1, HS1⟩, HW1, Hg1, ⟨%fd2, Hb2⟩, HW2, Hg2, Hs2, ⟨%fd3, Hb3⟩, HW3, Hg3, Hs3, ⟨%fd4, Hb4⟩, HW4, Hg4, Hs4, ⟨%fd5, Hb5⟩, HW5, Hg5, Hs5, ⟨%fd6, Hb6⟩, HW6, Hg6, Hs6, ⟨%fd7, Hb7⟩, HW7, Hg7, Hs7, IT, ID, OT, OD⟩
  iapply (Transfers.wp_waitLocalO countersEmb 𝒱₀ thr none (default : HIx 1) rfl) $$ [HS1 HO]
  · isplitl [HS1]; · iexact HS1
    isplitl [HO]; · iexact HO
    iapply (Transfers.MayWaits.elim (SemLoc.dma cc0_scratch15.sem)) $$ Hmw
  iintro ⟨⟨Ho, Hb1⟩, Hs1, HO⟩
  have hW1 := wstep hW0 (SemLoc.dma cc0_scratch15.sem)
  ihave Ho := (Entails.of_eq (out_val d L fI fW hin fO (49 : Fin 50) bV1 _)) $$ Ho
  ihave OD := (Entails.of_eq (done_put (blkPts d L (Gath fI fW)) 49 (by decide))) $$ [Ho OD]
  · isplitl [Ho]; · iexact Ho
    iexact OD
  iapply (le_wp_ret _ _)
  isplitl [HR]
  · iexact HR
  isplitl []
  · iexact Hmw
  isplitl [HO]
  · iexists _; isplitr
    · ipureintro; exact hW1
    · iexact HO
  isplitl [Hb1]
  · iexists _; iexact Hb1
  isplitl [HW1]
  · iexact HW1
  isplitl [Hg1]
  · iexact Hg1
  isplitl [Hs1]
  · iexact Hs1
  isplitl [Hb2]
  · iexists _; iexact Hb2
  isplitl [HW2]
  · iexact HW2
  isplitl [Hg2]
  · iexact Hg2
  isplitl [Hs2]
  · iexact Hs2
  isplitl [Hb3]
  · iexists _; iexact Hb3
  isplitl [HW3]
  · iexact HW3
  isplitl [Hg3]
  · iexact Hg3
  isplitl [Hs3]
  · iexact Hs3
  isplitl [Hb4]
  · iexists _; iexact Hb4
  isplitl [HW4]
  · iexact HW4
  isplitl [Hg4]
  · iexact Hg4
  isplitl [Hs4]
  · iexact Hs4
  isplitl [Hb5]
  · iexists _; iexact Hb5
  isplitl [HW5]
  · iexact HW5
  isplitl [Hg5]
  · iexact Hg5
  isplitl [Hs5]
  · iexact Hs5
  isplitl [Hb6]
  · iexists _; iexact Hb6
  isplitl [HW6]
  · iexact HW6
  isplitl [Hg6]
  · iexact Hg6
  isplitl [Hs6]
  · iexact Hs6
  isplitl [Hb7]
  · iexists _; iexact Hb7
  isplitl [HW7]
  · iexact HW7
  isplitl [Hg7]
  · iexact Hg7
  isplitl [Hs7]
  · iexact Hs7
  isplitl [IT]
  · iexact IT
  isplitl [ID]
  · iexact ID
  isplitl [OT]
  · iexact OT
  iexact OD

end Cert.Kernel.TileBody

end
-- ==== Proof.TileRunBits.lean ====
import proofs.«206768_g17686675325131_cont_8to1_990_33_alg».proof.Proof.TileDefsBits
import proofs.«206768_g17686675325131_cont_8to1_990_33_alg».proof.Proof.TileValBits
import proofs.«206768_g17686675325131_cont_8to1_990_33_alg».proof.Proof.TileGeomBits
import proofs.«206768_g17686675325131_cont_8to1_990_33_alg».proof.Proof.TileP1Bits
import proofs.«206768_g17686675325131_cont_8to1_990_33_alg».proof.Proof.TileP2Bits
import proofs.«206768_g17686675325131_cont_8to1_990_33_alg».proof.Proof.TileP3Bits

noncomputable section

namespace Cert.Kernel.TileBody

open Cert.Kernel Cert.Kernel.Gen Cert.Kernel.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S32x50x128 EltTy.i32)
local notation "oV" => (Memref.whole Cert.Kernel.main_v1_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S50x128 EltTy.i32)

variable (d : Dev nD) (L : grid0.Coords)

local notation "thr" => (V d (cV L) (jV L))

set_option maxHeartbeats 4000000 in
/-- The whole task, part after part: from the state before the index fetch to the state after the last wait. -/
theorem run_all (R : sProp 𝕄) (O : CellTallies nD τ sig (HIx 1)) (W : Waits sig (HIx 1))
    (fI : Buf (Elt F) (iLoc d)) (fW : Buf (Elt F) (wLoc d)) (fO : Buf (Elt F) (oLoc d)) (hin : ∀ j, (fI j).toNat < 100000)
    (q1 q2 q3 q4 q5 q6 q7 : PosShare TreeShare) :
    iprop(R
        ∗ Transfers.MayWaits thr (default : HIx 1) O
        ∗ (∃ W', ⌜∀ p ∈ W', p ∈ W ∨ p.2 = none⌝ ∗ owes thr O W')
        ∗ ((iRowK L).view.loc thr ↦[(iRowK L).view.set]{fullShare} fI)
        ∗ (∃ fs, (sV).view.loc thr ↦{fullShare} fs)
        ∗ semVal (thr, SemLoc.dma cc0_scoped0.sem) 0
        ∗ (∃ f, bPts d L bV1 f)
        ∗ wPts d L fW q1
        ∗ semVal (thr, SemLoc.dma cc0_scratch8.sem) 0
        ∗ semVal (thr, SemLoc.dma cc0_scratch15.sem) 0
        ∗ (∃ f, bPts d L bV2 f)
        ∗ wPts d L fW q2
        ∗ semVal (thr, SemLoc.dma cc0_scratch9.sem) 0
        ∗ semVal (thr, SemLoc.dma cc0_scratch16.sem) 0
        ∗ (∃ f, bPts d L bV3 f)
        ∗ wPts d L fW q3
        ∗ semVal (thr, SemLoc.dma cc0_scratch10.sem) 0
        ∗ semVal (thr, SemLoc.dma cc0_scratch17.sem) 0
        ∗ (∃ f, bPts d L bV4 f)
        ∗ wPts d L fW q4
        ∗ semVal (thr, SemLoc.dma cc0_scratch11.sem) 0
        ∗ semVal (thr, SemLoc.dma cc0_scratch18.sem) 0
        ∗ (∃ f, bPts d L bV5 f)
        ∗ wPts d L fW q5
        ∗ semVal (thr, SemLoc.dma cc0_scratch12.sem) 0
        ∗ semVal (thr, SemLoc.dma cc0_scratch19.sem) 0
        ∗ (∃ f, bPts d L bV6 f)
        ∗ wPts d L fW q6
        ∗ semVal (thr, SemLoc.dma cc0_scratch13.sem) 0
        ∗ semVal (thr, SemLoc.dma cc0_scratch20.sem) 0
        ∗ (∃ f, bPts d L bV7 f)
        ∗ wPts d L fW q7
        ∗ semVal (thr, SemLoc.dma cc0_scratch14.sem) 0
        ∗ semVal (thr, SemLoc.dma cc0_scratch21.sem) 0
        ∗ Done (pc (rowPts d L fI)) 0
        ∗ Todo (pc (blkPts d L fO)) 0 50
        ∗ Done (pc (blkPts d L (Gath fI fW))) 0)
      ⊢ (wp frame (wpE (defs₀ (F := F)) 𝒱₀ thr none) Set.univ (cc0_gather_kernel L wV (Memref.isWhole_whole _) iV (Memref.isWhole_whole _) oV (Memref.isWhole_whole _) sV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0)
          fun _ => iprop(iprop(R ∗ ((iRowK L).view.loc thr ↦[(iRowK L).view.set]{fullShare} fI) ∗ semVal (thr, SemLoc.dma cc0_scoped0.sem) 0)
            ∗ Transfers.MayWaits thr (default : HIx 1) O
            ∗ (∃ W', ⌜∀ p ∈ W', p ∈ W ∨ p.2 = none⌝ ∗ owes thr O W')
            ∗ (∃ f, bPts d L bV1 f)
            ∗ wPts d L fW q1
            ∗ semVal (thr, SemLoc.dma cc0_scratch8.sem) 0
            ∗ semVal (thr, SemLoc.dma cc0_scratch15.sem) 0
            ∗ (∃ f, bPts d L bV2 f)
            ∗ wPts d L fW q2
            ∗ semVal (thr, SemLoc.dma cc0_scratch9.sem) 0
            ∗ semVal (thr, SemLoc.dma cc0_scratch16.sem) 0
            ∗ (∃ f, bPts d L bV3 f)
            ∗ wPts d L fW q3
            ∗ semVal (thr, SemLoc.dma cc0_scratch10.sem) 0
            ∗ semVal (thr, SemLoc.dma cc0_scratch17.sem) 0
            ∗ (∃ f, bPts d L bV4 f)
            ∗ wPts d L fW q4
            ∗ semVal (thr, SemLoc.dma cc0_scratch11.sem) 0
            ∗ semVal (thr, SemLoc.dma cc0_scratch18.sem) 0
            ∗ (∃ f, bPts d L bV5 f)
            ∗ wPts d L fW q5
            ∗ semVal (thr, SemLoc.dma cc0_scratch12.sem) 0
            ∗ semVal (thr, SemLoc.dma cc0_scratch19.sem) 0
            ∗ (∃ f, bPts d L bV6 f)
            ∗ wPts d L fW q6
            ∗ semVal (thr, SemLoc.dma cc0_scratch13.sem) 0
            ∗ semVal (thr, SemLoc.dma cc0_scratch20.sem) 0
            ∗ (∃ f, bPts d L bV7 f)
            ∗ wPts d L fW q7
            ∗ semVal (thr, SemLoc.dma cc0_scratch14.sem) 0
            ∗ semVal (thr, SemLoc.dma cc0_scratch21.sem) 0
            ∗ Todo (pc (rowPts d L fI)) 50 0
            ∗ Done (pc (rowPts d L fI)) 50
            ∗ Todo (pc (blkPts d L fO)) 50 0
            ∗ Done (pc (blkPts d L (Gath fI fW))) 50) : sProp 𝕄) := by
  simp only [cc0_gather_kernel_eq_skeleton]; unfold cc0_gather_kernel_skel
  rw [wp_bind]; refine (part_1 d L R O W fI fW fO hin q1 q2 q3 q4 q5 q6 q7).trans (wp_mono _ _ _ fun v1 => ?_)
  rw [wp_bind]; refine (part_2 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_3 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_4 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun c50_i32_93 => ?_)
  rw [wp_bind]; refine (part_5 d L (iprop(R ∗ ((iRowK L).view.loc thr ↦[(iRowK L).view.set]{fullShare} fI) ∗ semVal (thr, SemLoc.dma cc0_scoped0.sem) 0)) O W fI fW fO hin q1 q2 q3 q4 q5 q6 q7 v1 c50_i32_93).trans (wp_mono _ _ _ fun _ => ?_)
  rw [wp_bind]; refine (part_6 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_7 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_8 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun v191 => ?_)
  rw [wp_bind]; refine (part_9 d L (iprop(R ∗ ((iRowK L).view.loc thr ↦[(iRowK L).view.set]{fullShare} fI) ∗ semVal (thr, SemLoc.dma cc0_scoped0.sem) 0)) O W fI fW fO hin q1 q2 q3 q4 q5 q6 q7 v1 v191).trans (wp_mono _ _ _ fun _ => ?_)
  rw [wp_bind]; refine (part_10 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_11 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun v => ?_)
  obtain ⟨v266, c16_i32_281⟩ := v
  rw [wp_bind]; refine (part_12 d L (iprop(R ∗ ((iRowK L).view.loc thr ↦[(iRowK L).view.set]{fullShare} fI) ∗ semVal (thr, SemLoc.dma cc0_scoped0.sem) 0)) O W fI fW fO hin q1 q2 q3 q4 q5 q6 q7 v1 v266 c16_i32_281).trans (wp_mono _ _ _ fun _ => ?_)
  rw [wp_bind]; refine (part_13 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_14 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_15 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun v368 => ?_)
  rw [wp_bind]; refine (part_16 d L (iprop(R ∗ ((iRowK L).view.loc thr ↦[(iRowK L).view.set]{fullShare} fI) ∗ semVal (thr, SemLoc.dma cc0_scoped0.sem) 0)) O W fI fW fO hin q1 q2 q3 q4 q5 q6 q7 v1 v368).trans (wp_mono _ _ _ fun _ => ?_)
  rw [wp_bind]; refine (part_17 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_18 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun v => ?_)
  obtain ⟨v443, c128_i32_469⟩ := v
  rw [wp_bind]; refine (part_19 d L (iprop(R ∗ ((iRowK L).view.loc thr ↦[(iRowK L).view.set]{fullShare} fI) ∗ semVal (thr, SemLoc.dma cc0_scoped0.sem) 0)) O W fI fW fO hin q1 q2 q3 q4 q5 q6 q7 v1 v443 c128_i32_469).trans (wp_mono _ _ _ fun _ => ?_)
  rw [wp_bind]; refine (part_20 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_21 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_22 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_23 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun c50_i32_603 => ?_)
  rw [wp_bind]; refine (part_24 d L (iprop(R ∗ ((iRowK L).view.loc thr ↦[(iRowK L).view.set]{fullShare} fI) ∗ semVal (thr, SemLoc.dma cc0_scoped0.sem) 0)) O W fI fW fO hin q1 q2 q3 q4 q5 q6 q7 v1 c50_i32_603).trans (wp_mono _ _ _ fun _ => ?_)
  rw [wp_bind]; refine (part_25 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_26 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_27 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun v671 => ?_)
  rw [wp_bind]; refine (part_28 d L (iprop(R ∗ ((iRowK L).view.loc thr ↦[(iRowK L).view.set]{fullShare} fI) ∗ semVal (thr, SemLoc.dma cc0_scoped0.sem) 0)) O W fI fW fO hin q1 q2 q3 q4 q5 q6 q7 v1 v671).trans (wp_mono _ _ _ fun _ => ?_)
  rw [wp_bind]; refine (part_29 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun _ => ?_)
  rw [wp_bind]; refine (part_30 d L (iprop(R ∗ ((iRowK L).view.loc thr ↦[(iRowK L).view.set]{fullShare} fI) ∗ semVal (thr, SemLoc.dma cc0_scoped0.sem) 0)) O W fI fW fO hin q1 q2 q3 q4 q5 q6 q7 v1).trans (wp_mono _ _ _ fun v => ?_)
  obtain ⟨v746, c47_i32_792⟩ := v
  rw [wp_bind]; refine (part_31 d L (iprop(R ∗ ((iRowK L).view.loc thr ↦[(iRowK L).view.set]{fullShare} fI) ∗ semVal (thr, SemLoc.dma cc0_scoped0.sem) 0)) O W fI fW fO hin q1 q2 q3 q4 q5 q6 q7 v1 v746 c47_i32_792).trans (wp_mono _ _ _ fun v => ?_)
  obtain ⟨v772, c44_i32_820⟩ := v
  rw [wp_bind]; refine (part_32 d L (iprop(R ∗ ((iRowK L).view.loc thr ↦[(iRowK L).view.set]{fullShare} fI) ∗ semVal (thr, SemLoc.dma cc0_scoped0.sem) 0)) O W fI fW fO hin q1 q2 q3 q4 q5 q6 q7 v1 v772 c44_i32_820).trans (wp_mono _ _ _ fun _ => ?_)
  exact part_33 d L (iprop(R ∗ ((iRowK L).view.loc thr ↦[(iRowK L).view.set]{fullShare} fI) ∗ semVal (thr, SemLoc.dma cc0_scoped0.sem) 0)) O W fI fW fO hin q1 q2 q3 q4 q5 q6 q7

end Cert.Kernel.TileBody

end
-- ==== Proof.TileBodyBits.lean ====
/-
  One vector subcore's task of the gather kernel, at a symbolic place: the obligation the launch consumes.

  Before the run the tile's block of the index array, its share of the table and its 6400 output rows are restated
  as the program addresses them: the table's share is cut in seven, one piece per row buffer (a gather holds its
  buffer's piece from its issue to its wait, and up to seven are in flight at once); the output rows are cut in the
  fifty blocks the chunks are copied out to; the eight scratch buffers and the fifteen semaphores are taken out of
  the subcore's own. The run is the composition of the printed parts. After it the pieces are joined again: the
  index scratch from its fifty rows, the output rows from their fifty blocks, each held at the gathered array.
-/
import proofs.«206768_g17686675325131_cont_8to1_990_33_alg».proof.Proof.TileDefsBits
import proofs.«206768_g17686675325131_cont_8to1_990_33_alg».proof.Proof.TileGeomBits
import proofs.«206768_g17686675325131_cont_8to1_990_33_alg».proof.Proof.TilePeelBits
import proofs.«206768_g17686675325131_cont_8to1_990_33_alg».proof.Proof.TileRunBits

noncomputable section

namespace Cert.Kernel.TileBody

open Cert.Kernel Cert.Kernel.Gen Cert.Kernel.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ
local notation "wV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S32x50x128 EltTy.i32)
local notation "oV" => (Memref.whole Cert.Kernel.main_v1_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S50x128 EltTy.i32)

variable (d : Dev nD) (L : grid0.Coords)

local notation "thr" => (V d (cV L) (jV L))

omit [CountersIn U] [FloatOps F] in
theorem pts_wV (q : PosShare TreeShare) (f : Buf (Elt F) (wLoc d)) : ((wV).view.loc thr ↦{q} f : sProp 𝕄) = wLoc d ↦{q} f := rfl

omit [CountersIn U] [FloatOps F] in
theorem pts_iRowK (f : Buf (Elt F) (iLoc d)) :
    ((iRowK L).view.loc thr ↦[(iRowK L).view.set]{fullShare} f : sProp 𝕄) = iRowPts d (wid L) f := by
  rw [set_iRowK]

omit [CountersIn U] [FloatOps F] in
theorem Done_zero_intro (Φ : ℕ → sProp 𝕄) : (iprop(emp) : sProp 𝕄) ⊢ Done Φ 0 := Entails.of_eq rfl
omit [CountersIn U] [FloatOps F] in
theorem Todo_zero (Φ : ℕ → sProp 𝕄) (k : ℕ) : Todo Φ k 0 = iprop(emp) := rfl

/-- What the last wait leaves is the task's post: the table's share joined, the index scratch's rows and the
    output's blocks joined, the scratch buffers and semaphores put back among the subcore's own. -/
theorem teardown (O : CellTallies nD τ sig (HIx 1)) (W : Waits sig (HIx 1)) (q : PosShare TreeShare)
    (fI : Buf (Elt F) (iLoc d)) (fW : Buf (Elt F) (wLoc d)) (fO : Buf (Elt F) (oLoc d)) (RB RS : sProp 𝕄) :
    iprop(iprop(iprop(((wV).view.loc thr ↦[Finset.univ \ (wAllK).view.set]{q} fW) ∗ RB ∗ RS) ∗ ((iRowK L).view.loc thr ↦[(iRowK L).view.set]{fullShare} fI) ∗ semVal (thr, SemLoc.dma cc0_scoped0.sem) 0)
        ∗ Transfers.MayWaits thr (default : HIx 1) O
        ∗ (∃ W', ⌜∀ p ∈ W', p ∈ W ∨ p.2 = none⌝ ∗ owes thr O W')
        ∗ (∃ f, bPts d L bV1 f)
        ∗ wPts d L fW (q.left)
        ∗ semVal (thr, SemLoc.dma cc0_scratch8.sem) 0
        ∗ semVal (thr, SemLoc.dma cc0_scratch15.sem) 0
        ∗ (∃ f, bPts d L bV2 f)
        ∗ wPts d L fW (q.right.left)
        ∗ semVal (thr, SemLoc.dma cc0_scratch9.sem) 0
        ∗ semVal (thr, SemLoc.dma cc0_scratch16.sem) 0
        ∗ (∃ f, bPts d L bV3 f)
        ∗ wPts d L fW (q.right.right.left)
        ∗ semVal (thr, SemLoc.dma cc0_scratch10.sem) 0
        ∗ semVal (thr, SemLoc.dma cc0_scratch17.sem) 0
        ∗ (∃ f, bPts d L bV4 f)
        ∗ wPts d L fW (q.right.right.right.left)
        ∗ semVal (thr, SemLoc.dma cc0_scratch11.sem) 0
        ∗ semVal (thr, SemLoc.dma cc0_scratch18.sem) 0
        ∗ (∃ f, bPts d L bV5 f)
        ∗ wPts d L fW (q.right.right.right.right.left)
        ∗ semVal (thr, SemLoc.dma cc0_scratch12.sem) 0
        ∗ semVal (thr, SemLoc.dma cc0_scratch19.sem) 0
        ∗ (∃ f, bPts d L bV6 f)
        ∗ wPts d L fW (q.right.right.right.right.right.left)
        ∗ semVal (thr, SemLoc.dma cc0_scratch13.sem) 0
        ∗ semVal (thr, SemLoc.dma cc0_scratch20.sem) 0
        ∗ (∃ f, bPts d L bV7 f)
        ∗ wPts d L fW (q.right.right.right.right.right.right)
        ∗ semVal (thr, SemLoc.dma cc0_scratch14.sem) 0
        ∗ semVal (thr, SemLoc.dma cc0_scratch21.sem) 0
        ∗ Todo (pc (rowPts d L fI)) 50 0
        ∗ Done (pc (rowPts d L fI)) 50
        ∗ Todo (pc (blkPts d L fO)) 50 0
        ∗ Done (pc (blkPts d L (Gath fI fW))) 50)
      ⊢ iprop((iRowPts d (wid L) fI ∗ wShPts d q fW ∗ oRowPts d (wid L) (Gath fI fW))
          ∗ iprop((∃ f, (sV).view.loc thr ↦{fullShare} f) ∗ (∃ f, bPts d L bV1 f) ∗ (∃ f, bPts d L bV2 f) ∗ (∃ f, bPts d L bV3 f)
              ∗ (∃ f, bPts d L bV4 f) ∗ (∃ f, bPts d L bV5 f) ∗ (∃ f, bPts d L bV6 f) ∗ (∃ f, bPts d L bV7 f) ∗ RB)
          ∗ iprop(semVal (thr, SemLoc.dma cc0_scoped0.sem) 0
              ∗ (semVal (thr, SemLoc.dma cc0_scratch8.sem) 0 ∗ semVal (thr, SemLoc.dma cc0_scratch9.sem) 0 ∗ semVal (thr, SemLoc.dma cc0_scratch10.sem) 0
                ∗ semVal (thr, SemLoc.dma cc0_scratch11.sem) 0 ∗ semVal (thr, SemLoc.dma cc0_scratch12.sem) 0 ∗ semVal (thr, SemLoc.dma cc0_scratch13.sem) 0
                ∗ semVal (thr, SemLoc.dma cc0_scratch14.sem) 0)
              ∗ (semVal (thr, SemLoc.dma cc0_scratch15.sem) 0 ∗ semVal (thr, SemLoc.dma cc0_scratch16.sem) 0 ∗ semVal (thr, SemLoc.dma cc0_scratch17.sem) 0
                ∗ semVal (thr, SemLoc.dma cc0_scratch18.sem) 0 ∗ semVal (thr, SemLoc.dma cc0_scratch19.sem) 0 ∗ semVal (thr, SemLoc.dma cc0_scratch20.sem) 0
                ∗ semVal (thr, SemLoc.dma cc0_scratch21.sem) 0)
              ∗ RS)
          ∗ ∃ W', ⌜∀ p ∈ W', p ∈ W ∨ p.2 = none⌝ ∗ owes thr O W') := by
  rw [Todo_zero, Todo_zero]
  iintro ⟨⟨⟨Hwr, HRB, HRS⟩, Hi, Hsc⟩, -, HOw, Hb1, HW1, Hg1, Hs1, Hb2, HW2, Hg2, Hs2, Hb3, HW3, Hg3, Hs3, Hb4, HW4, Hg4, Hs4, Hb5, HW5, Hg5, Hs5, Hb6, HW6, Hg6, Hs6, Hb7, HW7, Hg7, Hs7, -, ID, -, OD⟩
  ihave Hws := (pointsTo_share (PosShare.mem_left_op_right (q.right.right.right.right.right))).2 $$ [HW6 HW7]
  · isplitl [HW6]
    · iexact HW6
    iexact HW7
  ihave Hws := (pointsTo_share (PosShare.mem_left_op_right (q.right.right.right.right))).2 $$ [HW5 Hws]
  · isplitl [HW5]
    · iexact HW5
    iexact Hws
  ihave Hws := (pointsTo_share (PosShare.mem_left_op_right (q.right.right.right))).2 $$ [HW4 Hws]
  · isplitl [HW4]
    · iexact HW4
    iexact Hws
  ihave Hws := (pointsTo_share (PosShare.mem_left_op_right (q.right.right))).2 $$ [HW3 Hws]
  · isplitl [HW3]
    · iexact HW3
    iexact Hws
  ihave Hws := (pointsTo_share (PosShare.mem_left_op_right (q.right))).2 $$ [HW2 Hws]
  · isplitl [HW2]
    · iexact HW2
    iexact Hws
  ihave Hws := (pointsTo_share (PosShare.mem_left_op_right (q))).2 $$ [HW1 Hws]
  · isplitl [HW1]
    · iexact HW1
    iexact Hws
  ihave Hw := (pointsTo_split_subset (q := q) (f := fW) (S := Finset.univ) (Finset.subset_univ (wAllK).view.set)).2 $$ [Hws Hwr]
  · isplitl [Hws]
    · iexact Hws
    iexact Hwr
  ihave Hw := (Entails.of_eq (pts_wV (F := F) (U := U) d L q fW)) $$ Hw
  ihave Hi := (Entails.of_eq (pts_iRowK (F := F) (U := U) d L fI)) $$ Hi
  ihave Ho := (out_join (F := F) (U := U) d L (Gath fI fW)) $$ OD
  ihave Hs := (idx_join (F := F) (U := U) d L fI) $$ ID
  isplitl [Hi Hw Ho]
  · isplitl [Hi]
    · iexact Hi
    isplitl [Hw]
    · iexact Hw
    iexact Ho
  isplitl [Hs Hb1 Hb2 Hb3 Hb4 Hb5 Hb6 Hb7 HRB]
  · isplitl [Hs]
    · iexact Hs
    isplitl [Hb1]
    · iexact Hb1
    isplitl [Hb2]
    · iexact Hb2
    isplitl [Hb3]
    · iexact Hb3
    isplitl [Hb4]
    · iexact Hb4
    isplitl [Hb5]
    · iexact Hb5
    isplitl [Hb6]
    · iexact Hb6
    isplitl [Hb7]
    · iexact Hb7
    iexact HRB
  isplitl [Hsc Hg1 Hg2 Hg3 Hg4 Hg5 Hg6 Hg7 Hs1 Hs2 Hs3 Hs4 Hs5 Hs6 Hs7 HRS]
  · isplitl [Hsc]
    · iexact Hsc
    isplitl [Hg1 Hg2 Hg3 Hg4 Hg5 Hg6 Hg7]
    · isplitl [Hg1]
      · iexact Hg1
      isplitl [Hg2]
      · iexact Hg2
      isplitl [Hg3]
      · iexact Hg3
      isplitl [Hg4]
      · iexact Hg4
      isplitl [Hg5]
      · iexact Hg5
      isplitl [Hg6]
      · iexact Hg6
      iexact Hg7
    isplitl [Hs1 Hs2 Hs3 Hs4 Hs5 Hs6 Hs7]
    · isplitl [Hs1]
      · iexact Hs1
      isplitl [Hs2]
      · iexact Hs2
      isplitl [Hs3]
      · iexact Hs3
      isplitl [Hs4]
      · iexact Hs4
      isplitl [Hs5]
      · iexact Hs5
      isplitl [Hs6]
      · iexact Hs6
      iexact Hs7
    iexact HRS
  iexact HOw

set_option maxHeartbeats 4000000 in
/-- The task on vector subcore `(L 0, L 1)` of device `d`. -/
theorem tile_body (hF : (K (F := F)).Facts) (O : CellTallies nD τ sig (HIx 1)) (W : Waits sig (HIx 1)) (hO : ∀ g, O g none = 0)
    (q : PosShare TreeShare) (fI : Buf (Elt F) (iLoc d)) (fW : Buf (Elt F) (wLoc d)) (fO : Buf (Elt F) (oLoc d))
    (hin : ∀ j, (fI j).toNat < 100000) :
    iprop(levAts (K (F := F)).L (K (F := F)).lev ∗ emp
        ∗ (iRowPts d (wid L) fI ∗ wShPts d q fW ∗ oRowPts d (wid L) fO)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0_gather_kernel L wV (Memref.isWhole_whole _) iV (Memref.isWhole_whole _) oV (Memref.isWhole_whole _)
            sV (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0)
          fun _ => iprop((iRowPts d (wid L) fI ∗ wShPts d q fW ∗ oRowPts d (wid L) (Gath fI fW))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  obtain ⟨RB, hRB⟩ := ownBufs_V8 (F := F) (U := U) d L
  obtain ⟨RS, hRS⟩ := ownSems0_V15 (F := F) (U := U) d L
  rw [(K (F := F)).scopedBufs_V hF d (cV L) (jV L), SparseCore.Cfg.scopedSems0_V (Val := Elt F) d (cV L) (jV L), hRB, hRS]
  iintro ⟨#Hlv, -, ⟨Hi, Hw, Ho⟩, ⟨Hs, Hb1, Hb2, Hb3, Hb4, Hb5, Hb6, Hb7, HRB⟩, ⟨Hsc, ⟨Hg1, Hg2, Hg3, Hg4, Hg5, Hg6, Hg7⟩, ⟨Hs1, Hs2, Hs3, Hs4, Hs5, Hs6, Hs7⟩, HRS⟩, HO⟩
  ihave Hi := (Entails.of_eq (pts_iRowK (F := F) (U := U) d L fI).symm) $$ Hi
  ihave Hw := (Entails.of_eq (pts_wV (F := F) (U := U) d L q fW).symm) $$ Hw
  ihave Hws := (pointsTo_split_subset (q := q) (f := fW) (S := Finset.univ) (Finset.subset_univ (wAllK).view.set)).1 $$ Hw
  icases Hws with ⟨Hws, Hwr⟩
  ihave H := (pointsTo_share (PosShare.mem_left_op_right (q))).1 $$ Hws
  icases H with ⟨HW1, Hws⟩
  ihave H := (pointsTo_share (PosShare.mem_left_op_right (q.right))).1 $$ Hws
  icases H with ⟨HW2, Hws⟩
  ihave H := (pointsTo_share (PosShare.mem_left_op_right (q.right.right))).1 $$ Hws
  icases H with ⟨HW3, Hws⟩
  ihave H := (pointsTo_share (PosShare.mem_left_op_right (q.right.right.right))).1 $$ Hws
  icases H with ⟨HW4, Hws⟩
  ihave H := (pointsTo_share (PosShare.mem_left_op_right (q.right.right.right.right))).1 $$ Hws
  icases H with ⟨HW5, Hws⟩
  ihave H := (pointsTo_share (PosShare.mem_left_op_right (q.right.right.right.right.right))).1 $$ Hws
  icases H with ⟨HW6, Hws⟩
  ihave OT := (out_split (F := F) (U := U) d L fO) $$ Ho
  iapply (Transfers.ent (BI.Entails.trans (run_all (F := F) (U := U) d L (iprop(((wV).view.loc thr ↦[Finset.univ \ (wAllK).view.set]{q} fW) ∗ RB ∗ RS)) O W fI fW fO hin
      (q.left) (q.right.left) (q.right.right.left) (q.right.right.right.left) (q.right.right.right.right.left) (q.right.right.right.right.right.left) (q.right.right.right.right.right.right))
    (wp_mono frame _ _ fun _ => teardown (F := F) (U := U) d L O W q fI fW fO RB RS))) $$ [Hwr HRB HRS HO Hi Hs Hsc Hb1 HW1 Hg1 Hs1 Hb2 HW2 Hg2 Hs2 Hb3 HW3 Hg3 Hs3 Hb4 HW4 Hg4 Hs4 Hb5 HW5 Hg5 Hs5 Hb6 HW6 Hg6 Hs6 Hb7 Hws Hg7 Hs7 OT]
  ·
    isplitl [Hwr HRB HRS]
    · isplitl [Hwr]
      · iexact Hwr
      isplitl [HRB]
      · iexact HRB
      iexact HRS
    isplitl []
    · iapply ((K (F := F)).mayWaits_none hO)
      iexact Hlv
    isplitl [HO]
    · iexists W; isplitr
      · ipureintro; exact fun p hp => .inl hp
      · iexact HO
    isplitl [Hi]
    · iexact Hi
    isplitl [Hs]
    · iexact Hs
    isplitl [Hsc]
    · iexact Hsc
    isplitl [Hb1]
    · iexact Hb1
    isplitl [HW1]
    · iexact HW1
    isplitl [Hg1]
    · iexact Hg1
    isplitl [Hs1]
    · iexact Hs1
    isplitl [Hb2]
    · iexact Hb2
    isplitl [HW2]
    · iexact HW2
    isplitl [Hg2]
    · iexact Hg2
    isplitl [Hs2]
    · iexact Hs2
    isplitl [Hb3]
    · iexact Hb3
    isplitl [HW3]
    · iexact HW3
    isplitl [Hg3]
    · iexact Hg3
    isplitl [Hs3]
    · iexact Hs3
    isplitl [Hb4]
    · iexact Hb4
    isplitl [HW4]
    · iexact HW4
    isplitl [Hg4]
    · iexact Hg4
    isplitl [Hs4]
    · iexact Hs4
    isplitl [Hb5]
    · iexact Hb5
    isplitl [HW5]
    · iexact HW5
    isplitl [Hg5]
    · iexact Hg5
    isplitl [Hs5]
    · iexact Hs5
    isplitl [Hb6]
    · iexact Hb6
    isplitl [HW6]
    · iexact HW6
    isplitl [Hg6]
    · iexact Hg6
    isplitl [Hs6]
    · iexact Hs6
    isplitl [Hb7]
    · iexact Hb7
    isplitl [Hws]
    · iexact Hws
    isplitl [Hg7]
    · iexact Hg7
    isplitl [Hs7]
    · iexact Hs7
    isplitl []
    · iapply (Done_zero_intro _)
      iempintro
    isplitl [OT]
    · iexact OT
    iapply (Done_zero_intro _)
    iempintro

end Cert.Kernel.TileBody

end
-- ==== Proof.RegionBits.lean ====
/-
  The TensorCore kernel call inside the SparseCore program: the LayerNorm pipeline's region, run on the TensorCore of
  a device from the region boundary and the five arrays it moves.

  The pipeline has a grid of 16 points. At point `t` it fetches block `t` of the gathered array (64 batch rows, whole
  along the two other axes) and, at the first point only, the position rows and the scale and shift rows whole; the
  body loads the four staging buffers, computes one value and stores it whole into the result's staging buffer, which
  is written back to block `t` of the result array. So:
    * the body at a symbolic point: five whole-buffer loads, one whole-buffer store (`sound_kernel`), and the
      library's body obligation for proof data that name, after each point, the inputs' buffers at their blocks and
      the result's at the stored value of those blocks (`dats`, `body_obligation`);
    * the region as a segment (`reg`): the five arrays enter the pipeline, nothing else does; the body owes nothing,
      so its waits need no level evidence; `region_at` is the library's region step lifted to the SparseCore
      program's body table;
    * the value: the stored value of block `t` is block `t` of ONE whole-array function `Out` of the four operand
      arrays (`flushed_eq`), the 16 blocks cover the result array (`cover`), so the array ends at `Out` (`final4`),
      and `region_run` states the run with the result array so named.
  Generic in the float instance, in the names, in the ghost-state algebra and in its embedding of the pipeline
  library's rounds; `Gd` is the ghost state the launch must deal each TensorCore for this pipeline and `fund` makes
  it from the rounds library's launch element `u₀P`.
-/
import proofs.«206768_g17686675325131_cont_8to1_990_33_alg».proof.Proof.Gen.Kernel.Launch
import proofs.«206768_g17686675325131_cont_8to1_990_33_alg».proof.Proof.Gen.Kernel.Skeleton
import proofs.«206768_g17686675325131_cont_8to1_990_33_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.SparseCore.Threads
import Idealize.ShloMosaic.Lib.ValueIdx
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]
variable {Name : Type} [DecidableEq Name] {U : Type} [URA U]

local notation "𝕄" => MT nD τ sig (HIx 1) (Elt F) Name U ℕ

/-! ## The body's accesses and what it leaves in the result's buffer -/

abbrev r3 : Rect S64x200x128 := Rect.unit (s := S64x200x128) ![0, 0, 0] S64x200x128.size inb_S64x200x128_S64x200x128_0_0_0
abbrev r2 : Rect S200x128 := Rect.unit (s := S200x128) ![0, 0] S200x128.size inb_S200x128_S200x128_0_0
abbrev r1 : Rect S1x128 := Rect.unit (s := S1x128) ![0, 0] S1x128.size inb_S1x128_S1x128_0_0

/-- The result window's staging buffer after the body, from the four input blocks: its one whole-block store. -/
def out4 (x0 : Vec F S64x200x128 .f32) (x1 : Vec F S200x128 .f32) (x2 x3 : Vec F S1x128 .f32) : Vec F S64x200x128 .f32 :=
  View.canon [⟨r3, k1_pay1 (View.ld x0 r3) (View.ld x1 r2) (View.ld x2 r1) (View.ld x3 r1)⟩]

theorem cover4 (p0 : Vec F S64x200x128 .f32) (y : S64x200x128.Idx) :
    ∃ pc ∈ ([⟨r3, p0⟩] : List (View.Piece (Elt F) S64x200x128 .f32)), y ∈ pc.1.set :=
  View.cover_of_tiled [⟨r3, p0⟩] S64x200x128.size (by rfl) y

set_option maxHeartbeats 1000000 in
/-- The body on whole staging memrefs: the four inputs' at read contents, the result's at anything, to the inputs' as
    they were and the result's at `out4` of them. -/
theorem sound_kernel (𝒱₀ : Variants) (c : Dev nD) (E : Set Name) (i : grid1.Coords)
    (arg1 : Memref sig .tc .vmem S64x200x128 .f32) (harg1 : arg1.IsWhole) (arg2 : Memref sig .tc .vmem S200x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S64x200x128 .f32) (harg5 : arg5.IsWhole)
    (x0 : Vec F S64x200x128 .f32) (x1 : Vec F S200x128 .f32) (x2 x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) 𝒱₀ c none) E (cc1__ln_body i arg1 harg1 arg2 harg2 arg3 harg3 arg4 harg4 arg5 harg5) K := by
  simp only [cc1__ln_body_eq_skeleton]; unfold cc1__ln_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The one admissible contents of the prefetched tables: there is no table. -/
abbrev adm : (p : Fin 1) → (pcfgs (F := F) p).Adm := fun p => (cfgs p).toPCfg_adm

variable (V : (c : Dev nD) → (b : Ref sig .tc) → Buf (Elt F) ((c : Thread nD τ).loc b))
variable (B : Dev nD → Set (SemLoc sig × HIx 1))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data on core `c`: the arrays as the region finds them; after the body at point `t` each input's buffer at
    its block and the result's at the body's store of the four input blocks; the invariant the scoped buffers no window
    stages (there is none); nothing owed, the recorded pairs within `B c`; full shares. -/
def dats (_ : Fin 1) (c : Dev nD) : Dat τ (Elt F) (HIx 1) Name U ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
  Φ _ := Pipeline.scopedRest spec1 c
  q _ := fullShare
  owed _ := 0
  recorded _ := B c

theorem A_eq (c : Dev nD) (w : Fin cfg1.W) : (dats (Name := Name) (U := U) V B 0 c).A w = V c (Pipeline.arrRef spec1 w) := by
  dsimp only [dats]

theorem after0 (c : Dev nD) (t : Fin cfg1.N) : (dats (Name := Name) (U := U) V B 0 c).after 0 t = iblk V c 0 t := by dsimp only [dats]
theorem after1 (c : Dev nD) (t : Fin cfg1.N) : (dats (Name := Name) (U := U) V B 0 c).after 1 t = iblk V c 1 t := by dsimp only [dats]
theorem after2 (c : Dev nD) (t : Fin cfg1.N) : (dats (Name := Name) (U := U) V B 0 c).after 2 t = iblk V c 2 t := by dsimp only [dats]
theorem after3 (c : Dev nD) (t : Fin cfg1.N) : (dats (Name := Name) (U := U) V B 0 c).after 3 t = iblk V c 3 t := by dsimp only [dats]
theorem after4 (c : Dev nD) (t : Fin cfg1.N) : (dats (Name := Name) (U := U) V B 0 c).after 4 t
    = out4 (iblk V c 0 t) (iblk V c 1 t) (iblk V c 2 t) (iblk V c 3 t) := by dsimp only [dats]

/-- Each input's current staging buffer holds its block at every point, fetched there or not. -/
theorem before0 (c : Dev nD) (t : Fin cfg1.N) (d) : (dats (Name := Name) (U := U) V B 0 c).before 0 t d = iblk V c 0 t :=
  ((dats (Name := Name) (U := U) V B 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg1.N) (d) : (dats (Name := Name) (U := U) V B 0 c).before 1 t d = iblk V c 1 t :=
  ((dats (Name := Name) (U := U) V B 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg1.N) (d) : (dats (Name := Name) (U := U) V B 0 c).before 2 t d = iblk V c 2 t :=
  ((dats (Name := Name) (U := U) V B 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg1.N) (d) : (dats (Name := Name) (U := U) V B 0 c).before 3 t d = iblk V c 3 t :=
  ((dats (Name := Name) (U := U) V B 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dats (Name := Name) (U := U) V B 0 c).Φ t.castSucc ∗ (dats (Name := Name) (U := U) V B 0 c).owesAt none t.castSucc
    ∗ (∃ d, owns (c : Thread nD τ) (st1_0 t) fullShare ((dats (Name := Name) (U := U) V B 0 c).before 0 t d))
    ∗ (∃ d, owns (c : Thread nD τ) (st1_1 t) fullShare ((dats (Name := Name) (U := U) V B 0 c).before 1 t d))
    ∗ (∃ d, owns (c : Thread nD τ) (st1_2 t) fullShare ((dats (Name := Name) (U := U) V B 0 c).before 2 t d))
    ∗ (∃ d, owns (c : Thread nD τ) (st1_3 t) fullShare ((dats (Name := Name) (U := U) V B 0 c).before 3 t d))
    ∗ (∃ d, owns (c : Thread nD τ) (st1_4 t) fullShare ((dats (Name := Name) (U := U) V B 0 c).before 4 t d)))

/-- and what it returns. -/
def bodyPost (c : Dev nD) (t : Fin cfg1.N) : sProp 𝕄 :=
  iprop((dats (Name := Name) (U := U) V B 0 c).Φ t.succ ∗ (dats (Name := Name) (U := U) V B 0 c).owesAt none t.succ
    ∗ owns (c : Thread nD τ) (st1_0 t) fullShare ((dats (Name := Name) (U := U) V B 0 c).after 0 t)
    ∗ owns (c : Thread nD τ) (st1_1 t) fullShare ((dats (Name := Name) (U := U) V B 0 c).after 1 t)
    ∗ owns (c : Thread nD τ) (st1_2 t) fullShare ((dats (Name := Name) (U := U) V B 0 c).after 2 t)
    ∗ owns (c : Thread nD τ) (st1_3 t) fullShare ((dats (Name := Name) (U := U) V B 0 c).after 3 t)
    ∗ owns (c : Thread nD τ) (st1_4 t) fullShare ((dats (Name := Name) (U := U) V B 0 c).after 4 t))

/-- The body at any point: the inputs' memrefs hold their blocks, so `sound_kernel` applies; the invariant and the
    core's `owes` pass through unread. -/
theorem sound_body (𝒱₀ : Variants) (c : Dev nD) (t : Fin cfg1.N) :
    bodyPre (Name := Name) (U := U) V B c t ⊢ wp frame (wpE (defs₀ (F := F)) 𝒱₀ c none) Set.univ (bodyAt1 t) (fun _ => bodyPost (Name := Name) (U := U) V B c t) := by
  unfold bodyPre bodyPost bodyAt1
  simp only [before0, before1, before2, before3]
  rw [show (dats (Name := Name) (U := U) V B 0 c).Φ t.succ = (dats (Name := Name) (U := U) V B 0 c).Φ t.castSucc from rfl,
    show (dats (Name := Name) (U := U) V B 0 c).owesAt none t.succ = (dats (Name := Name) (U := U) V B 0 c).owesAt none t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel 𝒱₀ c Set.univ (grid1.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (𝒱₀ : Variants) (c : Dev nD) : BodyObligation (dats (Name := Name) (U := U) V B 0 c) (defs₀ (F := F)) 𝒱₀ none Set.univ := fun t => by
  rw [bigSep_W1, bigSep_W1]
  exact sound_body V B 𝒱₀ c t

/-! ## The region as a segment of the TensorCore's program -/

/-- The thread state the region is entered from: the four operand arrays and the result array at `V`, the core owing
    nothing with its recorded pairs within `B c`. -/
def Pre (c : Dev nD) : sProp 𝕄 :=
  iprop((((c : Thread nD τ).loc main_v2) ↦{fullShare} V c main_v2) ∗ (((c : Thread nD τ).loc main_v3) ↦{fullShare} V c main_v3)
    ∗ (((c : Thread nD τ).loc main_v4) ↦{fullShare} V c main_v4) ∗ (((c : Thread nD τ).loc main_v5) ↦{fullShare} V c main_v5)
    ∗ (((c : Thread nD τ).loc main_v6) ↦{fullShare} V c main_v6)
    ∗ Pipeline.owesWithin c 0 (B c))

/-- The thread state it leaves: the operands unchanged, the result array at what the pipeline's write-backs leave, the
    core owing nothing, its recorded pairs the former ones and the staging cells' at the index `none`. -/
def PostAt (c : Dev nD) : sProp 𝕄 :=
  iprop((((c : Thread nD τ).loc main_v2) ↦{fullShare} V c main_v2) ∗ (((c : Thread nD τ).loc main_v3) ↦{fullShare} V c main_v3)
    ∗ (((c : Thread nD τ).loc main_v4) ↦{fullShare} V c main_v4) ∗ (((c : Thread nD τ).loc main_v5) ↦{fullShare} V c main_v5)
    ∗ (((c : Thread nD τ).loc main_v6) ↦{fullShare} (dats (Name := Name) (U := U) V B 0 c).arrAt 4 cfg1.N)
    ∗ Pipeline.owesWithin c 0 (B c ∪ cfg1.waitPairs none))

variable (𝒱₀ : Variants) (L : GSem nD τ sig → Finset (HIx 1)) (lv : GSem nD τ sig → HIx 1 → ℕ)

theorem share_full (c : Dev nD) (w : Fin cfg1.W) : (dats (Name := Name) (U := U) V B 0 c).share w = fullShare :=
  (dats (Name := Name) (U := U) V B 0 c).share_full (fun _ => rfl) w

/-- The region as the library's record: the windows' layout as decided for the launch, the kernel having no semaphore
    of its own, the body obligation; entered with the five
    arrays going into the pipeline and nothing else, left with them at their final contents. -/
def reg : Pipeline.RegionSeg (pcfgs (F := F)) adm (dats (Name := Name) (U := U) V B) none defs₀ 𝒱₀ L lv 0 where
  win := launch1.win.to₀
  block_pos := launch1.block_pos
  stage_whole := launch1.stage_whole
  K := PEmpty
  osem := fun k => k.elim
  ho := Pipeline.OwnSemFacts.none _
  hbody c := (body_obligation V B 𝒱₀ c).loose
  hwaits := Pipeline.hwaits_of_owed_zero _ _ _ _ L lv 0 fun _ _ => rfl
  pre := Pre V B
  post := PostAt V B
  X _ := iprop(emp)
  Y _ := iprop(emp)
  Z _ := iprop(emp)
  hentry c := by
    rw [Pipeline.arrays_eq cfgs (dats (Name := Name) (U := U) V B) 0 c launch1.arr_whole (share_full V B c), bigSep_W1]
    unfold Pre
    iintro ⟨⟨H2, H3, H4, H5, H6, HO⟩, -, -⟩
    imodintro
    isplitl [H2 H3 H4 H5 H6]
    · isplitl [H2]; · iexact H2
      isplitl [H3]; · iexact H3
      isplitl [H4]; · iexact H4
      isplitl [H5]; · iexact H5
      iexact H6
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl <;> iempintro
  hin c := by
    rw [show (dats (Name := Name) (U := U) V B 0 c).Φ 0 = Pipeline.scopedRest spec1 c from rfl]
    iintro ⟨-, -, Hr⟩
    iassumption
  hout c := by
    rw [Pipeline.ownSems0_none, show (dats (Name := Name) (U := U) V B 0 c).Φ (Fin.last cfg1.N) = Pipeline.scopedRest spec1 c from rfl]
    iintro Hr
    isplitr; · iempintro
    isplitr; · iempintro
    iassumption
  hexit c := by
    rw [Pipeline.arrays_eq cfgs (dats (Name := Name) (U := U) V B) 0 c launch1.arr_whole (share_full V B c), bigSep_W1]
    unfold PostAt
    rw [(dats (Name := Name) (U := U) V B 0 c).arrAt_in 0 rfl _, (dats (Name := Name) (U := U) V B 0 c).arrAt_in 1 rfl _, (dats (Name := Name) (U := U) V B 0 c).arrAt_in 2 rfl _, (dats (Name := Name) (U := U) V B 0 c).arrAt_in 3 rfl _]
    iintro ⟨⟨H2, H3, H4, H5, H6⟩, HO, -, -⟩
    imodintro
    isplitl [H2]; · iexact H2
    isplitl [H3]; · iexact H3
    isplitl [H4]; · iexact H4
    isplitl [H5]; · iexact H5
    isplitl [H6]; · iexact H6
    iexact HO

/-- The pipeline's ghost state on core `c` as the launch deals it: its staging cells' launch state and its transfers'
    duty tokens. -/
abbrev Gd (EP : Emb (URounds (GSem nD τ sig) Unit) (MT nD τ sig (HIx 1) (Elt F) Name U ℕ)) (c : Dev nD) : sProp 𝕄 :=
  iprop(Pipeline.cellsGhost cfgs EP 0 c ∗ Pipeline.toksInit cfgs EP 0 c)

/-- The rounds library's launch element at the staging cells and the pipeline's transfers. -/
abbrev u₀P : URounds (GSem nD τ sig) Unit := initOf (Pipeline.cells (nD := nD) (τ := τ) cfgs cellOf_inj) (Pipeline.launchToks (nD := nD) (τ := τ) cfgs cellOf_inj)

/-- Funding: the launch element yields every core's ghost state for the pipeline. -/
theorem fund (EP : Emb (URounds (GSem nD τ sig) Unit) (MT nD τ sig (HIx 1) (Elt F) Name U ℕ)) :
    BI.own (EP u₀P) ⊢ iprop(|==> bigSep Finset.univ fun c : Dev nD => (Gd EP c : sProp 𝕄)) := by
  have h1 : ∀ (Φ : Fin 1 → sProp 𝕄), bigSep Finset.univ Φ = Φ 0 := fun Φ => by
    rw [show (Finset.univ : Finset (Fin 1)) = {0} from by decide, BI.bigSep_singleton]
  refine (Pipeline.fund_ghost (Ix := HIx 1) (Val := Elt F) (Name := Name) (U := U) (Lvl := ℕ) cfgs EP cellOf_inj).trans ?_
  simp only [h1, bigSep_sep']
  exact Entails.refl _

-- the region rule's implicit arguments are found by unifying its conclusion with this one, which takes unfolding plain
-- definitions in a metavariable's type
set_option backward.isDefEq.respectTransparency.types false in
set_option maxHeartbeats 1000000 in
/-- The region's run with the result array at what the pipeline's write-backs leave: the library's region step on this
    pipeline's proof data, lifted to the SparseCore program's body table (a call of a label of the pipelines' table is
    a call of the same label there). -/
theorem region_at [Infinite Name] (EP : Emb (URounds (GSem nD τ sig) Unit) (MT nD τ sig (HIx 1) (Elt F) Name U ℕ)) [EP.LandsIn (upEmb : UEmb _ 𝕄)] (c : Dev nD) :
    iprop(boundary (c : Thread nD τ) ∗ Pre V B c ∗ levAts L lv ∗ Gd EP c)
      ⊢ wp frame (wpE (sc.defs (Pipeline.defs pcfgs defs₀)) (Variants.lift 𝒱₀) (c : Thread nD τ) none) Set.univ
          (Prog.lift (.customCall (SparseCore.inner (Pipeline.entry 0)) ()))
          (fun _ => iprop(boundary (c : Thread nD τ) ∗ PostAt V B c)) := by
  have h := Pipeline.RegionSeg.wp (pcfgs (F := F)) adm (dats (Name := Name) (U := U) V B) none cellOf_inj EP defs₀ 𝒱₀ L lv (reg V B 𝒱₀ L lv) c none
    (fun u h => nomatch h) (fun _ => .ret PUnit.unit) (fun _ => iprop(boundary (c : Thread nD τ) ∗ PostAt V B c))
  have hl := (sc (F := F)).wp_liftProg (Name := Name) (U := U) (Pipeline.defs pcfgs defs₀) (Variants.lift 𝒱₀) (c : Thread nD τ) Set.univ none
    (.op (.customCall (Pipeline.entry 0) ()) fun _ => .ret PUnit.unit) (fun _ => iprop(boundary (c : Thread nD τ) ∗ PostAt V B c))
  have hp : SparseCore.liftProg (Q := 1) (.op (.customCall (Pipeline.entry (0 : Fin 1)) ()) fun _ => .ret PUnit.unit : Prog (TpuEff nD τ sig (Elt F) (Pipeline.Sig Λ₀ (Fin 1) fun p => (pcfgs (F := F) p).Adm) .tc) PUnit)
      = Prog.lift (.customCall (SparseCore.inner (Pipeline.entry 0)) ()) := rfl
  rw [hp] at hl
  rw [show (reg (Name := Name) (U := U) V B 𝒱₀ L lv).pre c = Pre V B c from rfl, show (reg (Name := Name) (U := U) V B 𝒱₀ L lv).post c = PostAt V B c from rfl] at h
  iintro ⟨Hbd, Hpre, Hla, Hg, Ht⟩
  iapply hl
  iapply h
  isplitr [Hbd Hpre Hla Hg Ht]
  · iintro H
    rw [wp_ret]
    imodintro
    iexact H
  isplitl [Hbd]; · iexact Hbd
  isplitl [Hpre]; · iexact Hpre
  isplitl [Hla]; · iexact Hla
  isplitl [Hg] <;> iassumption

/-! ## The result array as one function of the operand arrays -/

/-- Block `t` of the gathered array: 64 batch rows from row `64 t`. -/
def blk (x2 : S1024x200x128.Idx → Elt F .f32) (t : Fin 16) : Vec F S64x200x128 .f32 :=
  fun y => x2 (ix3 (⟨64 * t.val + (y 0).val, by have h : (y 0).val < 64 := (y 0).isLt; have := t.isLt; omega⟩ : Fin 1024)
    (⟨(y 1).val, (y 1).isLt⟩ : Fin 200) (⟨(y 2).val, (y 2).isLt⟩ : Fin 128))

/-- THE RESULT ARRAY: at batch row `b`, the body's stored value, for block `b / 64` of the gathered array and the
    three whole operands, at block-local row `b % 64`. -/
def Out (x2 : S1024x200x128.Idx → Elt F .f32) (x3 : S200x128.Idx → Elt F .f32) (x4 x5 : S1x128.Idx → Elt F .f32) :
    S1024x200x128.Idx → Elt F .f32 := fun i =>
  k1_pay1 (blk x2 ⟨(i 0).val / 64, by have h : (i 0).val < 1024 := (i 0).isLt; omega⟩) x3 x4 x5
    (ix3 (⟨(i 0).val % 64, Nat.mod_lt _ (by norm_num)⟩ : Fin 64) (⟨(i 1).val, (i 1).isLt⟩ : Fin 200) (⟨(i 2).val, (i 2).isLt⟩ : Fin 128))

/-- Block `t` of `Out` is the body's stored value of block `t`. -/
theorem Out_blk (x2 : S1024x200x128.Idx → Elt F .f32) (x3 : S200x128.Idx → Elt F .f32) (x4 x5 : S1x128.Idx → Elt F .f32)
    (t : Fin 16) (i : S1024x200x128.Idx) (y : S64x200x128.Idx)
    (h0 : (i 0).val = 64 * t.val + (y 0).val) (h1 : (i 1).val = (y 1).val) (h2 : (i 2).val = (y 2).val) :
    Out x2 x3 x4 x5 i = k1_pay1 (blk x2 t) x3 x4 x5 y := by
  have hy : (y 0).val < 64 := (y 0).isLt
  have e1 : (⟨(i 0).val / 64, by have h : (i 0).val < 1024 := (i 0).isLt; omega⟩ : Fin 16) = t := Fin.ext (by show (i 0).val / 64 = t.val; omega)
  have e2 : (ix3 (⟨(i 0).val % 64, Nat.mod_lt _ (by norm_num)⟩ : Fin 64) (⟨(i 1).val, (i 1).isLt⟩ : Fin 200) (⟨(i 2).val, (i 2).isLt⟩ : Fin 128) : S64x200x128.Idx) = y := by
    funext a
    match a with
    | ⟨0, _⟩ => exact Fin.ext (by show (i 0).val % 64 = (y 0).val; omega)
    | ⟨1, _⟩ => exact Fin.ext h1
    | ⟨2, _⟩ => exact Fin.ext h2
  unfold Out
  rw [e1, e2]

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the gathered array's and the result's blocks move with the point
    along the batch axis; the three other operands are whole. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 3) = t.val ∧ win1_4.index t (1 : Fin 3) = 0 ∧ win1_4.index t (2 : Fin 3) = 0) :=
  (by decide +kernel : ∀ t : Fin grid1.N, _)

/-- The point as a block number. -/
abbrev pt (t : Fin cfg1.N) : Fin 16 := ⟨t.val, by have := t.isLt; have h16 : cfg1.N = 16 := N_1; omega⟩

/-- The gathered array's block at point `t`. -/
theorem iblk0_eq (c : Dev nD) (t : Fin cfg1.N) :
    (iblk V c 0 t : Vec F S64x200x128 .f32) = blk (V c main_v2 : S1024x200x128.Idx → Elt F .f32) (pt t) := by
  obtain ⟨⟨e0, e1, e2⟩, -⟩ := idx_facts t
  funext y
  unfold iblk blk
  rw [View.read_apply]
  show (V c main_v2 : S1024x200x128.Idx → Elt F .f32) _ = (V c main_v2 : S1024x200x128.Idx → Elt F .f32) _
  congr 1
  funext a
  apply Fin.ext
  match a with
  | ⟨0, _⟩ => show win1_0.index t (0 : Fin 3) * 64 + 1 * (y 0).val = 64 * t.val + (y 0).val; rw [e0]; omega
  | ⟨1, _⟩ => show win1_0.index t (1 : Fin 3) * 200 + 1 * (y 1).val = (y 1).val; rw [e1]; omega
  | ⟨2, _⟩ => show win1_0.index t (2 : Fin 3) * 128 + 1 * (y 2).val = (y 2).val; rw [e2]; omega

/-- The position rows' block at any point is the whole operand. -/
theorem iblk1_eq (c : Dev nD) (t : Fin cfg1.N) :
    (iblk V c 1 t : Vec F S200x128 .f32) = (V c main_v3 : S200x128.Idx → Elt F .f32) := by
  obtain ⟨-, ⟨e0, e1⟩, -⟩ := idx_facts t
  funext y
  unfold iblk
  rw [View.read_apply]
  show (V c main_v3 : S200x128.Idx → Elt F .f32) _ = (V c main_v3 : S200x128.Idx → Elt F .f32) _
  congr 1
  funext a
  apply Fin.ext
  match a with
  | ⟨0, _⟩ => show win1_1.index t (0 : Fin 2) * 200 + 1 * (y 0).val = (y 0).val; rw [e0]; omega
  | ⟨1, _⟩ => show win1_1.index t (1 : Fin 2) * 128 + 1 * (y 1).val = (y 1).val; rw [e1]; omega

/-- The scale row's block at any point is the whole operand. -/
theorem iblk2_eq (c : Dev nD) (t : Fin cfg1.N) :
    (iblk V c 2 t : Vec F S1x128 .f32) = (V c main_v4 : S1x128.Idx → Elt F .f32) := by
  obtain ⟨-, -, ⟨e0, e1⟩, -⟩ := idx_facts t
  funext y
  unfold iblk
  rw [View.read_apply]
  show (V c main_v4 : S1x128.Idx → Elt F .f32) _ = (V c main_v4 : S1x128.Idx → Elt F .f32) _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The shift row's block at any point is the whole operand. -/
theorem iblk3_eq (c : Dev nD) (t : Fin cfg1.N) :
    (iblk V c 3 t : Vec F S1x128 .f32) = (V c main_v5 : S1x128.Idx → Elt F .f32) := by
  obtain ⟨-, -, -, ⟨e0, e1⟩, -⟩ := idx_facts t
  funext y
  unfold iblk
  rw [View.read_apply]
  show (V c main_v5 : S1x128.Idx → Elt F .f32) _ = (V c main_v5 : S1x128.Idx → Elt F .f32) _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The whole-array function of the operand arrays as the region finds them. -/
abbrev OutV (c : Dev nD) : S1024x200x128.Idx → Elt F .f32 :=
  Out (V c main_v2 : S1024x200x128.Idx → Elt F .f32) (V c main_v3 : S200x128.Idx → Elt F .f32)
    (V c main_v4 : S1x128.Idx → Elt F .f32) (V c main_v5 : S1x128.Idx → Elt F .f32)

/-- WHAT POINT `t` WRITES BACK is block `t` of `Out` of the operand arrays. -/
theorem flushed_eq (c : Dev nD) (t : Fin cfg1.N) :
    (dats (Name := Name) (U := U) V B 0 c).flushed 4 t = ((cfg1.win 4).blk t).view.read (Elt F) (OutV V c) := by
  show (cfg1.win 4).cut (grid1.coords t) ((dats (Name := Name) (U := U) V B 0 c).after 4 t) = _
  rw [after4]
  unfold out4
  rw [View.canon_unit_zero hz3]
  simp only [View.ld_unit_zero (S := S64x200x128) hz3, View.ld_unit_zero (S := S200x128) hz2, View.ld_unit_zero (S := S1x128) hz2]
  rw [iblk0_eq, iblk1_eq, iblk2_eq, iblk3_eq]
  obtain ⟨-, -, -, -, ⟨e0, e1, e2⟩⟩ := idx_facts t
  funext y
  rw [View.read_apply]
  refine (Out_blk _ _ _ _ (pt t) _ y ?_ ?_ ?_).symm
  · show win1_4.index t (0 : Fin 3) * 64 + 1 * (y 0).val = 64 * t.val + (y 0).val; rw [e0]; omega
  · show win1_4.index t (1 : Fin 3) * 200 + 1 * (y 1).val = (y 1).val; rw [e1]; omega
  · show win1_4.index t (2 : Fin 3) * 128 + 1 * (y 2).val = (y 2).val; rw [e2]; omega

/-- An index of the result array is in point `t`'s block iff each coordinate is in the block's range on its axis. -/
theorem mem_blk (t : Fin cfg1.N) (i : S1024x200x128.Idx) :
    i ∈ ((cfg1.win 4).blk t).view.set ↔ ∀ a : Fin 3, win1_4.index t a * S64x200x128.size a ≤ (i a).val ∧ (i a).val < win1_4.index t a * S64x200x128.size a + S64x200x128.size a := by
  show i ∈ ((View.whole main_v6).slice (win1_4.rect t)).set ↔ _
  rw [View.set_slice_whole, Rect.mem_set_unit]
  exact Iff.rfl

/-- Every index of the result array is in the block of the point its batch row names. -/
theorem cover (i : S1024x200x128.Idx) : ∃ t : Fin cfg1.N, (cfg1.win 4).flush t = true ∧ i ∈ ((cfg1.win 4).blk t).view.set := by
  have hi0 : (i 0).val < 1024 := (i 0).isLt
  have hi1 : (i 1).val < 200 := (i 1).isLt
  have hi2 : (i 2).val < 128 := (i 2).isLt
  let t : Fin cfg1.N := ⟨(i 0).val / 64, by rw [show cfg1.N = 16 from N_1]; omega⟩
  obtain ⟨-, -, -, -, ⟨e0, e1, e2⟩⟩ := idx_facts t
  have ht : t.val = (i 0).val / 64 := rfl
  refine ⟨t, flush1_4 t, ?_⟩
  rw [mem_blk]
  intro a
  match a with
  | ⟨0, _⟩ => show win1_4.index t (0 : Fin 3) * 64 ≤ (i 0).val ∧ (i 0).val < win1_4.index t (0 : Fin 3) * 64 + 64; rw [e0, ht]; omega
  | ⟨1, _⟩ => show win1_4.index t (1 : Fin 3) * 200 ≤ (i 1).val ∧ (i 1).val < win1_4.index t (1 : Fin 3) * 200 + 200; rw [e1]; omega
  | ⟨2, _⟩ => show win1_4.index t (2 : Fin 3) * 128 ≤ (i 2).val ∧ (i 2).val < win1_4.index t (2 : Fin 3) * 128 + 128; rw [e2]; omega

/-- THE RESULT ARRAY after the region is `Out` of the operand arrays. -/
theorem final4 (c : Dev nD) : (dats (Name := Name) (U := U) V B 0 c).arrAt 4 cfg1.N = OutV V c :=
  (dats (Name := Name) (U := U) V B 0 c).arrAt_eq_of_cover 4 (OutV V c) (fun t _ => flushed_eq V B c t) cover

/-- The thread state the region leaves, the result array named. -/
def Post (c : Dev nD) : sProp 𝕄 :=
  iprop((((c : Thread nD τ).loc main_v2) ↦{fullShare} V c main_v2) ∗ (((c : Thread nD τ).loc main_v3) ↦{fullShare} V c main_v3)
    ∗ (((c : Thread nD τ).loc main_v4) ↦{fullShare} V c main_v4) ∗ (((c : Thread nD τ).loc main_v5) ↦{fullShare} V c main_v5)
    ∗ (((c : Thread nD τ).loc main_v6) ↦{fullShare} OutV V c)
    ∗ Pipeline.owesWithin c 0 (B c ∪ cfg1.waitPairs none))

theorem PostAt_eq (c : Dev nD) : PostAt (Name := Name) (U := U) V B c = Post V B c := by
  unfold PostAt Post
  rw [final4]

/-- THE REGION'S RUN on the TensorCore of `c`, inside the SparseCore program's body table: from the region boundary
    (the staging buffers at any contents, the staging semaphores at zero, the idle operation slot), the four operand
    arrays and the result array whole at `V`, the core owing nothing, the level facts and the pipeline's launch ghost
    state, the call of the pipeline's entry runs to the boundary again, the operands unchanged and the result array at
    `Out` of the operands. -/
theorem region_run [Infinite Name] (EP : Emb (URounds (GSem nD τ sig) Unit) (MT nD τ sig (HIx 1) (Elt F) Name U ℕ)) [EP.LandsIn (upEmb : UEmb _ 𝕄)] (c : Dev nD) :
    iprop(boundary (c : Thread nD τ) ∗ Pre V B c ∗ levAts L lv ∗ Gd EP c)
      ⊢ wp frame (wpE (sc.defs (Pipeline.defs pcfgs defs₀)) (Variants.lift 𝒱₀) (c : Thread nD τ) none) Set.univ
          (Prog.lift (.customCall (SparseCore.inner (Pipeline.entry 0)) ()))
          (fun _ => iprop(boundary (c : Thread nD τ) ∗ Post V B c)) := by
  have h := region_at V B 𝒱₀ L lv EP c
  rw [PostAt_eq] at h
  exact h

end Cert.Kernel.Region

end
-- ==== Proof.LaunchBits.lean ====
/-
  The gather kernel's call as the launch theorem sees it: the program's configuration and ghost algebra, the three HBM
  arrays the call works on, how they are dealt to the 32 tiles and gathered again.

  Tile `(c, s)` (SparseCore `c`, vector subcore `s`) has number `w = 2 s + c`. It is handed row `w` of the
  32 x 50 x 128 index array (read only), a read share of the whole table, and rows `6400 w … 6400 w + 6399` of the
  204800 x 128 output. It hands them back with the output rows holding the gathered function `Gath`.
-/
import proofs.«206768_g17686675325131_cont_8to1_990_33_alg».proof.Defs
import proofs.«206768_g17686675325131_cont_8to1_990_33_alg».proof.Proof.Gen.Kernel
import proofs.«206768_g17686675325131_cont_8to1_990_33_alg».proof.Proof.GatherSpecBits
import proofs.«206768_g17686675325131_cont_8to1_990_33_alg».proof.Proof.TileBodyBits
import proofs.«206768_g17686675325131_cont_8to1_990_33_alg».proof.Proof.RegionBits
import proofs.«206768_g17686675325131_cont_8to1_990_33_alg».proof.Proof.Gen.Kernel.Launch
import proofs.«206768_g17686675325131_cont_8to1_990_33_alg».proof.Proof.Gen.Kernel.Points
import proofs.«206768_g17686675325131_cont_8to1_990_33_alg».proof.Proof.Gen.Kernel.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Kernel.Launch

open Cert.Kernel Cert.Kernel.Gen Cert.Kernel.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_sdiff_result wp_hlo_within)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipeline's staging cells' rounds: the middle component. -/
abbrev EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by unfold EP; infer_instance

/-! ## The call's three arrays -/

abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

local notation "iV" => (Memref.whole Cert.Kernel.main_v0_scv : Memref Cert.Kernel.sig Kind.scVector Space.hbm Cert.Kernel.S32x50x128 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S204800x128 EltTy.f32)

theorem idiv : 32 ∣ S32x50x128.size 0 := ⟨1, rfl⟩
theorem odiv : 32 ∣ S204800x128.size 0 := ⟨6400, rfl⟩
/-- Row `w` of the index array; rows `6400 w …` of the output. -/
abbrev irow (w : Fin 32) : Rect S32x50x128 := Rect.part (s := S32x50x128) (a₀ := 0) idiv w
abbrev orow (w : Fin 32) : Rect S204800x128 := Rect.part (s := S204800x128) (a₀ := 0) odiv w
abbrev iRowSet (w : Fin 32) : Finset S32x50x128.Idx := ((iV).view.slice (irow w)).set
abbrev oRowSet (w : Fin 32) : Finset S204800x128.Idx := ((oV).view.slice (orow w)).set

/-- The number of tile `(c, s)`. -/
def wid (c : Fin 2) (s : Fin 16) : Fin 32 := ⟨s.val * 2 + c.val, by omega⟩

/-- Tile number `w`'s read share of the table. -/
abbrev xq (w : Fin 32) : PosShare TreeShare := Transfers.shareTok fullShare 32 w

variable [FloatOps F]

/-! ## What the handshakes carry -/

variable (m : (ℓ : Loc nD τ sig) → Buf (Elt F) ℓ) (ρ : Dev nD → PrngReg)
-- the index array's contents at the call (the host reshape of the first argument)
variable (fI : (d : Dev nD) → Buf (Elt F) (iLoc d))

/-- The gathered array on device `d`. -/
abbrev gath (d : Dev nD) : Buf (Elt F) (oLoc d) := Gath (F := F) (fI d) (m (xLoc d))

abbrev iRowPts (d : Dev nD) (w : Fin 32) : sProp 𝕄 := iLoc d ↦[iRowSet w]{fullShare} fI d
abbrev xShPts (d : Dev nD) (w : Fin 32) : sProp 𝕄 := xLoc d ↦{xq w} m (xLoc d)
abbrev oRowPts (d : Dev nD) (w : Fin 32) (f : Buf (Elt F) (oLoc d)) : sProp 𝕄 := oLoc d ↦[oRowSet w]{fullShare} f

/-- What a tile is handed, and what it hands back. -/
abbrev tilePre (d : Dev nD) (w : Fin 32) : sProp 𝕄 := iprop(iRowPts fI d w ∗ xShPts m d w ∗ oRowPts d w (m (oLoc d)))
abbrev tilePost (d : Dev nD) (w : Fin 32) : sProp 𝕄 := iprop(iRowPts fI d w ∗ xShPts m d w ∗ oRowPts d w (gath m fI d))

/-- The one call: SparseCore `c` takes its sixteen tiles' parts; each tile its own. -/
def P : (K (F := F)).Pay (nD := nD) (Val := Elt F) (Name := ℕ) (U := UU) where
  st := fun q d c => match q with | 0 => bigSep Finset.univ fun s : Fin 16 => tilePre m fI d (wid (Fin.cast nCore_zero c) s)
  dn := fun q d c => match q with | 0 => bigSep Finset.univ fun s : Fin 16 => tilePost m fI d (wid (Fin.cast nCore_zero c) s)
  go := fun q d c i => match q with | 0 => tilePre m fI d (wid (Fin.cast nCore_zero c) (Fin.cast nSub_zero i))
  td := fun q d c i => match q with | 0 => tilePost m fI d (wid (Fin.cast nCore_zero c) (Fin.cast nSub_zero i))
  x := fun _ _ => iprop(emp)

instance P_storable : (P (F := F) m fI).IsStorable where
  st q d c := match q with
    | 0 => (inferInstance : BI.Storable (upEmb : UEmb _ 𝕄) (bigSep Finset.univ fun s : Fin 16 => tilePre m fI d (wid (Fin.cast nCore_zero c) s)))
  dn q d c := match q with
    | 0 => (inferInstance : BI.Storable (upEmb : UEmb _ 𝕄) (bigSep Finset.univ fun s : Fin 16 => tilePost m fI d (wid (Fin.cast nCore_zero c) s)))
  go q d c i := match q with
    | 0 => (inferInstance : BI.Storable (upEmb : UEmb _ 𝕄) (tilePre m fI d (wid (Fin.cast nCore_zero c) (Fin.cast nSub_zero i))))
  td q d c i := match q with
    | 0 => (inferInstance : BI.Storable (upEmb : UEmb _ 𝕄) (tilePost m fI d (wid (Fin.cast nCore_zero c) (Fin.cast nSub_zero i))))

/-! ## A SparseCore's parts are its tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m fI) 0 := by
  intro d c
  show (bigSep Finset.univ fun s : Fin 16 => tilePre m fI d (wid (Fin.cast nCore_zero c) s)) ⊢ |={Set.univ}=> iprop(
      (bigSep Finset.univ fun i : Fin ((K (F := F)).nSub 0) => tilePre m fI d (wid (Fin.cast nCore_zero c) (Fin.cast nSub_zero i)))
      ∗ ((bigSep Finset.univ fun i : Fin ((K (F := F)).nSub 0) => tilePost m fI d (wid (Fin.cast nCore_zero c) (Fin.cast nSub_zero i)))
          -∗ bigSep Finset.univ fun s : Fin 16 => tilePost m fI d (wid (Fin.cast nCore_zero c) s)))
  rw [bigSep_tasks (F := F) (fun s => tilePre m fI d (wid (Fin.cast nCore_zero c) s)),
    bigSep_tasks (F := F) (fun s => tilePost m fI d (wid (Fin.cast nCore_zero c) s))]
  iintro H; imodintro
  isplitl [H]; · iexact H
  iintro H; iexact H

/-! ## The arrays in rows, the table in shares; the tiles numbered -/

omit [FloatOps F] in
theorem iRowSet_eq (w : Fin 32) : iRowSet w = (irow w).set := by
  show ((View.whole (main_v0_scv : Ref sig .scVector)).slice (irow w)).set = _
  rw [View.set_slice]; exact Finset.map_refl
omit [FloatOps F] in
theorem oRowSet_eq (w : Fin 32) : oRowSet w = (orow w).set := by
  show ((View.whole (main_v1_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-- Tiles `(c, s)` and numbers `2 s + c` are the same 32 things. -/
def widEquiv : Fin 2 × Fin 16 ≃ Fin 32 where
  toFun p := wid p.1 p.2
  invFun w := (⟨w.val % 2, Nat.mod_lt _ (by norm_num)⟩, ⟨w.val / 2, by have := w.isLt; omega⟩)
  left_inv p := by
    obtain ⟨c, s⟩ := p
    refine Prod.ext (Fin.ext ?_) (Fin.ext ?_)
    · show (s.val * 2 + c.val) % 2 = c.val; have := c.isLt; omega
    · show (s.val * 2 + c.val) / 2 = s.val; have := c.isLt; omega
  right_inv w := Fin.ext (by show (w.val / 2) * 2 + w.val % 2 = w.val; omega)

omit [FloatOps F] in
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

abbrev iPts (d : Dev nD) : sProp 𝕄 := iLoc d ↦{fullShare} fI d
abbrev oPts (d : Dev nD) (f : Buf (Elt F) (oLoc d)) : sProp 𝕄 := oLoc d ↦{fullShare} f
/-- The 32 tiles' shares of the table together. -/
abbrev xToks (d : Dev nD) : sProp 𝕄 := bigSep Finset.univ fun w : Fin 32 => xShPts m d w

theorem st0_eq (d : Dev nD) : (bigSep Finset.univ fun c : Fin ((K (F := F)).nCore 0) => (P m fI).st 0 d c)
    = iprop(iPts fI d ∗ xToks m d ∗ oPts d (m (oLoc d))) := by
  show (bigSep Finset.univ fun c : Fin ((K (F := F)).nCore 0) => bigSep Finset.univ fun s : Fin 16 => tilePre m fI d (wid (Fin.cast nCore_zero c) s)) = _
  rw [bigSep_cores (F := F) (fun c => bigSep Finset.univ fun s : Fin 16 => tilePre m fI d (wid c s)), ← bigSep_wid (F := F) (fun w => tilePre m fI d w),
    bigSep_sep', bigSep_sep']
  unfold iPts oPts xToks
  rw [iPts_rows, oPts_rows]
theorem dn0_eq (d : Dev nD) : (bigSep Finset.univ fun c : Fin ((K (F := F)).nCore 0) => (P m fI).dn 0 d c)
    = iprop(iPts fI d ∗ xToks m d ∗ oPts d (gath m fI d)) := by
  show (bigSep Finset.univ fun c : Fin ((K (F := F)).nCore 0) => bigSep Finset.univ fun s : Fin 16 => tilePost m fI d (wid (Fin.cast nCore_zero c) s)) = _
  rw [bigSep_cores (F := F) (fun c => bigSep Finset.univ fun s : Fin 16 => tilePost m fI d (wid c s)), ← bigSep_wid (F := F) (fun w => tilePost m fI d w),
    bigSep_sep', bigSep_sep']
  unfold iPts oPts xToks
  rw [iPts_rows, oPts_rows]

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

local notation "sV" => (Memref.whole Cert.Kernel.cc0_scratch0 : Memref Cert.Kernel.sig Kind.scVector Space.vmem Cert.Kernel.S50x128 EltTy.i32)

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) iV (Memref.isWhole_whole _) oV (Memref.isWhole_whole _)
          sV (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _)
          cc0_scratch8 cc0_scratch9 cc0_scratch10 cc0_scratch11 cc0_scratch12 cc0_scratch13 cc0_scratch14
          cc0_scratch15 cc0_scratch16 cc0_scratch17 cc0_scratch18 cc0_scratch19 cc0_scratch20 cc0_scratch21 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : ∀ d j, (fI d j).toNat < 100000) : (K (F := F)).TileObl (D (F := F)) 𝒱 (P m fI) v₀ 0 := by
  intro d c i O W hO _ _
  simp only [show (P m fI).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (Cert.Kernel.TileBody.tile_body d (coordsV ⟨_, hci.1⟩ ⟨_, hci.2⟩) hF O W hO _ (fI d) (m (xLoc d)) (m (oLoc d)) (hI d)).trans (wp_mono frame _ _ fun _ => obl_post)

/-! ## The region's names over this certificate's algebra -/

/-- The pipeline's staging cells' ghost state on device `d`. -/
abbrev Gd (d : Dev nD) : sProp 𝕄 := Cert.Kernel.Region.Gd (EP (F := F)) d
/-- The region's result array as one function of its four operand arrays. -/
abbrev Out (x2 : (⟨S1024x200x128, .f32⟩ : BufTy).Contents (Elt F)) (x3 : (⟨S200x128, .f32⟩ : BufTy).Contents (Elt F))
    (x4 x5 : (⟨S1x128, .f32⟩ : BufTy).Contents (Elt F)) : (⟨S1024x200x128, .f32⟩ : BufTy).Contents (Elt F) :=
  Cert.Kernel.Region.Out (F := F) x2 x3 x4 x5
abbrev u₀P : UP := Cert.Kernel.Region.u₀P
theorem fund : BI.own (EP (F := F) u₀P) ⊢ iprop(|==> bigSep Finset.univ fun d : Dev nD => Gd (F := F) d) :=
  Cert.Kernel.Region.fund (EP (F := F))

/-! ## The launch element of the ghost state -/

def u₀ : UU := (initOf (K (F := F)).hsCells (K (F := F)).hsToks, ((u₀P : UP), (1 : Counters)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m fI).x q thr) := by
  unfold u₀
  iintro Hu
  ihave H := (ownU_pair (initOf (K (F := F)).hsCells (K (F := F)).hsToks) ((u₀P : UP), (1 : Counters))) $$ Hu
  icases H with ⟨HH, HR⟩
  ihave H2 := (own_pair_emb (embR : Emb (UP × Counters) 𝕄) (u₀P : UP) (1 : Counters)) $$ HR
  icases H2 with ⟨HP, -⟩
  imod (fund (F := F)) $$ HP with HG
  imodintro
  isplitl [HH]; · iexact HH
  isplitl [HG]; · iexact HG
  rw [show (bigSep Finset.univ fun thr : Thread nD τ => bigSep Finset.univ fun q : Fin 1 => (P (F := F) m fI).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

/-- The five host operations of @main. -/
abbrev op0 : HloOp τ sig (Elt F) := StableHlo.reshape main_arg0 main_v0 rfl Gen.shapeCasts_S1024x200_S32x50x128
abbrev op2 : HloOp τ sig (Elt F) := StableHlo.reshape main_v1 main_v2 rfl Gen.shapeCasts_S204800x128_S1024x200x128
abbrev op3 : HloOp τ sig (Elt F) := StableHlo.unary main_arg2 main_v3
  ((extractStridedSlice S200x128 ![0, 0] · Gen.slices_S512x128_S200x128_0_0) : (⟨S512x128, .f32⟩ : BufTy).Contents (Elt F) → (⟨S200x128, .f32⟩ : BufTy).Contents (Elt F))
abbrev op4 : HloOp τ sig (Elt F) := StableHlo.reshape main_arg3 main_v4 rfl Gen.shapeCasts_S128_S1x128
abbrev op5 : HloOp τ sig (Elt F) := StableHlo.reshape main_arg4 main_v5 rfl Gen.shapeCasts_S128_S1x128

/-- The TensorCore's twelve HBM arrays. -/
abbrev S12 : Finset (DevRef τ sig) := {a0', a1', a2', a3', a4', v0', v1', v2', v3', v4', v5', v6'}
/-- The call's three. -/
abbrev T3 : Finset (DevRef τ sig) := {v0', a1', v1'}
/-- The region's five. -/
abbrev T5 : Finset (DevRef τ sig) := {v2', v3', v4', v5', v6'}

abbrev pt (d : Dev nD) (W : Valuation τ sig (Elt F)) (b : DevRef τ sig) : sProp 𝕄 := ((d, b) : Loc nD τ sig) ↦{fullShare} W b

omit [FloatOps F] in
theorem held_S12 (d : Dev nD) (W : Valuation τ sig (Elt F)) :
    (held (T d) S12 W : sProp 𝕄) = iprop(pt d W a0' ∗ pt d W a1' ∗ pt d W a2' ∗ pt d W a3' ∗ pt d W a4' ∗ pt d W v0' ∗ pt d W v1'
      ∗ pt d W v2' ∗ pt d W v3' ∗ pt d W v4' ∗ pt d W v5' ∗ pt d W v6') := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1)
          ∗ ((SparseCore.T d).loc main_arg2 ↦{fullShare} W main_arg2) ∗ ((SparseCore.T d).loc main_arg3 ↦{fullShare} W main_arg3)
          ∗ ((SparseCore.T d).loc main_arg4 ↦{fullShare} W main_arg4) ∗ ((SparseCore.T d).loc main_v0 ↦{fullShare} W main_v0)
          ∗ ((SparseCore.T d).loc main_v1 ↦{fullShare} W main_v1) ∗ ((SparseCore.T d).loc main_v2 ↦{fullShare} W main_v2)
          ∗ ((SparseCore.T d).loc main_v3 ↦{fullShare} W main_v3) ∗ ((SparseCore.T d).loc main_v4 ↦{fullShare} W main_v4)
          ∗ ((SparseCore.T d).loc main_v5 ↦{fullShare} W main_v5) ∗ ((SparseCore.T d).loc main_v6 ↦{fullShare} W main_v6)) := by
  unfold unscopedBufs
  rw [show (Finset.univ.filter fun b : Ref sig .tc => ¬ b.isScoped)
      = {main_arg0, main_arg1, main_arg2, main_arg3, main_arg4, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S12 (V0 m d) := by
  rw [unscopedBufs_eq, held_S12]; rfl

/-! ### The valuations along @main -/

-- the index array at the call: the host reshape of the first argument
abbrev fIof (d : Dev nD) : Buf (Elt F) (iLoc d) :=
  fun i => shapeCast S32x50x128 (m ((SparseCore.T d).loc main_arg0)) Gen.shapeCasts_S1024x200_S32x50x128 i

/-- Before the call, after the call (the output at the gathered function), before the region. -/
def V1 (d : Dev nD) : Valuation τ sig (Elt F) := (op0 (F := F)).result (V0 m d)
def V2 (d : Dev nD) : Valuation τ sig (Elt F) := Function.update (V1 m d) v1' (gath m (fIof m) d)
def V3 (d : Dev nD) : Valuation τ sig (Elt F) :=
  (op5 (F := F)).result ((op4 (F := F)).result ((op3 (F := F)).result ((op2 (F := F)).result (V2 m d))))

theorem V1_v0 (d : Dev nD) : V1 m d v0' = fIof m d := by
  unfold V1 op0; exact StableHlo.reshape_result' _ _ _ _ _
theorem V1_of_ne (d : Dev nD) {r : Ref sig .tc} (h : r ≠ main_v0) : V1 m d (Proc.devRef .tc r) = m (d, Proc.devRef .tc r) := by
  unfold V1 op0; exact StableHlo.reshape_result_ne' _ _ _ _ _ h
theorem V2_v1 (d : Dev nD) : V2 m d v1' = gath m (fIof m) d := Function.update_self _ _ _
theorem V2_of_ne (d : Dev nD) {b : DevRef τ sig} (h : b ≠ v1') : V2 m d b = V1 m d b := Function.update_of_ne h _ _
theorem V3_of_ne (d : Dev nD) {r : Ref sig .tc} (h2 : r ≠ main_v2) (h3 : r ≠ main_v3) (h4 : r ≠ main_v4) (h5 : r ≠ main_v5) :
    V3 m d (Proc.devRef .tc r) = V2 m d (Proc.devRef .tc r) := by
  unfold V3 op5 op4 op3 op2
  rw [StableHlo.reshape_result_ne' _ _ _ _ _ h5, StableHlo.reshape_result_ne' _ _ _ _ _ h4, StableHlo.unary_result_ne' _ _ _ _ h3,
    StableHlo.reshape_result_ne' _ _ _ _ _ h2]
/-- An argument array is at its launch contents throughout. -/
theorem V3_arg (d : Dev nD) {r : Ref sig .tc} (h0 : r ≠ main_v0) (h1 : r ≠ main_v1) (h2 : r ≠ main_v2) (h3 : r ≠ main_v3) (h4 : r ≠ main_v4)
    (h5 : r ≠ main_v5) : V3 m d (Proc.devRef .tc r) = m (d, Proc.devRef .tc r) := by
  rw [V3_of_ne m d h2 h3 h4 h5, V2_of_ne m d (StableHlo.devRef_ne_of_ne h1), V1_of_ne m d h0]

/-- What the region's four operands hold. -/
abbrev X2 (d : Dev nD) : (⟨S1024x200x128, .f32⟩ : BufTy).Contents (Elt F) :=
  fun i => shapeCast S1024x200x128 (gath m (fIof m) d) Gen.shapeCasts_S204800x128_S1024x200x128 i
abbrev X3 (d : Dev nD) : (⟨S200x128, .f32⟩ : BufTy).Contents (Elt F) :=
  extractStridedSlice S200x128 ![0, 0] (m ((SparseCore.T d).loc main_arg2)) Gen.slices_S512x128_S200x128_0_0
abbrev X4 (d : Dev nD) : (⟨S1x128, .f32⟩ : BufTy).Contents (Elt F) :=
  fun i => shapeCast S1x128 (m ((SparseCore.T d).loc main_arg3)) Gen.shapeCasts_S128_S1x128 i
abbrev X5 (d : Dev nD) : (⟨S1x128, .f32⟩ : BufTy).Contents (Elt F) :=
  fun i => shapeCast S1x128 (m ((SparseCore.T d).loc main_arg4)) Gen.shapeCasts_S128_S1x128 i

theorem V3_v2 (d : Dev nD) : V3 m d v2' = X2 m d := by
  unfold V3 op5 op4 op3 op2
  rw [StableHlo.reshape_result_ne' _ _ _ _ _ (show main_v2 ≠ main_v5 by decide), StableHlo.reshape_result_ne' _ _ _ _ _ (show main_v2 ≠ main_v4 by decide),
    StableHlo.unary_result_ne' _ _ _ _ (show main_v2 ≠ main_v3 by decide), StableHlo.reshape_result' _ _ _ _ _, V2_v1]
  rfl
theorem V3_v3 (d : Dev nD) : V3 m d v3' = X3 m d := by
  unfold V3 op5 op4 op3
  rw [StableHlo.reshape_result_ne' _ _ _ _ _ (show main_v3 ≠ main_v5 by decide), StableHlo.reshape_result_ne' _ _ _ _ _ (show main_v3 ≠ main_v4 by decide),
    StableHlo.unary_result' _ _ _ _]
  unfold op2
  rw [StableHlo.reshape_result_ne' _ _ _ _ _ (show main_arg2 ≠ main_v2 by decide), V2_of_ne m d (by decide), V1_of_ne m d (by decide)]
theorem V3_v4 (d : Dev nD) : V3 m d v4' = X4 m d := by
  unfold V3 op5 op4
  rw [StableHlo.reshape_result_ne' _ _ _ _ _ (show main_v4 ≠ main_v5 by decide), StableHlo.reshape_result' _ _ _ _ _]
  unfold op3 op2
  rw [StableHlo.unary_result_ne' _ _ _ _ (show main_arg3 ≠ main_v3 by decide), StableHlo.reshape_result_ne' _ _ _ _ _ (show main_arg3 ≠ main_v2 by decide),
    V2_of_ne m d (by decide), V1_of_ne m d (by decide)]
  rfl
theorem V3_v5 (d : Dev nD) : V3 m d v5' = X5 m d := by
  unfold V3 op5
  rw [StableHlo.reshape_result' _ _ _ _ _]
  unfold op4 op3 op2
  rw [StableHlo.reshape_result_ne' _ _ _ _ _ (show main_arg4 ≠ main_v4 by decide), StableHlo.unary_result_ne' _ _ _ _ (show main_arg4 ≠ main_v3 by decide),
    StableHlo.reshape_result_ne' _ _ _ _ _ (show main_arg4 ≠ main_v2 by decide), V2_of_ne m d (by decide), V1_of_ne m d (by decide)]
  rfl

/-- The program's result array on device `d`. -/
abbrev OutV (d : Dev nD) : (⟨S1024x200x128, .f32⟩ : BufTy).Contents (Elt F) := Out (F := F) (X2 m d) (X3 m d) (X4 m d) (X5 m d)

/-! ### The arrays' contents at each stage, spelt out -/

abbrev S7 : Finset (DevRef τ sig) := {a0', a1', a2', a3', a4', v0', v1'}

omit [FloatOps F] in
theorem held_T5 (d : Dev nD) (W : Valuation τ sig (Elt F)) :
    (held (T d) T5 W : sProp 𝕄) = iprop(pt d W v2' ∗ pt d W v3' ∗ pt d W v4' ∗ pt d W v5' ∗ pt d W v6') := by
  unfold held T5
  rw [SparseCore.bigSep_insert' (by decide), SparseCore.bigSep_insert' (by decide), SparseCore.bigSep_insert' (by decide),
    SparseCore.bigSep_insert' (by decide), bigSep_singleton]
omit [FloatOps F] in
theorem held_S7 (d : Dev nD) (W : Valuation τ sig (Elt F)) :
    (held (T d) S7 W : sProp 𝕄) = iprop(pt d W a0' ∗ pt d W a1' ∗ pt d W a2' ∗ pt d W a3' ∗ pt d W a4' ∗ pt d W v0' ∗ pt d W v1') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev mpt (d : Dev nD) (b : DevRef τ sig) : sProp 𝕄 := ((d, b) : Loc nD τ sig) ↦{fullShare} m (d, b)

/-- After the first reshape: everything at its launch contents but the index array. -/
theorem held_V1 (d : Dev nD) :
    (held (T d) S12 ((op0 (F := F)).result (V0 m d)) : sProp 𝕄)
      = iprop(mpt m d a0' ∗ mpt m d a1' ∗ mpt m d a2' ∗ mpt m d a3' ∗ mpt m d a4' ∗ iPts (fIof m) d ∗ oPts d (m (oLoc d))
          ∗ mpt m d v2' ∗ mpt m d v3' ∗ mpt m d v4' ∗ mpt m d v5' ∗ mpt m d v6') := by
  show held (T d) S12 (V1 m d) = _
  rw [held_S12]; unfold pt
  rw [V1_v0, V1_of_ne m d (r := main_arg0) (by decide), V1_of_ne m d (r := main_arg1) (by decide), V1_of_ne m d (r := main_arg2) (by decide),
    V1_of_ne m d (r := main_arg3) (by decide), V1_of_ne m d (r := main_arg4) (by decide), V1_of_ne m d (r := main_v1) (by decide),
    V1_of_ne m d (r := main_v2) (by decide), V1_of_ne m d (r := main_v3) (by decide), V1_of_ne m d (r := main_v4) (by decide),
    V1_of_ne m d (r := main_v5) (by decide), V1_of_ne m d (r := main_v6) (by decide)]

/-- After the call: the output at the gathered function. -/
theorem held_V2 (d : Dev nD) :
    (held (T d) S12 (V2 m d) : sProp 𝕄)
      = iprop(mpt m d a0' ∗ mpt m d a1' ∗ mpt m d a2' ∗ mpt m d a3' ∗ mpt m d a4' ∗ iPts (fIof m) d ∗ oPts d (gath m (fIof m) d)
          ∗ mpt m d v2' ∗ mpt m d v3' ∗ mpt m d v4' ∗ mpt m d v5' ∗ mpt m d v6') := by
  rw [held_S12]; unfold pt
  rw [V2_v1, V2_of_ne m d (b := a0') (by decide), V2_of_ne m d (b := a1') (by decide), V2_of_ne m d (b := a2') (by decide),
    V2_of_ne m d (b := a3') (by decide), V2_of_ne m d (b := a4') (by decide), V2_of_ne m d (b := v0') (by decide),
    V2_of_ne m d (b := v2') (by decide), V2_of_ne m d (b := v3') (by decide), V2_of_ne m d (b := v4') (by decide),
    V2_of_ne m d (b := v5') (by decide), V2_of_ne m d (b := v6') (by decide),
    V1_v0, V1_of_ne m d (r := main_arg0) (by decide), V1_of_ne m d (r := main_arg1) (by decide), V1_of_ne m d (r := main_arg2) (by decide),
    V1_of_ne m d (r := main_arg3) (by decide), V1_of_ne m d (r := main_arg4) (by decide),
    V1_of_ne m d (r := main_v2) (by decide), V1_of_ne m d (r := main_v3) (by decide), V1_of_ne m d (r := main_v4) (by decide),
    V1_of_ne m d (r := main_v5) (by decide), V1_of_ne m d (r := main_v6) (by decide)]

/-- The arrays the region does not touch, at the end: the arguments at their launch contents. -/
theorem held_S7_V3 (d : Dev nD) :
    (held (T d) S7 (V3 m d) : sProp 𝕄)
      = iprop(mpt m d a0' ∗ mpt m d a1' ∗ mpt m d a2' ∗ mpt m d a3' ∗ mpt m d a4' ∗ pt d (V3 m d) v0' ∗ pt d (V3 m d) v1') := by
  rw [held_S7]; unfold pt
  rw [V3_arg m d (r := main_arg0) (by decide) (by decide) (by decide) (by decide) (by decide) (by decide),
    V3_arg m d (r := main_arg1) (by decide) (by decide) (by decide) (by decide) (by decide) (by decide),
    V3_arg m d (r := main_arg2) (by decide) (by decide) (by decide) (by decide) (by decide) (by decide),
    V3_arg m d (r := main_arg3) (by decide) (by decide) (by decide) (by decide) (by decide) (by decide),
    V3_arg m d (r := main_arg4) (by decide) (by decide) (by decide) (by decide) (by decide) (by decide)]

/-- The table's full share is the 32 tiles' shares and a remainder. -/
theorem xPts_split (d : Dev nD) :
    (mpt m d a1' : sProp 𝕄) ⊣⊢ iprop((xLoc d ↦{Transfers.shareDrop fullShare 32} m (xLoc d)) ∗ xToks m d) :=
  Transfers.pointsTo_toks (ℓ := xLoc d) (S := Finset.univ) (f := m (xLoc d)) fullShare 32

/-! ### @main -/

theorem h0S : (op0 (F := F)).bufs ⊆ S12 := show ({a0', v0'} : Finset (DevRef τ sig)) ⊆ S12 by decide
theorem h2S : (op2 (F := F)).bufs ⊆ S12 := show ({v1', v2'} : Finset (DevRef τ sig)) ⊆ S12 by decide
theorem h3S : (op3 (F := F)).bufs ⊆ S12 := show ({a2', v3'} : Finset (DevRef τ sig)) ⊆ S12 by decide
theorem h4S : (op4 (F := F)).bufs ⊆ S12 := show ({a3', v4'} : Finset (DevRef τ sig)) ⊆ S12 by decide
theorem h5S : (op5 (F := F)).bufs ⊆ S12 := show ({a4', v5'} : Finset (DevRef τ sig)) ⊆ S12 by decide

/-- What @main leaves the claim: the five arguments at their launch contents, the result at `OutV`. -/
abbrev FIN (d : Dev nD) : sProp 𝕄 :=
  iprop(mpt m d a0' ∗ mpt m d a1' ∗ mpt m d a2' ∗ mpt m d a3' ∗ mpt m d a4' ∗ (((d, v6') : Loc nD τ sig) ↦{fullShare} OutV m d))

/-- The region, from the TensorCore's state after the call: its recorded waits stay below the bound, the result array
    ends at `OutV`. -/
theorem region_step (κ : GSem nD τ sig → ℕ) (d : Dev nD) :
    iprop((K (F := F)).ctx EH (P m (fIof m)) κ ∗ (K (F := F)).tcSt EH d 1 ∗ boundary (T d) ∗ (held (T d) S12 (V3 m d) : sProp 𝕄) ∗ Gd (F := F) d)
      ⊢ wp frame (wpE ((K (F := F)).defs (D (F := F))) 𝒱 (SparseCore.T d) none) Set.univ
          (Prog.lift (.customCall (SparseCore.inner (Pipeline.entry 0)) ()))
          fun _ => iprop((K (F := F)).tcSt EH d 1 ∗ FIN m d) := by
  unfold SparseCore.Cfg.tcSt
  rw [(K (F := F)).Otc_end d (le_refl 1), held_sub_split (T d) (show T5 ⊆ S12 by decide) (V3 m d),
    show (S12 \ T5 : Finset (DevRef τ sig)) = S7 by decide, held_T5, held_S7_V3]
  have hPre : iprop(pt d (V3 m d) v2' ∗ pt d (V3 m d) v3' ∗ pt d (V3 m d) v4' ∗ pt d (V3 m d) v5' ∗ pt d (V3 m d) v6'
        ∗ Pipeline.owesWithin d 0 {p : SemLoc sig × HIx 1 | (K (F := F)).lev (T d, p.1) p.2 ≤ 8})
      ⊢ (Cert.Kernel.Region.Pre (fun c b => V3 m c (Proc.devRef .tc b)) (fun c => {p : SemLoc sig × HIx 1 | (K (F := F)).lev (T c, p.1) p.2 ≤ 8}) d : sProp 𝕄) :=
    Entails.of_eq rfl
  have hPost : (Cert.Kernel.Region.Post (fun c b => V3 m c (Proc.devRef .tc b)) (fun c => {p : SemLoc sig × HIx 1 | (K (F := F)).lev (T c, p.1) p.2 ≤ 8}) d : sProp 𝕄)
      ⊢ iprop(pt d (V3 m d) v2' ∗ pt d (V3 m d) v3' ∗ pt d (V3 m d) v4' ∗ pt d (V3 m d) v5'
        ∗ (((d, v6') : Loc nD τ sig) ↦{fullShare} Out (F := F) (V3 m d v2') (V3 m d v3') (V3 m d v4') (V3 m d v5'))
        ∗ Pipeline.owesWithin d 0 ({p : SemLoc sig × HIx 1 | (K (F := F)).lev (T d, p.1) p.2 ≤ 8} ∪ cfg1.waitPairs none)) :=
    Entails.of_eq rfl
  iintro ⟨#Hctx, ⟨⟨%W, %hW, HO⟩, Hrest⟩, Hb, ⟨⟨H2, H3, H4, H5, H6⟩, ⟨Ha0, Ha1, Ha2, Ha3, Ha4, -, -⟩⟩, HG⟩
  ihave Hlev := ((K (F := F)).ctx_levAts κ) $$ Hctx
  iapply (wp_wand frame _ _) $$ [Hb H2 H3 H4 H5 H6 HO HG Hlev]
  · iapply (Cert.Kernel.Region.region_run (F := F) (fun c b => V3 m c (Proc.devRef .tc b))
      (fun c => {p : SemLoc sig × HIx 1 | (K (F := F)).lev (T c, p.1) p.2 ≤ 8}) 𝒱₀ (K (F := F)).L (K (F := F)).lev (EP (F := F)) d)
    isplitl [Hb]; · iexact Hb
    isplitl [H2 H3 H4 H5 H6 HO]
    · iapply hPre
      isplitl [H2]; · iexact H2
      isplitl [H3]; · iexact H3
      isplitl [H4]; · iexact H4
      isplitl [H5]; · iexact H5
      isplitl [H6]; · iexact H6
      iexists W; isplitr
      · ipureintro; exact fun p hp => hW p hp
      · iexact HO
    isplitl [Hlev]; · iexact Hlev
    iexact HG
  iintro %_ ⟨-, Hpost⟩
  ihave Hp := hPost $$ Hpost
  icases Hp with ⟨-, -, -, -, H6, ⟨%W', %hW', HO⟩⟩
  isplitl [HO Hrest]
  · isplitl [HO]
    · iexists W'; isplitr
      · ipureintro; intro p hp
        rcases hW' hp with h | ⟨w, s, rfl⟩
        · exact h
        · show (K (F := F)).lev _ none ≤ 8; rw [SparseCore.Cfg.lev_none]; exact Nat.zero_le _
      · iexact HO
    · iexact Hrest
  isplitl [Ha0]; · iexact Ha0
  isplitl [Ha1]; · iexact Ha1
  isplitl [Ha2]; · iexact Ha2
  isplitl [Ha3]; · iexact Ha3
  isplitl [Ha4]; · iexact Ha4
  iapply (Entails.of_eq (show ((((d, v6') : Loc nD τ sig) ↦{fullShare} Out (F := F) (V3 m d v2') (V3 m d v3') (V3 m d v4') (V3 m d v5')) : sProp 𝕄)
      = (((d, v6') : Loc nD τ sig) ↦{fullShare} OutV m d) by rw [V3_v2, V3_v3, V3_v4, V3_v5]))
  iexact H6

/-- @main on device `d`'s TensorCore: the index array's reshape, the call, the four host operations, the region. -/
theorem hmain (κ : GSem nD τ sig → ℕ) (d : Dev nD) :
    iprop((K (F := F)).ctx EH (P m (fIof m)) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the index array's reshape
  iapply (wp_hlo_within 𝒱 (SparseCore.T d) none Set.univ (op := op0) (S := S12) h0S (V := V0 m d)) $$ [Hb Hheld]
  · isplitl [Hb] <;> iassumption
  iintro ⟨Hb, Hheld⟩
  rw [wp_ret]; imodintro
  -- the call: the index array, the table in 32 shares, the output, to the two SparseCores and back
  ihave Hh := (Entails.of_eq (held_V1 (F := F) m d)) $$ Hheld
  icases Hh with ⟨Ha0, Ha1, Ha2, Ha3, Ha4, Hi, Ho, H2, H3, H4, H5, H6⟩
  ihave Hx := (xPts_split (F := F) m d).1 $$ Ha1
  icases Hx with ⟨Hxr, Hxt⟩
  iapply ((K (F := F)).wp_run (D (F := F)) 𝒱 (EH := EH) (P := P m (fIof m)) κ d 0) $$ [Hst Hi Hxt Ho Hb Ha0 Ha2 Ha3 Ha4 Hxr H2 H3 H4 H5 H6 HG]
  isplitr; · iexact Hctx
  isplitl [Hst]; · iexact Hst
  isplitl [Hi Hxt Ho]
  · rw [st0_eq]
    isplitl [Hi]; · iexact Hi
    isplitl [Hxt]; · iexact Hxt
    iexact Ho
  iintro ⟨Hst, Hdn⟩
  ihave Hdn' := (Entails.of_eq (dn0_eq m (fIof m) d)) $$ Hdn
  icases Hdn' with ⟨Hi, Hxt, Ho⟩
  ihave Ha1 := (xPts_split (F := F) m d).2 $$ [Hxr Hxt]
  · isplitl [Hxr] <;> iassumption
  ihave Hheld := (Entails.of_eq (held_V2 (F := F) m d).symm) $$ [Ha0 Ha1 Ha2 Ha3 Ha4 Hi Ho H2 H3 H4 H5 H6]
  · isplitl [Ha0]; · iexact Ha0
    isplitl [Ha1]; · iexact Ha1
    isplitl [Ha2]; · iexact Ha2
    isplitl [Ha3]; · iexact Ha3
    isplitl [Ha4]; · iexact Ha4
    isplitl [Hi]; · iexact Hi
    isplitl [Ho]; · iexact Ho
    isplitl [H2]; · iexact H2
    isplitl [H3]; · iexact H3
    isplitl [H4]; · iexact H4
    isplitl [H5]; · iexact H5
    iexact H6
  -- the four host operations before the region
  iapply (wp_hlo_within 𝒱 (SparseCore.T d) none Set.univ (op := op2) (S := S12) h2S (V := V2 m d)) $$ [Hb Hheld]
  · isplitl [Hb] <;> iassumption
  iintro ⟨Hb, Hheld⟩
  rw [wp_ret]; imodintro
  iapply (wp_hlo_within 𝒱 (SparseCore.T d) none Set.univ (op := op3) (S := S12) h3S (V := (op2 (F := F)).result (V2 m d))) $$ [Hb Hheld]
  · isplitl [Hb] <;> iassumption
  iintro ⟨Hb, Hheld⟩
  rw [wp_ret]; imodintro
  iapply (wp_hlo_within 𝒱 (SparseCore.T d) none Set.univ (op := op4) (S := S12) h4S (V := (op3 (F := F)).result ((op2 (F := F)).result (V2 m d)))) $$ [Hb Hheld]
  · isplitl [Hb] <;> iassumption
  iintro ⟨Hb, Hheld⟩
  rw [wp_ret]; imodintro
  iapply (wp_hlo_within 𝒱 (SparseCore.T d) none Set.univ (op := op5) (S := S12) h5S
    (V := (op4 (F := F)).result ((op3 (F := F)).result ((op2 (F := F)).result (V2 m d))))) $$ [Hb Hheld]
  · isplitl [Hb] <;> iassumption
  iintro ⟨Hb, Hheld⟩
  rw [wp_ret]; imodintro
  -- the region
  iapply (wp_wand frame _ _) $$ [Hst Hb Hheld HG]
  · iapply (region_step (F := F) m κ d)
    isplitr; · iexact Hctx
    isplitl [Hst]; · iexact Hst
    isplitl [Hb]; · iexact Hb
    isplitl [Hheld]; · iexact Hheld
    iexact HG
  iintro %_ H
  imodintro
  iexact H

/-! ## The final memory reads the claim -/

def fq (d : Dev nD) (s' : Phys nD τ sig (Elt F)) : Prop :=
  s'.mem.mem ((d, v6') : Loc nD τ sig) = OutV m d
    ∧ s'.mem.mem ((d, a0') : Loc nD τ sig) = m (d, a0') ∧ s'.mem.mem ((d, a1') : Loc nD τ sig) = m (d, a1')
    ∧ s'.mem.mem ((d, a2') : Loc nD τ sig) = m (d, a2') ∧ s'.mem.mem ((d, a3') : Loc nD τ sig) = m (d, a3')
    ∧ s'.mem.mem ((d, a4') : Loc nD τ sig) = m (d, a4')

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H6⟩, HSI⟩
  ihave H := (persistent_entails_right (SI_pointsTo_agree (st := s') (ℓ := ((d, a0') : Loc nD τ sig)) (I := Finset.univ) (q := fullShare) (f := m (d, a0')))) $$ [HSI H0]
  · isplitl [HSI] <;> iassumption
  icases H with ⟨%h0, HSI, -⟩
  ihave H := (persistent_entails_right (SI_pointsTo_agree (st := s') (ℓ := ((d, a1') : Loc nD τ sig)) (I := Finset.univ) (q := fullShare) (f := m (d, a1')))) $$ [HSI H1]
  · isplitl [HSI] <;> iassumption
  icases H with ⟨%h1, HSI, -⟩
  ihave H := (persistent_entails_right (SI_pointsTo_agree (st := s') (ℓ := ((d, a2') : Loc nD τ sig)) (I := Finset.univ) (q := fullShare) (f := m (d, a2')))) $$ [HSI H2]
  · isplitl [HSI] <;> iassumption
  icases H with ⟨%h2, HSI, -⟩
  ihave H := (persistent_entails_right (SI_pointsTo_agree (st := s') (ℓ := ((d, a3') : Loc nD τ sig)) (I := Finset.univ) (q := fullShare) (f := m (d, a3')))) $$ [HSI H3]
  · isplitl [HSI] <;> iassumption
  icases H with ⟨%h3, HSI, -⟩
  ihave H := (persistent_entails_right (SI_pointsTo_agree (st := s') (ℓ := ((d, a4') : Loc nD τ sig)) (I := Finset.univ) (q := fullShare) (f := m (d, a4')))) $$ [HSI H4]
  · isplitl [HSI] <;> iassumption
  icases H with ⟨%h4, HSI, -⟩
  ihave H := (SI_pointsTo_agree (st := s') (ℓ := ((d, v6') : Loc nD τ sig)) (I := Finset.univ) (q := fullShare) (f := OutV m d)) $$ [HSI H6]
  · isplitl [HSI] <;> iassumption
  icases H with %h6
  ipureintro
  exact ⟨funext fun i => h6 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

/-! ## The program's run -/

/-- Every device ends with its result array at `OutV` and its five arguments unchanged. -/
def QC : PUnit × MemSt nD τ sig (Elt F) → Prop := fun r => ∀ c : Dev nD,
  r.2.mem ((c.tc : Thread nD τ).loc main_v6) = OutV m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- Every weakly fair execution of the whole family of threads terminates, nothing faulting, with the result array at
    `OutV` and the arguments unchanged — provided every index word names a table row. -/
theorem run_main [∀ e, Nonempty (Elt F e)] (hI : ∀ d j, (fIof m d j).toNat < 100000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (fIof m)) facts v₀
    (fun q hq => match q with | 0 => nomatch hq)
    (fun q _ => match q with | 0 => tileObl m (fIof m) facts hI)
    (fun q _ => match q with | 0 => SparseCore.Cfg.VecSplit.of_plain (vecSplit m (fIof m)))
    m ρ main (fun d => Gd (F := F) d) (FIN m) (u₀ (F := F)) (sep_elim_left.trans (hu₀ m (fIof m))) (hmain m ρ) (fq m) (hfin m) (QC m) (fun _ h => h)

end Cert.Kernel.Launch

end
-- ==== Proof.HostValueBits.lean ====
/-
  The kernel program's host operations, read at an index.

  @main reshapes the 1024 x 200 index array to 32 x 50 x 128 before the gather and the gathered 204800 x 128 rows
  to 1024 x 200 x 128 after it, takes the first 200 rows of the position table, and views the two 128-vectors as
  1 x 128. A reshape keeps row-major order: place (b, l) of the index array is flat position b * 200 + l, which is
  place (n / 6400, n / 128 % 50, n % 128) of the 32 x 50 x 128 array and row n of the gathered rows; so element
  (b, l, e) of the reshaped rows is the table's row named by the word at (b, l), feature e. The slice reads row l of
  the position table at row l, and the 1 x 128 view reads feature e at (0, e).
-/
import proofs.«206768_g17686675325131_cont_8to1_990_33_alg».proof.Proof.Gen.Kernel
import proofs.«206768_g17686675325131_cont_8to1_990_33_alg».proof.Proof.Spec
import proofs.«206768_g17686675325131_cont_8to1_990_33_alg».proof.Proof.GatherSpecBits
import Idealize.ShloMosaic.Lib.ValueIdx
import Idealize.ShloMosaic.Lib.Pipeline.Value
import Idealize.ShloMosaic.Lib.ValueLayout

noncomputable section

namespace Cert.Kernel.HostValue

open Cert.Kernel Cert.Kernel.GatherSpec Idealize.ShloMosaic Idealize.ShloMosaic.ValueIdx

variable {F : FTy → Type}

/-- Place (b, l) of the 1024 x 200 index array as a row of the 204800 gathered rows: its row-major position. -/
def rowNo (b : Fin 1024) (l : Fin 200) : Fin 204800 :=
  ⟨b.val * 200 + l.val, by have := b.isLt; have := l.isLt; omega⟩

theorem rowNo_val (b : Fin 1024) (l : Fin 200) : (rowNo b l).val = b.val * 200 + l.val := rfl

/-- Every word of the reshaped index array is a word of the index array. -/
theorem fI_mem (ids : (⟨S1024x200, .i32⟩ : BufTy).Contents (Elt F)) (h : S1024x200.ShapeCasts S32x50x128)
    (j : S32x50x128.Idx) : ∃ i, shapeCast S32x50x128 ids h j = ids i :=
  ⟨Shape.reshapeEquiv h j, rfl⟩

/-- The reshaped index array at the place gathered row `rowNo b l` reads through is the index array at (b, l):
    both are flat position b * 200 + l. -/
theorem fI_idxOf (ids : (⟨S1024x200, .i32⟩ : BufTy).Contents (Elt F)) (h : S1024x200.ShapeCasts S32x50x128)
    (b : Fin 1024) (l : Fin 200) :
    shapeCast S32x50x128 ids h (idxOf (rowNo b l)) = ids (ix2 b l) := by
  refine shapeCast_apply ids h _ (ix2 b l) ?_
  rw [Shape.rowMajor_val_two, Shape.rowMajor_val_three]
  show b.val * 200 + l.val
      = ((b.val * 200 + l.val) / 6400 * 50 + (b.val * 200 + l.val) / 128 % 50) * 128 + (b.val * 200 + l.val) % 128
  omega

/-- The gathered rows reshaped to 1024 x 200 x 128, at (b, l, e): the table's row named by the word at (b, l),
    feature e. -/
theorem X2_apply (ids : (⟨S1024x200, .i32⟩ : BufTy).Contents (Elt F)) (W : (⟨S100000x128, .f32⟩ : BufTy).Contents (Elt F))
    (h1 : S1024x200.ShapeCasts S32x50x128) (h2 : S204800x128.ShapeCasts S1024x200x128)
    (b : Fin 1024) (l : Fin 200) (e : Fin 128) :
    shapeCast S1024x200x128 (Gath (shapeCast S32x50x128 ids h1) W) h2 (ix3 b l e)
      = W (ix2 (Cert.Spec.rowOf (ids (ix2 b l))) e) := by
  refine (shapeCast_apply _ h2 (ix3 b l e) (ix2 (rowNo b l) e) ?_).trans ?_
  · rw [Shape.rowMajor_val_two, Shape.rowMajor_val_three]
    show (b.val * 200 + l.val) * 128 + e.val = (b.val * 200 + l.val) * 128 + e.val
    rfl
  · rw [Gath_apply, fI_idxOf]

/-- The first 200 rows of the position table, at (l, e): the table at row l, feature e. -/
theorem X3_apply (pos : (⟨S512x128, .f32⟩ : BufTy).Contents (Elt F)) (h : S512x128.Slices ![0, 0] S200x128)
    (l : Fin 200) (e : Fin 128) :
    extractStridedSlice S200x128 ![0, 0] pos h (ix2 l e) = pos (ix2 (Cert.Spec.posRow l) e) := by
  refine extractStridedSlice_apply _ pos h (ix2 l e) (ix2 (Cert.Spec.posRow l) e) fun a => ?_
  match a with
  | ⟨0, _⟩ => show l.val = 0 + l.val; omega
  | ⟨1, _⟩ => show e.val = 0 + e.val; omega

/-- A 128-vector viewed as 1 x 128, at (0, e): the vector at e. -/
theorem X4_apply (g : (⟨S128, .f32⟩ : BufTy).Contents (Elt F)) (h : S128.ShapeCasts S1x128) (e : Fin 128) :
    shapeCast S1x128 g h (ix2 (0 : Fin 1) e) = g (ix1 e) := by
  refine shapeCast_apply g h _ (ix1 e) ?_
  rw [Shape.rowMajor_val_one, Shape.rowMajor_val_two]
  show e.val = 0 * 128 + e.val
  omega

end Cert.Kernel.HostValue

end
-- ==== Proof.FrameOfBits.lean ====
/-
  The kernel program's frame, at any float instance: its run with the value dropped. The run asks that every word of
  the reshaped index array name a table row; the precondition says so of the argument's words, and the reshape only
  moves words.
-/
import proofs.«206768_g17686675325131_cont_8to1_990_33_alg».proof.Defs
import proofs.«206768_g17686675325131_cont_8to1_990_33_alg».proof.Proof.Gen.Kernel
import proofs.«206768_g17686675325131_cont_8to1_990_33_alg».proof.Proof.Gen.Pre_input_domain
import proofs.«206768_g17686675325131_cont_8to1_990_33_alg».proof.Proof.LaunchBits
import proofs.«206768_g17686675325131_cont_8to1_990_33_alg».proof.Proof.HostValueBits
import proofs.«206768_g17686675325131_cont_8to1_990_33_alg».proof.Proof.PreFacts

noncomputable section

namespace Cert.Kernel.FrameOf

open Idealize.ShloMosaic Idealize.SL.Sem Cert.Kernel Cert.Kernel.Launch

variable {F : FTy → Type} [FloatOps F]

/-- Under the precondition every word of the reshaped index array names a table row. -/
theorem hI_of_pre (m : (ℓ : Loc nD τ sig) → Buf (Elt F) ℓ)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1)) :
    ∀ d j, (fIof m d j).toNat < 100000 := by
  intro d j
  obtain ⟨i, hi⟩ := Cert.Kernel.HostValue.fI_mem (F := F) (m ((SparseCore.T d).loc main_arg0)) Gen.shapeCasts_S1024x200_S32x50x128 j
  show (shapeCast S32x50x128 (m ((SparseCore.T d).loc main_arg0)) Gen.shapeCasts_S1024x200_S32x50x128 j).toNat < 100000
  rw [hi]
  exact Cert.PreFacts.ids_lt _ _ _ _ _ (hpre d) i

/-- The run with its value, under the precondition. -/
theorem run_of_pre [∀ e, Nonempty (Elt F e)] (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1)) :
    θ_run (Cert.Kernel.defs (F := F)) (Cert.Kernel.threads (F := F)) ⟨m, fun _ => 0, ρ⟩ (QC m) :=
  run_main (F := F) m ρ (hI_of_pre m hpre)

/-- The frame: every weakly fair execution terminates, nothing faulting, the five arguments unchanged. -/
theorem frame_run [∀ e, Nonempty (Elt F e)] (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1)) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.Kernel.defs (F := F)) _ _).mono (fun _ h c => (h c).2) (run_of_pre m ρ hpre)

end Cert.Kernel.FrameOf

end
-- ==== Proof.LnPay.lean ====
/-
  The normalising kernel's stored value, read at an index.

  The body adds a block of 64 x 200 gathered rows to the 200 position rows (the same 200 for every one of the 64),
  and normalises each row of 128 features: the row's sum (from the zero word) over the word of 128 is its mean; the
  mean is subtracted; the sum of the squares of the centred features over the word of 128, plus the offset word, goes
  through the reciprocal square root; the centred feature times that, times the scale's feature, plus the shift's
  feature, is stored. Every layout operation of the body reads its operand at the coordinates it keeps: a cast to
  the same shape is the identity, a cast that adds unit axes keeps the other coordinates, a broadcast along an axis
  forgets that coordinate. So at (bb, l, e) the stored value is the formula below in the row's 128 sums of the two
  operands.
-/
import proofs.«206768_g17686675325131_cont_8to1_990_33_alg».proof.Proof.Gen.KernelIdeal.Skeleton
import proofs.«206768_g17686675325131_cont_8to1_990_33_alg».proof.Proof.Spec
import Idealize.ShloMosaic.PureOps.Ideal.Laws
import Idealize.ShloMosaic.Lib.Pipeline.Value
import Idealize.ShloMosaic.Lib.ValueLayout
import Idealize.ShloMosaic.Lib.ValueIdx

noncomputable section

open scoped BigOperators

namespace Cert.KernelIdeal.LnPay

open Cert.KernelIdeal Idealize.ShloMosaic Idealize.ShloMosaic.ValueIdx

/-! ## The layout operations of the body, each read at an index -/

section Layout
variable {α : Type}

/-- 200 rows broadcast over 64 blocks: block `bb` reads the one copy. -/
theorem lead_apply (v : S1x200x128.Idx → α) (h : S1x200x128.Broadcasts S64x200x128) (bb : Fin 64) (l : Fin 200) (e : Fin 128) :
    broadcastTo S64x200x128 v h (ix3 bb l e) = v (ix3 (0 : Fin 1) l e) := by
  refine broadcastTo_apply v h (ix3 bb l e) (ix3 (0 : Fin 1) l e) fun a => ?_
  match a with
  | ⟨0, _⟩ => show (0 : Nat) = if (1 : Nat) = 1 then 0 else bb.val; rw [if_pos rfl]
  | ⟨1, _⟩ => show l.val = if (200 : Nat) = 1 then 0 else l.val; rw [if_neg (by decide)]
  | ⟨2, _⟩ => show e.val = if (128 : Nat) = 1 then 0 else e.val; rw [if_neg (by decide)]

/-- A per-row value broadcast over the 128 features: feature `e` reads the row's value. -/
theorem col_apply (v : S64x200x1.Idx → α) (h : S64x200x1.Broadcasts S64x200x128) (bb : Fin 64) (l : Fin 200) (e : Fin 128) :
    broadcastTo S64x200x128 v h (ix3 bb l e) = v (ix3 bb l (0 : Fin 1)) := by
  refine broadcastTo_apply v h (ix3 bb l e) (ix3 bb l (0 : Fin 1)) fun a => ?_
  match a with
  | ⟨0, _⟩ => show bb.val = if (64 : Nat) = 1 then 0 else bb.val; rw [if_neg (by decide)]
  | ⟨1, _⟩ => show l.val = if (200 : Nat) = 1 then 0 else l.val; rw [if_neg (by decide)]
  | ⟨2, _⟩ => show (0 : Nat) = if (1 : Nat) = 1 then 0 else e.val; rw [if_pos rfl]

/-- A per-feature vector broadcast over all rows: row (bb, l) reads the vector. -/
theorem vec_apply (v : S1x1x128.Idx → α) (h : S1x1x128.Broadcasts S64x200x128) (bb : Fin 64) (l : Fin 200) (e : Fin 128) :
    broadcastTo S64x200x128 v h (ix3 bb l e) = v (ix3 (0 : Fin 1) (0 : Fin 1) e) := by
  refine broadcastTo_apply v h (ix3 bb l e) (ix3 (0 : Fin 1) (0 : Fin 1) e) fun a => ?_
  match a with
  | ⟨0, _⟩ => show (0 : Nat) = if (1 : Nat) = 1 then 0 else bb.val; rw [if_pos rfl]
  | ⟨1, _⟩ => show (0 : Nat) = if (1 : Nat) = 1 then 0 else l.val; rw [if_pos rfl]
  | ⟨2, _⟩ => show e.val = if (128 : Nat) = 1 then 0 else e.val; rw [if_neg (by decide)]

/-- A per-row value given a trailing unit axis reads the row's value. -/
theorem keep_apply (v : S64x200.Idx → α) (h : S64x200.ShapeCasts S64x200x1) (bb : Fin 64) (l : Fin 200) (u : Fin 1) :
    shapeCast S64x200x1 v h (ix3 bb l u) = v (ix2 bb l) := by
  refine shapeCast_apply v h _ (ix2 bb l) ?_
  have hu : u.val = 0 := by omega
  rw [Shape.rowMajor_val_two, Shape.rowMajor_val_three]
  show bb.val * 200 + l.val = (bb.val * 200 + l.val) * 1 + u.val
  omega

/-- A 128-vector given two leading unit axes reads the vector. -/
theorem vec3_apply (v : S128.Idx → α) (h : S128.ShapeCasts S1x1x128) (u u' : Fin 1) (e : Fin 128) :
    shapeCast S1x1x128 v h (ix3 u u' e) = v (ix1 e) := by
  refine shapeCast_apply v h _ (ix1 e) ?_
  have hu : u.val = 0 := by omega
  have hu' : u'.val = 0 := by omega
  rw [Shape.rowMajor_val_one, Shape.rowMajor_val_three]
  show e.val = (u.val * 1 + u'.val) * 128 + e.val
  omega

end Layout

/-- The sum over the features of row (bb, l), from the zero word. -/
theorem sum_apply (v : FVec Ideal S64x200x128 .f32) (h : S64x200x128.Reduces [2] S64x200)
    (hacc : (0x00000000#32 : BitVec 32) = 0x00000000#32) (bb : Fin 64) (l : Fin 200) :
    multiReduction .add [2] S64x200 v 0x00000000#32 h (.inl rfl) hacc (ix2 bb l) = ∑ k : Fin 128, v (ix3 bb l k) := by
  refine (Ideal.multiReduction_add_single v _ h (.inl rfl) hacc (ix2 bb l)).trans ?_
  refine Finset.sum_congr rfl fun k _ => congrArg v (funext fun a => Fin.ext ?_)
  match a with
  | ⟨0, _⟩ => rfl
  | ⟨1, _⟩ => rfl
  | ⟨2, _⟩ => rfl

/-! ## The body's stages as functions of its operands -/

/-- The gathered rows plus the position rows. -/
def ySum (x0 : Vec Ideal S64x200x128 .f32) (x2 : Vec Ideal S200x128 .f32) : FVec Ideal S64x200x128 .f32 :=
  addf (shapeCast S64x200x128 x0 Gen.shapeCasts_S64x200x128_S64x200x128)
    (broadcastTo S64x200x128 (shapeCast S1x200x128 (shapeCast S200x128 x2 Gen.shapeCasts_S200x128_S200x128)
      Gen.shapeCasts_S200x128_S1x200x128) Gen.broadcasts_S1x200x128_S64x200x128)

/-- A per-row sum over the word of 128, with a trailing unit axis. -/
def meanOf (v : FVec Ideal S64x200x128 .f32) : FVec Ideal S64x200x1 .f32 :=
  divf (shapeCast S64x200x1 (multiReduction .add [2] S64x200 v 0x00000000#32 Gen.reduces_S64x200x128_S64x200 (.inl rfl) rfl)
      Gen.shapeCasts_S64x200_S64x200x1)
    (broadcast S64x200x1 (Scalar.ofBits (F := Ideal) .f32 0x43000000#32))

/-- The features less their row's mean. -/
def cenOf (v : FVec Ideal S64x200x128 .f32) : FVec Ideal S64x200x128 .f32 :=
  subf v (broadcastTo S64x200x128 (meanOf v) Gen.broadcasts_S64x200x1_S64x200x128)

/-- The reciprocal square root of the mean square of the centred features plus the offset. -/
def rsOf (v : FVec Ideal S64x200x128 .f32) : FVec Ideal S64x200x1 .f32 :=
  rsqrt (addf (meanOf (mulf (cenOf v) (cenOf v))) (broadcast S64x200x1 (Scalar.ofBits (F := Ideal) .f32 0x2B8CBCCC#32)))

/-- A 1 x 128 operand at every row. -/
def vecOf (g : Vec Ideal S1x128 .f32) : FVec Ideal S64x200x128 .f32 :=
  broadcastTo S64x200x128 (shapeCast S1x1x128 (shapeCast S128 g Gen.shapeCasts_S1x128_S128) Gen.shapeCasts_S128_S1x1x128)
    Gen.broadcasts_S1x1x128_S64x200x128

/-- The stored value is these stages composed: the body's lines, substituted. -/
theorem pay_eq (x0 : Vec Ideal S64x200x128 .f32) (x2 : Vec Ideal S200x128 .f32) (x23 x28 : Vec Ideal S1x128 .f32) :
    Gen.k1_pay1 (F := Ideal) x0 x2 x23 x28
      = addf (mulf (mulf (cenOf (ySum x0 x2)) (broadcastTo S64x200x128 (rsOf (ySum x0 x2)) Gen.broadcasts_S64x200x1_S64x200x128))
          (vecOf x23)) (vecOf x28) := rfl

/-! ## The stages at an index -/

/-- Feature k of row (bb, l) of the sum of the two operands. -/
def yv (x0 : Vec Ideal S64x200x128 .f32) (x2 : Vec Ideal S200x128 .f32) (bb : Fin 64) (l : Fin 200) (k : Fin 128) : EReal :=
  x0 (ix3 bb l k) + x2 (ix2 l k)

/-- The mean of row (bb, l). -/
def mu (x0 : Vec Ideal S64x200x128 .f32) (x2 : Vec Ideal S200x128 .f32) (bb : Fin 64) (l : Fin 200) : EReal :=
  Ideal.div (∑ k : Fin 128, yv x0 x2 bb l k) Cert.Spec.c128

/-- The mean square of row (bb, l)'s centred features. -/
def va (x0 : Vec Ideal S64x200x128 .f32) (x2 : Vec Ideal S200x128 .f32) (bb : Fin 64) (l : Fin 200) : EReal :=
  Ideal.div (∑ k : Fin 128, (yv x0 x2 bb l k - mu x0 x2 bb l) * (yv x0 x2 bb l k - mu x0 x2 bb l)) Cert.Spec.c128

theorem ySum_apply (x0 : Vec Ideal S64x200x128 .f32) (x2 : Vec Ideal S200x128 .f32) (bb : Fin 64) (l : Fin 200) (k : Fin 128) :
    ySum x0 x2 (ix3 bb l k) = yv x0 x2 bb l k := by
  unfold ySum yv
  rw [addf_apply, shapeCast_self, lead_apply, shapeCast_ab_1ab_apply, shapeCast_self]

theorem meanOf_apply (v : FVec Ideal S64x200x128 .f32) (bb : Fin 64) (l : Fin 200) (u : Fin 1) :
    meanOf v (ix3 bb l u) = Ideal.div (∑ k : Fin 128, v (ix3 bb l k)) Cert.Spec.c128 := by
  unfold meanOf
  rw [divf_apply, keep_apply]
  exact congrArg (fun s => Ideal.div s Cert.Spec.c128) (sum_apply v _ _ bb l)

theorem cenOf_apply (v : FVec Ideal S64x200x128 .f32) (bb : Fin 64) (l : Fin 200) (e : Fin 128) :
    cenOf v (ix3 bb l e) = v (ix3 bb l e) - Ideal.div (∑ k : Fin 128, v (ix3 bb l k)) Cert.Spec.c128 := by
  unfold cenOf
  rw [subf_apply, col_apply, meanOf_apply]

theorem rsOf_apply (v : FVec Ideal S64x200x128 .f32) (bb : Fin 64) (l : Fin 200) (u : Fin 1) :
    rsOf v (ix3 bb l u)
      = Ideal.rsqrt (Ideal.div (∑ k : Fin 128, (v (ix3 bb l k) - Ideal.div (∑ k' : Fin 128, v (ix3 bb l k')) Cert.Spec.c128)
          * (v (ix3 bb l k) - Ideal.div (∑ k' : Fin 128, v (ix3 bb l k')) Cert.Spec.c128)) Cert.Spec.c128 + Cert.Spec.cEps) := by
  unfold rsOf
  show Ideal.rsqrt (addf (meanOf (mulf (cenOf v) (cenOf v))) (broadcast S64x200x1 (Scalar.ofBits (F := Ideal) .f32 0x2B8CBCCC#32)) (ix3 bb l u)) = _
  rw [addf_apply, meanOf_apply]
  refine congrArg (fun s => Ideal.rsqrt (Ideal.div s Cert.Spec.c128 + _)) (Finset.sum_congr rfl fun k _ => ?_)
  rw [mulf_apply, cenOf_apply]

theorem vecOf_apply (g : Vec Ideal S1x128 .f32) (bb : Fin 64) (l : Fin 200) (e : Fin 128) :
    vecOf g (ix3 bb l e) = g (ix2 (0 : Fin 1) e) := by
  unfold vecOf
  rw [vec_apply, vec3_apply, shapeCast_1a_a_apply]

/-- THE STORED VALUE AT (bb, l, e). -/
theorem pay_apply (x0 : Vec Ideal S64x200x128 .f32) (x2 : Vec Ideal S200x128 .f32) (x23 x28 : Vec Ideal S1x128 .f32)
    (bb : Fin 64) (l : Fin 200) (e : Fin 128) :
    Gen.k1_pay1 (F := Ideal) x0 x2 x23 x28 (ix3 bb l e)
      = (yv x0 x2 bb l e - mu x0 x2 bb l) * Ideal.rsqrt (va x0 x2 bb l + Cert.Spec.cEps) * x23 (ix2 (0 : Fin 1) e)
          + x28 (ix2 (0 : Fin 1) e) := by
  rw [pay_eq, addf_apply, mulf_apply, mulf_apply, cenOf_apply, col_apply, rsOf_apply, vecOf_apply, vecOf_apply]
  simp only [ySum_apply]
  rfl

/-- The same in the specification's terms: where the block's row is the looked-up table row, the position row the
    position table's, and the two vectors the scale and the shift, the stored value is the specified one. -/
theorem pay_eq_out (ids : Cert.Spec.SIds.Idx → BitVec 32) (W : Cert.Spec.SW.Idx → EReal) (pos : Cert.Spec.SPos.Idx → EReal)
    (gamma beta : Cert.Spec.SVec.Idx → EReal)
    (x0 : Vec Ideal S64x200x128 .f32) (x2 : Vec Ideal S200x128 .f32) (x23 x28 : Vec Ideal S1x128 .f32)
    (b : Fin 1024) (bb : Fin 64) (l : Fin 200) (e : Fin 128)
    (h0 : ∀ k : Fin 128, x0 (ix3 bb l k) = W (ix2 (Cert.Spec.rowOf (ids (ix2 b l))) k))
    (h2 : ∀ k : Fin 128, x2 (ix2 l k) = pos (ix2 (Cert.Spec.posRow l) k))
    (h23 : x23 (ix2 (0 : Fin 1) e) = gamma (ix1 e)) (h28 : x28 (ix2 (0 : Fin 1) e) = beta (ix1 e)) :
    Gen.k1_pay1 (F := Ideal) x0 x2 x23 x28 (ix3 bb l e) = Cert.Spec.out ids W pos gamma beta b l e := by
  rw [pay_apply, h23, h28]
  unfold va mu yv
  simp only [h0, h2]
  rfl

end Cert.KernelIdeal.LnPay

end
-- ==== Proof.LnValue.lean ====
/-
  The LayerNorm kernel's result array, read at an index, is the specification's function.

  The result array is `Region.Out` of the four operand arrays: at batch row `b` the body's stored value for block
  `b / 64` of the gathered array at block-local row `b % 64` (`Region.Out_blk`). The stored value at an index, over
  operands whose entries are the table rows, the position rows and the scale and shift vectors, is the
  specification's `out` (`LnPay.pay_eq_out`: the same arrangement of the arithmetic on both sides); row `b % 64` of
  block `b / 64` is row `b` since `64 * (b / 64) + b % 64 = b`.
-/
import proofs.«206768_g17686675325131_cont_8to1_990_33_alg».proof.Proof.Spec
import proofs.«206768_g17686675325131_cont_8to1_990_33_alg».proof.Proof.Region
import proofs.«206768_g17686675325131_cont_8to1_990_33_alg».proof.Proof.LnPay

noncomputable section

namespace Cert.KernelIdeal.LnValue

open Cert.KernelIdeal Idealize.ShloMosaic Idealize.ShloMosaic.ValueIdx

/-- Over a gathered array whose entry `(b, l, e)` is entry `e` of the table row the index word at `(b, l)` names,
    the first 200 position rows, and the scale and shift vectors as `1 × 128` arrays, the kernel's result array is the
    specification's `G`. -/
theorem Out_eq_G (ids : Cert.Spec.SIds.Idx → BitVec 32) (W : Cert.Spec.SW.Idx → EReal) (pos : Cert.Spec.SPos.Idx → EReal)
    (gamma beta : Cert.Spec.SVec.Idx → EReal)
    (X2 : S1024x200x128.Idx → Elt Ideal .f32) (X3 : S200x128.Idx → Elt Ideal .f32) (X4 X5 : S1x128.Idx → Elt Ideal .f32)
    (hX2 : ∀ (b : Fin 1024) (l : Fin 200) (e : Fin 128), X2 (ix3 b l e) = W (ix2 (Cert.Spec.rowOf (ids (ix2 b l))) e))
    (hX3 : ∀ (l : Fin 200) (e : Fin 128), X3 (ix2 l e) = pos (ix2 (Cert.Spec.posRow l) e))
    (hX4 : ∀ e : Fin 128, X4 (ix2 (0 : Fin 1) e) = gamma (ix1 e))
    (hX5 : ∀ e : Fin 128, X5 (ix2 (0 : Fin 1) e) = beta (ix1 e)) :
    Region.Out (F := Ideal) X2 X3 X4 X5 = Cert.Spec.G ids W pos gamma beta := by
  funext j
  obtain ⟨b, l, e, rfl⟩ : ∃ (b : Fin 1024) (l : Fin 200) (e : Fin 128), j = ix3 b l e := ⟨j 0, j 1, j 2, eq_ix3 j⟩
  rw [Cert.Spec.G_ix3]
  have hb : b.val < 1024 := b.isLt
  rw [Region.Out_blk X2 X3 X4 X5 (⟨b.val / 64, by omega⟩ : Fin 16) (ix3 b l e) (ix3 (⟨b.val % 64, Nat.mod_lt _ (by norm_num)⟩ : Fin 64) l e)
    (by show b.val = 64 * (b.val / 64) + b.val % 64; omega) rfl rfl]
  refine LnPay.pay_eq_out ids W pos gamma beta _ X3 X4 X5 b _ l e (fun k => ?_) (fun k => hX3 l k) (hX4 e) (hX5 e)
  unfold Region.blk
  rw [← hX2 b l k]
  congr 1
  funext a
  match a with
  | ⟨0, _⟩ => exact Fin.ext (by show 64 * (b.val / 64) + b.val % 64 = b.val; omega)
  | ⟨1, _⟩ => rfl
  | ⟨2, _⟩ => rfl

end Cert.KernelIdeal.LnValue

end
-- ==== Proof.RefOps.lean ====
/-
  The reference program's @main as ONE straight line of host operations.

  @main calls two outlined lookups (each: the index array made non-negative by adding the table's height where an
  index is negative, through an outlined select; the in-range mask; the gather of the rows; the rows replaced by the
  fill constant where the mask is false) and then normalises: the sum of the two looked-up arrays, its mean over the
  last axis, the centred values, their mean square, the square root of that plus the offset, the quotient, the scale
  and the shift. Here each call is replaced by the callee's operations, in order, over the buffers that call names
  (the call's record), so the program is the list `ops` run in order: three operations that build the position
  indices, twenty-three per lookup (six, the select, sixteen), and thirty for the normalisation — seventy-nine.
-/
import proofs.«206768_g17686675325131_cont_8to1_990_33_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's seventy-nine operations, in order, the calls unfolded at their sites: operations 0–2 the position indices;
    3–25 the lookup in the first table over `main_call0`'s buffers (its select over `main_call0.call0`'s), ending at
    `main_v3`; 26–48 the lookup in the second table over `main_call1`'s, ending at `main_v4`; 49–78 the normalisation,
    ending at `main_v29`. -/
abbrev ops : List (HloOp τ sig (Elt F)) :=
  [
    StableHlo.nullary main_v0 (iotaInDim S200 32 0),
    StableHlo.unary main_v0 main_v1 (broadcastInDim S1x200 ![1] bcast_S200_S1x200_1 : (⟨S200, .i32⟩ : BufTy).Contents (Elt F) → (⟨S1x200, .i32⟩ : BufTy).Contents (Elt F)),
    StableHlo.unary main_v1 main_v2 (broadcastInDim S1024x200 ![0, 1] bcast_S1x200_S1024x200_0_1 : (⟨S1x200, .i32⟩ : BufTy).Contents (Elt F) → (⟨S1024x200, .i32⟩ : BufTy).Contents (Elt F)),
    StableHlo.TRef.nullary main_call0.c (constantI S_ 32 0#32),
    StableHlo.TRef.unary main_call0.c main_call0.v0 (broadcastInDim S1024x200 ![] bcast_S_S1024x200),
    StableHlo.TRef.binary (.of main_arg0) main_call0.v0 main_call0.v1 (cmpi .slt),
    StableHlo.TRef.nullary main_call0.c_0 (constantI S_ 32 100000#32),
    StableHlo.TRef.unary main_call0.c_0 main_call0.v2 (broadcastInDim S1024x200 ![] bcast_S_S1024x200),
    StableHlo.TRef.binary (.of main_arg0) main_call0.v2 main_call0.v3 addi,
    StableHlo.TRef.ternary main_call0.v1 main_call0.v3 (.of main_arg0) main_call0.call0.v0 select,
    StableHlo.TRef.unary main_call0.call0.v0 main_call0.v5 (broadcastInDim S1024x200x1 ![0, 1] bcast_S1024x200_S1024x200x1_0_1),
    StableHlo.TRef.nullary main_call0.c_1 (constantI S1 32 99999#32),
    StableHlo.TRef.nullary main_call0.c_2 (constantI S_ 32 0#32),
    StableHlo.TRef.unary main_call0.c_2 main_call0.v6 (broadcastInDim S1024x200x1 ![] bcast_S_S1024x200x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S1024x200x1 ![0, 1, 2] bcast_S1x1x1_S1024x200x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1024x200x1_S1024x200_d2 h_S_),
    StableHlo.TRef.binary (.of main_arg1) main_call0.v5 main_call0.v13 (fun x i => Host.gather gather_S100000x128_S1024x200x1_S1024x200x128_2_0_n_n_0_2_1128 x i),
    StableHlo.TRef.unary main_call0.v12 main_call0.v14 (broadcastInDim S1024x200x128 ![0, 1] bcast_S1024x200_S1024x200x128_0_1),
    StableHlo.TRef.nullary main_call0.cst (constant S_ .f32 0x7FC00000#32),
    StableHlo.TRef.unary main_call0.cst main_call0.v15 (broadcastInDim S1024x200x128 ![] bcast_S_S1024x200x128),
    StableHlo.TRef.ternary main_call0.v14 main_call0.v13 main_call0.v15 main_call0.v16 select,
    StableHlo.TRef.nullary main_call1.c (constantI S_ 32 0#32),
    StableHlo.TRef.unary main_call1.c main_call1.v0 (broadcastInDim S1024x200 ![] bcast_S_S1024x200),
    StableHlo.TRef.binary (.of main_v2) main_call1.v0 main_call1.v1 (cmpi .slt),
    StableHlo.TRef.nullary main_call1.c_0 (constantI S_ 32 512#32),
    StableHlo.TRef.unary main_call1.c_0 main_call1.v2 (broadcastInDim S1024x200 ![] bcast_S_S1024x200),
    StableHlo.TRef.binary (.of main_v2) main_call1.v2 main_call1.v3 addi,
    StableHlo.TRef.ternary main_call1.v1 main_call1.v3 (.of main_v2) main_call1.call0.v0 select,
    StableHlo.TRef.unary main_call1.call0.v0 main_call1.v5 (broadcastInDim S1024x200x1 ![0, 1] bcast_S1024x200_S1024x200x1_0_1),
    StableHlo.TRef.nullary main_call1.c_1 (constantI S1 32 511#32),
    StableHlo.TRef.nullary main_call1.c_2 (constantI S_ 32 0#32),
    StableHlo.TRef.unary main_call1.c_2 main_call1.v6 (broadcastInDim S1024x200x1 ![] bcast_S_S1024x200x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S1024x200x1 ![0, 1, 2] bcast_S1x1x1_S1024x200x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1024x200x1_S1024x200_d2 h_S_),
    StableHlo.TRef.binary (.of main_arg2) main_call1.v5 main_call1.v13 (fun x i => Host.gather gather_S512x128_S1024x200x1_S1024x200x128_2_0_n_n_0_2_1128 x i),
    StableHlo.TRef.unary main_call1.v12 main_call1.v14 (broadcastInDim S1024x200x128 ![0, 1] bcast_S1024x200_S1024x200x128_0_1),
    StableHlo.TRef.nullary main_call1.cst (constant S_ .f32 0x7FC00000#32),
    StableHlo.TRef.unary main_call1.cst main_call1.v15 (broadcastInDim S1024x200x128 ![] bcast_S_S1024x200x128),
    StableHlo.TRef.ternary main_call1.v14 main_call1.v13 main_call1.v15 main_call1.v16 select,
    StableHlo.binary main_v3 main_v4 main_v5 (addf : (⟨S1024x200x128, .f32⟩ : BufTy).Contents (Elt F) → (⟨S1024x200x128, .f32⟩ : BufTy).Contents (Elt F) → (⟨S1024x200x128, .f32⟩ : BufTy).Contents (Elt F)),
    StableHlo.nullary main_cst (constant S_ .f32 0x00000000#32),
    StableHlo.binary main_v5 main_cst main_v6 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    StableHlo.unary main_v6 main_v7 (broadcastInDim S1024x200x1 ![0, 1] bcast_S1024x200_S1024x200x1_0_1 : (⟨S1024x200, .f32⟩ : BufTy).Contents (Elt F) → (⟨S1024x200x1, .f32⟩ : BufTy).Contents (Elt F)),
    StableHlo.nullary main_cst_0 (constant S_ .f32 0x43000000#32),
    StableHlo.unary main_cst_0 main_v8 (broadcastInDim S1024x200x1 ![] bcast_S_S1024x200x1 : (⟨S_, .f32⟩ : BufTy).Contents (Elt F) → (⟨S1024x200x1, .f32⟩ : BufTy).Contents (Elt F)),
    StableHlo.binary main_v7 main_v8 main_v9 (Host.divf : (⟨S1024x200x1, .f32⟩ : BufTy).Contents (Elt F) → (⟨S1024x200x1, .f32⟩ : BufTy).Contents (Elt F) → (⟨S1024x200x1, .f32⟩ : BufTy).Contents (Elt F)),
    StableHlo.unary main_v9 main_v10 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    StableHlo.binary main_v5 main_v10 main_v11 (subf : (⟨S1024x200x128, .f32⟩ : BufTy).Contents (Elt F) → (⟨S1024x200x128, .f32⟩ : BufTy).Contents (Elt F) → (⟨S1024x200x128, .f32⟩ : BufTy).Contents (Elt F)),
    StableHlo.binary main_v11 main_v11 main_v12 (mulf : (⟨S1024x200x128, .f32⟩ : BufTy).Contents (Elt F) → (⟨S1024x200x128, .f32⟩ : BufTy).Contents (Elt F) → (⟨S1024x200x128, .f32⟩ : BufTy).Contents (Elt F)),
    StableHlo.nullary main_cst_1 (constant S_ .f32 0x00000000#32),
    StableHlo.binary main_v12 main_cst_1 main_v13 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    StableHlo.unary main_v13 main_v14 (broadcastInDim S1024x200x1 ![0, 1] bcast_S1024x200_S1024x200x1_0_1 : (⟨S1024x200, .f32⟩ : BufTy).Contents (Elt F) → (⟨S1024x200x1, .f32⟩ : BufTy).Contents (Elt F)),
    StableHlo.nullary main_cst_2 (constant S_ .f32 0x43000000#32),
    StableHlo.unary main_cst_2 main_v15 (broadcastInDim S1024x200x1 ![] bcast_S_S1024x200x1 : (⟨S_, .f32⟩ : BufTy).Contents (Elt F) → (⟨S1024x200x1, .f32⟩ : BufTy).Contents (Elt F)),
    StableHlo.binary main_v14 main_v15 main_v16 (Host.divf : (⟨S1024x200x1, .f32⟩ : BufTy).Contents (Elt F) → (⟨S1024x200x1, .f32⟩ : BufTy).Contents (Elt F) → (⟨S1024x200x1, .f32⟩ : BufTy).Contents (Elt F)),
    StableHlo.unary main_v9 main_v17 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    StableHlo.binary main_v5 main_v17 main_v18 (subf : (⟨S1024x200x128, .f32⟩ : BufTy).Contents (Elt F) → (⟨S1024x200x128, .f32⟩ : BufTy).Contents (Elt F) → (⟨S1024x200x128, .f32⟩ : BufTy).Contents (Elt F)),
    StableHlo.nullary main_cst_3 (constant S_ .f32 0x2B8CBCCC#32),
    StableHlo.unary main_cst_3 main_v19 (broadcastInDim S1024x200x1 ![] bcast_S_S1024x200x1 : (⟨S_, .f32⟩ : BufTy).Contents (Elt F) → (⟨S1024x200x1, .f32⟩ : BufTy).Contents (Elt F)),
    StableHlo.binary main_v16 main_v19 main_v20 (addf : (⟨S1024x200x1, .f32⟩ : BufTy).Contents (Elt F) → (⟨S1024x200x1, .f32⟩ : BufTy).Contents (Elt F) → (⟨S1024x200x1, .f32⟩ : BufTy).Contents (Elt F)),
    StableHlo.unary main_v20 main_v21 (Host.sqrt : (⟨S1024x200x1, .f32⟩ : BufTy).Contents (Elt F) → (⟨S1024x200x1, .f32⟩ : BufTy).Contents (Elt F)),
    StableHlo.unary main_v21 main_v22 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    StableHlo.binary main_v18 main_v22 main_v23 (Host.divf : (⟨S1024x200x128, .f32⟩ : BufTy).Contents (Elt F) → (⟨S1024x200x128, .f32⟩ : BufTy).Contents (Elt F) → (⟨S1024x200x128, .f32⟩ : BufTy).Contents (Elt F)),
    StableHlo.unary main_arg3 main_v24 (broadcastInDim S1x1x128 ![2] bcast_S128_S1x1x128_2 : (⟨S128, .f32⟩ : BufTy).Contents (Elt F) → (⟨S1x1x128, .f32⟩ : BufTy).Contents (Elt F)),
    StableHlo.unary main_v24 main_v25 (broadcastInDim S1024x200x128 ![0, 1, 2] bcast_S1x1x128_S1024x200x128_0_1_2 : (⟨S1x1x128, .f32⟩ : BufTy).Contents (Elt F) → (⟨S1024x200x128, .f32⟩ : BufTy).Contents (Elt F)),
    StableHlo.binary main_v23 main_v25 main_v26 (mulf : (⟨S1024x200x128, .f32⟩ : BufTy).Contents (Elt F) → (⟨S1024x200x128, .f32⟩ : BufTy).Contents (Elt F) → (⟨S1024x200x128, .f32⟩ : BufTy).Contents (Elt F)),
    StableHlo.unary main_arg4 main_v27 (broadcastInDim S1x1x128 ![2] bcast_S128_S1x1x128_2 : (⟨S128, .f32⟩ : BufTy).Contents (Elt F) → (⟨S1x1x128, .f32⟩ : BufTy).Contents (Elt F)),
    StableHlo.unary main_v27 main_v28 (broadcastInDim S1024x200x128 ![0, 1, 2] bcast_S1x1x128_S1024x200x128_0_1_2 : (⟨S1x1x128, .f32⟩ : BufTy).Contents (Elt F) → (⟨S1024x200x128, .f32⟩ : BufTy).Contents (Elt F)),
    StableHlo.binary main_v26 main_v28 main_v29 (addf : (⟨S1024x200x128, .f32⟩ : BufTy).Contents (Elt F) → (⟨S1024x200x128, .f32⟩ : BufTy).Contents (Elt F) → (⟨S1024x200x128, .f32⟩ : BufTy).Contents (Elt F)) ]

-- seventy-nine binds re-associated, two of them over a callee's own chain of twenty-three: more rewriting than the default budget
set_option maxHeartbeats 2000000 in
/-- @main is that straight line: the callees' definitions unfolded at their calls and the records at their fields,
    both sides are one chain of steps once the sequencing is reassociated. -/
theorem main_eq (c : Dev nD) : main (F := F) c = seq ops := by
  simp only [main, fn_take.body, fn_take_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨
    nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., binary_bufs_sub .., nullary_bufs_sub .., binary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub ..⟩

end Cert.ReferenceIdeal.Hand

end
-- ==== Proof.RefRun.lean ====
/-
  The reference program's run, read back from its straight line of operations.

  From any memory with zero counters every weakly fair execution of @main terminates; the result buffer then
  holds the fold of the seventy-nine operations over the launch contents, read at the result buffer (left as
  that fold: the value proof opens it stage by stage), and the five argument buffers hold what they held at
  launch, since no operation of the line writes an argument.
-/
import proofs.«206768_g17686675325131_cont_8to1_990_33_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- No operation of the line writes an argument buffer: the fold leaves each as it was. -/
theorem after_arg0 (V : Valuation τ sig (Elt F)) :
    after (ops (F := F)) V (Proc.devRef .tc main_arg0) = V (Proc.devRef .tc main_arg0) := by after_results_simp
theorem after_arg1 (V : Valuation τ sig (Elt F)) :
    after (ops (F := F)) V (Proc.devRef .tc main_arg1) = V (Proc.devRef .tc main_arg1) := by after_results_simp
theorem after_arg2 (V : Valuation τ sig (Elt F)) :
    after (ops (F := F)) V (Proc.devRef .tc main_arg2) = V (Proc.devRef .tc main_arg2) := by after_results_simp
theorem after_arg3 (V : Valuation τ sig (Elt F)) :
    after (ops (F := F)) V (Proc.devRef .tc main_arg3) = V (Proc.devRef .tc main_arg3) := by after_results_simp
theorem after_arg4 (V : Valuation τ sig (Elt F)) :
    after (ops (F := F)) V (Proc.devRef .tc main_arg4) = V (Proc.devRef .tc main_arg4) := by after_results_simp

/-- On every device, for any float values, from any memory with zero counters: every weakly fair execution of
    @main terminates with the result buffer at the operations' fold over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = after (ops (F := F)) (launchContents m c) (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v29,
      (h c main_arg0).trans (after_arg0 _),
      (h c main_arg1).trans (after_arg1 _),
      (h c main_arg2).trans (after_arg2 _),
      (h c main_arg3).trans (after_arg3 _),
      (h c main_arg4).trans (after_arg4 _)⟩)
    (run_seq scopedRefs_eq scopedSems_eq defs main (fun _ => ops) main_eq (fun _ => ops_sub) m ρ)

end Cert.ReferenceIdeal.Hand

end
-- ==== Proof.RefDefs.lean ====
/-
  The reference's result as ONE function of its five argument arrays, built from named stages.

  The reference looks a row of the table up for every index word and a row of the position table up for every
  position (each lookup: a negative index moved up by the table's height, the gather of the rows with the start
  index clamped into the table, and the rows replaced by a fill value where the index is not between 0 and the last
  row), adds the two, and normalises each row of 128 features: the row's mean is subtracted, the result divided by
  the square root of the mean square plus an offset, then scaled and shifted per feature. Each definition below is
  one of these steps, written with the same operations, shape facts and float words as the printed program, so
  that the program's composed term is this function by unfolding.
-/
import proofs.«206768_g17686675325131_cont_8to1_990_33_alg».proof.Proof.Gen.ReferenceIdeal
import Idealize.ShloMosaic.Lib.ValueIdx

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.ValueIdx

/-! ## The stages of the reference, as functions of the argument arrays -/

/-- The position index array: entry `(b, l)` is the word `l`. -/
def posIdx : IVec S1024x200 32 :=
  broadcastInDim S1024x200 ![0, 1] bcast_S1x200_S1024x200_0_1
    (broadcastInDim S1x200 ![1] bcast_S200_S1x200_1 (iotaInDim S200 32 0))

/-- A lookup's start indices: a negative index moved up by the table's height `n`, then a trailing unit axis. -/
def takeIdx (n : BitVec 32) (idx : IVec S1024x200 32) : IVec S1024x200x1 32 :=
  broadcastInDim S1024x200x1 ![0, 1] bcast_S1024x200_S1024x200x1_0_1
    (select (cmpi .slt idx (broadcastInDim S1024x200 ![] bcast_S_S1024x200 (constantI S_ 32 0#32)))
      (addi idx (broadcastInDim S1024x200 ![] bcast_S_S1024x200 (constantI S_ 32 n))) idx)

/-- A lookup's mask: the start index between 0 and the last row `n1`, for every feature of the row. -/
def takeMask (n1 : BitVec 32) (i5 : IVec S1024x200x1 32) : IVec S1024x200x128 1 :=
  broadcastInDim S1024x200x128 ![0, 1] bcast_S1024x200_S1024x200x128_0_1
    (Host.reduce IntOp.andi
      (andi (cmpi .sge i5 (broadcastInDim S1024x200x1 ![] bcast_S_S1024x200x1 (constantI S_ 32 0#32)))
        (cmpi .sle i5 (broadcastInDim S1024x200x1 ![0, 1, 2] bcast_S1x1x1_S1024x200x1_0_1_2
          (broadcastInDim S1x1x1 ![2] bcast_S1_S1x1x1_2 (constantI S1 32 n1)))))
      (constantI S_ 1 1#1) reducesTo_S1024x200x1_S1024x200_d2 h_S_)

/-- The fill value of a lookup outside its mask. -/
def fill : FVec Ideal S1024x200x128 .f32 :=
  broadcastInDim S1024x200x128 ![] bcast_S_S1024x200x128 (constant (F := Ideal) S_ .f32 0x7FC00000#32)

/-- The lookup in the table. -/
def take0 (W : FVec Ideal S100000x128 .f32) (ids : IVec S1024x200 32) : FVec Ideal S1024x200x128 .f32 :=
  select (takeMask 99999#32 (takeIdx 100000#32 ids))
    (Host.gather gather_S100000x128_S1024x200x1_S1024x200x128_2_0_n_n_0_2_1128 W (takeIdx 100000#32 ids)) fill

/-- The lookup in the position table. -/
def take1 (pos : FVec Ideal S512x128 .f32) (pidx : IVec S1024x200 32) : FVec Ideal S1024x200x128 .f32 :=
  select (takeMask 511#32 (takeIdx 512#32 pidx))
    (Host.gather gather_S512x128_S1024x200x1_S1024x200x128_2_0_n_n_0_2_1128 pos (takeIdx 512#32 pidx)) fill

/-- The sum over the features, from the zero word. -/
def rowSum (y : FVec Ideal S1024x200x128 .f32) : FVec Ideal S1024x200 .f32 :=
  Host.reduceAdd y (constant (F := Ideal) S_ .f32 0x00000000#32) reducesTo_S1024x200x128_S1024x200_d2 h_S_

/-- A per-row value with a trailing unit axis. -/
def keep (s : FVec Ideal S1024x200 .f32) : FVec Ideal S1024x200x1 .f32 :=
  broadcastInDim S1024x200x1 ![0, 1] bcast_S1024x200_S1024x200x1_0_1 s

/-- A float word at every row. -/
def splat1 (w : BitVec 32) : FVec Ideal S1024x200x1 .f32 :=
  broadcastInDim S1024x200x1 ![] bcast_S_S1024x200x1 (constant (F := Ideal) S_ .f32 w)

/-- A per-row value at every feature of the row. -/
def wide (z : FVec Ideal S1024x200x1 .f32) : FVec Ideal S1024x200x128 .f32 :=
  broadcastInDim S1024x200x128 ![0, 1, 2] bcast_S1024x200x1_S1024x200x128_0_1_2 z

/-- The mean of a row. -/
def meanK (y : FVec Ideal S1024x200x128 .f32) : FVec Ideal S1024x200x1 .f32 :=
  Host.divf (keep (rowSum y)) (splat1 0x43000000#32)

/-- The features less their row's mean. -/
def centred (y : FVec Ideal S1024x200x128 .f32) : FVec Ideal S1024x200x128 .f32 := subf y (wide (meanK y))

/-- The mean square of the centred features. -/
def varK (y : FVec Ideal S1024x200x128 .f32) : FVec Ideal S1024x200x1 .f32 :=
  Host.divf (keep (rowSum (mulf (centred y) (centred y)))) (splat1 0x43000000#32)

/-- The square root of the mean square plus the offset. -/
def stdK (y : FVec Ideal S1024x200x128 .f32) : FVec Ideal S1024x200x1 .f32 :=
  Host.sqrt (addf (varK y) (splat1 0x2B8CBCCC#32))

/-- A per-feature vector at every row. -/
def vecWide (g : FVec Ideal S128 .f32) : FVec Ideal S1024x200x128 .f32 :=
  broadcastInDim S1024x200x128 ![0, 1, 2] bcast_S1x1x128_S1024x200x128_0_1_2 (broadcastInDim S1x1x128 ![2] bcast_S128_S1x1x128_2 g)

/-- The normalisation of an array of rows. -/
def lnOut (y : FVec Ideal S1024x200x128 .f32) (gamma beta : FVec Ideal S128 .f32) : FVec Ideal S1024x200x128 .f32 :=
  addf (mulf (Host.divf (centred y) (wide (stdK y))) (vecWide gamma)) (vecWide beta)

/-- The reference's result as one function of its arguments. -/
def refVal (ids : IVec S1024x200 32) (W : FVec Ideal S100000x128 .f32) (pos : FVec Ideal S512x128 .f32)
    (gamma beta : FVec Ideal S128 .f32) : FVec Ideal S1024x200x128 .f32 :=
  lnOut (addf (take0 W ids) (take1 pos posIdx)) gamma beta

end Cert.RefValue

end
-- ==== Proof.RefAfter.lean ====
/-
  The reference's straight line of operations, folded and read at its result buffer, is the staged function
  of the contents of the five argument buffers: every operation's result is replaced by its function of its
  operands' results, down to the arguments, and the typed references of the two outlined lookups carry their
  values along equations that hold by computation.
-/
import proofs.«206768_g17686675325131_cont_8to1_990_33_alg».proof.Proof.RefOps
import proofs.«206768_g17686675325131_cont_8to1_990_33_alg».proof.Proof.RefDefs

noncomputable section

namespace Cert.RefValue

open Cert.ReferenceIdeal Cert.ReferenceIdeal.Gen Idealize.ShloMosaic Idealize.ShloMosaic.TcCoe Idealize.SL.Sem Idealize.ShloMosaic.StableHlo

set_option maxHeartbeats 2000000 in
/-- The fold of the seventy-nine operations, read at the result buffer, is `refVal` of the arguments' contents. -/
theorem after_eq (V : Valuation τ sig (Elt Ideal)) :
    after (Cert.ReferenceIdeal.Hand.ops (F := Ideal)) V (Proc.devRef .tc main_v29)
      = refVal (V (Proc.devRef .tc main_arg0)) (V (Proc.devRef .tc main_arg1)) (V (Proc.devRef .tc main_arg2))
          (V (Proc.devRef .tc main_arg3)) (V (Proc.devRef .tc main_arg4)) := by
  after_results_simp
  simp only [TRef.toBuf, TRef.ofBuf, cast_eq]
  rfl

end Cert.RefValue

end
-- ==== Proof.RefTake.lean ====
/-
  The reference's two lookups read at an index.

  A lookup of whole rows gathers, for the result index (b, l, d), the table at row "start index of (b, l), read
  signed, clamped into the table" and feature d: on the row axis the dimension numbers name the start index and
  collapse the slice, on the feature axis the slice is the whole row and the result's last coordinate is the offset.
  Around the gather the reference moves a negative index up by the table's height, and replaces the gathered row
  by a fill value where the start index is not between 0 and the last row. When every index word is below the
  table's height (read unsigned, so it is not negative read signed) none of this acts: the word is not moved, the
  mask is true at every index (a reduction by `and` from 1 over ones), the clamp is the identity, and the select
  returns the gathered row. For the table the words are the argument's, below the height by the precondition; for
  the position table they are the positions 0..199, below 512.
-/
import proofs.«206768_g17686675325131_cont_8to1_990_33_alg».proof.Proof.RefDefs
import proofs.«206768_g17686675325131_cont_8to1_990_33_alg».proof.Proof.Spec
import Idealize.ShloMosaic.Lib.Affine
import Idealize.ShloMosaic.Lib.IdealHost
import Idealize.ShloMosaic.Lib.Pipeline.Value
import Idealize.ShloMosaic.PureOps.Reduce

noncomputable section

namespace Cert.RefValue

open Cert.ReferenceIdeal Cert.ReferenceIdeal.Gen Idealize.ShloMosaic Idealize.ShloMosaic.ValueIdx

section Rows
variable {α : Type}

/-- The dimension numbers of a lookup of whole rows: operand `[N, 128]`, start indices `[1024, 200, 1]`, result `[1024, 200, 128]`. -/
abbrev rowsDims (N : Nat) (wf : GatherDims.WF ⟨2, ![N, 128]⟩ ⟨3, ![1024, 200, 1]⟩ ⟨3, ![1024, 200, 128]⟩ [2] [0] [] [0] [] 2 ![1, 128]) :
    GatherDims ⟨2, ![N, 128]⟩ ⟨3, ![1024, 200, 1]⟩ ⟨3, ![1024, 200, 128]⟩ where
  offsetDims := [2]
  collapsedSliceDims := [0]
  operandBatchingDims := []
  startIndicesBatchingDims := []
  startIndexMap := [0]
  indexVectorDim := 2
  sliceSizes := ![1, 128]
  wf := wf

/-- THE GATHER OF ROWS READ AT `(b, l, d)`: the operand at the row "start index `idx[b, l, 0]` read signed and clamped
    into `[0, N - 1]`" and the feature `d`. On the row axis the start is the clamped index and there is no batch or offset
    coordinate; on the feature axis the start is 0 and the offset is the result's last coordinate. -/
theorem gather_rows_apply {N w : Nat} (hN : 0 < N)
    (wf : GatherDims.WF ⟨2, ![N, 128]⟩ ⟨3, ![1024, 200, 1]⟩ ⟨3, ![1024, 200, 128]⟩ [2] [0] [] [0] [] 2 ![1, 128])
    (x : (⟨2, ![N, 128]⟩ : Shape).Idx → α) (idx : IVec ⟨3, ![1024, 200, 1]⟩ w) (b : Fin 1024) (l : Fin 200) (d : Fin 128) :
    Host.gather (rowsDims N wf) x idx (ix3 b l d)
      = x (ix2 (⟨min (idx (ix3 b l (0 : Fin 1))).toInt.toNat (N - 1), by omega⟩ : Fin N) d) := by
  unfold Host.gather
  congr 1
  funext a
  refine Fin.ext ?_
  match a with
  | ⟨0, _⟩ =>
    show (rowsDims N wf).start (ix3 b l d) idx 0 + (rowsDims N wf).batchCoord (ix3 b l d) 0 + (rowsDims N wf).offCoord (ix3 b l d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N wf).startIndexMap from List.mem_singleton.mpr rfl)]
    have hsi : (rowsDims N wf).siIdx (ix3 b l d) ⟨List.idxOf (0 : Fin 2) (rowsDims N wf).startIndexMap,
        List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  | ⟨1, _⟩ =>
    show (rowsDims N wf).start (ix3 b l d) idx 1 + (rowsDims N wf).batchCoord (ix3 b l d) 1 + (rowsDims N wf).offCoord (ix3 b l d) 1 = d.val
    rw [GatherDims.batchCoord_eq_zero _ _ _ List.not_mem_nil]
    have hs : (rowsDims N wf).start (ix3 b l d) idx 1 = 0 := by
      unfold GatherDims.start
      rw [dif_neg (show (1 : Fin 2) ∉ ([0] : List (Fin 2)) from by decide)]
    rw [hs]
    simp only [Nat.add_zero, Nat.zero_add]
    unfold GatherDims.offCoord
    rw [dif_pos ((GatherDims.mem_sKept _ _).2 ⟨(show (1 : Fin 2) ∉ ([0] : List (Fin 2)) from by decide), List.not_mem_nil⟩)]
    rfl

end Rows

/-! ## Words -/

/-- A word below 2³¹ read unsigned reads the same signed. -/
theorem toInt_of_lt (w : BitVec 32) (N : Nat) (hN : N ≤ 2 ^ 31) (h : w.toNat < N) : w.toInt = (w.toNat : Int) :=
  BitVec.toInt_eq_toNat_of_lt (by omega)

/-- A left fold by `and` from 1 over words that are all 1 is 1. -/
theorem foldl_andi_one {ι : Type} (f : ι → BitVec 1) :
    ∀ (L : List ι), (∀ n ∈ L, f n = 1#1) → L.foldl (fun r n => IntOp.andi r (f n)) 1#1 = 1#1
  | [], _ => rfl
  | a :: L, h => by
    rw [List.foldl_cons, h a List.mem_cons_self, show IntOp.andi 1#1 1#1 = 1#1 from by decide]
    exact foldl_andi_one f L fun n hn => h n (List.mem_cons_of_mem _ hn)

/-- A reduction by `and` from 1 of an array of ones is 1. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x _ fun n _ => hx n

/-! ## The lookups read at an index -/

/-- The position index array at `(b, l)` is the word `l`. -/
theorem posIdx_apply (b : Fin 1024) (l : Fin 200) : posIdx (ix2 b l) = BitVec.ofNat 32 l.val := rfl

/-- A lookup's start index at `(b, l, 0)` is the index word at `(b, l)` when that word is not negative. -/
theorem takeIdx_apply (n : BitVec 32) (idx : IVec S1024x200 32) (b : Fin 1024) (l : Fin 200) (z : Fin 1)
    (h : 0 ≤ (idx (ix2 b l)).toInt) : takeIdx n idx (ix3 b l z) = idx (ix2 b l) := by
  unfold takeIdx
  refine (broadcastInDim_apply ![0, 1] _ _ (ix3 b l z) (ix2 b l) (fun a => ?_)).trans ?_
  · match a with
    | ⟨0, _⟩ => rfl
    | ⟨1, _⟩ => rfl
  · rw [select_apply]
    refine if_neg (fun e => ?_)
    have := IntOp.cmpi_slt.1 e
    have e0 : (0#32 : BitVec 32).toInt = 0 := by decide
    change (idx (ix2 b l)).toInt < (0#32 : BitVec 32).toInt at this
    omega

/-- A lookup's mask is 1 everywhere when every start index is between 0 and the last row. -/
theorem takeMask_apply (n1 : BitVec 32) (i5 : IVec S1024x200x1 32)
    (h : ∀ j, 0 ≤ (i5 j).toInt ∧ (i5 j).toInt ≤ n1.toInt) (b : Fin 1024) (l : Fin 200) (d : Fin 128) :
    takeMask n1 i5 (ix3 b l d) = 1#1 := by
  unfold takeMask
  refine (broadcastInDim_apply (s := S1024x200) (t := S1024x200x128) ![0, 1] bcast_S1024x200_S1024x200x128_0_1 _
    (ix3 b l d) (ix2 b l) (fun a => ?_)).trans ?_
  · match a with
    | ⟨0, _⟩ => rfl
    | ⟨1, _⟩ => rfl
  · refine reduce_andi_one _ (constantI S_ 1 1#1) reducesTo_S1024x200x1_S1024x200_d2 h_S_ (ix2 b l) rfl (fun j => ?_)
    refine IntOp.andi_eq_one.2 ⟨IntOp.cmpi_sge.2 ?_, IntOp.cmpi_sle.2 ?_⟩
    · have e0 : (0#32 : BitVec 32).toInt = 0 := by decide
      change (0#32 : BitVec 32).toInt ≤ (i5 j).toInt
      rw [e0]; exact (h j).1
    · exact (h j).2

/-- A LOOKUP READ AT AN INDEX. For a table of `N` rows (`N` below 2³¹, `n1` the word `N - 1`) and index words all
    below `N`: the mask is true, the start index is the word itself, the clamp is the identity, and the select returns
    the gathered row: entry `(b, l, d)` is the table at row `idx[b, l]`, feature `d`. -/
theorem take_apply {N : Nat} (hN : 0 < N) (hN' : N ≤ 2 ^ 31) (n n1 : BitVec 32) (hn1 : n1.toInt = (N : Int) - 1)
    (wf : GatherDims.WF ⟨2, ![N, 128]⟩ ⟨3, ![1024, 200, 1]⟩ ⟨3, ![1024, 200, 128]⟩ [2] [0] [] [0] [] 2 ![1, 128])
    (x : (⟨2, ![N, 128]⟩ : Shape).Idx → EReal) (idx : IVec S1024x200 32) (hidx : ∀ i, (idx i).toNat < N)
    (b : Fin 1024) (l : Fin 200) (d : Fin 128) :
    select (takeMask n1 (takeIdx n idx)) (Host.gather (rowsDims N wf) x (takeIdx n idx)) fill (ix3 b l d)
      = x (ix2 (⟨(idx (ix2 b l)).toNat, hidx _⟩ : Fin N) d) := by
  have hint : ∀ i, (idx i).toInt = ((idx i).toNat : Int) := fun i => toInt_of_lt _ N hN' (hidx i)
  have hstart : ∀ (b' : Fin 1024) (l' : Fin 200) (z : Fin 1), takeIdx n idx (ix3 b' l' z) = idx (ix2 b' l') :=
    fun b' l' z => takeIdx_apply n idx b' l' z (by rw [hint]; omega)
  have hmask : takeMask n1 (takeIdx n idx) (ix3 b l d) = 1#1 := by
    refine takeMask_apply n1 _ (fun j => ?_) b l d
    obtain ⟨b', l', z, rfl⟩ : ∃ (b' : Fin 1024) (l' : Fin 200) (z : Fin 1), j = ix3 b' l' z := ⟨j 0, j 1, j 2, eq_ix3 j⟩
    rw [hstart, hint, hn1]
    have := hidx (ix2 b' l')
    omega
  rw [select_apply, hmask, select_one, gather_rows_apply hN wf x _ b l d]
  refine congrArg x (congrArg (fun r => ix2 r d) (Fin.ext ?_))
  show min (takeIdx n idx (ix3 b l 0)).toInt.toNat (N - 1) = (idx (ix2 b l)).toNat
  rw [hstart, hint]
  have := hidx (ix2 b l)
  omega

/-! ## The two lookups of the reference -/

/-- The lookup in the table at `(b, l, d)`, for index words below the table's height: the table at the row the word
    names, feature `d`. -/
theorem take0_apply (W : FVec Ideal S100000x128 .f32) (ids : IVec S1024x200 32) (hids : ∀ i, (ids i).toNat < 100000)
    (b : Fin 1024) (l : Fin 200) (d : Fin 128) :
    take0 W ids (ix3 b l d) = W (ix2 (Cert.Spec.rowOf (ids (ix2 b l))) d) := by
  have h := take_apply (N := 100000) (by norm_num) (by norm_num) 100000#32 99999#32 (by decide)
    gather_S100000x128_S1024x200x1_S1024x200x128_2_0_n_n_0_2_1128_wf W ids hids b l d
  refine (show take0 W ids (ix3 b l d) = _ from h).trans ?_
  refine congrArg W (congrArg (fun r => ix2 r d) (Fin.ext ?_))
  exact (Nat.mod_eq_of_lt (hids _)).symm

/-- Every position index word is below the position table's height. -/
theorem posIdx_lt (i : S1024x200.Idx) : (posIdx i).toNat < 512 := by
  obtain ⟨b, l, rfl⟩ : ∃ (b : Fin 1024) (l : Fin 200), i = ix2 b l := ⟨i 0, i 1, eq_ix2 i⟩
  rw [posIdx_apply, BitVec.toNat_ofNat]
  have := l.isLt
  omega

/-- The lookup in the position table at `(b, l, d)`: the position table at row `l`, feature `d`. -/
theorem take1_apply (pos : FVec Ideal S512x128 .f32) (b : Fin 1024) (l : Fin 200) (d : Fin 128) :
    take1 pos posIdx (ix3 b l d) = pos (ix2 (Cert.Spec.posRow l) d) := by
  have h := take_apply (N := 512) (by norm_num) (by norm_num) 512#32 511#32 (by decide)
    gather_S512x128_S1024x200x1_S1024x200x128_2_0_n_n_0_2_1128_wf pos posIdx posIdx_lt b l d
  refine (show take1 pos posIdx (ix3 b l d) = _ from h).trans ?_
  refine congrArg pos (congrArg (fun r => ix2 r d) (Fin.ext ?_))
  show (posIdx (ix2 b l)).toNat = l.val
  rw [posIdx_apply, BitVec.toNat_ofNat]
  have := l.isLt
  omega

end Cert.RefValue

end
-- ==== Proof.RefNorm.lean ====
/-
  The reference's normalisation of an array of rows, read at an index.

  For an array y of 1024 x 200 rows of 128 features, at row (b, l) and feature d:
    the row's sum is the sum over k of y (b, l, k) (the reduction starts from the zero word, which is zero);
    its mean is that sum divided by the word of 128;
    the centred feature is y (b, l, d) less the mean;
    the row's mean square is the sum over k of the squares of the centred features, divided by the word of 128;
    the result is the centred feature divided by the square root of the mean square plus the offset word,
    times gamma d, plus beta d.
  Each broadcast reads its operand at the coordinates it keeps, so every stage is a one-line reading of the one
  before it. No fact about y is used.
-/
import proofs.«206768_g17686675325131_cont_8to1_990_33_alg».proof.Proof.RefDefs
import Idealize.ShloMosaic.Lib.IdealHost
import Idealize.ShloMosaic.Lib.Pipeline.Value
import Idealize.ShloMosaic.PureOps.Ideal.Laws

noncomputable section

open scoped BigOperators

namespace Cert.RefNorm

open Cert.ReferenceIdeal Cert.ReferenceIdeal.Gen Cert.RefValue Idealize.ShloMosaic Idealize.ShloMosaic.ValueIdx

/-- The mean of row (b, l): the sum of its 128 features divided by the word of 128. -/
def rowMean (y : FVec Ideal S1024x200x128 .f32) (b : Fin 1024) (l : Fin 200) : EReal :=
  Ideal.div (∑ k : Fin 128, y (ix3 b l k)) (Ideal.ofBits .f32 0x43000000#32)

/-- The mean square of row (b, l)'s centred features. -/
def rowVar (y : FVec Ideal S1024x200x128 .f32) (b : Fin 1024) (l : Fin 200) : EReal :=
  Ideal.div (∑ k : Fin 128, (y (ix3 b l k) - rowMean y b l) * (y (ix3 b l k) - rowMean y b l))
    (Ideal.ofBits .f32 0x43000000#32)

/-- The sum over the features at row (b, l). -/
theorem rowSum_apply (y : FVec Ideal S1024x200x128 .f32) (b : Fin 1024) (l : Fin 200) :
    rowSum y (ix2 b l) = ∑ k : Fin 128, y (ix3 b l k) := by
  unfold rowSum
  rw [hostReduceAdd_apply,
    Ideal.hostReduceAdd_single reducesTo_S1024x200x128_S1024x200_d2 (by decide : S1024x200x128.Reduces [2] S1024x200),
    constant_apply, Ideal.ofBits_zero_f32, zero_add]
  refine Finset.sum_congr rfl fun k _ => congrArg y (funext fun a => Fin.ext ?_)
  match a with
  | ⟨0, _⟩ => rfl
  | ⟨1, _⟩ => rfl
  | ⟨2, _⟩ => rfl

/-- A per-row value with a trailing unit axis reads the row's value. -/
theorem keep_apply (s : FVec Ideal S1024x200 .f32) (b : Fin 1024) (l : Fin 200) (u : Fin 1) :
    keep s (ix3 b l u) = s (ix2 b l) := by
  unfold keep
  refine broadcastInDim_apply _ _ s _ (ix2 b l) fun a => ?_
  match a with
  | ⟨0, _⟩ => show b.val = if (1024 : Nat) = 1 then 0 else b.val; rw [if_neg (by decide)]
  | ⟨1, _⟩ => show l.val = if (200 : Nat) = 1 then 0 else l.val; rw [if_neg (by decide)]

/-- A float word at every row reads the word. -/
theorem splat1_apply (w : BitVec 32) (j : S1024x200x1.Idx) : splat1 w j = Ideal.ofBits .f32 w := by
  unfold splat1
  rw [broadcastInDim_scalar_apply]
  rfl

/-- A per-row value at every feature reads the row's value. -/
theorem wide_apply (z : FVec Ideal S1024x200x1 .f32) (b : Fin 1024) (l : Fin 200) (d : Fin 128) :
    wide z (ix3 b l d) = z (ix3 b l (0 : Fin 1)) := by
  unfold wide
  refine broadcastInDim_apply _ _ z _ (ix3 b l (0 : Fin 1)) fun a => ?_
  match a with
  | ⟨0, _⟩ => show b.val = if (1024 : Nat) = 1 then 0 else b.val; rw [if_neg (by decide)]
  | ⟨1, _⟩ => show l.val = if (200 : Nat) = 1 then 0 else l.val; rw [if_neg (by decide)]
  | ⟨2, _⟩ => show (0 : Nat) = if (1 : Nat) = 1 then 0 else d.val; rw [if_pos rfl]

/-- A per-feature vector at every row reads the feature's value. -/
theorem vecWide_apply (g : FVec Ideal S128 .f32) (b : Fin 1024) (l : Fin 200) (d : Fin 128) :
    vecWide g (ix3 b l d) = g (ix1 d) := by
  unfold vecWide
  refine (broadcastInDim_apply _ _ _ _ (ix3 (0 : Fin 1) (0 : Fin 1) d) fun a => ?_).trans
    (broadcastInDim_apply _ _ g _ (ix1 d) fun a => ?_)
  · match a with
    | ⟨0, _⟩ => show (0 : Nat) = if (1 : Nat) = 1 then 0 else b.val; rw [if_pos rfl]
    | ⟨1, _⟩ => show (0 : Nat) = if (1 : Nat) = 1 then 0 else l.val; rw [if_pos rfl]
    | ⟨2, _⟩ => show d.val = if (128 : Nat) = 1 then 0 else d.val; rw [if_neg (by decide)]
  · match a with
    | ⟨0, _⟩ => show d.val = if (128 : Nat) = 1 then 0 else d.val; rw [if_neg (by decide)]

/-- The mean stage at row (b, l). -/
theorem meanK_apply (y : FVec Ideal S1024x200x128 .f32) (b : Fin 1024) (l : Fin 200) (u : Fin 1) :
    meanK y (ix3 b l u) = rowMean y b l := by
  unfold meanK rowMean
  rw [hostDivf_apply, keep_apply, rowSum_apply, splat1_apply]

/-- The centred feature at (b, l, d). -/
theorem centred_apply (y : FVec Ideal S1024x200x128 .f32) (b : Fin 1024) (l : Fin 200) (d : Fin 128) :
    centred y (ix3 b l d) = y (ix3 b l d) - rowMean y b l := by
  unfold centred
  rw [subf_apply, wide_apply, meanK_apply]

/-- The mean-square stage at row (b, l). -/
theorem varK_apply (y : FVec Ideal S1024x200x128 .f32) (b : Fin 1024) (l : Fin 200) (u : Fin 1) :
    varK y (ix3 b l u) = rowVar y b l := by
  unfold varK rowVar
  rw [hostDivf_apply, keep_apply, rowSum_apply, splat1_apply]
  refine congrArg (fun s => Ideal.div s _) (Finset.sum_congr rfl fun k _ => ?_)
  rw [mulf_apply, centred_apply]

/-- The square-root stage at row (b, l). -/
theorem stdK_apply (y : FVec Ideal S1024x200x128 .f32) (b : Fin 1024) (l : Fin 200) (u : Fin 1) :
    stdK y (ix3 b l u) = Ideal.sqrt (rowVar y b l + Ideal.ofBits .f32 0x2B8CBCCC#32) := by
  unfold stdK
  show Ideal.sqrt (addf (varK y) (splat1 0x2B8CBCCC#32) (ix3 b l u)) = _
  rw [addf_apply, varK_apply, splat1_apply]

/-- The normalisation at (b, l, d). -/
theorem lnOut_apply (y : FVec Ideal S1024x200x128 .f32) (gamma beta : FVec Ideal S128 .f32)
    (b : Fin 1024) (l : Fin 200) (d : Fin 128) :
    lnOut y gamma beta (ix3 b l d)
      = Ideal.div (y (ix3 b l d) - rowMean y b l) (Ideal.sqrt (rowVar y b l + Ideal.ofBits .f32 0x2B8CBCCC#32))
          * gamma (ix1 d) + beta (ix1 d) := by
  unfold lnOut
  rw [addf_apply, mulf_apply, hostDivf_apply, centred_apply, wide_apply, stdK_apply, vecWide_apply, vecWide_apply]

end Cert.RefNorm

end
-- ==== Proof.RefFinite.lean ====
/-
  With real entries, the mean square of a row's centred entries plus the offset is a positive real.

  Take 128 extended reals that are all real numbers. Their sum is real, so is their mean (the sum times 1/128: the
  word 0x43000000 is 128, which is not zero, so the exact division is multiplication by the real 1/128), so is
  each centred entry and its square, so is the sum of the squares and its mean. A sum of squares is not negative,
  and the offset word is a positive real; so the whole is a positive real.
-/
import Idealize.ShloMosaic.PureOps.Ideal

noncomputable section

open scoped BigOperators

namespace Cert.RefFinite

open Idealize.ShloMosaic

/-- The word `0x43000000` is the real 128. -/
theorem ofBits_128 : Ideal.ofBits .f32 0x43000000#32 = ((128 : ℝ) : EReal) := by
  simp [Ideal.ofBits, Ideal.ieee, -EReal.coe_mul]; norm_num

/-- The offset word `0x2B8CBCCC` is a positive real. -/
theorem ofBits_eps : ∃ e : ℝ, 0 < e ∧ Ideal.ofBits .f32 0x2B8CBCCC#32 = (e : EReal) := by
  simp [Ideal.ofBits, Ideal.ieee, -EReal.coe_mul]

/-- A finite sum of reals, taken in the extended reals, is the real sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The mean square of the centred entries of 128 reals, plus the offset, is a positive real. -/
theorem var_eps_pos (x : Fin 128 → EReal) (hx : ∀ k, ∃ r : ℝ, x k = (r : EReal)) :
    ∃ r : ℝ, 0 < r ∧
      Ideal.div (∑ k : Fin 128, (x k - Ideal.div (∑ k' : Fin 128, x k') (Ideal.ofBits .f32 0x43000000#32))
          * (x k - Ideal.div (∑ k' : Fin 128, x k') (Ideal.ofBits .f32 0x43000000#32)))
        (Ideal.ofBits .f32 0x43000000#32) + Ideal.ofBits .f32 0x2B8CBCCC#32 = (r : EReal) := by
  choose f hf using hx
  obtain ⟨e, he, hee⟩ := ofBits_eps
  obtain rfl : x = fun k => ((f k : ℝ) : EReal) := funext hf
  refine ⟨(∑ k : Fin 128, (f k - (∑ k' : Fin 128, f k') * (1 / 128)) * (f k - (∑ k' : Fin 128, f k') * (1 / 128))) * (1 / 128) + e,
    ?_, ?_⟩
  · have h1 : 0 ≤ ∑ k : Fin 128, (f k - (∑ k' : Fin 128, f k') * (1 / 128)) * (f k - (∑ k' : Fin 128, f k') * (1 / 128)) :=
      Finset.sum_nonneg fun k _ => mul_self_nonneg _
    have h2 : 0 ≤ (∑ k : Fin 128, (f k - (∑ k' : Fin 128, f k') * (1 / 128)) * (f k - (∑ k' : Fin 128, f k') * (1 / 128))) * (1 / 128) :=
      mul_nonneg h1 (by norm_num)
    linarith
  · rw [ofBits_128, hee]
    simp only [Ideal.div_coe (by norm_num : (128 : ℝ) ≠ 0), coe_sum, ← EReal.coe_mul, ← EReal.coe_sub, ← EReal.coe_add]

end Cert.RefFinite

end
-- ==== Proof.RefValue.lean ====
/-
  The reference computes the specification.

  The reference's result, as the staged function of its arguments, is read at an index (b, l, d): the two lookups
  give the table row the index word names plus the position row l, feature by feature, which is the
  specification's x; the normalisation read at an index is (x - mean) / sqrt(var + ε) · gamma + beta with the
  specification's own mean and var. The specification has (x - mean) · rsqrt(var + ε) instead. The two agree
  because var + ε is a POSITIVE REAL: under the precondition the entries of both tables are reals, so the mean,
  the centred features and their mean square are reals, the mean square is not negative, and ε is a positive real.
  For a positive real r the square root is a positive real, division by it is the product with its reciprocal
  (also when the dividend is infinite), and that reciprocal is rsqrt r.
-/
import proofs.«206768_g17686675325131_cont_8to1_990_33_alg».proof.Proof.RefAfter
import proofs.«206768_g17686675325131_cont_8to1_990_33_alg».proof.Proof.RefTake
import proofs.«206768_g17686675325131_cont_8to1_990_33_alg».proof.Proof.RefNorm
import proofs.«206768_g17686675325131_cont_8to1_990_33_alg».proof.Proof.PreFacts
import proofs.«206768_g17686675325131_cont_8to1_990_33_alg».proof.Proof.RefFinite

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.ValueIdx

/-- THE LAW THAT JOINS THE TWO SIDES: dividing by the square root of a positive real is multiplying by its reciprocal
    square root, whatever the dividend (the square root is a positive real, so the division is the product with its
    reciprocal at the infinities too). -/
theorem div_sqrt_eq_mul_rsqrt (a : EReal) (r : ℝ) (hr : 0 < r) :
    Ideal.div a (Ideal.sqrt (r : EReal)) = a * Ideal.rsqrt (r : EReal) := by
  rw [Ideal.sqrt_coe, Ideal.rsqrt_coe, if_neg (not_lt.2 hr.le), if_neg (not_lt.2 hr.le), if_neg hr.ne',
    Ideal.div_coe (Real.sqrt_ne_zero'.2 hr), one_div]

/-- The staged function is the specification, for index words below the table's height and real table entries. -/
theorem refVal_eq_G (ids : IVec S1024x200 32) (W : FVec Ideal S100000x128 .f32) (pos : FVec Ideal S512x128 .f32)
    (gamma beta : FVec Ideal S128 .f32) (hids : ∀ i, (ids i).toNat < 100000)
    (hW : ∀ i, ∃ r : ℝ, W i = (r : EReal)) (hpos : ∀ i, ∃ r : ℝ, pos i = (r : EReal)) :
    refVal ids W pos gamma beta = Cert.Spec.G ids W pos gamma beta := by
  funext j
  obtain ⟨b, l, d, rfl⟩ : ∃ (b : Fin 1024) (l : Fin 200) (d : Fin 128), j = ix3 b l d := ⟨j 0, j 1, j 2, eq_ix3 j⟩
  rw [Cert.Spec.G_ix3]
  unfold refVal
  rw [Cert.RefNorm.lnOut_apply]
  have hy : ∀ k, addf (take0 W ids) (take1 pos posIdx) (ix3 b l k) = Cert.Spec.x ids W pos b l k := fun k => by
    rw [addf_apply, take0_apply W ids hids, take1_apply]; rfl
  have hmean : Cert.RefNorm.rowMean (addf (take0 W ids) (take1 pos posIdx)) b l = Cert.Spec.mean ids W pos b l := by
    unfold Cert.RefNorm.rowMean Cert.Spec.mean
    simp only [hy]
  have hvar : Cert.RefNorm.rowVar (addf (take0 W ids) (take1 pos posIdx)) b l = Cert.Spec.var ids W pos b l := by
    unfold Cert.RefNorm.rowVar Cert.Spec.var Cert.Spec.xc
    rw [hmean]
    simp only [hy]
  rw [hmean, hvar, hy]
  have hx : ∀ k, ∃ r : ℝ, Cert.Spec.x ids W pos b l k = (r : EReal) := fun k => by
    obtain ⟨w, hw⟩ := hW (ix2 (Cert.Spec.rowOf (ids (ix2 b l))) k)
    obtain ⟨p, hp⟩ := hpos (ix2 (Cert.Spec.posRow l) k)
    exact ⟨w + p, by unfold Cert.Spec.x; rw [hw, hp, EReal.coe_add]⟩
  obtain ⟨r, hr, e⟩ := Cert.RefFinite.var_eps_pos (fun k => Cert.Spec.x ids W pos b l k) hx
  have e' : Cert.Spec.var ids W pos b l + Cert.Spec.cEps = (r : EReal) := e
  show Ideal.div (Cert.Spec.xc ids W pos b l d) (Ideal.sqrt (Cert.Spec.var ids W pos b l + Cert.Spec.cEps)) * gamma (ix1 d) + beta (ix1 d)
    = Cert.Spec.xc ids W pos b l d * Ideal.rsqrt (Cert.Spec.var ids W pos b l + Cert.Spec.cEps) * gamma (ix1 d) + beta (ix1 d)
  rw [e', div_sqrt_eq_mul_rsqrt _ r hr]

/-- THE REFERENCE IS THE SPECIFICATION. Under the precondition, the fold of the reference's operations from any
    contents, read at the result buffer, is the specification's function of the contents of the five argument
    buffers. -/
theorem ref_eq_G (V : Valuation τ sig (Elt Ideal))
    (hpre : Cert.Pre_input_domain.fn (F := Ideal) (V (Proc.devRef .tc main_arg0)) (V (Proc.devRef .tc main_arg1))
      (V (Proc.devRef .tc main_arg2)) (V (Proc.devRef .tc main_arg3)) (V (Proc.devRef .tc main_arg4)) = (fun _ => 1#1)) :
    after (Cert.ReferenceIdeal.Hand.ops (F := Ideal)) V (Proc.devRef .tc main_v29)
      = Cert.Spec.G (V (Proc.devRef .tc main_arg0)) (V (Proc.devRef .tc main_arg1)) (V (Proc.devRef .tc main_arg2))
          (V (Proc.devRef .tc main_arg3)) (V (Proc.devRef .tc main_arg4)) :=
  (after_eq V).trans (refVal_eq_G _ _ _ _ _ (Cert.PreFacts.ids_lt _ _ _ _ _ hpre) (Cert.PreFacts.W_real _ _ _ _ _ hpre)
    (Cert.PreFacts.pos_real _ _ _ _ _ hpre))

end Cert.RefValue

end
-- ==== Proof.Value.lean ====
/-
  The value claim. The idealized kernel's result array is the specification's function `G` of the five arguments:
  the gathered rows, reshaped, are the table rows the index words name; the sliced position table is its first 200
  rows; the two reshaped vectors are the scale and the shift; and on those four arrays the normalisation region
  computes `G`, block by block. The reference's result is `G` of its own arguments, which agree with the kernel's.
-/
import proofs.«206768_g17686675325131_cont_8to1_990_33_alg».proof.Defs
import proofs.«206768_g17686675325131_cont_8to1_990_33_alg».proof.Proof.Gen.KernelIdeal
import proofs.«206768_g17686675325131_cont_8to1_990_33_alg».proof.Proof.Gen.ReferenceIdeal
import proofs.«206768_g17686675325131_cont_8to1_990_33_alg».proof.Proof.Gen.Pre_input_domain
import proofs.«206768_g17686675325131_cont_8to1_990_33_alg».proof.Proof.FrameOf
import proofs.«206768_g17686675325131_cont_8to1_990_33_alg».proof.Proof.LnValue
import proofs.«206768_g17686675325131_cont_8to1_990_33_alg».proof.Proof.RefRun
import proofs.«206768_g17686675325131_cont_8to1_990_33_alg».proof.Proof.RefValue

noncomputable section

namespace Cert.Proof.Value

open Idealize.ShloMosaic Idealize.SL.Sem

section Kernel
open Cert.KernelIdeal Cert.KernelIdeal.Launch

/-- The idealized kernel's result array is `G` of its arguments. -/
theorem OutV_eq_G (m : (ℓ : Loc nD τ sig) → Buf (Elt Ideal) ℓ) (c : Dev nD) :
    OutV m c = Cert.Spec.G (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) :=
  Cert.KernelIdeal.LnValue.Out_eq_G (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (X2 m c) (X3 m c) (X4 m c) (X5 m c)
    (fun b l e => Cert.KernelIdeal.HostValue.X2_apply (F := Ideal) _ _ Gen.shapeCasts_S1024x200_S32x50x128 Gen.shapeCasts_S204800x128_S1024x200x128 b l e)
    (fun l e => Cert.KernelIdeal.HostValue.X3_apply (F := Ideal) _ Gen.slices_S512x128_S200x128_0_0 l e)
    (fun e => Cert.KernelIdeal.HostValue.X4_apply (F := Ideal) _ Gen.shapeCasts_S128_S1x128 e)
    (fun e => Cert.KernelIdeal.HostValue.X4_apply (F := Ideal) _ Gen.shapeCasts_S128_S1x128 e)
end Kernel

/-- The reference's frame: its run with the value dropped. -/
theorem frame_ri : Cert.frame_ReferenceIdeal := fun m ρ _ =>
  (θ_run (Cert.ReferenceIdeal.defs (F := Ideal)) _ _).mono (fun _ h c => (h c).2) (Cert.ReferenceIdeal.Hand.run (F := Ideal) m ρ)

/-- Both programs end with `G` of the (agreeing) arguments. -/
theorem algebraic : Cert.algebraic_KernelIdeal_ReferenceIdeal := by
  intro m ρ m' ρ' hpre hagree
  have hpre' : ∀ c : Dev Cert.ReferenceIdeal.nD, Cert.Pre_input_domain.fn (F := Ideal)
      (StableHlo.launchContents m' c (Proc.devRef .tc Cert.ReferenceIdeal.main_arg0)) (StableHlo.launchContents m' c (Proc.devRef .tc Cert.ReferenceIdeal.main_arg1))
      (StableHlo.launchContents m' c (Proc.devRef .tc Cert.ReferenceIdeal.main_arg2)) (StableHlo.launchContents m' c (Proc.devRef .tc Cert.ReferenceIdeal.main_arg3))
      (StableHlo.launchContents m' c (Proc.devRef .tc Cert.ReferenceIdeal.main_arg4)) = (fun _ => 1#1) := by
    intro c
    have h := hpre c
    obtain ⟨e0, e1, e2, e3, e4⟩ := hagree c
    show Cert.Pre_input_domain.fn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
    rw [e0, e1, e2, e3, e4]; exact h
  refine ⟨fun c => Cert.KernelIdeal.Launch.OutV m c, Cert.KernelIdeal.FrameOf.run_of_pre (F := Ideal) m ρ hpre, ?_⟩
  refine (θ_run (Cert.ReferenceIdeal.defs (F := Ideal)) _ _).mono (fun _ h c => ⟨(h c).1.trans ?_, (h c).2⟩) (Cert.ReferenceIdeal.Hand.run (F := Ideal) m' ρ')
  rw [Cert.RefValue.ref_eq_G (StableHlo.launchContents m' c) (hpre' c)]
  obtain ⟨e0, e1, e2, e3, e4⟩ := hagree c
  show Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
  rw [e0, e1, e2, e3, e4]
  exact (OutV_eq_G m c).symm

end Cert.Proof.Value

end
-- ==== Proof.lean ====
/-
  The certificate. Both kernel programs (the word-level one and its idealization, the same text read at two float
  instances) gather, on 32 vector subcores at once, the table rows the index words name, and then normalise each
  gathered row plus its position row on the TensorCore; the reference does the same on the host with the quotient by a
  square root where the kernel multiplies by a reciprocal square root. The three frames are the programs' runs with
  the values dropped; the idealization rewrote nothing; the two idealized programs end with one function of the
  arguments.
-/
import proofs.«206768_g17686675325131_cont_8to1_990_33_alg».proof.Defs
import proofs.«206768_g17686675325131_cont_8to1_990_33_alg».proof.Proof.Gen.Kernel
import proofs.«206768_g17686675325131_cont_8to1_990_33_alg».proof.Proof.Gen.KernelIdeal
import proofs.«206768_g17686675325131_cont_8to1_990_33_alg».proof.Proof.Gen.ReferenceIdeal
import proofs.«206768_g17686675325131_cont_8to1_990_33_alg».proof.Proof.Gen.Pre_input_domain
import proofs.«206768_g17686675325131_cont_8to1_990_33_alg».proof.Proof.FrameOf
import proofs.«206768_g17686675325131_cont_8to1_990_33_alg».proof.Proof.FrameOfBits
import proofs.«206768_g17686675325131_cont_8to1_990_33_alg».proof.Proof.Value

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    fun m ρ hpre => Cert.Kernel.FrameOf.frame_run (F := Bits) m ρ hpre,
    fun m ρ hpre => Cert.KernelIdeal.FrameOf.frame_run (F := Ideal) m ρ hpre,
    Cert.Proof.Value.frame_ri,
    trivial,
    Cert.Proof.Value.algebraic⟩

end Cert.Proof

end
